-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x64 : Shape := ⟨2, ![1000000, 64]⟩
abbrev S192x192 : Shape := ⟨2, ![192, 192]⟩
abbrev S192 : Shape := ⟨1, ![192]⟩
abbrev S1x192 : Shape := ⟨2, ![1, 192]⟩
abbrev S1 : Shape := ⟨1, ![1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_
  bcast_S_S1x192 : S_.BroadcastsInDim S1x192 (![] : Fin 0 → Fin S1x192.rank)
  reducesTo_S1x192_S_d0_1 : S1x192.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part3 {F : FTy → Type} [FloatOps F] (main_arg2 : IVec S16384 32) (main_v47 : IVec S_ 1) (main_v49 : IVec S16384 1) (main_c_19 : IVec S_ 32) : IVec S_ 1 :=
  let main_v50 : IVec S16384 32 := broadcastInDim S16384 ![] bcast_S_S16384 main_c_19
  let main_v51 : IVec S16384 1 := cmpi .sle main_arg2 main_v50
  let main_v52 : IVec S16384 1 := andi main_v49 main_v51
  let main_c_20 : IVec S_ 1 := constantI S_ 1 1#1
  let main_v53 : IVec S_ 1 := (fun x v => Host.reduce IntOp.andi x v reducesTo_S16384_S_d0 h_S_) main_v52 main_c_20
  let main_v54 : IVec S_ 1 := andi main_v47 main_v53
  main_v54

def fn_part2 {F : FTy → Type} [FloatOps F] (main_arg0 : IVec S16384 32) (main_arg1 : IVec S16384 32) (main_arg2 : IVec S16384 32) (main_v33 : IVec S_ 1) : IVec S_ 1 :=
  let main_c_12 : IVec S_ 32 := constantI S_ 32 0#32
  let main_v34 : IVec S16384 32 := broadcastInDim S16384 ![] bcast_S_S16384 main_c_12
  let main_v35 : IVec S16384 1 := cmpi .sge main_arg0 main_v34
  let main_c_13 : IVec S_ 32 := constantI S_ 32 999999#32
  let main_v36 : IVec S16384 32 := broadcastInDim S16384 ![] bcast_S_S16384 main_c_13
  let main_v37 : IVec S16384 1 := cmpi .sle main_arg0 main_v36
  let main_v38 : IVec S16384 1 := andi main_v35 main_v37
  let main_c_14 : IVec S_ 1 := constantI S_ 1 1#1
  let main_v39 : IVec S_ 1 := (fun x v => Host.reduce IntOp.andi x v reducesTo_S16384_S_d0 h_S_) main_v38 main_c_14
  let main_v40 : IVec S_ 1 := andi main_v33 main_v39
  let main_c_15 : IVec S_ 32 := constantI S_ 32 0#32
  let main_v41 : IVec S16384 32 := broadcastInDim S16384 ![] bcast_S_S16384 main_c_15
  let main_v42 : IVec S16384 1 := cmpi .sge main_arg1 main_v41
  let main_c_16 : IVec S_ 32 := constantI S_ 32 999999#32
  let main_v43 : IVec S16384 32 := broadcastInDim S16384 ![] bcast_S_S16384 main_c_16
  let main_v44 : IVec S16384 1 := cmpi .sle main_arg1 main_v43
  let main_v45 : IVec S16384 1 := andi main_v42 main_v44
  let main_c_17 : IVec S_ 1 := constantI S_ 1 1#1
  let main_v46 : IVec S_ 1 := (fun x v => Host.reduce IntOp.andi x v reducesTo_S16384_S_d0 h_S_) main_v45 main_c_17
  let main_v47 : IVec S_ 1 := andi main_v40 main_v46
  let main_c_18 : IVec S_ 32 := constantI S_ 32 0#32
  let main_v48 : IVec S16384 32 := broadcastInDim S16384 ![] bcast_S_S16384 main_c_18
  let main_v49 : IVec S16384 1 := cmpi .sge main_arg2 main_v48
  let main_c_19 : IVec S_ 32 := constantI S_ 32 999999#32
  fn_part3 (F := F) main_arg2 main_v47 main_v49 main_c_19

def fn_part1 {F : FTy → Type} [FloatOps F] (main_arg0 : IVec S16384 32) (main_arg1 : IVec S16384 32) (main_arg2 : IVec S16384 32) (main_arg7 : FVec F S192 .f32) (main_arg8 : FVec F S1x192 .f32) (main_arg9 : FVec F S1 .f32) (main_v13 : IVec S_ 1) (main_v16 : IVec S192x192 1) : IVec S_ 1 :=
  let main_c_5 : IVec S_ 1 := constantI S_ 1 1#1
  let main_v17 : IVec S_ 1 := (fun x v => Host.reduce IntOp.andi x v reducesTo_S192x192_S_d0_1 h_S_) main_v16 main_c_5
  let main_v18 : IVec S_ 1 := andi main_v13 main_v17
  let main_v19 : FVec F S192 .f32 := Host.absf main_arg7
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S1x192 .f32 := Host.absf main_arg8
  let main_cst_8 : FVec F S_ .f32 := constant S_ .f32 0x7F800000#32
  let main_v25 : FVec F S1x192 .f32 := broadcastInDim S1x192 ![] bcast_S_S1x192 main_cst_8
  let main_v26 : IVec S1x192 1 := cmpf .olt main_v24 main_v25
  let main_c_9 : IVec S_ 1 := constantI S_ 1 1#1
  let main_v27 : IVec S_ 1 := (fun x v => Host.reduce IntOp.andi x v reducesTo_S1x192_S_d0_1 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg0 main_arg1 main_arg2 main_v33

def fn {F : FTy → Type} [FloatOps F] (main_arg0 : IVec S16384 32) (main_arg1 : IVec S16384 32) (main_arg2 : IVec S16384 32) (main_arg3 : FVec F S1000000x64 .f32) (main_arg4 : FVec F S1000000x64 .f32) (main_arg5 : FVec F S1000000x64 .f32) (main_arg6 : FVec F S192x192 .f32) (main_arg7 : FVec F S192 .f32) (main_arg8 : FVec F S1x192 .f32) (main_arg9 : FVec F S1 .f32) : IVec S_ 1 :=
  let main_v0 : FVec F S1000000x64 .f32 := Host.absf main_arg3
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg4
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S1000000x64 .f32 := Host.absf main_arg5
  let main_cst_2 : FVec F S_ .f32 := constant S_ .f32 0x7F800000#32
  let main_v10 : FVec F S1000000x64 .f32 := broadcastInDim S1000000x64 ![] bcast_S_S1000000x64 main_cst_2
  let main_v11 : IVec S1000000x64 1 := cmpf .olt main_v9 main_v10
  let main_c_3 : IVec S_ 1 := constantI S_ 1 1#1
  let main_v12 : IVec S_ 1 := (fun x v => Host.reduce IntOp.andi x v reducesTo_S1000000x64_S_d0_1 h_S_) main_v11 main_c_3
  let main_v13 : IVec S_ 1 := andi main_v8 main_v12
  let main_v14 : FVec F S192x192 .f32 := Host.absf main_arg6
  let main_cst_4 : FVec F S_ .f32 := constant S_ .f32 0x7F800000#32
  let main_v15 : FVec F S192x192 .f32 := broadcastInDim S192x192 ![] bcast_S_S192x192 main_cst_4
  let main_v16 : IVec S192x192 1 := cmpf .olt main_v14 main_v15
  fn_part1 (F := F) main_arg0 main_arg1 main_arg2 main_arg7 main_arg8 main_arg9 main_v13 main_v16
-- ==== Kernel.lean ====
abbrev S16384 : Shape := ⟨1, ![16384]⟩
abbrev S1000000x64 : Shape := ⟨2, ![1000000, 64]⟩
abbrev S192x192 : Shape := ⟨2, ![192, 192]⟩
abbrev S192 : Shape := ⟨1, ![192]⟩
abbrev S1x192 : Shape := ⟨2, ![1, 192]⟩
abbrev S1 : Shape := ⟨1, ![1]⟩
abbrev S125000x8x64 : Shape := ⟨3, ![125000, 8, 64]⟩
abbrev S16384x1x64 : Shape := ⟨3, ![16384, 1, 64]⟩
abbrev S512 : Shape := ⟨1, ![512]⟩
abbrev S512x1x64 : Shape := ⟨3, ![512, 1, 64]⟩
abbrev S_ : Shape := ⟨0, ![]⟩
abbrev S16 : Shape := ⟨1, ![16]⟩
abbrev S1x1x64 : Shape := ⟨3, ![1, 1, 64]⟩
abbrev S16384x64 : Shape := ⟨2, ![16384, 64]⟩
abbrev S192x1 : Shape := ⟨2, ![192, 1]⟩
abbrev S1x1 : Shape := ⟨2, ![1, 1]⟩
abbrev S16384x1 : Shape := ⟨2, ![16384, 1]⟩
abbrev S4096x64 : Shape := ⟨2, ![4096, 64]⟩
abbrev S4096x1 : Shape := ⟨2, ![4096, 1]⟩
abbrev S3 : Shape := ⟨1, ![3]⟩
abbrev S1x192x1 : Shape := ⟨3, ![1, 192, 1]⟩
abbrev S1x1x1 : Shape := ⟨3, ![1, 1, 1]⟩
abbrev S4096x192 : Shape := ⟨2, ![4096, 192]⟩
abbrev S1x4096x64 : Shape := ⟨3, ![1, 4096, 64]⟩

abbrev nBuf : Table → Nat
  | .hbm => 26
  | .local .tc .vmem => 13
  | .local .tc .smem => 1
  | .local .scVector .vmem => 2
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S1000000x64, .f32⟩
  | .hbm, ⟨4, _⟩ => ⟨S1000000x64, .f32⟩
  | .hbm, ⟨5, _⟩ => ⟨S1000000x64, .f32⟩
  | .hbm, ⟨6, _⟩ => ⟨S192x192, .f32⟩
  | .hbm, ⟨7, _⟩ => ⟨S192, .f32⟩
  | .hbm, ⟨8, _⟩ => ⟨S1x192, .f32⟩
  | .hbm, ⟨9, _⟩ => ⟨S1, .f32⟩
  | .hbm, ⟨10, _⟩ => ⟨S125000x8x64, .f32⟩
  | .hbm, ⟨11, _⟩ => ⟨S125000x8x64, .f32⟩
  | .hbm, ⟨12, _⟩ => ⟨S125000x8x64, .f32⟩
  | .hbm, ⟨13, _⟩ => ⟨S16384x1x64, .f32⟩
  | .hbm, ⟨14, _⟩ => ⟨S16384x1x64, .f32⟩
  | .hbm, ⟨15, _⟩ => ⟨S16384x1x64, .f32⟩
  | .hbm, ⟨16, _⟩ => ⟨S16384x64, .f32⟩
  | .hbm, ⟨17, _⟩ => ⟨S16384x64, .f32⟩
  | .hbm, ⟨18, _⟩ => ⟨S16384x64, .f32⟩
  | .hbm, ⟨19, _⟩ => ⟨S192x192, .f32⟩
  | .hbm, ⟨20, _⟩ => ⟨S1x192, .f32⟩
  | .hbm, ⟨21, _⟩ => ⟨S192x1, .f32⟩
  | .hbm, ⟨22, _⟩ => ⟨S1x1, .f32⟩
  | .hbm, ⟨23, _⟩ => ⟨S16384x1, .f32⟩
  | .hbm, ⟨24, _⟩ => ⟨S1x1, .f32⟩
  | .hbm, ⟨25, _⟩ => ⟨S_, .f32⟩
  | .local .tc .vmem, ⟨0, _⟩ => ⟨S4096x64, .f32⟩
  | .local .tc .vmem, ⟨1, _⟩ => ⟨S4096x64, .f32⟩
  | .local .tc .vmem, ⟨2, _⟩ => ⟨S4096x64, .f32⟩
  | .local .tc .vmem, ⟨3, _⟩ => ⟨S4096x64, .f32⟩
  | .local .tc .vmem, ⟨4, _⟩ => ⟨S4096x64, .f32⟩
  | .local .tc .vmem, ⟨5, _⟩ => ⟨S4096x64, .f32⟩
  | .local .tc .vmem, ⟨6, _⟩ => ⟨S192x192, .f32⟩
  | .local .tc .vmem, ⟨7, _⟩ => ⟨S1x192, .f32⟩
  | .local .tc .vmem, ⟨8, _⟩ => ⟨S192x1, .f32⟩
  | .local .tc .vmem, ⟨9, _⟩ => ⟨S1x1, .f32⟩
  | .local .tc .vmem, ⟨10, _⟩ => ⟨S4096x1, .f32⟩
  | .local .tc .vmem, ⟨11, _⟩ => ⟨S4096x1, .f32⟩
  | .local .tc .vmem, ⟨12, _⟩ => ⟨S1x1, .f32⟩
  | .local .tc .smem, ⟨0, _⟩ => ⟨S3, .f32⟩
  | .local .scVector .vmem, ⟨0, _⟩ => ⟨S512, .i32⟩
  | .local .scVector .vmem, ⟨1, _⟩ => ⟨S512x1x64, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v12 : Ref sig .tc := ⟨.hbm, 25, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 10, rfl⟩
abbrev main_v1_scv : Ref sig .scVector := ⟨.hbm, 11, rfl⟩
abbrev main_v2_scv : Ref sig .scVector := ⟨.hbm, 12, rfl⟩
abbrev main_v3_0_scv : Ref sig .scVector := ⟨.hbm, 13, rfl⟩
abbrev main_v3_1_scv : Ref sig .scVector := ⟨.hbm, 14, rfl⟩
abbrev main_v3_2_scv : Ref sig .scVector := ⟨.hbm, 15, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg7_1 : Ref sig .tc := ⟨.vmem, 11, rfl⟩
abbrev cc1_stg8_0 : Ref sig .tc := ⟨.vmem, 12, rfl⟩
abbrev cc1_scratch0 : Ref sig .tc := ⟨.smem, 0, rfl⟩
abbrev cc0_scratch0 : Ref sig .scVector := ⟨.vmem, 0, rfl⟩
abbrev cc0_scratch1 : Ref sig .scVector := ⟨.vmem, 1, rfl⟩
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc1_sem8_0 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg14 : BitVec 32 := Scf.iv c0_i32_0 c1_i32 k0_t1
  let c16_i32 : BitVec 32 := 16#32
  let v15 : BitVec 32 := Scalar.muli arg14 c16_i32
  let v16 : Index := Scalar.indexCast v15
  ![v16.toNat]
def k0_off3 (k0_t1 : Fin k0_t1_loop.trips) : Fin 3 → Nat :=
  let c0_i32_0 : BitVec 32 := 0#32
  let c1_i32 : BitVec 32 := 1#32
  let arg14 : BitVec 32 := Scf.iv c0_i32_0 c1_i32 k0_t1
  let c16_i32_30 : BitVec 32 := 16#32
  let v27 : BitVec 32 := Scalar.muli arg14 c16_i32_30
  let c0_i32_31 : BitVec 32 := 0#32
  let v28 : BitVec 32 := Scalar.addi v27 c0_i32_31
  let c0_i32_32 : BitVec 32 := 0#32
  let c0_i32_33 : BitVec 32 := 0#32
  ![v28.toNat, 0, 0]
def k0_off4 (v24 : BitVec 32) (v26 : BitVec 32) : Fin 3 → Nat :=
  let c0_i32_34 : BitVec 32 := 0#32
  ![v24.toNat, v26.toNat, 0]

def k0_chk1 (v24 : BitVec 32) (v26 : BitVec 32) : Prop :=
  (∀ a, (k0_off4 v24 v26) a + S1x1x64.size a ≤ S125000x8x64.size a)
instance k0_chk1.dec : ∀ (v24 : BitVec 32) (v26 : BitVec 32), Decidable (k0_chk1 v24 v26) := fun v24 v26 => decidable_of_iff' _ (Iff.of_eq (k0_chk1.eq_1 v24 v26))
theorem k0_off4_inb : ∀ (v24 : BitVec 32) (v26 : BitVec 32) (k0_hw1 : k0_chk1 v24 v26), ∀ a, (k0_off4 v24 v26) a + S1x1x64.size a ≤ S125000x8x64.size a := fun v24 v26 k0_hw1 => k0_hw1

def k0_off5 (k0_t1 : Fin k0_t1_loop.trips) (c0_i32_31 : BitVec 32) : Fin 3 → Nat :=
  let c0_i32_0 : BitVec 32 := 0#32
  let c1_i32 : BitVec 32 := 1#32
  let arg14 : BitVec 32 := Scf.iv c0_i32_0 c1_i32 k0_t1
  let c16_i32_30 : BitVec 32 := 16#32
  let v27 : BitVec 32 := Scalar.muli arg14 c16_i32_30
  let v28 : BitVec 32 := Scalar.addi v27 c0_i32_31
  let c0_i32_35 : BitVec 32 := 0#32
  let c0_i32_36 : BitVec 32 := 0#32
  ![v28.toNat, 0, 0]
def k0_off6 (v34 : BitVec 32) (v36 : BitVec 32) : Fin 3 → Nat :=
  let c0_i32_42 : BitVec 32 := 0#32
  ![v34.toNat, v36.toNat, 0]

def k0_chk2 (v34 : BitVec 32) (v36 : BitVec 32) : Prop :=
  (∀ a, (k0_off6 v34 v36) a + S1x1x64.size a ≤ S125000x8x64.size a)
instance k0_chk2.dec : ∀ (v34 : BitVec 32) (v36 : BitVec 32), Decidable (k0_chk2 v34 v36) := fun v34 v36 => decidable_of_iff' _ (Iff.of_eq (k0_chk2.eq_1 v34 v36))
theorem k0_off6_inb : ∀ (v34 : BitVec 32) (v36 : BitVec 32) (k0_hw2 : k0_chk2 v34 v36), ∀ a, (k0_off6 v34 v36) a + S1x1x64.size a ≤ S125000x8x64.size a := fun v34 v36 k0_hw2 => k0_hw2

def k0_off7 (k0_t1 : Fin k0_t1_loop.trips) (c1_i32_39 : BitVec 32) : Fin 3 → Nat :=
  let c0_i32_0 : BitVec 32 := 0#32
  let c1_i32 : BitVec 32 := 1#32
  let arg14 : BitVec 32 := Scf.iv c0_i32_0 c1_i32 k0_t1
  let c16_i32_38 : BitVec 32 := 16#32
  let v37 : BitVec 32 := Scalar.muli arg14 c16_i32_38
  let v38 : BitVec 32 := Scalar.addi v37 c1_i32_39
  let c0_i32_43 : BitVec 32 := 0#32
  let c0_i32_44 : BitVec 32 := 0#32
  ![v38.toNat, 0, 0]
def k0_off8 (v44 : BitVec 32) (v46 : BitVec 32) : Fin 3 → Nat :=
  let c0_i32_50 : BitVec 32 := 0#32
  ![v44.toNat, v46.toNat, 0]

def k0_chk3 (v44 : BitVec 32) (v46 : BitVec 32) : Prop :=
  (∀ a, (k0_off8 v44 v46) a + S1x1x64.size a ≤ S125000x8x64.size a)
instance k0_chk3.dec : ∀ (v44 : BitVec 32) (v46 : BitVec 32), Decidable (k0_chk3 v44 v46) := fun v44 v46 => decidable_of_iff' _ (Iff.of_eq (k0_chk3.eq_1 v44 v46))
theorem k0_off8_inb : ∀ (v44 : BitVec 32) (v46 : BitVec 32) (k0_hw3 : k0_chk3 v44 v46), ∀ a, (k0_off8 v44 v46) a + S1x1x64.size a ≤ S125000x8x64.size a := fun v44 v46 k0_hw3 => k0_hw3

def k0_off9 (k0_t1 : Fin k0_t1_loop.trips) (c2_i32_47 : BitVec 32) : Fin 3 → Nat :=
  let c0_i32_0 : BitVec 32 := 0#32
  let c1_i32 : BitVec 32 := 1#32
  let arg14 : BitVec 32 := Scf.iv c0_i32_0 c1_i32 k0_t1
  let c16_i32_46 : BitVec 32 := 16#32
  let v47 : BitVec 32 := Scalar.muli arg14 c16_i32_46
  let v48 : BitVec 32 := Scalar.addi v47 c2_i32_47
  let c0_i32_51 : BitVec 32 := 0#32
  let c0_i32_52 : BitVec 32 := 0#32
  ![v48.toNat, 0, 0]
def k0_off10 (v54 : BitVec 32) (v56 : BitVec 32) : Fin 3 → Nat :=
  let c0_i32_58 : BitVec 32 := 0#32
  ![v54.toNat, v56.toNat, 0]

def k0_chk4 (v54 : BitVec 32) (v56 : BitVec 32) : Prop :=
  (∀ a, (k0_off10 v54 v56) a + S1x1x64.size a ≤ S125000x8x64.size a)
instance k0_chk4.dec : ∀ (v54 : BitVec 32) (v56 : BitVec 32), Decidable (k0_chk4 v54 v56) := fun v54 v56 => decidable_of_iff' _ (Iff.of_eq (k0_chk4.eq_1 v54 v56))
theorem k0_off10_inb : ∀ (v54 : BitVec 32) (v56 : BitVec 32) (k0_hw4 : k0_chk4 v54 v56), ∀ a, (k0_off10 v54 v56) a + S1x1x64.size a ≤ S125000x8x64.size a := fun v54 v56 k0_hw4 => k0_hw4

def k0_off11 (k0_t1 : Fin k0_t1_loop.trips) (c3_i32_55 : BitVec 32) : Fin 3 → Nat :=
  let c0_i32_0 : BitVec 32 := 0#32
  let c1_i32 : BitVec 32 := 1#32
  let arg14 : BitVec 32 := Scf.iv c0_i32_0 c1_i32 k0_t1
  let c16_i32_54 : BitVec 32 := 16#32
  let v57 : BitVec 32 := Scalar.muli arg14 c16_i32_54
  let v58 : BitVec 32 := Scalar.addi v57 c3_i32_55
  let c0_i32_59 : BitVec 32 := 0#32
  let c0_i32_60 : BitVec 32 := 0#32
  ![v58.toNat, 0, 0]
def k0_off12 (v64 : BitVec 32) (v66 : BitVec 32) : Fin 3 → Nat :=
  let c0_i32_65 : BitVec 32 := 0#32
  ![v64.toNat, v66.toNat, 0]

def k0_chk5 (v64 : BitVec 32) (v66 : BitVec 32) : Prop :=
  (∀ a, (k0_off12 v64 v66) a + S1x1x64.size a ≤ S125000x8x64.size a)
instance k0_chk5.dec : ∀ (v64 : BitVec 32) (v66 : BitVec 32), Decidable (k0_chk5 v64 v66) := fun v64 v66 => decidable_of_iff' _ (Iff.of_eq (k0_chk5.eq_1 v64 v66))
theorem k0_off12_inb : ∀ (v64 : BitVec 32) (v66 : BitVec 32) (k0_hw5 : k0_chk5 v64 v66), ∀ a, (k0_off12 v64 v66) a + S1x1x64.size a ≤ S125000x8x64.size a := fun v64 v66 k0_hw5 => k0_hw5

def k0_off13 (k0_t1 : Fin k0_t1_loop.trips) (c4_i32 : BitVec 32) : Fin 3 → Nat :=
  let c0_i32_0 : BitVec 32 := 0#32
  let c1_i32 : BitVec 32 := 1#32
  let arg14 : BitVec 32 := Scf.iv c0_i32_0 c1_i32 k0_t1
  let c16_i32_62 : BitVec 32 := 16#32
  let v67 : BitVec 32 := Scalar.muli arg14 c16_i32_62
  let v68 : BitVec 32 := Scalar.addi v67 c4_i32
  let c0_i32_66 : BitVec 32 := 0#32
  let c0_i32_67 : BitVec 32 := 0#32
  ![v68.toNat, 0, 0]
def k0_off14 (v74 : BitVec 32) (v76 : BitVec 32) : Fin 3 → Nat :=
  let c0_i32_72 : BitVec 32 := 0#32
  ![v74.toNat, v76.toNat, 0]

def k0_chk6 (v74 : BitVec 32) (v76 : BitVec 32) : Prop :=
  (∀ a, (k0_off14 v74 v76) a + S1x1x64.size a ≤ S125000x8x64.size a)
instance k0_chk6.dec : ∀ (v74 : BitVec 32) (v76 : BitVec 32), Decidable (k0_chk6 v74 v76) := fun v74 v76 => decidable_of_iff' _ (Iff.of_eq (k0_chk6.eq_1 v74 v76))
theorem k0_off14_inb : ∀ (v74 : BitVec 32) (v76 : BitVec 32) (k0_hw6 : k0_chk6 v74 v76), ∀ a, (k0_off14 v74 v76) a + S1x1x64.size a ≤ S125000x8x64.size a := fun v74 v76 k0_hw6 => k0_hw6

def k0_off15 (k0_t1 : Fin k0_t1_loop.trips) (c5_i32 : BitVec 32) : Fin 3 → Nat :=
  let c0_i32_0 : BitVec 32 := 0#32
  let c1_i32 : BitVec 32 := 1#32
  let arg14 : BitVec 32 := Scf.iv c0_i32_0 c1_i32 k0_t1
  let c16_i32_69 : BitVec 32 := 16#32
  let v77 : BitVec 32 := Scalar.muli arg14 c16_i32_69
  let v78 : BitVec 32 := Scalar.addi v77 c5_i32
  let c0_i32_73 : BitVec 32 := 0#32
  let c0_i32_74 : BitVec 32 := 0#32
  ![v78.toNat, 0, 0]
def k0_off16 (v84 : BitVec 32) (v86 : BitVec 32) : Fin 3 → Nat :=
  let c0_i32_79 : BitVec 32 := 0#32
  ![v84.toNat, v86.toNat, 0]

def k0_chk7 (v84 : BitVec 32) (v86 : BitVec 32) : Prop :=
  (∀ a, (k0_off16 v84 v86) a + S1x1x64.size a ≤ S125000x8x64.size a)
instance k0_chk7.dec : ∀ (v84 : BitVec 32) (v86 : BitVec 32), Decidable (k0_chk7 v84 v86) := fun v84 v86 => decidable_of_iff' _ (Iff.of_eq (k0_chk7.eq_1 v84 v86))
theorem k0_off16_inb : ∀ (v84 : BitVec 32) (v86 : BitVec 32) (k0_hw7 : k0_chk7 v84 v86), ∀ a, (k0_off16 v84 v86) a + S1x1x64.size a ≤ S125000x8x64.size a := fun v84 v86 k0_hw7 => k0_hw7

def k0_off17 (k0_t1 : Fin k0_t1_loop.trips) (c6_i32 : BitVec 32) : Fin 3 → Nat :=
  let c0_i32_0 : BitVec 32 := 0#32
  let c1_i32 : BitVec 32 := 1#32
  let arg14 : BitVec 32 := Scf.iv c0_i32_0 c1_i32 k0_t1
  let c16_i32_76 : BitVec 32 := 16#32
  let v87 : BitVec 32 := Scalar.muli arg14 c16_i32_76
  let v88 : BitVec 32 := Scalar.addi v87 c6_i32
  let c0_i32_80 : BitVec 32 := 0#32
  let c0_i32_81 : BitVec 32 := 0#32
  ![v88.toNat, 0, 0]
def k0_off18 (v94 : BitVec 32) (v96 : BitVec 32) : Fin 3 → Nat :=
  let c0_i32_87 : BitVec 32 := 0#32
  ![v94.toNat, v96.toNat, 0]

def k0_chk8 (v94 : BitVec 32) (v96 : BitVec 32) : Prop :=
  (∀ a, (k0_off18 v94 v96) a + S1x1x64.size a ≤ S125000x8x64.size a)
instance k0_chk8.dec : ∀ (v94 : BitVec 32) (v96 : BitVec 32), Decidable (k0_chk8 v94 v96) := fun v94 v96 => decidable_of_iff' _ (Iff.of_eq (k0_chk8.eq_1 v94 v96))
theorem k0_off18_inb : ∀ (v94 : BitVec 32) (v96 : BitVec 32) (k0_hw8 : k0_chk8 v94 v96), ∀ a, (k0_off18 v94 v96) a + S1x1x64.size a ≤ S125000x8x64.size a := fun v94 v96 k0_hw8 => k0_hw8

def k0_off19 (k0_t1 : Fin k0_t1_loop.trips) (c7_i32_84 : BitVec 32) : Fin 3 → Nat :=
  let c0_i32_0 : BitVec 32 := 0#32
  let c1_i32 : BitVec 32 := 1#32
  let arg14 : BitVec 32 := Scf.iv c0_i32_0 c1_i32 k0_t1
  let c16_i32_83 : BitVec 32 := 16#32
  let v97 : BitVec 32 := Scalar.muli arg14 c16_i32_83
  let v98 : BitVec 32 := Scalar.addi v97 c7_i32_84
  let c0_i32_88 : BitVec 32 := 0#32
  let c0_i32_89 : BitVec 32 := 0#32
  ![v98.toNat, 0, 0]
def k0_off20 (v104 : BitVec 32) (v106 : BitVec 32) : Fin 3 → Nat :=
  let c0_i32_94 : BitVec 32 := 0#32
  ![v104.toNat, v106.toNat, 0]

def k0_chk9 (v104 : BitVec 32) (v106 : BitVec 32) : Prop :=
  (∀ a, (k0_off20 v104 v106) a + S1x1x64.size a ≤ S125000x8x64.size a)
instance k0_chk9.dec : ∀ (v104 : BitVec 32) (v106 : BitVec 32), Decidable (k0_chk9 v104 v106) := fun v104 v106 => decidable_of_iff' _ (Iff.of_eq (k0_chk9.eq_1 v104 v106))
theorem k0_off20_inb : ∀ (v104 : BitVec 32) (v106 : BitVec 32) (k0_hw9 : k0_chk9 v104 v106), ∀ a, (k0_off20 v104 v106) a + S1x1x64.size a ≤ S125000x8x64.size a := fun v104 v106 k0_hw9 => k0_hw9

def k0_off21 (k0_t1 : Fin k0_t1_loop.trips) (c8_i32 : BitVec 32) : Fin 3 → Nat :=
  let c0_i32_0 : BitVec 32 := 0#32
  let c1_i32 : BitVec 32 := 1#32
  let arg14 : BitVec 32 := Scf.iv c0_i32_0 c1_i32 k0_t1
  let c16_i32_91 : BitVec 32 := 16#32
  let v107 : BitVec 32 := Scalar.muli arg14 c16_i32_91
  let v108 : BitVec 32 := Scalar.addi v107 c8_i32
  let c0_i32_95 : BitVec 32 := 0#32
  let c0_i32_96 : BitVec 32 := 0#32
  ![v108.toNat, 0, 0]
def k0_off22 (v114 : BitVec 32) (v116 : BitVec 32) : Fin 3 → Nat :=
  let c0_i32_101 : BitVec 32 := 0#32
  ![v114.toNat, v116.toNat, 0]

def k0_chk10 (v114 : BitVec 32) (v116 : BitVec 32) : Prop :=
  (∀ a, (k0_off22 v114 v116) a + S1x1x64.size a ≤ S125000x8x64.size a)
instance k0_chk10.dec : ∀ (v114 : BitVec 32) (v116 : BitVec 32), Decidable (k0_chk10 v114 v116) := fun v114 v116 => decidable_of_iff' _ (Iff.of_eq (k0_chk10.eq_1 v114 v116))
theorem k0_off22_inb : ∀ (v114 : BitVec 32) (v116 : BitVec 32) (k0_hw10 : k0_chk10 v114 v116), ∀ a, (k0_off22 v114 v116) a + S1x1x64.size a ≤ S125000x8x64.size a := fun v114 v116 k0_hw10 => k0_hw10

def k0_off23 (k0_t1 : Fin k0_t1_loop.trips) (c9_i32 : BitVec 32) : Fin 3 → Nat :=
  let c0_i32_0 : BitVec 32 := 0#32
  let c1_i32 : BitVec 32 := 1#32
  let arg14 : BitVec 32 := Scf.iv c0_i32_0 c1_i32 k0_t1
  let c16_i32_98 : BitVec 32 := 16#32
  let v117 : BitVec 32 := Scalar.muli arg14 c16_i32_98
  let v118 : BitVec 32 := Scalar.addi v117 c9_i32
  let c0_i32_102 : BitVec 32 := 0#32
  let c0_i32_103 : BitVec 32 := 0#32
  ![v118.toNat, 0, 0]
def k0_off24 (v124 : BitVec 32) (v126 : BitVec 32) : Fin 3 → Nat :=
  let c0_i32_108 : BitVec 32 := 0#32
  ![v124.toNat, v126.toNat, 0]

def k0_chk11 (v124 : BitVec 32) (v126 : BitVec 32) : Prop :=
  (∀ a, (k0_off24 v124 v126) a + S1x1x64.size a ≤ S125000x8x64.size a)
instance k0_chk11.dec : ∀ (v124 : BitVec 32) (v126 : BitVec 32), Decidable (k0_chk11 v124 v126) := fun v124 v126 => decidable_of_iff' _ (Iff.of_eq (k0_chk11.eq_1 v124 v126))
theorem k0_off24_inb : ∀ (v124 : BitVec 32) (v126 : BitVec 32) (k0_hw11 : k0_chk11 v124 v126), ∀ a, (k0_off24 v124 v126) a + S1x1x64.size a ≤ S125000x8x64.size a := fun v124 v126 k0_hw11 => k0_hw11

def k0_off25 (k0_t1 : Fin k0_t1_loop.trips) (c10_i32 : BitVec 32) : Fin 3 → Nat :=
  let c0_i32_0 : BitVec 32 := 0#32
  let c1_i32 : BitVec 32 := 1#32
  let arg14 : BitVec 32 := Scf.iv c0_i32_0 c1_i32 k0_t1
  let c16_i32_105 : BitVec 32 := 16#32
  let v127 : BitVec 32 := Scalar.muli arg14 c16_i32_105
  let v128 : BitVec 32 := Scalar.addi v127 c10_i32
  let c0_i32_109 : BitVec 32 := 0#32
  let c0_i32_110 : BitVec 32 := 0#32
  ![v128.toNat, 0, 0]
def k0_off26 (v134 : BitVec 32) (v136 : BitVec 32) : Fin 3 → Nat :=
  let c0_i32_115 : BitVec 32 := 0#32
  ![v134.toNat, v136.toNat, 0]

def k0_chk12 (v134 : BitVec 32) (v136 : BitVec 32) : Prop :=
  (∀ a, (k0_off26 v134 v136) a + S1x1x64.size a ≤ S125000x8x64.size a)
instance k0_chk12.dec : ∀ (v134 : BitVec 32) (v136 : BitVec 32), Decidable (k0_chk12 v134 v136) := fun v134 v136 => decidable_of_iff' _ (Iff.of_eq (k0_chk12.eq_1 v134 v136))
theorem k0_off26_inb : ∀ (v134 : BitVec 32) (v136 : BitVec 32) (k0_hw12 : k0_chk12 v134 v136), ∀ a, (k0_off26 v134 v136) a + S1x1x64.size a ≤ S125000x8x64.size a := fun v134 v136 k0_hw12 => k0_hw12

def k0_off27 (k0_t1 : Fin k0_t1_loop.trips) (c11_i32 : BitVec 32) : Fin 3 → Nat :=
  let c0_i32_0 : BitVec 32 := 0#32
  let c1_i32 : BitVec 32 := 1#32
  let arg14 : BitVec 32 := Scf.iv c0_i32_0 c1_i32 k0_t1
  let c16_i32_112 : BitVec 32 := 16#32
  let v137 : BitVec 32 := Scalar.muli arg14 c16_i32_112
  let v138 : BitVec 32 := Scalar.addi v137 c11_i32
  let c0_i32_116 : BitVec 32 := 0#32
  let c0_i32_117 : BitVec 32 := 0#32
  ![v138.toNat, 0, 0]
def k0_off28 (v144 : BitVec 32) (v146 : BitVec 32) : Fin 3 → Nat :=
  let c0_i32_122 : BitVec 32 := 0#32
  ![v144.toNat, v146.toNat, 0]

def k0_chk13 (v144 : BitVec 32) (v146 : BitVec 32) : Prop :=
  (∀ a, (k0_off28 v144 v146) a + S1x1x64.size a ≤ S125000x8x64.size a)
instance k0_chk13.dec : ∀ (v144 : BitVec 32) (v146 : BitVec 32), Decidable (k0_chk13 v144 v146) := fun v144 v146 => decidable_of_iff' _ (Iff.of_eq (k0_chk13.eq_1 v144 v146))
theorem k0_off28_inb : ∀ (v144 : BitVec 32) (v146 : BitVec 32) (k0_hw13 : k0_chk13 v144 v146), ∀ a, (k0_off28 v144 v146) a + S1x1x64.size a ≤ S125000x8x64.size a := fun v144 v146 k0_hw13 => k0_hw13

def k0_off29 (k0_t1 : Fin k0_t1_loop.trips) (c12_i32 : BitVec 32) : Fin 3 → Nat :=
  let c0_i32_0 : BitVec 32 := 0#32
  let c1_i32 : BitVec 32 := 1#32
  let arg14 : BitVec 32 := Scf.iv c0_i32_0 c1_i32 k0_t1
  let c16_i32_119 : BitVec 32 := 16#32
  let v147 : BitVec 32 := Scalar.muli arg14 c16_i32_119
  let v148 : BitVec 32 := Scalar.addi v147 c12_i32
  let c0_i32_123 : BitVec 32 := 0#32
  let c0_i32_124 : BitVec 32 := 0#32
  ![v148.toNat, 0, 0]
def k0_off30 (v154 : BitVec 32) (v156 : BitVec 32) : Fin 3 → Nat :=
  let c0_i32_129 : BitVec 32 := 0#32
  ![v154.toNat, v156.toNat, 0]

def k0_chk14 (v154 : BitVec 32) (v156 : BitVec 32) : Prop :=
  (∀ a, (k0_off30 v154 v156) a + S1x1x64.size a ≤ S125000x8x64.size a)
instance k0_chk14.dec : ∀ (v154 : BitVec 32) (v156 : BitVec 32), Decidable (k0_chk14 v154 v156) := fun v154 v156 => decidable_of_iff' _ (Iff.of_eq (k0_chk14.eq_1 v154 v156))
theorem k0_off30_inb : ∀ (v154 : BitVec 32) (v156 : BitVec 32) (k0_hw14 : k0_chk14 v154 v156), ∀ a, (k0_off30 v154 v156) a + S1x1x64.size a ≤ S125000x8x64.size a := fun v154 v156 k0_hw14 => k0_hw14

def k0_off31 (k0_t1 : Fin k0_t1_loop.trips) (c13_i32 : BitVec 32) : Fin 3 → Nat :=
  let c0_i32_0 : BitVec 32 := 0#32
  let c1_i32 : BitVec 32 := 1#32
  let arg14 : BitVec 32 := Scf.iv c0_i32_0 c1_i32 k0_t1
  let c16_i32_126 : BitVec 32 := 16#32
  let v157 : BitVec 32 := Scalar.muli arg14 c16_i32_126
  let v158 : BitVec 32 := Scalar.addi v157 c13_i32
  let c0_i32_130 : BitVec 32 := 0#32
  let c0_i32_131 : BitVec 32 := 0#32
  ![v158.toNat, 0, 0]
def k0_off32 (v164 : BitVec 32) (v166 : BitVec 32) : Fin 3 → Nat :=
  let c0_i32_136 : BitVec 32 := 0#32
  ![v164.toNat, v166.toNat, 0]

def k0_chk15 (v164 : BitVec 32) (v166 : BitVec 32) : Prop :=
  (∀ a, (k0_off32 v164 v166) a + S1x1x64.size a ≤ S125000x8x64.size a)
instance k0_chk15.dec : ∀ (v164 : BitVec 32) (v166 : BitVec 32), Decidable (k0_chk15 v164 v166) := fun v164 v166 => decidable_of_iff' _ (Iff.of_eq (k0_chk15.eq_1 v164 v166))
theorem k0_off32_inb : ∀ (v164 : BitVec 32) (v166 : BitVec 32) (k0_hw15 : k0_chk15 v164 v166), ∀ a, (k0_off32 v164 v166) a + S1x1x64.size a ≤ S125000x8x64.size a := fun v164 v166 k0_hw15 => k0_hw15

def k0_off33 (k0_t1 : Fin k0_t1_loop.trips) (c14_i32 : BitVec 32) : Fin 3 → Nat :=
  let c0_i32_0 : BitVec 32 := 0#32
  let c1_i32 : BitVec 32 := 1#32
  let arg14 : BitVec 32 := Scf.iv c0_i32_0 c1_i32 k0_t1
  let c16_i32_133 : BitVec 32 := 16#32
  let v167 : BitVec 32 := Scalar.muli arg14 c16_i32_133
  let v168 : BitVec 32 := Scalar.addi v167 c14_i32
  let c0_i32_137 : BitVec 32 := 0#32
  let c0_i32_138 : BitVec 32 := 0#32
  ![v168.toNat, 0, 0]
def k0_off34 (v174 : BitVec 32) (v176 : BitVec 32) : Fin 3 → Nat :=
  let c0_i32_143 : BitVec 32 := 0#32
  ![v174.toNat, v176.toNat, 0]

def k0_chk16 (v174 : BitVec 32) (v176 : BitVec 32) : Prop :=
  (∀ a, (k0_off34 v174 v176) a + S1x1x64.size a ≤ S125000x8x64.size a)
instance k0_chk16.dec : ∀ (v174 : BitVec 32) (v176 : BitVec 32), Decidable (k0_chk16 v174 v176) := fun v174 v176 => decidable_of_iff' _ (Iff.of_eq (k0_chk16.eq_1 v174 v176))
theorem k0_off34_inb : ∀ (v174 : BitVec 32) (v176 : BitVec 32) (k0_hw16 : k0_chk16 v174 v176), ∀ a, (k0_off34 v174 v176) a + S1x1x64.size a ≤ S125000x8x64.size a := fun v174 v176 k0_hw16 => k0_hw16

def k0_off35 (k0_t1 : Fin k0_t1_loop.trips) : Fin 3 → Nat :=
  let c0_i32_0 : BitVec 32 := 0#32
  let c1_i32 : BitVec 32 := 1#32
  let arg14 : BitVec 32 := Scf.iv c0_i32_0 c1_i32 k0_t1
  let c16_i32_140 : BitVec 32 := 16#32
  let v177 : BitVec 32 := Scalar.muli arg14 c16_i32_140
  let c15_i32 : BitVec 32 := 15#32
  let v178 : BitVec 32 := Scalar.addi v177 c15_i32
  let c0_i32_144 : BitVec 32 := 0#32
  let c0_i32_145 : BitVec 32 := 0#32
  ![v178.toNat, 0, 0]
def k0_off36 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_30_r1 : BitVec 32 := 0#32
  let c0_i32_31_r1 : BitVec 32 := 0#32
  ![v2.toNat, 0, 0]
@[reducible] def k0_t2_loop : Scf.Loop 32 :=
  let c0_i32_9 : BitVec 32 := 0#32
  let c32_i32_10 : BitVec 32 := 32#32
  let v7 : BitVec 32 := Scalar.addi c0_i32_9 c32_i32_10
  let c1_i32_11 : BitVec 32 := 1#32
  ⟨c0_i32_9, v7, c1_i32_11⟩
def k0_off37 (k0_t2 : Fin k0_t2_loop.trips) : Fin 1 → Nat :=
  let c0_i32_9 : BitVec 32 := 0#32
  let c1_i32_11 : BitVec 32 := 1#32
  let arg14 : BitVec 32 := Scf.iv c0_i32_9 c1_i32_11 k0_t2
  let c16_i32 : BitVec 32 := 16#32
  let v15 : BitVec 32 := Scalar.muli arg14 c16_i32
  let v16 : Index := Scalar.indexCast v15
  ![v16.toNat]
def k0_off38 (k0_t2 : Fin k0_t2_loop.trips) : Fin 3 → Nat :=
  let c0_i32_9 : BitVec 32 := 0#32
  let c1_i32_11 : BitVec 32 := 1#32
  let arg14 : BitVec 32 := Scf.iv c0_i32_9 c1_i32_11 k0_t2
  let c16_i32_30 : BitVec 32 := 16#32
  let v27 : BitVec 32 := Scalar.muli arg14 c16_i32_30
  let c0_i32_31 : BitVec 32 := 0#32
  let v28 : BitVec 32 := Scalar.addi v27 c0_i32_31
  let c0_i32_32 : BitVec 32 := 0#32
  let c0_i32_33 : BitVec 32 := 0#32
  ![v28.toNat, 0, 0]
def k0_off39 (v24 : BitVec 32) (v26 : BitVec 32) : Fin 3 → Nat :=
  let c0_i32_34 : BitVec 32 := 0#32
  ![v24.toNat, v26.toNat, 0]

def k0_chk17 (v24 : BitVec 32) (v26 : BitVec 32) : Prop :=
  (∀ a, (k0_off39 v24 v26) a + S1x1x64.size a ≤ S125000x8x64.size a)
instance k0_chk17.dec : ∀ (v24 : BitVec 32) (v26 : BitVec 32), Decidable (k0_chk17 v24 v26) := fun v24 v26 => decidable_of_iff' _ (Iff.of_eq (k0_chk17.eq_1 v24 v26))
theorem k0_off39_inb : ∀ (v24 : BitVec 32) (v26 : BitVec 32) (k0_hw17 : k0_chk17 v24 v26), ∀ a, (k0_off39 v24 v26) a + S1x1x64.size a ≤ S125000x8x64.size a := fun v24 v26 k0_hw17 => k0_hw17

def k0_off40 (k0_t2 : Fin k0_t2_loop.trips) (c0_i32_31 : BitVec 32) : Fin 3 → Nat :=
  let c0_i32_9 : BitVec 32 := 0#32
  let c1_i32_11 : BitVec 32 := 1#32
  let arg14 : BitVec 32 := Scf.iv c0_i32_9 c1_i32_11 k0_t2
  let c16_i32_30 : BitVec 32 := 16#32
  let v27 : BitVec 32 := Scalar.muli arg14 c16_i32_30
  let v28 : BitVec 32 := Scalar.addi v27 c0_i32_31
  let c0_i32_35 : BitVec 32 := 0#32
  let c0_i32_36 : BitVec 32 := 0#32
  ![v28.toNat, 0, 0]
def k0_off41 (v34 : BitVec 32) (v36 : BitVec 32) : Fin 3 → Nat :=
  let c0_i32_42 : BitVec 32 := 0#32
  ![v34.toNat, v36.toNat, 0]

def k0_chk18 (v34 : BitVec 32) (v36 : BitVec 32) : Prop :=
  (∀ a, (k0_off41 v34 v36) a + S1x1x64.size a ≤ S125000x8x64.size a)
instance k0_chk18.dec : ∀ (v34 : BitVec 32) (v36 : BitVec 32), Decidable (k0_chk18 v34 v36) := fun v34 v36 => decidable_of_iff' _ (Iff.of_eq (k0_chk18.eq_1 v34 v36))
theorem k0_off41_inb : ∀ (v34 : BitVec 32) (v36 : BitVec 32) (k0_hw18 : k0_chk18 v34 v36), ∀ a, (k0_off41 v34 v36) a + S1x1x64.size a ≤ S125000x8x64.size a := fun v34 v36 k0_hw18 => k0_hw18

def k0_off42 (k0_t2 : Fin k0_t2_loop.trips) (c1_i32_39 : BitVec 32) : Fin 3 → Nat :=
  let c0_i32_9 : BitVec 32 := 0#32
  let c1_i32_11 : BitVec 32 := 1#32
  let arg14 : BitVec 32 := Scf.iv c0_i32_9 c1_i32_11 k0_t2
  let c16_i32_38 : BitVec 32 := 16#32
  let v37 : BitVec 32 := Scalar.muli arg14 c16_i32_38
  let v38 : BitVec 32 := Scalar.addi v37 c1_i32_39
  let c0_i32_43 : BitVec 32 := 0#32
  let c0_i32_44 : BitVec 32 := 0#32
  ![v38.toNat, 0, 0]
def k0_off43 (v44 : BitVec 32) (v46 : BitVec 32) : Fin 3 → Nat :=
  let c0_i32_50 : BitVec 32 := 0#32
  ![v44.toNat, v46.toNat, 0]

def k0_chk19 (v44 : BitVec 32) (v46 : BitVec 32) : Prop :=
  (∀ a, (k0_off43 v44 v46) a + S1x1x64.size a ≤ S125000x8x64.size a)
instance k0_chk19.dec : ∀ (v44 : BitVec 32) (v46 : BitVec 32), Decidable (k0_chk19 v44 v46) := fun v44 v46 => decidable_of_iff' _ (Iff.of_eq (k0_chk19.eq_1 v44 v46))
theorem k0_off43_inb : ∀ (v44 : BitVec 32) (v46 : BitVec 32) (k0_hw19 : k0_chk19 v44 v46), ∀ a, (k0_off43 v44 v46) a + S1x1x64.size a ≤ S125000x8x64.size a := fun v44 v46 k0_hw19 => k0_hw19

def k0_off44 (k0_t2 : Fin k0_t2_loop.trips) (c2_i32_47 : BitVec 32) : Fin 3 → Nat :=
  let c0_i32_9 : BitVec 32 := 0#32
  let c1_i32_11 : BitVec 32 := 1#32
  let arg14 : BitVec 32 := Scf.iv c0_i32_9 c1_i32_11 k0_t2
  let c16_i32_46 : BitVec 32 := 16#32
  let v47 : BitVec 32 := Scalar.muli arg14 c16_i32_46
  let v48 : BitVec 32 := Scalar.addi v47 c2_i32_47
  let c0_i32_51 : BitVec 32 := 0#32
  let c0_i32_52 : BitVec 32 := 0#32
  ![v48.toNat, 0, 0]
def k0_off45 (v54 : BitVec 32) (v56 : BitVec 32) : Fin 3 → Nat :=
  let c0_i32_58 : BitVec 32 := 0#32
  ![v54.toNat, v56.toNat, 0]

def k0_chk20 (v54 : BitVec 32) (v56 : BitVec 32) : Prop :=
  (∀ a, (k0_off45 v54 v56) a + S1x1x64.size a ≤ S125000x8x64.size a)
instance k0_chk20.dec : ∀ (v54 : BitVec 32) (v56 : BitVec 32), Decidable (k0_chk20 v54 v56) := fun v54 v56 => decidable_of_iff' _ (Iff.of_eq (k0_chk20.eq_1 v54 v56))
theorem k0_off45_inb : ∀ (v54 : BitVec 32) (v56 : BitVec 32) (k0_hw20 : k0_chk20 v54 v56), ∀ a, (k0_off45 v54 v56) a + S1x1x64.size a ≤ S125000x8x64.size a := fun v54 v56 k0_hw20 => k0_hw20

def k0_off46 (k0_t2 : Fin k0_t2_loop.trips) (c3_i32_55 : BitVec 32) : Fin 3 → Nat :=
  let c0_i32_9 : BitVec 32 := 0#32
  let c1_i32_11 : BitVec 32 := 1#32
  let arg14 : BitVec 32 := Scf.iv c0_i32_9 c1_i32_11 k0_t2
  let c16_i32_54 : BitVec 32 := 16#32
  let v57 : BitVec 32 := Scalar.muli arg14 c16_i32_54
  let v58 : BitVec 32 := Scalar.addi v57 c3_i32_55
  let c0_i32_59 : BitVec 32 := 0#32
  let c0_i32_60 : BitVec 32 := 0#32
  ![v58.toNat, 0, 0]
def k0_off47 (v64 : BitVec 32) (v66 : BitVec 32) : Fin 3 → Nat :=
  let c0_i32_65 : BitVec 32 := 0#32
  ![v64.toNat, v66.toNat, 0]

def k0_chk21 (v64 : BitVec 32) (v66 : BitVec 32) : Prop :=
  (∀ a, (k0_off47 v64 v66) a + S1x1x64.size a ≤ S125000x8x64.size a)
instance k0_chk21.dec : ∀ (v64 : BitVec 32) (v66 : BitVec 32), Decidable (k0_chk21 v64 v66) := fun v64 v66 => decidable_of_iff' _ (Iff.of_eq (k0_chk21.eq_1 v64 v66))
theorem k0_off47_inb : ∀ (v64 : BitVec 32) (v66 : BitVec 32) (k0_hw21 : k0_chk21 v64 v66), ∀ a, (k0_off47 v64 v66) a + S1x1x64.size a ≤ S125000x8x64.size a := fun v64 v66 k0_hw21 => k0_hw21

def k0_off48 (k0_t2 : Fin k0_t2_loop.trips) (c4_i32 : BitVec 32) : Fin 3 → Nat :=
  let c0_i32_9 : BitVec 32 := 0#32
  let c1_i32_11 : BitVec 32 := 1#32
  let arg14 : BitVec 32 := Scf.iv c0_i32_9 c1_i32_11 k0_t2
  let c16_i32_62 : BitVec 32 := 16#32
  let v67 : BitVec 32 := Scalar.muli arg14 c16_i32_62
  let v68 : BitVec 32 := Scalar.addi v67 c4_i32
  let c0_i32_66 : BitVec 32 := 0#32
  let c0_i32_67 : BitVec 32 := 0#32
  ![v68.toNat, 0, 0]
def k0_off49 (v74 : BitVec 32) (v76 : BitVec 32) : Fin 3 → Nat :=
  let c0_i32_72 : BitVec 32 := 0#32
  ![v74.toNat, v76.toNat, 0]

def k0_chk22 (v74 : BitVec 32) (v76 : BitVec 32) : Prop :=
  (∀ a, (k0_off49 v74 v76) a + S1x1x64.size a ≤ S125000x8x64.size a)
instance k0_chk22.dec : ∀ (v74 : BitVec 32) (v76 : BitVec 32), Decidable (k0_chk22 v74 v76) := fun v74 v76 => decidable_of_iff' _ (Iff.of_eq (k0_chk22.eq_1 v74 v76))
theorem k0_off49_inb : ∀ (v74 : BitVec 32) (v76 : BitVec 32) (k0_hw22 : k0_chk22 v74 v76), ∀ a, (k0_off49 v74 v76) a + S1x1x64.size a ≤ S125000x8x64.size a := fun v74 v76 k0_hw22 => k0_hw22

def k0_off50 (k0_t2 : Fin k0_t2_loop.trips) (c5_i32 : BitVec 32) : Fin 3 → Nat :=
  let c0_i32_9 : BitVec 32 := 0#32
  let c1_i32_11 : BitVec 32 := 1#32
  let arg14 : BitVec 32 := Scf.iv c0_i32_9 c1_i32_11 k0_t2
  let c16_i32_69 : BitVec 32 := 16#32
  let v77 : BitVec 32 := Scalar.muli arg14 c16_i32_69
  let v78 : BitVec 32 := Scalar.addi v77 c5_i32
  let c0_i32_73 : BitVec 32 := 0#32
  let c0_i32_74 : BitVec 32 := 0#32
  ![v78.toNat, 0, 0]
def k0_off51 (v84 : BitVec 32) (v86 : BitVec 32) : Fin 3 → Nat :=
  let c0_i32_79 : BitVec 32 := 0#32
  ![v84.toNat, v86.toNat, 0]

def k0_chk23 (v84 : BitVec 32) (v86 : BitVec 32) : Prop :=
  (∀ a, (k0_off51 v84 v86) a + S1x1x64.size a ≤ S125000x8x64.size a)
instance k0_chk23.dec : ∀ (v84 : BitVec 32) (v86 : BitVec 32), Decidable (k0_chk23 v84 v86) := fun v84 v86 => decidable_of_iff' _ (Iff.of_eq (k0_chk23.eq_1 v84 v86))
theorem k0_off51_inb : ∀ (v84 : BitVec 32) (v86 : BitVec 32) (k0_hw23 : k0_chk23 v84 v86), ∀ a, (k0_off51 v84 v86) a + S1x1x64.size a ≤ S125000x8x64.size a := fun v84 v86 k0_hw23 => k0_hw23

def k0_off52 (k0_t2 : Fin k0_t2_loop.trips) (c6_i32 : BitVec 32) : Fin 3 → Nat :=
  let c0_i32_9 : BitVec 32 := 0#32
  let c1_i32_11 : BitVec 32 := 1#32
  let arg14 : BitVec 32 := Scf.iv c0_i32_9 c1_i32_11 k0_t2
  let c16_i32_76 : BitVec 32 := 16#32
  let v87 : BitVec 32 := Scalar.muli arg14 c16_i32_76
  let v88 : BitVec 32 := Scalar.addi v87 c6_i32
  let c0_i32_80 : BitVec 32 := 0#32
  let c0_i32_81 : BitVec 32 := 0#32
  ![v88.toNat, 0, 0]
def k0_off53 (v94 : BitVec 32) (v96 : BitVec 32) : Fin 3 → Nat :=
  let c0_i32_87 : BitVec 32 := 0#32
  ![v94.toNat, v96.toNat, 0]

def k0_chk24 (v94 : BitVec 32) (v96 : BitVec 32) : Prop :=
  (∀ a, (k0_off53 v94 v96) a + S1x1x64.size a ≤ S125000x8x64.size a)
instance k0_chk24.dec : ∀ (v94 : BitVec 32) (v96 : BitVec 32), Decidable (k0_chk24 v94 v96) := fun v94 v96 => decidable_of_iff' _ (Iff.of_eq (k0_chk24.eq_1 v94 v96))
theorem k0_off53_inb : ∀ (v94 : BitVec 32) (v96 : BitVec 32) (k0_hw24 : k0_chk24 v94 v96), ∀ a, (k0_off53 v94 v96) a + S1x1x64.size a ≤ S125000x8x64.size a := fun v94 v96 k0_hw24 => k0_hw24

def k0_off54 (k0_t2 : Fin k0_t2_loop.trips) (c7_i32_84 : BitVec 32) : Fin 3 → Nat :=
  let c0_i32_9 : BitVec 32 := 0#32
  let c1_i32_11 : BitVec 32 := 1#32
  let arg14 : BitVec 32 := Scf.iv c0_i32_9 c1_i32_11 k0_t2
  let c16_i32_83 : BitVec 32 := 16#32
  let v97 : BitVec 32 := Scalar.muli arg14 c16_i32_83
  let v98 : BitVec 32 := Scalar.addi v97 c7_i32_84
  let c0_i32_88 : BitVec 32 := 0#32
  let c0_i32_89 : BitVec 32 := 0#32
  ![v98.toNat, 0, 0]
def k0_off55 (v104 : BitVec 32) (v106 : BitVec 32) : Fin 3 → Nat :=
  let c0_i32_94 : BitVec 32 := 0#32
  ![v104.toNat, v106.toNat, 0]

def k0_chk25 (v104 : BitVec 32) (v106 : BitVec 32) : Prop :=
  (∀ a, (k0_off55 v104 v106) a + S1x1x64.size a ≤ S125000x8x64.size a)
instance k0_chk25.dec : ∀ (v104 : BitVec 32) (v106 : BitVec 32), Decidable (k0_chk25 v104 v106) := fun v104 v106 => decidable_of_iff' _ (Iff.of_eq (k0_chk25.eq_1 v104 v106))
theorem k0_off55_inb : ∀ (v104 : BitVec 32) (v106 : BitVec 32) (k0_hw25 : k0_chk25 v104 v106), ∀ a, (k0_off55 v104 v106) a + S1x1x64.size a ≤ S125000x8x64.size a := fun v104 v106 k0_hw25 => k0_hw25

def k0_off56 (k0_t2 : Fin k0_t2_loop.trips) (c8_i32 : BitVec 32) : Fin 3 → Nat :=
  let c0_i32_9 : BitVec 32 := 0#32
  let c1_i32_11 : BitVec 32 := 1#32
  let arg14 : BitVec 32 := Scf.iv c0_i32_9 c1_i32_11 k0_t2
  let c16_i32_91 : BitVec 32 := 16#32
  let v107 : BitVec 32 := Scalar.muli arg14 c16_i32_91
  let v108 : BitVec 32 := Scalar.addi v107 c8_i32
  let c0_i32_95 : BitVec 32 := 0#32
  let c0_i32_96 : BitVec 32 := 0#32
  ![v108.toNat, 0, 0]
def k0_off57 (v114 : BitVec 32) (v116 : BitVec 32) : Fin 3 → Nat :=
  let c0_i32_101 : BitVec 32 := 0#32
  ![v114.toNat, v116.toNat, 0]

def k0_chk26 (v114 : BitVec 32) (v116 : BitVec 32) : Prop :=
  (∀ a, (k0_off57 v114 v116) a + S1x1x64.size a ≤ S125000x8x64.size a)
instance k0_chk26.dec : ∀ (v114 : BitVec 32) (v116 : BitVec 32), Decidable (k0_chk26 v114 v116) := fun v114 v116 => decidable_of_iff' _ (Iff.of_eq (k0_chk26.eq_1 v114 v116))
theorem k0_off57_inb : ∀ (v114 : BitVec 32) (v116 : BitVec 32) (k0_hw26 : k0_chk26 v114 v116), ∀ a, (k0_off57 v114 v116) a + S1x1x64.size a ≤ S125000x8x64.size a := fun v114 v116 k0_hw26 => k0_hw26

def k0_off58 (k0_t2 : Fin k0_t2_loop.trips) (c9_i32 : BitVec 32) : Fin 3 → Nat :=
  let c0_i32_9 : BitVec 32 := 0#32
  let c1_i32_11 : BitVec 32 := 1#32
  let arg14 : BitVec 32 := Scf.iv c0_i32_9 c1_i32_11 k0_t2
  let c16_i32_98 : BitVec 32 := 16#32
  let v117 : BitVec 32 := Scalar.muli arg14 c16_i32_98
  let v118 : BitVec 32 := Scalar.addi v117 c9_i32
  let c0_i32_102 : BitVec 32 := 0#32
  let c0_i32_103 : BitVec 32 := 0#32
  ![v118.toNat, 0, 0]
def k0_off59 (v124 : BitVec 32) (v126 : BitVec 32) : Fin 3 → Nat :=
  let c0_i32_108 : BitVec 32 := 0#32
  ![v124.toNat, v126.toNat, 0]

def k0_chk27 (v124 : BitVec 32) (v126 : BitVec 32) : Prop :=
  (∀ a, (k0_off59 v124 v126) a + S1x1x64.size a ≤ S125000x8x64.size a)
instance k0_chk27.dec : ∀ (v124 : BitVec 32) (v126 : BitVec 32), Decidable (k0_chk27 v124 v126) := fun v124 v126 => decidable_of_iff' _ (Iff.of_eq (k0_chk27.eq_1 v124 v126))
theorem k0_off59_inb : ∀ (v124 : BitVec 32) (v126 : BitVec 32) (k0_hw27 : k0_chk27 v124 v126), ∀ a, (k0_off59 v124 v126) a + S1x1x64.size a ≤ S125000x8x64.size a := fun v124 v126 k0_hw27 => k0_hw27

def k0_off60 (k0_t2 : Fin k0_t2_loop.trips) (c10_i32 : BitVec 32) : Fin 3 → Nat :=
  let c0_i32_9 : BitVec 32 := 0#32
  let c1_i32_11 : BitVec 32 := 1#32
  let arg14 : BitVec 32 := Scf.iv c0_i32_9 c1_i32_11 k0_t2
  let c16_i32_105 : BitVec 32 := 16#32
  let v127 : BitVec 32 := Scalar.muli arg14 c16_i32_105
  let v128 : BitVec 32 := Scalar.addi v127 c10_i32
  let c0_i32_109 : BitVec 32 := 0#32
  let c0_i32_110 : BitVec 32 := 0#32
  ![v128.toNat, 0, 0]
def k0_off61 (v134 : BitVec 32) (v136 : BitVec 32) : Fin 3 → Nat :=
  let c0_i32_115 : BitVec 32 := 0#32
  ![v134.toNat, v136.toNat, 0]

def k0_chk28 (v134 : BitVec 32) (v136 : BitVec 32) : Prop :=
  (∀ a, (k0_off61 v134 v136) a + S1x1x64.size a ≤ S125000x8x64.size a)
instance k0_chk28.dec : ∀ (v134 : BitVec 32) (v136 : BitVec 32), Decidable (k0_chk28 v134 v136) := fun v134 v136 => decidable_of_iff' _ (Iff.of_eq (k0_chk28.eq_1 v134 v136))
theorem k0_off61_inb : ∀ (v134 : BitVec 32) (v136 : BitVec 32) (k0_hw28 : k0_chk28 v134 v136), ∀ a, (k0_off61 v134 v136) a + S1x1x64.size a ≤ S125000x8x64.size a := fun v134 v136 k0_hw28 => k0_hw28

def k0_off62 (k0_t2 : Fin k0_t2_loop.trips) (c11_i32 : BitVec 32) : Fin 3 → Nat :=
  let c0_i32_9 : BitVec 32 := 0#32
  let c1_i32_11 : BitVec 32 := 1#32
  let arg14 : BitVec 32 := Scf.iv c0_i32_9 c1_i32_11 k0_t2
  let c16_i32_112 : BitVec 32 := 16#32
  let v137 : BitVec 32 := Scalar.muli arg14 c16_i32_112
  let v138 : BitVec 32 := Scalar.addi v137 c11_i32
  let c0_i32_116 : BitVec 32 := 0#32
  let c0_i32_117 : BitVec 32 := 0#32
  ![v138.toNat, 0, 0]
def k0_off63 (v144 : BitVec 32) (v146 : BitVec 32) : Fin 3 → Nat :=
  let c0_i32_122 : BitVec 32 := 0#32
  ![v144.toNat, v146.toNat, 0]

def k0_chk29 (v144 : BitVec 32) (v146 : BitVec 32) : Prop :=
  (∀ a, (k0_off63 v144 v146) a + S1x1x64.size a ≤ S125000x8x64.size a)
instance k0_chk29.dec : ∀ (v144 : BitVec 32) (v146 : BitVec 32), Decidable (k0_chk29 v144 v146) := fun v144 v146 => decidable_of_iff' _ (Iff.of_eq (k0_chk29.eq_1 v144 v146))
theorem k0_off63_inb : ∀ (v144 : BitVec 32) (v146 : BitVec 32) (k0_hw29 : k0_chk29 v144 v146), ∀ a, (k0_off63 v144 v146) a + S1x1x64.size a ≤ S125000x8x64.size a := fun v144 v146 k0_hw29 => k0_hw29

def k0_off64 (k0_t2 : Fin k0_t2_loop.trips) (c12_i32 : BitVec 32) : Fin 3 → Nat :=
  let c0_i32_9 : BitVec 32 := 0#32
  let c1_i32_11 : BitVec 32 := 1#32
  let arg14 : BitVec 32 := Scf.iv c0_i32_9 c1_i32_11 k0_t2
  let c16_i32_119 : BitVec 32 := 16#32
  let v147 : BitVec 32 := Scalar.muli arg14 c16_i32_119
  let v148 : BitVec 32 := Scalar.addi v147 c12_i32
  let c0_i32_123 : BitVec 32 := 0#32
  let c0_i32_124 : BitVec 32 := 0#32
  ![v148.toNat, 0, 0]
def k0_off65 (v154 : BitVec 32) (v156 : BitVec 32) : Fin 3 → Nat :=
  let c0_i32_129 : BitVec 32 := 0#32
  ![v154.toNat, v156.toNat, 0]

def k0_chk30 (v154 : BitVec 32) (v156 : BitVec 32) : Prop :=
  (∀ a, (k0_off65 v154 v156) a + S1x1x64.size a ≤ S125000x8x64.size a)
instance k0_chk30.dec : ∀ (v154 : BitVec 32) (v156 : BitVec 32), Decidable (k0_chk30 v154 v156) := fun v154 v156 => decidable_of_iff' _ (Iff.of_eq (k0_chk30.eq_1 v154 v156))
theorem k0_off65_inb : ∀ (v154 : BitVec 32) (v156 : BitVec 32) (k0_hw30 : k0_chk30 v154 v156), ∀ a, (k0_off65 v154 v156) a + S1x1x64.size a ≤ S125000x8x64.size a := fun v154 v156 k0_hw30 => k0_hw30

def k0_off66 (k0_t2 : Fin k0_t2_loop.trips) (c13_i32 : BitVec 32) : Fin 3 → Nat :=
  let c0_i32_9 : BitVec 32 := 0#32
  let c1_i32_11 : BitVec 32 := 1#32
  let arg14 : BitVec 32 := Scf.iv c0_i32_9 c1_i32_11 k0_t2
  let c16_i32_126 : BitVec 32 := 16#32
  let v157 : BitVec 32 := Scalar.muli arg14 c16_i32_126
  let v158 : BitVec 32 := Scalar.addi v157 c13_i32
  let c0_i32_130 : BitVec 32 := 0#32
  let c0_i32_131 : BitVec 32 := 0#32
  ![v158.toNat, 0, 0]
def k0_off67 (v164 : BitVec 32) (v166 : BitVec 32) : Fin 3 → Nat :=
  let c0_i32_136 : BitVec 32 := 0#32
  ![v164.toNat, v166.toNat, 0]

def k0_chk31 (v164 : BitVec 32) (v166 : BitVec 32) : Prop :=
  (∀ a, (k0_off67 v164 v166) a + S1x1x64.size a ≤ S125000x8x64.size a)
instance k0_chk31.dec : ∀ (v164 : BitVec 32) (v166 : BitVec 32), Decidable (k0_chk31 v164 v166) := fun v164 v166 => decidable_of_iff' _ (Iff.of_eq (k0_chk31.eq_1 v164 v166))
theorem k0_off67_inb : ∀ (v164 : BitVec 32) (v166 : BitVec 32) (k0_hw31 : k0_chk31 v164 v166), ∀ a, (k0_off67 v164 v166) a + S1x1x64.size a ≤ S125000x8x64.size a := fun v164 v166 k0_hw31 => k0_hw31

def k0_off68 (k0_t2 : Fin k0_t2_loop.trips) (c14_i32 : BitVec 32) : Fin 3 → Nat :=
  let c0_i32_9 : BitVec 32 := 0#32
  let c1_i32_11 : BitVec 32 := 1#32
  let arg14 : BitVec 32 := Scf.iv c0_i32_9 c1_i32_11 k0_t2
  let c16_i32_133 : BitVec 32 := 16#32
  let v167 : BitVec 32 := Scalar.muli arg14 c16_i32_133
  let v168 : BitVec 32 := Scalar.addi v167 c14_i32
  let c0_i32_137 : BitVec 32 := 0#32
  let c0_i32_138 : BitVec 32 := 0#32
  ![v168.toNat, 0, 0]
def k0_off69 (v174 : BitVec 32) (v176 : BitVec 32) : Fin 3 → Nat :=
  let c0_i32_143 : BitVec 32 := 0#32
  ![v174.toNat, v176.toNat, 0]

def k0_chk32 (v174 : BitVec 32) (v176 : BitVec 32) : Prop :=
  (∀ a, (k0_off69 v174 v176) a + S1x1x64.size a ≤ S125000x8x64.size a)
instance k0_chk32.dec : ∀ (v174 : BitVec 32) (v176 : BitVec 32), Decidable (k0_chk32 v174 v176) := fun v174 v176 => decidable_of_iff' _ (Iff.of_eq (k0_chk32.eq_1 v174 v176))
theorem k0_off69_inb : ∀ (v174 : BitVec 32) (v176 : BitVec 32) (k0_hw32 : k0_chk32 v174 v176), ∀ a, (k0_off69 v174 v176) a + S1x1x64.size a ≤ S125000x8x64.size a := fun v174 v176 k0_hw32 => k0_hw32

def k0_off70 (k0_t2 : Fin k0_t2_loop.trips) : Fin 3 → Nat :=
  let c0_i32_9 : BitVec 32 := 0#32
  let c1_i32_11 : BitVec 32 := 1#32
  let arg14 : BitVec 32 := Scf.iv c0_i32_9 c1_i32_11 k0_t2
  let c16_i32_140 : BitVec 32 := 16#32
  let v177 : BitVec 32 := Scalar.muli arg14 c16_i32_140
  let c15_i32 : BitVec 32 := 15#32
  let v178 : BitVec 32 := Scalar.addi v177 c15_i32
  let c0_i32_144 : BitVec 32 := 0#32
  let c0_i32_145 : BitVec 32 := 0#32
  ![v178.toNat, 0, 0]
@[reducible] def k0_t3_loop : Scf.Loop 32 :=
  let c0_i32_20 : BitVec 32 := 0#32
  let c32_i32_21 : BitVec 32 := 32#32
  let v11 : BitVec 32 := Scalar.addi c0_i32_20 c32_i32_21
  let c1_i32_22 : BitVec 32 := 1#32
  ⟨c0_i32_20, v11, c1_i32_22⟩
def k0_off71 (k0_t3 : Fin k0_t3_loop.trips) : Fin 1 → Nat :=
  let c0_i32_20 : BitVec 32 := 0#32
  let c1_i32_22 : BitVec 32 := 1#32
  let arg14 : BitVec 32 := Scf.iv c0_i32_20 c1_i32_22 k0_t3
  let c16_i32 : BitVec 32 := 16#32
  let v15 : BitVec 32 := Scalar.muli arg14 c16_i32
  let v16 : Index := Scalar.indexCast v15
  ![v16.toNat]
def k0_off72 (k0_t3 : Fin k0_t3_loop.trips) : Fin 3 → Nat :=
  let c0_i32_20 : BitVec 32 := 0#32
  let c1_i32_22 : BitVec 32 := 1#32
  let arg14 : BitVec 32 := Scf.iv c0_i32_20 c1_i32_22 k0_t3
  let c16_i32_30 : BitVec 32 := 16#32
  let v27 : BitVec 32 := Scalar.muli arg14 c16_i32_30
  let c0_i32_31 : BitVec 32 := 0#32
  let v28 : BitVec 32 := Scalar.addi v27 c0_i32_31
  let c0_i32_32 : BitVec 32 := 0#32
  let c0_i32_33 : BitVec 32 := 0#32
  ![v28.toNat, 0, 0]
def k0_off73 (v24 : BitVec 32) (v26 : BitVec 32) : Fin 3 → Nat :=
  let c0_i32_34 : BitVec 32 := 0#32
  ![v24.toNat, v26.toNat, 0]

def k0_chk33 (v24 : BitVec 32) (v26 : BitVec 32) : Prop :=
  (∀ a, (k0_off73 v24 v26) a + S1x1x64.size a ≤ S125000x8x64.size a)
instance k0_chk33.dec : ∀ (v24 : BitVec 32) (v26 : BitVec 32), Decidable (k0_chk33 v24 v26) := fun v24 v26 => decidable_of_iff' _ (Iff.of_eq (k0_chk33.eq_1 v24 v26))
theorem k0_off73_inb : ∀ (v24 : BitVec 32) (v26 : BitVec 32) (k0_hw33 : k0_chk33 v24 v26), ∀ a, (k0_off73 v24 v26) a + S1x1x64.size a ≤ S125000x8x64.size a := fun v24 v26 k0_hw33 => k0_hw33

def k0_off74 (k0_t3 : Fin k0_t3_loop.trips) (c0_i32_31 : BitVec 32) : Fin 3 → Nat :=
  let c0_i32_20 : BitVec 32 := 0#32
  let c1_i32_22 : BitVec 32 := 1#32
  let arg14 : BitVec 32 := Scf.iv c0_i32_20 c1_i32_22 k0_t3
  let c16_i32_30 : BitVec 32 := 16#32
  let v27 : BitVec 32 := Scalar.muli arg14 c16_i32_30
  let v28 : BitVec 32 := Scalar.addi v27 c0_i32_31
  let c0_i32_35 : BitVec 32 := 0#32
  let c0_i32_36 : BitVec 32 := 0#32
  ![v28.toNat, 0, 0]
def k0_off75 (v34 : BitVec 32) (v36 : BitVec 32) : Fin 3 → Nat :=
  let c0_i32_42 : BitVec 32 := 0#32
  ![v34.toNat, v36.toNat, 0]

def k0_chk34 (v34 : BitVec 32) (v36 : BitVec 32) : Prop :=
  (∀ a, (k0_off75 v34 v36) a + S1x1x64.size a ≤ S125000x8x64.size a)
instance k0_chk34.dec : ∀ (v34 : BitVec 32) (v36 : BitVec 32), Decidable (k0_chk34 v34 v36) := fun v34 v36 => decidable_of_iff' _ (Iff.of_eq (k0_chk34.eq_1 v34 v36))
theorem k0_off75_inb : ∀ (v34 : BitVec 32) (v36 : BitVec 32) (k0_hw34 : k0_chk34 v34 v36), ∀ a, (k0_off75 v34 v36) a + S1x1x64.size a ≤ S125000x8x64.size a := fun v34 v36 k0_hw34 => k0_hw34

def k0_off76 (k0_t3 : Fin k0_t3_loop.trips) (c1_i32_39 : BitVec 32) : Fin 3 → Nat :=
  let c0_i32_20 : BitVec 32 := 0#32
  let c1_i32_22 : BitVec 32 := 1#32
  let arg14 : BitVec 32 := Scf.iv c0_i32_20 c1_i32_22 k0_t3
  let c16_i32_38 : BitVec 32 := 16#32
  let v37 : BitVec 32 := Scalar.muli arg14 c16_i32_38
  let v38 : BitVec 32 := Scalar.addi v37 c1_i32_39
  let c0_i32_43 : BitVec 32 := 0#32
  let c0_i32_44 : BitVec 32 := 0#32
  ![v38.toNat, 0, 0]
def k0_off77 (v44 : BitVec 32) (v46 : BitVec 32) : Fin 3 → Nat :=
  let c0_i32_50 : BitVec 32 := 0#32
  ![v44.toNat, v46.toNat, 0]

def k0_chk35 (v44 : BitVec 32) (v46 : BitVec 32) : Prop :=
  (∀ a, (k0_off77 v44 v46) a + S1x1x64.size a ≤ S125000x8x64.size a)
instance k0_chk35.dec : ∀ (v44 : BitVec 32) (v46 : BitVec 32), Decidable (k0_chk35 v44 v46) := fun v44 v46 => decidable_of_iff' _ (Iff.of_eq (k0_chk35.eq_1 v44 v46))
theorem k0_off77_inb : ∀ (v44 : BitVec 32) (v46 : BitVec 32) (k0_hw35 : k0_chk35 v44 v46), ∀ a, (k0_off77 v44 v46) a + S1x1x64.size a ≤ S125000x8x64.size a := fun v44 v46 k0_hw35 => k0_hw35

def k0_off78 (k0_t3 : Fin k0_t3_loop.trips) (c2_i32_47 : BitVec 32) : Fin 3 → Nat :=
  let c0_i32_20 : BitVec 32 := 0#32
  let c1_i32_22 : BitVec 32 := 1#32
  let arg14 : BitVec 32 := Scf.iv c0_i32_20 c1_i32_22 k0_t3
  let c16_i32_46 : BitVec 32 := 16#32
  let v47 : BitVec 32 := Scalar.muli arg14 c16_i32_46
  let v48 : BitVec 32 := Scalar.addi v47 c2_i32_47
  let c0_i32_51 : BitVec 32 := 0#32
  let c0_i32_52 : BitVec 32 := 0#32
  ![v48.toNat, 0, 0]
def k0_off79 (v54 : BitVec 32) (v56 : BitVec 32) : Fin 3 → Nat :=
  let c0_i32_58 : BitVec 32 := 0#32
  ![v54.toNat, v56.toNat, 0]

def k0_chk36 (v54 : BitVec 32) (v56 : BitVec 32) : Prop :=
  (∀ a, (k0_off79 v54 v56) a + S1x1x64.size a ≤ S125000x8x64.size a)
instance k0_chk36.dec : ∀ (v54 : BitVec 32) (v56 : BitVec 32), Decidable (k0_chk36 v54 v56) := fun v54 v56 => decidable_of_iff' _ (Iff.of_eq (k0_chk36.eq_1 v54 v56))
theorem k0_off79_inb : ∀ (v54 : BitVec 32) (v56 : BitVec 32) (k0_hw36 : k0_chk36 v54 v56), ∀ a, (k0_off79 v54 v56) a + S1x1x64.size a ≤ S125000x8x64.size a := fun v54 v56 k0_hw36 => k0_hw36

def k0_off80 (k0_t3 : Fin k0_t3_loop.trips) (c3_i32_55 : BitVec 32) : Fin 3 → Nat :=
  let c0_i32_20 : BitVec 32 := 0#32
  let c1_i32_22 : BitVec 32 := 1#32
  let arg14 : BitVec 32 := Scf.iv c0_i32_20 c1_i32_22 k0_t3
  let c16_i32_54 : BitVec 32 := 16#32
  let v57 : BitVec 32 := Scalar.muli arg14 c16_i32_54
  let v58 : BitVec 32 := Scalar.addi v57 c3_i32_55
  let c0_i32_59 : BitVec 32 := 0#32
  let c0_i32_60 : BitVec 32 := 0#32
  ![v58.toNat, 0, 0]
def k0_off81 (v64 : BitVec 32) (v66 : BitVec 32) : Fin 3 → Nat :=
  let c0_i32_65 : BitVec 32 := 0#32
  ![v64.toNat, v66.toNat, 0]

def k0_chk37 (v64 : BitVec 32) (v66 : BitVec 32) : Prop :=
  (∀ a, (k0_off81 v64 v66) a + S1x1x64.size a ≤ S125000x8x64.size a)
instance k0_chk37.dec : ∀ (v64 : BitVec 32) (v66 : BitVec 32), Decidable (k0_chk37 v64 v66) := fun v64 v66 => decidable_of_iff' _ (Iff.of_eq (k0_chk37.eq_1 v64 v66))
theorem k0_off81_inb : ∀ (v64 : BitVec 32) (v66 : BitVec 32) (k0_hw37 : k0_chk37 v64 v66), ∀ a, (k0_off81 v64 v66) a + S1x1x64.size a ≤ S125000x8x64.size a := fun v64 v66 k0_hw37 => k0_hw37

def k0_off82 (k0_t3 : Fin k0_t3_loop.trips) (c4_i32 : BitVec 32) : Fin 3 → Nat :=
  let c0_i32_20 : BitVec 32 := 0#32
  let c1_i32_22 : BitVec 32 := 1#32
  let arg14 : BitVec 32 := Scf.iv c0_i32_20 c1_i32_22 k0_t3
  let c16_i32_62 : BitVec 32 := 16#32
  let v67 : BitVec 32 := Scalar.muli arg14 c16_i32_62
  let v68 : BitVec 32 := Scalar.addi v67 c4_i32
  let c0_i32_66 : BitVec 32 := 0#32
  let c0_i32_67 : BitVec 32 := 0#32
  ![v68.toNat, 0, 0]
def k0_off83 (v74 : BitVec 32) (v76 : BitVec 32) : Fin 3 → Nat :=
  let c0_i32_72 : BitVec 32 := 0#32
  ![v74.toNat, v76.toNat, 0]

def k0_chk38 (v74 : BitVec 32) (v76 : BitVec 32) : Prop :=
  (∀ a, (k0_off83 v74 v76) a + S1x1x64.size a ≤ S125000x8x64.size a)
instance k0_chk38.dec : ∀ (v74 : BitVec 32) (v76 : BitVec 32), Decidable (k0_chk38 v74 v76) := fun v74 v76 => decidable_of_iff' _ (Iff.of_eq (k0_chk38.eq_1 v74 v76))
theorem k0_off83_inb : ∀ (v74 : BitVec 32) (v76 : BitVec 32) (k0_hw38 : k0_chk38 v74 v76), ∀ a, (k0_off83 v74 v76) a + S1x1x64.size a ≤ S125000x8x64.size a := fun v74 v76 k0_hw38 => k0_hw38

def k0_off84 (k0_t3 : Fin k0_t3_loop.trips) (c5_i32 : BitVec 32) : Fin 3 → Nat :=
  let c0_i32_20 : BitVec 32 := 0#32
  let c1_i32_22 : BitVec 32 := 1#32
  let arg14 : BitVec 32 := Scf.iv c0_i32_20 c1_i32_22 k0_t3
  let c16_i32_69 : BitVec 32 := 16#32
  let v77 : BitVec 32 := Scalar.muli arg14 c16_i32_69
  let v78 : BitVec 32 := Scalar.addi v77 c5_i32
  let c0_i32_73 : BitVec 32 := 0#32
  let c0_i32_74 : BitVec 32 := 0#32
  ![v78.toNat, 0, 0]
def k0_off85 (v84 : BitVec 32) (v86 : BitVec 32) : Fin 3 → Nat :=
  let c0_i32_79 : BitVec 32 := 0#32
  ![v84.toNat, v86.toNat, 0]

def k0_chk39 (v84 : BitVec 32) (v86 : BitVec 32) : Prop :=
  (∀ a, (k0_off85 v84 v86) a + S1x1x64.size a ≤ S125000x8x64.size a)
instance k0_chk39.dec : ∀ (v84 : BitVec 32) (v86 : BitVec 32), Decidable (k0_chk39 v84 v86) := fun v84 v86 => decidable_of_iff' _ (Iff.of_eq (k0_chk39.eq_1 v84 v86))
theorem k0_off85_inb : ∀ (v84 : BitVec 32) (v86 : BitVec 32) (k0_hw39 : k0_chk39 v84 v86), ∀ a, (k0_off85 v84 v86) a + S1x1x64.size a ≤ S125000x8x64.size a := fun v84 v86 k0_hw39 => k0_hw39

def k0_off86 (k0_t3 : Fin k0_t3_loop.trips) (c6_i32 : BitVec 32) : Fin 3 → Nat :=
  let c0_i32_20 : BitVec 32 := 0#32
  let c1_i32_22 : BitVec 32 := 1#32
  let arg14 : BitVec 32 := Scf.iv c0_i32_20 c1_i32_22 k0_t3
  let c16_i32_76 : BitVec 32 := 16#32
  let v87 : BitVec 32 := Scalar.muli arg14 c16_i32_76
  let v88 : BitVec 32 := Scalar.addi v87 c6_i32
  let c0_i32_80 : BitVec 32 := 0#32
  let c0_i32_81 : BitVec 32 := 0#32
  ![v88.toNat, 0, 0]
def k0_off87 (v94 : BitVec 32) (v96 : BitVec 32) : Fin 3 → Nat :=
  let c0_i32_87 : BitVec 32 := 0#32
  ![v94.toNat, v96.toNat, 0]

def k0_chk40 (v94 : BitVec 32) (v96 : BitVec 32) : Prop :=
  (∀ a, (k0_off87 v94 v96) a + S1x1x64.size a ≤ S125000x8x64.size a)
instance k0_chk40.dec : ∀ (v94 : BitVec 32) (v96 : BitVec 32), Decidable (k0_chk40 v94 v96) := fun v94 v96 => decidable_of_iff' _ (Iff.of_eq (k0_chk40.eq_1 v94 v96))
theorem k0_off87_inb : ∀ (v94 : BitVec 32) (v96 : BitVec 32) (k0_hw40 : k0_chk40 v94 v96), ∀ a, (k0_off87 v94 v96) a + S1x1x64.size a ≤ S125000x8x64.size a := fun v94 v96 k0_hw40 => k0_hw40

def k0_off88 (k0_t3 : Fin k0_t3_loop.trips) (c7_i32_84 : BitVec 32) : Fin 3 → Nat :=
  let c0_i32_20 : BitVec 32 := 0#32
  let c1_i32_22 : BitVec 32 := 1#32
  let arg14 : BitVec 32 := Scf.iv c0_i32_20 c1_i32_22 k0_t3
  let c16_i32_83 : BitVec 32 := 16#32
  let v97 : BitVec 32 := Scalar.muli arg14 c16_i32_83
  let v98 : BitVec 32 := Scalar.addi v97 c7_i32_84
  let c0_i32_88 : BitVec 32 := 0#32
  let c0_i32_89 : BitVec 32 := 0#32
  ![v98.toNat, 0, 0]
def k0_off89 (v104 : BitVec 32) (v106 : BitVec 32) : Fin 3 → Nat :=
  let c0_i32_94 : BitVec 32 := 0#32
  ![v104.toNat, v106.toNat, 0]

def k0_chk41 (v104 : BitVec 32) (v106 : BitVec 32) : Prop :=
  (∀ a, (k0_off89 v104 v106) a + S1x1x64.size a ≤ S125000x8x64.size a)
instance k0_chk41.dec : ∀ (v104 : BitVec 32) (v106 : BitVec 32), Decidable (k0_chk41 v104 v106) := fun v104 v106 => decidable_of_iff' _ (Iff.of_eq (k0_chk41.eq_1 v104 v106))
theorem k0_off89_inb : ∀ (v104 : BitVec 32) (v106 : BitVec 32) (k0_hw41 : k0_chk41 v104 v106), ∀ a, (k0_off89 v104 v106) a + S1x1x64.size a ≤ S125000x8x64.size a := fun v104 v106 k0_hw41 => k0_hw41

def k0_off90 (k0_t3 : Fin k0_t3_loop.trips) (c8_i32 : BitVec 32) : Fin 3 → Nat :=
  let c0_i32_20 : BitVec 32 := 0#32
  let c1_i32_22 : BitVec 32 := 1#32
  let arg14 : BitVec 32 := Scf.iv c0_i32_20 c1_i32_22 k0_t3
  let c16_i32_91 : BitVec 32 := 16#32
  let v107 : BitVec 32 := Scalar.muli arg14 c16_i32_91
  let v108 : BitVec 32 := Scalar.addi v107 c8_i32
  let c0_i32_95 : BitVec 32 := 0#32
  let c0_i32_96 : BitVec 32 := 0#32
  ![v108.toNat, 0, 0]
def k0_off91 (v114 : BitVec 32) (v116 : BitVec 32) : Fin 3 → Nat :=
  let c0_i32_101 : BitVec 32 := 0#32
  ![v114.toNat, v116.toNat, 0]

def k0_chk42 (v114 : BitVec 32) (v116 : BitVec 32) : Prop :=
  (∀ a, (k0_off91 v114 v116) a + S1x1x64.size a ≤ S125000x8x64.size a)
instance k0_chk42.dec : ∀ (v114 : BitVec 32) (v116 : BitVec 32), Decidable (k0_chk42 v114 v116) := fun v114 v116 => decidable_of_iff' _ (Iff.of_eq (k0_chk42.eq_1 v114 v116))
theorem k0_off91_inb : ∀ (v114 : BitVec 32) (v116 : BitVec 32) (k0_hw42 : k0_chk42 v114 v116), ∀ a, (k0_off91 v114 v116) a + S1x1x64.size a ≤ S125000x8x64.size a := fun v114 v116 k0_hw42 => k0_hw42

def k0_off92 (k0_t3 : Fin k0_t3_loop.trips) (c9_i32 : BitVec 32) : Fin 3 → Nat :=
  let c0_i32_20 : BitVec 32 := 0#32
  let c1_i32_22 : BitVec 32 := 1#32
  let arg14 : BitVec 32 := Scf.iv c0_i32_20 c1_i32_22 k0_t3
  let c16_i32_98 : BitVec 32 := 16#32
  let v117 : BitVec 32 := Scalar.muli arg14 c16_i32_98
  let v118 : BitVec 32 := Scalar.addi v117 c9_i32
  let c0_i32_102 : BitVec 32 := 0#32
  let c0_i32_103 : BitVec 32 := 0#32
  ![v118.toNat, 0, 0]
def k0_off93 (v124 : BitVec 32) (v126 : BitVec 32) : Fin 3 → Nat :=
  let c0_i32_108 : BitVec 32 := 0#32
  ![v124.toNat, v126.toNat, 0]

def k0_chk43 (v124 : BitVec 32) (v126 : BitVec 32) : Prop :=
  (∀ a, (k0_off93 v124 v126) a + S1x1x64.size a ≤ S125000x8x64.size a)
instance k0_chk43.dec : ∀ (v124 : BitVec 32) (v126 : BitVec 32), Decidable (k0_chk43 v124 v126) := fun v124 v126 => decidable_of_iff' _ (Iff.of_eq (k0_chk43.eq_1 v124 v126))
theorem k0_off93_inb : ∀ (v124 : BitVec 32) (v126 : BitVec 32) (k0_hw43 : k0_chk43 v124 v126), ∀ a, (k0_off93 v124 v126) a + S1x1x64.size a ≤ S125000x8x64.size a := fun v124 v126 k0_hw43 => k0_hw43

def k0_off94 (k0_t3 : Fin k0_t3_loop.trips) (c10_i32 : BitVec 32) : Fin 3 → Nat :=
  let c0_i32_20 : BitVec 32 := 0#32
  let c1_i32_22 : BitVec 32 := 1#32
  let arg14 : BitVec 32 := Scf.iv c0_i32_20 c1_i32_22 k0_t3
  let c16_i32_105 : BitVec 32 := 16#32
  let v127 : BitVec 32 := Scalar.muli arg14 c16_i32_105
  let v128 : BitVec 32 := Scalar.addi v127 c10_i32
  let c0_i32_109 : BitVec 32 := 0#32
  let c0_i32_110 : BitVec 32 := 0#32
  ![v128.toNat, 0, 0]
def k0_off95 (v134 : BitVec 32) (v136 : BitVec 32) : Fin 3 → Nat :=
  let c0_i32_115 : BitVec 32 := 0#32
  ![v134.toNat, v136.toNat, 0]

def k0_chk44 (v134 : BitVec 32) (v136 : BitVec 32) : Prop :=
  (∀ a, (k0_off95 v134 v136) a + S1x1x64.size a ≤ S125000x8x64.size a)
instance k0_chk44.dec : ∀ (v134 : BitVec 32) (v136 : BitVec 32), Decidable (k0_chk44 v134 v136) := fun v134 v136 => decidable_of_iff' _ (Iff.of_eq (k0_chk44.eq_1 v134 v136))
theorem k0_off95_inb : ∀ (v134 : BitVec 32) (v136 : BitVec 32) (k0_hw44 : k0_chk44 v134 v136), ∀ a, (k0_off95 v134 v136) a + S1x1x64.size a ≤ S125000x8x64.size a := fun v134 v136 k0_hw44 => k0_hw44

def k0_off96 (k0_t3 : Fin k0_t3_loop.trips) (c11_i32 : BitVec 32) : Fin 3 → Nat :=
  let c0_i32_20 : BitVec 32 := 0#32
  let c1_i32_22 : BitVec 32 := 1#32
  let arg14 : BitVec 32 := Scf.iv c0_i32_20 c1_i32_22 k0_t3
  let c16_i32_112 : BitVec 32 := 16#32
  let v137 : BitVec 32 := Scalar.muli arg14 c16_i32_112
  let v138 : BitVec 32 := Scalar.addi v137 c11_i32
  let c0_i32_116 : BitVec 32 := 0#32
  let c0_i32_117 : BitVec 32 := 0#32
  ![v138.toNat, 0, 0]
def k0_off97 (v144 : BitVec 32) (v146 : BitVec 32) : Fin 3 → Nat :=
  let c0_i32_122 : BitVec 32 := 0#32
  ![v144.toNat, v146.toNat, 0]

def k0_chk45 (v144 : BitVec 32) (v146 : BitVec 32) : Prop :=
  (∀ a, (k0_off97 v144 v146) a + S1x1x64.size a ≤ S125000x8x64.size a)
instance k0_chk45.dec : ∀ (v144 : BitVec 32) (v146 : BitVec 32), Decidable (k0_chk45 v144 v146) := fun v144 v146 => decidable_of_iff' _ (Iff.of_eq (k0_chk45.eq_1 v144 v146))
theorem k0_off97_inb : ∀ (v144 : BitVec 32) (v146 : BitVec 32) (k0_hw45 : k0_chk45 v144 v146), ∀ a, (k0_off97 v144 v146) a + S1x1x64.size a ≤ S125000x8x64.size a := fun v144 v146 k0_hw45 => k0_hw45

def k0_off98 (k0_t3 : Fin k0_t3_loop.trips) (c12_i32 : BitVec 32) : Fin 3 → Nat :=
  let c0_i32_20 : BitVec 32 := 0#32
  let c1_i32_22 : BitVec 32 := 1#32
  let arg14 : BitVec 32 := Scf.iv c0_i32_20 c1_i32_22 k0_t3
  let c16_i32_119 : BitVec 32 := 16#32
  let v147 : BitVec 32 := Scalar.muli arg14 c16_i32_119
  let v148 : BitVec 32 := Scalar.addi v147 c12_i32
  let c0_i32_123 : BitVec 32 := 0#32
  let c0_i32_124 : BitVec 32 := 0#32
  ![v148.toNat, 0, 0]
def k0_off99 (v154 : BitVec 32) (v156 : BitVec 32) : Fin 3 → Nat :=
  let c0_i32_129 : BitVec 32 := 0#32
  ![v154.toNat, v156.toNat, 0]

def k0_chk46 (v154 : BitVec 32) (v156 : BitVec 32) : Prop :=
  (∀ a, (k0_off99 v154 v156) a + S1x1x64.size a ≤ S125000x8x64.size a)
instance k0_chk46.dec : ∀ (v154 : BitVec 32) (v156 : BitVec 32), Decidable (k0_chk46 v154 v156) := fun v154 v156 => decidable_of_iff' _ (Iff.of_eq (k0_chk46.eq_1 v154 v156))
theorem k0_off99_inb : ∀ (v154 : BitVec 32) (v156 : BitVec 32) (k0_hw46 : k0_chk46 v154 v156), ∀ a, (k0_off99 v154 v156) a + S1x1x64.size a ≤ S125000x8x64.size a := fun v154 v156 k0_hw46 => k0_hw46

def k0_off100 (k0_t3 : Fin k0_t3_loop.trips) (c13_i32 : BitVec 32) : Fin 3 → Nat :=
  let c0_i32_20 : BitVec 32 := 0#32
  let c1_i32_22 : BitVec 32 := 1#32
  let arg14 : BitVec 32 := Scf.iv c0_i32_20 c1_i32_22 k0_t3
  let c16_i32_126 : BitVec 32 := 16#32
  let v157 : BitVec 32 := Scalar.muli arg14 c16_i32_126
  let v158 : BitVec 32 := Scalar.addi v157 c13_i32
  let c0_i32_130 : BitVec 32 := 0#32
  let c0_i32_131 : BitVec 32 := 0#32
  ![v158.toNat, 0, 0]
def k0_off101 (v164 : BitVec 32) (v166 : BitVec 32) : Fin 3 → Nat :=
  let c0_i32_136 : BitVec 32 := 0#32
  ![v164.toNat, v166.toNat, 0]

def k0_chk47 (v164 : BitVec 32) (v166 : BitVec 32) : Prop :=
  (∀ a, (k0_off101 v164 v166) a + S1x1x64.size a ≤ S125000x8x64.size a)
instance k0_chk47.dec : ∀ (v164 : BitVec 32) (v166 : BitVec 32), Decidable (k0_chk47 v164 v166) := fun v164 v166 => decidable_of_iff' _ (Iff.of_eq (k0_chk47.eq_1 v164 v166))
theorem k0_off101_inb : ∀ (v164 : BitVec 32) (v166 : BitVec 32) (k0_hw47 : k0_chk47 v164 v166), ∀ a, (k0_off101 v164 v166) a + S1x1x64.size a ≤ S125000x8x64.size a := fun v164 v166 k0_hw47 => k0_hw47

def k0_off102 (k0_t3 : Fin k0_t3_loop.trips) (c14_i32 : BitVec 32) : Fin 3 → Nat :=
  let c0_i32_20 : BitVec 32 := 0#32
  let c1_i32_22 : BitVec 32 := 1#32
  let arg14 : BitVec 32 := Scf.iv c0_i32_20 c1_i32_22 k0_t3
  let c16_i32_133 : BitVec 32 := 16#32
  let v167 : BitVec 32 := Scalar.muli arg14 c16_i32_133
  let v168 : BitVec 32 := Scalar.addi v167 c14_i32
  let c0_i32_137 : BitVec 32 := 0#32
  let c0_i32_138 : BitVec 32 := 0#32
  ![v168.toNat, 0, 0]
def k0_off103 (v174 : BitVec 32) (v176 : BitVec 32) : Fin 3 → Nat :=
  let c0_i32_143 : BitVec 32 := 0#32
  ![v174.toNat, v176.toNat, 0]

def k0_chk48 (v174 : BitVec 32) (v176 : BitVec 32) : Prop :=
  (∀ a, (k0_off103 v174 v176) a + S1x1x64.size a ≤ S125000x8x64.size a)
instance k0_chk48.dec : ∀ (v174 : BitVec 32) (v176 : BitVec 32), Decidable (k0_chk48 v174 v176) := fun v174 v176 => decidable_of_iff' _ (Iff.of_eq (k0_chk48.eq_1 v174 v176))
theorem k0_off103_inb : ∀ (v174 : BitVec 32) (v176 : BitVec 32) (k0_hw48 : k0_chk48 v174 v176), ∀ a, (k0_off103 v174 v176) a + S1x1x64.size a ≤ S125000x8x64.size a := fun v174 v176 k0_hw48 => k0_hw48

def k0_off104 (k0_t3 : Fin k0_t3_loop.trips) : Fin 3 → Nat :=
  let c0_i32_20 : BitVec 32 := 0#32
  let c1_i32_22 : BitVec 32 := 1#32
  let arg14 : BitVec 32 := Scf.iv c0_i32_20 c1_i32_22 k0_t3
  let c16_i32_140 : BitVec 32 := 16#32
  let v177 : BitVec 32 := Scalar.muli arg14 c16_i32_140
  let c15_i32 : BitVec 32 := 15#32
  let v178 : BitVec 32 := Scalar.addi v177 c15_i32
  let c0_i32_144 : BitVec 32 := 0#32
  let c0_i32_145 : BitVec 32 := 0#32
  ![v178.toNat, 0, 0]
abbrev grid1 : Pipeline.Grid := ⟨1, ![4], ![false]⟩

def k1_cond3 (i : grid1.Coords) : BitVec 1 :=
  let arg0 : BitVec 32 := BitVec.ofNat 32 (i 0).val
  let c3_i32 : BitVec 32 := 3#32
  let v61 : BitVec 1 := Scalar.cmpi .eq arg0 c3_i32
  let v62 : BitVec 32 := Scalar.extui v61
  let c0_i32_26 : BitVec 32 := 0#32
  let v63 : BitVec 1 := Scalar.cmpi .ne v62 c0_i32_26
  v63

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S192x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S192x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4096x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1000000x64_S125000x8x64 : S1000000x64.ShapeCasts S125000x8x64
  h_S16 : 0 < S16.numel
  shapeCasts_S16_S16 : S16.ShapeCasts S16
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S125000x8x64_S512x1x64_0_0_0 : ∀ a, (![0, 0, 0] : Fin 3 → Nat) a + S512x1x64.size a ≤ S125000x8x64.size a
  shapeCasts_S16384x1x64_S16384x64 : S16384x1x64.ShapeCasts S16384x64
  transposes_S192x192_S192x192_1_0 : S192x192.Transposes [1, 0] S192x192
  shapeCasts_S192_S1x192 : S192.ShapeCasts S1x192
  transposes_S1x192_S192x1_1_0 : S1x192.Transposes [1, 0] S192x1
  shapeCasts_S1_S1x1 : S1.ShapeCasts S1x1
  inb_S192x192_S192x192_0_0 : ∀ a, (![0, 0] : Fin 2 → Nat) a + S192x192.size a ≤ S192x192.size a
  h_S192x192 : 0 < S192x192.numel
  shapeCasts_S192x192_S192x192 : S192x192.ShapeCasts S192x192
  reduces_S192x192_S192 : S192x192.Reduces [0] S192
  broadcasts_S1x192_S192x192 : S1x192.Broadcasts S192x192
  inb_S192x1_S192x1_0_0 : ∀ a, (![0, 0] : Fin 2 → Nat) a + S192x1.size a ≤ S192x1.size a
  h_S192x1 : 0 < S192x1.numel
  shapeCasts_S192x1_S192x1 : S192x1.ShapeCasts S192x1
  shapeCasts_S192x1_S1x192x1 : S192x1.ShapeCasts S1x192x1
  reduces_S1x192x1_S1 : S1x192x1.Reduces [1, 2] S1
  shapeCasts_S1_S1x1x1 : S1.ShapeCasts S1x1x1
  inpos_S1x1x1_p0_0_0 : ∀ a, (![0, 0, 0] : Fin 3 → Nat) a < S1x1x1.size a
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  concatenates_S4096x64_S4096x64_S4096x64_S4096x192_d1 : Shape.Concatenates [S4096x64, S4096x64, S4096x64] S4096x192 1
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S4096x192 : S1x192.Broadcasts S4096x192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S4096x64_S1x4096x64 : S4096x64.ShapeCasts S1x4096x64
  reduces_S1x4096x64_S1 : S1x4096x64.Reduces [1, 2] S1
  inb_S3_S1_0 : ∀ a, (![0] : Fin 1 → Nat) a + S1.size a ≤ S3.size a
  numel1_S1 : S1.numel = 1
  inb_S3_S1_1 : ∀ a, (![1] : Fin 1 → Nat) a + S1.size a ≤ S3.size a
  inb_S3_S1_2 : ∀ a, (![2] : Fin 1 → Nat) a + S1.size a ≤ S3.size a
  shapeCasts_S1x1_S_ : S1x1.ShapeCasts S_
  dot_S4096x192_S192x192_S4096x192_1_0_0_1_n_n_wf : DotDims.WF S4096x192 S192x192 S4096x192 [1] [0] [0] [1] [] []
  dot_S4096x192_S192x1_S4096x1_1_0_0_1_n_n_wf : DotDims.WF S4096x192 S192x1 S4096x1 [1] [0] [0] [1] [] []
  hcc0_scratch2 : 0 + S_.numel ≤ 20
  hcc0_scoped0 : 1 + S_.numel ≤ 20
  hcc0_scoped1 : 2 + S_.numel ≤ 20
  hcc0_scoped2 : 3 + S_.numel ≤ 20
  hcc0_scoped3 : 4 + S_.numel ≤ 20
  hcc0_scoped4 : 5 + S_.numel ≤ 20
  hcc0_scoped5 : 6 + S_.numel ≤ 20
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off2_inb : ∀ k0_t1 : Fin k0_t1_loop.trips, ∀ a, (k0_off2 k0_t1) a + S16.size a ≤ S512.size a
  k0_off3_inb : ∀ k0_t1 : Fin k0_t1_loop.trips, ∀ a, (k0_off3 k0_t1) a + S1x1x64.size a ≤ S512x1x64.size a
  k0_off5_inb : ∀ k0_t1 : Fin k0_t1_loop.trips, ∀ (r : Fin 2), ∀ a, (k0_off5 k0_t1 (BitVec.ofNat 32 r.val)) a + S1x1x64.size a ≤ S512x1x64.size a
  k0_off7_inb : ∀ k0_t1 : Fin k0_t1_loop.trips, ∀ (r : Fin 2), ∀ a, (k0_off7 k0_t1 (BitVec.ofNat 32 (1 + r.val))) a + S1x1x64.size a ≤ S512x1x64.size a
  k0_off9_inb : ∀ k0_t1 : Fin k0_t1_loop.trips, ∀ (r : Fin 2), ∀ a, (k0_off9 k0_t1 (BitVec.ofNat 32 (2 + r.val))) a + S1x1x64.size a ≤ S512x1x64.size a
  k0_off11_inb : ∀ k0_t1 : Fin k0_t1_loop.trips, ∀ (r : Fin 2), ∀ a, (k0_off11 k0_t1 (BitVec.ofNat 32 (3 + r.val))) a + S1x1x64.size a ≤ S512x1x64.size a
  k0_off13_inb : ∀ k0_t1 : Fin k0_t1_loop.trips, ∀ (r : Fin 2), ∀ a, (k0_off13 k0_t1 (BitVec.ofNat 32 (4 + r.val))) a + S1x1x64.size a ≤ S512x1x64.size a
  k0_off15_inb : ∀ k0_t1 : Fin k0_t1_loop.trips, ∀ (r : Fin 2), ∀ a, (k0_off15 k0_t1 (BitVec.ofNat 32 (5 + r.val))) a + S1x1x64.size a ≤ S512x1x64.size a
  k0_off17_inb : ∀ k0_t1 : Fin k0_t1_loop.trips, ∀ (r : Fin 2), ∀ a, (k0_off17 k0_t1 (BitVec.ofNat 32 (6 + r.val))) a + S1x1x64.size a ≤ S512x1x64.size a
  k0_off19_inb : ∀ k0_t1 : Fin k0_t1_loop.trips, ∀ (r : Fin 2), ∀ a, (k0_off19 k0_t1 (BitVec.ofNat 32 (7 + r.val))) a + S1x1x64.size a ≤ S512x1x64.size a
  k0_off21_inb : ∀ k0_t1 : Fin k0_t1_loop.trips, ∀ (r : Fin 2), ∀ a, (k0_off21 k0_t1 (BitVec.ofNat 32 (8 + r.val))) a + S1x1x64.size a ≤ S512x1x64.size a
  k0_off23_inb : ∀ k0_t1 : Fin k0_t1_loop.trips, ∀ (r : Fin 2), ∀ a, (k0_off23 k0_t1 (BitVec.ofNat 32 (9 + r.val))) a + S1x1x64.size a ≤ S512x1x64.size a
  k0_off25_inb : ∀ k0_t1 : Fin k0_t1_loop.trips, ∀ (r : Fin 2), ∀ a, (k0_off25 k0_t1 (BitVec.ofNat 32 (10 + r.val))) a + S1x1x64.size a ≤ S512x1x64.size a
  k0_off27_inb : ∀ k0_t1 : Fin k0_t1_loop.trips, ∀ (r : Fin 2), ∀ a, (k0_off27 k0_t1 (BitVec.ofNat 32 (11 + r.val))) a + S1x1x64.size a ≤ S512x1x64.size a
  k0_off29_inb : ∀ k0_t1 : Fin k0_t1_loop.trips, ∀ (r : Fin 2), ∀ a, (k0_off29 k0_t1 (BitVec.ofNat 32 (12 + r.val))) a + S1x1x64.size a ≤ S512x1x64.size a
  k0_off31_inb : ∀ k0_t1 : Fin k0_t1_loop.trips, ∀ (r : Fin 2), ∀ a, (k0_off31 k0_t1 (BitVec.ofNat 32 (13 + r.val))) a + S1x1x64.size a ≤ S512x1x64.size a
  k0_off33_inb : ∀ k0_t1 : Fin k0_t1_loop.trips, ∀ (r : Fin 2), ∀ a, (k0_off33 k0_t1 (BitVec.ofNat 32 (14 + r.val))) a + S1x1x64.size a ≤ S512x1x64.size a
  k0_off35_inb : ∀ k0_t1 : Fin k0_t1_loop.trips, ∀ a, (k0_off35 k0_t1) a + S1x1x64.size a ≤ S512x1x64.size a
  k0_off36_inb : ∀ i : grid0.Coords, ∀ a, (k0_off36 i) a + S512x1x64.size a ≤ S16384x1x64.size a
  k0_t2_ok : k0_t2_loop.OK
  k0_off37_inb : ∀ k0_t2 : Fin k0_t2_loop.trips, ∀ a, (k0_off37 k0_t2) a + S16.size a ≤ S512.size a
  k0_off38_inb : ∀ k0_t2 : Fin k0_t2_loop.trips, ∀ a, (k0_off38 k0_t2) a + S1x1x64.size a ≤ S512x1x64.size a
  k0_off40_inb : ∀ k0_t2 : Fin k0_t2_loop.trips, ∀ (r : Fin 2), ∀ a, (k0_off40 k0_t2 (BitVec.ofNat 32 r.val)) a + S1x1x64.size a ≤ S512x1x64.size a
  k0_off42_inb : ∀ k0_t2 : Fin k0_t2_loop.trips, ∀ (r : Fin 2), ∀ a, (k0_off42 k0_t2 (BitVec.ofNat 32 (1 + r.val))) a + S1x1x64.size a ≤ S512x1x64.size a
  k0_off44_inb : ∀ k0_t2 : Fin k0_t2_loop.trips, ∀ (r : Fin 2), ∀ a, (k0_off44 k0_t2 (BitVec.ofNat 32 (2 + r.val))) a + S1x1x64.size a ≤ S512x1x64.size a
  k0_off46_inb : ∀ k0_t2 : Fin k0_t2_loop.trips, ∀ (r : Fin 2), ∀ a, (k0_off46 k0_t2 (BitVec.ofNat 32 (3 + r.val))) a + S1x1x64.size a ≤ S512x1x64.size a
  k0_off48_inb : ∀ k0_t2 : Fin k0_t2_loop.trips, ∀ (r : Fin 2), ∀ a, (k0_off48 k0_t2 (BitVec.ofNat 32 (4 + r.val))) a + S1x1x64.size a ≤ S512x1x64.size a
  k0_off50_inb : ∀ k0_t2 : Fin k0_t2_loop.trips, ∀ (r : Fin 2), ∀ a, (k0_off50 k0_t2 (BitVec.ofNat 32 (5 + r.val))) a + S1x1x64.size a ≤ S512x1x64.size a
  k0_off52_inb : ∀ k0_t2 : Fin k0_t2_loop.trips, ∀ (r : Fin 2), ∀ a, (k0_off52 k0_t2 (BitVec.ofNat 32 (6 + r.val))) a + S1x1x64.size a ≤ S512x1x64.size a
  k0_off54_inb : ∀ k0_t2 : Fin k0_t2_loop.trips, ∀ (r : Fin 2), ∀ a, (k0_off54 k0_t2 (BitVec.ofNat 32 (7 + r.val))) a + S1x1x64.size a ≤ S512x1x64.size a
  k0_off56_inb : ∀ k0_t2 : Fin k0_t2_loop.trips, ∀ (r : Fin 2), ∀ a, (k0_off56 k0_t2 (BitVec.ofNat 32 (8 + r.val))) a + S1x1x64.size a ≤ S512x1x64.size a
  k0_off58_inb : ∀ k0_t2 : Fin k0_t2_loop.trips, ∀ (r : Fin 2), ∀ a, (k0_off58 k0_t2 (BitVec.ofNat 32 (9 + r.val))) a + S1x1x64.size a ≤ S512x1x64.size a
  k0_off60_inb : ∀ k0_t2 : Fin k0_t2_loop.trips, ∀ (r : Fin 2), ∀ a, (k0_off60 k0_t2 (BitVec.ofNat 32 (10 + r.val))) a + S1x1x64.size a ≤ S512x1x64.size a
  k0_off62_inb : ∀ k0_t2 : Fin k0_t2_loop.trips, ∀ (r : Fin 2), ∀ a, (k0_off62 k0_t2 (BitVec.ofNat 32 (11 + r.val))) a + S1x1x64.size a ≤ S512x1x64.size a
  k0_off64_inb : ∀ k0_t2 : Fin k0_t2_loop.trips, ∀ (r : Fin 2), ∀ a, (k0_off64 k0_t2 (BitVec.ofNat 32 (12 + r.val))) a + S1x1x64.size a ≤ S512x1x64.size a
  k0_off66_inb : ∀ k0_t2 : Fin k0_t2_loop.trips, ∀ (r : Fin 2), ∀ a, (k0_off66 k0_t2 (BitVec.ofNat 32 (13 + r.val))) a + S1x1x64.size a ≤ S512x1x64.size a
  k0_off68_inb : ∀ k0_t2 : Fin k0_t2_loop.trips, ∀ (r : Fin 2), ∀ a, (k0_off68 k0_t2 (BitVec.ofNat 32 (14 + r.val))) a + S1x1x64.size a ≤ S512x1x64.size a
  k0_off70_inb : ∀ k0_t2 : Fin k0_t2_loop.trips, ∀ a, (k0_off70 k0_t2) a + S1x1x64.size a ≤ S512x1x64.size a
  k0_t3_ok : k0_t3_loop.OK
  k0_off71_inb : ∀ k0_t3 : Fin k0_t3_loop.trips, ∀ a, (k0_off71 k0_t3) a + S16.size a ≤ S512.size a
  k0_off72_inb : ∀ k0_t3 : Fin k0_t3_loop.trips, ∀ a, (k0_off72 k0_t3) a + S1x1x64.size a ≤ S512x1x64.size a
  k0_off74_inb : ∀ k0_t3 : Fin k0_t3_loop.trips, ∀ (r : Fin 2), ∀ a, (k0_off74 k0_t3 (BitVec.ofNat 32 r.val)) a + S1x1x64.size a ≤ S512x1x64.size a
  k0_off76_inb : ∀ k0_t3 : Fin k0_t3_loop.trips, ∀ (r : Fin 2), ∀ a, (k0_off76 k0_t3 (BitVec.ofNat 32 (1 + r.val))) a + S1x1x64.size a ≤ S512x1x64.size a
  k0_off78_inb : ∀ k0_t3 : Fin k0_t3_loop.trips, ∀ (r : Fin 2), ∀ a, (k0_off78 k0_t3 (BitVec.ofNat 32 (2 + r.val))) a + S1x1x64.size a ≤ S512x1x64.size a
  k0_off80_inb : ∀ k0_t3 : Fin k0_t3_loop.trips, ∀ (r : Fin 2), ∀ a, (k0_off80 k0_t3 (BitVec.ofNat 32 (3 + r.val))) a + S1x1x64.size a ≤ S512x1x64.size a
  k0_off82_inb : ∀ k0_t3 : Fin k0_t3_loop.trips, ∀ (r : Fin 2), ∀ a, (k0_off82 k0_t3 (BitVec.ofNat 32 (4 + r.val))) a + S1x1x64.size a ≤ S512x1x64.size a
  k0_off84_inb : ∀ k0_t3 : Fin k0_t3_loop.trips, ∀ (r : Fin 2), ∀ a, (k0_off84 k0_t3 (BitVec.ofNat 32 (5 + r.val))) a + S1x1x64.size a ≤ S512x1x64.size a
  k0_off86_inb : ∀ k0_t3 : Fin k0_t3_loop.trips, ∀ (r : Fin 2), ∀ a, (k0_off86 k0_t3 (BitVec.ofNat 32 (6 + r.val))) a + S1x1x64.size a ≤ S512x1x64.size a
  k0_off88_inb : ∀ k0_t3 : Fin k0_t3_loop.trips, ∀ (r : Fin 2), ∀ a, (k0_off88 k0_t3 (BitVec.ofNat 32 (7 + r.val))) a + S1x1x64.size a ≤ S512x1x64.size a
  k0_off90_inb : ∀ k0_t3 : Fin k0_t3_loop.trips, ∀ (r : Fin 2), ∀ a, (k0_off90 k0_t3 (BitVec.ofNat 32 (8 + r.val))) a + S1x1x64.size a ≤ S512x1x64.size a
  k0_off92_inb : ∀ k0_t3 : Fin k0_t3_loop.trips, ∀ (r : Fin 2), ∀ a, (k0_off92 k0_t3 (BitVec.ofNat 32 (9 + r.val))) a + S1x1x64.size a ≤ S512x1x64.size a
  k0_off94_inb : ∀ k0_t3 : Fin k0_t3_loop.trips, ∀ (r : Fin 2), ∀ a, (k0_off94 k0_t3 (BitVec.ofNat 32 (10 + r.val))) a + S1x1x64.size a ≤ S512x1x64.size a
  k0_off96_inb : ∀ k0_t3 : Fin k0_t3_loop.trips, ∀ (r : Fin 2), ∀ a, (k0_off96 k0_t3 (BitVec.ofNat 32 (11 + r.val))) a + S1x1x64.size a ≤ S512x1x64.size a
  k0_off98_inb : ∀ k0_t3 : Fin k0_t3_loop.trips, ∀ (r : Fin 2), ∀ a, (k0_off98 k0_t3 (BitVec.ofNat 32 (12 + r.val))) a + S1x1x64.size a ≤ S512x1x64.size a
  k0_off100_inb : ∀ k0_t3 : Fin k0_t3_loop.trips, ∀ (r : Fin 2), ∀ a, (k0_off100 k0_t3 (BitVec.ofNat 32 (13 + r.val))) a + S1x1x64.size a ≤ S512x1x64.size a
  k0_off102_inb : ∀ k0_t3 : Fin k0_t3_loop.trips, ∀ (r : Fin 2), ∀ a, (k0_off102 k0_t3 (BitVec.ofNat 32 (14 + r.val))) a + S1x1x64.size a ≤ S512x1x64.size a
  k0_off104_inb : ∀ k0_t3 : Fin k0_t3_loop.trips, ∀ a, (k0_off104 k0_t3) a + S1x1x64.size a ≤ S512x1x64.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S16384x64.size a
  hwx1_0 : ∀ i : grid1.Coords, EltTy.bits .f32 = 32 ∨ (Rect.block (s := S16384x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S16384x64.size a
  hwx1_1 : ∀ i : grid1.Coords, EltTy.bits .f32 = 32 ∨ (Rect.block (s := S16384x64) S4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S16384x64.size a
  hwx1_2 : ∀ i : grid1.Coords, EltTy.bits .f32 = 32 ∨ (Rect.block (s := S16384x64) S4096x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S192x192.size a ≤ S192x192.size a
  hwx1_3 : ∀ i : grid1.Coords, EltTy.bits .f32 = 32 ∨ (Rect.block (s := S192x192) S192x192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x192.size a ≤ S1x192.size a
  hwx1_4 : ∀ i : grid1.Coords, EltTy.bits .f32 = 32 ∨ (Rect.block (s := S1x192) S1x192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S192x1.size a ≤ S192x1.size a
  hwx1_5 : ∀ i : grid1.Coords, EltTy.bits .f32 = 32 ∨ (Rect.block (s := S192x1) S192x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4096x1.size a ≤ S16384x1.size a
  hwx1_7 : ∀ i : grid1.Coords, EltTy.bits .f32 = 32 ∨ (Rect.block (s := S16384x1) S4096x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
abbrev cc0_scoped3 : DmaSems sig S_ := SemArray.consecutive 4 S_ hcc0_scoped3
abbrev cc0_scoped4 : DmaSems sig S_ := SemArray.consecutive 5 S_ hcc0_scoped4
abbrev cc0_scoped5 : DmaSems sig S_ := SemArray.consecutive 6 S_ hcc0_scoped5
def dot_S4096x192_S192x192_S4096x192_1_0_0_1_n_n : DotDims S4096x192 S192x192 S4096x192 where
  lhsContracting := [1]
  rhsContracting := [0]
  lhsNonContracting := [0]
  rhsNonContracting := [1]
  lhsBatch := []
  rhsBatch := []
  wf := dot_S4096x192_S192x192_S4096x192_1_0_0_1_n_n_wf
def dot_S4096x192_S192x1_S4096x1_1_0_0_1_n_n : DotDims S4096x192 S192x1 S4096x1 where
  lhsContracting := [1]
  rhsContracting := [0]
  lhsNonContracting := [0]
  rhsNonContracting := [1]
  lhsBatch := []
  rhsBatch := []
  wf := dot_S4096x192_S192x1_S4096x1_1_0_0_1_n_n_wf

abbrev win1_0 : Pipeline.Window sig grid1 :=
  Pipeline.Window.ofSpec (Memref.whole main_v4) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S192x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S192x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11_0) S4096x1.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v11_1) S1x1.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond3 i == 1#1) | ⟨_ + 9, h⟩ => absurd h (Nat.not_lt.2 (Nat.le_add_left _ _))

class Facts : Prop extends Facts₀ where

variable [Facts]
-- ==== ReferenceIdeal.lean ====
abbrev S16384 : Shape := ⟨1, ![16384]⟩
abbrev S1000000x64 : Shape := ⟨2, ![1000000, 64]⟩
abbrev S192x192 : Shape := ⟨2, ![192, 192]⟩
abbrev S192 : Shape := ⟨1, ![192]⟩
abbrev S1x192 : Shape := ⟨2, ![1, 192]⟩
abbrev S1 : Shape := ⟨1, ![1]⟩
abbrev S_ : Shape := ⟨0, ![]⟩
abbrev S192x1 : Shape := ⟨2, ![192, 1]⟩
abbrev S1x1 : Shape := ⟨2, ![1, 1]⟩
abbrev S16384x1 : Shape := ⟨2, ![16384, 1]⟩
abbrev S16384x64 : Shape := ⟨2, ![16384, 64]⟩
abbrev S16384x192 : Shape := ⟨2, ![16384, 192]⟩

abbrev nBuf : Space → Nat
  | .hbm => 134
  | .vmem => 0
  | .smem => 0
  | _ => 0

abbrev hbmTy0_0 (i : Nat) : BufTy := match i % 128 with
  | 0 => ⟨S16384, .i32⟩
  | 1 => ⟨S16384, .i32⟩
  | 2 => ⟨S16384, .i32⟩
  | 3 => ⟨S1000000x64, .f32⟩
  | 4 => ⟨S1000000x64, .f32⟩
  | 5 => ⟨S1000000x64, .f32⟩
  | 6 => ⟨S192x192, .f32⟩
  | 7 => ⟨S192, .f32⟩
  | 8 => ⟨S1x192, .f32⟩
  | 9 => ⟨S1, .f32⟩
  | 10 => ⟨S192x192, .f32⟩
  | 11 => ⟨S_, .f32⟩
  | 12 => ⟨S192, .f32⟩
  | 13 => ⟨S192x1, .f32⟩
  | 14 => ⟨S192x1, .f32⟩
  | 15 => ⟨S_, .f32⟩
  | 16 => ⟨S192x1, .f32⟩
  | 17 => ⟨S192x1, .f32⟩
  | 18 => ⟨S192x192, .f32⟩
  | 19 => ⟨S192x192, .f32⟩
  | 20 => ⟨S1x192, .f32⟩
  | 21 => ⟨S_, .f32⟩
  | 22 => ⟨S1, .f32⟩
  | 23 => ⟨S1x1, .f32⟩
  | 24 => ⟨S1x1, .f32⟩
  | 25 => ⟨S_, .f32⟩
  | 26 => ⟨S1x1, .f32⟩
  | 27 => ⟨S1x1, .f32⟩
  | 28 => ⟨S1x192, .f32⟩
  | 29 => ⟨S1x192, .f32⟩
  | 30 => ⟨S_, .i32⟩
  | 31 => ⟨S16384, .i32⟩
  | 32 => ⟨S16384, .i1⟩
  | 33 => ⟨S_, .i32⟩
  | 34 => ⟨S16384, .i32⟩
  | 35 => ⟨S16384, .i32⟩
  | 36 => ⟨S16384, .i32⟩
  | 37 => ⟨S16384x1, .i32⟩
  | 38 => ⟨S1, .i32⟩
  | 39 => ⟨S_, .i32⟩
  | 40 => ⟨S16384x1, .i32⟩
  | 41 => ⟨S16384x1, .i1⟩
  | 42 => ⟨S1x1, .i32⟩
  | 43 => ⟨S16384x1, .i32⟩
  | 44 => ⟨S16384x1, .i1⟩
  | 45 => ⟨S16384x1, .i1⟩
  | 46 => ⟨S_, .i1⟩
  | 47 => ⟨S16384, .i1⟩
  | 48 => ⟨S16384x64, .f32⟩
  | 49 => ⟨S16384x64, .i1⟩
  | 50 => ⟨S_, .f32⟩
  | 51 => ⟨S16384x64, .f32⟩
  | 52 => ⟨S16384x64, .f32⟩
  | 53 => ⟨S_, .i32⟩
  | 54 => ⟨S16384, .i32⟩
  | 55 => ⟨S16384, .i1⟩
  | 56 => ⟨S_, .i32⟩
  | 57 => ⟨S16384, .i32⟩
  | 58 => ⟨S16384, .i32⟩
  | 59 => ⟨S16384, .i32⟩
  | 60 => ⟨S16384x1, .i32⟩
  | 61 => ⟨S1, .i32⟩
  | 62 => ⟨S_, .i32⟩
  | 63 => ⟨S16384x1, .i32⟩
  | 64 => ⟨S16384x1, .i1⟩
  | 65 => ⟨S1x1, .i32⟩
  | 66 => ⟨S16384x1, .i32⟩
  | 67 => ⟨S16384x1, .i1⟩
  | 68 => ⟨S16384x1, .i1⟩
  | 69 => ⟨S_, .i1⟩
  | 70 => ⟨S16384, .i1⟩
  | 71 => ⟨S16384x64, .f32⟩
  | 72 => ⟨S16384x64, .i1⟩
  | 73 => ⟨S_, .f32⟩
  | 74 => ⟨S16384x64, .f32⟩
  | 75 => ⟨S16384x64, .f32⟩
  | 76 => ⟨S_, .i32⟩
  | 77 => ⟨S16384, .i32⟩
  | 78 => ⟨S16384, .i1⟩
  | 79 => ⟨S_, .i32⟩
  | 80 => ⟨S16384, .i32⟩
  | 81 => ⟨S16384, .i32⟩
  | 82 => ⟨S16384, .i32⟩
  | 83 => ⟨S16384x1, .i32⟩
  | 84 => ⟨S1, .i32⟩
  | 85 => ⟨S_, .i32⟩
  | 86 => ⟨S16384x1, .i32⟩
  | 87 => ⟨S16384x1, .i1⟩
  | 88 => ⟨S1x1, .i32⟩
  | 89 => ⟨S16384x1, .i32⟩
  | 90 => ⟨S16384x1, .i1⟩
  | 91 => ⟨S16384x1, .i1⟩
  | 92 => ⟨S_, .i1⟩
  | 93 => ⟨S16384, .i1⟩
  | 94 => ⟨S16384x64, .f32⟩
  | 95 => ⟨S16384x64, .i1⟩
  | 96 => ⟨S_, .f32⟩
  | 97 => ⟨S16384x64, .f32⟩
  | 98 => ⟨S16384x64, .f32⟩
  | 99 => ⟨S16384x192, .f32⟩
  | 100 => ⟨S192x192, .f32⟩
  | 101 => ⟨S16384x192, .f32⟩
  | 102 => ⟨S1x192, .f32⟩
  | 103 => ⟨S16384x192, .f32⟩
  | 104 => ⟨S16384x192, .f32⟩
  | 105 => ⟨S16384x192, .f32⟩
  | 106 => ⟨S16384x192, .f32⟩
  | 107 => ⟨S_, .f32⟩
  | 108 => ⟨S16384x192, .f32⟩
  | 109 => ⟨S16384x192, .f32⟩
  | 110 => ⟨S_, .f32⟩
  | 111 => ⟨S16384x192, .f32⟩
  | 112 => ⟨S16384x192, .f32⟩
  | 113 => ⟨S192x1, .f32⟩
  | 114 => ⟨S16384x1, .f32⟩
  | 115 => ⟨S1x1, .f32⟩
  | 116 => ⟨S16384x1, .f32⟩
  | 117 => ⟨S16384x1, .f32⟩
  | 118 => ⟨S16384x64, .f32⟩
  | 119 => ⟨S_, .f32⟩
  | 120 => ⟨S_, .f32⟩
  | 121 => ⟨S_, .f32⟩
  | 122 => ⟨S16384x64, .f32⟩
  | 123 => ⟨S_, .f32⟩
  | 124 => ⟨S_, .f32⟩
  | 125 => ⟨S_, .f32⟩
  | 126 => ⟨S_, .f32⟩
  | 127 => ⟨S16384x64, .f32⟩
  | _ => ⟨S16384, .i32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_call1_v2 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_v14 : Ref sig .tc := ⟨.hbm, 49, rfl⟩
abbrev main_call2_cst : Ref sig .tc := ⟨.hbm, 50, rfl⟩
abbrev main_call2_v15 : Ref sig .tc := ⟨.hbm, 51, rfl⟩
abbrev main_v10 : Ref sig .tc := ⟨.hbm, 52, rfl⟩
abbrev main_call3_c : Ref sig .tc := ⟨.hbm, 53, rfl⟩
abbrev main_call3_v0 : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_c_1 : Ref sig .tc := ⟨.hbm, 61, rfl⟩
abbrev main_call3_c_2 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_c_3 : Ref sig .tc := ⟨.hbm, 69, rfl⟩
abbrev main_call3_v12 : Ref sig .tc := ⟨.hbm, 70, rfl⟩
abbrev main_call3_v13 : Ref sig .tc := ⟨.hbm, 71, rfl⟩
abbrev main_call3_v14 : Ref sig .tc := ⟨.hbm, 72, rfl⟩
abbrev main_call3_cst : Ref sig .tc := ⟨.hbm, 73, rfl⟩
abbrev main_call3_v15 : Ref sig .tc := ⟨.hbm, 74, rfl⟩
abbrev main_v11 : Ref sig .tc := ⟨.hbm, 75, rfl⟩
abbrev main_call4_c : Ref sig .tc := ⟨.hbm, 76, rfl⟩
abbrev main_call4_v0 : Ref sig .tc := ⟨.hbm, 77, rfl⟩
abbrev main_call4_v1 : Ref sig .tc := ⟨.hbm, 78, rfl⟩
abbrev main_call4_c_0 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_v5 : Ref sig .tc := ⟨.hbm, 83, rfl⟩
abbrev main_call4_c_1 : Ref sig .tc := ⟨.hbm, 84, rfl⟩
abbrev main_call4_c_2 : Ref sig .tc := ⟨.hbm, 85, rfl⟩
abbrev main_call4_v6 : Ref sig .tc := ⟨.hbm, 86, rfl⟩
abbrev main_call4_v7 : Ref sig .tc := ⟨.hbm, 87, rfl⟩
abbrev main_call4_v8 : Ref sig .tc := ⟨.hbm, 88, rfl⟩
abbrev main_call4_v9 : Ref sig .tc := ⟨.hbm, 89, rfl⟩
abbrev main_call4_v10 : Ref sig .tc := ⟨.hbm, 90, rfl⟩
abbrev main_call4_v11 : Ref sig .tc := ⟨.hbm, 91, rfl⟩
abbrev main_call4_c_3 : Ref sig .tc := ⟨.hbm, 92, rfl⟩
abbrev main_call4_v12 : Ref sig .tc := ⟨.hbm, 93, rfl⟩
abbrev main_call4_v13 : Ref sig .tc := ⟨.hbm, 94, rfl⟩
abbrev main_call4_v14 : Ref sig .tc := ⟨.hbm, 95, rfl⟩
abbrev main_call4_cst : Ref sig .tc := ⟨.hbm, 96, rfl⟩
abbrev main_call4_v15 : Ref sig .tc := ⟨.hbm, 97, rfl⟩
abbrev main_v12 : Ref sig .tc := ⟨.hbm, 98, rfl⟩
abbrev main_v13 : Ref sig .tc := ⟨.hbm, 99, rfl⟩
abbrev main_v14 : Ref sig .tc := ⟨.hbm, 100, rfl⟩
abbrev main_v15 : Ref sig .tc := ⟨.hbm, 101, rfl⟩
abbrev main_v16 : Ref sig .tc := ⟨.hbm, 102, rfl⟩
abbrev main_v17 : Ref sig .tc := ⟨.hbm, 103, rfl⟩
abbrev main_v18 : Ref sig .tc := ⟨.hbm, 104, rfl⟩
abbrev main_v19 : Ref sig .tc := ⟨.hbm, 105, rfl⟩
abbrev main_v20 : Ref sig .tc := ⟨.hbm, 106, rfl⟩
abbrev main_cst_1 : Ref sig .tc := ⟨.hbm, 107, rfl⟩
abbrev main_v21 : Ref sig .tc := ⟨.hbm, 108, rfl⟩
abbrev main_v22 : Ref sig .tc := ⟨.hbm, 109, rfl⟩
abbrev main_cst_2 : Ref sig .tc := ⟨.hbm, 110, rfl⟩
abbrev main_v23 : Ref sig .tc := ⟨.hbm, 111, rfl⟩
abbrev main_v24 : Ref sig .tc := ⟨.hbm, 112, rfl⟩
abbrev main_v25 : Ref sig .tc := ⟨.hbm, 113, rfl⟩
abbrev main_v26 : Ref sig .tc := ⟨.hbm, 114, rfl⟩
abbrev main_v27 : Ref sig .tc := ⟨.hbm, 115, rfl⟩
abbrev main_v28 : Ref sig .tc := ⟨.hbm, 116, rfl⟩
abbrev main_v29 : Ref sig .tc := ⟨.hbm, 117, rfl⟩
abbrev main_call5_v0 : Ref sig .tc := ⟨.hbm, 118, rfl⟩
abbrev main_call5_cst : Ref sig .tc := ⟨.hbm, 119, rfl⟩
abbrev main_call5_v1 : Ref sig .tc := ⟨.hbm, 120, rfl⟩
abbrev main_v30 : Ref sig .tc := ⟨.hbm, 121, rfl⟩
abbrev main_call6_v0 : Ref sig .tc := ⟨.hbm, 122, rfl⟩
abbrev main_call6_cst : Ref sig .tc := ⟨.hbm, 123, rfl⟩
abbrev main_call6_v1 : Ref sig .tc := ⟨.hbm, 124, rfl⟩
abbrev main_v31 : Ref sig .tc := ⟨.hbm, 125, rfl⟩
abbrev main_v32 : Ref sig .tc := ⟨.hbm, 126, rfl⟩
abbrev main_call7_v0 : Ref sig .tc := ⟨.hbm, 127, rfl⟩
abbrev main_call7_cst : Ref sig .tc := ⟨.hbm, 128, rfl⟩
abbrev main_call7_v1 : Ref sig .tc := ⟨.hbm, 129, rfl⟩
abbrev main_v33 : Ref sig .tc := ⟨.hbm, 130, rfl⟩
abbrev main_v34 : Ref sig .tc := ⟨.hbm, 131, rfl⟩
abbrev main_cst_3 : Ref sig .tc := ⟨.hbm, 132, rfl⟩
abbrev main_v35 : Ref sig .tc := ⟨.hbm, 133, rfl⟩

abbrev nD : Nat := 1
abbrev τ : Topo := Topo.v7x

variable {F : FTy → Type} [FloatOps F]

class Facts₀ : Prop where
  reducesTo_S192x192_S192_d1 : S192x192.ReducesTo [1] S192
  h_S_ : 0 < S_.numel
  bcast_S192_S192x1_0 : S192.BroadcastsInDim S192x1 (![0] : Fin 1 → Fin S192x1.rank)
  bcast_S_S192x1 : S_.BroadcastsInDim S192x1 (![] : Fin 0 → Fin S192x1.rank)
  bcast_S192x1_S192x192_0_1 : S192x1.BroadcastsInDim S192x192 (![0, 1] : Fin 2 → Fin S192x192.rank)
  reducesTo_S1x192_S1_d1 : S1x192.ReducesTo [1] S1
  bcast_S1_S1x1_0 : S1.BroadcastsInDim S1x1 (![0] : Fin 1 → Fin S1x1.rank)
  bcast_S_S1x1 : S_.BroadcastsInDim S1x1 (![] : Fin 0 → Fin S1x1.rank)
  bcast_S1x1_S1x192_0_1 : S1x1.BroadcastsInDim S1x192 (![0, 1] : Fin 2 → Fin S1x192.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  bcast_S16384_S16384x64_0 : S16384.BroadcastsInDim S16384x64 (![0] : Fin 1 → Fin S16384x64.rank)
  bcast_S_S16384x64 : S_.BroadcastsInDim S16384x64 (![] : Fin 0 → Fin S16384x64.rank)
  concatenates_S16384x64_S16384x64_S16384x64_S16384x192_d1 : Shape.Concatenates [S16384x64, S16384x64, S16384x64] S16384x192 1
  transposes_S192x192_S192x192_1_0 : S192x192.Transposes [1, 0] S192x192
  bcast_S192_S1x192_1 : S192.BroadcastsInDim S1x192 (![1] : Fin 1 → Fin S1x192.rank)
  bcast_S1x192_S16384x192_0_1 : S1x192.BroadcastsInDim S16384x192 (![0, 1] : Fin 2 → Fin S16384x192.rank)
  bcast_S_S16384x192 : S_.BroadcastsInDim S16384x192 (![] : Fin 0 → Fin S16384x192.rank)
  transposes_S1x192_S192x1_1_0 : S1x192.Transposes [1, 0] S192x1
  reducesTo_S16384x64_S_d0_1 : S16384x64.ReducesTo [0, 1] S_
  gather_S1000000x64_S16384x1_S16384x64_1_0_n_n_0_1_164_wf : GatherDims.WF S1000000x64 S16384x1 S16384x64 [1] [0] [] [0] [] 1 ![1, 64]
  dot_S16384x192_S192x192_S16384x192_1_0_0_1_n_n_wf : DotDims.WF S16384x192 S192x192 S16384x192 [1] [0] [0] [1] [] []
  dot_S16384x192_S192x1_S16384x1_1_0_0_1_n_n_wf : DotDims.WF S16384x192 S192x1 S16384x1 [1] [0] [0] [1] [] []

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def dot_S16384x192_S192x192_S16384x192_1_0_0_1_n_n : DotDims S16384x192 S192x192 S16384x192 where
  lhsContracting := [1]
  rhsContracting := [0]
  lhsNonContracting := [0]
  rhsNonContracting := [1]
  lhsBatch := []
  rhsBatch := []
  wf := dot_S16384x192_S192x192_S16384x192_1_0_0_1_n_n_wf
def dot_S16384x192_S192x1_S16384x1_1_0_0_1_n_n : DotDims S16384x192 S192x1 S16384x1 where
  lhsContracting := [1]
  rhsContracting := [0]
  lhsNonContracting := [0]
  rhsNonContracting := [1]
  lhsBatch := []
  rhsBatch := []
  wf := dot_S16384x192_S192x1_S16384x1_1_0_0_1_n_n_wf

class Facts : Prop extends Facts₀ where

variable [Facts]
-- ==== Proof.GhostTypes.lean ====
/-
  The ghost state of the SparseCore launch: the handshakes' rounds, the TensorCore region's rounds, the transfers'
  counters. The counters are found by instance search (`Transfers.CountersIn`) in the RIGHTMOST factor of a product:
  `CountersIn Counters`, and `CountersIn (A × B)` from `CountersIn B`; so they stand last.
-/
import proofs.«203152_g22136261444366_cont_8to1_1253_39_alg».proof.KernelIdeal
import Idealize.ShloMosaic.Lib.SparseCore.Launch
import Idealize.ShloMosaic.Lib.Pipeline.Kit
import Idealize.ShloMosaic.Lib.Transfers

noncomputable section

namespace Cert.Proof.KI

open Cert.KernelIdeal
open Idealize.ShloMosaic
open Idealize.SL Idealize.SL.RA
open Idealize.ShloMosaic.Rounds

/-- The handshakes' rounds. -/
abbrev UH : Type := URounds (GSem nD τ sig) ℕ
/-- The launch's ghost state: the handshakes' rounds, the region's rounds, the transfers' counters. -/
abbrev UU : Type := UH × (UR sig nD τ × Counters)

/-- The counters are found in the ghost state. -/
example : CountersIn UU := inferInstance

end Cert.Proof.KI

end
-- ==== Proof.KOps.lean ====
/-
  The host operations around the two calls of the idealized program's entry function, named, and the contents of
  the TensorCore's arrays after each stretch of them: the three tables viewed [125000, 8, 64]; the gather call;
  the gathered arrays viewed [16384, 64], both weight matrices transposed and both biases given a unit axis; the
  dense-layer call; the [1, 1] regulariser viewed as a scalar. The two calls act on the contents by functions
  given as arguments.
-/
import proofs.«203152_g22136261444366_cont_8to1_1253_39_alg».proof.Defs
import Idealize.ShloMosaic.Lib.StableHlo.Run
import proofs.«203152_g22136261444366_cont_8to1_1253_39_alg».proof.Proof.Gen.KernelIdeal

noncomputable section

namespace Cert.Proof.KI

open Cert.KernelIdeal Cert.KernelIdeal.Gen

open Idealize.ShloMosaic
open Idealize.SL.Sem

variable {F : FTy → Type}

/-! ## The TensorCore's arrays as device buffers -/

abbrev r (b : Ref sig .tc) : DevRef τ sig := Proc.devRef .tc b

variable [FloatOps F]

/-! ## The host operations of @main, named -/

abbrev opT0 : HloOp τ sig (Elt F) := StableHlo.reshape main_arg3 main_v0 rfl shapeCasts_S1000000x64_S125000x8x64
abbrev opT1 : HloOp τ sig (Elt F) := StableHlo.reshape main_arg4 main_v1 rfl shapeCasts_S1000000x64_S125000x8x64
abbrev opT2 : HloOp τ sig (Elt F) := StableHlo.reshape main_arg5 main_v2 rfl shapeCasts_S1000000x64_S125000x8x64
abbrev opX0 : HloOp τ sig (Elt F) := StableHlo.reshape main_v3_0 main_v4 rfl shapeCasts_S16384x1x64_S16384x64
abbrev opX1 : HloOp τ sig (Elt F) := StableHlo.reshape main_v3_1 main_v5 rfl shapeCasts_S16384x1x64_S16384x64
abbrev opX2 : HloOp τ sig (Elt F) := StableHlo.reshape main_v3_2 main_v6 rfl shapeCasts_S16384x1x64_S16384x64
abbrev opW1 : HloOp τ sig (Elt F) := StableHlo.unary main_arg6 main_v7 ((transpose S192x192 [1, 0] · transposes_S192x192_S192x192_1_0) : (⟨S192x192, .f32⟩ : BufTy).Contents (Elt F) → (⟨S192x192, .f32⟩ : BufTy).Contents (Elt F))
abbrev opB1 : HloOp τ sig (Elt F) := StableHlo.reshape main_arg7 main_v8 rfl shapeCasts_S192_S1x192
abbrev opW2 : HloOp τ sig (Elt F) := StableHlo.unary main_arg8 main_v9 ((transpose S192x1 [1, 0] · transposes_S1x192_S192x1_1_0) : (⟨S1x192, .f32⟩ : BufTy).Contents (Elt F) → (⟨S192x1, .f32⟩ : BufTy).Contents (Elt F))
abbrev opB2 : HloOp τ sig (Elt F) := StableHlo.reshape main_arg9 main_v10 rfl shapeCasts_S1_S1x1
abbrev opRg : HloOp τ sig (Elt F) := StableHlo.reshape main_v11_1 main_v12 rfl shapeCasts_S1x1_S_

/-! ## The valuations along @main -/

variable (m : (ℓ : Loc nD τ sig) → Buf (Elt F) ℓ) (ρ : Dev nD → PrngReg)

-- what the SparseCore call and the pallas_call do to the valuation: given by their proofs
variable (Vsc Vtc : Valuation τ sig (Elt F) → Valuation τ sig (Elt F))

abbrev V0 (d : Dev nD) : Valuation τ sig (Elt F) := fun b => m (d, b)
abbrev V1 (d : Dev nD) : Valuation τ sig (Elt F) := (opT2 (F := F)).result ((opT1 (F := F)).result ((opT0 (F := F)).result (V0 m d)))
abbrev V2 (d : Dev nD) : Valuation τ sig (Elt F) := Vsc (V1 m d)
abbrev V3 (d : Dev nD) : Valuation τ sig (Elt F) :=
  (opB2 (F := F)).result ((opW2 (F := F)).result ((opB1 (F := F)).result ((opW1 (F := F)).result
    ((opX2 (F := F)).result ((opX1 (F := F)).result ((opX0 (F := F)).result (V2 m Vsc d)))))))
abbrev V4 (d : Dev nD) : Valuation τ sig (Elt F) := Vtc (V3 m Vsc d)
abbrev V5 (d : Dev nD) : Valuation τ sig (Elt F) := (opRg (F := F)).result (V4 m Vsc Vtc d)

end Cert.Proof.KI

end
-- ==== Proof.KMain.lean ====
/-
  @main of the idealized kernel on the TensorCore, step by step: three reshapes of the tables to
  [125000, 8, 64]; the SparseCore call (the operands handed to the two SparseCores, the three gathered arrays
  back); the reshapes and transposes that prepare the pallas_call's operands; the pallas_call; the final reshape
  of the [1, 1] result to a scalar. Every unscoped array of the TensorCore is held whole throughout at ONE
  valuation, updated by each step: the host operations by their own result, the two calls by the functions
  their proofs state. The two calls enter as hypotheses of this module (their shapes only), so that the host
  part is checked on its own.
-/
import proofs.«203152_g22136261444366_cont_8to1_1253_39_alg».proof.Defs
import Idealize.ShloMosaic.Lib.SparseCore.Launch
import Idealize.ShloMosaic.Lib.StableHlo.Run
import Idealize.ShloMosaic.Lib.Pipeline.Kit
import Idealize.ShloMosaic.Lib.Pipeline.Frame
import Idealize.ShloMosaic.Lib.Tactic
import proofs.«203152_g22136261444366_cont_8to1_1253_39_alg».proof.Proof.Gen.KernelIdeal
import proofs.«203152_g22136261444366_cont_8to1_1253_39_alg».proof.Proof.GhostTypes
import proofs.«203152_g22136261444366_cont_8to1_1253_39_alg».proof.Proof.KOps

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split wp_hlo_within)
open Idealize.ShloMosaic.Pipeline (ucRefs unscopedBufs_held sub_ucRefs)
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]

/-- The nine arrays the SparseCore call is handed: the three index arrays, the three reshaped tables, the three outputs. -/
abbrev S9 : Finset (DevRef τ sig) :=
  {r main_arg0, r main_arg1, r main_arg2, r main_v0, r main_v1, r main_v2, r main_v3_0, r main_v3_1, r main_v3_2}

theorem S9_sub : S9 ⊆ ucRefs τ sig := by decide

variable (m : (ℓ : Loc nD τ sig) → Buf (Elt F) ℓ) (ρ : Dev nD → PrngReg)
variable (Vsc Vtc : Valuation τ sig (Elt F) → Valuation τ sig (Elt F))

/-- After the SparseCore call: the nine arrays at the call's valuation and the rest where it was are all the
    arrays at the call's valuation (the call changes nothing else). -/
theorem held_after_sc (h_scframe : ∀ W b, b ∉ S9 → Vsc W b = W b) (d : Dev nD) :
    iprop((held (T d) S9 (V2 m Vsc d) : sProp (MT nD τ sig (HIx 1) (Elt F) ℕ UU ℕ)) ∗ held (T d) (ucRefs τ sig \ S9) (V1 m d))
      ⊢ (held (T d) (ucRefs τ sig) (V2 m Vsc d) : sProp (MT nD τ sig (HIx 1) (Elt F) ℕ UU ℕ)) := by
  refine Entails.of_eq ?_
  have e1 : (held (T d) (ucRefs τ sig \ S9) (V1 m d) : sProp (MT nD τ sig (HIx 1) (Elt F) ℕ UU ℕ)) = held (T d) (ucRefs τ sig \ S9) (V2 m Vsc d) :=
    StableHlo.held_congr (T d) fun b hb => (h_scframe _ b (Finset.mem_sdiff.mp hb).2).symm
  rw [e1]
  exact (held_sub_split (T d) S9_sub (V2 m Vsc d)).symm

/-! ## @main -/

section Main

local notation "𝕄" => MT nD τ sig (HIx 1) (Elt F) ℕ UU ℕ

variable (EH : Emb UH (MT nD τ sig (HIx 1) (Elt F) ℕ UU ℕ))
variable (P : (K (F := F)).Pay (nD := nD) (Val := Elt F) (Name := ℕ) (U := UU))
variable (Gk : Dev nD → sProp (MT nD τ sig (HIx 1) (Elt F) ℕ UU ℕ))

/-- What @main leaves the claim: every unscoped array of the TensorCore at the last valuation. -/
abbrev FIN (d : Dev nD) : sProp 𝕄 := held (T d) (ucRefs τ sig) (V5 m Vsc Vtc d)

/-- @main on device `d`'s TensorCore, from the two calls' rules: the SparseCore call takes the nine arrays at the
    valuation before it and brings them back at `Vsc` of it (`h_st`, `h_dn`: through the launch theorem's `wp_run`);
    the pallas_call takes the boundary, every unscoped array, the TensorCore's own semaphores and its kit `Gk d`, and
    brings the arrays back at `Vtc` of the valuation (`h_rg`). -/
theorem hmain
    (h_st : ∀ d, (held (T d) S9 (V1 m d) : sProp 𝕄) ⊢ bigSep Finset.univ fun c : Fin ((K (F := F)).nCore 0) => P.st 0 d c)
    (h_dn : ∀ d, (bigSep Finset.univ fun c : Fin ((K (F := F)).nCore 0) => P.dn 0 d c) ⊢ (held (T d) S9 (V2 m Vsc d) : sProp 𝕄))
    (h_scframe : ∀ W b, b ∉ S9 → Vsc W b = W b)
    (h_rg : ∀ (κ : GSem nD τ sig → ℕ) (d : Dev nD) (Φ : PUnit → sProp 𝕄),
      iprop((K (F := F)).ctx EH P κ ∗ (K (F := F)).tcSt EH d 1 ∗ boundary (T d) ∗ held (T d) (ucRefs τ sig) (V3 m Vsc d) ∗ (K (F := F)).tcSems0 d ∗ Gk d
          ∗ (((K (F := F)).tcSt EH d 1 ∗ boundary (T d) ∗ held (T d) (ucRefs τ sig) (V4 m Vsc Vtc d)) -∗ Φ ⟨⟩))
        ⊢ wp frame (wpE ((K (F := F)).defs (D (F := F))) 𝒱 (T d) none) Set.univ (Prog.lift (.customCall (SparseCore.inner (Pipeline.entry 0)) ())) Φ)
    (κ : GSem nD τ sig → ℕ) (d : Dev nD) :
    iprop((K (F := F)).ctx EH P κ ∗ (K (F := F)).tcSt EH d 0 ∗ (K (F := F)).tcRes m ρ d ∗ Gk d)
      ⊢ wp frame (wpE ((K (F := F)).defs (D (F := F))) 𝒱 (T d) none) Set.univ (main d)
          fun _ => iprop((K (F := F)).tcSt EH d 1 ∗ FIN m Vsc Vtc d) := by
  unfold SparseCore.Cfg.tcRes
  rw [show (unscopedBufs (Ix := HIx 1) (Name := ℕ) (U := UU) (Lvl := ℕ) d (fun b => m ((d.tc : Thread nD τ).loc b))) = held (d.tc : Thread nD τ) (ucRefs τ sig) (fun b => m (d, b))
    from unscopedBufs_held (Ix := HIx 1) (Name := ℕ) (U := UU) (Lvl := ℕ) d (fun b => m (d, b))]
  simp only [main, wp_bind, wp_pure]
  iintro ⟨#Hctx, Hst, ⟨Hb, Hheld, Hsems, -⟩, HG⟩
  -- the three reshapes of the tables
  iapply (wp_hlo_within 𝒱 (T d) none Set.univ (op := opT0) (S := ucRefs τ sig) (sub_ucRefs _ (StableHlo.reshape_bufs_sub ..)) (V := V0 m d)) $$ [Hb Hheld]
  · isplitl [Hb] <;> iassumption
  iintro ⟨Hb, Hheld⟩; rw [wp_ret]; imodintro
  iapply (wp_hlo_within 𝒱 (T d) none Set.univ (op := opT1) (S := ucRefs τ sig) (sub_ucRefs _ (StableHlo.reshape_bufs_sub ..))) $$ [Hb Hheld]
  · isplitl [Hb] <;> iassumption
  iintro ⟨Hb, Hheld⟩; rw [wp_ret]; imodintro
  iapply (wp_hlo_within 𝒱 (T d) none Set.univ (op := opT2) (S := ucRefs τ sig) (sub_ucRefs _ (StableHlo.reshape_bufs_sub ..))) $$ [Hb Hheld]
  · isplitl [Hb] <;> iassumption
  iintro ⟨Hb, Hheld⟩; rw [wp_ret]; imodintro
  -- the SparseCore call
  ihave Hh := (Entails.of_eq (held_sub_split (T d) S9_sub (V1 m d))) $$ Hheld
  icases Hh with ⟨H9, Hrest⟩
  iapply ((K (F := F)).wp_run (D (F := F)) 𝒱 (EH := EH) (P := P) κ d 0) $$ [Hst H9 Hb Hrest Hsems HG]
  isplitr; · iexact Hctx
  isplitl [Hst]; · iexact Hst
  isplitl [H9]; · iapply (h_st d); iexact H9
  iintro ⟨Hst, Hdn⟩
  ihave H9 := (h_dn d) $$ Hdn
  ihave Hheld := (held_after_sc m Vsc h_scframe d) $$ [H9 Hrest]
  · isplitl [H9] <;> iassumption
  -- the operands of the pallas_call
  iapply (wp_hlo_within 𝒱 (T d) none Set.univ (op := opX0) (S := ucRefs τ sig) (sub_ucRefs _ (StableHlo.reshape_bufs_sub ..))) $$ [Hb Hheld]
  · isplitl [Hb] <;> iassumption
  iintro ⟨Hb, Hheld⟩; rw [wp_ret]; imodintro
  iapply (wp_hlo_within 𝒱 (T d) none Set.univ (op := opX1) (S := ucRefs τ sig) (sub_ucRefs _ (StableHlo.reshape_bufs_sub ..))) $$ [Hb Hheld]
  · isplitl [Hb] <;> iassumption
  iintro ⟨Hb, Hheld⟩; rw [wp_ret]; imodintro
  iapply (wp_hlo_within 𝒱 (T d) none Set.univ (op := opX2) (S := ucRefs τ sig) (sub_ucRefs _ (StableHlo.reshape_bufs_sub ..))) $$ [Hb Hheld]
  · isplitl [Hb] <;> iassumption
  iintro ⟨Hb, Hheld⟩; rw [wp_ret]; imodintro
  iapply (wp_hlo_within 𝒱 (T d) none Set.univ (op := opW1) (S := ucRefs τ sig) (sub_ucRefs _ (StableHlo.unary_bufs_sub ..))) $$ [Hb Hheld]
  · isplitl [Hb] <;> iassumption
  iintro ⟨Hb, Hheld⟩; rw [wp_ret]; imodintro
  iapply (wp_hlo_within 𝒱 (T d) none Set.univ (op := opB1) (S := ucRefs τ sig) (sub_ucRefs _ (StableHlo.reshape_bufs_sub ..))) $$ [Hb Hheld]
  · isplitl [Hb] <;> iassumption
  iintro ⟨Hb, Hheld⟩; rw [wp_ret]; imodintro
  iapply (wp_hlo_within 𝒱 (T d) none Set.univ (op := opW2) (S := ucRefs τ sig) (sub_ucRefs _ (StableHlo.unary_bufs_sub ..))) $$ [Hb Hheld]
  · isplitl [Hb] <;> iassumption
  iintro ⟨Hb, Hheld⟩; rw [wp_ret]; imodintro
  iapply (wp_hlo_within 𝒱 (T d) none Set.univ (op := opB2) (S := ucRefs τ sig) (sub_ucRefs _ (StableHlo.reshape_bufs_sub ..))) $$ [Hb Hheld]
  · isplitl [Hb] <;> iassumption
  iintro ⟨Hb, Hheld⟩; rw [wp_ret]; imodintro
  -- the pallas_call
  iapply (h_rg κ d) $$ [Hst Hb Hheld Hsems HG]
  isplitr; · iexact Hctx
  isplitl [Hst]; · iexact Hst
  isplitl [Hb]; · iexact Hb
  isplitl [Hheld]; · iexact Hheld
  isplitl [Hsems]; · iexact Hsems
  isplitl [HG]; · iexact HG
  iintro ⟨Hst, Hb, Hheld⟩
  -- the scalar result
  iapply (wp_hlo_within 𝒱 (T d) none Set.univ (op := opRg) (S := ucRefs τ sig) (sub_ucRefs _ (StableHlo.reshape_bufs_sub ..))) $$ [Hb Hheld]
  · isplitl [Hb] <;> iassumption
  iintro ⟨Hb, Hheld⟩
  rw [wp_ret]; imodintro; imodintro
  isplitl [Hst]; · iexact Hst
  iexact Hheld

end Main

end Cert.Proof.KI

end
-- ==== Proof.KHeld.lean ====
/-
  Under the state interpretation, a set of whole buffers held at a valuation pins the physical contents of every
  buffer of the set: what reads the claim off the final memory.
-/
import Idealize.ShloMosaic.Lib.SparseCore.Launch
import Idealize.ShloMosaic.Lib.StableHlo.Run
import Idealize.ShloMosaic.Lib.Tactic

noncomputable section

namespace Cert.Proof.Held

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.StableHlo (held)

variable {nD : Nat} {τ : Topo} {sig : RefSig} {Val : EltTy → Type}
variable {Ix : Type} [DecidableEq Ix] {Name : Type} [DecidableEq Name] {U : Type} [URA U] {Lvl : Type} [Preorder Lvl]

/-- One whole buffer at the full share: the physical contents are its contents. -/
theorem one_agree (ℓ : Loc nD τ sig) (f : Buf Val ℓ) (s' : Phys nD τ sig Val) :
    iprop((ℓ ↦{fullShare} f : sProp (MT nD τ sig Ix Val Name U Lvl)) ∗ SI s') ⊢ (⌜s'.mem.mem ℓ = f⌝ : sProp (MT nD τ sig Ix Val Name U Lvl)) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- Every buffer of a held set: each is one summand of the set's separating conjunction. -/
theorem held_agree (c : Thread nD τ) (S : Finset (DevRef τ sig)) (W : Valuation τ sig Val) (s' : Phys nD τ sig Val) :
    iprop((held c S W : sProp (MT nD τ sig Ix Val Name U Lvl)) ∗ SI s') ⊢ (⌜∀ b ∈ S, s'.mem.mem (c.1, b) = W b⌝ : sProp (MT nD τ sig Ix Val Name U Lvl)) := by
  have h1 : ∀ b ∈ S, iprop((held c S W : sProp (MT nD τ sig Ix Val Name U Lvl)) ∗ SI s') ⊢ (⌜s'.mem.mem (c.1, b) = W b⌝ : sProp (MT nD τ sig Ix Val Name U Lvl)) := by
    intro b hb
    have hE : (held c S W : sProp (MT nD τ sig Ix Val Name U Lvl)) ⊢ ((((c.1, b) : Loc nD τ sig) ↦{fullShare} W b : sProp (MT nD τ sig Ix Val Name U Lvl))) := by
      unfold held; exact bigSep_elim hb
    exact (BI.sep_mono_l hE).trans (one_agree (c.1, b) (W b) s')
  exact fun a ha b hb => h1 b hb a ha

end Cert.Proof.Held

end
-- ==== Proof.KFun.lean ====
/- The two results of the TensorCore region as pure functions of its seven operand arrays, at any float
   instance: the inference block row by row, and the regulariser from the three sums of squares accumulated
   over the four grid points. Stated over the payloads of the body's skeleton, each window's block read off
   its array the way the pipeline reads it. -/
import proofs.«203152_g22136261444366_cont_8to1_1253_39_alg».proof.Proof.Gen.KernelIdeal.Skeleton

noncomputable section

namespace Cert.KernelIdeal.KFun

open Idealize.ShloMosaic Idealize.SL.Sem
open Cert.KernelIdeal.Gen

variable {F : FTy → Type} [FloatOps F]

/-- The grid has four points. -/
theorem N4 : cfg1.N = 4 := by decide

/-- Grid point number `n`. -/
abbrev pt (n : Nat) (h : n < 4 := by decide) : Fin cfg1.N := ⟨n, lt_of_lt_of_eq h N4.symm⟩

/-! ## Each window's block at a grid point, read off its array -/

/-- Rows `4096 t … 4096 t + 4095` of the first gathered array. -/
abbrev blk0 (t : Fin cfg1.N) (A : Vec F S16384x64 .f32) : Vec F S4096x64 .f32 := ((cfg1.win 0).blk t).view.read (Elt F) A
/-- The same rows of the second gathered array. -/
abbrev blk1 (t : Fin cfg1.N) (A : Vec F S16384x64 .f32) : Vec F S4096x64 .f32 := ((cfg1.win 1).blk t).view.read (Elt F) A
/-- The same rows of the third gathered array. -/
abbrev blk2 (t : Fin cfg1.N) (A : Vec F S16384x64 .f32) : Vec F S4096x64 .f32 := ((cfg1.win 2).blk t).view.read (Elt F) A
/-- The first weight matrix (its one block is all of it). -/
abbrev blk3 (t : Fin cfg1.N) (A : Vec F S192x192 .f32) : Vec F S192x192 .f32 := ((cfg1.win 3).blk t).view.read (Elt F) A
/-- The first bias row. -/
abbrev blk4 (t : Fin cfg1.N) (A : Vec F S1x192 .f32) : Vec F S1x192 .f32 := ((cfg1.win 4).blk t).view.read (Elt F) A
/-- The second weight column. -/
abbrev blk5 (t : Fin cfg1.N) (A : Vec F S192x1 .f32) : Vec F S192x1 .f32 := ((cfg1.win 5).blk t).view.read (Elt F) A
/-- The second bias. -/
abbrev blk6 (t : Fin cfg1.N) (A : Vec F S1x1 .f32) : Vec F S1x1 .f32 := ((cfg1.win 6).blk t).view.read (Elt F) A

/-! ## The inference result -/

/-- The grid point whose block holds row `i 0` of the result. -/
def ptOf (i : S16384x1.Idx) : Fin cfg1.N :=
  ⟨(i 0).val / 4096, lt_of_lt_of_eq (Nat.div_lt_of_lt_mul (i 0).isLt) N4.symm⟩

/-- The position of row `i 0` inside that block. -/
def rowIn (i : S16384x1.Idx) : S4096x1.Idx := fun a =>
  ⟨(i a).val % S4096x1.size a, Nat.mod_lt _ (by revert a; decide)⟩

/-- What the body stores into the inference window at grid point `t`: the whole block as one pure term of
    the seven blocks it loads. -/
def infBlk (t : Fin cfg1.N) (A4 A5 A6 : Vec F S16384x64 .f32) (A7 : Vec F S192x192 .f32) (A8 : Vec F S1x192 .f32)
    (A9 : Vec F S192x1 .f32) (A10 : Vec F S1x1 .f32) : FVec F S4096x1 .f32 :=
  k1_pay11 (blk3 t A7) (blk5 t A9) (blk0 t A4) (blk1 t A5) (blk2 t A6) (blk4 t A8) (blk6 t A10)

/-- THE INFERENCE RESULT: row `4096 t + y` is row `y` of the block the body computes at grid point `t`. -/
def kInf (A4 A5 A6 : Vec F S16384x64 .f32) (A7 : Vec F S192x192 .f32) (A8 : Vec F S1x192 .f32)
    (A9 : Vec F S192x1 .f32) (A10 : Vec F S1x1 .f32) : Vec F S16384x1 .f32 :=
  fun i => infBlk (ptOf i) A4 A5 A6 A7 A8 A9 A10 (rowIn i)

/-! ## The regulariser -/

/-- The first accumulator word after the four grid points: the first point stores its sum of squares, each
    later point adds its own to what it loads. -/
def accP (A4 : Vec F S16384x64 .f32) : F .f32 :=
  k1_pay4 (k1_pay8 (blk0 (pt 3) A4)) (k1_pay4 (k1_pay8 (blk0 (pt 2) A4)) (k1_pay4 (k1_pay8 (blk0 (pt 1) A4)) (k1_pay1 (k1_pay8 (blk0 (pt 0) A4)))))
/-- The second accumulator word after the four grid points. -/
def accQ (A5 : Vec F S16384x64 .f32) : F .f32 :=
  k1_pay5 (k1_pay9 (blk1 (pt 3) A5)) (k1_pay5 (k1_pay9 (blk1 (pt 2) A5)) (k1_pay5 (k1_pay9 (blk1 (pt 1) A5)) (k1_pay2 (k1_pay9 (blk1 (pt 0) A5)))))
/-- The third accumulator word after the four grid points. -/
def accR (A6 : Vec F S16384x64 .f32) : F .f32 :=
  k1_pay6 (k1_pay10 (blk2 (pt 3) A6)) (k1_pay6 (k1_pay10 (blk2 (pt 2) A6)) (k1_pay6 (k1_pay10 (blk2 (pt 1) A6)) (k1_pay3 (k1_pay10 (blk2 (pt 0) A6)))))

/-- THE REGULARISER: what the last grid point stores from the three accumulator words. -/
def kRegs (A4 A5 A6 : Vec F S16384x64 .f32) : Vec F S1x1 .f32 :=
  k1_pay7 (accP A4) (accQ A5) (accR A6)

end Cert.KernelIdeal.KFun

end
-- ==== Proof.KVtc.lean ====
/-
  What the dense-layer call does to the contents of the TensorCore's arrays: its first result array takes the
  inference result and its second the regulariser, both as pure functions of the seven operand arrays as they
  stand before the call; every other array keeps its contents.
-/
import proofs.«203152_g22136261444366_cont_8to1_1253_39_alg».proof.Proof.KFun
import proofs.«203152_g22136261444366_cont_8to1_1253_39_alg».proof.Proof.KOps

noncomputable section

namespace Cert.Proof.KI

open Cert.KernelIdeal Cert.KernelIdeal.Gen

open Idealize.ShloMosaic
open Idealize.SL.Sem

variable {F : FTy → Type} [FloatOps F]

/-- The contents after the dense-layer call, from the contents before it. -/
def Vtc (W : Valuation τ sig (Elt F)) : Valuation τ sig (Elt F) :=
  Function.update
    (Function.update W (r main_v11_0)
      (KFun.kInf (F := F) (W (r main_v4)) (W (r main_v5)) (W (r main_v6)) (W (r main_v7)) (W (r main_v8)) (W (r main_v9)) (W (r main_v10))))
    (r main_v11_1) (KFun.kRegs (F := F) (W (r main_v4)) (W (r main_v5)) (W (r main_v6)))

/-- Every array but the two results keeps its contents. -/
theorem tc_frame (W : Valuation τ sig (Elt F)) (b : DevRef τ sig) (hb : b ≠ r main_v11_0 ∧ b ≠ r main_v11_1) :
    Vtc W b = W b := by
  unfold Vtc
  rw [Function.update_of_ne hb.2, Function.update_of_ne hb.1]

/-- The first result array after the call. -/
theorem Vtc_inf (W : Valuation τ sig (Elt F)) :
    Vtc W (r main_v11_0)
      = KFun.kInf (F := F) (W (r main_v4)) (W (r main_v5)) (W (r main_v6)) (W (r main_v7)) (W (r main_v8)) (W (r main_v9)) (W (r main_v10)) := by
  unfold Vtc
  rw [Function.update_of_ne (by decide : r main_v11_0 ≠ r main_v11_1), Function.update_self]

/-- The second result array after the call. -/
theorem Vtc_regs (W : Valuation τ sig (Elt F)) :
    Vtc W (r main_v11_1) = KFun.kRegs (F := F) (W (r main_v4)) (W (r main_v5)) (W (r main_v6)) := by
  unfold Vtc
  rw [Function.update_self]

end Cert.Proof.KI

end
-- ==== Proof.ScPay.lean ====
/-
  The SparseCore gather call: what its handshakes carry. The nine arrays of the call are the three index arrays,
  the three tables (as `[125000, 8, 64]`) and the three results (`[16384, 1, 64]`); worker `w = 2 i + c` (vector
  subcore `i` of SparseCore `c`) reads index words `[512 w, 512 w + 512)` and writes result rows of the same range.
-/
import proofs.«203152_g22136261444366_cont_8to1_1253_39_alg».proof.Proof.GhostTypes
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«203152_g22136261444366_cont_8to1_1253_39_alg».proof.Proof.Gen.KernelIdeal
import proofs.«203152_g22136261444366_cont_8to1_1253_39_alg».proof.Proof.Gen.KernelIdeal.Skeleton

noncomputable section

namespace Cert.Proof.KI.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

local notation "𝕄" => MT nD τ sig (HIx 1) (Elt F) ℕ UU ℕ

abbrev EH : Emb UH (MT nD τ sig (HIx 1) (Elt F) ℕ UU ℕ) := embL

/-! ## The nine arrays of the call -/

abbrev r (b : Ref sig .tc) : DevRef τ sig := Proc.devRef .tc b
abbrev S9 : Finset (DevRef τ sig) :=
  {r main_arg0, r main_arg1, r main_arg2, r main_v0, r main_v1, r main_v2, r main_v3_0, r main_v3_1, r main_v3_2}

/-- A multi-index from natural numbers, each taken modulo its axis: no in-range proof is owed to state it. -/
def clampIdx (s : Shape) (hs : ∀ a, 0 < s.size a) (x : Fin s.rank → ℕ) : s.Idx := fun a => ⟨x a % s.size a, Nat.mod_lt _ (hs a)⟩
theorem pos_S16384 : ∀ a, 0 < S16384.size a := by decide
theorem pos_S125000x8x64 : ∀ a, 0 < S125000x8x64.size a := by decide

/-- The gathered rows: row `i` of the result is sub-row `v &&& 7` of row `v >>> 3` of the table, `v` the `i`-th index word. -/
def Gathered3 {E : Type} (tbl : S125000x8x64.Idx → E) (ids : S16384.Idx → BitVec 32) : S16384x1x64.Idx → E := fun i =>
  tbl (clampIdx S125000x8x64 pos_S125000x8x64
    ![((ids (clampIdx S16384 pos_S16384 ![(i 0).val])) >>> 3).toNat, ((ids (clampIdx S16384 pos_S16384 ![(i 0).val])) &&& 7#32).toNat, (i 2).val])

/-- The valuation after the call: the three results at the gathered rows, everything else as it was. -/
def Vsc (W : Valuation τ sig (Elt F)) : Valuation τ sig (Elt F) :=
  Function.update (Function.update (Function.update W
    (r main_v3_0) (Gathered3 (W (r main_v0)) (W (r main_arg0))))
    (r main_v3_1) (Gathered3 (W (r main_v1)) (W (r main_arg1))))
    (r main_v3_2) (Gathered3 (W (r main_v2)) (W (r main_arg2)))

theorem sc_frame (W : Valuation τ sig (Elt F)) (b : DevRef τ sig) (hb : b ∉ S9) : Vsc W b = W b := by
  have h : ∀ x ∈ S9, b ≠ x := fun x hx e => hb (e ▸ hx)
  unfold Vsc
  rw [Function.update_of_ne (h _ (by decide)), Function.update_of_ne (h _ (by decide)), Function.update_of_ne (h _ (by decide))]

/-- What the proof asks of the index arrays: every word is at most 999999 (a row of the table). -/
def PreOK (W : Dev nD → Valuation τ sig (Elt F)) : Prop :=
  ∀ (d : Dev nD) (j : S16384.Idx),
    (W d (r main_arg0) j : BitVec 32).toNat ≤ 999999 ∧ (W d (r main_arg1) j : BitVec 32).toNat ≤ 999999 ∧ (W d (r main_arg2) j : BitVec 32).toNat ≤ 999999

/-! ## The tiles' ranges and shares -/

theorem hdiv_i : 32 ∣ S16384.size 0 := ⟨512, rfl⟩
theorem hdiv_o : 32 ∣ S16384x1x64.size 0 := ⟨512, rfl⟩
/-- The 512 index words, and the 512 result rows, of worker `w`. -/
abbrev idxSet (w : Fin 32) : Finset S16384.Idx := (Rect.part (s := S16384) (a₀ := 0) hdiv_i w).set
abbrev outSet (w : Fin 32) : Finset S16384x1x64.Idx := (Rect.part (s := S16384x1x64) (a₀ := 0) hdiv_o w).set
/-- The worker number of vector subcore `i` of SparseCore `c`: `2 i + c`. -/
def wid (c : Fin 2) (i : Fin 16) : Fin 32 := ⟨2 * i.val + c.val, by omega⟩
/-- A SparseCore's read share of a table: a half; a tile's: the `i`-th token of its SparseCore's half. -/
def coreShare (c : Fin 2) : PosShare TreeShare := if c.val = 0 then fullShare.left else fullShare.right
def tileShare (c : Fin 2) (i : Fin 16) : PosShare TreeShare := Transfers.shareTok (coreShare c) 16 i

section PayDefs
variable (W : Dev nD → Valuation τ sig (Elt F)) (d : Dev nD)

/-- The index words of worker `w`, the three arrays'. -/
def idxRows (w : Fin 32) : sProp 𝕄 :=
  iprop(((d, r main_arg0) ↦[idxSet w]{fullShare} W d (r main_arg0)) ∗ ((d, r main_arg1) ↦[idxSet w]{fullShare} W d (r main_arg1))
    ∗ ((d, r main_arg2) ↦[idxSet w]{fullShare} W d (r main_arg2)))
/-- The result rows of worker `w` at whatever they hold; -/
def outRowsAny (w : Fin 32) : sProp 𝕄 :=
  iprop((∃ f, (d, r main_v3_0) ↦[outSet w]{fullShare} f) ∗ (∃ f, (d, r main_v3_1) ↦[outSet w]{fullShare} f) ∗ (∃ f, (d, r main_v3_2) ↦[outSet w]{fullShare} f))
/-- at the gathered rows. -/
def outRowsDone (w : Fin 32) : sProp 𝕄 :=
  iprop(((d, r main_v3_0) ↦[outSet w]{fullShare} Vsc (W d) (r main_v3_0)) ∗ ((d, r main_v3_1) ↦[outSet w]{fullShare} Vsc (W d) (r main_v3_1))
    ∗ ((d, r main_v3_2) ↦[outSet w]{fullShare} Vsc (W d) (r main_v3_2)))
/-- The three tables whole at a read share. -/
def tables (q : PosShare TreeShare) : sProp 𝕄 :=
  iprop(((d, r main_v0) ↦{q} W d (r main_v0)) ∗ ((d, r main_v1) ↦{q} W d (r main_v1)) ∗ ((d, r main_v2) ↦{q} W d (r main_v2)))

end PayDefs

/-- The one call: a SparseCore is handed its sixteen workers' index words and result rows and a half share of the
    tables; a tile its worker's words and rows and a token of that share; back the same, the rows at the gathered rows. -/
def P (W : Dev nD → Valuation τ sig (Elt F)) : (K (F := F)).Pay (nD := nD) (Val := Elt F) (Name := ℕ) (U := UU) where
  st := fun q d c => match q with
    | 0 => iprop((bigSep Finset.univ fun i : Fin 16 => iprop(idxRows W d (wid (Fin.cast nCore_zero c) i) ∗ outRowsAny d (wid (Fin.cast nCore_zero c) i)))
        ∗ tables W d (coreShare (Fin.cast nCore_zero c)))
  dn := fun q d c => match q with
    | 0 => iprop((bigSep Finset.univ fun i : Fin 16 => iprop(idxRows W d (wid (Fin.cast nCore_zero c) i) ∗ outRowsDone W d (wid (Fin.cast nCore_zero c) i)))
        ∗ tables W d (coreShare (Fin.cast nCore_zero c)))
  go := fun q d c i => match q with
    | 0 => iprop((idxRows W d (wid (Fin.cast nCore_zero c) (Fin.cast nSub_zero i)) ∗ outRowsAny d (wid (Fin.cast nCore_zero c) (Fin.cast nSub_zero i)))
        ∗ tables W d (tileShare (Fin.cast nCore_zero c) (Fin.cast nSub_zero i)))
  td := fun q d c i => match q with
    | 0 => iprop((idxRows W d (wid (Fin.cast nCore_zero c) (Fin.cast nSub_zero i)) ∗ outRowsDone W d (wid (Fin.cast nCore_zero c) (Fin.cast nSub_zero i)))
        ∗ tables W d (tileShare (Fin.cast nCore_zero c) (Fin.cast nSub_zero i)))
  x := fun _ _ => iprop(emp)

instance P_storable (W : Dev nD → Valuation τ sig (Elt F)) : (P (F := F) W).IsStorable where
  st q d c := match q with | 0 => by unfold P idxRows outRowsAny tables; infer_instance
  dn q d c := match q with | 0 => by unfold P idxRows outRowsDone tables; infer_instance
  go q d c i := match q with | 0 => by unfold P idxRows outRowsAny tables; infer_instance
  td q d c i := match q with | 0 => by unfold P idxRows outRowsDone tables; infer_instance

variable [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Cert.Proof.KI.Sc

end
-- ==== Proof.ScSplit.lean ====
/-
  The SparseCore gather call's operands: how the TensorCore's nine arrays become the two SparseCores' shares and
  come back (the index arrays and the results by the workers' 512-row ranges, the tables by read shares), and how a
  SparseCore's share splits among its sixteen tiles and is gathered from theirs.
-/
import proofs.«203152_g22136261444366_cont_8to1_1253_39_alg».proof.Proof.ScPay
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KI.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

/-! ## Workers by SparseCore and vector subcore -/

section Reindex

variable {M : Type} [URA M]

theorem wid_inj : Set.InjOn (fun p : Fin 2 × Fin 16 => wid p.1 p.2) ((Finset.univ ×ˢ Finset.univ : Finset (Fin 2 × Fin 16)) : Set (Fin 2 × Fin 16)) := by
  rintro ⟨a1, a2⟩ _ ⟨b1, b2⟩ _ e
  have h : 2 * a2.val + a1.val = 2 * b2.val + b1.val := congrArg Fin.val e
  have h1 := a1.isLt; have h2 := b1.isLt
  have h3 := a2.isLt; have h4 := b2.isLt
  refine Prod.ext (Fin.ext ?_) (Fin.ext ?_)
  · show a1.val = b1.val; omega
  · show a2.val = b2.val; omega

theorem wid_image : (Finset.univ ×ˢ Finset.univ : Finset (Fin 2 × Fin 16)).image (fun p => wid p.1 p.2) = Finset.univ := by
  rw [Finset.eq_univ_iff_forall]; intro w
  have hw := w.isLt
  rw [Finset.mem_image]
  exact ⟨(⟨w.val % 2, by omega⟩, ⟨w.val / 2, by omega⟩), Finset.mem_product.mpr ⟨Finset.mem_univ _, Finset.mem_univ _⟩,
    Fin.ext (show 2 * (w.val / 2) + w.val % 2 = w.val by omega)⟩

/-- The 32 workers are the 2 × 16 pairs (SparseCore, vector subcore). -/
theorem bigSep_wid (Φ : Fin 32 → sProp M) :
    bigSep Finset.univ Φ = bigSep Finset.univ fun c : Fin 2 => bigSep Finset.univ fun i : Fin 16 => Φ (wid c i) := by
  rw [← wid_image, SparseCore.bigSep_image_of_injOn wid_inj Φ]
  exact SparseCore.bigSep_product Finset.univ Finset.univ (fun p : Fin 2 × Fin 16 => Φ (wid p.1 p.2))

theorem bigSep_wid2 (Φ : Fin 32 → sProp M) :
    bigSep Finset.univ Φ = iprop((bigSep Finset.univ fun i : Fin 16 => Φ (wid 0 i)) ∗ bigSep Finset.univ fun i : Fin 16 => Φ (wid 1 i)) := by
  rw [bigSep_wid, bigSep_univ_two]

end Reindex

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## The arrays by workers' ranges -/

theorem idx_disjoint : ∀ i ∈ (Finset.univ : Finset (Fin 32)), ∀ j ∈ (Finset.univ : Finset (Fin 32)), i ≠ j → Disjoint (idxSet i) (idxSet j) :=
  fun i _ j _ h => Rect.part_disjoint hdiv_i h
theorem idx_cover : (Finset.univ : Finset (Fin 32)).biUnion idxSet = Finset.univ := Rect.biUnion_part hdiv_i
theorem out_disjoint : ∀ i ∈ (Finset.univ : Finset (Fin 32)), ∀ j ∈ (Finset.univ : Finset (Fin 32)), i ≠ j → Disjoint (outSet i) (outSet j) :=
  fun i _ j _ h => Rect.part_disjoint hdiv_o h
theorem out_cover : (Finset.univ : Finset (Fin 32)).biUnion outSet = Finset.univ := Rect.biUnion_part hdiv_o

section Rows

variable (d : Dev nD)

theorem rows_main_arg0 (f : Buf (Elt F) ((d, r main_arg0) : Loc nD τ sig)) :
    (((d, r main_arg0) : Loc nD τ sig) ↦{fullShare} f : sProp 𝕄)
      = iprop((bigSep Finset.univ fun i : Fin 16 => ((d, r main_arg0) : Loc nD τ sig) ↦[idxSet (wid 0 i)]{fullShare} f) ∗ bigSep Finset.univ fun i : Fin 16 => ((d, r main_arg0) : Loc nD τ sig) ↦[idxSet (wid 1 i)]{fullShare} f) := by
  rw [← bigSep_wid2 (fun w => (((d, r main_arg0) : Loc nD τ sig) ↦[idxSet w]{fullShare} f : sProp 𝕄)), ← pointsTo_biUnion Finset.univ (ℓ := ((d, r main_arg0) : Loc nD τ sig)) idxSet idx_disjoint, idx_cover]; try rfl

theorem rows_main_arg1 (f : Buf (Elt F) ((d, r main_arg1) : Loc nD τ sig)) :
    (((d, r main_arg1) : Loc nD τ sig) ↦{fullShare} f : sProp 𝕄)
      = iprop((bigSep Finset.univ fun i : Fin 16 => ((d, r main_arg1) : Loc nD τ sig) ↦[idxSet (wid 0 i)]{fullShare} f) ∗ bigSep Finset.univ fun i : Fin 16 => ((d, r main_arg1) : Loc nD τ sig) ↦[idxSet (wid 1 i)]{fullShare} f) := by
  rw [← bigSep_wid2 (fun w => (((d, r main_arg1) : Loc nD τ sig) ↦[idxSet w]{fullShare} f : sProp 𝕄)), ← pointsTo_biUnion Finset.univ (ℓ := ((d, r main_arg1) : Loc nD τ sig)) idxSet idx_disjoint, idx_cover]; try rfl

theorem rows_main_arg2 (f : Buf (Elt F) ((d, r main_arg2) : Loc nD τ sig)) :
    (((d, r main_arg2) : Loc nD τ sig) ↦{fullShare} f : sProp 𝕄)
      = iprop((bigSep Finset.univ fun i : Fin 16 => ((d, r main_arg2) : Loc nD τ sig) ↦[idxSet (wid 0 i)]{fullShare} f) ∗ bigSep Finset.univ fun i : Fin 16 => ((d, r main_arg2) : Loc nD τ sig) ↦[idxSet (wid 1 i)]{fullShare} f) := by
  rw [← bigSep_wid2 (fun w => (((d, r main_arg2) : Loc nD τ sig) ↦[idxSet w]{fullShare} f : sProp 𝕄)), ← pointsTo_biUnion Finset.univ (ℓ := ((d, r main_arg2) : Loc nD τ sig)) idxSet idx_disjoint, idx_cover]; try rfl

theorem rows_main_v3_0 (f : Buf (Elt F) ((d, r main_v3_0) : Loc nD τ sig)) :
    (((d, r main_v3_0) : Loc nD τ sig) ↦{fullShare} f : sProp 𝕄)
      = iprop((bigSep Finset.univ fun i : Fin 16 => ((d, r main_v3_0) : Loc nD τ sig) ↦[outSet (wid 0 i)]{fullShare} f) ∗ bigSep Finset.univ fun i : Fin 16 => ((d, r main_v3_0) : Loc nD τ sig) ↦[outSet (wid 1 i)]{fullShare} f) := by
  rw [← bigSep_wid2 (fun w => (((d, r main_v3_0) : Loc nD τ sig) ↦[outSet w]{fullShare} f : sProp 𝕄)), ← pointsTo_biUnion Finset.univ (ℓ := ((d, r main_v3_0) : Loc nD τ sig)) outSet out_disjoint, out_cover]; try rfl

theorem rows_main_v3_1 (f : Buf (Elt F) ((d, r main_v3_1) : Loc nD τ sig)) :
    (((d, r main_v3_1) : Loc nD τ sig) ↦{fullShare} f : sProp 𝕄)
      = iprop((bigSep Finset.univ fun i : Fin 16 => ((d, r main_v3_1) : Loc nD τ sig) ↦[outSet (wid 0 i)]{fullShare} f) ∗ bigSep Finset.univ fun i : Fin 16 => ((d, r main_v3_1) : Loc nD τ sig) ↦[outSet (wid 1 i)]{fullShare} f) := by
  rw [← bigSep_wid2 (fun w => (((d, r main_v3_1) : Loc nD τ sig) ↦[outSet w]{fullShare} f : sProp 𝕄)), ← pointsTo_biUnion Finset.univ (ℓ := ((d, r main_v3_1) : Loc nD τ sig)) outSet out_disjoint, out_cover]; try rfl

theorem rows_main_v3_2 (f : Buf (Elt F) ((d, r main_v3_2) : Loc nD τ sig)) :
    (((d, r main_v3_2) : Loc nD τ sig) ↦{fullShare} f : sProp 𝕄)
      = iprop((bigSep Finset.univ fun i : Fin 16 => ((d, r main_v3_2) : Loc nD τ sig) ↦[outSet (wid 0 i)]{fullShare} f) ∗ bigSep Finset.univ fun i : Fin 16 => ((d, r main_v3_2) : Loc nD τ sig) ↦[outSet (wid 1 i)]{fullShare} f) := by
  rw [← bigSep_wid2 (fun w => (((d, r main_v3_2) : Loc nD τ sig) ↦[outSet w]{fullShare} f : sProp 𝕄)), ← pointsTo_biUnion Finset.univ (ℓ := ((d, r main_v3_2) : Loc nD τ sig)) outSet out_disjoint, out_cover]; try rfl

theorem coreShare_zero : coreShare 0 = fullShare.left := if_pos rfl
theorem coreShare_one : coreShare 1 = fullShare.right := if_neg (by decide)

theorem halves {ℓ : Loc nD τ sig} (f : Buf (Elt F) ℓ) :
    (ℓ ↦{fullShare} f : sProp 𝕄) ⊣⊢ iprop((ℓ ↦{coreShare 0} f) ∗ ℓ ↦{coreShare 1} f) := by
  rw [coreShare_zero, coreShare_one]; exact pointsTo_share (PosShare.mem_left_op_right _)

theorem held_S9 (V : Valuation τ sig (Elt F)) :
    (held (T d) S9 V : sProp 𝕄)
      = iprop((((d, r main_arg0) : Loc nD τ sig) ↦{fullShare} V (r main_arg0)) ∗ (((d, r main_arg1) : Loc nD τ sig) ↦{fullShare} V (r main_arg1)) ∗ (((d, r main_arg2) : Loc nD τ sig) ↦{fullShare} V (r main_arg2)) ∗ (((d, r main_v0) : Loc nD τ sig) ↦{fullShare} V (r main_v0)) ∗ (((d, r main_v1) : Loc nD τ sig) ↦{fullShare} V (r main_v1)) ∗ (((d, r main_v2) : Loc nD τ sig) ↦{fullShare} V (r main_v2)) ∗ (((d, r main_v3_0) : Loc nD τ sig) ↦{fullShare} V (r main_v3_0)) ∗ (((d, r main_v3_1) : Loc nD τ sig) ↦{fullShare} V (r main_v3_1)) ∗ (((d, r main_v3_2) : Loc nD τ sig) ↦{fullShare} V (r main_v3_2))) := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  try rfl

end Rows

/-! ## A SparseCore's share of the call -/

section Core

variable (W : Dev nD → Valuation τ sig (Elt F)) (d : Dev nD)

def stC (c : Fin 2) : sProp 𝕄 :=
  iprop((bigSep Finset.univ fun i : Fin 16 => iprop(idxRows W d (wid c i) ∗ outRowsAny d (wid c i))) ∗ tables W d (coreShare c))
def dnC (c : Fin 2) : sProp 𝕄 :=
  iprop((bigSep Finset.univ fun i : Fin 16 => iprop(idxRows W d (wid c i) ∗ outRowsDone W d (wid c i))) ∗ tables W d (coreShare c))
def goC (c : Fin 2) (i : Fin 16) : sProp 𝕄 :=
  iprop((idxRows W d (wid c i) ∗ outRowsAny d (wid c i)) ∗ tables W d (tileShare c i))
def tdC (c : Fin 2) (i : Fin 16) : sProp 𝕄 :=
  iprop((idxRows W d (wid c i) ∗ outRowsDone W d (wid c i)) ∗ tables W d (tileShare c i))

theorem P_st (c : Fin ((K (F := F)).nCore 0)) : (P W).st 0 d c = stC W d (Fin.cast nCore_zero c) := rfl
theorem P_dn (c : Fin ((K (F := F)).nCore 0)) : (P W).dn 0 d c = dnC W d (Fin.cast nCore_zero c) := rfl
theorem P_go (c : Fin ((K (F := F)).nCore 0)) (i : Fin ((K (F := F)).nSub 0)) : (P W).go 0 d c i = goC W d (Fin.cast nCore_zero c) (Fin.cast nSub_zero i) := rfl
theorem P_td (c : Fin ((K (F := F)).nCore 0)) (i : Fin ((K (F := F)).nSub 0)) : (P W).td 0 d c i = tdC W d (Fin.cast nCore_zero c) (Fin.cast nSub_zero i) := rfl

/-- The pieces of a SparseCore's share, array by array. -/
def piecesC (c : Fin 2) (g0 : Buf (Elt F) ((d, r main_v3_0) : Loc nD τ sig)) (g1 : Buf (Elt F) ((d, r main_v3_1) : Loc nD τ sig)) (g2 : Buf (Elt F) ((d, r main_v3_2) : Loc nD τ sig)) : sProp 𝕄 :=
  iprop((bigSep Finset.univ fun i : Fin 16 => ((d, r main_arg0) : Loc nD τ sig) ↦[idxSet (wid c i)]{fullShare} W d (r main_arg0))
    ∗ (bigSep Finset.univ fun i : Fin 16 => ((d, r main_arg1) : Loc nD τ sig) ↦[idxSet (wid c i)]{fullShare} W d (r main_arg1))
    ∗ (bigSep Finset.univ fun i : Fin 16 => ((d, r main_arg2) : Loc nD τ sig) ↦[idxSet (wid c i)]{fullShare} W d (r main_arg2))
    ∗ (bigSep Finset.univ fun i : Fin 16 => ((d, r main_v3_0) : Loc nD τ sig) ↦[outSet (wid c i)]{fullShare} g0)
    ∗ (bigSep Finset.univ fun i : Fin 16 => ((d, r main_v3_1) : Loc nD τ sig) ↦[outSet (wid c i)]{fullShare} g1)
    ∗ (bigSep Finset.univ fun i : Fin 16 => ((d, r main_v3_2) : Loc nD τ sig) ↦[outSet (wid c i)]{fullShare} g2)
    ∗ (((d, r main_v0) : Loc nD τ sig) ↦{coreShare c} W d (r main_v0)) ∗ (((d, r main_v1) : Loc nD τ sig) ↦{coreShare c} W d (r main_v1)) ∗ (((d, r main_v2) : Loc nD τ sig) ↦{coreShare c} W d (r main_v2)))

theorem bigSep_ex {ℓ : Loc nD τ sig} (Ks : Fin 16 → Finset (Idx ℓ)) (g : Buf (Elt F) ℓ) :
    (bigSep Finset.univ fun i : Fin 16 => (ℓ ↦[Ks i]{fullShare} g : sProp 𝕄)) ⊢ bigSep Finset.univ fun i : Fin 16 => iprop(∃ f, ℓ ↦[Ks i]{fullShare} f) :=
  BI.bigSep_mono fun i _ => by
    show (ℓ ↦[Ks i]{fullShare} g : sProp 𝕄) ⊢ iprop(∃ f, ℓ ↦[Ks i]{fullShare} f)
    iintro H; iexists g; iexact H

theorem stC_intro (c : Fin 2) (g0 g1 g2) : piecesC W d c g0 g1 g2 ⊢ stC W d c := by
  unfold piecesC stC idxRows outRowsAny tables
  rw [bigSep_sep', bigSep_sep', bigSep_sep', bigSep_sep', bigSep_sep']
  iintro ⟨Hi0, Hi1, Hi2, Ho0, Ho1, Ho2, Ht0, Ht1, Ht2⟩
  isplitl [Hi0 Hi1 Hi2 Ho0 Ho1 Ho2]
  · isplitl [Hi0 Hi1 Hi2]
    · isplitl [Hi0]; · iexact Hi0
      isplitl [Hi1]; · iexact Hi1
      iexact Hi2
    · isplitl [Ho0]; · iapply (bigSep_ex (ℓ := ((d, r main_v3_0) : Loc nD τ sig)) (fun i => outSet (wid c i)) g0); iexact Ho0
      isplitl [Ho1]; · iapply (bigSep_ex (ℓ := ((d, r main_v3_1) : Loc nD τ sig)) (fun i => outSet (wid c i)) g1); iexact Ho1
      iapply (bigSep_ex (ℓ := ((d, r main_v3_2) : Loc nD τ sig)) (fun i => outSet (wid c i)) g2); iexact Ho2
  · isplitl [Ht0]; · iexact Ht0
    isplitl [Ht1]; · iexact Ht1
    iexact Ht2

theorem dnC_elim (c : Fin 2) : dnC W d c ⊢ piecesC W d c (Vsc (W d) (r main_v3_0)) (Vsc (W d) (r main_v3_1)) (Vsc (W d) (r main_v3_2)) := by
  unfold piecesC dnC idxRows outRowsDone tables
  rw [bigSep_sep', bigSep_sep', bigSep_sep', bigSep_sep', bigSep_sep']
  iintro ⟨⟨⟨Hi0, Hi1, Hi2⟩, Ho0, Ho1, Ho2⟩, Ht0, Ht1, Ht2⟩
  isplitl [Hi0]; · iexact Hi0
  isplitl [Hi1]; · iexact Hi1
  isplitl [Hi2]; · iexact Hi2
  isplitl [Ho0]; · iexact Ho0
  isplitl [Ho1]; · iexact Ho1
  isplitl [Ho2]; · iexact Ho2
  isplitl [Ht0]; · iexact Ht0
  isplitl [Ht1]; · iexact Ht1
  iexact Ht2

end Core

/-! ## The call's operands out and back -/

theorem Vsc_of_ne (V : Valuation τ sig (Elt F)) (b : DevRef τ sig) (h0 : b ≠ r main_v3_0) (h1 : b ≠ r main_v3_1) (h2 : b ≠ r main_v3_2) : Vsc V b = V b := by
  unfold Vsc; rw [Function.update_of_ne h2, Function.update_of_ne h1, Function.update_of_ne h0]

theorem st_intro (W : Dev nD → Valuation τ sig (Elt F)) (d : Dev nD) :
    (held (T d) S9 (W d) : sProp 𝕄) ⊢ bigSep Finset.univ fun c : Fin ((K (F := F)).nCore 0) => (P W).st 0 d c := by
  show _ ⊢ bigSep Finset.univ fun c : Fin ((K (F := F)).nCore 0) => stC W d (Fin.cast nCore_zero c)
  rw [bigSep_cores (F := F) (stC W d), bigSep_univ_two, held_S9]
  rw [rows_main_arg0, rows_main_arg1, rows_main_arg2, rows_main_v3_0, rows_main_v3_1, rows_main_v3_2]
  iintro ⟨⟨Ha0, Hb0⟩, ⟨Ha1, Hb1⟩, ⟨Ha2, Hb2⟩, Ht0, Ht1, Ht2, ⟨Hao0, Hbo0⟩, ⟨Hao1, Hbo1⟩, ⟨Hao2, Hbo2⟩⟩
  ihave Ht0' := (halves _).1 $$ Ht0
  ihave Ht1' := (halves _).1 $$ Ht1
  ihave Ht2' := (halves _).1 $$ Ht2
  icases Ht0' with ⟨Hat0, Hbt0⟩
  icases Ht1' with ⟨Hat1, Hbt1⟩
  icases Ht2' with ⟨Hat2, Hbt2⟩
  isplitl [Ha0 Ha1 Ha2 Hao0 Hao1 Hao2 Hat0 Hat1 Hat2]
  · iapply (stC_intro W d 0 (W d (r main_v3_0)) (W d (r main_v3_1)) (W d (r main_v3_2)))
    unfold piecesC
    isplitl [Ha0]; · iexact Ha0
    isplitl [Ha1]; · iexact Ha1
    isplitl [Ha2]; · iexact Ha2
    isplitl [Hao0]; · iexact Hao0
    isplitl [Hao1]; · iexact Hao1
    isplitl [Hao2]; · iexact Hao2
    isplitl [Hat0]; · iexact Hat0
    isplitl [Hat1]; · iexact Hat1
    iexact Hat2
  · iapply (stC_intro W d 1 (W d (r main_v3_0)) (W d (r main_v3_1)) (W d (r main_v3_2)))
    unfold piecesC
    isplitl [Hb0]; · iexact Hb0
    isplitl [Hb1]; · iexact Hb1
    isplitl [Hb2]; · iexact Hb2
    isplitl [Hbo0]; · iexact Hbo0
    isplitl [Hbo1]; · iexact Hbo1
    isplitl [Hbo2]; · iexact Hbo2
    isplitl [Hbt0]; · iexact Hbt0
    isplitl [Hbt1]; · iexact Hbt1
    iexact Hbt2

theorem dn_elim (W : Dev nD → Valuation τ sig (Elt F)) (d : Dev nD) :
    (bigSep Finset.univ fun c : Fin ((K (F := F)).nCore 0) => (P W).dn 0 d c) ⊢ (held (T d) S9 (Vsc (W d)) : sProp 𝕄) := by
  show (bigSep Finset.univ fun c : Fin ((K (F := F)).nCore 0) => dnC W d (Fin.cast nCore_zero c)) ⊢ _
  rw [bigSep_cores (F := F) (dnC W d), bigSep_univ_two, held_S9,
    Vsc_of_ne (W d) (r main_arg0) (by decide) (by decide) (by decide), Vsc_of_ne (W d) (r main_arg1) (by decide) (by decide) (by decide),
    Vsc_of_ne (W d) (r main_arg2) (by decide) (by decide) (by decide), Vsc_of_ne (W d) (r main_v0) (by decide) (by decide) (by decide),
    Vsc_of_ne (W d) (r main_v1) (by decide) (by decide) (by decide), Vsc_of_ne (W d) (r main_v2) (by decide) (by decide) (by decide)]
  rw [rows_main_arg0, rows_main_arg1, rows_main_arg2, rows_main_v3_0, rows_main_v3_1, rows_main_v3_2]
  iintro ⟨H0, H1⟩
  ihave H0' := (dnC_elim W d 0) $$ H0
  ihave H1' := (dnC_elim W d 1) $$ H1
  unfold piecesC
  icases H0' with ⟨Ha0, Ha1, Ha2, Hao0, Hao1, Hao2, Hat0, Hat1, Hat2⟩
  icases H1' with ⟨Hb0, Hb1, Hb2, Hbo0, Hbo1, Hbo2, Hbt0, Hbt1, Hbt2⟩
  isplitl [Ha0 Hb0]; · isplitl [Ha0]; · iexact Ha0
                       iexact Hb0
  isplitl [Ha1 Hb1]; · isplitl [Ha1]; · iexact Ha1
                       iexact Hb1
  isplitl [Ha2 Hb2]; · isplitl [Ha2]; · iexact Ha2
                       iexact Hb2
  isplitl [Hat0 Hbt0]; · iapply (halves _).2; isplitl [Hat0]; · iexact Hat0
                         iexact Hbt0
  isplitl [Hat1 Hbt1]; · iapply (halves _).2; isplitl [Hat1]; · iexact Hat1
                         iexact Hbt1
  isplitl [Hat2 Hbt2]; · iapply (halves _).2; isplitl [Hat2]; · iexact Hat2
                         iexact Hbt2
  isplitl [Hao0 Hbo0]; · isplitl [Hao0]; · iexact Hao0
                         iexact Hbo0
  isplitl [Hao1 Hbo1]; · isplitl [Hao1]; · iexact Hao1
                         iexact Hbo1
  isplitl [Hao2]; · iexact Hao2
  iexact Hbo2

/-! ## A SparseCore's share among its tiles -/

theorem tables_toks (W : Dev nD → Valuation τ sig (Elt F)) (d : Dev nD) (q : PosShare TreeShare) :
    tables W d q ⊣⊢ iprop(tables W d (Transfers.shareDrop q 16) ∗ bigSep Finset.univ fun i : Fin 16 => tables W d (Transfers.shareTok q 16 i)) := by
  unfold tables
  rw [bigSep_sep', bigSep_sep']
  constructor
  · iintro ⟨H0, H1, H2⟩
    ihave H0' := (Transfers.pointsTo_toks_split q 16) $$ H0
    ihave H1' := (Transfers.pointsTo_toks_split q 16) $$ H1
    ihave H2' := (Transfers.pointsTo_toks_split q 16) $$ H2
    icases H0' with ⟨D0, T0⟩
    icases H1' with ⟨D1, T1⟩
    icases H2' with ⟨D2, T2⟩
    isplitl [D0 D1 D2]
    · isplitl [D0]; · iexact D0
      isplitl [D1]; · iexact D1
      iexact D2
    isplitl [T0]; · iexact T0
    isplitl [T1]; · iexact T1
    iexact T2
  · iintro ⟨⟨D0, D1, D2⟩, T0, T1, T2⟩
    isplitl [D0 T0]; · iapply (Transfers.pointsTo_toks_join q 16); isplitl [D0]; · iexact D0
                       iexact T0
    isplitl [D1 T1]; · iapply (Transfers.pointsTo_toks_join q 16); isplitl [D1]; · iexact D1
                       iexact T1
    iapply (Transfers.pointsTo_toks_join q 16); isplitl [D2]; · iexact D2
    iexact T2

theorem vecSplit (W : Dev nD → Valuation τ sig (Elt F)) : (K (F := F)).VecSplit' (P W) 0 := by
  intro d c
  show stC W d (Fin.cast nCore_zero c) ⊢ |={Set.univ}=> iprop((bigSep Finset.univ fun i : Fin ((K (F := F)).nSub 0) => goC W d (Fin.cast nCore_zero c) (Fin.cast nSub_zero i))
      ∗ ((bigSep Finset.univ fun i : Fin ((K (F := F)).nSub 0) => tdC W d (Fin.cast nCore_zero c) (Fin.cast nSub_zero i)) -∗ dnC W d (Fin.cast nCore_zero c)))
  rw [bigSep_tasks (F := F) (goC W d (Fin.cast nCore_zero c)), bigSep_tasks (F := F) (tdC W d (Fin.cast nCore_zero c))]
  generalize Fin.cast nCore_zero c = cc
  unfold stC goC tdC dnC tileShare
  rw [bigSep_sep' Finset.univ (fun i : Fin 16 => iprop(idxRows W d (wid cc i) ∗ outRowsAny d (wid cc i))) (fun i => tables W d (Transfers.shareTok (coreShare cc) 16 i)),
    bigSep_sep' Finset.univ (fun i : Fin 16 => iprop(idxRows W d (wid cc i) ∗ outRowsDone W d (wid cc i))) (fun i => tables W d (Transfers.shareTok (coreShare cc) 16 i))]
  iintro ⟨HR, HT⟩
  ihave HT' := (tables_toks W d (coreShare cc)).1 $$ HT
  icases HT' with ⟨HD, HTs⟩
  imodintro
  isplitl [HR HTs]
  · isplitl [HR]; · iexact HR
    iexact HTs
  iintro ⟨HR', HTs'⟩
  isplitl [HR']; · iexact HR'
  iapply (tables_toks W d (coreShare cc)).2
  isplitl [HD]; · iexact HD
  iexact HTs'

end Cert.Proof.KI.Sc

end
-- ==== Proof.ScTileBase.lean ====
/-
  The gather kernel as one vector subcore's task: the subcore's scratch buffers and DMA semaphores out of its own,
  the rows of the rows scratch, and one row copy of the batch on the kernel's DMA semaphore.
-/
import proofs.«203152_g22136261444366_cont_8to1_1253_39_alg».proof.Proof.ScPay
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import Idealize.ShloMosaic.Lib.Ring

noncomputable section

namespace Cert.Proof.KI.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

open Idealize.ShloMosaic.Tactic

local notation "a2" => (Memref.whole Cert.KernelIdeal.main_arg0_scv : Memref Cert.KernelIdeal.sig Kind.scVector Space.hbm Cert.KernelIdeal.S16384 EltTy.i32)
local notation "a3" => (Memref.whole Cert.KernelIdeal.main_arg1_scv : Memref Cert.KernelIdeal.sig Kind.scVector Space.hbm Cert.KernelIdeal.S16384 EltTy.i32)
local notation "a4" => (Memref.whole Cert.KernelIdeal.main_arg2_scv : Memref Cert.KernelIdeal.sig Kind.scVector Space.hbm Cert.KernelIdeal.S16384 EltTy.i32)
local notation "a5" => (Memref.whole Cert.KernelIdeal.main_v0_scv : Memref Cert.KernelIdeal.sig Kind.scVector Space.hbm Cert.KernelIdeal.S125000x8x64 EltTy.f32)
local notation "a6" => (Memref.whole Cert.KernelIdeal.main_v1_scv : Memref Cert.KernelIdeal.sig Kind.scVector Space.hbm Cert.KernelIdeal.S125000x8x64 EltTy.f32)
local notation "a7" => (Memref.whole Cert.KernelIdeal.main_v2_scv : Memref Cert.KernelIdeal.sig Kind.scVector Space.hbm Cert.KernelIdeal.S125000x8x64 EltTy.f32)
local notation "a8" => (Memref.whole Cert.KernelIdeal.main_v3_0_scv : Memref Cert.KernelIdeal.sig Kind.scVector Space.hbm Cert.KernelIdeal.S16384x1x64 EltTy.f32)
local notation "a9" => (Memref.whole Cert.KernelIdeal.main_v3_1_scv : Memref Cert.KernelIdeal.sig Kind.scVector Space.hbm Cert.KernelIdeal.S16384x1x64 EltTy.f32)
local notation "a10" => (Memref.whole Cert.KernelIdeal.main_v3_2_scv : Memref Cert.KernelIdeal.sig Kind.scVector Space.hbm Cert.KernelIdeal.S16384x1x64 EltTy.f32)
local notation "s11" => (Memref.whole Cert.KernelIdeal.cc0_scratch0 : Memref Cert.KernelIdeal.sig Kind.scVector Space.vmem Cert.KernelIdeal.S512 EltTy.i32)
local notation "s12" => (Memref.whole Cert.KernelIdeal.cc0_scratch1 : Memref Cert.KernelIdeal.sig Kind.scVector Space.vmem Cert.KernelIdeal.S512x1x64 EltTy.f32)

variable [FloatOps F]

abbrev cV (L : grid0.Coords) : Fin τ.nSC := (L 0).castLE hcore0
abbrev jV (L : grid0.Coords) : Fin τ.nSub := (L 1).castLE hsub0
abbrev EC : UEmb Counters (MT nD τ sig (HIx 1) (Elt F) ℕ UU ℕ) := countersEmb (U := UU)

section Own

variable (d : Dev nD) (L : grid0.Coords)

omit [FloatOps F] in
theorem ownSems0_V :
    (ownSems0 (V d (cV L) (jV L)) : sProp 𝕄)
      = iprop(semVal ((V d (cV L) (jV L), SemLoc.dma cc0_scratch2.sem) : GSem nD τ sig) 0
          ∗ semVal ((V d (cV L) (jV L), SemLoc.dma cc0_scoped0.sem) : GSem nD τ sig) 0
          ∗ semVal ((V d (cV L) (jV L), SemLoc.dma cc0_scoped1.sem) : GSem nD τ sig) 0
          ∗ semVal ((V d (cV L) (jV L), SemLoc.dma cc0_scoped2.sem) : GSem nD τ sig) 0
          ∗ semVal ((V d (cV L) (jV L), SemLoc.dma cc0_scoped3.sem) : GSem nD τ sig) 0
          ∗ semVal ((V d (cV L) (jV L), SemLoc.dma cc0_scoped4.sem) : GSem nD τ sig) 0
          ∗ semVal ((V d (cV L) (jV L), SemLoc.dma cc0_scoped5.sem) : GSem nD τ sig) 0
          ∗ bigSep ((((((((ownCells (V d (cV L) (jV L))).erase ((V d (cV L) (jV L), SemLoc.dma cc0_scratch2.sem) : GSem nD τ sig)).erase ((V d (cV L) (jV L), SemLoc.dma cc0_scoped0.sem) : GSem nD τ sig)).erase ((V d (cV L) (jV L), SemLoc.dma cc0_scoped1.sem) : GSem nD τ sig)).erase ((V d (cV L) (jV L), SemLoc.dma cc0_scoped2.sem) : GSem nD τ sig)).erase ((V d (cV L) (jV L), SemLoc.dma cc0_scoped3.sem) : GSem nD τ sig)).erase ((V d (cV L) (jV L), SemLoc.dma cc0_scoped4.sem) : GSem nD τ sig)).erase ((V d (cV L) (jV L), SemLoc.dma cc0_scoped5.sem) : GSem nD τ sig)) fun g => semVal g 0) := by
  unfold SparseCore.Cfg.ownSems0
  rw [SparseCore.bigSep_erase' ((mem_ownCells (g := ((V d (cV L) (jV L), SemLoc.dma cc0_scratch2.sem) : GSem nD τ sig))).mpr ⟨rfl, by show (SemLoc.dma cc0_scratch2.sem : SemLoc sig).isScoped .scVector = true; decide⟩),
    SparseCore.bigSep_erase' (Finset.mem_erase.mpr ⟨fun e => absurd (Prod.mk.inj e).2 (by decide), (mem_ownCells (g := ((V d (cV L) (jV L), SemLoc.dma cc0_scoped0.sem) : GSem nD τ sig))).mpr ⟨rfl, by show (SemLoc.dma cc0_scoped0.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := ((V d (cV L) (jV L), SemLoc.dma cc0_scoped1.sem) : GSem nD τ sig))).mpr ⟨rfl, by show (SemLoc.dma cc0_scoped1.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), SemLoc.dma cc0_scoped2.sem) : GSem nD τ sig))).mpr ⟨rfl, by show (SemLoc.dma cc0_scoped2.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), SemLoc.dma cc0_scoped3.sem) : GSem nD τ sig))).mpr ⟨rfl, by show (SemLoc.dma cc0_scoped3.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), SemLoc.dma cc0_scoped4.sem) : GSem nD τ sig))).mpr ⟨rfl, by show (SemLoc.dma cc0_scoped4.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), SemLoc.dma cc0_scoped5.sem) : GSem nD τ sig))).mpr ⟨rfl, by show (SemLoc.dma cc0_scoped5.sem : SemLoc sig).isScoped .scVector = true; decide⟩⟩⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Own

/-! ## Words and rows -/

theorem pos_S512 : ∀ a, 0 < S512.size a := by decide
theorem pos_S16 : ∀ a, 0 < S16.size a := by decide
/-- Position `t` of the index scratch. -/
def ix512 (t : ℕ) : S512.Idx := clampIdx S512 pos_S512 ![t]

theorem shrui3 (v : BitVec 32) : IntOp.shrui .vector v 3#32 = v >>> 3 := by
  unfold IntOp.shrui; simp

theorem andi7 (v : BitVec 32) : IntOp.andi v 7#32 = v &&& 7#32 := rfl

/-- A word at most 999999 names a row of the table: its row number is below 125000, its sub-row below 8. -/
theorem chk_of_le (v : BitVec 32) (h : v.toNat ≤ 999999) :
    ∀ x, (![(IntOp.shrui .vector v 3#32).toNat, (IntOp.andi v 7#32).toNat, 0] : Fin 3 → ℕ) x + S1x1x64.size x ≤ S125000x8x64.size x := by
  have hA : (IntOp.shrui .vector v 3#32).toNat ≤ 124999 := by
    rw [shrui3, BitVec.toNat_ushiftRight, Nat.shiftRight_eq_div_pow]; omega
  have hB : (IntOp.andi v 7#32).toNat ≤ 7 := by
    rw [andi7, BitVec.toNat_and]; exact Nat.and_le_right
  intro x; fin_cases x
  · show (IntOp.shrui .vector v 3#32).toNat + 1 ≤ 125000; omega
  · show (IntOp.andi v 7#32).toNat + 1 ≤ 8; omega
  · show 0 + 64 ≤ 64; omega

theorem row_inb (t : Fin 512) : ∀ a, (![t.val, 0, 0] : Fin 3 → ℕ) a + S1x1x64.size a ≤ S512x1x64.size a := by
  have := t.isLt; intro a; fin_cases a
  · show t.val + 1 ≤ 512; omega
  · show 0 + 1 ≤ 1; omega
  · show 0 + 64 ≤ 64; omega
/-- Row `t` of the rows scratch, as the body slices it. -/
def rowM (t : Fin 512) : Memref sig .scVector .vmem S1x1x64 .f32 :=
  (s12).slice (Rect.unit (s := S512x1x64) ![t.val, 0, 0] S1x1x64.size (row_inb t)) (fun _ => rfl)

/-- One row copy's credit on the kernel's DMA semaphore. -/
abbrev NN : ℕ := (rowM ⟨0, by decide⟩).view.amount (.dma cc0_scratch2.sem)
theorem NN_eq : NN = 2048 := rfl

/-- Transfer `16 k + j`. -/
def t512 (k : Fin 32) (j : Fin 16) : Fin 512 := ⟨16 * k.val + j.val, by omega⟩

section Phase

variable (d : Dev nD) (L : grid0.Coords)
variable (tb : Memref sig .scVector .hbm S125000x8x64 .f32)
variable (fi : S512.Idx → BitVec 32) (hfi : ∀ x, (fi x).toNat ≤ 999999)
variable (q : PosShare TreeShare) (ft : Buf (Elt F) (tb.view.loc (V d (cV L) (jV L)))) (fd : S512x1x64.Idx → Elt F .f32)

/-- The row number and the sub-row transfer `t` reads: index word `t` shifted and masked. -/
def wordA (t : ℕ) : BitVec 32 := IntOp.shrui .vector (fi (ix512 t)) 3#32
def wordB (t : ℕ) : BitVec 32 := IntOp.andi (fi (ix512 t)) 7#32
include hfi in
theorem src_inb (t : ℕ) : ∀ x, (![(wordA fi t).toNat, (wordB fi t).toNat, 0] : Fin 3 → ℕ) x + S1x1x64.size x ≤ S125000x8x64.size x :=
  chk_of_le _ (hfi _)
/-- The table row transfer `t` reads. -/
def srcM (t : ℕ) : Memref sig .scVector .hbm S1x1x64 .f32 :=
  tb.slice (Rect.unit (s := S125000x8x64) ![(wordA fi t).toNat, (wordB fi t).toNat, 0] S1x1x64.size (src_inb fi hfi t)) (fun _ => rfl)

/-- What the rows scratch holds once transfer `t` has landed on base contents `fd`. -/
def landed (t : Fin 512) : S512x1x64.Idx → Elt F .f32 :=
  (rowM t).view.write (Elt F) fd (ReadAs.same.apply ((srcM tb fi hfi t.val).view.read (Elt F) ft)) Finset.univ

/-- Row `t` of the rows scratch at contents `f`; token `t` of the table; its source row; the rest of the token. -/
abbrev rowPt (t : Fin 512) (f : S512x1x64.Idx → Elt F .f32) : sProp (MT nD τ sig (HIx 1) (Elt F) ℕ UU ℕ) :=
  (rowM t).view.loc (V d (cV L) (jV L)) ↦[(rowM t).view.set]{fullShare} f
abbrev tokPt (t : Fin 512) : sProp (MT nD τ sig (HIx 1) (Elt F) ℕ UU ℕ) :=
  tb.view.loc (V d (cV L) (jV L)) ↦[tb.view.set]{Transfers.shareTokN q t.val} ft
abbrev srcPt (t : Fin 512) : sProp (MT nD τ sig (HIx 1) (Elt F) ℕ UU ℕ) :=
  (srcM tb fi hfi t.val).view.loc (V d (cV L) (jV L)) ↦[(srcM tb fi hfi t.val).view.set]{Transfers.shareTokN q t.val} ft
abbrev restPt (t : Fin 512) : sProp (MT nD τ sig (HIx 1) (Elt F) ℕ UU ℕ) :=
  tb.view.loc (V d (cV L) (jV L)) ↦[tb.view.set \ (srcM tb fi hfi t.val).view.set]{Transfers.shareTokN q t.val} ft

/-- Transfer `t`'s delivery: row `t` landed, the source row's share back. -/
def deliv (t : Fin 512) : sProp (MT nD τ sig (HIx 1) (Elt F) ℕ UU ℕ) :=
  iprop(rowPt d L t (landed d L tb fi hfi ft fd t) ∗ srcPt d L tb fi hfi q ft t)

instance deliv_storable (t : Fin 512) : BI.Storable (upEmb : UEmb _ (MT nD τ sig (HIx 1) (Elt F) ℕ UU ℕ)) (deliv d L tb fi hfi q ft fd t) := by
  haveI h1 : BI.Storable (upEmb : UEmb _ (MT nD τ sig (HIx 1) (Elt F) ℕ UU ℕ)) (rowPt d L t (landed d L tb fi hfi ft fd t)) := Region.storable_held _ _ _ _
  haveI h2 : BI.Storable (upEmb : UEmb _ (MT nD τ sig (HIx 1) (Elt F) ℕ UU ℕ)) (srcPt d L tb fi hfi q ft t) := Region.storable_held _ _ _ _
  unfold deliv; infer_instance

/-- The batch of the 512 row copies on the kernel's DMA semaphore, `j` issued, none waited for. Behind a definition:
    the copies are issued by `issue_row`, one at a time. -/
def batchAt (j : ℕ) : sProp (MT nD τ sig (HIx 1) (Elt F) ℕ UU ℕ) :=
  Transfers.Batch (EC (F := F)) (V d (cV L) (jV L)) (.dma cc0_scratch2.sem) (none : HIx 1) NN (deliv d L tb fi hfi q ft fd) j 0

/-- ONE ROW COPY of the batch: transfer `t`, from the table row its index word names (the offsets as the body spells
    them, equal to the closed forms) to row `t` of the rows scratch. Token `t` of the table is split by the source
    row's elements; its rest is handed back. -/
theorem issue_row {α : Type} (t : Fin 512) {off offs : Fin 3 → ℕ} (e1 : off = ![t.val, 0, 0])
    {a b : BitVec 32} (ha : a = wordA fi t.val) (hb : b = wordB fi t.val) (e2 : offs = ![a.toNat, b.toNat, 0])
    (inb : ∀ x, off x + S1x1x64.size x ≤ S512x1x64.size x) (inbs : ∀ x, offs x + S1x1x64.size x ≤ S125000x8x64.size x) (p ps)
    (h1 h2 h3) (k : PUnit → Prog (TpuEff nD τ sig (Elt F) Λ₀ (.scVector (cV L) (jV L))) α) (Q : α → sProp (MT nD τ sig (HIx 1) (Elt F) ℕ UU ℕ)) :
    iprop(tokPt d L tb q ft t ∗ rowPt d L t fd ∗ batchAt d L tb fi hfi q ft fd t.val)
      ⊢ iprop((iprop(batchAt d L tb fi hfi q ft fd (t.val + 1) ∗ restPt d L tb fi hfi q ft t) -∗ wp frame (wpE (defs₀ (F := F)) 𝒱₀ (V d (cV L) (jV L)) none) Set.univ (k ⟨⟩) Q)
          -∗ wp frame (wpE (defs₀ (F := F)) 𝒱₀ (V d (cV L) (jV L)) none) Set.univ
            (.op (.enqueueDma (tb.slice (Rect.unit (s := S125000x8x64) offs S1x1x64.size inbs) ps)
              (.here ((s12).slice (Rect.unit (s := S512x1x64) off S1x1x64.size inb) p)) (.dma cc0_scratch2.sem) h1 h2 h3) k) Q) := by
  subst e1 ha hb; subst e2
  unfold batchAt
  iintro ⟨HT, HR, HB⟩ Hk
  ihave HT' := (pointsTo_split_subset (show (srcM tb fi hfi t.val).view.set ⊆ tb.view.set from View.set_slice_subset _ _)).1 $$ HT
  icases HT' with ⟨Hs, Hrest⟩
  iapply (Transfers.wp_dmaBatch (EC (F := F)) 𝒱₀ (V d (cV L) (jV L)) none (src := srcM tb fi hfi t.val) (dst := rowM t) (fd := fd) (Sd := (rowM t).view.set)
      (none : HIx 1) NN rfl (Finset.Subset.refl _) t.isLt (Nat.zero_le _) (D := deliv d L tb fi hfi q ft fd) ?hD) $$ [Hs HR HB]
  case hD =>
    unfold deliv
    exact .rfl
  · isplitl [Hs]; · iexact Hs
    isplitl [HR]; · iexact HR
    iexact HB
  iintro HB
  iapply Hk
  isplitl [HB]; · iexact HB
  iexact Hrest

end Phase

end Cert.Proof.KI.Sc

end
-- ==== Proof.ScViews.lean ====
/-
  The worker's ranges as the body slices them: the 512 index words and the 512 result rows of the tile at grid
  coordinates `L` are worker `2 (L 1) + (L 0)`'s.
-/
import proofs.«203152_g22136261444366_cont_8to1_1253_39_alg».proof.Proof.ScTileBase
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KI.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S16384 EltTy.i32)
local notation "a3" => (Memref.whole Cert.KernelIdeal.main_arg1_scv : Memref Cert.KernelIdeal.sig Kind.scVector Space.hbm Cert.KernelIdeal.S16384 EltTy.i32)
local notation "a4" => (Memref.whole Cert.KernelIdeal.main_arg2_scv : Memref Cert.KernelIdeal.sig Kind.scVector Space.hbm Cert.KernelIdeal.S16384 EltTy.i32)
local notation "a5" => (Memref.whole Cert.KernelIdeal.main_v0_scv : Memref Cert.KernelIdeal.sig Kind.scVector Space.hbm Cert.KernelIdeal.S125000x8x64 EltTy.f32)
local notation "a6" => (Memref.whole Cert.KernelIdeal.main_v1_scv : Memref Cert.KernelIdeal.sig Kind.scVector Space.hbm Cert.KernelIdeal.S125000x8x64 EltTy.f32)
local notation "a7" => (Memref.whole Cert.KernelIdeal.main_v2_scv : Memref Cert.KernelIdeal.sig Kind.scVector Space.hbm Cert.KernelIdeal.S125000x8x64 EltTy.f32)
local notation "a8" => (Memref.whole Cert.KernelIdeal.main_v3_0_scv : Memref Cert.KernelIdeal.sig Kind.scVector Space.hbm Cert.KernelIdeal.S16384x1x64 EltTy.f32)
local notation "a9" => (Memref.whole Cert.KernelIdeal.main_v3_1_scv : Memref Cert.KernelIdeal.sig Kind.scVector Space.hbm Cert.KernelIdeal.S16384x1x64 EltTy.f32)
local notation "a10" => (Memref.whole Cert.KernelIdeal.main_v3_2_scv : Memref Cert.KernelIdeal.sig Kind.scVector Space.hbm Cert.KernelIdeal.S16384x1x64 EltTy.f32)
local notation "s11" => (Memref.whole Cert.KernelIdeal.cc0_scratch0 : Memref Cert.KernelIdeal.sig Kind.scVector Space.vmem Cert.KernelIdeal.S512 EltTy.i32)
local notation "s12" => (Memref.whole Cert.KernelIdeal.cc0_scratch1 : Memref Cert.KernelIdeal.sig Kind.scVector Space.vmem Cert.KernelIdeal.S512x1x64 EltTy.f32)

variable [FloatOps F]

theorem bound_zero : grid0.bound 0 = 2 := rfl
theorem bound_one : grid0.bound 1 = 16 := rfl
/-- The SparseCore and the vector subcore of grid coordinates `L`, and their worker number. -/
abbrev cL (L : grid0.Coords) : Fin 2 := Fin.cast bound_zero (L 0)
abbrev iL (L : grid0.Coords) : Fin 16 := Fin.cast bound_one (L 1)
def wL (L : grid0.Coords) : Fin 32 := wid (cL L) (iL L)

theorem wL_val (L : grid0.Coords) : (wL L).val = 2 * (L 1).val + (L 0).val := rfl

/-- The index words of the tile, as the body slices an index array; the result rows, as it slices a result. -/
def iSl (ia : Memref sig .scVector .hbm S16384 .i32) (L : grid0.Coords) : Memref sig .scVector .hbm S512 .i32 :=
  ia.slice (Rect.unit (s := S16384) (k0_off1 L) S512.size (k0_off1_inb L)) (fun _ => rfl)
def oSl (oa : Memref sig .scVector .hbm S16384x1x64 .f32) (L : grid0.Coords) : Memref sig .scVector .hbm S512x1x64 .f32 :=
  oa.slice (Rect.unit (s := S16384x1x64) (k0_off36 L) S512x1x64.size (k0_off36_inb L)) (fun _ => rfl)

theorem rect_idx_set (L : grid0.Coords) : (Rect.unit (s := S16384) (k0_off1 L) S512.size (k0_off1_inb L)).set = idxSet (wL L) := by
  ext x
  have h0 := (L 0).isLt; have h1 := (L 1).isLt
  have hb0 : grid0.bound 0 = 2 := rfl
  have hb1 : grid0.bound 1 = 16 := rfl
  have hx : (x 0).val < 16384 := (x 0).isLt
  unfold idxSet
  rw [Rect.mem_set_unit, Rect.mem_set_unit, k0_off1_eq]
  constructor
  · intro h a
    obtain rfl : a = 0 := Subsingleton.elim _ _
    have := h 0
    simp only [Shape.partIx, Shape.partSize, wL_val] at this ⊢
    simp at this ⊢
    omega
  · intro h a
    obtain rfl : a = 0 := Subsingleton.elim _ _
    have := h 0
    simp only [Shape.partIx, Shape.partSize, wL_val] at this ⊢
    simp at this ⊢
    omega

theorem rect_out_set (L : grid0.Coords) : (Rect.unit (s := S16384x1x64) (k0_off36 L) S512x1x64.size (k0_off36_inb L)).set = outSet (wL L) := by
  ext x
  have h0 := (L 0).isLt; have h1 := (L 1).isLt
  have hb0 : grid0.bound 0 = 2 := rfl
  have hb1 : grid0.bound 1 = 16 := rfl
  have hx0 : (x 0).val < 16384 := (x 0).isLt
  have hx1 : (x 1).val < 1 := (x 1).isLt
  have hx2 : (x 2).val < 64 := (x 2).isLt
  unfold outSet
  rw [Rect.mem_set_unit, Rect.mem_set_unit, k0_off36_eq]
  constructor
  · intro h a
    have e0 := h 0; have e1 := h 1; have e2 := h 2
    fin_cases a <;> simp [Shape.partIx, Shape.partSize, wL_val] at e0 e1 e2 ⊢ <;> omega
  · intro h a
    have e0 := h 0; have e1 := h 1; have e2 := h 2
    fin_cases a <;> simp [Shape.partIx, Shape.partSize, wL_val] at e0 e1 e2 ⊢ <;> omega

theorem set_iSl_main_arg0_scv (L : grid0.Coords) : (iSl (Memref.whole main_arg0_scv) L).view.set = idxSet (wL L) := by
  unfold iSl; exact (View.set_slice_whole _ _).trans (rect_idx_set L)

theorem set_iSl_main_arg1_scv (L : grid0.Coords) : (iSl (Memref.whole main_arg1_scv) L).view.set = idxSet (wL L) := by
  unfold iSl; exact (View.set_slice_whole _ _).trans (rect_idx_set L)

theorem set_iSl_main_arg2_scv (L : grid0.Coords) : (iSl (Memref.whole main_arg2_scv) L).view.set = idxSet (wL L) := by
  unfold iSl; exact (View.set_slice_whole _ _).trans (rect_idx_set L)

theorem set_oSl_main_v3_0_scv (L : grid0.Coords) : (oSl (Memref.whole main_v3_0_scv) L).view.set = outSet (wL L) := by
  unfold oSl; exact (View.set_slice_whole _ _).trans (rect_out_set L)

theorem set_oSl_main_v3_1_scv (L : grid0.Coords) : (oSl (Memref.whole main_v3_1_scv) L).view.set = outSet (wL L) := by
  unfold oSl; exact (View.set_slice_whole _ _).trans (rect_out_set L)

theorem set_oSl_main_v3_2_scv (L : grid0.Coords) : (oSl (Memref.whole main_v3_2_scv) L).view.set = outSet (wL L) := by
  unfold oSl; exact (View.set_slice_whole _ _).trans (rect_out_set L)

end Cert.Proof.KI.Sc

end
-- ==== Proof.ScTile.lean ====
/-
  The tile obligation of the gather call from the body's triple at grid coordinates: the launch theorem's spelling
  of thread and program around it.
-/
import proofs.«203152_g22136261444366_cont_8to1_1253_39_alg».proof.Proof.ScSplit
import proofs.«203152_g22136261444366_cont_8to1_1253_39_alg».proof.Proof.ScViews
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KI.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S16384 EltTy.i32)
local notation "a3" => (Memref.whole Cert.KernelIdeal.main_arg1_scv : Memref Cert.KernelIdeal.sig Kind.scVector Space.hbm Cert.KernelIdeal.S16384 EltTy.i32)
local notation "a4" => (Memref.whole Cert.KernelIdeal.main_arg2_scv : Memref Cert.KernelIdeal.sig Kind.scVector Space.hbm Cert.KernelIdeal.S16384 EltTy.i32)
local notation "a5" => (Memref.whole Cert.KernelIdeal.main_v0_scv : Memref Cert.KernelIdeal.sig Kind.scVector Space.hbm Cert.KernelIdeal.S125000x8x64 EltTy.f32)
local notation "a6" => (Memref.whole Cert.KernelIdeal.main_v1_scv : Memref Cert.KernelIdeal.sig Kind.scVector Space.hbm Cert.KernelIdeal.S125000x8x64 EltTy.f32)
local notation "a7" => (Memref.whole Cert.KernelIdeal.main_v2_scv : Memref Cert.KernelIdeal.sig Kind.scVector Space.hbm Cert.KernelIdeal.S125000x8x64 EltTy.f32)
local notation "a8" => (Memref.whole Cert.KernelIdeal.main_v3_0_scv : Memref Cert.KernelIdeal.sig Kind.scVector Space.hbm Cert.KernelIdeal.S16384x1x64 EltTy.f32)
local notation "a9" => (Memref.whole Cert.KernelIdeal.main_v3_1_scv : Memref Cert.KernelIdeal.sig Kind.scVector Space.hbm Cert.KernelIdeal.S16384x1x64 EltTy.f32)
local notation "a10" => (Memref.whole Cert.KernelIdeal.main_v3_2_scv : Memref Cert.KernelIdeal.sig Kind.scVector Space.hbm Cert.KernelIdeal.S16384x1x64 EltTy.f32)
local notation "s11" => (Memref.whole Cert.KernelIdeal.cc0_scratch0 : Memref Cert.KernelIdeal.sig Kind.scVector Space.vmem Cert.KernelIdeal.S512 EltTy.i32)
local notation "s12" => (Memref.whole Cert.KernelIdeal.cc0_scratch1 : Memref Cert.KernelIdeal.sig Kind.scVector Space.vmem Cert.KernelIdeal.S512x1x64 EltTy.f32)

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_body (coordsV c s) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) s11 (Memref.isWhole_whole _) s12 (Memref.isWhole_whole _) cc0_scratch2 cc0_scoped0 cc0_scoped1 cc0_scoped2 cc0_scoped3 cc0_scoped4 cc0_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body's triple at grid coordinates `L`: from the tile's share of the call and its scoped storage to its results. -/
def TileBody (W : Dev nD → Valuation τ sig (Elt F)) : Prop :=
  ∀ (d : Dev nD) (L : grid0.Coords) (O : CellTallies nD τ sig (HIx 1)) (Wt : Waits sig (HIx 1)), (∀ g, O g none = 0) →
    iprop(levAts (K (F := F)).L (K (F := F)).lev ∗ emp ∗ goC W d (cL L) (iL L)
        ∗ scopedBufs (V d (cV L) (jV L)) ∗ scopedSems0 (V d (cV L) (jV L)) ∗ owes (V d (cV L) (jV L)) O Wt)
      ⊢ wp frame (wpE (defs₀ (F := F)) 𝒱₀ (V d (cV L) (jV L)) none) Set.univ
          (cc0__gather_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) s11 (Memref.isWhole_whole _) s12 (Memref.isWhole_whole _) cc0_scratch2 cc0_scoped0 cc0_scoped1 cc0_scoped2 cc0_scoped3 cc0_scoped4 cc0_scoped5)
          fun _ => iprop(tdC W d (cL L) (iL L) ∗ scopedBufs (V d (cV L) (jV L)) ∗ scopedSems0 (V d (cV L) (jV L))
            ∗ ∃ W', ⌜∀ p ∈ W', p ∈ Wt ∨ p.2 = none⌝ ∗ owes (V d (cV L) (jV L)) O W')

theorem tileObl_of (W : Dev nD → Valuation τ sig (Elt F)) (h : TileBody W) :
    (K (F := F)).TileObl (D (F := F)) 𝒱 (P W) v₀ 0 := by
  intro d c i O Wt hO _ _
  simp only [show (P W).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (h d (coordsV ⟨_, hc.1⟩ ⟨_, hc.2⟩) O Wt hO).trans (wp_mono frame _ _ fun _ => obl_post)

end Cert.Proof.KI.Sc

end
-- ==== Proof.ScTrip.lean ====
/-
  One trip of the gather loop: sixteen row copies of the batch.
-/
import proofs.«203152_g22136261444366_cont_8to1_1253_39_alg».proof.Proof.ScTileBase
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import Idealize.ShloMosaic.Lib.Ring

noncomputable section

namespace Cert.Proof.KI.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

open Idealize.ShloMosaic.Tactic

local notation "a2" => (Memref.whole Cert.KernelIdeal.main_arg0_scv : Memref Cert.KernelIdeal.sig Kind.scVector Space.hbm Cert.KernelIdeal.S16384 EltTy.i32)
local notation "a3" => (Memref.whole Cert.KernelIdeal.main_arg1_scv : Memref Cert.KernelIdeal.sig Kind.scVector Space.hbm Cert.KernelIdeal.S16384 EltTy.i32)
local notation "a4" => (Memref.whole Cert.KernelIdeal.main_arg2_scv : Memref Cert.KernelIdeal.sig Kind.scVector Space.hbm Cert.KernelIdeal.S16384 EltTy.i32)
local notation "a5" => (Memref.whole Cert.KernelIdeal.main_v0_scv : Memref Cert.KernelIdeal.sig Kind.scVector Space.hbm Cert.KernelIdeal.S125000x8x64 EltTy.f32)
local notation "a6" => (Memref.whole Cert.KernelIdeal.main_v1_scv : Memref Cert.KernelIdeal.sig Kind.scVector Space.hbm Cert.KernelIdeal.S125000x8x64 EltTy.f32)
local notation "a7" => (Memref.whole Cert.KernelIdeal.main_v2_scv : Memref Cert.KernelIdeal.sig Kind.scVector Space.hbm Cert.KernelIdeal.S125000x8x64 EltTy.f32)
local notation "a8" => (Memref.whole Cert.KernelIdeal.main_v3_0_scv : Memref Cert.KernelIdeal.sig Kind.scVector Space.hbm Cert.KernelIdeal.S16384x1x64 EltTy.f32)
local notation "a9" => (Memref.whole Cert.KernelIdeal.main_v3_1_scv : Memref Cert.KernelIdeal.sig Kind.scVector Space.hbm Cert.KernelIdeal.S16384x1x64 EltTy.f32)
local notation "a10" => (Memref.whole Cert.KernelIdeal.main_v3_2_scv : Memref Cert.KernelIdeal.sig Kind.scVector Space.hbm Cert.KernelIdeal.S16384x1x64 EltTy.f32)
local notation "s11" => (Memref.whole Cert.KernelIdeal.cc0_scratch0 : Memref Cert.KernelIdeal.sig Kind.scVector Space.vmem Cert.KernelIdeal.S512 EltTy.i32)
local notation "s12" => (Memref.whole Cert.KernelIdeal.cc0_scratch1 : Memref Cert.KernelIdeal.sig Kind.scVector Space.vmem Cert.KernelIdeal.S512x1x64 EltTy.f32)

variable [FloatOps F]

theorem bigSep_fin16 {M : Type} [URA M] (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} from by decide,
    BI.bigSep_insert (by decide), BI.bigSep_insert (by decide), BI.bigSep_insert (by decide), BI.bigSep_insert (by decide), BI.bigSep_insert (by decide), BI.bigSep_insert (by decide), BI.bigSep_insert (by decide), BI.bigSep_insert (by decide), BI.bigSep_insert (by decide), BI.bigSep_insert (by decide), BI.bigSep_insert (by decide), BI.bigSep_insert (by decide), BI.bigSep_insert (by decide), BI.bigSep_insert (by decide), BI.bigSep_insert (by decide), bigSep_singleton]
  rfl

theorem bigSep_rangeSet_snoc {M : Type} [URA M] {Φ : Fin 32 → sProp M} {k : ℕ} (hk : k < 32) :
    bigSep (Ring.rangeSet 32 0 (k + 1)) Φ = iprop(Φ ⟨k, hk⟩ ∗ bigSep (Ring.rangeSet 32 0 k) Φ) := by
  have h := Ring.bigSep_rangeSet_last (NB := 32) (Φ := Φ) (lo := 0) (hi := k + 1) (by omega) (by omega)
  simp only [Nat.add_sub_cancel] at h
  exact h

/-! ## The words a trip reads -/

section Words

variable (fi : S512.Idx → BitVec 32) (hfi : ∀ x, (fi x).toNat ≤ 999999)

/-- Word `i` of the sixteen loaded at trip `k` is index word `16 k + i`. -/
theorem load_word (k : Fin 32) (off : Fin 1 → ℕ) (eo : off = ![16 * k.val]) (inb) (i : S16.Idx) :
    (s11).view.readAt (Elt F) (Rect.unit (s := S512) off S16.size inb).toLoadRect fi i = fi (ix512 (16 * k.val + (i 0).val)) := by
  subst eo
  have hk := k.isLt; have hi : (i 0).val < 16 := (i 0).isLt
  show fi ((Rect.unit (s := S512) ![16 * k.val] S16.size inb).toLoadRect.idx i) = fi (ix512 (16 * k.val + (i 0).val))
  congr 1
  funext (a : Fin 1); apply Fin.ext
  obtain rfl : a = 0 := Subsingleton.elim _ _
  show 16 * k.val + 1 * (i 0).val = (16 * k.val + (i 0).val) % 512
  rw [Nat.mod_eq_of_lt (by omega)]; omega

theorem shapeCast_same {α : Type} (v : S16.Idx → α) (h : S16.ShapeCasts S16) : shapeCast S16 v h = v := by
  funext x; unfold shapeCast; rw [Shape.reshapeEquiv_self]

theorem extract_at (v : IVec S16 32) (j : ℕ) (hs : S16.Slices ![j] S1) (hp) :
    extractAt ![0] (extractStridedSlice S1 ![j] v hs) hp = v (clampIdx S16 pos_S16 ![j]) := by
  have hj : j + 1 ≤ 16 := hs.2 0
  unfold extractAt extractStridedSlice
  congr 1
  funext (a : Fin 1); apply Fin.ext
  obtain rfl : a = 0 := Subsingleton.elim _ _
  show j + 0 = j % 16
  rw [Nat.mod_eq_of_lt (by omega)]; rfl

theorem wordA_run (k : Fin 32) (j : ℕ) (off : Fin 1 → ℕ) (eo : off = ![16 * k.val]) (inb) (hc) (hs : S16.Slices ![j] S1) (hp) :
    extractAt ![0] (extractStridedSlice S1 ![j] (shrui (shapeCast S16 ((s11).view.readAt (Elt F) (Rect.unit (s := S512) off S16.size inb).toLoadRect fi) hc) (broadcast S16 3#32)) hs) hp
      = wordA fi (16 * k.val + j) := by
  have hj : j + 1 ≤ 16 := hs.2 0
  rw [extract_at]
  unfold shrui broadcast wordA
  rw [shapeCast_same, load_word (F := F) fi k off eo inb]
  congr 3
  show 16 * k.val + (j % 16) = 16 * k.val + j
  rw [Nat.mod_eq_of_lt (by omega)]

theorem wordB_run (k : Fin 32) (j : ℕ) (off : Fin 1 → ℕ) (eo : off = ![16 * k.val]) (inb) (hc) (hs : S16.Slices ![j] S1) (hp) :
    extractAt ![0] (extractStridedSlice S1 ![j] (andi (shapeCast S16 ((s11).view.readAt (Elt F) (Rect.unit (s := S512) off S16.size inb).toLoadRect fi) hc) (broadcast S16 7#32)) hs) hp
      = wordB fi (16 * k.val + j) := by
  have hj : j + 1 ≤ 16 := hs.2 0
  rw [extract_at]
  unfold andi broadcast wordB
  rw [shapeCast_same, load_word (F := F) fi k off eo inb]
  congr 3
  show 16 * k.val + (j % 16) = 16 * k.val + j
  rw [Nat.mod_eq_of_lt (by omega)]

include hfi in
/-- The body's check at a copy: its source row is a row of the table. -/
theorem chk_of_words {a b : BitVec 32} (t : ℕ) (ha : a = wordA fi t) (hb : b = wordB fi t) :
    ∀ x, (![a.toNat, b.toNat, 0] : Fin 3 → ℕ) x + S1x1x64.size x ≤ S125000x8x64.size x := by
  subst ha hb; exact src_inb fi hfi t

end Words

section Trip

variable (d : Dev nD) (L : grid0.Coords)
variable (tb : Memref sig .scVector .hbm S125000x8x64 .f32) (htb : tb.IsWhole)
variable (fi : S512.Idx → BitVec 32) (hfi : ∀ x, (fi x).toNat ≤ 999999)
variable (q : PosShare TreeShare) (ft : Buf (Elt F) (tb.view.loc (V d (cV L) (jV L)))) (fd : S512x1x64.Idx → Elt F .f32)

/-- The sixteen rows, tokens and token rests of trip `k`. -/
def rows16 (k : Fin 32) : sProp (MT nD τ sig (HIx 1) (Elt F) ℕ UU ℕ) := bigSep Finset.univ fun j : Fin 16 => rowPt d L (t512 k j) fd
def toks16 (k : Fin 32) : sProp (MT nD τ sig (HIx 1) (Elt F) ℕ UU ℕ) := bigSep Finset.univ fun j : Fin 16 => tokPt d L tb q ft (t512 k j)
def rests16 (k : Fin 32) : sProp (MT nD τ sig (HIx 1) (Elt F) ℕ UU ℕ) := bigSep Finset.univ fun j : Fin 16 => restPt d L tb fi hfi q ft (t512 k j)

theorem rows16_eq (k : Fin 32) : rows16 d L fd k = iprop(rowPt d L (t512 k 0) fd ∗ rowPt d L (t512 k 1) fd ∗ rowPt d L (t512 k 2) fd ∗ rowPt d L (t512 k 3) fd ∗ rowPt d L (t512 k 4) fd ∗ rowPt d L (t512 k 5) fd ∗ rowPt d L (t512 k 6) fd ∗ rowPt d L (t512 k 7) fd ∗ rowPt d L (t512 k 8) fd ∗ rowPt d L (t512 k 9) fd ∗ rowPt d L (t512 k 10) fd ∗ rowPt d L (t512 k 11) fd ∗ rowPt d L (t512 k 12) fd ∗ rowPt d L (t512 k 13) fd ∗ rowPt d L (t512 k 14) fd ∗ rowPt d L (t512 k 15) fd) := by
  unfold rows16; rw [bigSep_fin16]
theorem toks16_eq (k : Fin 32) : toks16 d L tb q ft k = iprop(tokPt d L tb q ft (t512 k 0) ∗ tokPt d L tb q ft (t512 k 1) ∗ tokPt d L tb q ft (t512 k 2) ∗ tokPt d L tb q ft (t512 k 3) ∗ tokPt d L tb q ft (t512 k 4) ∗ tokPt d L tb q ft (t512 k 5) ∗ tokPt d L tb q ft (t512 k 6) ∗ tokPt d L tb q ft (t512 k 7) ∗ tokPt d L tb q ft (t512 k 8) ∗ tokPt d L tb q ft (t512 k 9) ∗ tokPt d L tb q ft (t512 k 10) ∗ tokPt d L tb q ft (t512 k 11) ∗ tokPt d L tb q ft (t512 k 12) ∗ tokPt d L tb q ft (t512 k 13) ∗ tokPt d L tb q ft (t512 k 14) ∗ tokPt d L tb q ft (t512 k 15)) := by
  unfold toks16; rw [bigSep_fin16]
theorem rests16_eq (k : Fin 32) : rests16 d L tb fi hfi q ft k = iprop(restPt d L tb fi hfi q ft (t512 k 0) ∗ restPt d L tb fi hfi q ft (t512 k 1) ∗ restPt d L tb fi hfi q ft (t512 k 2) ∗ restPt d L tb fi hfi q ft (t512 k 3) ∗ restPt d L tb fi hfi q ft (t512 k 4) ∗ restPt d L tb fi hfi q ft (t512 k 5) ∗ restPt d L tb fi hfi q ft (t512 k 6) ∗ restPt d L tb fi hfi q ft (t512 k 7) ∗ restPt d L tb fi hfi q ft (t512 k 8) ∗ restPt d L tb fi hfi q ft (t512 k 9) ∗ restPt d L tb fi hfi q ft (t512 k 10) ∗ restPt d L tb fi hfi q ft (t512 k 11) ∗ restPt d L tb fi hfi q ft (t512 k 12) ∗ restPt d L tb fi hfi q ft (t512 k 13) ∗ restPt d L tb fi hfi q ft (t512 k 14) ∗ restPt d L tb fi hfi q ft (t512 k 15)) := by
  unfold rests16; rw [bigSep_fin16]

/-- Before trip `kk`: the index scratch at its words; `16 kk` copies issued; the rows and tokens of the trips from
    `kk` on still in hand; the rests of the tokens lent so far. -/
def tripInv (kk : ℕ) (_ : BitVec 32) : sProp (MT nD τ sig (HIx 1) (Elt F) ℕ UU ℕ) :=
  iprop(((s11).view.loc (V d (cV L) (jV L)) ↦{fullShare} fi) ∗ batchAt d L tb fi hfi q ft fd (16 * kk)
    ∗ bigSep (Ring.rangeSet 32 kk 32) (rows16 d L fd) ∗ bigSep (Ring.rangeSet 32 kk 32) (toks16 d L tb q ft)
    ∗ bigSep (Ring.rangeSet 32 0 kk) (rests16 d L tb fi hfi q ft))

set_option maxHeartbeats 8000000 in
/-- ONE TRIP of the gather loop at a symbolic trip: the sixteen index words loaded, each checked to name a table row,
    each row copy issued as the batch's next. -/
theorem trip1 [∀ e, Nonempty (Elt F e)] (k : Fin k0_t1_loop.trips) (acc : BitVec 32) :
    tripInv d L tb fi hfi q ft fd k.val acc ⊢ wp frame (wpE (defs₀ (F := F)) 𝒱₀ (V d (cV L) (jV L)) none) Set.univ
      (k0_t1_body L a2 (Memref.isWhole_whole _) a3 (Memref.isWhole_whole _) a4 (Memref.isWhole_whole _) tb htb a6 (Memref.isWhole_whole _) a7 (Memref.isWhole_whole _) a8 (Memref.isWhole_whole _) a9 (Memref.isWhole_whole _) a10 (Memref.isWhole_whole _) s11 (Memref.isWhole_whole _) s12 (Memref.isWhole_whole _) cc0_scratch2 cc0_scoped0 cc0_scoped1 cc0_scoped2 cc0_scoped3 cc0_scoped4 cc0_scoped5 k acc) (tripInv d L tb fi hfi q ft fd (k.val + 1)) := by
  have hk : k.val < 32 := lt_of_lt_of_le k.isLt k0_t1_abs.2.1
  unfold tripInv
  rw [Ring.bigSep_rangeSet_head (Φ := rows16 d L fd) hk hk, Ring.bigSep_rangeSet_head (Φ := toks16 d L tb q ft) hk hk,
    bigSep_rangeSet_snoc (Φ := rests16 d L tb fi hfi q ft) hk]
  rw [rows16_eq d L fd ⟨k.val, hk⟩, toks16_eq d L tb q ft ⟨k.val, hk⟩, rests16_eq d L tb fi hfi q ft ⟨k.val, hk⟩]
  iintro ⟨Hi, HB, ⟨⟨R0, R1, R2, R3, R4, R5, R6, R7, R8, R9, R10, R11, R12, R13, R14, R15⟩, HR⟩, ⟨⟨T0, T1, T2, T3, T4, T5, T6, T7, T8, T9, T10, T11, T12, T13, T14, T15⟩, HT⟩, HX⟩
  sl_unfold [k0_t1_body]
  -- copy 0
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 0) (e1 := (k0_off5_eq k ⟨0, by decide⟩))
      (ha := wordA_run (F := F) fi ⟨k.val, hk⟩ 0 _ (k0_off2_eq k) _ _ _ _) (hb := wordB_run (F := F) fi ⟨k.val, hk⟩ 0 _ (k0_off2_eq k) _ _ _ _) (e2 := rfl)) $$ [T0 R0 HB]
  · isplitl [T0]; · iexact T0
    isplitl [R0]; · iexact R0
    iexact HB
  iintro ⟨HB, X0⟩
  -- copy 1
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 1) (e1 := (k0_off7_eq k ⟨0, by decide⟩))
      (ha := wordA_run (F := F) fi ⟨k.val, hk⟩ 1 _ (k0_off2_eq k) _ _ _ _) (hb := wordB_run (F := F) fi ⟨k.val, hk⟩ 1 _ (k0_off2_eq k) _ _ _ _) (e2 := rfl)) $$ [T1 R1 HB]
  · isplitl [T1]; · iexact T1
    isplitl [R1]; · iexact R1
    iexact HB
  iintro ⟨HB, X1⟩
  -- copy 2
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 2) (e1 := (k0_off9_eq k ⟨0, by decide⟩))
      (ha := wordA_run (F := F) fi ⟨k.val, hk⟩ 2 _ (k0_off2_eq k) _ _ _ _) (hb := wordB_run (F := F) fi ⟨k.val, hk⟩ 2 _ (k0_off2_eq k) _ _ _ _) (e2 := rfl)) $$ [T2 R2 HB]
  · isplitl [T2]; · iexact T2
    isplitl [R2]; · iexact R2
    iexact HB
  iintro ⟨HB, X2⟩
  -- copy 3
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 3) (e1 := (k0_off11_eq k ⟨0, by decide⟩))
      (ha := wordA_run (F := F) fi ⟨k.val, hk⟩ 3 _ (k0_off2_eq k) _ _ _ _) (hb := wordB_run (F := F) fi ⟨k.val, hk⟩ 3 _ (k0_off2_eq k) _ _ _ _) (e2 := rfl)) $$ [T3 R3 HB]
  · isplitl [T3]; · iexact T3
    isplitl [R3]; · iexact R3
    iexact HB
  iintro ⟨HB, X3⟩
  -- copy 4
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 4) (e1 := (k0_off13_eq k ⟨0, by decide⟩))
      (ha := wordA_run (F := F) fi ⟨k.val, hk⟩ 4 _ (k0_off2_eq k) _ _ _ _) (hb := wordB_run (F := F) fi ⟨k.val, hk⟩ 4 _ (k0_off2_eq k) _ _ _ _) (e2 := rfl)) $$ [T4 R4 HB]
  · isplitl [T4]; · iexact T4
    isplitl [R4]; · iexact R4
    iexact HB
  iintro ⟨HB, X4⟩
  -- copy 5
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 5) (e1 := (k0_off15_eq k ⟨0, by decide⟩))
      (ha := wordA_run (F := F) fi ⟨k.val, hk⟩ 5 _ (k0_off2_eq k) _ _ _ _) (hb := wordB_run (F := F) fi ⟨k.val, hk⟩ 5 _ (k0_off2_eq k) _ _ _ _) (e2 := rfl)) $$ [T5 R5 HB]
  · isplitl [T5]; · iexact T5
    isplitl [R5]; · iexact R5
    iexact HB
  iintro ⟨HB, X5⟩
  -- copy 6
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 6) (e1 := (k0_off17_eq k ⟨0, by decide⟩))
      (ha := wordA_run (F := F) fi ⟨k.val, hk⟩ 6 _ (k0_off2_eq k) _ _ _ _) (hb := wordB_run (F := F) fi ⟨k.val, hk⟩ 6 _ (k0_off2_eq k) _ _ _ _) (e2 := rfl)) $$ [T6 R6 HB]
  · isplitl [T6]; · iexact T6
    isplitl [R6]; · iexact R6
    iexact HB
  iintro ⟨HB, X6⟩
  -- copy 7
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 7) (e1 := (k0_off19_eq k ⟨0, by decide⟩))
      (ha := wordA_run (F := F) fi ⟨k.val, hk⟩ 7 _ (k0_off2_eq k) _ _ _ _) (hb := wordB_run (F := F) fi ⟨k.val, hk⟩ 7 _ (k0_off2_eq k) _ _ _ _) (e2 := rfl)) $$ [T7 R7 HB]
  · isplitl [T7]; · iexact T7
    isplitl [R7]; · iexact R7
    iexact HB
  iintro ⟨HB, X7⟩
  -- copy 8
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 8) (e1 := (k0_off21_eq k ⟨0, by decide⟩))
      (ha := wordA_run (F := F) fi ⟨k.val, hk⟩ 8 _ (k0_off2_eq k) _ _ _ _) (hb := wordB_run (F := F) fi ⟨k.val, hk⟩ 8 _ (k0_off2_eq k) _ _ _ _) (e2 := rfl)) $$ [T8 R8 HB]
  · isplitl [T8]; · iexact T8
    isplitl [R8]; · iexact R8
    iexact HB
  iintro ⟨HB, X8⟩
  -- copy 9
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 9) (e1 := (k0_off23_eq k ⟨0, by decide⟩))
      (ha := wordA_run (F := F) fi ⟨k.val, hk⟩ 9 _ (k0_off2_eq k) _ _ _ _) (hb := wordB_run (F := F) fi ⟨k.val, hk⟩ 9 _ (k0_off2_eq k) _ _ _ _) (e2 := rfl)) $$ [T9 R9 HB]
  · isplitl [T9]; · iexact T9
    isplitl [R9]; · iexact R9
    iexact HB
  iintro ⟨HB, X9⟩
  -- copy 10
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 10) (e1 := (k0_off25_eq k ⟨0, by decide⟩))
      (ha := wordA_run (F := F) fi ⟨k.val, hk⟩ 10 _ (k0_off2_eq k) _ _ _ _) (hb := wordB_run (F := F) fi ⟨k.val, hk⟩ 10 _ (k0_off2_eq k) _ _ _ _) (e2 := rfl)) $$ [T10 R10 HB]
  · isplitl [T10]; · iexact T10
    isplitl [R10]; · iexact R10
    iexact HB
  iintro ⟨HB, X10⟩
  -- copy 11
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 11) (e1 := (k0_off27_eq k ⟨0, by decide⟩))
      (ha := wordA_run (F := F) fi ⟨k.val, hk⟩ 11 _ (k0_off2_eq k) _ _ _ _) (hb := wordB_run (F := F) fi ⟨k.val, hk⟩ 11 _ (k0_off2_eq k) _ _ _ _) (e2 := rfl)) $$ [T11 R11 HB]
  · isplitl [T11]; · iexact T11
    isplitl [R11]; · iexact R11
    iexact HB
  iintro ⟨HB, X11⟩
  -- copy 12
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 12) (e1 := (k0_off29_eq k ⟨0, by decide⟩))
      (ha := wordA_run (F := F) fi ⟨k.val, hk⟩ 12 _ (k0_off2_eq k) _ _ _ _) (hb := wordB_run (F := F) fi ⟨k.val, hk⟩ 12 _ (k0_off2_eq k) _ _ _ _) (e2 := rfl)) $$ [T12 R12 HB]
  · isplitl [T12]; · iexact T12
    isplitl [R12]; · iexact R12
    iexact HB
  iintro ⟨HB, X12⟩
  -- copy 13
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 13) (e1 := (k0_off31_eq k ⟨0, by decide⟩))
      (ha := wordA_run (F := F) fi ⟨k.val, hk⟩ 13 _ (k0_off2_eq k) _ _ _ _) (hb := wordB_run (F := F) fi ⟨k.val, hk⟩ 13 _ (k0_off2_eq k) _ _ _ _) (e2 := rfl)) $$ [T13 R13 HB]
  · isplitl [T13]; · iexact T13
    isplitl [R13]; · iexact R13
    iexact HB
  iintro ⟨HB, X13⟩
  -- copy 14
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 14) (e1 := (k0_off33_eq k ⟨0, by decide⟩))
      (ha := wordA_run (F := F) fi ⟨k.val, hk⟩ 14 _ (k0_off2_eq k) _ _ _ _) (hb := wordB_run (F := F) fi ⟨k.val, hk⟩ 14 _ (k0_off2_eq k) _ _ _ _) (e2 := rfl)) $$ [T14 R14 HB]
  · isplitl [T14]; · iexact T14
    isplitl [R14]; · iexact R14
    iexact HB
  iintro ⟨HB, X14⟩
  -- copy 15 (its words are named by the run)
  sl_exec
  have ha15 : trip1.sl.v174 fi k = wordA fi (16 * k.val + 15) := wordA_run (F := F) fi ⟨k.val, hk⟩ 15 _ (k0_off2_eq k) (k0_off2_inb k) shapeCasts_S16_S16 slices_S16_o15_S1 inpos_S1_p0
  have hb15 : trip1.sl.v176 fi k = wordB fi (16 * k.val + 15) := wordB_run (F := F) fi ⟨k.val, hk⟩ 15 _ (k0_off2_eq k) (k0_off2_inb k) shapeCasts_S16_S16 slices_S16_o15_S1 inpos_S1_p0
  rw [wp_assume_of _ _ _ _ (show k0_chk16 (trip1.sl.v174 fi k) (trip1.sl.v176 fi k) from chk_of_words fi hfi _ ha15 hb15)]
  sl_exec
  iapply (issue_row d L tb fi hfi q ft fd (t512 ⟨k.val, hk⟩ 15) (e1 := (k0_off35_eq k)) (ha := ha15) (hb := hb15) (e2 := rfl)) $$ [T15 R15 HB]
  · isplitl [T15]; · iexact T15
    isplitl [R15]; · iexact R15
    iexact HB
  iintro ⟨HB, X15⟩
  sl_exec
  sl_step
  isplitl [Hi]; · iexact Hi
  isplitl [HB]; · iexact HB
  isplitl [HR]; · iexact HR
  isplitl [HT]; · iexact HT
  isplitl [X0 X1 X2 X3 X4 X5 X6 X7 X8 X9 X10 X11 X12 X13 X14 X15]
  · isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [X11]; · iexact X11
    isplitl [X12]; · iexact X12
    isplitl [X13]; · iexact X13
    isplitl [X14]; · iexact X14
    iexact X15
  iexact HX

end Trip

/-! ## The second and third loops: the same region, at the second and third table -/

section Others

variable (d : Dev nD) (L : grid0.Coords)
variable (fi : S512.Idx → BitVec 32) (hfi : ∀ x, (fi x).toNat ≤ 999999)
variable (q : PosShare TreeShare) (fd : S512x1x64.Idx → Elt F .f32)

set_option maxRecDepth 65536 in
set_option maxHeartbeats 4000000 in
theorem t2_body_eq : k0_t2_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) s11 (Memref.isWhole_whole _) s12 (Memref.isWhole_whole _) cc0_scratch2 cc0_scoped0 cc0_scoped1 cc0_scoped2 cc0_scoped3 cc0_scoped4 cc0_scoped5 = k0_t1_body (F := F) L a2 (Memref.isWhole_whole _) a3 (Memref.isWhole_whole _) a4 (Memref.isWhole_whole _) a6 (Memref.isWhole_whole _) a6 (Memref.isWhole_whole _) a7 (Memref.isWhole_whole _) a8 (Memref.isWhole_whole _) a9 (Memref.isWhole_whole _) a10 (Memref.isWhole_whole _) s11 (Memref.isWhole_whole _) s12 (Memref.isWhole_whole _) cc0_scratch2 cc0_scoped0 cc0_scoped1 cc0_scoped2 cc0_scoped3 cc0_scoped4 cc0_scoped5 := rfl

set_option maxRecDepth 65536 in
set_option maxHeartbeats 4000000 in
theorem t3_body_eq : k0_t3_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) s11 (Memref.isWhole_whole _) s12 (Memref.isWhole_whole _) cc0_scratch2 cc0_scoped0 cc0_scoped1 cc0_scoped2 cc0_scoped3 cc0_scoped4 cc0_scoped5 = k0_t1_body (F := F) L a2 (Memref.isWhole_whole _) a3 (Memref.isWhole_whole _) a4 (Memref.isWhole_whole _) a7 (Memref.isWhole_whole _) a6 (Memref.isWhole_whole _) a7 (Memref.isWhole_whole _) a8 (Memref.isWhole_whole _) a9 (Memref.isWhole_whole _) a10 (Memref.isWhole_whole _) s11 (Memref.isWhole_whole _) s12 (Memref.isWhole_whole _) cc0_scratch2 cc0_scoped0 cc0_scoped1 cc0_scoped2 cc0_scoped3 cc0_scoped4 cc0_scoped5 := rfl

theorem trip2 [∀ e, Nonempty (Elt F e)] (ft : Buf (Elt F) ((a6).view.loc (V d (cV L) (jV L)))) (k : Fin k0_t2_loop.trips) (acc : BitVec 32) :
    tripInv d L a6 fi hfi q ft fd k.val acc ⊢ wp frame (wpE (defs₀ (F := F)) 𝒱₀ (V d (cV L) (jV L)) none) Set.univ
      (k0_t2_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) s11 (Memref.isWhole_whole _) s12 (Memref.isWhole_whole _) cc0_scratch2 cc0_scoped0 cc0_scoped1 cc0_scoped2 cc0_scoped3 cc0_scoped4 cc0_scoped5 k acc) (tripInv d L a6 fi hfi q ft fd (k.val + 1)) := by
  rw [t2_body_eq]
  exact trip1 d L a6 (Memref.isWhole_whole _) fi hfi q ft fd k acc

theorem trip3 [∀ e, Nonempty (Elt F e)] (ft : Buf (Elt F) ((a7).view.loc (V d (cV L) (jV L)))) (k : Fin k0_t3_loop.trips) (acc : BitVec 32) :
    tripInv d L a7 fi hfi q ft fd k.val acc ⊢ wp frame (wpE (defs₀ (F := F)) 𝒱₀ (V d (cV L) (jV L)) none) Set.univ
      (k0_t3_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) s11 (Memref.isWhole_whole _) s12 (Memref.isWhole_whole _) cc0_scratch2 cc0_scoped0 cc0_scoped1 cc0_scoped2 cc0_scoped3 cc0_scoped4 cc0_scoped5 k acc) (tripInv d L a7 fi hfi q ft fd (k.val + 1)) := by
  rw [t3_body_eq]
  exact trip1 d L a7 (Memref.isWhole_whole _) fi hfi q ft fd k acc

end Others

end Cert.Proof.KI.Sc

end
-- ==== Proof.ScVal1.lean ====
/-
  The rows scratch of the gather kernel, as pure data.

  The scratch is [512, 1, 64]; row t is the set of its elements whose first coordinate is t. The 512 rows are
  pairwise disjoint and cover the scratch. Copy number t of a batch writes row t with the 64 entries of one
  sub-row of the table: the sub-row (word &&& 7) of row (word >>> 3), for the t-th index word. An element x of
  row t sits at offset (0, 0, x 2) inside the row, which the copy fills from offset (0, 0, x 2) of the source
  sub-row, that is from the table's element (word >>> 3, word &&& 7, x 2); the word being at most 999999, these
  coordinates are in range, so reducing them modulo the table's extents changes nothing.
-/
import proofs.«203152_g22136261444366_cont_8to1_1253_39_alg».proof.Proof.ScTileBase
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import Idealize.ShloMosaic.Lib.ValueIdx

noncomputable section

namespace Cert.Proof.KI.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S16384 EltTy.i32)
local notation "a3" => (Memref.whole Cert.KernelIdeal.main_arg1_scv : Memref Cert.KernelIdeal.sig Kind.scVector Space.hbm Cert.KernelIdeal.S16384 EltTy.i32)
local notation "a4" => (Memref.whole Cert.KernelIdeal.main_arg2_scv : Memref Cert.KernelIdeal.sig Kind.scVector Space.hbm Cert.KernelIdeal.S16384 EltTy.i32)
local notation "a5" => (Memref.whole Cert.KernelIdeal.main_v0_scv : Memref Cert.KernelIdeal.sig Kind.scVector Space.hbm Cert.KernelIdeal.S125000x8x64 EltTy.f32)
local notation "a6" => (Memref.whole Cert.KernelIdeal.main_v1_scv : Memref Cert.KernelIdeal.sig Kind.scVector Space.hbm Cert.KernelIdeal.S125000x8x64 EltTy.f32)
local notation "a7" => (Memref.whole Cert.KernelIdeal.main_v2_scv : Memref Cert.KernelIdeal.sig Kind.scVector Space.hbm Cert.KernelIdeal.S125000x8x64 EltTy.f32)
local notation "a8" => (Memref.whole Cert.KernelIdeal.main_v3_0_scv : Memref Cert.KernelIdeal.sig Kind.scVector Space.hbm Cert.KernelIdeal.S16384x1x64 EltTy.f32)
local notation "a9" => (Memref.whole Cert.KernelIdeal.main_v3_1_scv : Memref Cert.KernelIdeal.sig Kind.scVector Space.hbm Cert.KernelIdeal.S16384x1x64 EltTy.f32)
local notation "a10" => (Memref.whole Cert.KernelIdeal.main_v3_2_scv : Memref Cert.KernelIdeal.sig Kind.scVector Space.hbm Cert.KernelIdeal.S16384x1x64 EltTy.f32)
local notation "s11" => (Memref.whole Cert.KernelIdeal.cc0_scratch0 : Memref Cert.KernelIdeal.sig Kind.scVector Space.vmem Cert.KernelIdeal.S512 EltTy.i32)
local notation "s12" => (Memref.whole Cert.KernelIdeal.cc0_scratch1 : Memref Cert.KernelIdeal.sig Kind.scVector Space.vmem Cert.KernelIdeal.S512x1x64 EltTy.f32)

variable [FloatOps F]

/-- Row `t` of the rows scratch as a set of the scratch's indices. -/
abbrev rowSet (t : Fin 512) : Finset S512x1x64.Idx := (rowM t).view.set

/-- Row `t` of the rows scratch: the elements whose first coordinate is `t`. -/
theorem mem_rowM_set (t : Fin 512) (x : S512x1x64.Idx) : x ∈ (rowM t).view.set ↔ (x 0).val = t.val := by
  have e : (rowM t).view.set = (Rect.unit (s := S512x1x64) ![t.val, 0, 0] S1x1x64.size (row_inb t)).set :=
    View.set_slice_whole _ _
  refine (Finset.ext_iff.mp e x).trans (Rect.mem_set_unit.trans ?_)
  have h1 : (x 1).val < 1 := (x 1).isLt
  have h2 : (x 2).val < 64 := (x 2).isLt
  constructor
  · intro H; have a0 : t.val ≤ (x 0).val ∧ (x 0).val < t.val + 1 := H 0; omega
  · intro H a; fin_cases a
    · show t.val ≤ (x 0).val ∧ (x 0).val < t.val + 1; omega
    · show 0 ≤ (x 1).val ∧ (x 1).val < 0 + 1; omega
    · show 0 ≤ (x 2).val ∧ (x 2).val < 0 + 64; omega

theorem mem_rowSet (t : Fin 512) (x : S512x1x64.Idx) : x ∈ rowSet t ↔ (x 0).val = t.val := mem_rowM_set t x

/-- Two different rows share no element. -/
theorem rowSet_disjoint : ∀ t ∈ (Finset.univ : Finset (Fin 512)), ∀ t' ∈ (Finset.univ : Finset (Fin 512)), t ≠ t' → Disjoint (rowSet t) (rowSet t') := by
  intro t _ t' _ hne
  refine Finset.disjoint_left.mpr fun x hx hx' => ?_
  have m1 := (mem_rowSet t x).mp hx
  have m2 := (mem_rowSet t' x).mp hx'
  exact hne (Fin.ext (by omega))

/-- Every element of the scratch is in the row its first coordinate names. -/
theorem rowSet_cover : (Finset.univ : Finset (Fin 512)).biUnion rowSet = Finset.univ := by
  ext x
  simp only [Finset.mem_biUnion, Finset.mem_univ, true_and, iff_true]
  exact ⟨⟨(x 0).val, (x 0).isLt⟩, (mem_rowSet _ _).mpr rfl⟩

section Phase

variable (d : Dev nD) (L : grid0.Coords)
variable (tb : Memref sig .scVector .hbm S125000x8x64 .f32)
variable (fi : S512.Idx → BitVec 32) (hfi : ∀ x, (fi x).toNat ≤ 999999)
variable (ft : Buf (Elt F) (tb.view.loc (V d (cV L) (jV L)))) (fd : S512x1x64.Idx → Elt F .f32)

/-- What transfer `t` lands in its row: the table row its index word names (row number `word >>> 3`, sub-row `word &&& 7`),
    read through the table's memref. -/
theorem landed_apply (t : Fin 512) (x : S512x1x64.Idx) (hx : (x 0).val = t.val) :
    landed d L tb fi hfi ft fd t x
      = tb.view.read (Elt F) ft (clampIdx S125000x8x64 pos_S125000x8x64 ![(wordA fi t.val).toNat, (wordB fi t.val).toNat, (x 2).val]) := by
  have h1 : (x 1).val < 1 := (x 1).isLt
  have h2 : (x 2).val < 64 := (x 2).isLt
  -- the element's place inside its row
  have hy : ∃ y : S1x1x64.Idx, (rowM t).view.emb y = x ∧ (y 0).val = 0 ∧ (y 1).val = 0 ∧ (y 2).val = (x 2).val := by
    refine ⟨Idealize.ShloMosaic.ValueIdx.ix3 (0 : Fin 1) (0 : Fin 1) (⟨(x 2).val, h2⟩ : Fin 64), ?_, rfl, rfl, rfl⟩
    funext a
    refine Fin.ext ?_
    match a with
    | ⟨0, _⟩ => show t.val + 1 * 0 = (x 0).val; omega
    | ⟨1, _⟩ => show 0 + 1 * 0 = (x 1).val; omega
    | ⟨2, _⟩ => show 0 + 1 * (x 2).val = (x 2).val; omega
  obtain ⟨y, hxy, y0, y1, y2⟩ := hy
  have hA := src_inb fi hfi t.val 0
  have hB := src_inb fi hfi t.val 1
  have hA' : (wordA fi t.val).toNat + 1 ≤ 125000 := hA
  have hB' : (wordB fi t.val).toNat + 1 ≤ 8 := hB
  -- the copy writes the source sub-row's element at the same place
  have hw : landed d L tb fi hfi ft fd t ((rowM t).view.emb y) = (srcM tb fi hfi t.val).view.read (Elt F) ft y :=
    View.write_emb_of_mem (v := (rowM t).view) fd _ (Finset.mem_univ y)
  have hw' : landed d L tb fi hfi ft fd t x = (srcM tb fi hfi t.val).view.read (Elt F) ft y := hxy ▸ hw
  refine hw'.trans ?_
  -- a slice's read is the memref's read at the slice's place
  show tb.view.read (Elt F) ft
      ((Rect.unit (s := S125000x8x64) ![(wordA fi t.val).toNat, (wordB fi t.val).toNat, 0] S1x1x64.size (src_inb fi hfi t.val)).emb y) = _
  refine congrArg (tb.view.read (Elt F) ft) (funext fun a => Fin.ext ?_)
  match a with
  | ⟨0, _⟩ =>
    show (wordA fi t.val).toNat + 1 * (y 0).val = (wordA fi t.val).toNat % 125000
    rw [y0, Nat.mod_eq_of_lt (by omega)]
    omega
  | ⟨1, _⟩ =>
    show (wordB fi t.val).toNat + 1 * (y 1).val = (wordB fi t.val).toNat % 8
    rw [y1, Nat.mod_eq_of_lt (by omega)]
    omega
  | ⟨2, _⟩ =>
    show 0 + 1 * (y 2).val = (x 2).val % 64
    rw [y2, Nat.mod_eq_of_lt h2]
    omega

end Phase

end Cert.Proof.KI.Sc

end
-- ==== Proof.ScVal2.lean ====
/-
  One worker's result rows are the gathered rows.

  Worker w (vector subcore i of SparseCore c, w = 2 i + c) handles rows 512 w ... 512 w + 511. Its index scratch
  holds the 512 index words at those positions; copy number t of the batch lands in row t of the rows scratch the
  table's sub-row the t-th of these words names; the copy-out writes the rows scratch into the result's rows
  512 w + t. So the result's element (512 w + t, 0, e) is the table's element (word >>> 3, word &&& 7, e) for the
  word at position 512 w + t of the index array: the gathered array's element there. The shift and the mask of the
  vector unit are the plain shift and mask of a 32-bit word.
-/
import proofs.«203152_g22136261444366_cont_8to1_1253_39_alg».proof.Proof.ScVal1
import proofs.«203152_g22136261444366_cont_8to1_1253_39_alg».proof.Proof.ScViews
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KI.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S16384 EltTy.i32)
local notation "a3" => (Memref.whole Cert.KernelIdeal.main_arg1_scv : Memref Cert.KernelIdeal.sig Kind.scVector Space.hbm Cert.KernelIdeal.S16384 EltTy.i32)
local notation "a4" => (Memref.whole Cert.KernelIdeal.main_arg2_scv : Memref Cert.KernelIdeal.sig Kind.scVector Space.hbm Cert.KernelIdeal.S16384 EltTy.i32)
local notation "a5" => (Memref.whole Cert.KernelIdeal.main_v0_scv : Memref Cert.KernelIdeal.sig Kind.scVector Space.hbm Cert.KernelIdeal.S125000x8x64 EltTy.f32)
local notation "a6" => (Memref.whole Cert.KernelIdeal.main_v1_scv : Memref Cert.KernelIdeal.sig Kind.scVector Space.hbm Cert.KernelIdeal.S125000x8x64 EltTy.f32)
local notation "a7" => (Memref.whole Cert.KernelIdeal.main_v2_scv : Memref Cert.KernelIdeal.sig Kind.scVector Space.hbm Cert.KernelIdeal.S125000x8x64 EltTy.f32)
local notation "a8" => (Memref.whole Cert.KernelIdeal.main_v3_0_scv : Memref Cert.KernelIdeal.sig Kind.scVector Space.hbm Cert.KernelIdeal.S16384x1x64 EltTy.f32)
local notation "a9" => (Memref.whole Cert.KernelIdeal.main_v3_1_scv : Memref Cert.KernelIdeal.sig Kind.scVector Space.hbm Cert.KernelIdeal.S16384x1x64 EltTy.f32)
local notation "a10" => (Memref.whole Cert.KernelIdeal.main_v3_2_scv : Memref Cert.KernelIdeal.sig Kind.scVector Space.hbm Cert.KernelIdeal.S16384x1x64 EltTy.f32)
local notation "s11" => (Memref.whole Cert.KernelIdeal.cc0_scratch0 : Memref Cert.KernelIdeal.sig Kind.scVector Space.vmem Cert.KernelIdeal.S512 EltTy.i32)
local notation "s12" => (Memref.whole Cert.KernelIdeal.cc0_scratch1 : Memref Cert.KernelIdeal.sig Kind.scVector Space.vmem Cert.KernelIdeal.S512x1x64 EltTy.f32)

variable [FloatOps F]

section Value

variable (d : Dev nD) (L : grid0.Coords)

/-- The words a worker's index scratch holds after the copy-in: its 512 words of the index array. -/
def wordsOf (ia : Memref sig .scVector .hbm S16384 .i32) (ids : Buf (Elt F) (ia.view.loc (V d (cV L) (jV L)))) : S512.Idx → BitVec 32 :=
  ReadAs.same.apply ((iSl ia L).view.read (Elt F) ids)

end Value

/-- The words are in range when the index array's are (index array 0). -/
theorem wordsOf_le_0 (d : Dev nD) (L : grid0.Coords) (ids : S16384.Idx → BitVec 32) (h : ∀ j, (ids j).toNat ≤ 999999) :
    ∀ x, (wordsOf (F := F) d L (Memref.whole main_arg0_scv) ids x).toNat ≤ 999999 :=
  fun x => h ((iSl (Memref.whole main_arg0_scv) L).view.emb x)

/-- THE VALUE of phase 0: if the rows scratch `g` agrees on each row `t` with what transfer `t` landed (over the index
    scratch's words), then what the copy-out writes into the worker's 512 result rows is the gathered rows there. -/
theorem out_value_0 (d : Dev nD) (L : grid0.Coords)
    (ids : S16384.Idx → BitVec 32) (tbl : S125000x8x64.Idx → Elt F .f32) (fo : S16384x1x64.Idx → Elt F .f32)
    (fd g : S512x1x64.Idx → Elt F .f32)
    (hfi : ∀ x, (wordsOf (F := F) d L (Memref.whole main_arg0_scv) ids x).toNat ≤ 999999)
    (hg : ∀ (t : Fin 512) (x : S512x1x64.Idx), (x 0).val = t.val →
      g x = landed d L (Memref.whole main_v0_scv) (wordsOf (F := F) d L (Memref.whole main_arg0_scv) ids) hfi tbl fd t x) :
    ∀ x ∈ outSet (wL L),
      (oSl (Memref.whole main_v3_0_scv) L).view.write (Elt F) fo (ReadAs.same.apply ((s12).view.read (Elt F) g)) Finset.univ x
        = Gathered3 tbl ids x := by
  intro x hx
  -- where the element sits among the worker's rows
  have hx' : x ∈ (Rect.unit (s := S16384x1x64) (k0_off36 L) S512x1x64.size (k0_off36_inb L)).set := by
    rw [rect_out_set]; exact hx
  have hb := Rect.mem_set_unit.mp hx'
  have e36 : k0_off36 L = ![1024 * (L 1).val + 512 * (L 0).val, 0, 0] := k0_off36_eq L
  have e1 : k0_off1 L = ![1024 * (L 1).val + 512 * (L 0).val] := k0_off1_eq L
  have c0 : 1024 * (L 1).val + 512 * (L 0).val ≤ (x 0).val ∧ (x 0).val < 1024 * (L 1).val + 512 * (L 0).val + 512 := by
    have := hb 0
    rw [e36] at this
    exact this
  have x0lt : (x 0).val < 16384 := (x 0).isLt
  have x1lt : (x 1).val < 1 := (x 1).isLt
  have x2lt : (x 2).val < 64 := (x 2).isLt
  have ht : (x 0).val - (1024 * (L 1).val + 512 * (L 0).val) < 512 := by omega
  obtain ⟨y, hxy, y0, y2⟩ : ∃ y : S512x1x64.Idx, (oSl (Memref.whole main_v3_0_scv) L).view.emb y = x
      ∧ (y 0).val = (x 0).val - (1024 * (L 1).val + 512 * (L 0).val) ∧ (y 2).val = (x 2).val := by
    refine ⟨Idealize.ShloMosaic.ValueIdx.ix3 (⟨(x 0).val - (1024 * (L 1).val + 512 * (L 0).val), ht⟩ : Fin 512) (0 : Fin 1)
      (⟨(x 2).val, x2lt⟩ : Fin 64), ?_, rfl, rfl⟩
    funext a
    refine Fin.ext ?_
    match a with
    | ⟨0, _⟩ =>
      show (k0_off36 L) 0 + 1 * ((x 0).val - (1024 * (L 1).val + 512 * (L 0).val)) = (x 0).val
      rw [e36]
      show 1024 * (L 1).val + 512 * (L 0).val + 1 * ((x 0).val - (1024 * (L 1).val + 512 * (L 0).val)) = (x 0).val
      omega
    | ⟨1, _⟩ =>
      show (k0_off36 L) 1 + 1 * 0 = (x 1).val
      rw [e36]
      show 0 + 1 * 0 = (x 1).val
      omega
    | ⟨2, _⟩ =>
      show (k0_off36 L) 2 + 1 * (x 2).val = (x 2).val
      rw [e36]
      show 0 + 1 * (x 2).val = (x 2).val
      omega
  -- the copy-out writes the scratch's element there
  have hw : (oSl (Memref.whole main_v3_0_scv) L).view.write (Elt F) fo (ReadAs.same.apply ((s12).view.read (Elt F) g)) Finset.univ
      ((oSl (Memref.whole main_v3_0_scv) L).view.emb y) = g y :=
    View.write_emb_of_mem (v := (oSl (Memref.whole main_v3_0_scv) L).view) fo _ (Finset.mem_univ y)
  have hw' : (oSl (Memref.whole main_v3_0_scv) L).view.write (Elt F) fo (ReadAs.same.apply ((s12).view.read (Elt F) g)) Finset.univ x = g y :=
    hxy ▸ hw
  refine hw'.trans ?_
  -- which the row copy landed from the table
  have hl := landed_apply d L (Memref.whole main_v0_scv) (wordsOf (F := F) d L (Memref.whole main_arg0_scv) ids) hfi tbl fd
    (⟨(y 0).val, by rw [y0]; exact ht⟩ : Fin 512) y rfl
  rw [hg (⟨(y 0).val, by rw [y0]; exact ht⟩ : Fin 512) y rfl, hl]
  -- the index word the row copy used is the array's word at the element's row
  have hword : wordsOf (F := F) d L (Memref.whole main_arg0_scv) ids (ix512 (y 0).val)
      = ids (clampIdx S16384 pos_S16384 ![(x 0).val]) := by
    show ids ((iSl (Memref.whole main_arg0_scv) L).view.emb (ix512 (y 0).val)) = _
    refine congrArg ids (funext fun a => Fin.ext ?_)
    match a with
    | ⟨0, _⟩ =>
      show (k0_off1 L) 0 + 1 * ((y 0).val % 512) = (x 0).val % 16384
      rw [e1, y0]
      show 1024 * (L 1).val + 512 * (L 0).val + 1 * (((x 0).val - (1024 * (L 1).val + 512 * (L 0).val)) % 512) = (x 0).val % 16384
      rw [Nat.mod_eq_of_lt ht, Nat.mod_eq_of_lt x0lt]
      omega
  show tbl (clampIdx S125000x8x64 pos_S125000x8x64
      ![(wordA (wordsOf (F := F) d L (Memref.whole main_arg0_scv) ids) (y 0).val).toNat,
        (wordB (wordsOf (F := F) d L (Memref.whole main_arg0_scv) ids) (y 0).val).toNat, (y 2).val]) = _
  unfold Gathered3 wordA wordB
  rw [shrui3, andi7, hword, y2]

/-- The words are in range when the index array's are (index array 1). -/
theorem wordsOf_le_1 (d : Dev nD) (L : grid0.Coords) (ids : S16384.Idx → BitVec 32) (h : ∀ j, (ids j).toNat ≤ 999999) :
    ∀ x, (wordsOf (F := F) d L (Memref.whole main_arg1_scv) ids x).toNat ≤ 999999 :=
  fun x => h ((iSl (Memref.whole main_arg1_scv) L).view.emb x)

/-- THE VALUE of phase 1: if the rows scratch `g` agrees on each row `t` with what transfer `t` landed (over the index
    scratch's words), then what the copy-out writes into the worker's 512 result rows is the gathered rows there. -/
theorem out_value_1 (d : Dev nD) (L : grid0.Coords)
    (ids : S16384.Idx → BitVec 32) (tbl : S125000x8x64.Idx → Elt F .f32) (fo : S16384x1x64.Idx → Elt F .f32)
    (fd g : S512x1x64.Idx → Elt F .f32)
    (hfi : ∀ x, (wordsOf (F := F) d L (Memref.whole main_arg1_scv) ids x).toNat ≤ 999999)
    (hg : ∀ (t : Fin 512) (x : S512x1x64.Idx), (x 0).val = t.val →
      g x = landed d L (Memref.whole main_v1_scv) (wordsOf (F := F) d L (Memref.whole main_arg1_scv) ids) hfi tbl fd t x) :
    ∀ x ∈ outSet (wL L),
      (oSl (Memref.whole main_v3_1_scv) L).view.write (Elt F) fo (ReadAs.same.apply ((s12).view.read (Elt F) g)) Finset.univ x
        = Gathered3 tbl ids x := by
  intro x hx
  -- where the element sits among the worker's rows
  have hx' : x ∈ (Rect.unit (s := S16384x1x64) (k0_off36 L) S512x1x64.size (k0_off36_inb L)).set := by
    rw [rect_out_set]; exact hx
  have hb := Rect.mem_set_unit.mp hx'
  have e36 : k0_off36 L = ![1024 * (L 1).val + 512 * (L 0).val, 0, 0] := k0_off36_eq L
  have e1 : k0_off1 L = ![1024 * (L 1).val + 512 * (L 0).val] := k0_off1_eq L
  have c0 : 1024 * (L 1).val + 512 * (L 0).val ≤ (x 0).val ∧ (x 0).val < 1024 * (L 1).val + 512 * (L 0).val + 512 := by
    have := hb 0
    rw [e36] at this
    exact this
  have x0lt : (x 0).val < 16384 := (x 0).isLt
  have x1lt : (x 1).val < 1 := (x 1).isLt
  have x2lt : (x 2).val < 64 := (x 2).isLt
  have ht : (x 0).val - (1024 * (L 1).val + 512 * (L 0).val) < 512 := by omega
  obtain ⟨y, hxy, y0, y2⟩ : ∃ y : S512x1x64.Idx, (oSl (Memref.whole main_v3_1_scv) L).view.emb y = x
      ∧ (y 0).val = (x 0).val - (1024 * (L 1).val + 512 * (L 0).val) ∧ (y 2).val = (x 2).val := by
    refine ⟨Idealize.ShloMosaic.ValueIdx.ix3 (⟨(x 0).val - (1024 * (L 1).val + 512 * (L 0).val), ht⟩ : Fin 512) (0 : Fin 1)
      (⟨(x 2).val, x2lt⟩ : Fin 64), ?_, rfl, rfl⟩
    funext a
    refine Fin.ext ?_
    match a with
    | ⟨0, _⟩ =>
      show (k0_off36 L) 0 + 1 * ((x 0).val - (1024 * (L 1).val + 512 * (L 0).val)) = (x 0).val
      rw [e36]
      show 1024 * (L 1).val + 512 * (L 0).val + 1 * ((x 0).val - (1024 * (L 1).val + 512 * (L 0).val)) = (x 0).val
      omega
    | ⟨1, _⟩ =>
      show (k0_off36 L) 1 + 1 * 0 = (x 1).val
      rw [e36]
      show 0 + 1 * 0 = (x 1).val
      omega
    | ⟨2, _⟩ =>
      show (k0_off36 L) 2 + 1 * (x 2).val = (x 2).val
      rw [e36]
      show 0 + 1 * (x 2).val = (x 2).val
      omega
  -- the copy-out writes the scratch's element there
  have hw : (oSl (Memref.whole main_v3_1_scv) L).view.write (Elt F) fo (ReadAs.same.apply ((s12).view.read (Elt F) g)) Finset.univ
      ((oSl (Memref.whole main_v3_1_scv) L).view.emb y) = g y :=
    View.write_emb_of_mem (v := (oSl (Memref.whole main_v3_1_scv) L).view) fo _ (Finset.mem_univ y)
  have hw' : (oSl (Memref.whole main_v3_1_scv) L).view.write (Elt F) fo (ReadAs.same.apply ((s12).view.read (Elt F) g)) Finset.univ x = g y :=
    hxy ▸ hw
  refine hw'.trans ?_
  -- which the row copy landed from the table
  have hl := landed_apply d L (Memref.whole main_v1_scv) (wordsOf (F := F) d L (Memref.whole main_arg1_scv) ids) hfi tbl fd
    (⟨(y 0).val, by rw [y0]; exact ht⟩ : Fin 512) y rfl
  rw [hg (⟨(y 0).val, by rw [y0]; exact ht⟩ : Fin 512) y rfl, hl]
  -- the index word the row copy used is the array's word at the element's row
  have hword : wordsOf (F := F) d L (Memref.whole main_arg1_scv) ids (ix512 (y 0).val)
      = ids (clampIdx S16384 pos_S16384 ![(x 0).val]) := by
    show ids ((iSl (Memref.whole main_arg1_scv) L).view.emb (ix512 (y 0).val)) = _
    refine congrArg ids (funext fun a => Fin.ext ?_)
    match a with
    | ⟨0, _⟩ =>
      show (k0_off1 L) 0 + 1 * ((y 0).val % 512) = (x 0).val % 16384
      rw [e1, y0]
      show 1024 * (L 1).val + 512 * (L 0).val + 1 * (((x 0).val - (1024 * (L 1).val + 512 * (L 0).val)) % 512) = (x 0).val % 16384
      rw [Nat.mod_eq_of_lt ht, Nat.mod_eq_of_lt x0lt]
      omega
  show tbl (clampIdx S125000x8x64 pos_S125000x8x64
      ![(wordA (wordsOf (F := F) d L (Memref.whole main_arg1_scv) ids) (y 0).val).toNat,
        (wordB (wordsOf (F := F) d L (Memref.whole main_arg1_scv) ids) (y 0).val).toNat, (y 2).val]) = _
  unfold Gathered3 wordA wordB
  rw [shrui3, andi7, hword, y2]

/-- The words are in range when the index array's are (index array 2). -/
theorem wordsOf_le_2 (d : Dev nD) (L : grid0.Coords) (ids : S16384.Idx → BitVec 32) (h : ∀ j, (ids j).toNat ≤ 999999) :
    ∀ x, (wordsOf (F := F) d L (Memref.whole main_arg2_scv) ids x).toNat ≤ 999999 :=
  fun x => h ((iSl (Memref.whole main_arg2_scv) L).view.emb x)

/-- THE VALUE of phase 2: if the rows scratch `g` agrees on each row `t` with what transfer `t` landed (over the index
    scratch's words), then what the copy-out writes into the worker's 512 result rows is the gathered rows there. -/
theorem out_value_2 (d : Dev nD) (L : grid0.Coords)
    (ids : S16384.Idx → BitVec 32) (tbl : S125000x8x64.Idx → Elt F .f32) (fo : S16384x1x64.Idx → Elt F .f32)
    (fd g : S512x1x64.Idx → Elt F .f32)
    (hfi : ∀ x, (wordsOf (F := F) d L (Memref.whole main_arg2_scv) ids x).toNat ≤ 999999)
    (hg : ∀ (t : Fin 512) (x : S512x1x64.Idx), (x 0).val = t.val →
      g x = landed d L (Memref.whole main_v2_scv) (wordsOf (F := F) d L (Memref.whole main_arg2_scv) ids) hfi tbl fd t x) :
    ∀ x ∈ outSet (wL L),
      (oSl (Memref.whole main_v3_2_scv) L).view.write (Elt F) fo (ReadAs.same.apply ((s12).view.read (Elt F) g)) Finset.univ x
        = Gathered3 tbl ids x := by
  intro x hx
  -- where the element sits among the worker's rows
  have hx' : x ∈ (Rect.unit (s := S16384x1x64) (k0_off36 L) S512x1x64.size (k0_off36_inb L)).set := by
    rw [rect_out_set]; exact hx
  have hb := Rect.mem_set_unit.mp hx'
  have e36 : k0_off36 L = ![1024 * (L 1).val + 512 * (L 0).val, 0, 0] := k0_off36_eq L
  have e1 : k0_off1 L = ![1024 * (L 1).val + 512 * (L 0).val] := k0_off1_eq L
  have c0 : 1024 * (L 1).val + 512 * (L 0).val ≤ (x 0).val ∧ (x 0).val < 1024 * (L 1).val + 512 * (L 0).val + 512 := by
    have := hb 0
    rw [e36] at this
    exact this
  have x0lt : (x 0).val < 16384 := (x 0).isLt
  have x1lt : (x 1).val < 1 := (x 1).isLt
  have x2lt : (x 2).val < 64 := (x 2).isLt
  have ht : (x 0).val - (1024 * (L 1).val + 512 * (L 0).val) < 512 := by omega
  obtain ⟨y, hxy, y0, y2⟩ : ∃ y : S512x1x64.Idx, (oSl (Memref.whole main_v3_2_scv) L).view.emb y = x
      ∧ (y 0).val = (x 0).val - (1024 * (L 1).val + 512 * (L 0).val) ∧ (y 2).val = (x 2).val := by
    refine ⟨Idealize.ShloMosaic.ValueIdx.ix3 (⟨(x 0).val - (1024 * (L 1).val + 512 * (L 0).val), ht⟩ : Fin 512) (0 : Fin 1)
      (⟨(x 2).val, x2lt⟩ : Fin 64), ?_, rfl, rfl⟩
    funext a
    refine Fin.ext ?_
    match a with
    | ⟨0, _⟩ =>
      show (k0_off36 L) 0 + 1 * ((x 0).val - (1024 * (L 1).val + 512 * (L 0).val)) = (x 0).val
      rw [e36]
      show 1024 * (L 1).val + 512 * (L 0).val + 1 * ((x 0).val - (1024 * (L 1).val + 512 * (L 0).val)) = (x 0).val
      omega
    | ⟨1, _⟩ =>
      show (k0_off36 L) 1 + 1 * 0 = (x 1).val
      rw [e36]
      show 0 + 1 * 0 = (x 1).val
      omega
    | ⟨2, _⟩ =>
      show (k0_off36 L) 2 + 1 * (x 2).val = (x 2).val
      rw [e36]
      show 0 + 1 * (x 2).val = (x 2).val
      omega
  -- the copy-out writes the scratch's element there
  have hw : (oSl (Memref.whole main_v3_2_scv) L).view.write (Elt F) fo (ReadAs.same.apply ((s12).view.read (Elt F) g)) Finset.univ
      ((oSl (Memref.whole main_v3_2_scv) L).view.emb y) = g y :=
    View.write_emb_of_mem (v := (oSl (Memref.whole main_v3_2_scv) L).view) fo _ (Finset.mem_univ y)
  have hw' : (oSl (Memref.whole main_v3_2_scv) L).view.write (Elt F) fo (ReadAs.same.apply ((s12).view.read (Elt F) g)) Finset.univ x = g y :=
    hxy ▸ hw
  refine hw'.trans ?_
  -- which the row copy landed from the table
  have hl := landed_apply d L (Memref.whole main_v2_scv) (wordsOf (F := F) d L (Memref.whole main_arg2_scv) ids) hfi tbl fd
    (⟨(y 0).val, by rw [y0]; exact ht⟩ : Fin 512) y rfl
  rw [hg (⟨(y 0).val, by rw [y0]; exact ht⟩ : Fin 512) y rfl, hl]
  -- the index word the row copy used is the array's word at the element's row
  have hword : wordsOf (F := F) d L (Memref.whole main_arg2_scv) ids (ix512 (y 0).val)
      = ids (clampIdx S16384 pos_S16384 ![(x 0).val]) := by
    show ids ((iSl (Memref.whole main_arg2_scv) L).view.emb (ix512 (y 0).val)) = _
    refine congrArg ids (funext fun a => Fin.ext ?_)
    match a with
    | ⟨0, _⟩ =>
      show (k0_off1 L) 0 + 1 * ((y 0).val % 512) = (x 0).val % 16384
      rw [e1, y0]
      show 1024 * (L 1).val + 512 * (L 0).val + 1 * (((x 0).val - (1024 * (L 1).val + 512 * (L 0).val)) % 512) = (x 0).val % 16384
      rw [Nat.mod_eq_of_lt ht, Nat.mod_eq_of_lt x0lt]
      omega
  show tbl (clampIdx S125000x8x64 pos_S125000x8x64
      ![(wordA (wordsOf (F := F) d L (Memref.whole main_arg2_scv) ids) (y 0).val).toNat,
        (wordB (wordsOf (F := F) d L (Memref.whole main_arg2_scv) ids) (y 0).val).toNat, (y 2).val]) = _
  unfold Gathered3 wordA wordB
  rw [shrui3, andi7, hword, y2]

end Cert.Proof.KI.Sc

end
-- ==== Proof.ScVal3.lean ====
/-
  One worker's result rows are the gathered rows, with the copy-out's contents written as a list of writes.

  A single unmasked write through the whole rectangle of a view is the unmasked write through the view: the whole
  rectangle places every index at itself. So the contents a one-piece list of writes leaves are, at every
  element under the view, those of the plain write, and the statement about the plain write carries over.
-/
import proofs.«203152_g22136261444366_cont_8to1_1253_39_alg».proof.Proof.ScVal1
import proofs.«203152_g22136261444366_cont_8to1_1253_39_alg».proof.Proof.ScViews
import proofs.«203152_g22136261444366_cont_8to1_1253_39_alg».proof.Proof.ScVal2
import Idealize.ShloMosaic.Lib.Writes
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KI.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S16384 EltTy.i32)
local notation "a3" => (Memref.whole Cert.KernelIdeal.main_arg1_scv : Memref Cert.KernelIdeal.sig Kind.scVector Space.hbm Cert.KernelIdeal.S16384 EltTy.i32)
local notation "a4" => (Memref.whole Cert.KernelIdeal.main_arg2_scv : Memref Cert.KernelIdeal.sig Kind.scVector Space.hbm Cert.KernelIdeal.S16384 EltTy.i32)
local notation "a5" => (Memref.whole Cert.KernelIdeal.main_v0_scv : Memref Cert.KernelIdeal.sig Kind.scVector Space.hbm Cert.KernelIdeal.S125000x8x64 EltTy.f32)
local notation "a6" => (Memref.whole Cert.KernelIdeal.main_v1_scv : Memref Cert.KernelIdeal.sig Kind.scVector Space.hbm Cert.KernelIdeal.S125000x8x64 EltTy.f32)
local notation "a7" => (Memref.whole Cert.KernelIdeal.main_v2_scv : Memref Cert.KernelIdeal.sig Kind.scVector Space.hbm Cert.KernelIdeal.S125000x8x64 EltTy.f32)
local notation "a8" => (Memref.whole Cert.KernelIdeal.main_v3_0_scv : Memref Cert.KernelIdeal.sig Kind.scVector Space.hbm Cert.KernelIdeal.S16384x1x64 EltTy.f32)
local notation "a9" => (Memref.whole Cert.KernelIdeal.main_v3_1_scv : Memref Cert.KernelIdeal.sig Kind.scVector Space.hbm Cert.KernelIdeal.S16384x1x64 EltTy.f32)
local notation "a10" => (Memref.whole Cert.KernelIdeal.main_v3_2_scv : Memref Cert.KernelIdeal.sig Kind.scVector Space.hbm Cert.KernelIdeal.S16384x1x64 EltTy.f32)
local notation "s11" => (Memref.whole Cert.KernelIdeal.cc0_scratch0 : Memref Cert.KernelIdeal.sig Kind.scVector Space.vmem Cert.KernelIdeal.S512 EltTy.i32)
local notation "s12" => (Memref.whole Cert.KernelIdeal.cc0_scratch1 : Memref Cert.KernelIdeal.sig Kind.scVector Space.vmem Cert.KernelIdeal.S512x1x64 EltTy.f32)

variable [FloatOps F]

/-- One write through the whole rectangle, read at an element under the view, is the plain write there. -/
theorem writes_whole_emb {sig' : RefSig} {κ : Kind} {sp : Space} {s : Shape} {e : EltTy} {Val : EltTy → Type}
    (v : View sig' κ sp s e) (f : v.ty.Contents Val) (w : s.Idx → Val e) (y : s.Idx) :
    v.writes Val f [⟨Rect.whole s, w⟩] (v.emb y) = v.write Val f w Finset.univ (v.emb y) := by
  have e1 : (v.slice (Rect.whole s)).emb y = v.emb y := by
    show v.emb ((Rect.whole s).emb y) = v.emb y
    rw [Rect.emb_whole_apply]
  have h1 : v.writes Val f [⟨Rect.whole s, w⟩] ((v.slice (Rect.whole s)).emb y) = v.write Val f w Finset.univ (v.emb y) := by
    rw [View.writes_singleton, View.write_emb_of_mem _ _ (Finset.mem_univ y), View.write_emb_of_mem _ _ (Finset.mem_univ y)]
  rw [← e1]
  exact h1.trans (by rw [e1])

/-- An element of the worker's result rows sits under the worker's slice of result 0. -/
theorem exists_emb_out_0 (L : grid0.Coords) (x : S16384x1x64.Idx) (hx : x ∈ outSet (wL L)) :
    ∃ y : S512x1x64.Idx, (oSl (Memref.whole main_v3_0_scv) L).view.emb y = x := by
  have hx' : x ∈ (Rect.unit (s := S16384x1x64) (k0_off36 L) S512x1x64.size (k0_off36_inb L)).set := by
    rw [rect_out_set]; exact hx
  have hb := Rect.mem_set_unit.mp hx'
  have e36 : k0_off36 L = ![1024 * (L 1).val + 512 * (L 0).val, 0, 0] := k0_off36_eq L
  have c0 : 1024 * (L 1).val + 512 * (L 0).val ≤ (x 0).val ∧ (x 0).val < 1024 * (L 1).val + 512 * (L 0).val + 512 := by
    have := hb 0
    rw [e36] at this
    exact this
  have x1lt : (x 1).val < 1 := (x 1).isLt
  have x2lt : (x 2).val < 64 := (x 2).isLt
  have ht : (x 0).val - (1024 * (L 1).val + 512 * (L 0).val) < 512 := by omega
  refine ⟨Idealize.ShloMosaic.ValueIdx.ix3 (⟨(x 0).val - (1024 * (L 1).val + 512 * (L 0).val), ht⟩ : Fin 512) (0 : Fin 1)
    (⟨(x 2).val, x2lt⟩ : Fin 64), ?_⟩
  funext a
  refine Fin.ext ?_
  match a with
  | ⟨0, _⟩ =>
    show (k0_off36 L) 0 + 1 * ((x 0).val - (1024 * (L 1).val + 512 * (L 0).val)) = (x 0).val
    rw [e36]
    show 1024 * (L 1).val + 512 * (L 0).val + 1 * ((x 0).val - (1024 * (L 1).val + 512 * (L 0).val)) = (x 0).val
    omega
  | ⟨1, _⟩ =>
    show (k0_off36 L) 1 + 1 * 0 = (x 1).val
    rw [e36]
    show 0 + 1 * 0 = (x 1).val
    omega
  | ⟨2, _⟩ =>
    show (k0_off36 L) 2 + 1 * (x 2).val = (x 2).val
    rw [e36]
    show 0 + 1 * (x 2).val = (x 2).val
    omega

/-- THE VALUE of phase 0, with the copy-out's contents spelt as a one-piece list of writes. -/
theorem out_value_writes_0 (d : Dev nD) (L : grid0.Coords)
    (ids : S16384.Idx → BitVec 32) (tbl : S125000x8x64.Idx → Elt F .f32) (fo : S16384x1x64.Idx → Elt F .f32)
    (fd g : S512x1x64.Idx → Elt F .f32)
    (hfi : ∀ x, (wordsOf (F := F) d L (Memref.whole main_arg0_scv) ids x).toNat ≤ 999999)
    (hg : ∀ (t : Fin 512) (x : S512x1x64.Idx), (x 0).val = t.val →
      g x = landed d L (Memref.whole main_v0_scv) (wordsOf (F := F) d L (Memref.whole main_arg0_scv) ids) hfi tbl fd t x) :
    ∀ x ∈ outSet (wL L),
      (oSl (Memref.whole main_v3_0_scv) L).view.writes (Elt F) fo
          [⟨Rect.whole S512x1x64, ReadAs.same.apply ((s12).view.read (Elt F) g)⟩] x
        = Gathered3 tbl ids x := by
  intro x hx
  obtain ⟨y, hxy⟩ := exists_emb_out_0 L x hx
  have h := writes_whole_emb (Val := Elt F) (oSl (Memref.whole main_v3_0_scv) L).view fo
    (ReadAs.same.apply ((s12).view.read (Elt F) g)) y
  rw [hxy] at h
  exact h.trans (out_value_0 d L ids tbl fo fd g hfi hg x hx)

/-- An element of the worker's result rows sits under the worker's slice of result 1. -/
theorem exists_emb_out_1 (L : grid0.Coords) (x : S16384x1x64.Idx) (hx : x ∈ outSet (wL L)) :
    ∃ y : S512x1x64.Idx, (oSl (Memref.whole main_v3_1_scv) L).view.emb y = x := by
  have hx' : x ∈ (Rect.unit (s := S16384x1x64) (k0_off36 L) S512x1x64.size (k0_off36_inb L)).set := by
    rw [rect_out_set]; exact hx
  have hb := Rect.mem_set_unit.mp hx'
  have e36 : k0_off36 L = ![1024 * (L 1).val + 512 * (L 0).val, 0, 0] := k0_off36_eq L
  have c0 : 1024 * (L 1).val + 512 * (L 0).val ≤ (x 0).val ∧ (x 0).val < 1024 * (L 1).val + 512 * (L 0).val + 512 := by
    have := hb 0
    rw [e36] at this
    exact this
  have x1lt : (x 1).val < 1 := (x 1).isLt
  have x2lt : (x 2).val < 64 := (x 2).isLt
  have ht : (x 0).val - (1024 * (L 1).val + 512 * (L 0).val) < 512 := by omega
  refine ⟨Idealize.ShloMosaic.ValueIdx.ix3 (⟨(x 0).val - (1024 * (L 1).val + 512 * (L 0).val), ht⟩ : Fin 512) (0 : Fin 1)
    (⟨(x 2).val, x2lt⟩ : Fin 64), ?_⟩
  funext a
  refine Fin.ext ?_
  match a with
  | ⟨0, _⟩ =>
    show (k0_off36 L) 0 + 1 * ((x 0).val - (1024 * (L 1).val + 512 * (L 0).val)) = (x 0).val
    rw [e36]
    show 1024 * (L 1).val + 512 * (L 0).val + 1 * ((x 0).val - (1024 * (L 1).val + 512 * (L 0).val)) = (x 0).val
    omega
  | ⟨1, _⟩ =>
    show (k0_off36 L) 1 + 1 * 0 = (x 1).val
    rw [e36]
    show 0 + 1 * 0 = (x 1).val
    omega
  | ⟨2, _⟩ =>
    show (k0_off36 L) 2 + 1 * (x 2).val = (x 2).val
    rw [e36]
    show 0 + 1 * (x 2).val = (x 2).val
    omega

/-- THE VALUE of phase 1, with the copy-out's contents spelt as a one-piece list of writes. -/
theorem out_value_writes_1 (d : Dev nD) (L : grid0.Coords)
    (ids : S16384.Idx → BitVec 32) (tbl : S125000x8x64.Idx → Elt F .f32) (fo : S16384x1x64.Idx → Elt F .f32)
    (fd g : S512x1x64.Idx → Elt F .f32)
    (hfi : ∀ x, (wordsOf (F := F) d L (Memref.whole main_arg1_scv) ids x).toNat ≤ 999999)
    (hg : ∀ (t : Fin 512) (x : S512x1x64.Idx), (x 0).val = t.val →
      g x = landed d L (Memref.whole main_v1_scv) (wordsOf (F := F) d L (Memref.whole main_arg1_scv) ids) hfi tbl fd t x) :
    ∀ x ∈ outSet (wL L),
      (oSl (Memref.whole main_v3_1_scv) L).view.writes (Elt F) fo
          [⟨Rect.whole S512x1x64, ReadAs.same.apply ((s12).view.read (Elt F) g)⟩] x
        = Gathered3 tbl ids x := by
  intro x hx
  obtain ⟨y, hxy⟩ := exists_emb_out_1 L x hx
  have h := writes_whole_emb (Val := Elt F) (oSl (Memref.whole main_v3_1_scv) L).view fo
    (ReadAs.same.apply ((s12).view.read (Elt F) g)) y
  rw [hxy] at h
  exact h.trans (out_value_1 d L ids tbl fo fd g hfi hg x hx)

/-- An element of the worker's result rows sits under the worker's slice of result 2. -/
theorem exists_emb_out_2 (L : grid0.Coords) (x : S16384x1x64.Idx) (hx : x ∈ outSet (wL L)) :
    ∃ y : S512x1x64.Idx, (oSl (Memref.whole main_v3_2_scv) L).view.emb y = x := by
  have hx' : x ∈ (Rect.unit (s := S16384x1x64) (k0_off36 L) S512x1x64.size (k0_off36_inb L)).set := by
    rw [rect_out_set]; exact hx
  have hb := Rect.mem_set_unit.mp hx'
  have e36 : k0_off36 L = ![1024 * (L 1).val + 512 * (L 0).val, 0, 0] := k0_off36_eq L
  have c0 : 1024 * (L 1).val + 512 * (L 0).val ≤ (x 0).val ∧ (x 0).val < 1024 * (L 1).val + 512 * (L 0).val + 512 := by
    have := hb 0
    rw [e36] at this
    exact this
  have x1lt : (x 1).val < 1 := (x 1).isLt
  have x2lt : (x 2).val < 64 := (x 2).isLt
  have ht : (x 0).val - (1024 * (L 1).val + 512 * (L 0).val) < 512 := by omega
  refine ⟨Idealize.ShloMosaic.ValueIdx.ix3 (⟨(x 0).val - (1024 * (L 1).val + 512 * (L 0).val), ht⟩ : Fin 512) (0 : Fin 1)
    (⟨(x 2).val, x2lt⟩ : Fin 64), ?_⟩
  funext a
  refine Fin.ext ?_
  match a with
  | ⟨0, _⟩ =>
    show (k0_off36 L) 0 + 1 * ((x 0).val - (1024 * (L 1).val + 512 * (L 0).val)) = (x 0).val
    rw [e36]
    show 1024 * (L 1).val + 512 * (L 0).val + 1 * ((x 0).val - (1024 * (L 1).val + 512 * (L 0).val)) = (x 0).val
    omega
  | ⟨1, _⟩ =>
    show (k0_off36 L) 1 + 1 * 0 = (x 1).val
    rw [e36]
    show 0 + 1 * 0 = (x 1).val
    omega
  | ⟨2, _⟩ =>
    show (k0_off36 L) 2 + 1 * (x 2).val = (x 2).val
    rw [e36]
    show 0 + 1 * (x 2).val = (x 2).val
    omega

/-- THE VALUE of phase 2, with the copy-out's contents spelt as a one-piece list of writes. -/
theorem out_value_writes_2 (d : Dev nD) (L : grid0.Coords)
    (ids : S16384.Idx → BitVec 32) (tbl : S125000x8x64.Idx → Elt F .f32) (fo : S16384x1x64.Idx → Elt F .f32)
    (fd g : S512x1x64.Idx → Elt F .f32)
    (hfi : ∀ x, (wordsOf (F := F) d L (Memref.whole main_arg2_scv) ids x).toNat ≤ 999999)
    (hg : ∀ (t : Fin 512) (x : S512x1x64.Idx), (x 0).val = t.val →
      g x = landed d L (Memref.whole main_v2_scv) (wordsOf (F := F) d L (Memref.whole main_arg2_scv) ids) hfi tbl fd t x) :
    ∀ x ∈ outSet (wL L),
      (oSl (Memref.whole main_v3_2_scv) L).view.writes (Elt F) fo
          [⟨Rect.whole S512x1x64, ReadAs.same.apply ((s12).view.read (Elt F) g)⟩] x
        = Gathered3 tbl ids x := by
  intro x hx
  obtain ⟨y, hxy⟩ := exists_emb_out_2 L x hx
  have h := writes_whole_emb (Val := Elt F) (oSl (Memref.whole main_v3_2_scv) L).view fo
    (ReadAs.same.apply ((s12).view.read (Elt F) g)) y
  rw [hxy] at h
  exact h.trans (out_value_2 d L ids tbl fo fd g hfi hg x hx)

end Cert.Proof.KI.Sc

end
-- ==== Proof.ScOuterRes.lean ====
/-
  The gather task's rows scratch and table share, split for a phase's 512 row copies and put back: the rows scratch
  is its 512 rows, in 32 groups of 16; a read share of a table is 512 tokens, in 32 groups of 16, and a remainder;
  after the draining wait the landed rows join into the scratch at one function that agrees with each landing on its
  row, and each source row's share with the rest of its token is the token again, the tokens and the remainder the
  share.
-/
import proofs.«203152_g22136261444366_cont_8to1_1253_39_alg».proof.Proof.ScTileBase
import proofs.«203152_g22136261444366_cont_8to1_1253_39_alg».proof.Proof.ScTrip
import proofs.«203152_g22136261444366_cont_8to1_1253_39_alg».proof.Proof.ScVal1
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import Idealize.ShloMosaic.Lib.Ring

noncomputable section

namespace Cert.Proof.KI.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

open Idealize.ShloMosaic.Tactic

local notation "a2" => (Memref.whole Cert.KernelIdeal.main_arg0_scv : Memref Cert.KernelIdeal.sig Kind.scVector Space.hbm Cert.KernelIdeal.S16384 EltTy.i32)
local notation "a3" => (Memref.whole Cert.KernelIdeal.main_arg1_scv : Memref Cert.KernelIdeal.sig Kind.scVector Space.hbm Cert.KernelIdeal.S16384 EltTy.i32)
local notation "a4" => (Memref.whole Cert.KernelIdeal.main_arg2_scv : Memref Cert.KernelIdeal.sig Kind.scVector Space.hbm Cert.KernelIdeal.S16384 EltTy.i32)
local notation "a5" => (Memref.whole Cert.KernelIdeal.main_v0_scv : Memref Cert.KernelIdeal.sig Kind.scVector Space.hbm Cert.KernelIdeal.S125000x8x64 EltTy.f32)
local notation "a6" => (Memref.whole Cert.KernelIdeal.main_v1_scv : Memref Cert.KernelIdeal.sig Kind.scVector Space.hbm Cert.KernelIdeal.S125000x8x64 EltTy.f32)
local notation "a7" => (Memref.whole Cert.KernelIdeal.main_v2_scv : Memref Cert.KernelIdeal.sig Kind.scVector Space.hbm Cert.KernelIdeal.S125000x8x64 EltTy.f32)
local notation "a8" => (Memref.whole Cert.KernelIdeal.main_v3_0_scv : Memref Cert.KernelIdeal.sig Kind.scVector Space.hbm Cert.KernelIdeal.S16384x1x64 EltTy.f32)
local notation "a9" => (Memref.whole Cert.KernelIdeal.main_v3_1_scv : Memref Cert.KernelIdeal.sig Kind.scVector Space.hbm Cert.KernelIdeal.S16384x1x64 EltTy.f32)
local notation "a10" => (Memref.whole Cert.KernelIdeal.main_v3_2_scv : Memref Cert.KernelIdeal.sig Kind.scVector Space.hbm Cert.KernelIdeal.S16384x1x64 EltTy.f32)
local notation "s11" => (Memref.whole Cert.KernelIdeal.cc0_scratch0 : Memref Cert.KernelIdeal.sig Kind.scVector Space.vmem Cert.KernelIdeal.S512 EltTy.i32)
local notation "s12" => (Memref.whole Cert.KernelIdeal.cc0_scratch1 : Memref Cert.KernelIdeal.sig Kind.scVector Space.vmem Cert.KernelIdeal.S512x1x64 EltTy.f32)

variable [FloatOps F]

/-! ## 512 transfers in 32 groups of 16 -/

section Reindex

variable {M : Type} [URA M]

theorem t512_inj : Set.InjOn (fun p : Fin 32 × Fin 16 => t512 p.1 p.2) ((Finset.univ ×ˢ Finset.univ : Finset (Fin 32 × Fin 16)) : Set (Fin 32 × Fin 16)) := by
  rintro ⟨x1, x2⟩ _ ⟨y1, y2⟩ _ e
  have h : 16 * x1.val + x2.val = 16 * y1.val + y2.val := congrArg Fin.val e
  have h1 := x2.isLt; have h2 := y2.isLt
  refine Prod.ext (Fin.ext ?_) (Fin.ext ?_)
  · show x1.val = y1.val; omega
  · show x2.val = y2.val; omega

theorem t512_image : (Finset.univ ×ˢ Finset.univ : Finset (Fin 32 × Fin 16)).image (fun p => t512 p.1 p.2) = Finset.univ := by
  rw [Finset.eq_univ_iff_forall]; intro t
  have ht := t.isLt
  rw [Finset.mem_image]
  exact ⟨(⟨t.val / 16, by omega⟩, ⟨t.val % 16, by omega⟩), Finset.mem_product.mpr ⟨Finset.mem_univ _, Finset.mem_univ _⟩,
    Fin.ext (show 16 * (t.val / 16) + t.val % 16 = t.val by omega)⟩

/-- The 512 transfers are the 32 × 16 pairs (trip, copy of the trip). -/
theorem bigSep_t512 (Φ : Fin 512 → sProp M) :
    bigSep Finset.univ Φ = bigSep Finset.univ fun k : Fin 32 => bigSep Finset.univ fun j : Fin 16 => Φ (t512 k j) := by
  rw [← t512_image, SparseCore.bigSep_image_of_injOn t512_inj Φ]
  exact SparseCore.bigSep_product Finset.univ Finset.univ (fun p : Fin 32 × Fin 16 => Φ (t512 p.1 p.2))

end Reindex

section Res

variable (d : Dev nD) (L : grid0.Coords)
variable (tb : Memref sig .scVector .hbm S125000x8x64 .f32) (hset : tb.view.set = Finset.univ)
variable (fi : S512.Idx → BitVec 32) (hfi : ∀ x, (fi x).toNat ≤ 999999)
variable (q : PosShare TreeShare) (ft : Buf (Elt F) (tb.view.loc (V d (cV L) (jV L)))) (fd : S512x1x64.Idx → Elt F .f32)

omit [FloatOps F] in
/-- The rows scratch is its 512 rows, in 32 groups of 16. -/
theorem rows_split :
    ((s12).view.loc (V d (cV L) (jV L)) ↦{fullShare} fd : sProp 𝕄) = bigSep (Ring.rangeSet 32 0 32) (rows16 d L fd) := by
  rw [Ring.rangeSet_univ]
  unfold rows16
  rw [← bigSep_t512 (fun t => rowPt d L t fd)]
  have e : (fun t : Fin 512 => rowPt d L t fd)
      = fun t => ((s12).view.loc (V d (cV L) (jV L)) ↦[rowSet t]{fullShare} fd : sProp 𝕄) := rfl
  rw [e, ← pointsTo_biUnion Finset.univ (ℓ := (s12).view.loc (V d (cV L) (jV L))) rowSet rowSet_disjoint, rowSet_cover]

omit [FloatOps F] in
include hset in
/-- A read share of a whole table is 512 tokens, in 32 groups of 16, and a remainder. -/
theorem toks_split :
    (tb.view.loc (V d (cV L) (jV L)) ↦{q} ft : sProp 𝕄)
      ⊣⊢ iprop((tb.view.loc (V d (cV L) (jV L)) ↦{Transfers.shareDrop q 512} ft) ∗ bigSep (Ring.rangeSet 32 0 32) (toks16 d L tb q ft)) := by
  rw [Ring.rangeSet_univ]
  unfold toks16
  rw [← bigSep_t512 (fun t => tokPt d L tb q ft t)]
  show _ ⊣⊢ iprop(_ ∗ bigSep Finset.univ fun t : Fin 512 => (tb.view.loc (V d (cV L) (jV L)) ↦[tb.view.set]{Transfers.shareTok q 512 t} ft : sProp 𝕄))
  rw [hset]
  exact Transfers.pointsTo_toks q 512

omit [FloatOps F] in
/-- The landed rows join into the rows scratch at one function, equal to each landing on its row. -/
theorem rows_join (g : Fin 512 → S512x1x64.Idx → Elt F .f32) :
    (bigSep Finset.univ fun t : Fin 512 => rowPt d L t (g t))
      ⊢ (iprop(∃ h, ⌜∀ t : Fin 512, ∀ i ∈ rowSet t, h i = g t i⌝ ∗ (s12).view.loc (V d (cV L) (jV L)) ↦{fullShare} h) : sProp 𝕄) := by
  have e : (fun t : Fin 512 => rowPt d L t (g t))
      = fun t => ((s12).view.loc (V d (cV L) (jV L)) ↦[rowSet t]{fullShare} g t : sProp 𝕄) := rfl
  rw [e]
  refine (pointsTo_biUnion_join Finset.univ (ℓ := (s12).view.loc (V d (cV L) (jV L))) rowSet g (g ⟨0, by decide⟩) rowSet_disjoint).trans ?_
  rw [rowSet_cover]
  iintro ⟨%h, %hh, H⟩
  iexists h
  isplitr
  · ipureintro; exact fun t i hi => hh t (Finset.mem_univ t) i hi
  · iexact H

omit [FloatOps F] in
include hset in
/-- The source rows' shares, the tokens' rests and the remainder are the table share again. -/
theorem toks_join :
    iprop((tb.view.loc (V d (cV L) (jV L)) ↦{Transfers.shareDrop q 512} ft) ∗ (bigSep Finset.univ fun t : Fin 512 => srcPt d L tb fi hfi q ft t)
        ∗ bigSep (Ring.rangeSet 32 0 32) (rests16 d L tb fi hfi q ft))
      ⊢ (tb.view.loc (V d (cV L) (jV L)) ↦{q} ft : sProp 𝕄) := by
  rw [Ring.rangeSet_univ]
  unfold rests16
  rw [← bigSep_t512 (fun t => restPt d L tb fi hfi q ft t)]
  have h1 : iprop((bigSep Finset.univ fun t : Fin 512 => srcPt d L tb fi hfi q ft t) ∗ bigSep Finset.univ fun t : Fin 512 => restPt d L tb fi hfi q ft t)
      ⊢ (bigSep Finset.univ fun t : Fin 512 => tokPt d L tb q ft t : sProp 𝕄) := by
    rw [← bigSep_sep']
    exact bigSep_mono fun t _ => (pointsTo_split_subset (show (srcM tb fi hfi t.val).view.set ⊆ tb.view.set from View.set_slice_subset _ _)).2
  iintro ⟨Hd, Hs, Hr⟩
  iapply (toks_split d L tb hset q ft).2
  isplitl [Hd]; · iexact Hd
  rw [Ring.rangeSet_univ]
  unfold toks16
  rw [← bigSep_t512 (fun t => tokPt d L tb q ft t)]
  iapply h1
  isplitl [Hs]; · iexact Hs
  iexact Hr

omit [FloatOps F] in
/-- The 512 deliveries are the landed rows and the source rows' shares. -/
theorem deliv_split :
    (bigSep Finset.univ (deliv d L tb fi hfi q ft fd) : sProp 𝕄)
      = iprop((bigSep Finset.univ fun t : Fin 512 => rowPt d L t (landed d L tb fi hfi ft fd t)) ∗ bigSep Finset.univ fun t : Fin 512 => srcPt d L tb fi hfi q ft t) := by
  rw [← bigSep_sep']
  rfl

end Res

end Cert.Proof.KI.Sc

end
-- ==== Proof.ScOuterIO.lean ====
/-
  The tile's share of the call as the body's memrefs hold it, and back: the worker's index words and result rows
  through the slices the body takes, the tables through the whole arrays.
-/
import proofs.«203152_g22136261444366_cont_8to1_1253_39_alg».proof.Proof.ScSplit
import proofs.«203152_g22136261444366_cont_8to1_1253_39_alg».proof.Proof.ScViews
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KI.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S16384 EltTy.i32)
local notation "a3" => (Memref.whole Cert.KernelIdeal.main_arg1_scv : Memref Cert.KernelIdeal.sig Kind.scVector Space.hbm Cert.KernelIdeal.S16384 EltTy.i32)
local notation "a4" => (Memref.whole Cert.KernelIdeal.main_arg2_scv : Memref Cert.KernelIdeal.sig Kind.scVector Space.hbm Cert.KernelIdeal.S16384 EltTy.i32)
local notation "a5" => (Memref.whole Cert.KernelIdeal.main_v0_scv : Memref Cert.KernelIdeal.sig Kind.scVector Space.hbm Cert.KernelIdeal.S125000x8x64 EltTy.f32)
local notation "a6" => (Memref.whole Cert.KernelIdeal.main_v1_scv : Memref Cert.KernelIdeal.sig Kind.scVector Space.hbm Cert.KernelIdeal.S125000x8x64 EltTy.f32)
local notation "a7" => (Memref.whole Cert.KernelIdeal.main_v2_scv : Memref Cert.KernelIdeal.sig Kind.scVector Space.hbm Cert.KernelIdeal.S125000x8x64 EltTy.f32)
local notation "a8" => (Memref.whole Cert.KernelIdeal.main_v3_0_scv : Memref Cert.KernelIdeal.sig Kind.scVector Space.hbm Cert.KernelIdeal.S16384x1x64 EltTy.f32)
local notation "a9" => (Memref.whole Cert.KernelIdeal.main_v3_1_scv : Memref Cert.KernelIdeal.sig Kind.scVector Space.hbm Cert.KernelIdeal.S16384x1x64 EltTy.f32)
local notation "a10" => (Memref.whole Cert.KernelIdeal.main_v3_2_scv : Memref Cert.KernelIdeal.sig Kind.scVector Space.hbm Cert.KernelIdeal.S16384x1x64 EltTy.f32)
local notation "s11" => (Memref.whole Cert.KernelIdeal.cc0_scratch0 : Memref Cert.KernelIdeal.sig Kind.scVector Space.vmem Cert.KernelIdeal.S512 EltTy.i32)
local notation "s12" => (Memref.whole Cert.KernelIdeal.cc0_scratch1 : Memref Cert.KernelIdeal.sig Kind.scVector Space.vmem Cert.KernelIdeal.S512x1x64 EltTy.f32)

variable [FloatOps F]

section IO

variable (W : Dev nD → Valuation τ sig (Elt F)) (d : Dev nD) (L : grid0.Coords)

omit [FloatOps F] in
theorem pts_iSl0 (f : Buf (Elt F) ((d, r main_arg0) : Loc nD τ sig)) :
    ((iSl a2 L).view.loc (V d (cV L) (jV L)) ↦[(iSl a2 L).view.set]{fullShare} f : sProp 𝕄) = (((d, r main_arg0) : Loc nD τ sig) ↦[idxSet (wL L)]{fullShare} f) := by
  rw [set_iSl_main_arg0_scv]; rfl

omit [FloatOps F] in
theorem pts_iSl1 (f : Buf (Elt F) ((d, r main_arg1) : Loc nD τ sig)) :
    ((iSl a3 L).view.loc (V d (cV L) (jV L)) ↦[(iSl a3 L).view.set]{fullShare} f : sProp 𝕄) = (((d, r main_arg1) : Loc nD τ sig) ↦[idxSet (wL L)]{fullShare} f) := by
  rw [set_iSl_main_arg1_scv]; rfl

omit [FloatOps F] in
theorem pts_iSl2 (f : Buf (Elt F) ((d, r main_arg2) : Loc nD τ sig)) :
    ((iSl a4 L).view.loc (V d (cV L) (jV L)) ↦[(iSl a4 L).view.set]{fullShare} f : sProp 𝕄) = (((d, r main_arg2) : Loc nD τ sig) ↦[idxSet (wL L)]{fullShare} f) := by
  rw [set_iSl_main_arg2_scv]; rfl

omit [FloatOps F] in
theorem pts_oSl0 (f : Buf (Elt F) ((d, r main_v3_0) : Loc nD τ sig)) :
    ((oSl a8 L).view.loc (V d (cV L) (jV L)) ↦[(oSl a8 L).view.set]{fullShare} f : sProp 𝕄) = (((d, r main_v3_0) : Loc nD τ sig) ↦[outSet (wL L)]{fullShare} f) := by
  rw [set_oSl_main_v3_0_scv]; rfl

omit [FloatOps F] in
theorem pts_oSl1 (f : Buf (Elt F) ((d, r main_v3_1) : Loc nD τ sig)) :
    ((oSl a9 L).view.loc (V d (cV L) (jV L)) ↦[(oSl a9 L).view.set]{fullShare} f : sProp 𝕄) = (((d, r main_v3_1) : Loc nD τ sig) ↦[outSet (wL L)]{fullShare} f) := by
  rw [set_oSl_main_v3_1_scv]; rfl

omit [FloatOps F] in
theorem pts_oSl2 (f : Buf (Elt F) ((d, r main_v3_2) : Loc nD τ sig)) :
    ((oSl a10 L).view.loc (V d (cV L) (jV L)) ↦[(oSl a10 L).view.set]{fullShare} f : sProp 𝕄) = (((d, r main_v3_2) : Loc nD τ sig) ↦[outSet (wL L)]{fullShare} f) := by
  rw [set_oSl_main_v3_2_scv]; rfl

/-- The tile's share, as the body's memrefs hold it. -/
theorem goC_open :
    goC W d (cL L) (iL L) ⊢ (iprop(((iSl a2 L).view.loc (V d (cV L) (jV L)) ↦[(iSl a2 L).view.set]{fullShare} W d (r main_arg0))
      ∗ ((iSl a3 L).view.loc (V d (cV L) (jV L)) ↦[(iSl a3 L).view.set]{fullShare} W d (r main_arg1))
      ∗ ((iSl a4 L).view.loc (V d (cV L) (jV L)) ↦[(iSl a4 L).view.set]{fullShare} W d (r main_arg2))
      ∗ (∃ f, (oSl a8 L).view.loc (V d (cV L) (jV L)) ↦[(oSl a8 L).view.set]{fullShare} f)
      ∗ (∃ f, (oSl a9 L).view.loc (V d (cV L) (jV L)) ↦[(oSl a9 L).view.set]{fullShare} f)
      ∗ (∃ f, (oSl a10 L).view.loc (V d (cV L) (jV L)) ↦[(oSl a10 L).view.set]{fullShare} f)
      ∗ ((a5).view.loc (V d (cV L) (jV L)) ↦{tileShare (cL L) (iL L)} W d (r main_v0))
      ∗ ((a6).view.loc (V d (cV L) (jV L)) ↦{tileShare (cL L) (iL L)} W d (r main_v1))
      ∗ ((a7).view.loc (V d (cV L) (jV L)) ↦{tileShare (cL L) (iL L)} W d (r main_v2))) : sProp 𝕄) := by
  unfold goC idxRows outRowsAny tables
  rw [show wid (cL L) (iL L) = wL L from rfl]
  iintro ⟨⟨⟨Hi0, Hi1, Hi2⟩, ⟨%f0, Ho0⟩, ⟨%f1, Ho1⟩, ⟨%f2, Ho2⟩⟩, Ht0, Ht1, Ht2⟩
  isplitl [Hi0]; · iapply (Entails.of_eq (pts_iSl0 (F := F) d L _).symm); iexact Hi0
  isplitl [Hi1]; · iapply (Entails.of_eq (pts_iSl1 (F := F) d L _).symm); iexact Hi1
  isplitl [Hi2]; · iapply (Entails.of_eq (pts_iSl2 (F := F) d L _).symm); iexact Hi2
  isplitl [Ho0]; · iexists f0; iapply (Entails.of_eq (pts_oSl0 (F := F) d L f0).symm); iexact Ho0
  isplitl [Ho1]; · iexists f1; iapply (Entails.of_eq (pts_oSl1 (F := F) d L f1).symm); iexact Ho1
  isplitl [Ho2]; · iexists f2; iapply (Entails.of_eq (pts_oSl2 (F := F) d L f2).symm); iexact Ho2
  isplitl [Ht0]; · iexact Ht0
  isplitl [Ht1]; · iexact Ht1
  iexact Ht2

/-- Back: the result rows at contents that are the gathered rows on the worker's range. -/
theorem tdC_close (f0 : Buf (Elt F) ((d, r main_v3_0) : Loc nD τ sig)) (f1 : Buf (Elt F) ((d, r main_v3_1) : Loc nD τ sig)) (f2 : Buf (Elt F) ((d, r main_v3_2) : Loc nD τ sig))
    (h0 : ∀ x ∈ outSet (wL L), f0 x = Vsc (W d) (r main_v3_0) x) (h1 : ∀ x ∈ outSet (wL L), f1 x = Vsc (W d) (r main_v3_1) x)
    (h2 : ∀ x ∈ outSet (wL L), f2 x = Vsc (W d) (r main_v3_2) x) :
    (iprop(((iSl a2 L).view.loc (V d (cV L) (jV L)) ↦[(iSl a2 L).view.set]{fullShare} W d (r main_arg0))
      ∗ ((iSl a3 L).view.loc (V d (cV L) (jV L)) ↦[(iSl a3 L).view.set]{fullShare} W d (r main_arg1))
      ∗ ((iSl a4 L).view.loc (V d (cV L) (jV L)) ↦[(iSl a4 L).view.set]{fullShare} W d (r main_arg2))
      ∗ ((oSl a8 L).view.loc (V d (cV L) (jV L)) ↦[(oSl a8 L).view.set]{fullShare} f0)
      ∗ ((oSl a9 L).view.loc (V d (cV L) (jV L)) ↦[(oSl a9 L).view.set]{fullShare} f1)
      ∗ ((oSl a10 L).view.loc (V d (cV L) (jV L)) ↦[(oSl a10 L).view.set]{fullShare} f2)
      ∗ ((a5).view.loc (V d (cV L) (jV L)) ↦{tileShare (cL L) (iL L)} W d (r main_v0))
      ∗ ((a6).view.loc (V d (cV L) (jV L)) ↦{tileShare (cL L) (iL L)} W d (r main_v1))
      ∗ ((a7).view.loc (V d (cV L) (jV L)) ↦{tileShare (cL L) (iL L)} W d (r main_v2))) : sProp 𝕄) ⊢ tdC W d (cL L) (iL L) := by
  unfold tdC idxRows outRowsDone tables
  rw [show wid (cL L) (iL L) = wL L from rfl]
  iintro ⟨Hi0, Hi1, Hi2, Ho0, Ho1, Ho2, Ht0, Ht1, Ht2⟩
  isplitl [Hi0 Hi1 Hi2 Ho0 Ho1 Ho2]
  · isplitl [Hi0 Hi1 Hi2]
    · isplitl [Hi0]; · iapply (Entails.of_eq (pts_iSl0 (F := F) d L _)); iexact Hi0
      isplitl [Hi1]; · iapply (Entails.of_eq (pts_iSl1 (F := F) d L _)); iexact Hi1
      iapply (Entails.of_eq (pts_iSl2 (F := F) d L _)); iexact Hi2
    · isplitl [Ho0]; · iapply (Entails.of_eq ((pts_oSl0 (F := F) d L f0).trans (pointsTo_congr h0))); iexact Ho0
      isplitl [Ho1]; · iapply (Entails.of_eq ((pts_oSl1 (F := F) d L f1).trans (pointsTo_congr h1))); iexact Ho1
      iapply (Entails.of_eq ((pts_oSl2 (F := F) d L f2).trans (pointsTo_congr h2))); iexact Ho2
  · isplitl [Ht0]; · iexact Ht0
    isplitl [Ht1]; · iexact Ht1
    iexact Ht2

end IO

end Cert.Proof.KI.Sc

end
-- ==== Proof.ScOuter.lean ====
/-
  The gather task on one vector subcore, whole: for each of the three tables in turn the subcore's 512 index words are
  copied into the index scratch and waited for; the 512 row copies are issued on the kernel's one DMA semaphore, sixteen
  per loop trip, from the table rows the index words name into the rows of the rows scratch, each against a token of
  the subcore's read share of the table; ONE wait of the summed amount drains them all (no row of the scratch is read
  or written between the first issue and that wait); the landed rows are the scratch again at one function, the
  tokens the share again; the scratch is copied out to the subcore's 512 result rows and waited for. At the end the
  three index slices and the three table shares are back as they came and the three result slices hold the gathered
  rows.
-/
import proofs.«203152_g22136261444366_cont_8to1_1253_39_alg».proof.Proof.ScTileBase
import proofs.«203152_g22136261444366_cont_8to1_1253_39_alg».proof.Proof.ScSplit
import proofs.«203152_g22136261444366_cont_8to1_1253_39_alg».proof.Proof.ScTrip
import proofs.«203152_g22136261444366_cont_8to1_1253_39_alg».proof.Proof.ScViews
import proofs.«203152_g22136261444366_cont_8to1_1253_39_alg».proof.Proof.ScVal1
import proofs.«203152_g22136261444366_cont_8to1_1253_39_alg».proof.Proof.ScVal2
import proofs.«203152_g22136261444366_cont_8to1_1253_39_alg».proof.Proof.ScVal3
import proofs.«203152_g22136261444366_cont_8to1_1253_39_alg».proof.Proof.ScOuterRes
import proofs.«203152_g22136261444366_cont_8to1_1253_39_alg».proof.Proof.ScOuterIO
import proofs.«203152_g22136261444366_cont_8to1_1253_39_alg».proof.Proof.ScTile
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import Idealize.ShloMosaic.Lib.Ring

noncomputable section

namespace Cert.Proof.KI.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

open Idealize.ShloMosaic.Tactic

local notation "a2" => (Memref.whole Cert.KernelIdeal.main_arg0_scv : Memref Cert.KernelIdeal.sig Kind.scVector Space.hbm Cert.KernelIdeal.S16384 EltTy.i32)
local notation "a3" => (Memref.whole Cert.KernelIdeal.main_arg1_scv : Memref Cert.KernelIdeal.sig Kind.scVector Space.hbm Cert.KernelIdeal.S16384 EltTy.i32)
local notation "a4" => (Memref.whole Cert.KernelIdeal.main_arg2_scv : Memref Cert.KernelIdeal.sig Kind.scVector Space.hbm Cert.KernelIdeal.S16384 EltTy.i32)
local notation "a5" => (Memref.whole Cert.KernelIdeal.main_v0_scv : Memref Cert.KernelIdeal.sig Kind.scVector Space.hbm Cert.KernelIdeal.S125000x8x64 EltTy.f32)
local notation "a6" => (Memref.whole Cert.KernelIdeal.main_v1_scv : Memref Cert.KernelIdeal.sig Kind.scVector Space.hbm Cert.KernelIdeal.S125000x8x64 EltTy.f32)
local notation "a7" => (Memref.whole Cert.KernelIdeal.main_v2_scv : Memref Cert.KernelIdeal.sig Kind.scVector Space.hbm Cert.KernelIdeal.S125000x8x64 EltTy.f32)
local notation "a8" => (Memref.whole Cert.KernelIdeal.main_v3_0_scv : Memref Cert.KernelIdeal.sig Kind.scVector Space.hbm Cert.KernelIdeal.S16384x1x64 EltTy.f32)
local notation "a9" => (Memref.whole Cert.KernelIdeal.main_v3_1_scv : Memref Cert.KernelIdeal.sig Kind.scVector Space.hbm Cert.KernelIdeal.S16384x1x64 EltTy.f32)
local notation "a10" => (Memref.whole Cert.KernelIdeal.main_v3_2_scv : Memref Cert.KernelIdeal.sig Kind.scVector Space.hbm Cert.KernelIdeal.S16384x1x64 EltTy.f32)
local notation "s11" => (Memref.whole Cert.KernelIdeal.cc0_scratch0 : Memref Cert.KernelIdeal.sig Kind.scVector Space.vmem Cert.KernelIdeal.S512 EltTy.i32)
local notation "s12" => (Memref.whole Cert.KernelIdeal.cc0_scratch1 : Memref Cert.KernelIdeal.sig Kind.scVector Space.vmem Cert.KernelIdeal.S512x1x64 EltTy.f32)

variable [FloatOps F]

section Body
variable (W : Dev nD → Valuation τ sig (Elt F)) (d : Dev nD) (L : grid0.Coords)

omit [FloatOps F] in
theorem pts_s11 (f : Buf (Elt F) ((V d (cV L) (jV L)).loc cc0_scratch0)) :
    ((s11).view.loc (V d (cV L) (jV L)) ↦{fullShare} f : sProp 𝕄) = (V d (cV L) (jV L)).loc cc0_scratch0 ↦{fullShare} f := rfl
omit [FloatOps F] in
theorem pts_s12 (f : Buf (Elt F) ((V d (cV L) (jV L)).loc cc0_scratch1)) :
    ((s12).view.loc (V d (cV L) (jV L)) ↦{fullShare} f : sProp 𝕄) = (V d (cV L) (jV L)).loc cc0_scratch1 ↦{fullShare} f := rfl
omit [FloatOps F] in
/-- The index scratch after a copy-in holds the subcore's words of the index array. -/
theorem words_content (ia : Memref sig .scVector .hbm S16384 .i32) (ids : Buf (Elt F) (ia.view.loc (V d (cV L) (jV L)))) :
    ((s11).view.loc (V d (cV L) (jV L)) ↦{fullShare} (ReadAs.same.apply ((iSl ia L).view.read (Elt F) ids) : S512.Idx → Elt F .i32) : sProp 𝕄)
      ⊢ (s11).view.loc (V d (cV L) (jV L)) ↦{fullShare} wordsOf d L ia ids := Entails.of_eq rfl
omit [FloatOps F] in
theorem set_tb (b : Ref sig .scVector) : (Memref.whole b : Memref sig .scVector _ _ _).view.set = Finset.univ := View.set_whole b
omit [FloatOps F] in
/-- The valuation after the call at the three results: the gathered rows. -/
theorem Vsc_v3_0 (V : Valuation τ sig (Elt F)) : Vsc V (r main_v3_0) = Gathered3 (V (r main_v0)) (V (r main_arg0)) := by
  unfold Vsc
  rw [Function.update_of_ne (by decide), Function.update_of_ne (by decide), Function.update_self]
omit [FloatOps F] in
theorem Vsc_v3_1 (V : Valuation τ sig (Elt F)) : Vsc V (r main_v3_1) = Gathered3 (V (r main_v1)) (V (r main_arg1)) := by
  unfold Vsc
  rw [Function.update_of_ne (by decide), Function.update_self]
omit [FloatOps F] in
theorem Vsc_v3_2 (V : Valuation τ sig (Elt F)) : Vsc V (r main_v3_2) = Gathered3 (V (r main_v2)) (V (r main_arg2)) := by
  unfold Vsc
  rw [Function.update_self]
omit [FloatOps F] in
theorem trips1 : Scf.trips k0_t1_loop.lb k0_t1_loop.ub k0_t1_loop.st = 32 := by decide
omit [FloatOps F] in
theorem trips2 : Scf.trips k0_t2_loop.lb k0_t2_loop.ub k0_t2_loop.st = 32 := by decide
omit [FloatOps F] in
theorem trips3 : Scf.trips k0_t3_loop.lb k0_t3_loop.ub k0_t3_loop.st = 32 := by decide

set_option maxHeartbeats 8000000 in
/-- THE TASK: from the tile's share of the call, the gathered rows in the subcore's result rows, the rest back. -/
theorem tileBody [∀ e, Nonempty (Elt F e)] (hF : (K (F := F)).Facts) (hpre : PreOK W) : TileBody W := by
  intro d L O Wt hO
  have hw0 := wordsOf_le_0 (F := F) d L (W d (r main_arg0)) (fun j => (hpre d j).1)
  have hw1 := wordsOf_le_1 (F := F) d L (W d (r main_arg1)) (fun j => (hpre d j).2.1)
  have hw2 := wordsOf_le_2 (F := F) d L (W d (r main_arg2)) (fun j => (hpre d j).2.2)
  rw [cc0__gather_body_eq_skeleton]
  sl_unfold [cc0__gather_body_skel]
  rw [k0_part16_eq_skeleton]
  sl_unfold [k0_part16_skel]
  rw [(K (F := F)).scopedBufs_V hF d (cV L) (jV L), SparseCore.Cfg.scopedSems0_V (Val := Elt F) d (cV L) (jV L), ownSems0_V, ownBufs_V]
  iintro ⟨#Hlv, -, Hgo, ⟨⟨%f11, H11⟩, ⟨%f12, H12⟩, Hbufs⟩, ⟨Hsem, Hs0, Hs1, Hs2, Hs3, Hs4, Hs5, Hsems⟩, HO⟩
  ihave Hgo' := (goC_open (F := F) W d L) $$ Hgo
  icases Hgo' with ⟨Hi0, Hi1, Hi2, ⟨%fo0, Ho0⟩, ⟨%fo1, Ho1⟩, ⟨%fo2, Ho2⟩, Ht0, Ht1, Ht2⟩
  ihave Hmw := ((K (F := F)).mayWaits_none (thr := V d (cV L) (jV L)) hO) $$ Hlv
  ihave H11 := (Entails.of_eq (pts_s11 (F := F) d L f11).symm) $$ H11
  ihave H12 := (Entails.of_eq (pts_s12 (F := F) d L f12).symm) $$ H12
  unfold iSl oSl
  sl_exec
  -- phase 0: the index words are in the scratch; the batch, the rows and the tokens; the loop; the draining wait
  rw [View.write_whole_univ]
  have e0 : tileBody.sl.dma0 W d L = wordsOf d L a2 (W d (r main_arg0)) := rfl
  rw [e0]
  imod (Transfers.batch_alloc' (EC (F := F)) (V d (cV L) (jV L)) (none : HIx 1) NN (deliv d L a5 (wordsOf d L a2 (W d (r main_arg0))) hw0 (tileShare (cL L) (iL L)) (W d (r main_v0)) f12) (sm := .dma cc0_scratch2.sem) (E := Set.univ)) $$ Hsem with HB
  ihave HR := (Entails.of_eq (rows_split (F := F) d L f12)) $$ H12
  ihave HT := (toks_split (F := F) d L a5 (set_tb _) (tileShare (cL L) (iL L)) (W d (r main_v0))).1 $$ Ht0
  icases HT with ⟨Hdrop, HT⟩
  sl_rw [bind_assoc]
  sl_for (tripInv d L a5 (wordsOf d L a2 (W d (r main_arg0))) hw0 (tileShare (cL L) (iL L)) (W d (r main_v0)) f12) $$ [H11 HB HR HT]
  case region => exact trip1 d L a5 (Memref.isWhole_whole _) (wordsOf d L a2 (W d (r main_arg0))) hw0 (tileShare (cL L) (iL L)) (W d (r main_v0)) f12
  · unfold tripInv batchAt
    rw [Ring.bigSep_rangeSet_empty (le_refl 0)]
    isplitl [H11]; · iexact H11
    isplitl [HB]; · iexact HB
    isplitl [HR]; · iexact HR
    isplitl [HT]; · iexact HT
    iempintro
  iintro %acc0 HI
  rw [trips1]
  unfold tripInv
  icases HI with ⟨H11, HB, -, -, HX⟩
  sl_exec
  unfold batchAt
  iapply (Transfers.wp_waitBatchAllO (EC (F := F)) 𝒱₀ (V d (cV L) (jV L)) none (none : HIx 1) (n := 512) (N := NN) (J := 512 * 2048) (u := 0) rfl (by decide) (by decide) (O := O)) $$ [HB HO]
  · isplitl [HB]; · iexact HB
    isplitl [HO]; · iexact HO
    iapply (Transfers.MayWaits.elim (SemLoc.dma cc0_scratch2.sem)); iexact Hmw
  iintro ⟨HD, Hsem, HO⟩
  ihave HD' := (Entails.of_eq (deliv_split (F := F) d L a5 (wordsOf d L a2 (W d (r main_arg0))) hw0 (tileShare (cL L) (iL L)) (W d (r main_v0)) f12)) $$ HD
  icases HD' with ⟨HRows, HSrc⟩
  ihave HR' := (rows_join (F := F) d L (fun t => landed d L a5 (wordsOf d L a2 (W d (r main_arg0))) hw0 (W d (r main_v0)) f12 t)) $$ HRows
  icases HR' with ⟨%g1, %hg1, H12⟩
  ihave Ht0 := (toks_join (F := F) d L a5 (set_tb _) (wordsOf d L a2 (W d (r main_arg0))) hw0 (tileShare (cL L) (iL L)) (W d (r main_v0))) $$ [Hdrop HSrc HX]
  · isplitl [Hdrop]; · iexact Hdrop
    isplitl [HSrc]; · iexact HSrc
    iexact HX
  -- the copy-out and the next index copy-in
  sl_exec
  -- phase 1: the index words are in the scratch; the batch, the rows and the tokens; the loop; the draining wait
  rw [View.write_whole_univ]
  have e1 : tileBody.sl.dma0_2 W d L = wordsOf d L a3 (W d (r main_arg1)) := rfl
  rw [e1]
  imod (Transfers.batch_alloc' (EC (F := F)) (V d (cV L) (jV L)) (none : HIx 1) NN (deliv d L a6 (wordsOf d L a3 (W d (r main_arg1))) hw1 (tileShare (cL L) (iL L)) (W d (r main_v1)) g1) (sm := .dma cc0_scratch2.sem) (E := Set.univ)) $$ Hsem with HB
  ihave HR := (Entails.of_eq (rows_split (F := F) d L g1)) $$ H12
  ihave HT := (toks_split (F := F) d L a6 (set_tb _) (tileShare (cL L) (iL L)) (W d (r main_v1))).1 $$ Ht1
  icases HT with ⟨Hdrop, HT⟩
  sl_rw [bind_assoc]
  sl_for (tripInv d L a6 (wordsOf d L a3 (W d (r main_arg1))) hw1 (tileShare (cL L) (iL L)) (W d (r main_v1)) g1) $$ [H11 HB HR HT]
  case region => exact trip2 d L (wordsOf d L a3 (W d (r main_arg1))) hw1 (tileShare (cL L) (iL L)) g1 (W d (r main_v1))
  · unfold tripInv batchAt
    rw [Ring.bigSep_rangeSet_empty (le_refl 0)]
    isplitl [H11]; · iexact H11
    isplitl [HB]; · iexact HB
    isplitl [HR]; · iexact HR
    isplitl [HT]; · iexact HT
    iempintro
  iintro %acc1 HI
  rw [trips2]
  unfold tripInv
  icases HI with ⟨H11, HB, -, -, HX⟩
  sl_exec
  unfold batchAt
  iapply (Transfers.wp_waitBatchAllO (EC (F := F)) 𝒱₀ (V d (cV L) (jV L)) none (none : HIx 1) (n := 512) (N := NN) (J := 512 * 2048) (u := 0) rfl (by decide) (by decide) (O := O)) $$ [HB HO]
  · isplitl [HB]; · iexact HB
    isplitl [HO]; · iexact HO
    iapply (Transfers.MayWaits.elim (SemLoc.dma cc0_scratch2.sem)); iexact Hmw
  iintro ⟨HD, Hsem, HO⟩
  ihave HD' := (Entails.of_eq (deliv_split (F := F) d L a6 (wordsOf d L a3 (W d (r main_arg1))) hw1 (tileShare (cL L) (iL L)) (W d (r main_v1)) g1)) $$ HD
  icases HD' with ⟨HRows, HSrc⟩
  ihave HR' := (rows_join (F := F) d L (fun t => landed d L a6 (wordsOf d L a3 (W d (r main_arg1))) hw1 (W d (r main_v1)) g1 t)) $$ HRows
  icases HR' with ⟨%g2, %hg2, H12⟩
  ihave Ht1 := (toks_join (F := F) d L a6 (set_tb _) (wordsOf d L a3 (W d (r main_arg1))) hw1 (tileShare (cL L) (iL L)) (W d (r main_v1))) $$ [Hdrop HSrc HX]
  · isplitl [Hdrop]; · iexact Hdrop
    isplitl [HSrc]; · iexact HSrc
    iexact HX
  -- the copy-out and the next index copy-in
  sl_exec
  -- phase 2: the index words are in the scratch; the batch, the rows and the tokens; the loop; the draining wait
  rw [View.write_whole_univ]
  have e2 : tileBody.sl.dma0_4 W d L = wordsOf d L a4 (W d (r main_arg2)) := rfl
  rw [e2]
  imod (Transfers.batch_alloc' (EC (F := F)) (V d (cV L) (jV L)) (none : HIx 1) NN (deliv d L a7 (wordsOf d L a4 (W d (r main_arg2))) hw2 (tileShare (cL L) (iL L)) (W d (r main_v2)) g2) (sm := .dma cc0_scratch2.sem) (E := Set.univ)) $$ Hsem with HB
  ihave HR := (Entails.of_eq (rows_split (F := F) d L g2)) $$ H12
  ihave HT := (toks_split (F := F) d L a7 (set_tb _) (tileShare (cL L) (iL L)) (W d (r main_v2))).1 $$ Ht2
  icases HT with ⟨Hdrop, HT⟩
  sl_for (tripInv d L a7 (wordsOf d L a4 (W d (r main_arg2))) hw2 (tileShare (cL L) (iL L)) (W d (r main_v2)) g2) $$ [H11 HB HR HT]
  case region => exact trip3 d L (wordsOf d L a4 (W d (r main_arg2))) hw2 (tileShare (cL L) (iL L)) g2 (W d (r main_v2))
  · unfold tripInv batchAt
    rw [Ring.bigSep_rangeSet_empty (le_refl 0)]
    isplitl [H11]; · iexact H11
    isplitl [HB]; · iexact HB
    isplitl [HR]; · iexact HR
    isplitl [HT]; · iexact HT
    iempintro
  iintro %acc2 HI
  rw [trips3]
  unfold tripInv
  icases HI with ⟨H11, HB, -, -, HX⟩
  sl_exec
  unfold batchAt
  iapply (Transfers.wp_waitBatchAllO (EC (F := F)) 𝒱₀ (V d (cV L) (jV L)) none (none : HIx 1) (n := 512) (N := NN) (J := 512 * 2048) (u := 0) rfl (by decide) (by decide) (O := O)) $$ [HB HO]
  · isplitl [HB]; · iexact HB
    isplitl [HO]; · iexact HO
    iapply (Transfers.MayWaits.elim (SemLoc.dma cc0_scratch2.sem)); iexact Hmw
  iintro ⟨HD, Hsem, HO⟩
  ihave HD' := (Entails.of_eq (deliv_split (F := F) d L a7 (wordsOf d L a4 (W d (r main_arg2))) hw2 (tileShare (cL L) (iL L)) (W d (r main_v2)) g2)) $$ HD
  icases HD' with ⟨HRows, HSrc⟩
  ihave HR' := (rows_join (F := F) d L (fun t => landed d L a7 (wordsOf d L a4 (W d (r main_arg2))) hw2 (W d (r main_v2)) g2 t)) $$ HRows
  icases HR' with ⟨%g3, %hg3, H12⟩
  ihave Ht2 := (toks_join (F := F) d L a7 (set_tb _) (wordsOf d L a4 (W d (r main_arg2))) hw2 (tileShare (cL L) (iL L)) (W d (r main_v2))) $$ [Hdrop HSrc HX]
  · isplitl [Hdrop]; · iexact Hdrop
    isplitl [HSrc]; · iexact HSrc
    iexact HX
  -- the copy-out
  sl_exec
  -- the return: the tile's share back, the result rows at the gathered rows
  sl_step
  ihave H11 := (Entails.of_eq (pts_s11 (F := F) d L _)) $$ H11
  ihave H12 := (Entails.of_eq (pts_s12 (F := F) d L _)) $$ H12
  have hv0 : ∀ x ∈ outSet (wL L), ((oSl a8 L).view.writes (Elt F) (oSl a8 L).view.junk [⟨Rect.whole S512x1x64, tileBody.sl.dma0_1 d L g1⟩]) x
      = Vsc (W d) (r main_v3_0) x :=
    fun x hx => (out_value_writes_0 (F := F) d L (W d (r main_arg0)) (W d (r main_v0)) _ f12 g1 hw0 (fun t y hy => hg1 t y ((mem_rowSet t y).2 hy)) x hx).trans
      (congrFun (Vsc_v3_0 (F := F) (W d)) x).symm
  have hv1 : ∀ x ∈ outSet (wL L), ((oSl a9 L).view.writes (Elt F) (oSl a9 L).view.junk [⟨Rect.whole S512x1x64, tileBody.sl.dma0_3 d L g2⟩]) x
      = Vsc (W d) (r main_v3_1) x :=
    fun x hx => (out_value_writes_1 (F := F) d L (W d (r main_arg1)) (W d (r main_v1)) _ g1 g2 hw1 (fun t y hy => hg2 t y ((mem_rowSet t y).2 hy)) x hx).trans
      (congrFun (Vsc_v3_1 (F := F) (W d)) x).symm
  have hv2 : ∀ x ∈ outSet (wL L), ((oSl a10 L).view.writes (Elt F) fo2 [⟨Rect.whole S512x1x64, tileBody.sl.dma0_5 d L g3⟩]) x
      = Vsc (W d) (r main_v3_2) x :=
    fun x hx => (out_value_writes_2 (F := F) d L (W d (r main_arg2)) (W d (r main_v2)) _ g2 g3 hw2 (fun t y hy => hg3 t y ((mem_rowSet t y).2 hy)) x hx).trans
      (congrFun (Vsc_v3_2 (F := F) (W d)) x).symm
  ihave Htd := (tdC_close (F := F) W d L _ _ _ hv0 hv1 hv2) $$ [Hi0 Hi1 Hi2 Ho0 Ho1 Ho2 Ht0 Ht1 Ht2]
  · isplitl [Hi0]; · iexact Hi0
    isplitl [Hi1]; · iexact Hi1
    isplitl [Hi2]; · iexact Hi2
    isplitl [Ho0]; · iexact Ho0
    isplitl [Ho1]; · iexact Ho1
    isplitl [Ho2]; · iexact Ho2
    isplitl [Ht0]; · iexact Ht0
    isplitl [Ht1]; · iexact Ht1
    iexact Ht2
  isplitl [Htd]; · iexact Htd
  isplitl [H11 H12 Hbufs]
  · isplitl [H11]; · iexists _; iexact H11
    isplitl [H12]; · iexists _; iexact H12
    iexact Hbufs
  isplitl [Hsem Hs0 Hs1 Hs2 Hs3 Hs4 Hs5 Hsems]
  · isplitl [Hsem]; · iexact Hsem
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsems
  iexists _; isplitr
  rotate_left
  · iexact HO
  · ipureintro; intro p hp
    simp only [Finset.mem_insert] at hp
    rcases hp with rfl | rfl | rfl | rfl | rfl | rfl | rfl | rfl | rfl | hp
    all_goals first | exact .inr rfl | exact .inl hp

/-- The launch theorem's obligation for the one tile kernel: each vector subcore's task, from the facts and the index
    words' range. -/
theorem tileObl [∀ e, Nonempty (Elt F e)] (hF : (K (F := F)).Facts) (hpre : PreOK W) :
    (K (F := F)).TileObl (D (F := F)) 𝒱 (P W) v₀ 0 :=
  tileObl_of W (tileBody W hF hpre)

end Body

end Cert.Proof.KI.Sc

end
-- ==== Proof.TcRegionBody.lean ====
/- The TensorCore kernel's body at a grid point, run on whole staging memrefs: the seven inputs at their blocks, the
   inference window at anything, the regulariser window and the three-word accumulator as the point finds them. Three
   cases by the body's conditions on the grid coordinate: the first point stores the three sums of squares, a later
   point adds its own to the words it loads, and the last point also stores the regulariser computed from them. -/
import proofs.«203152_g22136261444366_cont_8to1_1253_39_alg».proof.Proof.Gen.KernelIdeal.Skeleton
import proofs.«203152_g22136261444366_cont_8to1_1253_39_alg».proof.Proof.Gen.KernelIdeal.Launch
import proofs.«203152_g22136261444366_cont_8to1_1253_39_alg».proof.Proof.Gen.KernelIdeal.Points
import Idealize.ShloMosaic.Lib.SparseCore.Launch
import Idealize.ShloMosaic.Lib.Pipeline.FrameBody
import Idealize.ShloMosaic.Lib.Ring
import Idealize.ShloMosaic.Lib.Tactic
import Idealize.ShloMosaic.Lib.WholeRead

set_option maxRecDepth 16384

noncomputable section

namespace Cert.KernelIdeal.TcBody

open Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {UU : Type} [URA UU]

local notation "𝕄" => MT nD τ sig (HIx 1) (Elt F) ℕ UU ℕ

/-! ## Reading and writing a whole memref through the rectangle of all of it -/

theorem z1 : (![0] : Fin 1 → ℕ) = fun _ => 0 := by funext a; fin_cases a; rfl
theorem z2 : (![0, 0] : Fin 2 → ℕ) = fun _ => 0 := by funext a; fin_cases a <;> rfl

/-- The rectangle of the whole shape places an index at itself. -/
theorem emb_unit_zero {s : Shape} {off : Fin s.rank → ℕ} (ho : off = fun _ => 0) (inb : ∀ a, off a + s.size a ≤ s.size a) (y : s.Idx) :
    (Rect.unit (s := s) off s.size inb).emb y = y := by
  subst ho; funext a; apply Fin.ext; simp [Rect.emb_apply]

/-- A load of all of a whole memref held at the contents that read `X` reads `X`. -/
theorem readAt_whole_unread {κ : Kind} {sp : Space} {s : Shape} {e : EltTy} {m : Memref sig κ sp s e} (h : m.IsWhole) (X : s.Idx → Elt F e)
    {off : Fin s.rank → ℕ} (ho : off = fun _ => 0) (inb : ∀ a, off a + s.size a ≤ s.size a) :
    View.readAt (Elt F) m.view (Rect.unit (s := s) off s.size inb).toLoadRect (h.unread X) = X := by
  funext x
  rw [Memref.IsWhole.readAt_unread h]
  exact congrArg X (emb_unit_zero ho inb x)

theorem readAt_whole_unread2 {κ : Kind} {sp : Space} {sz : Fin 2 → ℕ} {e : EltTy} {m : Memref sig κ sp ⟨2, sz⟩ e} (h : m.IsWhole) (X : (⟨2, sz⟩ : Shape).Idx → Elt F e)
    (inb : ∀ a, (![0, 0] : Fin 2 → ℕ) a + (⟨2, sz⟩ : Shape).size a ≤ (⟨2, sz⟩ : Shape).size a) :
    View.readAt (Elt F) m.view (Rect.unit (s := ⟨2, sz⟩) ![0, 0] (⟨2, sz⟩ : Shape).size inb).toLoadRect (h.unread X) = X :=
  readAt_whole_unread h X z2 inb

/-- One store of all of a shape leaves its payload. -/
theorem read_writes_whole {κ : Kind} {sp : Space} {s : Shape} {e : EltTy} (v : View sig κ sp s e) (f : v.ty.Contents (Elt F))
    {off : Fin s.rank → ℕ} (ho : off = fun _ => 0) (inb : ∀ a, off a + s.size a ≤ s.size a) (w : s.Idx → Elt F e) :
    v.read (Elt F) (v.writes (Elt F) f [⟨Rect.unit (s := s) off s.size inb, w⟩]) = w := by
  funext y
  have := View.read_writes_cons_emb v f (Rect.unit (s := s) off s.size inb) w [] y
  rwa [emb_unit_zero ho inb y] at this

theorem read_writes_whole2 {κ : Kind} {sp : Space} {sz : Fin 2 → ℕ} {e : EltTy} (v : View sig κ sp ⟨2, sz⟩ e) (f : v.ty.Contents (Elt F))
    (inb : ∀ a, (![0, 0] : Fin 2 → ℕ) a + (⟨2, sz⟩ : Shape).size a ≤ (⟨2, sz⟩ : Shape).size a) (w : (⟨2, sz⟩ : Shape).Idx → Elt F e) :
    v.read (Elt F) (v.writes (Elt F) f [⟨Rect.unit (s := ⟨2, sz⟩) ![0, 0] (⟨2, sz⟩ : Shape).size inb, w⟩]) = w :=
  read_writes_whole v f z2 inb w

/-! ## The three accumulator words -/

/-- The accumulator's contents: its three words. -/
def acc3 (a b c : F .f32) : Vec F S3 .f32 := fun j => if (j 0).val = 0 then a else if (j 0).val = 1 then b else c

theorem rd_acc3 {κ : Kind} {sp : Space} {m : Memref sig κ sp S3 .f32} (h : m.IsWhole) (a b c : F .f32) (k : ℕ)
    (inb : ∀ a, (![k] : Fin 1 → ℕ) a + S1.size a ≤ S3.size a) (x : (Rect.unit (s := S3) ![k] S1.size inb).toLoadRect.shape.Idx) :
    View.readAt (Elt F) m.view (Rect.unit (s := S3) ![k] S1.size inb).toLoadRect (h.unread (acc3 a b c)) x
      = if k = 0 then a else if k = 1 then b else c := by
  rw [Memref.IsWhole.readAt_unread h]
  have hx : ((x 0 : Fin _) : ℕ) = 0 := by have := (x 0).isLt; simpa using this
  unfold acc3
  simp only [LoadRect.idx_apply, Rect.off_unit, Rect.stride_unit, hx]
  simp

theorem rd_acc3_0 {κ : Kind} {sp : Space} {m : Memref sig κ sp S3 .f32} (h : m.IsWhole) (a b c : F .f32)
    (inb : ∀ a, (![0] : Fin 1 → ℕ) a + S1.size a ≤ S3.size a) (x : (Rect.unit (s := S3) ![0] S1.size inb).toLoadRect.shape.Idx) :
    View.readAt (Elt F) m.view (Rect.unit (s := S3) ![0] S1.size inb).toLoadRect (h.unread (acc3 a b c)) x = a := by
  rw [rd_acc3]; simp
theorem rd_acc3_1 {κ : Kind} {sp : Space} {m : Memref sig κ sp S3 .f32} (h : m.IsWhole) (a b c : F .f32)
    (inb : ∀ a, (![1] : Fin 1 → ℕ) a + S1.size a ≤ S3.size a) (x : (Rect.unit (s := S3) ![1] S1.size inb).toLoadRect.shape.Idx) :
    View.readAt (Elt F) m.view (Rect.unit (s := S3) ![1] S1.size inb).toLoadRect (h.unread (acc3 a b c)) x = b := by
  rw [rd_acc3]; simp
theorem rd_acc3_2 {κ : Kind} {sp : Space} {m : Memref sig κ sp S3 .f32} (h : m.IsWhole) (a b c : F .f32)
    (inb : ∀ a, (![2] : Fin 1 → ℕ) a + S1.size a ≤ S3.size a) (x : (Rect.unit (s := S3) ![2] S1.size inb).toLoadRect.shape.Idx) :
    View.readAt (Elt F) m.view (Rect.unit (s := S3) ![2] S1.size inb).toLoadRect (h.unread (acc3 a b c)) x = c := by
  rw [rd_acc3]; simp

/-- Three one-word stores leave the three words. -/
theorem read_writes_acc3 {κ : Kind} {sp : Space} (v : View sig κ sp S3 .f32) (f : v.ty.Contents (Elt F)) (a b c : F .f32)
    (i0 : ∀ a, (![0] : Fin 1 → ℕ) a + S1.size a ≤ S3.size a) (i1 : ∀ a, (![1] : Fin 1 → ℕ) a + S1.size a ≤ S3.size a)
    (i2 : ∀ a, (![2] : Fin 1 → ℕ) a + S1.size a ≤ S3.size a) :
    v.read (Elt F) (v.writes (Elt F) f [⟨Rect.unit (s := S3) ![2] S1.size i2, fun _ => c⟩, ⟨Rect.unit (s := S3) ![1] S1.size i1, fun _ => b⟩,
      ⟨Rect.unit (s := S3) ![0] S1.size i0, fun _ => a⟩]) = acc3 a b c := by
  funext y
  refine View.read_writes_apply_of_pieces v f (acc3 a b c) _ ?_ y ?_
  · intro p hp x
    have hx : ((x 0 : Fin _) : ℕ) = 0 := by
      simp only [List.mem_cons, List.mem_nil_iff, or_false] at hp
      rcases hp with rfl | rfl | rfl <;> (have := (x 0).isLt; simpa using this)
    simp only [List.mem_cons, List.mem_nil_iff, or_false] at hp
    rcases hp with rfl | rfl | rfl <;> (unfold acc3; simp [Rect.emb_apply, hx])
  · exact View.cover_of_tiledL (s := S3) _ S1.size (by sl_kernel_rfl) y

/-! ## The body's three conditions, over the grid -/

/-- The first conditional's condition: the point is the first. -/
abbrev cond1 (i : grid1.Coords) : Prop := (Scalar.cmpi .ne (Scalar.extui (Scalar.cmpi .eq (BitVec.ofNat 32 (i 0).val) 0#32)) 0#32) = 1#1
/-- The second's: the point is not the first. -/
abbrev cond2 (i : grid1.Coords) : Prop := (Scalar.cmpi .ne (Scalar.extui (Scalar.cmpi .sgt (BitVec.ofNat 32 (i 0).val) 0#32)) 0#32) = 1#1
/-- The third's: the point is the last. -/
abbrev cond3 (i : grid1.Coords) : Prop := k1_cond3 i = 1#1

theorem hcond1 : ∀ t : Fin cfg1.N, cond1 (grid1.coords t) ↔ t.val = 0 :=
  (by decide +kernel : ∀ t : Fin grid1.N, cond1 (grid1.coords t) ↔ t.val = 0)
theorem hcond2 : ∀ t : Fin cfg1.N, cond2 (grid1.coords t) ↔ t.val ≠ 0 :=
  (by decide +kernel : ∀ t : Fin grid1.N, cond2 (grid1.coords t) ↔ t.val ≠ 0)
theorem hcond3 : ∀ t : Fin cfg1.N, cond3 (grid1.coords t) ↔ t.val = 3 :=
  (by decide +kernel : ∀ t : Fin grid1.N, cond3 (grid1.coords t) ↔ t.val = 3)

set_option maxHeartbeats 1000000 in
theorem runFirst (c : Dev nD) (i : grid1.Coords)
    (arg1 : Memref sig .tc .vmem S4096x64 .f32) (harg1 : arg1.IsWhole) (arg2 : Memref sig .tc .vmem S4096x64 .f32) (harg2 : arg2.IsWhole)
    (arg3 : Memref sig .tc .vmem S4096x64 .f32) (harg3 : arg3.IsWhole) (arg4 : Memref sig .tc .vmem S192x192 .f32) (harg4 : arg4.IsWhole)
    (arg5 : Memref sig .tc .vmem S1x192 .f32) (harg5 : arg5.IsWhole) (arg6 : Memref sig .tc .vmem S192x1 .f32) (harg6 : arg6.IsWhole)
    (arg7 : Memref sig .tc .vmem S1x1 .f32) (harg7 : arg7.IsWhole) (arg8 : Memref sig .tc .vmem S4096x1 .f32) (harg8 : arg8.IsWhole)
    (arg9 : Memref sig .tc .vmem S1x1 .f32) (harg9 : arg9.IsWhole) (arg10 : Memref sig .tc .smem S3 .f32) (harg10 : arg10.IsWhole)
    (hc1 : cond1 i) (hc2 : ¬cond2 i) (hc3 : ¬cond3 i)
    (x1 x2 x3 : Vec F S4096x64 .f32) (x4 : Vec F S192x192 .f32) (x5 : Vec F S1x192 .f32) (x6 : Vec F S192x1 .f32) (x7 : Vec F S1x1 .f32)
    (x8 : Vec F S4096x1 .f32) (x9 : Vec F S1x1 .f32) (x10 : Vec F S3 .f32) (a0 b0 c0 : F .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ owns (c : Thread nD τ) arg10 fullShare x10
        ∗ (iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare x5 ∗ owns (c : Thread nD τ) arg6 fullShare x6
          ∗ owns (c : Thread nD τ) arg7 fullShare x7 ∗ owns (c : Thread nD τ) arg8 fullShare (k1_pay11 x4 x6 x1 x2 x3 x5 x7) ∗ owns (c : Thread nD τ) arg9 fullShare x9
          ∗ owns (c : Thread nD τ) arg10 fullShare (acc3 (k1_pay1 (k1_pay8 x1)) (k1_pay2 (k1_pay9 x2)) (k1_pay3 (k1_pay10 x3)))) -∗ K ⟨⟩))
      ⊢ wp frame (wpE (defs₀ (F := F)) Variants.none c none) E (cc1__mlp_body i arg1 harg1 arg2 harg2 arg3 harg3 arg4 harg4 arg5 harg5 arg6 harg6 arg7 harg7 arg8 harg8 arg9 harg9 arg10 harg10) K := by
  simp only [cc1__mlp_body_eq_skeleton]; unfold cc1__mlp_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  obtain rfl := harg10.eq_unread hf10
  sl_exec (disch := first | exact hc1 | exact hc2 | exact hc3)
  sl_step
  sl_unfold_run_names
  have e1 := readAt_whole_unread (F := F) harg1 x1 z2 inb_S4096x64_S4096x64_0_0
  have e2 := readAt_whole_unread (F := F) harg2 x2 z2 inb_S4096x64_S4096x64_0_0
  have e3 := readAt_whole_unread (F := F) harg3 x3 z2 inb_S4096x64_S4096x64_0_0
  have e4 := readAt_whole_unread (F := F) harg4 x4 z2 inb_S192x192_S192x192_0_0
  have e5 := readAt_whole_unread (F := F) harg5 x5 z2 inb_S1x192_S1x192_0_0
  have e6 := readAt_whole_unread (F := F) harg6 x6 z2 inb_S192x1_S192x1_0_0
  have e7 := readAt_whole_unread (F := F) harg7 x7 z2 inb_S1x1_S1x1_0_0

  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]
  · iexists _; isplitr; swap; · iexact H8
    ipureintro
    rw [read_writes_whole _ _ z2, e1, e2, e3, e4, e5, e6, e7]
  isplitl [H9]; · iexists _; isplitr; · ipureintro; exact hf9
                  iexact H9
  iexists _; isplitr; swap; · iexact H10
  ipureintro
  rw [read_writes_acc3, e1, e2, e3]

set_option maxHeartbeats 1000000 in
theorem runMid (c : Dev nD) (i : grid1.Coords)
    (arg1 : Memref sig .tc .vmem S4096x64 .f32) (harg1 : arg1.IsWhole) (arg2 : Memref sig .tc .vmem S4096x64 .f32) (harg2 : arg2.IsWhole)
    (arg3 : Memref sig .tc .vmem S4096x64 .f32) (harg3 : arg3.IsWhole) (arg4 : Memref sig .tc .vmem S192x192 .f32) (harg4 : arg4.IsWhole)
    (arg5 : Memref sig .tc .vmem S1x192 .f32) (harg5 : arg5.IsWhole) (arg6 : Memref sig .tc .vmem S192x1 .f32) (harg6 : arg6.IsWhole)
    (arg7 : Memref sig .tc .vmem S1x1 .f32) (harg7 : arg7.IsWhole) (arg8 : Memref sig .tc .vmem S4096x1 .f32) (harg8 : arg8.IsWhole)
    (arg9 : Memref sig .tc .vmem S1x1 .f32) (harg9 : arg9.IsWhole) (arg10 : Memref sig .tc .smem S3 .f32) (harg10 : arg10.IsWhole)
    (hc1 : ¬cond1 i) (hc2 : cond2 i) (hc3 : ¬cond3 i)
    (x1 x2 x3 : Vec F S4096x64 .f32) (x4 : Vec F S192x192 .f32) (x5 : Vec F S1x192 .f32) (x6 : Vec F S192x1 .f32) (x7 : Vec F S1x1 .f32)
    (x8 : Vec F S4096x1 .f32) (x9 : Vec F S1x1 .f32) (x10 : Vec F S3 .f32) (a0 b0 c0 : F .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ owns (c : Thread nD τ) arg10 fullShare (acc3 a0 b0 c0)
        ∗ (iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare x5 ∗ owns (c : Thread nD τ) arg6 fullShare x6
          ∗ owns (c : Thread nD τ) arg7 fullShare x7 ∗ owns (c : Thread nD τ) arg8 fullShare (k1_pay11 x4 x6 x1 x2 x3 x5 x7) ∗ owns (c : Thread nD τ) arg9 fullShare x9
          ∗ owns (c : Thread nD τ) arg10 fullShare (acc3 (k1_pay4 (k1_pay8 x1) a0) (k1_pay5 (k1_pay9 x2) b0) (k1_pay6 (k1_pay10 x3) c0))) -∗ K ⟨⟩))
      ⊢ wp frame (wpE (defs₀ (F := F)) Variants.none c none) E (cc1__mlp_body i arg1 harg1 arg2 harg2 arg3 harg3 arg4 harg4 arg5 harg5 arg6 harg6 arg7 harg7 arg8 harg8 arg9 harg9 arg10 harg10) K := by
  simp only [cc1__mlp_body_eq_skeleton]; unfold cc1__mlp_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  obtain rfl := harg10.eq_unread hf10
  sl_exec (disch := first | exact hc1 | exact hc2 | exact hc3)
  sl_step
  sl_unfold_run_names
  have e1 := readAt_whole_unread (F := F) harg1 x1 z2 inb_S4096x64_S4096x64_0_0
  have e2 := readAt_whole_unread (F := F) harg2 x2 z2 inb_S4096x64_S4096x64_0_0
  have e3 := readAt_whole_unread (F := F) harg3 x3 z2 inb_S4096x64_S4096x64_0_0
  have e4 := readAt_whole_unread (F := F) harg4 x4 z2 inb_S192x192_S192x192_0_0
  have e5 := readAt_whole_unread (F := F) harg5 x5 z2 inb_S1x192_S1x192_0_0
  have e6 := readAt_whole_unread (F := F) harg6 x6 z2 inb_S192x1_S192x1_0_0
  have e7 := readAt_whole_unread (F := F) harg7 x7 z2 inb_S1x1_S1x1_0_0
  have r0 := fun x => rd_acc3_0 (F := F) harg10 a0 b0 c0 inb_S3_S1_0 x
  have r1 := fun x => rd_acc3_1 (F := F) harg10 a0 b0 c0 inb_S3_S1_1 x
  have r2 := fun x => rd_acc3_2 (F := F) harg10 a0 b0 c0 inb_S3_S1_2 x
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]
  · iexists _; isplitr; swap; · iexact H8
    ipureintro
    rw [read_writes_whole _ _ z2, e1, e2, e3, e4, e5, e6, e7]
  isplitl [H9]; · iexists _; isplitr; · ipureintro; exact hf9
                  iexact H9
  iexists _; isplitr; swap; · iexact H10
  ipureintro
  rw [read_writes_acc3, e1, e2, e3, r0, r1, r2]

set_option maxHeartbeats 1000000 in
theorem runLast (c : Dev nD) (i : grid1.Coords)
    (arg1 : Memref sig .tc .vmem S4096x64 .f32) (harg1 : arg1.IsWhole) (arg2 : Memref sig .tc .vmem S4096x64 .f32) (harg2 : arg2.IsWhole)
    (arg3 : Memref sig .tc .vmem S4096x64 .f32) (harg3 : arg3.IsWhole) (arg4 : Memref sig .tc .vmem S192x192 .f32) (harg4 : arg4.IsWhole)
    (arg5 : Memref sig .tc .vmem S1x192 .f32) (harg5 : arg5.IsWhole) (arg6 : Memref sig .tc .vmem S192x1 .f32) (harg6 : arg6.IsWhole)
    (arg7 : Memref sig .tc .vmem S1x1 .f32) (harg7 : arg7.IsWhole) (arg8 : Memref sig .tc .vmem S4096x1 .f32) (harg8 : arg8.IsWhole)
    (arg9 : Memref sig .tc .vmem S1x1 .f32) (harg9 : arg9.IsWhole) (arg10 : Memref sig .tc .smem S3 .f32) (harg10 : arg10.IsWhole)
    (hc1 : ¬cond1 i) (hc2 : cond2 i) (hc3 : cond3 i)
    (x1 x2 x3 : Vec F S4096x64 .f32) (x4 : Vec F S192x192 .f32) (x5 : Vec F S1x192 .f32) (x6 : Vec F S192x1 .f32) (x7 : Vec F S1x1 .f32)
    (x8 : Vec F S4096x1 .f32) (x9 : Vec F S1x1 .f32) (x10 : Vec F S3 .f32) (a0 b0 c0 : F .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ owns (c : Thread nD τ) arg10 fullShare (acc3 a0 b0 c0)
        ∗ (iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare x5 ∗ owns (c : Thread nD τ) arg6 fullShare x6
          ∗ owns (c : Thread nD τ) arg7 fullShare x7 ∗ owns (c : Thread nD τ) arg8 fullShare (k1_pay11 x4 x6 x1 x2 x3 x5 x7) ∗ owns (c : Thread nD τ) arg9 fullShare (k1_pay7 (k1_pay4 (k1_pay8 x1) a0) (k1_pay5 (k1_pay9 x2) b0) (k1_pay6 (k1_pay10 x3) c0))
          ∗ owns (c : Thread nD τ) arg10 fullShare (acc3 (k1_pay4 (k1_pay8 x1) a0) (k1_pay5 (k1_pay9 x2) b0) (k1_pay6 (k1_pay10 x3) c0))) -∗ K ⟨⟩))
      ⊢ wp frame (wpE (defs₀ (F := F)) Variants.none c none) E (cc1__mlp_body i arg1 harg1 arg2 harg2 arg3 harg3 arg4 harg4 arg5 harg5 arg6 harg6 arg7 harg7 arg8 harg8 arg9 harg9 arg10 harg10) K := by
  simp only [cc1__mlp_body_eq_skeleton]; unfold cc1__mlp_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  obtain rfl := harg10.eq_unread hf10
  sl_exec (disch := first | exact hc1 | exact hc2 | exact hc3)
  sl_step
  sl_unfold_run_names
  have e1 := readAt_whole_unread (F := F) harg1 x1 z2 inb_S4096x64_S4096x64_0_0
  have e2 := readAt_whole_unread (F := F) harg2 x2 z2 inb_S4096x64_S4096x64_0_0
  have e3 := readAt_whole_unread (F := F) harg3 x3 z2 inb_S4096x64_S4096x64_0_0
  have e4 := readAt_whole_unread (F := F) harg4 x4 z2 inb_S192x192_S192x192_0_0
  have e5 := readAt_whole_unread (F := F) harg5 x5 z2 inb_S1x192_S1x192_0_0
  have e6 := readAt_whole_unread (F := F) harg6 x6 z2 inb_S192x1_S192x1_0_0
  have e7 := readAt_whole_unread (F := F) harg7 x7 z2 inb_S1x1_S1x1_0_0
  have r0 := fun x => rd_acc3_0 (F := F) harg10 a0 b0 c0 inb_S3_S1_0 x
  have r1 := fun x => rd_acc3_1 (F := F) harg10 a0 b0 c0 inb_S3_S1_1 x
  have r2 := fun x => rd_acc3_2 (F := F) harg10 a0 b0 c0 inb_S3_S1_2 x
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]
  · iexists _; isplitr; swap; · iexact H8
    ipureintro
    rw [read_writes_whole _ _ z2, e1, e2, e3, e4, e5, e6, e7]
  isplitl [H9]
  · iexists _; isplitr; swap; · iexact H9
    ipureintro
    rw [read_writes_whole _ _ z2, e1, e2, e3, r0, r1, r2]
  iexists _; isplitr; swap; · iexact H10
  ipureintro
  rw [read_writes_acc3, e1, e2, e3, r0, r1, r2]

end Cert.KernelIdeal.TcBody

end
-- ==== Proof.TcRegionData.lean ====
/- The TensorCore region's proof data: what each window's staging buffer holds after the body at each grid point,
   the three-word accumulator carried between points, and the body obligation at every point from the three runs of
   the body. -/
import proofs.«203152_g22136261444366_cont_8to1_1253_39_alg».proof.Proof.KFun
import proofs.«203152_g22136261444366_cont_8to1_1253_39_alg».proof.Proof.TcRegionBody
import Idealize.ShloMosaic.Lib.StableHlo.Run
import Idealize.ShloMosaic.Lib.Pipeline.Regions
import Idealize.ShloMosaic.Lib.Pipeline.Frame
import Idealize.ShloMosaic.Lib.Pipeline.Value

set_option maxRecDepth 16384

noncomputable section

namespace Cert.KernelIdeal.TcRegion

open Cert.KernelIdeal.Gen Cert.KernelIdeal.TcBody Cert.KernelIdeal.KFun
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs Dat Cfg Window BodyObligation cellOf)

variable {F : FTy → Type} [FloatOps F]
variable {UU : Type} [URA UU]

local notation "𝕄" => MT nD τ sig (HIx 1) (Elt F) ℕ UU ℕ

/-! ## The program's tables as the launch theorem and the pipeline library see them -/

abbrev ΛP : Labels := Pipeline.Sig Λ₀ (Fin 1) fun p => (pcfgs (F := F) p).Adm
abbrev Ksc : SparseCore.Cfg τ sig (ΛP (F := F)) 1 := sc (F := F)
abbrev Dp : Defs nD τ sig (Elt F) (ΛP (F := F)) := Pipeline.defs pcfgs defs₀
abbrev 𝒱₀ : Variants := Variants.none
abbrev rr (b : Ref sig .tc) : DevRef τ sig := Proc.devRef .tc b
abbrev adm : (p : Fin 1) → (pcfgs (F := F) p).Adm := fun p => (cfgs p).toPCfg_adm

variable (W : Valuation τ sig (Elt F))

/-! ## The seven operands at the valuation the region is entered with -/

abbrev w4 : Vec F S16384x64 .f32 := W (rr main_v4)
abbrev w5 : Vec F S16384x64 .f32 := W (rr main_v5)
abbrev w6 : Vec F S16384x64 .f32 := W (rr main_v6)
abbrev w7 : Vec F S192x192 .f32 := W (rr main_v7)
abbrev w8 : Vec F S1x192 .f32 := W (rr main_v8)
abbrev w9 : Vec F S192x1 .f32 := W (rr main_v9)
abbrev w10 : Vec F S1x1 .f32 := W (rr main_v10)

/-! ## The accumulator words after each point -/

/-- Grid point number `n` (the last for a number past it). -/
def ptc : ℕ → Fin cfg1.N
  | 0 => pt 0
  | 1 => pt 1
  | 2 => pt 2
  | _ => pt 3

theorem ptc_val (t : Fin cfg1.N) : ptc t.val = t := by
  obtain ⟨n, hn⟩ := t
  have h4 : n < 4 := lt_of_lt_of_eq hn N4
  match n, h4 with
  | 0, _ => rfl
  | 1, _ => rfl
  | 2, _ => rfl
  | 3, _ => rfl
  | n + 4, h => exact absurd h (by omega)

/-- The first accumulator word after point `n`. -/
def accPn : ℕ → F .f32
  | 0 => k1_pay1 (k1_pay8 (blk0 (ptc 0) (w4 W)))
  | n + 1 => k1_pay4 (k1_pay8 (blk0 (ptc (n + 1)) (w4 W))) (accPn n)
/-- The second. -/
def accQn : ℕ → F .f32
  | 0 => k1_pay2 (k1_pay9 (blk1 (ptc 0) (w5 W)))
  | n + 1 => k1_pay5 (k1_pay9 (blk1 (ptc (n + 1)) (w5 W))) (accQn n)
/-- The third. -/
def accRn : ℕ → F .f32
  | 0 => k1_pay3 (k1_pay10 (blk2 (ptc 0) (w6 W)))
  | n + 1 => k1_pay6 (k1_pay10 (blk2 (ptc (n + 1)) (w6 W))) (accRn n)

theorem accPn_first (t : Fin cfg1.N) (h : t.val = 0) : accPn W t.val = k1_pay1 (k1_pay8 (blk0 t (w4 W))) := by
  rw [h]; show k1_pay1 (k1_pay8 (blk0 (ptc 0) (w4 W))) = _; rw [← h, ptc_val]
theorem accQn_first (t : Fin cfg1.N) (h : t.val = 0) : accQn W t.val = k1_pay2 (k1_pay9 (blk1 t (w5 W))) := by
  rw [h]; show k1_pay2 (k1_pay9 (blk1 (ptc 0) (w5 W))) = _; rw [← h, ptc_val]
theorem accRn_first (t : Fin cfg1.N) (h : t.val = 0) : accRn W t.val = k1_pay3 (k1_pay10 (blk2 t (w6 W))) := by
  rw [h]; show k1_pay3 (k1_pay10 (blk2 (ptc 0) (w6 W))) = _; rw [← h, ptc_val]

theorem accPn_step (t : Fin cfg1.N) (h : t.val ≠ 0) : accPn W t.val = k1_pay4 (k1_pay8 (blk0 t (w4 W))) (accPn W (t.val - 1)) := by
  obtain ⟨n, hn⟩ := t
  cases n with
  | zero => exact absurd rfl h
  | succ n => show k1_pay4 (k1_pay8 (blk0 (ptc (n + 1)) (w4 W))) (accPn W n) = _; rw [show ptc (n + 1) = (⟨n + 1, hn⟩ : Fin cfg1.N) from ptc_val ⟨n + 1, hn⟩]; rfl
theorem accQn_step (t : Fin cfg1.N) (h : t.val ≠ 0) : accQn W t.val = k1_pay5 (k1_pay9 (blk1 t (w5 W))) (accQn W (t.val - 1)) := by
  obtain ⟨n, hn⟩ := t
  cases n with
  | zero => exact absurd rfl h
  | succ n => show k1_pay5 (k1_pay9 (blk1 (ptc (n + 1)) (w5 W))) (accQn W n) = _; rw [show ptc (n + 1) = (⟨n + 1, hn⟩ : Fin cfg1.N) from ptc_val ⟨n + 1, hn⟩]; rfl
theorem accRn_step (t : Fin cfg1.N) (h : t.val ≠ 0) : accRn W t.val = k1_pay6 (k1_pay10 (blk2 t (w6 W))) (accRn W (t.val - 1)) := by
  obtain ⟨n, hn⟩ := t
  cases n with
  | zero => exact absurd rfl h
  | succ n => show k1_pay6 (k1_pay10 (blk2 (ptc (n + 1)) (w6 W))) (accRn W n) = _; rw [show ptc (n + 1) = (⟨n + 1, hn⟩ : Fin cfg1.N) from ptc_val ⟨n + 1, hn⟩]; rfl

/-- After the last point the words are the regulariser's three sums. -/
theorem accP_eq : accP (w4 W) = accPn W 3 := rfl
theorem accQ_eq : accQ (w5 W) = accQn W 3 := rfl
theorem accR_eq : accR (w6 W) = accRn W 3 := rfl

/-! ## The proof data -/

/-- The accumulator between points: before the first point anything, after point `n` the three words. -/
def ΦS (c : Dev nD) (t : Fin (cfg1.N + 1)) : sProp 𝕄 :=
  iprop(∃ x : Vec F S3 .f32, ⌜0 < t.val → x = acc3 (accPn W (t.val - 1)) (accQn W (t.val - 1)) (accRn W (t.val - 1))⌝
    ∗ owns (c : Thread nD τ) (Memref.whole cc1_scratch0 : Memref sig .tc .smem S3 .f32) fullShare x)

/-- The proof data on core `c`: the arrays at the valuation; after the body each input's buffer at its block, the
    inference window's at the block the body computes, the regulariser window's at the regulariser; the accumulator
    as the invariant; nothing owed; the recorded pairs at or below the level the TensorCore's state asks. -/
def dats (_ : Fin 1) (c : Dev nD) : Dat τ (Elt F) (HIx 1) ℕ UU ℕ cfg1 c where
  A w := W (rr (Pipeline.arrRef spec1 w))
  after w t := match w with
    | ⟨0, _⟩ => blk0 t (w4 W)
    | ⟨1, _⟩ => blk1 t (w5 W)
    | ⟨2, _⟩ => blk2 t (w6 W)
    | ⟨3, _⟩ => blk3 t (w7 W)
    | ⟨4, _⟩ => blk4 t (w8 W)
    | ⟨5, _⟩ => blk5 t (w9 W)
    | ⟨6, _⟩ => blk6 t (w10 W)
    | ⟨7, _⟩ => infBlk t (w4 W) (w5 W) (w6 W) (w7 W) (w8 W) (w9 W) (w10 W)
    | ⟨8, _⟩ => kRegs (w4 W) (w5 W) (w6 W)
    | ⟨_ + 9, h⟩ => absurd h (Nat.not_lt.2 (Nat.le_add_left _ _))
  Φ t := ΦS W c t
  q _ := fullShare
  owed _ := 0
  recorded _ := {p | (Ksc (F := F)).lev ((T c : Thread nD τ), p.1) p.2 ≤ 8}

theorem after_0 (c : Dev nD) (t : Fin cfg1.N) : (dats (UU := UU) W 0 c).after 0 t = blk0 t (w4 W) := by dsimp only [dats]
theorem after_1 (c : Dev nD) (t : Fin cfg1.N) : (dats (UU := UU) W 0 c).after 1 t = blk1 t (w5 W) := by dsimp only [dats]
theorem after_2 (c : Dev nD) (t : Fin cfg1.N) : (dats (UU := UU) W 0 c).after 2 t = blk2 t (w6 W) := by dsimp only [dats]
theorem after_3 (c : Dev nD) (t : Fin cfg1.N) : (dats (UU := UU) W 0 c).after 3 t = blk3 t (w7 W) := by dsimp only [dats]
theorem after_4 (c : Dev nD) (t : Fin cfg1.N) : (dats (UU := UU) W 0 c).after 4 t = blk4 t (w8 W) := by dsimp only [dats]
theorem after_5 (c : Dev nD) (t : Fin cfg1.N) : (dats (UU := UU) W 0 c).after 5 t = blk5 t (w9 W) := by dsimp only [dats]
theorem after_6 (c : Dev nD) (t : Fin cfg1.N) : (dats (UU := UU) W 0 c).after 6 t = blk6 t (w10 W) := by dsimp only [dats]
theorem after_7 (c : Dev nD) (t : Fin cfg1.N) : (dats (UU := UU) W 0 c).after 7 t = infBlk t (w4 W) (w5 W) (w6 W) (w7 W) (w8 W) (w9 W) (w10 W) := by dsimp only [dats]
theorem after_8 (c : Dev nD) (t : Fin cfg1.N) : (dats (UU := UU) W 0 c).after 8 t = kRegs (w4 W) (w5 W) (w6 W) := by dsimp only [dats]

/-- Each input's current staging buffer holds its block at every point, fetched there or not. -/
theorem before_0 (c : Dev nD) (t : Fin cfg1.N) (d) : (dats (UU := UU) W 0 c).before 0 t d = blk0 t (w4 W) :=
  ((dats (UU := UU) W 0 c).before_in_eq_fetched 0 rfl (fun _ => rfl) (fun _ _ _ => rfl) (fun t => by rw [after_0]; rfl) t d).trans (by unfold Dat.fetched Dat.blockOf; rfl)
theorem before_1 (c : Dev nD) (t : Fin cfg1.N) (d) : (dats (UU := UU) W 0 c).before 1 t d = blk1 t (w5 W) :=
  ((dats (UU := UU) W 0 c).before_in_eq_fetched 1 rfl (fun _ => rfl) (fun _ _ _ => rfl) (fun t => by rw [after_1]; rfl) t d).trans (by unfold Dat.fetched Dat.blockOf; rfl)
theorem before_2 (c : Dev nD) (t : Fin cfg1.N) (d) : (dats (UU := UU) W 0 c).before 2 t d = blk2 t (w6 W) :=
  ((dats (UU := UU) W 0 c).before_in_eq_fetched 2 rfl (fun _ => rfl) (fun _ _ _ => rfl) (fun t => by rw [after_2]; rfl) t d).trans (by unfold Dat.fetched Dat.blockOf; rfl)
theorem before_3 (c : Dev nD) (t : Fin cfg1.N) (d) : (dats (UU := UU) W 0 c).before 3 t d = blk3 t (w7 W) :=
  ((dats (UU := UU) W 0 c).before_in_eq_fetched 3 rfl (fun _ => rfl) (fun _ _ _ => rfl) (fun t => by rw [after_3]; rfl) t d).trans (by unfold Dat.fetched Dat.blockOf; rfl)
theorem before_4 (c : Dev nD) (t : Fin cfg1.N) (d) : (dats (UU := UU) W 0 c).before 4 t d = blk4 t (w8 W) :=
  ((dats (UU := UU) W 0 c).before_in_eq_fetched 4 rfl (fun _ => rfl) (fun _ _ _ => rfl) (fun t => by rw [after_4]; rfl) t d).trans (by unfold Dat.fetched Dat.blockOf; rfl)
theorem before_5 (c : Dev nD) (t : Fin cfg1.N) (d) : (dats (UU := UU) W 0 c).before 5 t d = blk5 t (w9 W) :=
  ((dats (UU := UU) W 0 c).before_in_eq_fetched 5 rfl (fun _ => rfl) (fun _ _ _ => rfl) (fun t => by rw [after_5]; rfl) t d).trans (by unfold Dat.fetched Dat.blockOf; rfl)
theorem before_6 (c : Dev nD) (t : Fin cfg1.N) (d) : (dats (UU := UU) W 0 c).before 6 t d = blk6 t (w10 W) :=
  ((dats (UU := UU) W 0 c).before_in_eq_fetched 6 rfl (fun _ => rfl) (fun _ _ _ => rfl) (fun t => by rw [after_6]; rfl) t d).trans (by unfold Dat.fetched Dat.blockOf; rfl)

/-! ## The body obligation -/

/-- The regulariser window is idle except at the last point, -/
theorem idle8_iff (t : Fin cfg1.N) : cfg1.idle 8 (cfg1.grid.coords t) = true ↔ t.val ≠ 3 := by
  refine Iff.trans ?_ (not_congr (hcond3 t))
  show (!(k1_cond3 (grid1.coords t) == 1#1)) = true ↔ ¬ (k1_cond3 (grid1.coords t) = 1#1)
  simp

/-- What the body is called with at point `t`, -/
def bodyPre (c : Dev nD) (t : Fin cfg1.N) : sProp 𝕄 :=
  iprop(ΦS W c t.castSucc ∗ (dats (UU := UU) W 0 c).owesAt none t.castSucc
    ∗ (∃ d, owns (c : Thread nD τ) ((cfg1.win 0).stage (cfg1.slots t 0)) fullShare ((dats (UU := UU) W 0 c).before 0 t d))
    ∗ (∃ d, owns (c : Thread nD τ) ((cfg1.win 1).stage (cfg1.slots t 1)) fullShare ((dats (UU := UU) W 0 c).before 1 t d))
    ∗ (∃ d, owns (c : Thread nD τ) ((cfg1.win 2).stage (cfg1.slots t 2)) fullShare ((dats (UU := UU) W 0 c).before 2 t d))
    ∗ (∃ d, owns (c : Thread nD τ) ((cfg1.win 3).stage (cfg1.slots t 3)) fullShare ((dats (UU := UU) W 0 c).before 3 t d))
    ∗ (∃ d, owns (c : Thread nD τ) ((cfg1.win 4).stage (cfg1.slots t 4)) fullShare ((dats (UU := UU) W 0 c).before 4 t d))
    ∗ (∃ d, owns (c : Thread nD τ) ((cfg1.win 5).stage (cfg1.slots t 5)) fullShare ((dats (UU := UU) W 0 c).before 5 t d))
    ∗ (∃ d, owns (c : Thread nD τ) ((cfg1.win 6).stage (cfg1.slots t 6)) fullShare ((dats (UU := UU) W 0 c).before 6 t d))
    ∗ (∃ d, owns (c : Thread nD τ) ((cfg1.win 7).stage (cfg1.slots t 7)) fullShare ((dats (UU := UU) W 0 c).before 7 t d))
    ∗ (∃ d, owns (c : Thread nD τ) ((cfg1.win 8).stage (cfg1.slots t 8)) fullShare ((dats (UU := UU) W 0 c).before 8 t d)))

/-- and what it returns. -/
def bodyPost (c : Dev nD) (t : Fin cfg1.N) : sProp 𝕄 :=
  iprop(ΦS W c t.succ ∗ (dats (UU := UU) W 0 c).owesAt none t.succ
    ∗ owns (c : Thread nD τ) ((cfg1.win 0).stage (cfg1.slots t 0)) fullShare ((dats (UU := UU) W 0 c).after 0 t)
    ∗ owns (c : Thread nD τ) ((cfg1.win 1).stage (cfg1.slots t 1)) fullShare ((dats (UU := UU) W 0 c).after 1 t)
    ∗ owns (c : Thread nD τ) ((cfg1.win 2).stage (cfg1.slots t 2)) fullShare ((dats (UU := UU) W 0 c).after 2 t)
    ∗ owns (c : Thread nD τ) ((cfg1.win 3).stage (cfg1.slots t 3)) fullShare ((dats (UU := UU) W 0 c).after 3 t)
    ∗ owns (c : Thread nD τ) ((cfg1.win 4).stage (cfg1.slots t 4)) fullShare ((dats (UU := UU) W 0 c).after 4 t)
    ∗ owns (c : Thread nD τ) ((cfg1.win 5).stage (cfg1.slots t 5)) fullShare ((dats (UU := UU) W 0 c).after 5 t)
    ∗ owns (c : Thread nD τ) ((cfg1.win 6).stage (cfg1.slots t 6)) fullShare ((dats (UU := UU) W 0 c).after 6 t)
    ∗ owns (c : Thread nD τ) ((cfg1.win 7).stage (cfg1.slots t 7)) fullShare ((dats (UU := UU) W 0 c).after 7 t)
    ∗ (dats (UU := UU) W 0 c).leavesExact 8 t)

theorem leavesExact_live {cfg : Cfg sig Λ₀} {c : Dev nD} (dat : Dat τ (Elt F) (HIx 1) ℕ UU ℕ cfg c) (w : Fin cfg.W) (t : Fin cfg.N)
    (hi : cfg.idle w (cfg.grid.coords t) = false) :
    dat.leavesExact w t = owns (c : Thread nD τ) ((cfg.win w).stage (cfg.slots t w)) fullShare (dat.after w t) := by
  unfold Dat.leavesExact; rw [hi]

set_option maxHeartbeats 1600000 in
/-- The body at any point: the inputs' memrefs hold their blocks; the grid coordinate says which of the three cases
    the point is in; the accumulator is what the point before left; the TensorCore owes nothing throughout. -/
theorem sound_body (c : Dev nD) (t : Fin cfg1.N) :
    bodyPre (UU := UU) W c t ⊢ wp frame (wpE (defs₀ (F := F)) Variants.none c none) Set.univ (bodyAt1 t) (fun _ => bodyPost (UU := UU) W c t) := by
  unfold bodyPre bodyPost bodyAt1
  simp only [before_0, before_1, before_2, before_3, before_4, before_5, before_6]
  rw [show (dats (UU := UU) W 0 c).owesAt none t.succ = (dats (UU := UU) W 0 c).owesAt none t.castSucc from rfl,
    after_0, after_1, after_2, after_3, after_4, after_5, after_6, after_7]
  have hN : t.val < 4 := lt_of_lt_of_eq t.isLt N4
  unfold ΦS
  by_cases h0 : t.val = 0
  · -- the first point
    have hc1 : cond1 (grid1.coords t) := (hcond1 t).mpr h0
    have hc2 : ¬cond2 (grid1.coords t) := fun h => (hcond2 t).mp h h0
    have hc3 : ¬cond3 (grid1.coords t) := fun h => by have := (hcond3 t).mp h; omega
    have i8 : cfg1.idle 8 (cfg1.grid.coords t) = true := (idle8_iff t).mpr (by omega)
    have f8 : (cfg1.win 8).flush t = false := Bool.eq_false_iff.mpr fun h => by have := (flush1_8 t).mp h; omega
    rw [Dat.leavesExact_idle _ 8 t i8 f8]
    iintro ⟨⟨%x, -, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runFirst (UU := UU) c (grid1.coords t) _ _ _ _ _ _ _ _ _ _ _ _ _ _ _ _ _ _ _ _ hc1 hc2 hc3
      (blk0 t (w4 W)) (blk1 t (w5 W)) (blk2 t (w6 W)) (blk3 t (w7 W)) (blk4 t (w8 W)) (blk5 t (w9 W)) (blk6 t (w10 W))
      ((dats (UU := UU) W 0 c).before 7 t d7) ((dats (UU := UU) W 0 c).before 8 t d8) x (accPn W 0) (accPn W 0) (accPn W 0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS]
    · iexists _; isplitr; swap; · iexact HS
      ipureintro; intro _
      rw [show t.succ.val - 1 = t.val from by simp, accPn_first W t h0, accQn_first W t h0, accRn_first W t h0]
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · unfold infBlk; iexact H7
    iexists d8; iexact H8
  · have hc1 : ¬cond1 (grid1.coords t) := fun h => h0 ((hcond1 t).mp h)
    have hc2 : cond2 (grid1.coords t) := (hcond2 t).mpr h0
    by_cases h3 : t.val = 3
    · -- the last point
      have hc3 : cond3 (grid1.coords t) := (hcond3 t).mpr h3
      have i8 : cfg1.idle 8 (cfg1.grid.coords t) = false := by
        rw [Bool.eq_false_iff]; intro h; exact (idle8_iff t).mp h h3
      rw [leavesExact_live _ 8 t i8, after_8]
      iintro ⟨⟨%x, %hx, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain rfl := hx (by show 0 < t.val; omega)
      iapply (runLast (UU := UU) c (grid1.coords t) _ _ _ _ _ _ _ _ _ _ _ _ _ _ _ _ _ _ _ _ hc1 hc2 hc3
        (blk0 t (w4 W)) (blk1 t (w5 W)) (blk2 t (w6 W)) (blk3 t (w7 W)) (blk4 t (w8 W)) (blk5 t (w9 W)) (blk6 t (w10 W))
        ((dats (UU := UU) W 0 c).before 7 t d7) ((dats (UU := UU) W 0 c).before 8 t d8) (fun _ => accPn W 0)
        (accPn W (t.val - 1)) (accQn W (t.val - 1)) (accRn W (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS]
      · iexists _; isplitr; swap; · iexact HS
        ipureintro; intro _
        rw [show t.succ.val - 1 = t.val from by simp, accPn_step W t h0, accQn_step W t h0, accRn_step W t h0]
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · unfold infBlk; iexact H7
      unfold kRegs
      rw [accP_eq, accQ_eq, accR_eq, ← h3, accPn_step W t h0, accQn_step W t h0, accRn_step W t h0]
      iexact H8
    · -- a middle point
      have hc3 : ¬cond3 (grid1.coords t) := fun h => h3 ((hcond3 t).mp h)
      have i8 : cfg1.idle 8 (cfg1.grid.coords t) = true := (idle8_iff t).mpr h3
      have f8 : (cfg1.win 8).flush t = false := Bool.eq_false_iff.mpr fun h => by have := (flush1_8 t).mp h; omega
      rw [Dat.leavesExact_idle _ 8 t i8 f8]
      iintro ⟨⟨%x, %hx, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain rfl := hx (by show 0 < t.val; omega)
      iapply (runMid (UU := UU) c (grid1.coords t) _ _ _ _ _ _ _ _ _ _ _ _ _ _ _ _ _ _ _ _ hc1 hc2 hc3
        (blk0 t (w4 W)) (blk1 t (w5 W)) (blk2 t (w6 W)) (blk3 t (w7 W)) (blk4 t (w8 W)) (blk5 t (w9 W)) (blk6 t (w10 W))
        ((dats (UU := UU) W 0 c).before 7 t d7) ((dats (UU := UU) W 0 c).before 8 t d8) (fun _ => accPn W 0)
        (accPn W (t.val - 1)) (accQn W (t.val - 1)) (accRn W (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS]
      · iexists _; isplitr; swap; · iexact HS
        ipureintro; intro _
        rw [show t.succ.val - 1 = t.val from by simp, accPn_step W t h0, accQn_step W t h0, accRn_step W t h0]
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · unfold infBlk; iexact H7
      iexists d8; iexact H8

/-- The library's body obligation, at every point. -/
theorem body_obligation (c : Dev nD) : BodyObligation (dats (UU := UU) W 0 c) (defs₀ (F := F)) 𝒱₀ (none : HIx 1) Set.univ := fun t => by
  rw [bigSep_W1, bigSep_W1]
  exact sound_body (UU := UU) W c t

end Cert.KernelIdeal.TcRegion

end
-- ==== Proof.TcRegionFin.lean ====
/- What the TensorCore region's two result arrays hold after the four write-backs: the inference array is the
   blocks the body computes, tiled; the regulariser array is what the last point stores. Every window's array after
   the region is what the valuation after the region says. -/
import proofs.«203152_g22136261444366_cont_8to1_1253_39_alg».proof.Proof.KFun
import proofs.«203152_g22136261444366_cont_8to1_1253_39_alg».proof.Proof.TcRegionData
import proofs.«203152_g22136261444366_cont_8to1_1253_39_alg».proof.Proof.KVtc
import Idealize.ShloMosaic.Lib.StableHlo.Run
import Idealize.ShloMosaic.Lib.Pipeline.Regions
import Idealize.ShloMosaic.Lib.Pipeline.Frame
import Idealize.ShloMosaic.Lib.Pipeline.Value

set_option maxRecDepth 16384

noncomputable section

namespace Cert.KernelIdeal.TcRegion

open Cert.KernelIdeal.Gen Cert.KernelIdeal.TcBody Cert.KernelIdeal.KFun
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs Dat Cfg Window BodyObligation cellOf)
open Cert.Proof.KI (Vtc tc_frame Vtc_inf Vtc_regs)

variable {F : FTy → Type} [FloatOps F]
variable {UU : Type} [URA UU]

local notation "𝕄" => MT nD τ sig (HIx 1) (Elt F) ℕ UU ℕ

variable (W : Valuation τ sig (Elt F))

theorem Vtc_of_ne (b : DevRef τ sig) (h0 : b ≠ rr main_v11_0) (h1 : b ≠ rr main_v11_1) : Vtc W b = W b := tc_frame W b ⟨h0, h1⟩

/-! ## The result windows' block indices -/

theorem index_7 : ∀ t : Fin cfg1.N, win1_7.index t (0 : Fin 2) = t.val ∧ win1_7.index t (1 : Fin 2) = 0 :=
  (by decide +kernel : ∀ t : Fin grid1.N, _)
theorem index_8 : ∀ t : Fin cfg1.N, win1_8.index t (0 : Fin 2) = 0 ∧ win1_8.index t (1 : Fin 2) = 0 :=
  (by decide +kernel : ∀ t : Fin grid1.N, _)

/-- The last grid point. -/
abbrev p3 : Fin cfg1.N := pt 3 (by decide)

/-! ## Where an element of a result window's block sits in its array -/

theorem emb7_0 (t : Fin cfg1.N) (y : S4096x1.Idx) : ((((cfg1.win 7).blk t).view.emb y) 0 : ℕ) = t.val * 4096 + (y 0).val := by
  show win1_7.index t (0 : Fin 2) * 4096 + 1 * (y 0).val = _
  rw [(index_7 t).1]; omega
theorem emb7_1 (t : Fin cfg1.N) (y : S4096x1.Idx) : ((((cfg1.win 7).blk t).view.emb y) 1 : ℕ) = (y 1).val := by
  show win1_7.index t (1 : Fin 2) * 1 + 1 * (y 1).val = _
  rw [(index_7 t).2]; omega
theorem emb8 (t : Fin cfg1.N) (y : S1x1.Idx) : ((cfg1.win 8).blk t).view.emb y = y := by
  refine funext fun a => Fin.ext ?_
  match a with
  | ⟨0, _⟩ =>
    show win1_8.index t (0 : Fin 2) * 1 + 1 * (y 0).val = (y 0).val
    rw [(index_8 t).1]; omega
  | ⟨1, _⟩ =>
    show win1_8.index t (1 : Fin 2) * 1 + 1 * (y 1).val = (y 1).val
    rw [(index_8 t).2]; omega

theorem ptOf_emb7 (t : Fin cfg1.N) (y : S4096x1.Idx) : ptOf (((cfg1.win 7).blk t).view.emb y) = t := by
  have hy0 : (y 0).val < 4096 := (y 0).isLt
  refine Fin.ext ?_
  show ((((cfg1.win 7).blk t).view.emb y) 0 : ℕ) / 4096 = t.val
  rw [emb7_0]; omega

theorem rowIn_emb7 (t : Fin cfg1.N) (y : S4096x1.Idx) : rowIn (((cfg1.win 7).blk t).view.emb y) = y := by
  have hy0 : (y 0).val < 4096 := (y 0).isLt
  have hy1 : (y 1).val < 1 := (y 1).isLt
  refine funext fun a => Fin.ext ?_
  match a with
  | ⟨0, _⟩ =>
    show ((((cfg1.win 7).blk t).view.emb y) 0 : ℕ) % 4096 = (y 0).val
    rw [emb7_0]; omega
  | ⟨1, _⟩ =>
    show ((((cfg1.win 7).blk t).view.emb y) 1 : ℕ) % 1 = (y 1).val
    rw [emb7_1]; omega

theorem emb7_rowIn (i : S16384x1.Idx) : ((cfg1.win 7).blk (ptOf i)).view.emb (rowIn i) = i := by
  have hi1 : (i 1).val < 1 := (i 1).isLt
  refine funext fun a => Fin.ext ?_
  match a with
  | ⟨0, _⟩ =>
    show ((((cfg1.win 7).blk (ptOf i)).view.emb (rowIn i)) 0 : ℕ) = (i 0).val
    rw [emb7_0]
    show (i 0).val / 4096 * 4096 + (i 0).val % 4096 = (i 0).val
    omega
  | ⟨1, _⟩ =>
    show ((((cfg1.win 7).blk (ptOf i)).view.emb (rowIn i)) 1 : ℕ) = (i 1).val
    rw [emb7_1]
    show (i 1).val % 1 = (i 1).val
    omega

/-- Every row of the inference array is in the block of its grid point. -/
theorem cover7 (i : S16384x1.Idx) : i ∈ ((cfg1.win 7).blk (ptOf i)).view.set := by
  have h := ((cfg1.win 7).blk (ptOf i)).view.emb_mem_set (rowIn i)
  rwa [emb7_rowIn] at h

/-- The regulariser array is its window's one block. -/
theorem cover8 (i : S1x1.Idx) : i ∈ ((cfg1.win 8).blk p3).view.set := by
  have h := ((cfg1.win 8).blk p3).view.emb_mem_set i
  rwa [emb8] at h

/-! ## What the result arrays hold after the write-backs -/

/-- Block `t` of the inference result is the block the body computes at point `t`. -/
theorem read_blk7_kInf (t : Fin cfg1.N) :
    ((cfg1.win 7).blk t).view.read (Elt F) (kInf (w4 W) (w5 W) (w6 W) (w7 W) (w8 W) (w9 W) (w10 W))
      = infBlk t (w4 W) (w5 W) (w6 W) (w7 W) (w8 W) (w9 W) (w10 W) := by
  funext y
  show kInf (w4 W) (w5 W) (w6 W) (w7 W) (w8 W) (w9 W) (w10 W) (((cfg1.win 7).blk t).view.emb y) = _
  unfold kInf
  rw [ptOf_emb7, rowIn_emb7]

/-- The regulariser window's one block is all of its array. -/
theorem read_blk8 (t : Fin cfg1.N) (A : Vec F S1x1 .f32) : ((cfg1.win 8).blk t).view.read (Elt F) A = A := by
  funext i
  show A (((cfg1.win 8).blk t).view.emb i) = A i
  rw [emb8]

/-- The inference array after the four write-backs. -/
theorem arrAt_7 (c : Dev nD) : (dats (UU := UU) W 0 c).arrAt 7 cfg1.N = kInf (w4 W) (w5 W) (w6 W) (w7 W) (w8 W) (w9 W) (w10 W) := by
  refine Dat.arrAt_eq_of_cover (dats (UU := UU) W 0 c) 7 (kInf (w4 W) (w5 W) (w6 W) (w7 W) (w8 W) (w9 W) (w10 W)) (fun t _ => ?_)
    (fun i => ⟨ptOf i, flush1_7 _, cover7 i⟩)
  rw [read_blk7_kInf]
  show (dats (UU := UU) W 0 c).after 7 t = _
  rw [after_7]

/-- The regulariser array after the last point's write-back. -/
theorem arrAt_8 (c : Dev nD) : (dats (UU := UU) W 0 c).arrAt 8 cfg1.N = kRegs (w4 W) (w5 W) (w6 W) := by
  refine Dat.arrAt_eq_of_cover (dats (UU := UU) W 0 c) 8 (kRegs (w4 W) (w5 W) (w6 W)) (fun t _ => ?_)
    (fun i => ⟨p3, (flush1_8 p3).mpr rfl, cover8 i⟩)
  rw [read_blk8]
  show (dats (UU := UU) W 0 c).after 8 t = _
  rw [after_8]

/-- Every window's array after the region is what the valuation after the region says. -/
theorem arrAt_fin (c : Dev nD) (w : Fin cfg1.W) :
    (dats (UU := UU) W 0 c).arrAt w cfg1.N = Vtc W (rr (Pipeline.arrRef spec1 w)) := by
  match w with
  | ⟨0, _⟩ => exact ((dats (UU := UU) W 0 c).arrAt_in 0 rfl _).trans (Vtc_of_ne W (rr main_v4) (by decide) (by decide)).symm
  | ⟨1, _⟩ => exact ((dats (UU := UU) W 0 c).arrAt_in 1 rfl _).trans (Vtc_of_ne W (rr main_v5) (by decide) (by decide)).symm
  | ⟨2, _⟩ => exact ((dats (UU := UU) W 0 c).arrAt_in 2 rfl _).trans (Vtc_of_ne W (rr main_v6) (by decide) (by decide)).symm
  | ⟨3, _⟩ => exact ((dats (UU := UU) W 0 c).arrAt_in 3 rfl _).trans (Vtc_of_ne W (rr main_v7) (by decide) (by decide)).symm
  | ⟨4, _⟩ => exact ((dats (UU := UU) W 0 c).arrAt_in 4 rfl _).trans (Vtc_of_ne W (rr main_v8) (by decide) (by decide)).symm
  | ⟨5, _⟩ => exact ((dats (UU := UU) W 0 c).arrAt_in 5 rfl _).trans (Vtc_of_ne W (rr main_v9) (by decide) (by decide)).symm
  | ⟨6, _⟩ => exact ((dats (UU := UU) W 0 c).arrAt_in 6 rfl _).trans (Vtc_of_ne W (rr main_v10) (by decide) (by decide)).symm
  | ⟨7, _⟩ => exact (arrAt_7 (UU := UU) W c).trans (Vtc_inf W).symm
  | ⟨8, _⟩ => exact (arrAt_8 (UU := UU) W c).trans (Vtc_regs W).symm
  | ⟨n + 9, h⟩ => exact absurd h (Nat.not_lt.2 (Nat.le_add_left _ _))

end Cert.KernelIdeal.TcRegion

end
-- ==== Proof.TcRegionSeg.lean ====
/- The TensorCore region as the pipeline library's record: the launch kit's layout, the body obligation, and the
   kernel's protocol as entailments around the thread state — entered from every unscoped array of the TensorCore held
   at a valuation and the TensorCore owing nothing; the windows' arrays enter the pipeline, the other arrays bypass
   it; left with the arrays at the valuation after the region. -/
import proofs.«203152_g22136261444366_cont_8to1_1253_39_alg».proof.Proof.KFun
import proofs.«203152_g22136261444366_cont_8to1_1253_39_alg».proof.Proof.TcRegionFin
import Idealize.ShloMosaic.Lib.StableHlo.Run
import Idealize.ShloMosaic.Lib.Pipeline.Regions
import Idealize.ShloMosaic.Lib.Pipeline.Frame
import Idealize.ShloMosaic.Lib.Pipeline.Value

set_option maxRecDepth 16384

noncomputable section

namespace Cert.KernelIdeal.TcRegion

open Cert.KernelIdeal.Gen Cert.KernelIdeal.TcBody Cert.KernelIdeal.KFun
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs Dat Cfg Window BodyObligation cellOf)
open Cert.Proof.KI (Vtc tc_frame Vtc_inf Vtc_regs)

variable {F : FTy → Type} [FloatOps F]
variable {UU : Type} [URA UU]

local notation "𝕄" => MT nD τ sig (HIx 1) (Elt F) ℕ UU ℕ

variable (W : Valuation τ sig (Elt F))

/-- The TensorCore's `owes` as its state between the SparseCore call and the end keeps it: nothing owed, the
    recorded pairs at or below level 8. -/
def owesT (c : Dev nD) : sProp 𝕄 :=
  iprop(∃ Wt, ⌜(Ksc (F := F)).WBelow (T c) Wt 8⌝ ∗ owes (T c) (0 : CellTallies nD τ sig (HIx 1)) Wt)

theorem scratch_to_owns (c : Dev nD) (f : Buf (Elt F) ((c : Thread nD τ).loc cc1_scratch0)) :
    ((((c : Thread nD τ).loc cc1_scratch0) ↦{fullShare} f) : sProp 𝕄)
      ⊢ owns (c : Thread nD τ) (Memref.whole cc1_scratch0 : Memref sig .tc .smem S3 .f32) fullShare f := by
  rw [owns_whole_eq]
  iintro H; iexists f; isplitr; · ipureintro; rfl
  iexact H

theorem owns_to_scratch (c : Dev nD) (x : Vec F S3 .f32) :
    (owns (c : Thread nD τ) (Memref.whole cc1_scratch0 : Memref sig .tc .smem S3 .f32) fullShare x : sProp 𝕄)
      ⊢ iprop(∃ f : Buf (Elt F) ((c : Thread nD τ).loc cc1_scratch0), ((c : Thread nD τ).loc cc1_scratch0) ↦{fullShare} f) := by
  rw [owns_whole_eq]
  iintro ⟨%f, -, H⟩; iexists f; iexact H

/-- The arrays no window stages are the same at the valuation after the region. -/
theorem rest_eq (c : Dev nD) :
    (Pipeline.unscopedRest spec1 c (fun b => W (rr b)) : sProp 𝕄) = Pipeline.unscopedRest spec1 c (fun b => Vtc W (rr b)) := by
  unfold Pipeline.unscopedRest
  refine bigSep_congr fun b hb => ?_
  have hb' := (Finset.mem_sdiff.mp hb).2
  have h0 : b ≠ main_v11_0 := fun e => hb' (Finset.mem_image.mpr ⟨7, Finset.mem_univ _, by rw [e]⟩)
  have h1 : b ≠ main_v11_1 := fun e => hb' (Finset.mem_image.mpr ⟨8, Finset.mem_univ _, by rw [e]⟩)
  dsimp only
  rw [Vtc_of_ne W (rr b) (StableHlo.devRef_ne_of_ne h0) (StableHlo.devRef_ne_of_ne h1)]

/-- The windows' arrays after the region, as the buffers behind them at the valuation after the region. -/
theorem arrays_fin (c : Dev nD) :
    (dats (UU := UU) W 0 c).arrays ((dats (UU := UU) W 0 c).arrAt · (Pipeline.pin (pcfgs (F := F)) adm 0).N)
      = bigSep Finset.univ fun w : Fin cfg1.W => ((((c : Thread nD τ).loc (Pipeline.arrRef spec1 w)) ↦{fullShare} Vtc W (rr (Pipeline.arrRef spec1 w))) : sProp 𝕄) := by
  rw [Pipeline.arrays_eq (Pipeline.pin (pcfgs (F := F)) adm) (dats (UU := UU) W) 0 c launch1.arr_whole ((dats (UU := UU) W 0 c).share_full fun _ => rfl)]
  exact bigSep_congr fun w _ => congrArg _ (arrAt_fin (UU := UU) W c w)

/-- ENTRY. -/
theorem hentry (c : Dev nD) :
    iprop((held (T c) (ucRefs τ sig) W ∗ owesT (F := F) (UU := UU) c) ∗ Pipeline.ownSems0 (fun k : PEmpty => k.elim) c ∗ levAts ((Ksc (F := F)).L (nD := nD)) (Ksc (F := F)).lev)
      ⊢ |={Set.univ}=> iprop((dats (UU := UU) W 0 c).arrays ((dats (UU := UU) W 0 c).arrAt · 0) ∗ Pipeline.prefHeld (pcfgs (F := F) 0).pre c (fun _ => fullShare) (adm (F := F) 0).1
          ∗ (dats (UU := UU) W 0 c).owesAt none 0 ∗ iprop(emp) ∗ Pipeline.unscopedRest spec1 c (fun b => W (rr b))) := by
  rw [show held (T c) (ucRefs τ sig) W = (unscopedBufs c (fun b => W (rr b)) : sProp 𝕄) from (Pipeline.unscopedBufs_held c W).symm]
  have hsplit := Pipeline.arrays_of_unscopedBufs (pcfgs (F := F)) adm (dats (UU := UU) W) launch1.win launch1.arr_whole c
    ((dats (UU := UU) W 0 c).share_full fun _ => rfl) (fun b => W (rr b)) fun _ => rfl
  unfold owesT
  iintro ⟨⟨Hub, ⟨%Wt, %hWt, HO⟩⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    iexists Wt; isplitr; · ipureintro; exact fun p hp => Or.inl (hWt p (Finset.mem_coe.mp hp))
    iexact HO
  isplitr; · iempintro
  iexact Hrest

/-- The invariant at the first point: the accumulator at anything. -/
theorem hin (c : Dev nD) :
    iprop(iprop(emp) ∗ Pipeline.prefHeld (pcfgs (F := F) 0).pre c (fun _ => fullShare) (adm (F := F) 0).1 ∗ Pipeline.scopedRest spec1 c) ⊢ (ΦS (UU := UU) W c 0 : sProp 𝕄) := by
  rw [scopedRest1_eq]
  unfold ΦS
  iintro ⟨-, -, ⟨%f, Hs⟩⟩
  iexists f; isplitr; · ipureintro; intro h; exact absurd h (Nat.lt_irrefl 0)
  iapply (scratch_to_owns c f); iexact Hs

/-- The invariant at the last point gives the accumulator back. -/
theorem hout (c : Dev nD) :
    (ΦS (UU := UU) W c (Fin.last cfg1.N) : sProp 𝕄) ⊢ iprop(iprop(emp) ∗ Pipeline.ownSems0 (fun k : PEmpty => k.elim) c ∗ Pipeline.scopedRest spec1 c) := by
  rw [scopedRest1_eq, Pipeline.ownSems0_none nD τ sig (Elt F) (HIx 1) ℕ UU ℕ c]
  unfold ΦS
  iintro ⟨%x, -, Hs⟩
  isplitr; · iempintro
  isplitr; · iempintro
  iapply (owns_to_scratch c x); iexact Hs

/-- EXIT. -/
theorem hexit (c : Dev nD) :
    iprop((dats (UU := UU) W 0 c).arrays ((dats (UU := UU) W 0 c).arrAt · (Pipeline.pin (pcfgs (F := F)) adm 0).N)
        ∗ (dats (UU := UU) W 0 c).owesAt none (Fin.last (Pipeline.pin (pcfgs (F := F)) adm 0).N) ∗ iprop(emp) ∗ Pipeline.unscopedRest spec1 c (fun b => W (rr b)))
      ⊢ |={Set.univ}=> iprop(held (T c) (ucRefs τ sig) (Vtc W) ∗ owesT (F := F) (UU := UU) c) := by
  have hU : (unscopedBufs c (fun b => Vtc W (rr b)) : sProp 𝕄) = _ :=
    Pipeline.unscopedBufs_split (Pipeline.pin (pcfgs (F := F)) adm) 0 launch1.win.arr_unscoped launch1.win.arr_inj c (fun b => Vtc W (rr b))
  rw [arrays_fin, rest_eq, show held (T c) (ucRefs τ sig) (Vtc W) = (unscopedBufs c (fun b => Vtc W (rr b)) : sProp 𝕄) from (Pipeline.unscopedBufs_held c (Vtc W)).symm, hU]
  unfold owesT
  iintro ⟨Ha, ⟨%W', %hW', HO⟩, -, HZ⟩
  imodintro
  isplitr [HO]
  · isplitl [Ha]; · iexact Ha
    iexact HZ
  · iexists W'; isplitr; swap; · iexact HO
    ipureintro
    intro p hp
    rcases hW' (Finset.mem_coe.mpr hp) with h | ⟨w, s, rfl⟩
    · exact h
    · exact Nat.zero_le _

-- the record's fields are stated over `pin pcfgs adm 0`, which is `cfg1` up to unfolding plain definitions
set_option backward.isDefEq.respectTransparency.types false in
/-- THE REGION: the launch kit's layout, no semaphore of the kernel's own, the body obligation, and the four
    entailments above. -/
def reg : Pipeline.RegionSeg (pcfgs (F := F)) adm (dats (UU := UU) W) (none : HIx 1) defs₀ 𝒱₀ ((Ksc (F := F)).L (nD := nD)) (Ksc (F := F)).lev 0 where
  win := launch1.win.to₀
  block_pos := launch1.block_pos
  stage_whole := launch1.stage_whole
  K := PEmpty
  osem := fun k => k.elim
  ho := Pipeline.OwnSemFacts.none _
  hbody c := (body_obligation (UU := UU) W c).loose
  hwaits := Pipeline.hwaits_of_owed_zero _ _ _ _ _ _ 0 fun _ _ => rfl
  pre c := iprop(held (T c) (ucRefs τ sig) W ∗ owesT (F := F) (UU := UU) c)
  post c := iprop(held (T c) (ucRefs τ sig) (Vtc W) ∗ owesT (F := F) (UU := UU) c)
  X _ := iprop(emp)
  Y _ := iprop(emp)
  Z c := Pipeline.unscopedRest spec1 c (fun b => W (rr b))
  hentry c := hentry (UU := UU) W c
  hin c := hin (UU := UU) W c
  hout c := hout (UU := UU) W c
  hexit c := hexit (UU := UU) W c

end Cert.KernelIdeal.TcRegion

end
-- ==== Proof.TcRegion.lean ====
/- The TensorCore region's rule inside the SparseCore program, as @main applies it at the custom call: from the
   TensorCore's arrays held at a valuation, to the same arrays with the two results at the pure functions of the seven
   operands. With it the launch element of the pipeline's factor of the ghost state and what it funds. -/
import proofs.«203152_g22136261444366_cont_8to1_1253_39_alg».proof.Proof.KFun
import proofs.«203152_g22136261444366_cont_8to1_1253_39_alg».proof.Proof.TcRegionSeg
import proofs.«203152_g22136261444366_cont_8to1_1253_39_alg».proof.Proof.GhostTypes
import Idealize.ShloMosaic.Lib.StableHlo.Run
import Idealize.ShloMosaic.Lib.Pipeline.Regions
import Idealize.ShloMosaic.Lib.Pipeline.Frame
import Idealize.ShloMosaic.Lib.Pipeline.Value

set_option maxRecDepth 16384

noncomputable section

namespace Cert.KernelIdeal.TcRegion

open Cert.KernelIdeal.Gen Cert.KernelIdeal.TcBody Cert.KernelIdeal.KFun
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs Dat Cfg Window BodyObligation cellOf)
open Cert.Proof.KI (Vtc tc_frame Vtc_inf Vtc_regs)

variable {F : FTy → Type} [FloatOps F]
variable {UU : Type} [URA UU]

local notation "𝕄" => MT nD τ sig (HIx 1) (Elt F) ℕ UU ℕ

/-! ## The launch element of the pipeline's factor, and what it funds -/

/-- The launch element of the pipeline's factor: its staging cells and its transfers' duty tokens. -/
def u_t : UR sig nD τ := initOf (Pipeline.cells cfgs cellOf_inj) (Pipeline.launchToks cfgs cellOf_inj)

/-- What the launch hands the TensorCore for the region: its staging cells' ghost state and duty tokens. -/
def G_t (EP : Emb (UR sig nD τ) (MT nD τ sig (HIx 1) (Elt F) ℕ UU ℕ)) (d : Dev nD) : sProp 𝕄 :=
  iprop(Pipeline.cellsGhost cfgs EP 0 d ∗ Pipeline.toksInit cfgs EP 0 d)

theorem bigSep_fin1 (Φ : Fin 1 → sProp 𝕄) : bigSep Finset.univ Φ = Φ 0 := by
  rw [show (Finset.univ : Finset (Fin 1)) = {0} from by decide, bigSep_singleton]

/-- The launch element funds every TensorCore's kit. -/
theorem fundG (EP : Emb (UR sig nD τ) (MT nD τ sig (HIx 1) (Elt F) ℕ UU ℕ)) :
    (BI.own (EP u_t) : sProp 𝕄) ⊢ iprop(|==> bigSep Finset.univ fun d : Dev nD => G_t (F := F) EP d) := by
  refine (Pipeline.fund_ghost cfgs EP cellOf_inj).trans (BI.bupd_mono ?_)
  unfold G_t
  rw [bigSep_sep', bigSep_congr fun c _ => bigSep_fin1 (fun p => Pipeline.cellsGhost cfgs EP p c),
    bigSep_congr fun c _ => bigSep_fin1 (fun p => Pipeline.toksInit cfgs EP p c)]
  exact BI.Entails.refl _

/-! ## The region's rule -/

/-- The call in the SparseCore program's signature is the pipeline program's call, lifted. -/
theorem lift_step (d : Dev nD) (Φ : PUnit → sProp 𝕄) :
    wp frame (wpE (Dp (F := F)) 𝒱₀.lift (T d) none) Set.univ (Prog.lift (.customCall (Pipeline.entry (0 : Fin 1)) ())) Φ
      ⊢ wp frame (wpE ((Ksc (F := F)).defs (Dp (F := F))) 𝒱₀.lift (T d) none) Set.univ (Prog.lift (.customCall (SparseCore.inner (Pipeline.entry 0)) ())) Φ :=
  (Ksc (F := F)).wp_liftProg (Dp (F := F)) 𝒱₀.lift (T d) Set.univ none (Prog.lift (.customCall (Pipeline.entry (0 : Fin 1)) ())) Φ

-- the library's region rule is stated over `pin pcfgs adm 0`: its arguments are found by unifying up to unfolding plain
-- definitions in a metavariable's type
set_option backward.isDefEq.respectTransparency.types false in
/-- The pipeline library's region rule at this region's record. -/
theorem region_core (EP : Emb (UR sig nD τ) (MT nD τ sig (HIx 1) (Elt F) ℕ UU ℕ)) [EP.LandsIn (upEmb : UEmb _ (MT nD τ sig (HIx 1) (Elt F) ℕ UU ℕ))]
    (d : Dev nD) (W : Valuation τ sig (Elt F)) (Φ : PUnit → sProp 𝕄) :
    iprop((iprop(boundary (T d) ∗ (held (T d) (ucRefs τ sig) (Vtc W) ∗ owesT (F := F) (UU := UU) d)) -∗ wp frame (wpE (Dp (F := F)) 𝒱₀.lift (T d) none) Set.univ (.ret ⟨⟩) Φ)
        ∗ boundary (T d) ∗ (held (T d) (ucRefs τ sig) W ∗ owesT (F := F) (UU := UU) d) ∗ levAts ((Ksc (F := F)).L (nD := nD)) (Ksc (F := F)).lev
        ∗ Pipeline.cellsGhost cfgs EP 0 d ∗ Pipeline.toksInit cfgs EP 0 d)
      ⊢ wp frame (wpE (Dp (F := F)) 𝒱₀.lift (T d) none) Set.univ (Prog.lift (.customCall (Pipeline.entry (0 : Fin 1)) ())) Φ :=
  Pipeline.RegionSeg.wp (pcfgs (F := F)) adm (dats (UU := UU) W) (none : HIx 1) cellOf_inj EP defs₀ 𝒱₀ ((Ksc (F := F)).L (nD := nD)) (Ksc (F := F)).lev
    (reg (UU := UU) W) d none (fun _ h => nomatch h) (fun x => .ret x) Φ

set_option maxHeartbeats 800000 in
/-- THE REGION'S RULE, as @main applies it at the custom call: from the cells' invariants and level facts, the
    TensorCore's state after the SparseCore call, its region boundary, every unscoped array held at a valuation, its
    free semaphores and its kit, the call runs to the same state and boundary with the arrays at the valuation after
    the region. The kit is consumed; the free semaphores are not needed again and are dropped. -/
theorem region_gen (EP : Emb (UR sig nD τ) (MT nD τ sig (HIx 1) (Elt F) ℕ UU ℕ)) [EP.LandsIn (upEmb : UEmb _ (MT nD τ sig (HIx 1) (Elt F) ℕ UU ℕ))]
    (EH : Emb (URounds (GSem nD τ sig) ℕ) (MT nD τ sig (HIx 1) (Elt F) ℕ UU ℕ))
    (P : (Ksc (F := F)).Pay (nD := nD) (Val := Elt F) (Name := ℕ) (U := UU))
    (κ : GSem nD τ sig → ℕ) (d : Dev nD) (W : Valuation τ sig (Elt F)) (Φ : PUnit → sProp 𝕄) :
    iprop((Ksc (F := F)).ctx EH P κ ∗ (Ksc (F := F)).tcSt EH d 1 ∗ boundary (T d) ∗ held (T d) (ucRefs τ sig) W ∗ (Ksc (F := F)).tcSems0 d ∗ G_t (F := F) EP d
        ∗ (((Ksc (F := F)).tcSt EH d 1 ∗ boundary (T d) ∗ held (T d) (ucRefs τ sig) (Vtc W)) -∗ Φ ⟨⟩))
      ⊢ wp frame (wpE ((Ksc (F := F)).defs (Dp (F := F))) 𝒱₀.lift (T d) none) Set.univ (Prog.lift (.customCall (SparseCore.inner (Pipeline.entry 0)) ())) Φ := by
  refine BIBase.Entails.trans ?_ (lift_step (UU := UU) d Φ)
  refine BIBase.Entails.trans ?_ (region_core (UU := UU) EP d W Φ)
  unfold SparseCore.Cfg.tcSt G_t owesT
  rw [(Ksc (F := F)).Otc_end d (le_refl 1)]
  iintro ⟨#Hctx, ⟨⟨%Wt, %hWt, HO⟩, Hrest⟩, Hb, Hheld, -, ⟨Hg, Ht⟩, Hk⟩
  ihave Hlev := (SparseCore.Cfg.ctx_levAts (K := Ksc (F := F)) (EH := EH) (P := P) κ) $$ Hctx
  isplitl [Hk Hrest]
  · iintro ⟨Hb, ⟨Hheld, HO⟩⟩
    rw [wp_ret]; imodintro
    iapply Hk
    isplitl [HO Hrest]
    · isplitl [HO]; · iexact HO
      iexact Hrest
    isplitl [Hb]; · iexact Hb
    iexact Hheld
  isplitl [Hb]; · iexact Hb
  isplitl [Hheld HO]
  · isplitl [Hheld]; · iexact Hheld
    iexists Wt; isplitr; · ipureintro; exact hWt
    iexact HO
  isplitl [Hlev]; · iexact Hlev
  isplitl [Hg]; · iexact Hg
  iexact Ht

/-! ## At the launch's ghost state -/

section Final

local notation "𝕌" => Cert.Proof.KI.UU

/-- The handshakes' rounds: the left factor. -/
abbrev EHt : Emb Cert.Proof.KI.UH (MT nD τ sig (HIx 1) (Elt F) ℕ 𝕌 ℕ) := embL
/-- The pipeline's rounds: the left of the right factor. -/
abbrev EPt : Emb (UR sig nD τ) (MT nD τ sig (HIx 1) (Elt F) ℕ 𝕌 ℕ) :=
  (Emb.inl : Emb (UR sig nD τ) (UR sig nD τ × Counters)).trans embR

instance EPt_landsIn : (EPt (F := F)).LandsIn (upEmb : UEmb _ (MT nD τ sig (HIx 1) (Elt F) ℕ 𝕌 ℕ)) := by
  unfold EPt embR; infer_instance

/-- The TensorCore's kit at the launch's ghost state. -/
abbrev Gk (d : Dev nD) : sProp (MT nD τ sig (HIx 1) (Elt F) ℕ 𝕌 ℕ) := G_t (F := F) (UU := 𝕌) (EPt (F := F)) d

/-- The launch element: the handshakes' rounds, the pipeline's, no counter. -/
def u₀ : 𝕌 := (initOf ((Ksc (F := F)).hsCells (nD := nD)) ((Ksc (F := F)).hsToks (nD := nD)), (u_t, 1))

/-- The launch element deals the handshakes' element and every TensorCore's kit. -/
theorem hu₀_t : (ownU (u₀ (F := F)) : sProp (MT nD τ sig (HIx 1) (Elt F) ℕ 𝕌 ℕ))
    ⊢ |={Set.univ}=> iprop(BI.own ((EHt (F := F)) (initOf ((Ksc (F := F)).hsCells (nD := nD)) ((Ksc (F := F)).hsToks (nD := nD)))) ∗ bigSep Finset.univ fun d : Dev nD => Gk (F := F) d) := by
  unfold u₀
  iintro Hu
  ihave H := (ownU_pair _ _) $$ Hu
  icases H with ⟨HH, HR⟩
  ihave H2 := (own_pair_emb embR u_t (1 : Counters)) $$ HR
  icases H2 with ⟨HP, -⟩
  imod (fundG (F := F) (UU := 𝕌) (EPt (F := F))) $$ HP with HG
  imodintro
  isplitl [HH]; · iexact HH
  iexact HG

/-- THE REGION'S RULE at the launch's ghost state: the hypothesis @main's proof takes for the custom call. -/
theorem region (P : (Ksc (F := F)).Pay (nD := nD) (Val := Elt F) (Name := ℕ) (U := 𝕌)) (κ : GSem nD τ sig → ℕ) (d : Dev nD)
    (W : Valuation τ sig (Elt F)) (Φ : PUnit → sProp (MT nD τ sig (HIx 1) (Elt F) ℕ 𝕌 ℕ)) :
    iprop((Ksc (F := F)).ctx (EHt (F := F)) P κ ∗ (Ksc (F := F)).tcSt (EHt (F := F)) d 1 ∗ boundary (T d) ∗ held (T d) (ucRefs τ sig) W ∗ (Ksc (F := F)).tcSems0 d ∗ Gk (F := F) d
        ∗ (((Ksc (F := F)).tcSt (EHt (F := F)) d 1 ∗ boundary (T d) ∗ held (T d) (ucRefs τ sig) (Vtc W)) -∗ Φ ⟨⟩))
      ⊢ wp frame (wpE ((Ksc (F := F)).defs (Dp (F := F))) 𝒱₀.lift (T d) none) Set.univ (Prog.lift (.customCall (SparseCore.inner (Pipeline.entry 0)) ())) Φ :=
  region_gen (F := F) (UU := 𝕌) (EPt (F := F)) (EHt (F := F)) P κ d W Φ

end Final

end Cert.KernelIdeal.TcRegion

end
-- ==== Proof.KRun.lean ====
/-
  The run of the whole program: the launch theorem applied to the SparseCore call's task obligation and operand
  split, @main's proof on the TensorCore, the launch element, and the reading of the final memory. Its post: every
  unscoped array of the TensorCore ends at the last valuation of @main.
-/
import proofs.«203152_g22136261444366_cont_8to1_1253_39_alg».proof.Proof.KMain
import proofs.«203152_g22136261444366_cont_8to1_1253_39_alg».proof.Proof.KHeld
import proofs.«203152_g22136261444366_cont_8to1_1253_39_alg».proof.Proof.KVtc
import proofs.«203152_g22136261444366_cont_8to1_1253_39_alg».proof.Proof.ScSplit
import proofs.«203152_g22136261444366_cont_8to1_1253_39_alg».proof.Proof.ScTile
import proofs.«203152_g22136261444366_cont_8to1_1253_39_alg».proof.Proof.ScOuter
import proofs.«203152_g22136261444366_cont_8to1_1253_39_alg».proof.Proof.TcRegion

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs)

variable {F : FTy → Type} [FloatOps F]

abbrev EH : Emb UH (MT nD τ sig (HIx 1) (Elt F) ℕ UU ℕ) := embL

variable (m : (ℓ : Loc nD τ sig) → Buf (Elt F) ℓ) (ρ : Dev nD → PrngReg)

/-- What the final memory is asked: every unscoped array of device `d`'s TensorCore at the last valuation. -/
def fq (d : Dev nD) (s' : Phys nD τ sig (Elt F)) : Prop := ∀ b ∈ ucRefs τ sig, s'.mem.mem (d, b) = V5 m Sc.Vsc Vtc d b

theorem hfin (d : Dev nD) (s' : Phys nD τ sig (Elt F)) :
    iprop((FIN m Sc.Vsc Vtc d : sProp (MT nD τ sig (HIx 1) (Elt F) ℕ UU ℕ)) ∗ SI s') ⊢ (⌜fq m d s'⌝ : sProp (MT nD τ sig (HIx 1) (Elt F) ℕ UU ℕ)) :=
  Held.held_agree (T d) (ucRefs τ sig) (V5 m Sc.Vsc Vtc d) s'

/-- The post of the run. -/
def QC : PUnit × MemSt nD τ sig (Elt F) → Prop := fun r => ∀ d : Dev nD, ∀ b ∈ ucRefs τ sig, r.2.mem (d, b) = V5 m Sc.Vsc Vtc d b

section Run

theorem bigSep_emp' {I : Type} (s : Finset I) : (bigSep s fun _ => iprop(emp)) = (iprop(emp) : sProp (MT nD τ sig (HIx 1) (Elt F) ℕ UU ℕ)) := bigSep_emp_const s

/-- The launch element: the handshakes' rounds and the region's kit; the gather's tasks consume nothing of the launch's. -/
theorem hu₀ : (ownU (Cert.KernelIdeal.TcRegion.u₀ (F := F)) : sProp (MT nD τ sig (HIx 1) (Elt F) ℕ UU ℕ))
    ⊢ |={Set.univ}=> iprop(BI.own ((EH (F := F)) (initOf (K (F := F)).hsCells (K (F := F)).hsToks)) ∗ (bigSep Finset.univ fun d : Dev nD => Cert.KernelIdeal.TcRegion.Gk (F := F) d)
        ∗ bigSep Finset.univ fun thr : Thread nD τ => bigSep Finset.univ fun q : Fin 1 => (Sc.P (V1 m)).x q thr) := by
  iintro Hu
  imod (Cert.KernelIdeal.TcRegion.hu₀_t (F := F)) $$ Hu with ⟨HH, HG⟩
  imodintro
  isplitl [HH]; · iexact HH
  isplitl [HG]; · iexact HG
  unfold Sc.P; dsimp only
  rw [show (bigSep Finset.univ fun _ : Thread nD τ => bigSep Finset.univ fun _ : Fin 1 => (iprop(emp) : sProp (MT nD τ sig (HIx 1) (Elt F) ℕ UU ℕ))) = iprop(emp) from by
    rw [bigSep_congr fun _ _ => bigSep_emp' _, bigSep_emp']]
  iempintro

theorem run_main [∀ e, Nonempty (Elt F e)] (hok : Sc.PreOK (V1 m)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := Sc.P (V1 m)) facts v₀
    (fun q hq => match q with | 0 => nomatch hq)
    (fun q _ => match q with | 0 => Sc.tileObl (V1 m) facts hok)
    (fun q _ => match q with | 0 => SparseCore.Cfg.VecSplit.of_plain (Sc.vecSplit (V1 m)))
    m ρ main (fun d => Cert.KernelIdeal.TcRegion.Gk (F := F) d) (FIN m Sc.Vsc Vtc) (Cert.KernelIdeal.TcRegion.u₀ (F := F)) (sep_elim_left.trans (hu₀ m))
    (hmain m ρ Sc.Vsc Vtc EH (Sc.P (V1 m)) (fun d => Cert.KernelIdeal.TcRegion.Gk (F := F) d) (Sc.st_intro (V1 m)) (Sc.dn_elim (V1 m)) Sc.sc_frame
      (fun κ d Φ => Cert.KernelIdeal.TcRegion.region (Sc.P (V1 m)) κ d (V3 m Sc.Vsc d) Φ))
    (fq m) (hfin m) (QC m) (fun _ h => h)

end Run

end Cert.Proof.KI

end
-- ==== Proof.BGhostTypes.lean ====
/-
  The ghost state of the SparseCore launch: the handshakes' rounds, the TensorCore region's rounds, the transfers'
  counters. The counters are found by instance search (`Transfers.CountersIn`) in the RIGHTMOST factor of a product:
  `CountersIn Counters`, and `CountersIn (A × B)` from `CountersIn B`; so they stand last.
-/
import proofs.«203152_g22136261444366_cont_8to1_1253_39_alg».proof.Kernel
import Idealize.ShloMosaic.Lib.SparseCore.Launch
import Idealize.ShloMosaic.Lib.Pipeline.Kit
import Idealize.ShloMosaic.Lib.Transfers

noncomputable section

namespace Cert.Proof.KB

open Cert.Kernel
open Idealize.ShloMosaic
open Idealize.SL Idealize.SL.RA
open Idealize.ShloMosaic.Rounds

/-- The handshakes' rounds. -/
abbrev UH : Type := URounds (GSem nD τ sig) ℕ
/-- The launch's ghost state: the handshakes' rounds, the region's rounds, the transfers' counters. -/
abbrev UU : Type := UH × (UR sig nD τ × Counters)

/-- The counters are found in the ghost state. -/
example : CountersIn UU := inferInstance

end Cert.Proof.KB

end
-- ==== Proof.BKOps.lean ====
/-
  The host operations around the two calls of the idealized program's entry function, named, and the contents of
  the TensorCore's arrays after each stretch of them: the three tables viewed [125000, 8, 64]; the gather call;
  the gathered arrays viewed [16384, 64], both weight matrices transposed and both biases given a unit axis; the
  dense-layer call; the [1, 1] regulariser viewed as a scalar. The two calls act on the contents by functions
  given as arguments.
-/
import proofs.«203152_g22136261444366_cont_8to1_1253_39_alg».proof.Defs
import Idealize.ShloMosaic.Lib.StableHlo.Run
import proofs.«203152_g22136261444366_cont_8to1_1253_39_alg».proof.Proof.Gen.Kernel

noncomputable section

namespace Cert.Proof.KB

open Cert.Kernel Cert.Kernel.Gen

open Idealize.ShloMosaic
open Idealize.SL.Sem

variable {F : FTy → Type}

/-! ## The TensorCore's arrays as device buffers -/

abbrev r (b : Ref sig .tc) : DevRef τ sig := Proc.devRef .tc b

variable [FloatOps F]

/-! ## The host operations of @main, named -/

abbrev opT0 : HloOp τ sig (Elt F) := StableHlo.reshape main_arg3 main_v0 rfl shapeCasts_S1000000x64_S125000x8x64
abbrev opT1 : HloOp τ sig (Elt F) := StableHlo.reshape main_arg4 main_v1 rfl shapeCasts_S1000000x64_S125000x8x64
abbrev opT2 : HloOp τ sig (Elt F) := StableHlo.reshape main_arg5 main_v2 rfl shapeCasts_S1000000x64_S125000x8x64
abbrev opX0 : HloOp τ sig (Elt F) := StableHlo.reshape main_v3_0 main_v4 rfl shapeCasts_S16384x1x64_S16384x64
abbrev opX1 : HloOp τ sig (Elt F) := StableHlo.reshape main_v3_1 main_v5 rfl shapeCasts_S16384x1x64_S16384x64
abbrev opX2 : HloOp τ sig (Elt F) := StableHlo.reshape main_v3_2 main_v6 rfl shapeCasts_S16384x1x64_S16384x64
abbrev opW1 : HloOp τ sig (Elt F) := StableHlo.unary main_arg6 main_v7 ((transpose S192x192 [1, 0] · transposes_S192x192_S192x192_1_0) : (⟨S192x192, .f32⟩ : BufTy).Contents (Elt F) → (⟨S192x192, .f32⟩ : BufTy).Contents (Elt F))
abbrev opB1 : HloOp τ sig (Elt F) := StableHlo.reshape main_arg7 main_v8 rfl shapeCasts_S192_S1x192
abbrev opW2 : HloOp τ sig (Elt F) := StableHlo.unary main_arg8 main_v9 ((transpose S192x1 [1, 0] · transposes_S1x192_S192x1_1_0) : (⟨S1x192, .f32⟩ : BufTy).Contents (Elt F) → (⟨S192x1, .f32⟩ : BufTy).Contents (Elt F))
abbrev opB2 : HloOp τ sig (Elt F) := StableHlo.reshape main_arg9 main_v10 rfl shapeCasts_S1_S1x1
abbrev opRg : HloOp τ sig (Elt F) := StableHlo.reshape main_v11_1 main_v12 rfl shapeCasts_S1x1_S_

/-! ## The valuations along @main -/

variable (m : (ℓ : Loc nD τ sig) → Buf (Elt F) ℓ) (ρ : Dev nD → PrngReg)

-- what the SparseCore call and the pallas_call do to the valuation: given by their proofs
variable (Vsc Vtc : Valuation τ sig (Elt F) → Valuation τ sig (Elt F))

abbrev V0 (d : Dev nD) : Valuation τ sig (Elt F) := fun b => m (d, b)
abbrev V1 (d : Dev nD) : Valuation τ sig (Elt F) := (opT2 (F := F)).result ((opT1 (F := F)).result ((opT0 (F := F)).result (V0 m d)))
abbrev V2 (d : Dev nD) : Valuation τ sig (Elt F) := Vsc (V1 m d)
abbrev V3 (d : Dev nD) : Valuation τ sig (Elt F) :=
  (opB2 (F := F)).result ((opW2 (F := F)).result ((opB1 (F := F)).result ((opW1 (F := F)).result
    ((opX2 (F := F)).result ((opX1 (F := F)).result ((opX0 (F := F)).result (V2 m Vsc d)))))))
abbrev V4 (d : Dev nD) : Valuation τ sig (Elt F) := Vtc (V3 m Vsc d)
abbrev V5 (d : Dev nD) : Valuation τ sig (Elt F) := (opRg (F := F)).result (V4 m Vsc Vtc d)

end Cert.Proof.KB

end
-- ==== Proof.BKMain.lean ====
/-
  @main of the idealized kernel on the TensorCore, step by step: three reshapes of the tables to
  [125000, 8, 64]; the SparseCore call (the operands handed to the two SparseCores, the three gathered arrays
  back); the reshapes and transposes that prepare the pallas_call's operands; the pallas_call; the final reshape
  of the [1, 1] result to a scalar. Every unscoped array of the TensorCore is held whole throughout at ONE
  valuation, updated by each step: the host operations by their own result, the two calls by the functions
  their proofs state. The two calls enter as hypotheses of this module (their shapes only), so that the host
  part is checked on its own.
-/
import proofs.«203152_g22136261444366_cont_8to1_1253_39_alg».proof.Defs
import Idealize.ShloMosaic.Lib.SparseCore.Launch
import Idealize.ShloMosaic.Lib.StableHlo.Run
import Idealize.ShloMosaic.Lib.Pipeline.Kit
import Idealize.ShloMosaic.Lib.Pipeline.Frame
import Idealize.ShloMosaic.Lib.Tactic
import proofs.«203152_g22136261444366_cont_8to1_1253_39_alg».proof.Proof.Gen.Kernel
import proofs.«203152_g22136261444366_cont_8to1_1253_39_alg».proof.Proof.BGhostTypes
import proofs.«203152_g22136261444366_cont_8to1_1253_39_alg».proof.Proof.BKOps

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split wp_hlo_within)
open Idealize.ShloMosaic.Pipeline (ucRefs unscopedBufs_held sub_ucRefs)
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]

/-- The nine arrays the SparseCore call is handed: the three index arrays, the three reshaped tables, the three outputs. -/
abbrev S9 : Finset (DevRef τ sig) :=
  {r main_arg0, r main_arg1, r main_arg2, r main_v0, r main_v1, r main_v2, r main_v3_0, r main_v3_1, r main_v3_2}

theorem S9_sub : S9 ⊆ ucRefs τ sig := by decide

variable (m : (ℓ : Loc nD τ sig) → Buf (Elt F) ℓ) (ρ : Dev nD → PrngReg)
variable (Vsc Vtc : Valuation τ sig (Elt F) → Valuation τ sig (Elt F))

/-- After the SparseCore call: the nine arrays at the call's valuation and the rest where it was are all the
    arrays at the call's valuation (the call changes nothing else). -/
theorem held_after_sc (h_scframe : ∀ W b, b ∉ S9 → Vsc W b = W b) (d : Dev nD) :
    iprop((held (T d) S9 (V2 m Vsc d) : sProp (MT nD τ sig (HIx 1) (Elt F) ℕ UU ℕ)) ∗ held (T d) (ucRefs τ sig \ S9) (V1 m d))
      ⊢ (held (T d) (ucRefs τ sig) (V2 m Vsc d) : sProp (MT nD τ sig (HIx 1) (Elt F) ℕ UU ℕ)) := by
  refine Entails.of_eq ?_
  have e1 : (held (T d) (ucRefs τ sig \ S9) (V1 m d) : sProp (MT nD τ sig (HIx 1) (Elt F) ℕ UU ℕ)) = held (T d) (ucRefs τ sig \ S9) (V2 m Vsc d) :=
    StableHlo.held_congr (T d) fun b hb => (h_scframe _ b (Finset.mem_sdiff.mp hb).2).symm
  rw [e1]
  exact (held_sub_split (T d) S9_sub (V2 m Vsc d)).symm

/-! ## @main -/

section Main

local notation "𝕄" => MT nD τ sig (HIx 1) (Elt F) ℕ UU ℕ

variable (EH : Emb UH (MT nD τ sig (HIx 1) (Elt F) ℕ UU ℕ))
variable (P : (K (F := F)).Pay (nD := nD) (Val := Elt F) (Name := ℕ) (U := UU))
variable (Gk : Dev nD → sProp (MT nD τ sig (HIx 1) (Elt F) ℕ UU ℕ))

/-- What @main leaves the claim: every unscoped array of the TensorCore at the last valuation. -/
abbrev FIN (d : Dev nD) : sProp 𝕄 := held (T d) (ucRefs τ sig) (V5 m Vsc Vtc d)

/-- @main on device `d`'s TensorCore, from the two calls' rules: the SparseCore call takes the nine arrays at the
    valuation before it and brings them back at `Vsc` of it (`h_st`, `h_dn`: through the launch theorem's `wp_run`);
    the pallas_call takes the boundary, every unscoped array, the TensorCore's own semaphores and its kit `Gk d`, and
    brings the arrays back at `Vtc` of the valuation (`h_rg`). -/
theorem hmain
    (h_st : ∀ d, (held (T d) S9 (V1 m d) : sProp 𝕄) ⊢ bigSep Finset.univ fun c : Fin ((K (F := F)).nCore 0) => P.st 0 d c)
    (h_dn : ∀ d, (bigSep Finset.univ fun c : Fin ((K (F := F)).nCore 0) => P.dn 0 d c) ⊢ (held (T d) S9 (V2 m Vsc d) : sProp 𝕄))
    (h_scframe : ∀ W b, b ∉ S9 → Vsc W b = W b)
    (h_rg : ∀ (κ : GSem nD τ sig → ℕ) (d : Dev nD) (Φ : PUnit → sProp 𝕄),
      iprop((K (F := F)).ctx EH P κ ∗ (K (F := F)).tcSt EH d 1 ∗ boundary (T d) ∗ held (T d) (ucRefs τ sig) (V3 m Vsc d) ∗ (K (F := F)).tcSems0 d ∗ Gk d
          ∗ (((K (F := F)).tcSt EH d 1 ∗ boundary (T d) ∗ held (T d) (ucRefs τ sig) (V4 m Vsc Vtc d)) -∗ Φ ⟨⟩))
        ⊢ wp frame (wpE ((K (F := F)).defs (D (F := F))) 𝒱 (T d) none) Set.univ (Prog.lift (.customCall (SparseCore.inner (Pipeline.entry 0)) ())) Φ)
    (κ : GSem nD τ sig → ℕ) (d : Dev nD) :
    iprop((K (F := F)).ctx EH P κ ∗ (K (F := F)).tcSt EH d 0 ∗ (K (F := F)).tcRes m ρ d ∗ Gk d)
      ⊢ wp frame (wpE ((K (F := F)).defs (D (F := F))) 𝒱 (T d) none) Set.univ (main d)
          fun _ => iprop((K (F := F)).tcSt EH d 1 ∗ FIN m Vsc Vtc d) := by
  unfold SparseCore.Cfg.tcRes
  rw [show (unscopedBufs (Ix := HIx 1) (Name := ℕ) (U := UU) (Lvl := ℕ) d (fun b => m ((d.tc : Thread nD τ).loc b))) = held (d.tc : Thread nD τ) (ucRefs τ sig) (fun b => m (d, b))
    from unscopedBufs_held (Ix := HIx 1) (Name := ℕ) (U := UU) (Lvl := ℕ) d (fun b => m (d, b))]
  simp only [main, wp_bind, wp_pure]
  iintro ⟨#Hctx, Hst, ⟨Hb, Hheld, Hsems, -⟩, HG⟩
  -- the three reshapes of the tables
  iapply (wp_hlo_within 𝒱 (T d) none Set.univ (op := opT0) (S := ucRefs τ sig) (sub_ucRefs _ (StableHlo.reshape_bufs_sub ..)) (V := V0 m d)) $$ [Hb Hheld]
  · isplitl [Hb] <;> iassumption
  iintro ⟨Hb, Hheld⟩; rw [wp_ret]; imodintro
  iapply (wp_hlo_within 𝒱 (T d) none Set.univ (op := opT1) (S := ucRefs τ sig) (sub_ucRefs _ (StableHlo.reshape_bufs_sub ..))) $$ [Hb Hheld]
  · isplitl [Hb] <;> iassumption
  iintro ⟨Hb, Hheld⟩; rw [wp_ret]; imodintro
  iapply (wp_hlo_within 𝒱 (T d) none Set.univ (op := opT2) (S := ucRefs τ sig) (sub_ucRefs _ (StableHlo.reshape_bufs_sub ..))) $$ [Hb Hheld]
  · isplitl [Hb] <;> iassumption
  iintro ⟨Hb, Hheld⟩; rw [wp_ret]; imodintro
  -- the SparseCore call
  ihave Hh := (Entails.of_eq (held_sub_split (T d) S9_sub (V1 m d))) $$ Hheld
  icases Hh with ⟨H9, Hrest⟩
  iapply ((K (F := F)).wp_run (D (F := F)) 𝒱 (EH := EH) (P := P) κ d 0) $$ [Hst H9 Hb Hrest Hsems HG]
  isplitr; · iexact Hctx
  isplitl [Hst]; · iexact Hst
  isplitl [H9]; · iapply (h_st d); iexact H9
  iintro ⟨Hst, Hdn⟩
  ihave H9 := (h_dn d) $$ Hdn
  ihave Hheld := (held_after_sc m Vsc h_scframe d) $$ [H9 Hrest]
  · isplitl [H9] <;> iassumption
  -- the operands of the pallas_call
  iapply (wp_hlo_within 𝒱 (T d) none Set.univ (op := opX0) (S := ucRefs τ sig) (sub_ucRefs _ (StableHlo.reshape_bufs_sub ..))) $$ [Hb Hheld]
  · isplitl [Hb] <;> iassumption
  iintro ⟨Hb, Hheld⟩; rw [wp_ret]; imodintro
  iapply (wp_hlo_within 𝒱 (T d) none Set.univ (op := opX1) (S := ucRefs τ sig) (sub_ucRefs _ (StableHlo.reshape_bufs_sub ..))) $$ [Hb Hheld]
  · isplitl [Hb] <;> iassumption
  iintro ⟨Hb, Hheld⟩; rw [wp_ret]; imodintro
  iapply (wp_hlo_within 𝒱 (T d) none Set.univ (op := opX2) (S := ucRefs τ sig) (sub_ucRefs _ (StableHlo.reshape_bufs_sub ..))) $$ [Hb Hheld]
  · isplitl [Hb] <;> iassumption
  iintro ⟨Hb, Hheld⟩; rw [wp_ret]; imodintro
  iapply (wp_hlo_within 𝒱 (T d) none Set.univ (op := opW1) (S := ucRefs τ sig) (sub_ucRefs _ (StableHlo.unary_bufs_sub ..))) $$ [Hb Hheld]
  · isplitl [Hb] <;> iassumption
  iintro ⟨Hb, Hheld⟩; rw [wp_ret]; imodintro
  iapply (wp_hlo_within 𝒱 (T d) none Set.univ (op := opB1) (S := ucRefs τ sig) (sub_ucRefs _ (StableHlo.reshape_bufs_sub ..))) $$ [Hb Hheld]
  · isplitl [Hb] <;> iassumption
  iintro ⟨Hb, Hheld⟩; rw [wp_ret]; imodintro
  iapply (wp_hlo_within 𝒱 (T d) none Set.univ (op := opW2) (S := ucRefs τ sig) (sub_ucRefs _ (StableHlo.unary_bufs_sub ..))) $$ [Hb Hheld]
  · isplitl [Hb] <;> iassumption
  iintro ⟨Hb, Hheld⟩; rw [wp_ret]; imodintro
  iapply (wp_hlo_within 𝒱 (T d) none Set.univ (op := opB2) (S := ucRefs τ sig) (sub_ucRefs _ (StableHlo.reshape_bufs_sub ..))) $$ [Hb Hheld]
  · isplitl [Hb] <;> iassumption
  iintro ⟨Hb, Hheld⟩; rw [wp_ret]; imodintro
  -- the pallas_call
  iapply (h_rg κ d) $$ [Hst Hb Hheld Hsems HG]
  isplitr; · iexact Hctx
  isplitl [Hst]; · iexact Hst
  isplitl [Hb]; · iexact Hb
  isplitl [Hheld]; · iexact Hheld
  isplitl [Hsems]; · iexact Hsems
  isplitl [HG]; · iexact HG
  iintro ⟨Hst, Hb, Hheld⟩
  -- the scalar result
  iapply (wp_hlo_within 𝒱 (T d) none Set.univ (op := opRg) (S := ucRefs τ sig) (sub_ucRefs _ (StableHlo.reshape_bufs_sub ..))) $$ [Hb Hheld]
  · isplitl [Hb] <;> iassumption
  iintro ⟨Hb, Hheld⟩
  rw [wp_ret]; imodintro; imodintro
  isplitl [Hst]; · iexact Hst
  iexact Hheld

end Main

end Cert.Proof.KB

end
-- ==== Proof.BKFun.lean ====
/- The two results of the TensorCore region as pure functions of its seven operand arrays, at any float
   instance: the inference block row by row, and the regulariser from the three sums of squares accumulated
   over the four grid points. Stated over the payloads of the body's skeleton, each window's block read off
   its array the way the pipeline reads it. -/
import proofs.«203152_g22136261444366_cont_8to1_1253_39_alg».proof.Proof.Gen.Kernel.Skeleton

noncomputable section

namespace Cert.Kernel.KFun

open Idealize.ShloMosaic Idealize.SL.Sem
open Cert.Kernel.Gen

variable {F : FTy → Type} [FloatOps F]

/-- The grid has four points. -/
theorem N4 : cfg1.N = 4 := by decide

/-- Grid point number `n`. -/
abbrev pt (n : Nat) (h : n < 4 := by decide) : Fin cfg1.N := ⟨n, lt_of_lt_of_eq h N4.symm⟩

/-! ## Each window's block at a grid point, read off its array -/

/-- Rows `4096 t … 4096 t + 4095` of the first gathered array. -/
abbrev blk0 (t : Fin cfg1.N) (A : Vec F S16384x64 .f32) : Vec F S4096x64 .f32 := ((cfg1.win 0).blk t).view.read (Elt F) A
/-- The same rows of the second gathered array. -/
abbrev blk1 (t : Fin cfg1.N) (A : Vec F S16384x64 .f32) : Vec F S4096x64 .f32 := ((cfg1.win 1).blk t).view.read (Elt F) A
/-- The same rows of the third gathered array. -/
abbrev blk2 (t : Fin cfg1.N) (A : Vec F S16384x64 .f32) : Vec F S4096x64 .f32 := ((cfg1.win 2).blk t).view.read (Elt F) A
/-- The first weight matrix (its one block is all of it). -/
abbrev blk3 (t : Fin cfg1.N) (A : Vec F S192x192 .f32) : Vec F S192x192 .f32 := ((cfg1.win 3).blk t).view.read (Elt F) A
/-- The first bias row. -/
abbrev blk4 (t : Fin cfg1.N) (A : Vec F S1x192 .f32) : Vec F S1x192 .f32 := ((cfg1.win 4).blk t).view.read (Elt F) A
/-- The second weight column. -/
abbrev blk5 (t : Fin cfg1.N) (A : Vec F S192x1 .f32) : Vec F S192x1 .f32 := ((cfg1.win 5).blk t).view.read (Elt F) A
/-- The second bias. -/
abbrev blk6 (t : Fin cfg1.N) (A : Vec F S1x1 .f32) : Vec F S1x1 .f32 := ((cfg1.win 6).blk t).view.read (Elt F) A

/-! ## The inference result -/

/-- The grid point whose block holds row `i 0` of the result. -/
def ptOf (i : S16384x1.Idx) : Fin cfg1.N :=
  ⟨(i 0).val / 4096, lt_of_lt_of_eq (Nat.div_lt_of_lt_mul (i 0).isLt) N4.symm⟩

/-- The position of row `i 0` inside that block. -/
def rowIn (i : S16384x1.Idx) : S4096x1.Idx := fun a =>
  ⟨(i a).val % S4096x1.size a, Nat.mod_lt _ (by revert a; decide)⟩

/-- What the body stores into the inference window at grid point `t`: the whole block as one pure term of
    the seven blocks it loads. -/
def infBlk (t : Fin cfg1.N) (A4 A5 A6 : Vec F S16384x64 .f32) (A7 : Vec F S192x192 .f32) (A8 : Vec F S1x192 .f32)
    (A9 : Vec F S192x1 .f32) (A10 : Vec F S1x1 .f32) : FVec F S4096x1 .f32 :=
  k1_pay11 (blk3 t A7) (blk5 t A9) (blk0 t A4) (blk1 t A5) (blk2 t A6) (blk4 t A8) (blk6 t A10)

/-- THE INFERENCE RESULT: row `4096 t + y` is row `y` of the block the body computes at grid point `t`. -/
def kInf (A4 A5 A6 : Vec F S16384x64 .f32) (A7 : Vec F S192x192 .f32) (A8 : Vec F S1x192 .f32)
    (A9 : Vec F S192x1 .f32) (A10 : Vec F S1x1 .f32) : Vec F S16384x1 .f32 :=
  fun i => infBlk (ptOf i) A4 A5 A6 A7 A8 A9 A10 (rowIn i)

/-! ## The regulariser -/

/-- The first accumulator word after the four grid points: the first point stores its sum of squares, each
    later point adds its own to what it loads. -/
def accP (A4 : Vec F S16384x64 .f32) : F .f32 :=
  k1_pay4 (k1_pay8 (blk0 (pt 3) A4)) (k1_pay4 (k1_pay8 (blk0 (pt 2) A4)) (k1_pay4 (k1_pay8 (blk0 (pt 1) A4)) (k1_pay1 (k1_pay8 (blk0 (pt 0) A4)))))
/-- The second accumulator word after the four grid points. -/
def accQ (A5 : Vec F S16384x64 .f32) : F .f32 :=
  k1_pay5 (k1_pay9 (blk1 (pt 3) A5)) (k1_pay5 (k1_pay9 (blk1 (pt 2) A5)) (k1_pay5 (k1_pay9 (blk1 (pt 1) A5)) (k1_pay2 (k1_pay9 (blk1 (pt 0) A5)))))
/-- The third accumulator word after the four grid points. -/
def accR (A6 : Vec F S16384x64 .f32) : F .f32 :=
  k1_pay6 (k1_pay10 (blk2 (pt 3) A6)) (k1_pay6 (k1_pay10 (blk2 (pt 2) A6)) (k1_pay6 (k1_pay10 (blk2 (pt 1) A6)) (k1_pay3 (k1_pay10 (blk2 (pt 0) A6)))))

/-- THE REGULARISER: what the last grid point stores from the three accumulator words. -/
def kRegs (A4 A5 A6 : Vec F S16384x64 .f32) : Vec F S1x1 .f32 :=
  k1_pay7 (accP A4) (accQ A5) (accR A6)

end Cert.Kernel.KFun

end
-- ==== Proof.BKVtc.lean ====
/-
  What the dense-layer call does to the contents of the TensorCore's arrays: its first result array takes the
  inference result and its second the regulariser, both as pure functions of the seven operand arrays as they
  stand before the call; every other array keeps its contents.
-/
import proofs.«203152_g22136261444366_cont_8to1_1253_39_alg».proof.Proof.BKFun
import proofs.«203152_g22136261444366_cont_8to1_1253_39_alg».proof.Proof.BKOps

noncomputable section

namespace Cert.Proof.KB

open Cert.Kernel Cert.Kernel.Gen

open Idealize.ShloMosaic
open Idealize.SL.Sem

variable {F : FTy → Type} [FloatOps F]

/-- The contents after the dense-layer call, from the contents before it. -/
def Vtc (W : Valuation τ sig (Elt F)) : Valuation τ sig (Elt F) :=
  Function.update
    (Function.update W (r main_v11_0)
      (KFun.kInf (F := F) (W (r main_v4)) (W (r main_v5)) (W (r main_v6)) (W (r main_v7)) (W (r main_v8)) (W (r main_v9)) (W (r main_v10))))
    (r main_v11_1) (KFun.kRegs (F := F) (W (r main_v4)) (W (r main_v5)) (W (r main_v6)))

/-- Every array but the two results keeps its contents. -/
theorem tc_frame (W : Valuation τ sig (Elt F)) (b : DevRef τ sig) (hb : b ≠ r main_v11_0 ∧ b ≠ r main_v11_1) :
    Vtc W b = W b := by
  unfold Vtc
  rw [Function.update_of_ne hb.2, Function.update_of_ne hb.1]

/-- The first result array after the call. -/
theorem Vtc_inf (W : Valuation τ sig (Elt F)) :
    Vtc W (r main_v11_0)
      = KFun.kInf (F := F) (W (r main_v4)) (W (r main_v5)) (W (r main_v6)) (W (r main_v7)) (W (r main_v8)) (W (r main_v9)) (W (r main_v10)) := by
  unfold Vtc
  rw [Function.update_of_ne (by decide : r main_v11_0 ≠ r main_v11_1), Function.update_self]

/-- The second result array after the call. -/
theorem Vtc_regs (W : Valuation τ sig (Elt F)) :
    Vtc W (r main_v11_1) = KFun.kRegs (F := F) (W (r main_v4)) (W (r main_v5)) (W (r main_v6)) := by
  unfold Vtc
  rw [Function.update_self]

end Cert.Proof.KB

end
-- ==== Proof.BScPay.lean ====
/-
  The SparseCore gather call: what its handshakes carry. The nine arrays of the call are the three index arrays,
  the three tables (as `[125000, 8, 64]`) and the three results (`[16384, 1, 64]`); worker `w = 2 i + c` (vector
  subcore `i` of SparseCore `c`) reads index words `[512 w, 512 w + 512)` and writes result rows of the same range.
-/
import proofs.«203152_g22136261444366_cont_8to1_1253_39_alg».proof.Proof.BGhostTypes
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«203152_g22136261444366_cont_8to1_1253_39_alg».proof.Proof.Gen.Kernel
import proofs.«203152_g22136261444366_cont_8to1_1253_39_alg».proof.Proof.Gen.Kernel.Skeleton

noncomputable section

namespace Cert.Proof.KB.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

local notation "𝕄" => MT nD τ sig (HIx 1) (Elt F) ℕ UU ℕ

abbrev EH : Emb UH (MT nD τ sig (HIx 1) (Elt F) ℕ UU ℕ) := embL

/-! ## The nine arrays of the call -/

abbrev r (b : Ref sig .tc) : DevRef τ sig := Proc.devRef .tc b
abbrev S9 : Finset (DevRef τ sig) :=
  {r main_arg0, r main_arg1, r main_arg2, r main_v0, r main_v1, r main_v2, r main_v3_0, r main_v3_1, r main_v3_2}

/-- A multi-index from natural numbers, each taken modulo its axis: no in-range proof is owed to state it. -/
def clampIdx (s : Shape) (hs : ∀ a, 0 < s.size a) (x : Fin s.rank → ℕ) : s.Idx := fun a => ⟨x a % s.size a, Nat.mod_lt _ (hs a)⟩
theorem pos_S16384 : ∀ a, 0 < S16384.size a := by decide
theorem pos_S125000x8x64 : ∀ a, 0 < S125000x8x64.size a := by decide

/-- The gathered rows: row `i` of the result is sub-row `v &&& 7` of row `v >>> 3` of the table, `v` the `i`-th index word. -/
def Gathered3 {E : Type} (tbl : S125000x8x64.Idx → E) (ids : S16384.Idx → BitVec 32) : S16384x1x64.Idx → E := fun i =>
  tbl (clampIdx S125000x8x64 pos_S125000x8x64
    ![((ids (clampIdx S16384 pos_S16384 ![(i 0).val])) >>> 3).toNat, ((ids (clampIdx S16384 pos_S16384 ![(i 0).val])) &&& 7#32).toNat, (i 2).val])

/-- The valuation after the call: the three results at the gathered rows, everything else as it was. -/
def Vsc (W : Valuation τ sig (Elt F)) : Valuation τ sig (Elt F) :=
  Function.update (Function.update (Function.update W
    (r main_v3_0) (Gathered3 (W (r main_v0)) (W (r main_arg0))))
    (r main_v3_1) (Gathered3 (W (r main_v1)) (W (r main_arg1))))
    (r main_v3_2) (Gathered3 (W (r main_v2)) (W (r main_arg2)))

theorem sc_frame (W : Valuation τ sig (Elt F)) (b : DevRef τ sig) (hb : b ∉ S9) : Vsc W b = W b := by
  have h : ∀ x ∈ S9, b ≠ x := fun x hx e => hb (e ▸ hx)
  unfold Vsc
  rw [Function.update_of_ne (h _ (by decide)), Function.update_of_ne (h _ (by decide)), Function.update_of_ne (h _ (by decide))]

/-- What the proof asks of the index arrays: every word is at most 999999 (a row of the table). -/
def PreOK (W : Dev nD → Valuation τ sig (Elt F)) : Prop :=
  ∀ (d : Dev nD) (j : S16384.Idx),
    (W d (r main_arg0) j : BitVec 32).toNat ≤ 999999 ∧ (W d (r main_arg1) j : BitVec 32).toNat ≤ 999999 ∧ (W d (r main_arg2) j : BitVec 32).toNat ≤ 999999

/-! ## The tiles' ranges and shares -/

theorem hdiv_i : 32 ∣ S16384.size 0 := ⟨512, rfl⟩
theorem hdiv_o : 32 ∣ S16384x1x64.size 0 := ⟨512, rfl⟩
/-- The 512 index words, and the 512 result rows, of worker `w`. -/
abbrev idxSet (w : Fin 32) : Finset S16384.Idx := (Rect.part (s := S16384) (a₀ := 0) hdiv_i w).set
abbrev outSet (w : Fin 32) : Finset S16384x1x64.Idx := (Rect.part (s := S16384x1x64) (a₀ := 0) hdiv_o w).set
/-- The worker number of vector subcore `i` of SparseCore `c`: `2 i + c`. -/
def wid (c : Fin 2) (i : Fin 16) : Fin 32 := ⟨2 * i.val + c.val, by omega⟩
/-- A SparseCore's read share of a table: a half; a tile's: the `i`-th token of its SparseCore's half. -/
def coreShare (c : Fin 2) : PosShare TreeShare := if c.val = 0 then fullShare.left else fullShare.right
def tileShare (c : Fin 2) (i : Fin 16) : PosShare TreeShare := Transfers.shareTok (coreShare c) 16 i

section PayDefs
variable (W : Dev nD → Valuation τ sig (Elt F)) (d : Dev nD)

/-- The index words of worker `w`, the three arrays'. -/
def idxRows (w : Fin 32) : sProp 𝕄 :=
  iprop(((d, r main_arg0) ↦[idxSet w]{fullShare} W d (r main_arg0)) ∗ ((d, r main_arg1) ↦[idxSet w]{fullShare} W d (r main_arg1))
    ∗ ((d, r main_arg2) ↦[idxSet w]{fullShare} W d (r main_arg2)))
/-- The result rows of worker `w` at whatever they hold; -/
def outRowsAny (w : Fin 32) : sProp 𝕄 :=
  iprop((∃ f, (d, r main_v3_0) ↦[outSet w]{fullShare} f) ∗ (∃ f, (d, r main_v3_1) ↦[outSet w]{fullShare} f) ∗ (∃ f, (d, r main_v3_2) ↦[outSet w]{fullShare} f))
/-- at the gathered rows. -/
def outRowsDone (w : Fin 32) : sProp 𝕄 :=
  iprop(((d, r main_v3_0) ↦[outSet w]{fullShare} Vsc (W d) (r main_v3_0)) ∗ ((d, r main_v3_1) ↦[outSet w]{fullShare} Vsc (W d) (r main_v3_1))
    ∗ ((d, r main_v3_2) ↦[outSet w]{fullShare} Vsc (W d) (r main_v3_2)))
/-- The three tables whole at a read share. -/
def tables (q : PosShare TreeShare) : sProp 𝕄 :=
  iprop(((d, r main_v0) ↦{q} W d (r main_v0)) ∗ ((d, r main_v1) ↦{q} W d (r main_v1)) ∗ ((d, r main_v2) ↦{q} W d (r main_v2)))

end PayDefs

/-- The one call: a SparseCore is handed its sixteen workers' index words and result rows and a half share of the
    tables; a tile its worker's words and rows and a token of that share; back the same, the rows at the gathered rows. -/
def P (W : Dev nD → Valuation τ sig (Elt F)) : (K (F := F)).Pay (nD := nD) (Val := Elt F) (Name := ℕ) (U := UU) where
  st := fun q d c => match q with
    | 0 => iprop((bigSep Finset.univ fun i : Fin 16 => iprop(idxRows W d (wid (Fin.cast nCore_zero c) i) ∗ outRowsAny d (wid (Fin.cast nCore_zero c) i)))
        ∗ tables W d (coreShare (Fin.cast nCore_zero c)))
  dn := fun q d c => match q with
    | 0 => iprop((bigSep Finset.univ fun i : Fin 16 => iprop(idxRows W d (wid (Fin.cast nCore_zero c) i) ∗ outRowsDone W d (wid (Fin.cast nCore_zero c) i)))
        ∗ tables W d (coreShare (Fin.cast nCore_zero c)))
  go := fun q d c i => match q with
    | 0 => iprop((idxRows W d (wid (Fin.cast nCore_zero c) (Fin.cast nSub_zero i)) ∗ outRowsAny d (wid (Fin.cast nCore_zero c) (Fin.cast nSub_zero i)))
        ∗ tables W d (tileShare (Fin.cast nCore_zero c) (Fin.cast nSub_zero i)))
  td := fun q d c i => match q with
    | 0 => iprop((idxRows W d (wid (Fin.cast nCore_zero c) (Fin.cast nSub_zero i)) ∗ outRowsDone W d (wid (Fin.cast nCore_zero c) (Fin.cast nSub_zero i)))
        ∗ tables W d (tileShare (Fin.cast nCore_zero c) (Fin.cast nSub_zero i)))
  x := fun _ _ => iprop(emp)

instance P_storable (W : Dev nD → Valuation τ sig (Elt F)) : (P (F := F) W).IsStorable where
  st q d c := match q with | 0 => by unfold P idxRows outRowsAny tables; infer_instance
  dn q d c := match q with | 0 => by unfold P idxRows outRowsDone tables; infer_instance
  go q d c i := match q with | 0 => by unfold P idxRows outRowsAny tables; infer_instance
  td q d c i := match q with | 0 => by unfold P idxRows outRowsDone tables; infer_instance

variable [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Cert.Proof.KB.Sc

end
-- ==== Proof.BScSplit.lean ====
/-
  The SparseCore gather call's operands: how the TensorCore's nine arrays become the two SparseCores' shares and
  come back (the index arrays and the results by the workers' 512-row ranges, the tables by read shares), and how a
  SparseCore's share splits among its sixteen tiles and is gathered from theirs.
-/
import proofs.«203152_g22136261444366_cont_8to1_1253_39_alg».proof.Proof.BScPay
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KB.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

/-! ## Workers by SparseCore and vector subcore -/

section Reindex

variable {M : Type} [URA M]

theorem wid_inj : Set.InjOn (fun p : Fin 2 × Fin 16 => wid p.1 p.2) ((Finset.univ ×ˢ Finset.univ : Finset (Fin 2 × Fin 16)) : Set (Fin 2 × Fin 16)) := by
  rintro ⟨a1, a2⟩ _ ⟨b1, b2⟩ _ e
  have h : 2 * a2.val + a1.val = 2 * b2.val + b1.val := congrArg Fin.val e
  have h1 := a1.isLt; have h2 := b1.isLt
  have h3 := a2.isLt; have h4 := b2.isLt
  refine Prod.ext (Fin.ext ?_) (Fin.ext ?_)
  · show a1.val = b1.val; omega
  · show a2.val = b2.val; omega

theorem wid_image : (Finset.univ ×ˢ Finset.univ : Finset (Fin 2 × Fin 16)).image (fun p => wid p.1 p.2) = Finset.univ := by
  rw [Finset.eq_univ_iff_forall]; intro w
  have hw := w.isLt
  rw [Finset.mem_image]
  exact ⟨(⟨w.val % 2, by omega⟩, ⟨w.val / 2, by omega⟩), Finset.mem_product.mpr ⟨Finset.mem_univ _, Finset.mem_univ _⟩,
    Fin.ext (show 2 * (w.val / 2) + w.val % 2 = w.val by omega)⟩

/-- The 32 workers are the 2 × 16 pairs (SparseCore, vector subcore). -/
theorem bigSep_wid (Φ : Fin 32 → sProp M) :
    bigSep Finset.univ Φ = bigSep Finset.univ fun c : Fin 2 => bigSep Finset.univ fun i : Fin 16 => Φ (wid c i) := by
  rw [← wid_image, SparseCore.bigSep_image_of_injOn wid_inj Φ]
  exact SparseCore.bigSep_product Finset.univ Finset.univ (fun p : Fin 2 × Fin 16 => Φ (wid p.1 p.2))

theorem bigSep_wid2 (Φ : Fin 32 → sProp M) :
    bigSep Finset.univ Φ = iprop((bigSep Finset.univ fun i : Fin 16 => Φ (wid 0 i)) ∗ bigSep Finset.univ fun i : Fin 16 => Φ (wid 1 i)) := by
  rw [bigSep_wid, bigSep_univ_two]

end Reindex

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## The arrays by workers' ranges -/

theorem idx_disjoint : ∀ i ∈ (Finset.univ : Finset (Fin 32)), ∀ j ∈ (Finset.univ : Finset (Fin 32)), i ≠ j → Disjoint (idxSet i) (idxSet j) :=
  fun i _ j _ h => Rect.part_disjoint hdiv_i h
theorem idx_cover : (Finset.univ : Finset (Fin 32)).biUnion idxSet = Finset.univ := Rect.biUnion_part hdiv_i
theorem out_disjoint : ∀ i ∈ (Finset.univ : Finset (Fin 32)), ∀ j ∈ (Finset.univ : Finset (Fin 32)), i ≠ j → Disjoint (outSet i) (outSet j) :=
  fun i _ j _ h => Rect.part_disjoint hdiv_o h
theorem out_cover : (Finset.univ : Finset (Fin 32)).biUnion outSet = Finset.univ := Rect.biUnion_part hdiv_o

section Rows

variable (d : Dev nD)

theorem rows_main_arg0 (f : Buf (Elt F) ((d, r main_arg0) : Loc nD τ sig)) :
    (((d, r main_arg0) : Loc nD τ sig) ↦{fullShare} f : sProp 𝕄)
      = iprop((bigSep Finset.univ fun i : Fin 16 => ((d, r main_arg0) : Loc nD τ sig) ↦[idxSet (wid 0 i)]{fullShare} f) ∗ bigSep Finset.univ fun i : Fin 16 => ((d, r main_arg0) : Loc nD τ sig) ↦[idxSet (wid 1 i)]{fullShare} f) := by
  rw [← bigSep_wid2 (fun w => (((d, r main_arg0) : Loc nD τ sig) ↦[idxSet w]{fullShare} f : sProp 𝕄)), ← pointsTo_biUnion Finset.univ (ℓ := ((d, r main_arg0) : Loc nD τ sig)) idxSet idx_disjoint, idx_cover]; try rfl

theorem rows_main_arg1 (f : Buf (Elt F) ((d, r main_arg1) : Loc nD τ sig)) :
    (((d, r main_arg1) : Loc nD τ sig) ↦{fullShare} f : sProp 𝕄)
      = iprop((bigSep Finset.univ fun i : Fin 16 => ((d, r main_arg1) : Loc nD τ sig) ↦[idxSet (wid 0 i)]{fullShare} f) ∗ bigSep Finset.univ fun i : Fin 16 => ((d, r main_arg1) : Loc nD τ sig) ↦[idxSet (wid 1 i)]{fullShare} f) := by
  rw [← bigSep_wid2 (fun w => (((d, r main_arg1) : Loc nD τ sig) ↦[idxSet w]{fullShare} f : sProp 𝕄)), ← pointsTo_biUnion Finset.univ (ℓ := ((d, r main_arg1) : Loc nD τ sig)) idxSet idx_disjoint, idx_cover]; try rfl

theorem rows_main_arg2 (f : Buf (Elt F) ((d, r main_arg2) : Loc nD τ sig)) :
    (((d, r main_arg2) : Loc nD τ sig) ↦{fullShare} f : sProp 𝕄)
      = iprop((bigSep Finset.univ fun i : Fin 16 => ((d, r main_arg2) : Loc nD τ sig) ↦[idxSet (wid 0 i)]{fullShare} f) ∗ bigSep Finset.univ fun i : Fin 16 => ((d, r main_arg2) : Loc nD τ sig) ↦[idxSet (wid 1 i)]{fullShare} f) := by
  rw [← bigSep_wid2 (fun w => (((d, r main_arg2) : Loc nD τ sig) ↦[idxSet w]{fullShare} f : sProp 𝕄)), ← pointsTo_biUnion Finset.univ (ℓ := ((d, r main_arg2) : Loc nD τ sig)) idxSet idx_disjoint, idx_cover]; try rfl

theorem rows_main_v3_0 (f : Buf (Elt F) ((d, r main_v3_0) : Loc nD τ sig)) :
    (((d, r main_v3_0) : Loc nD τ sig) ↦{fullShare} f : sProp 𝕄)
      = iprop((bigSep Finset.univ fun i : Fin 16 => ((d, r main_v3_0) : Loc nD τ sig) ↦[outSet (wid 0 i)]{fullShare} f) ∗ bigSep Finset.univ fun i : Fin 16 => ((d, r main_v3_0) : Loc nD τ sig) ↦[outSet (wid 1 i)]{fullShare} f) := by
  rw [← bigSep_wid2 (fun w => (((d, r main_v3_0) : Loc nD τ sig) ↦[outSet w]{fullShare} f : sProp 𝕄)), ← pointsTo_biUnion Finset.univ (ℓ := ((d, r main_v3_0) : Loc nD τ sig)) outSet out_disjoint, out_cover]; try rfl

theorem rows_main_v3_1 (f : Buf (Elt F) ((d, r main_v3_1) : Loc nD τ sig)) :
    (((d, r main_v3_1) : Loc nD τ sig) ↦{fullShare} f : sProp 𝕄)
      = iprop((bigSep Finset.univ fun i : Fin 16 => ((d, r main_v3_1) : Loc nD τ sig) ↦[outSet (wid 0 i)]{fullShare} f) ∗ bigSep Finset.univ fun i : Fin 16 => ((d, r main_v3_1) : Loc nD τ sig) ↦[outSet (wid 1 i)]{fullShare} f) := by
  rw [← bigSep_wid2 (fun w => (((d, r main_v3_1) : Loc nD τ sig) ↦[outSet w]{fullShare} f : sProp 𝕄)), ← pointsTo_biUnion Finset.univ (ℓ := ((d, r main_v3_1) : Loc nD τ sig)) outSet out_disjoint, out_cover]; try rfl

theorem rows_main_v3_2 (f : Buf (Elt F) ((d, r main_v3_2) : Loc nD τ sig)) :
    (((d, r main_v3_2) : Loc nD τ sig) ↦{fullShare} f : sProp 𝕄)
      = iprop((bigSep Finset.univ fun i : Fin 16 => ((d, r main_v3_2) : Loc nD τ sig) ↦[outSet (wid 0 i)]{fullShare} f) ∗ bigSep Finset.univ fun i : Fin 16 => ((d, r main_v3_2) : Loc nD τ sig) ↦[outSet (wid 1 i)]{fullShare} f) := by
  rw [← bigSep_wid2 (fun w => (((d, r main_v3_2) : Loc nD τ sig) ↦[outSet w]{fullShare} f : sProp 𝕄)), ← pointsTo_biUnion Finset.univ (ℓ := ((d, r main_v3_2) : Loc nD τ sig)) outSet out_disjoint, out_cover]; try rfl

theorem coreShare_zero : coreShare 0 = fullShare.left := if_pos rfl
theorem coreShare_one : coreShare 1 = fullShare.right := if_neg (by decide)

theorem halves {ℓ : Loc nD τ sig} (f : Buf (Elt F) ℓ) :
    (ℓ ↦{fullShare} f : sProp 𝕄) ⊣⊢ iprop((ℓ ↦{coreShare 0} f) ∗ ℓ ↦{coreShare 1} f) := by
  rw [coreShare_zero, coreShare_one]; exact pointsTo_share (PosShare.mem_left_op_right _)

theorem held_S9 (V : Valuation τ sig (Elt F)) :
    (held (T d) S9 V : sProp 𝕄)
      = iprop((((d, r main_arg0) : Loc nD τ sig) ↦{fullShare} V (r main_arg0)) ∗ (((d, r main_arg1) : Loc nD τ sig) ↦{fullShare} V (r main_arg1)) ∗ (((d, r main_arg2) : Loc nD τ sig) ↦{fullShare} V (r main_arg2)) ∗ (((d, r main_v0) : Loc nD τ sig) ↦{fullShare} V (r main_v0)) ∗ (((d, r main_v1) : Loc nD τ sig) ↦{fullShare} V (r main_v1)) ∗ (((d, r main_v2) : Loc nD τ sig) ↦{fullShare} V (r main_v2)) ∗ (((d, r main_v3_0) : Loc nD τ sig) ↦{fullShare} V (r main_v3_0)) ∗ (((d, r main_v3_1) : Loc nD τ sig) ↦{fullShare} V (r main_v3_1)) ∗ (((d, r main_v3_2) : Loc nD τ sig) ↦{fullShare} V (r main_v3_2))) := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  try rfl

end Rows

/-! ## A SparseCore's share of the call -/

section Core

variable (W : Dev nD → Valuation τ sig (Elt F)) (d : Dev nD)

def stC (c : Fin 2) : sProp 𝕄 :=
  iprop((bigSep Finset.univ fun i : Fin 16 => iprop(idxRows W d (wid c i) ∗ outRowsAny d (wid c i))) ∗ tables W d (coreShare c))
def dnC (c : Fin 2) : sProp 𝕄 :=
  iprop((bigSep Finset.univ fun i : Fin 16 => iprop(idxRows W d (wid c i) ∗ outRowsDone W d (wid c i))) ∗ tables W d (coreShare c))
def goC (c : Fin 2) (i : Fin 16) : sProp 𝕄 :=
  iprop((idxRows W d (wid c i) ∗ outRowsAny d (wid c i)) ∗ tables W d (tileShare c i))
def tdC (c : Fin 2) (i : Fin 16) : sProp 𝕄 :=
  iprop((idxRows W d (wid c i) ∗ outRowsDone W d (wid c i)) ∗ tables W d (tileShare c i))

theorem P_st (c : Fin ((K (F := F)).nCore 0)) : (P W).st 0 d c = stC W d (Fin.cast nCore_zero c) := rfl
theorem P_dn (c : Fin ((K (F := F)).nCore 0)) : (P W).dn 0 d c = dnC W d (Fin.cast nCore_zero c) := rfl
theorem P_go (c : Fin ((K (F := F)).nCore 0)) (i : Fin ((K (F := F)).nSub 0)) : (P W).go 0 d c i = goC W d (Fin.cast nCore_zero c) (Fin.cast nSub_zero i) := rfl
theorem P_td (c : Fin ((K (F := F)).nCore 0)) (i : Fin ((K (F := F)).nSub 0)) : (P W).td 0 d c i = tdC W d (Fin.cast nCore_zero c) (Fin.cast nSub_zero i) := rfl

/-- The pieces of a SparseCore's share, array by array. -/
def piecesC (c : Fin 2) (g0 : Buf (Elt F) ((d, r main_v3_0) : Loc nD τ sig)) (g1 : Buf (Elt F) ((d, r main_v3_1) : Loc nD τ sig)) (g2 : Buf (Elt F) ((d, r main_v3_2) : Loc nD τ sig)) : sProp 𝕄 :=
  iprop((bigSep Finset.univ fun i : Fin 16 => ((d, r main_arg0) : Loc nD τ sig) ↦[idxSet (wid c i)]{fullShare} W d (r main_arg0))
    ∗ (bigSep Finset.univ fun i : Fin 16 => ((d, r main_arg1) : Loc nD τ sig) ↦[idxSet (wid c i)]{fullShare} W d (r main_arg1))
    ∗ (bigSep Finset.univ fun i : Fin 16 => ((d, r main_arg2) : Loc nD τ sig) ↦[idxSet (wid c i)]{fullShare} W d (r main_arg2))
    ∗ (bigSep Finset.univ fun i : Fin 16 => ((d, r main_v3_0) : Loc nD τ sig) ↦[outSet (wid c i)]{fullShare} g0)
    ∗ (bigSep Finset.univ fun i : Fin 16 => ((d, r main_v3_1) : Loc nD τ sig) ↦[outSet (wid c i)]{fullShare} g1)
    ∗ (bigSep Finset.univ fun i : Fin 16 => ((d, r main_v3_2) : Loc nD τ sig) ↦[outSet (wid c i)]{fullShare} g2)
    ∗ (((d, r main_v0) : Loc nD τ sig) ↦{coreShare c} W d (r main_v0)) ∗ (((d, r main_v1) : Loc nD τ sig) ↦{coreShare c} W d (r main_v1)) ∗ (((d, r main_v2) : Loc nD τ sig) ↦{coreShare c} W d (r main_v2)))

theorem bigSep_ex {ℓ : Loc nD τ sig} (Ks : Fin 16 → Finset (Idx ℓ)) (g : Buf (Elt F) ℓ) :
    (bigSep Finset.univ fun i : Fin 16 => (ℓ ↦[Ks i]{fullShare} g : sProp 𝕄)) ⊢ bigSep Finset.univ fun i : Fin 16 => iprop(∃ f, ℓ ↦[Ks i]{fullShare} f) :=
  BI.bigSep_mono fun i _ => by
    show (ℓ ↦[Ks i]{fullShare} g : sProp 𝕄) ⊢ iprop(∃ f, ℓ ↦[Ks i]{fullShare} f)
    iintro H; iexists g; iexact H

theorem stC_intro (c : Fin 2) (g0 g1 g2) : piecesC W d c g0 g1 g2 ⊢ stC W d c := by
  unfold piecesC stC idxRows outRowsAny tables
  rw [bigSep_sep', bigSep_sep', bigSep_sep', bigSep_sep', bigSep_sep']
  iintro ⟨Hi0, Hi1, Hi2, Ho0, Ho1, Ho2, Ht0, Ht1, Ht2⟩
  isplitl [Hi0 Hi1 Hi2 Ho0 Ho1 Ho2]
  · isplitl [Hi0 Hi1 Hi2]
    · isplitl [Hi0]; · iexact Hi0
      isplitl [Hi1]; · iexact Hi1
      iexact Hi2
    · isplitl [Ho0]; · iapply (bigSep_ex (ℓ := ((d, r main_v3_0) : Loc nD τ sig)) (fun i => outSet (wid c i)) g0); iexact Ho0
      isplitl [Ho1]; · iapply (bigSep_ex (ℓ := ((d, r main_v3_1) : Loc nD τ sig)) (fun i => outSet (wid c i)) g1); iexact Ho1
      iapply (bigSep_ex (ℓ := ((d, r main_v3_2) : Loc nD τ sig)) (fun i => outSet (wid c i)) g2); iexact Ho2
  · isplitl [Ht0]; · iexact Ht0
    isplitl [Ht1]; · iexact Ht1
    iexact Ht2

theorem dnC_elim (c : Fin 2) : dnC W d c ⊢ piecesC W d c (Vsc (W d) (r main_v3_0)) (Vsc (W d) (r main_v3_1)) (Vsc (W d) (r main_v3_2)) := by
  unfold piecesC dnC idxRows outRowsDone tables
  rw [bigSep_sep', bigSep_sep', bigSep_sep', bigSep_sep', bigSep_sep']
  iintro ⟨⟨⟨Hi0, Hi1, Hi2⟩, Ho0, Ho1, Ho2⟩, Ht0, Ht1, Ht2⟩
  isplitl [Hi0]; · iexact Hi0
  isplitl [Hi1]; · iexact Hi1
  isplitl [Hi2]; · iexact Hi2
  isplitl [Ho0]; · iexact Ho0
  isplitl [Ho1]; · iexact Ho1
  isplitl [Ho2]; · iexact Ho2
  isplitl [Ht0]; · iexact Ht0
  isplitl [Ht1]; · iexact Ht1
  iexact Ht2

end Core

/-! ## The call's operands out and back -/

theorem Vsc_of_ne (V : Valuation τ sig (Elt F)) (b : DevRef τ sig) (h0 : b ≠ r main_v3_0) (h1 : b ≠ r main_v3_1) (h2 : b ≠ r main_v3_2) : Vsc V b = V b := by
  unfold Vsc; rw [Function.update_of_ne h2, Function.update_of_ne h1, Function.update_of_ne h0]

theorem st_intro (W : Dev nD → Valuation τ sig (Elt F)) (d : Dev nD) :
    (held (T d) S9 (W d) : sProp 𝕄) ⊢ bigSep Finset.univ fun c : Fin ((K (F := F)).nCore 0) => (P W).st 0 d c := by
  show _ ⊢ bigSep Finset.univ fun c : Fin ((K (F := F)).nCore 0) => stC W d (Fin.cast nCore_zero c)
  rw [bigSep_cores (F := F) (stC W d), bigSep_univ_two, held_S9]
  rw [rows_main_arg0, rows_main_arg1, rows_main_arg2, rows_main_v3_0, rows_main_v3_1, rows_main_v3_2]
  iintro ⟨⟨Ha0, Hb0⟩, ⟨Ha1, Hb1⟩, ⟨Ha2, Hb2⟩, Ht0, Ht1, Ht2, ⟨Hao0, Hbo0⟩, ⟨Hao1, Hbo1⟩, ⟨Hao2, Hbo2⟩⟩
  ihave Ht0' := (halves _).1 $$ Ht0
  ihave Ht1' := (halves _).1 $$ Ht1
  ihave Ht2' := (halves _).1 $$ Ht2
  icases Ht0' with ⟨Hat0, Hbt0⟩
  icases Ht1' with ⟨Hat1, Hbt1⟩
  icases Ht2' with ⟨Hat2, Hbt2⟩
  isplitl [Ha0 Ha1 Ha2 Hao0 Hao1 Hao2 Hat0 Hat1 Hat2]
  · iapply (stC_intro W d 0 (W d (r main_v3_0)) (W d (r main_v3_1)) (W d (r main_v3_2)))
    unfold piecesC
    isplitl [Ha0]; · iexact Ha0
    isplitl [Ha1]; · iexact Ha1
    isplitl [Ha2]; · iexact Ha2
    isplitl [Hao0]; · iexact Hao0
    isplitl [Hao1]; · iexact Hao1
    isplitl [Hao2]; · iexact Hao2
    isplitl [Hat0]; · iexact Hat0
    isplitl [Hat1]; · iexact Hat1
    iexact Hat2
  · iapply (stC_intro W d 1 (W d (r main_v3_0)) (W d (r main_v3_1)) (W d (r main_v3_2)))
    unfold piecesC
    isplitl [Hb0]; · iexact Hb0
    isplitl [Hb1]; · iexact Hb1
    isplitl [Hb2]; · iexact Hb2
    isplitl [Hbo0]; · iexact Hbo0
    isplitl [Hbo1]; · iexact Hbo1
    isplitl [Hbo2]; · iexact Hbo2
    isplitl [Hbt0]; · iexact Hbt0
    isplitl [Hbt1]; · iexact Hbt1
    iexact Hbt2

theorem dn_elim (W : Dev nD → Valuation τ sig (Elt F)) (d : Dev nD) :
    (bigSep Finset.univ fun c : Fin ((K (F := F)).nCore 0) => (P W).dn 0 d c) ⊢ (held (T d) S9 (Vsc (W d)) : sProp 𝕄) := by
  show (bigSep Finset.univ fun c : Fin ((K (F := F)).nCore 0) => dnC W d (Fin.cast nCore_zero c)) ⊢ _
  rw [bigSep_cores (F := F) (dnC W d), bigSep_univ_two, held_S9,
    Vsc_of_ne (W d) (r main_arg0) (by decide) (by decide) (by decide), Vsc_of_ne (W d) (r main_arg1) (by decide) (by decide) (by decide),
    Vsc_of_ne (W d) (r main_arg2) (by decide) (by decide) (by decide), Vsc_of_ne (W d) (r main_v0) (by decide) (by decide) (by decide),
    Vsc_of_ne (W d) (r main_v1) (by decide) (by decide) (by decide), Vsc_of_ne (W d) (r main_v2) (by decide) (by decide) (by decide)]
  rw [rows_main_arg0, rows_main_arg1, rows_main_arg2, rows_main_v3_0, rows_main_v3_1, rows_main_v3_2]
  iintro ⟨H0, H1⟩
  ihave H0' := (dnC_elim W d 0) $$ H0
  ihave H1' := (dnC_elim W d 1) $$ H1
  unfold piecesC
  icases H0' with ⟨Ha0, Ha1, Ha2, Hao0, Hao1, Hao2, Hat0, Hat1, Hat2⟩
  icases H1' with ⟨Hb0, Hb1, Hb2, Hbo0, Hbo1, Hbo2, Hbt0, Hbt1, Hbt2⟩
  isplitl [Ha0 Hb0]; · isplitl [Ha0]; · iexact Ha0
                       iexact Hb0
  isplitl [Ha1 Hb1]; · isplitl [Ha1]; · iexact Ha1
                       iexact Hb1
  isplitl [Ha2 Hb2]; · isplitl [Ha2]; · iexact Ha2
                       iexact Hb2
  isplitl [Hat0 Hbt0]; · iapply (halves _).2; isplitl [Hat0]; · iexact Hat0
                         iexact Hbt0
  isplitl [Hat1 Hbt1]; · iapply (halves _).2; isplitl [Hat1]; · iexact Hat1
                         iexact Hbt1
  isplitl [Hat2 Hbt2]; · iapply (halves _).2; isplitl [Hat2]; · iexact Hat2
                         iexact Hbt2
  isplitl [Hao0 Hbo0]; · isplitl [Hao0]; · iexact Hao0
                         iexact Hbo0
  isplitl [Hao1 Hbo1]; · isplitl [Hao1]; · iexact Hao1
                         iexact Hbo1
  isplitl [Hao2]; · iexact Hao2
  iexact Hbo2

/-! ## A SparseCore's share among its tiles -/

theorem tables_toks (W : Dev nD → Valuation τ sig (Elt F)) (d : Dev nD) (q : PosShare TreeShare) :
    tables W d q ⊣⊢ iprop(tables W d (Transfers.shareDrop q 16) ∗ bigSep Finset.univ fun i : Fin 16 => tables W d (Transfers.shareTok q 16 i)) := by
  unfold tables
  rw [bigSep_sep', bigSep_sep']
  constructor
  · iintro ⟨H0, H1, H2⟩
    ihave H0' := (Transfers.pointsTo_toks_split q 16) $$ H0
    ihave H1' := (Transfers.pointsTo_toks_split q 16) $$ H1
    ihave H2' := (Transfers.pointsTo_toks_split q 16) $$ H2
    icases H0' with ⟨D0, T0⟩
    icases H1' with ⟨D1, T1⟩
    icases H2' with ⟨D2, T2⟩
    isplitl [D0 D1 D2]
    · isplitl [D0]; · iexact D0
      isplitl [D1]; · iexact D1
      iexact D2
    isplitl [T0]; · iexact T0
    isplitl [T1]; · iexact T1
    iexact T2
  · iintro ⟨⟨D0, D1, D2⟩, T0, T1, T2⟩
    isplitl [D0 T0]; · iapply (Transfers.pointsTo_toks_join q 16); isplitl [D0]; · iexact D0
                       iexact T0
    isplitl [D1 T1]; · iapply (Transfers.pointsTo_toks_join q 16); isplitl [D1]; · iexact D1
                       iexact T1
    iapply (Transfers.pointsTo_toks_join q 16); isplitl [D2]; · iexact D2
    iexact T2

theorem vecSplit (W : Dev nD → Valuation τ sig (Elt F)) : (K (F := F)).VecSplit' (P W) 0 := by
  intro d c
  show stC W d (Fin.cast nCore_zero c) ⊢ |={Set.univ}=> iprop((bigSep Finset.univ fun i : Fin ((K (F := F)).nSub 0) => goC W d (Fin.cast nCore_zero c) (Fin.cast nSub_zero i))
      ∗ ((bigSep Finset.univ fun i : Fin ((K (F := F)).nSub 0) => tdC W d (Fin.cast nCore_zero c) (Fin.cast nSub_zero i)) -∗ dnC W d (Fin.cast nCore_zero c)))
  rw [bigSep_tasks (F := F) (goC W d (Fin.cast nCore_zero c)), bigSep_tasks (F := F) (tdC W d (Fin.cast nCore_zero c))]
  generalize Fin.cast nCore_zero c = cc
  unfold stC goC tdC dnC tileShare
  rw [bigSep_sep' Finset.univ (fun i : Fin 16 => iprop(idxRows W d (wid cc i) ∗ outRowsAny d (wid cc i))) (fun i => tables W d (Transfers.shareTok (coreShare cc) 16 i)),
    bigSep_sep' Finset.univ (fun i : Fin 16 => iprop(idxRows W d (wid cc i) ∗ outRowsDone W d (wid cc i))) (fun i => tables W d (Transfers.shareTok (coreShare cc) 16 i))]
  iintro ⟨HR, HT⟩
  ihave HT' := (tables_toks W d (coreShare cc)).1 $$ HT
  icases HT' with ⟨HD, HTs⟩
  imodintro
  isplitl [HR HTs]
  · isplitl [HR]; · iexact HR
    iexact HTs
  iintro ⟨HR', HTs'⟩
  isplitl [HR']; · iexact HR'
  iapply (tables_toks W d (coreShare cc)).2
  isplitl [HD]; · iexact HD
  iexact HTs'

end Cert.Proof.KB.Sc

end
-- ==== Proof.BScTileBase.lean ====
/-
  The gather kernel as one vector subcore's task: the subcore's scratch buffers and DMA semaphores out of its own,
  the rows of the rows scratch, and one row copy of the batch on the kernel's DMA semaphore.
-/
import proofs.«203152_g22136261444366_cont_8to1_1253_39_alg».proof.Proof.BScPay
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import Idealize.ShloMosaic.Lib.Ring

noncomputable section

namespace Cert.Proof.KB.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

open Idealize.ShloMosaic.Tactic

local notation "a2" => (Memref.whole Cert.Kernel.main_arg0_scv : Memref Cert.Kernel.sig Kind.scVector Space.hbm Cert.Kernel.S16384 EltTy.i32)
local notation "a3" => (Memref.whole Cert.Kernel.main_arg1_scv : Memref Cert.Kernel.sig Kind.scVector Space.hbm Cert.Kernel.S16384 EltTy.i32)
local notation "a4" => (Memref.whole Cert.Kernel.main_arg2_scv : Memref Cert.Kernel.sig Kind.scVector Space.hbm Cert.Kernel.S16384 EltTy.i32)
local notation "a5" => (Memref.whole Cert.Kernel.main_v0_scv : Memref Cert.Kernel.sig Kind.scVector Space.hbm Cert.Kernel.S125000x8x64 EltTy.f32)
local notation "a6" => (Memref.whole Cert.Kernel.main_v1_scv : Memref Cert.Kernel.sig Kind.scVector Space.hbm Cert.Kernel.S125000x8x64 EltTy.f32)
local notation "a7" => (Memref.whole Cert.Kernel.main_v2_scv : Memref Cert.Kernel.sig Kind.scVector Space.hbm Cert.Kernel.S125000x8x64 EltTy.f32)
local notation "a8" => (Memref.whole Cert.Kernel.main_v3_0_scv : Memref Cert.Kernel.sig Kind.scVector Space.hbm Cert.Kernel.S16384x1x64 EltTy.f32)
local notation "a9" => (Memref.whole Cert.Kernel.main_v3_1_scv : Memref Cert.Kernel.sig Kind.scVector Space.hbm Cert.Kernel.S16384x1x64 EltTy.f32)
local notation "a10" => (Memref.whole Cert.Kernel.main_v3_2_scv : Memref Cert.Kernel.sig Kind.scVector Space.hbm Cert.Kernel.S16384x1x64 EltTy.f32)
local notation "s11" => (Memref.whole Cert.Kernel.cc0_scratch0 : Memref Cert.Kernel.sig Kind.scVector Space.vmem Cert.Kernel.S512 EltTy.i32)
local notation "s12" => (Memref.whole Cert.Kernel.cc0_scratch1 : Memref Cert.Kernel.sig Kind.scVector Space.vmem Cert.Kernel.S512x1x64 EltTy.f32)

variable [FloatOps F]

abbrev cV (L : grid0.Coords) : Fin τ.nSC := (L 0).castLE hcore0
abbrev jV (L : grid0.Coords) : Fin τ.nSub := (L 1).castLE hsub0
abbrev EC : UEmb Counters (MT nD τ sig (HIx 1) (Elt F) ℕ UU ℕ) := countersEmb (U := UU)

section Own

variable (d : Dev nD) (L : grid0.Coords)

omit [FloatOps F] in
theorem ownSems0_V :
    (ownSems0 (V d (cV L) (jV L)) : sProp 𝕄)
      = iprop(semVal ((V d (cV L) (jV L), SemLoc.dma cc0_scratch2.sem) : GSem nD τ sig) 0
          ∗ semVal ((V d (cV L) (jV L), SemLoc.dma cc0_scoped0.sem) : GSem nD τ sig) 0
          ∗ semVal ((V d (cV L) (jV L), SemLoc.dma cc0_scoped1.sem) : GSem nD τ sig) 0
          ∗ semVal ((V d (cV L) (jV L), SemLoc.dma cc0_scoped2.sem) : GSem nD τ sig) 0
          ∗ semVal ((V d (cV L) (jV L), SemLoc.dma cc0_scoped3.sem) : GSem nD τ sig) 0
          ∗ semVal ((V d (cV L) (jV L), SemLoc.dma cc0_scoped4.sem) : GSem nD τ sig) 0
          ∗ semVal ((V d (cV L) (jV L), SemLoc.dma cc0_scoped5.sem) : GSem nD τ sig) 0
          ∗ bigSep ((((((((ownCells (V d (cV L) (jV L))).erase ((V d (cV L) (jV L), SemLoc.dma cc0_scratch2.sem) : GSem nD τ sig)).erase ((V d (cV L) (jV L), SemLoc.dma cc0_scoped0.sem) : GSem nD τ sig)).erase ((V d (cV L) (jV L), SemLoc.dma cc0_scoped1.sem) : GSem nD τ sig)).erase ((V d (cV L) (jV L), SemLoc.dma cc0_scoped2.sem) : GSem nD τ sig)).erase ((V d (cV L) (jV L), SemLoc.dma cc0_scoped3.sem) : GSem nD τ sig)).erase ((V d (cV L) (jV L), SemLoc.dma cc0_scoped4.sem) : GSem nD τ sig)).erase ((V d (cV L) (jV L), SemLoc.dma cc0_scoped5.sem) : GSem nD τ sig)) fun g => semVal g 0) := by
  unfold SparseCore.Cfg.ownSems0
  rw [SparseCore.bigSep_erase' ((mem_ownCells (g := ((V d (cV L) (jV L), SemLoc.dma cc0_scratch2.sem) : GSem nD τ sig))).mpr ⟨rfl, by show (SemLoc.dma cc0_scratch2.sem : SemLoc sig).isScoped .scVector = true; decide⟩),
    SparseCore.bigSep_erase' (Finset.mem_erase.mpr ⟨fun e => absurd (Prod.mk.inj e).2 (by decide), (mem_ownCells (g := ((V d (cV L) (jV L), SemLoc.dma cc0_scoped0.sem) : GSem nD τ sig))).mpr ⟨rfl, by show (SemLoc.dma cc0_scoped0.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := ((V d (cV L) (jV L), SemLoc.dma cc0_scoped1.sem) : GSem nD τ sig))).mpr ⟨rfl, by show (SemLoc.dma cc0_scoped1.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), SemLoc.dma cc0_scoped2.sem) : GSem nD τ sig))).mpr ⟨rfl, by show (SemLoc.dma cc0_scoped2.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), SemLoc.dma cc0_scoped3.sem) : GSem nD τ sig))).mpr ⟨rfl, by show (SemLoc.dma cc0_scoped3.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), SemLoc.dma cc0_scoped4.sem) : GSem nD τ sig))).mpr ⟨rfl, by show (SemLoc.dma cc0_scoped4.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((V d (cV L) (jV L), SemLoc.dma cc0_scoped5.sem) : GSem nD τ sig))).mpr ⟨rfl, by show (SemLoc.dma cc0_scoped5.sem : SemLoc sig).isScoped .scVector = true; decide⟩⟩⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Own

/-! ## Words and rows -/

theorem pos_S512 : ∀ a, 0 < S512.size a := by decide
theorem pos_S16 : ∀ a, 0 < S16.size a := by decide
/-- Position `t` of the index scratch. -/
def ix512 (t : ℕ) : S512.Idx := clampIdx S512 pos_S512 ![t]

theorem shrui3 (v : BitVec 32) : IntOp.shrui .vector v 3#32 = v >>> 3 := by
  unfold IntOp.shrui; simp

theorem andi7 (v : BitVec 32) : IntOp.andi v 7#32 = v &&& 7#32 := rfl

/-- A word at most 999999 names a row of the table: its row number is below 125000, its sub-row below 8. -/
theorem chk_of_le (v : BitVec 32) (h : v.toNat ≤ 999999) :
    ∀ x, (![(IntOp.shrui .vector v 3#32).toNat, (IntOp.andi v 7#32).toNat, 0] : Fin 3 → ℕ) x + S1x1x64.size x ≤ S125000x8x64.size x := by
  have hA : (IntOp.shrui .vector v 3#32).toNat ≤ 124999 := by
    rw [shrui3, BitVec.toNat_ushiftRight, Nat.shiftRight_eq_div_pow]; omega
  have hB : (IntOp.andi v 7#32).toNat ≤ 7 := by
    rw [andi7, BitVec.toNat_and]; exact Nat.and_le_right
  intro x; fin_cases x
  · show (IntOp.shrui .vector v 3#32).toNat + 1 ≤ 125000; omega
  · show (IntOp.andi v 7#32).toNat + 1 ≤ 8; omega
  · show 0 + 64 ≤ 64; omega

theorem row_inb (t : Fin 512) : ∀ a, (![t.val, 0, 0] : Fin 3 → ℕ) a + S1x1x64.size a ≤ S512x1x64.size a := by
  have := t.isLt; intro a; fin_cases a
  · show t.val + 1 ≤ 512; omega
  · show 0 + 1 ≤ 1; omega
  · show 0 + 64 ≤ 64; omega
/-- Row `t` of the rows scratch, as the body slices it. -/
def rowM (t : Fin 512) : Memref sig .scVector .vmem S1x1x64 .f32 :=
  (s12).slice (Rect.unit (s := S512x1x64) ![t.val, 0, 0] S1x1x64.size (row_inb t)) (fun _ => rfl)

/-- One row copy's credit on the kernel's DMA semaphore. -/
abbrev NN : ℕ := (rowM ⟨0, by decide⟩).view.amount (.dma cc0_scratch2.sem)
theorem NN_eq : NN = 2048 := rfl

/-- Transfer `16 k + j`. -/
def t512 (k : Fin 32) (j : Fin 16) : Fin 512 := ⟨16 * k.val + j.val, by omega⟩

section Phase

variable (d : Dev nD) (L : grid0.Coords)
variable (tb : Memref sig .scVector .hbm S125000x8x64 .f32)
variable (fi : S512.Idx → BitVec 32) (hfi : ∀ x, (fi x).toNat ≤ 999999)
variable (q : PosShare TreeShare) (ft : Buf (Elt F) (tb.view.loc (V d (cV L) (jV L)))) (fd : S512x1x64.Idx → Elt F .f32)

/-- The row number and the sub-row transfer `t` reads: index word `t` shifted and masked. -/
def wordA (t : ℕ) : BitVec 32 := IntOp.shrui .vector (fi (ix512 t)) 3#32
def wordB (t : ℕ) : BitVec 32 := IntOp.andi (fi (ix512 t)) 7#32
include hfi in
theorem src_inb (t : ℕ) : ∀ x, (![(wordA fi t).toNat, (wordB fi t).toNat, 0] : Fin 3 → ℕ) x + S1x1x64.size x ≤ S125000x8x64.size x :=
  chk_of_le _ (hfi _)
/-- The table row transfer `t` reads. -/
def srcM (t : ℕ) : Memref sig .scVector .hbm S1x1x64 .f32 :=
  tb.slice (Rect.unit (s := S125000x8x64) ![(wordA fi t).toNat, (wordB fi t).toNat, 0] S1x1x64.size (src_inb fi hfi t)) (fun _ => rfl)

/-- What the rows scratch holds once transfer `t` has landed on base contents `fd`. -/
def landed (t : Fin 512) : S512x1x64.Idx → Elt F .f32 :=
  (rowM t).view.write (Elt F) fd (ReadAs.same.apply ((srcM tb fi hfi t.val).view.read (Elt F) ft)) Finset.univ

/-- Row `t` of the rows scratch at contents `f`; token `t` of the table; its source row; the rest of the token. -/
abbrev rowPt (t : Fin 512) (f : S512x1x64.Idx → Elt F .f32) : sProp (MT nD τ sig (HIx 1) (Elt F) ℕ UU ℕ) :=
  (rowM t).view.loc (V d (cV L) (jV L)) ↦[(rowM t).view.set]{fullShare} f
abbrev tokPt (t : Fin 512) : sProp (MT nD τ sig (HIx 1) (Elt F) ℕ UU ℕ) :=
  tb.view.loc (V d (cV L) (jV L)) ↦[tb.view.set]{Transfers.shareTokN q t.val} ft
abbrev srcPt (t : Fin 512) : sProp (MT nD τ sig (HIx 1) (Elt F) ℕ UU ℕ) :=
  (srcM tb fi hfi t.val).view.loc (V d (cV L) (jV L)) ↦[(srcM tb fi hfi t.val).view.set]{Transfers.shareTokN q t.val} ft
abbrev restPt (t : Fin 512) : sProp (MT nD τ sig (HIx 1) (Elt F) ℕ UU ℕ) :=
  tb.view.loc (V d (cV L) (jV L)) ↦[tb.view.set \ (srcM tb fi hfi t.val).view.set]{Transfers.shareTokN q t.val} ft

/-- Transfer `t`'s delivery: row `t` landed, the source row's share back. -/
def deliv (t : Fin 512) : sProp (MT nD τ sig (HIx 1) (Elt F) ℕ UU ℕ) :=
  iprop(rowPt d L t (landed d L tb fi hfi ft fd t) ∗ srcPt d L tb fi hfi q ft t)

instance deliv_storable (t : Fin 512) : BI.Storable (upEmb : UEmb _ (MT nD τ sig (HIx 1) (Elt F) ℕ UU ℕ)) (deliv d L tb fi hfi q ft fd t) := by
  haveI h1 : BI.Storable (upEmb : UEmb _ (MT nD τ sig (HIx 1) (Elt F) ℕ UU ℕ)) (rowPt d L t (landed d L tb fi hfi ft fd t)) := Region.storable_held _ _ _ _
  haveI h2 : BI.Storable (upEmb : UEmb _ (MT nD τ sig (HIx 1) (Elt F) ℕ UU ℕ)) (srcPt d L tb fi hfi q ft t) := Region.storable_held _ _ _ _
  unfold deliv; infer_instance

/-- The batch of the 512 row copies on the kernel's DMA semaphore, `j` issued, none waited for. Behind a definition:
    the copies are issued by `issue_row`, one at a time. -/
def batchAt (j : ℕ) : sProp (MT nD τ sig (HIx 1) (Elt F) ℕ UU ℕ) :=
  Transfers.Batch (EC (F := F)) (V d (cV L) (jV L)) (.dma cc0_scratch2.sem) (none : HIx 1) NN (deliv d L tb fi hfi q ft fd) j 0

/-- ONE ROW COPY of the batch: transfer `t`, from the table row its index word names (the offsets as the body spells
    them, equal to the closed forms) to row `t` of the rows scratch. Token `t` of the table is split by the source
    row's elements; its rest is handed back. -/
theorem issue_row {α : Type} (t : Fin 512) {off offs : Fin 3 → ℕ} (e1 : off = ![t.val, 0, 0])
    {a b : BitVec 32} (ha : a = wordA fi t.val) (hb : b = wordB fi t.val) (e2 : offs = ![a.toNat, b.toNat, 0])
    (inb : ∀ x, off x + S1x1x64.size x ≤ S512x1x64.size x) (inbs : ∀ x, offs x + S1x1x64.size x ≤ S125000x8x64.size x) (p ps)
    (h1 h2 h3) (k : PUnit → Prog (TpuEff nD τ sig (Elt F) Λ₀ (.scVector (cV L) (jV L))) α) (Q : α → sProp (MT nD τ sig (HIx 1) (Elt F) ℕ UU ℕ)) :
    iprop(tokPt d L tb q ft t ∗ rowPt d L t fd ∗ batchAt d L tb fi hfi q ft fd t.val)
      ⊢ iprop((iprop(batchAt d L tb fi hfi q ft fd (t.val + 1) ∗ restPt d L tb fi hfi q ft t) -∗ wp frame (wpE (defs₀ (F := F)) 𝒱₀ (V d (cV L) (jV L)) none) Set.univ (k ⟨⟩) Q)
          -∗ wp frame (wpE (defs₀ (F := F)) 𝒱₀ (V d (cV L) (jV L)) none) Set.univ
            (.op (.enqueueDma (tb.slice (Rect.unit (s := S125000x8x64) offs S1x1x64.size inbs) ps)
              (.here ((s12).slice (Rect.unit (s := S512x1x64) off S1x1x64.size inb) p)) (.dma cc0_scratch2.sem) h1 h2 h3) k) Q) := by
  subst e1 ha hb; subst e2
  unfold batchAt
  iintro ⟨HT, HR, HB⟩ Hk
  ihave HT' := (pointsTo_split_subset (show (srcM tb fi hfi t.val).view.set ⊆ tb.view.set from View.set_slice_subset _ _)).1 $$ HT
  icases HT' with ⟨Hs, Hrest⟩
  iapply (Transfers.wp_dmaBatch (EC (F := F)) 𝒱₀ (V d (cV L) (jV L)) none (src := srcM tb fi hfi t.val) (dst := rowM t) (fd := fd) (Sd := (rowM t).view.set)
      (none : HIx 1) NN rfl (Finset.Subset.refl _) t.isLt (Nat.zero_le _) (D := deliv d L tb fi hfi q ft fd) ?hD) $$ [Hs HR HB]
  case hD =>
    unfold deliv
    exact .rfl
  · isplitl [Hs]; · iexact Hs
    isplitl [HR]; · iexact HR
    iexact HB
  iintro HB
  iapply Hk
  isplitl [HB]; · iexact HB
  iexact Hrest

end Phase

end Cert.Proof.KB.Sc

end
-- ==== Proof.BScViews.lean ====
/-
  The worker's ranges as the body slices them: the 512 index words and the 512 result rows of the tile at grid
  coordinates `L` are worker `2 (L 1) + (L 0)`'s.
-/
import proofs.«203152_g22136261444366_cont_8to1_1253_39_alg».proof.Proof.BScTileBase
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KB.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S16384 EltTy.i32)
local notation "a3" => (Memref.whole Cert.Kernel.main_arg1_scv : Memref Cert.Kernel.sig Kind.scVector Space.hbm Cert.Kernel.S16384 EltTy.i32)
local notation "a4" => (Memref.whole Cert.Kernel.main_arg2_scv : Memref Cert.Kernel.sig Kind.scVector Space.hbm Cert.Kernel.S16384 EltTy.i32)
local notation "a5" => (Memref.whole Cert.Kernel.main_v0_scv : Memref Cert.Kernel.sig Kind.scVector Space.hbm Cert.Kernel.S125000x8x64 EltTy.f32)
local notation "a6" => (Memref.whole Cert.Kernel.main_v1_scv : Memref Cert.Kernel.sig Kind.scVector Space.hbm Cert.Kernel.S125000x8x64 EltTy.f32)
local notation "a7" => (Memref.whole Cert.Kernel.main_v2_scv : Memref Cert.Kernel.sig Kind.scVector Space.hbm Cert.Kernel.S125000x8x64 EltTy.f32)
local notation "a8" => (Memref.whole Cert.Kernel.main_v3_0_scv : Memref Cert.Kernel.sig Kind.scVector Space.hbm Cert.Kernel.S16384x1x64 EltTy.f32)
local notation "a9" => (Memref.whole Cert.Kernel.main_v3_1_scv : Memref Cert.Kernel.sig Kind.scVector Space.hbm Cert.Kernel.S16384x1x64 EltTy.f32)
local notation "a10" => (Memref.whole Cert.Kernel.main_v3_2_scv : Memref Cert.Kernel.sig Kind.scVector Space.hbm Cert.Kernel.S16384x1x64 EltTy.f32)
local notation "s11" => (Memref.whole Cert.Kernel.cc0_scratch0 : Memref Cert.Kernel.sig Kind.scVector Space.vmem Cert.Kernel.S512 EltTy.i32)
local notation "s12" => (Memref.whole Cert.Kernel.cc0_scratch1 : Memref Cert.Kernel.sig Kind.scVector Space.vmem Cert.Kernel.S512x1x64 EltTy.f32)

variable [FloatOps F]

theorem bound_zero : grid0.bound 0 = 2 := rfl
theorem bound_one : grid0.bound 1 = 16 := rfl
/-- The SparseCore and the vector subcore of grid coordinates `L`, and their worker number. -/
abbrev cL (L : grid0.Coords) : Fin 2 := Fin.cast bound_zero (L 0)
abbrev iL (L : grid0.Coords) : Fin 16 := Fin.cast bound_one (L 1)
def wL (L : grid0.Coords) : Fin 32 := wid (cL L) (iL L)

theorem wL_val (L : grid0.Coords) : (wL L).val = 2 * (L 1).val + (L 0).val := rfl

/-- The index words of the tile, as the body slices an index array; the result rows, as it slices a result. -/
def iSl (ia : Memref sig .scVector .hbm S16384 .i32) (L : grid0.Coords) : Memref sig .scVector .hbm S512 .i32 :=
  ia.slice (Rect.unit (s := S16384) (k0_off1 L) S512.size (k0_off1_inb L)) (fun _ => rfl)
def oSl (oa : Memref sig .scVector .hbm S16384x1x64 .f32) (L : grid0.Coords) : Memref sig .scVector .hbm S512x1x64 .f32 :=
  oa.slice (Rect.unit (s := S16384x1x64) (k0_off36 L) S512x1x64.size (k0_off36_inb L)) (fun _ => rfl)

theorem rect_idx_set (L : grid0.Coords) : (Rect.unit (s := S16384) (k0_off1 L) S512.size (k0_off1_inb L)).set = idxSet (wL L) := by
  ext x
  have h0 := (L 0).isLt; have h1 := (L 1).isLt
  have hb0 : grid0.bound 0 = 2 := rfl
  have hb1 : grid0.bound 1 = 16 := rfl
  have hx : (x 0).val < 16384 := (x 0).isLt
  unfold idxSet
  rw [Rect.mem_set_unit, Rect.mem_set_unit, k0_off1_eq]
  constructor
  · intro h a
    obtain rfl : a = 0 := Subsingleton.elim _ _
    have := h 0
    simp only [Shape.partIx, Shape.partSize, wL_val] at this ⊢
    simp at this ⊢
    omega
  · intro h a
    obtain rfl : a = 0 := Subsingleton.elim _ _
    have := h 0
    simp only [Shape.partIx, Shape.partSize, wL_val] at this ⊢
    simp at this ⊢
    omega

theorem rect_out_set (L : grid0.Coords) : (Rect.unit (s := S16384x1x64) (k0_off36 L) S512x1x64.size (k0_off36_inb L)).set = outSet (wL L) := by
  ext x
  have h0 := (L 0).isLt; have h1 := (L 1).isLt
  have hb0 : grid0.bound 0 = 2 := rfl
  have hb1 : grid0.bound 1 = 16 := rfl
  have hx0 : (x 0).val < 16384 := (x 0).isLt
  have hx1 : (x 1).val < 1 := (x 1).isLt
  have hx2 : (x 2).val < 64 := (x 2).isLt
  unfold outSet
  rw [Rect.mem_set_unit, Rect.mem_set_unit, k0_off36_eq]
  constructor
  · intro h a
    have e0 := h 0; have e1 := h 1; have e2 := h 2
    fin_cases a <;> simp [Shape.partIx, Shape.partSize, wL_val] at e0 e1 e2 ⊢ <;> omega
  · intro h a
    have e0 := h 0; have e1 := h 1; have e2 := h 2
    fin_cases a <;> simp [Shape.partIx, Shape.partSize, wL_val] at e0 e1 e2 ⊢ <;> omega

theorem set_iSl_main_arg0_scv (L : grid0.Coords) : (iSl (Memref.whole main_arg0_scv) L).view.set = idxSet (wL L) := by
  unfold iSl; exact (View.set_slice_whole _ _).trans (rect_idx_set L)

theorem set_iSl_main_arg1_scv (L : grid0.Coords) : (iSl (Memref.whole main_arg1_scv) L).view.set = idxSet (wL L) := by
  unfold iSl; exact (View.set_slice_whole _ _).trans (rect_idx_set L)

theorem set_iSl_main_arg2_scv (L : grid0.Coords) : (iSl (Memref.whole main_arg2_scv) L).view.set = idxSet (wL L) := by
  unfold iSl; exact (View.set_slice_whole _ _).trans (rect_idx_set L)

theorem set_oSl_main_v3_0_scv (L : grid0.Coords) : (oSl (Memref.whole main_v3_0_scv) L).view.set = outSet (wL L) := by
  unfold oSl; exact (View.set_slice_whole _ _).trans (rect_out_set L)

theorem set_oSl_main_v3_1_scv (L : grid0.Coords) : (oSl (Memref.whole main_v3_1_scv) L).view.set = outSet (wL L) := by
  unfold oSl; exact (View.set_slice_whole _ _).trans (rect_out_set L)

theorem set_oSl_main_v3_2_scv (L : grid0.Coords) : (oSl (Memref.whole main_v3_2_scv) L).view.set = outSet (wL L) := by
  unfold oSl; exact (View.set_slice_whole _ _).trans (rect_out_set L)

end Cert.Proof.KB.Sc

end
-- ==== Proof.BScTile.lean ====
/-
  The tile obligation of the gather call from the body's triple at grid coordinates: the launch theorem's spelling
  of thread and program around it.
-/
import proofs.«203152_g22136261444366_cont_8to1_1253_39_alg».proof.Proof.BScSplit
import proofs.«203152_g22136261444366_cont_8to1_1253_39_alg».proof.Proof.BScViews
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KB.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S16384 EltTy.i32)
local notation "a3" => (Memref.whole Cert.Kernel.main_arg1_scv : Memref Cert.Kernel.sig Kind.scVector Space.hbm Cert.Kernel.S16384 EltTy.i32)
local notation "a4" => (Memref.whole Cert.Kernel.main_arg2_scv : Memref Cert.Kernel.sig Kind.scVector Space.hbm Cert.Kernel.S16384 EltTy.i32)
local notation "a5" => (Memref.whole Cert.Kernel.main_v0_scv : Memref Cert.Kernel.sig Kind.scVector Space.hbm Cert.Kernel.S125000x8x64 EltTy.f32)
local notation "a6" => (Memref.whole Cert.Kernel.main_v1_scv : Memref Cert.Kernel.sig Kind.scVector Space.hbm Cert.Kernel.S125000x8x64 EltTy.f32)
local notation "a7" => (Memref.whole Cert.Kernel.main_v2_scv : Memref Cert.Kernel.sig Kind.scVector Space.hbm Cert.Kernel.S125000x8x64 EltTy.f32)
local notation "a8" => (Memref.whole Cert.Kernel.main_v3_0_scv : Memref Cert.Kernel.sig Kind.scVector Space.hbm Cert.Kernel.S16384x1x64 EltTy.f32)
local notation "a9" => (Memref.whole Cert.Kernel.main_v3_1_scv : Memref Cert.Kernel.sig Kind.scVector Space.hbm Cert.Kernel.S16384x1x64 EltTy.f32)
local notation "a10" => (Memref.whole Cert.Kernel.main_v3_2_scv : Memref Cert.Kernel.sig Kind.scVector Space.hbm Cert.Kernel.S16384x1x64 EltTy.f32)
local notation "s11" => (Memref.whole Cert.Kernel.cc0_scratch0 : Memref Cert.Kernel.sig Kind.scVector Space.vmem Cert.Kernel.S512 EltTy.i32)
local notation "s12" => (Memref.whole Cert.Kernel.cc0_scratch1 : Memref Cert.Kernel.sig Kind.scVector Space.vmem Cert.Kernel.S512x1x64 EltTy.f32)

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_body (coordsV c s) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) s11 (Memref.isWhole_whole _) s12 (Memref.isWhole_whole _) cc0_scratch2 cc0_scoped0 cc0_scoped1 cc0_scoped2 cc0_scoped3 cc0_scoped4 cc0_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body's triple at grid coordinates `L`: from the tile's share of the call and its scoped storage to its results. -/
def TileBody (W : Dev nD → Valuation τ sig (Elt F)) : Prop :=
  ∀ (d : Dev nD) (L : grid0.Coords) (O : CellTallies nD τ sig (HIx 1)) (Wt : Waits sig (HIx 1)), (∀ g, O g none = 0) →
    iprop(levAts (K (F := F)).L (K (F := F)).lev ∗ emp ∗ goC W d (cL L) (iL L)
        ∗ scopedBufs (V d (cV L) (jV L)) ∗ scopedSems0 (V d (cV L) (jV L)) ∗ owes (V d (cV L) (jV L)) O Wt)
      ⊢ wp frame (wpE (defs₀ (F := F)) 𝒱₀ (V d (cV L) (jV L)) none) Set.univ
          (cc0__gather_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) s11 (Memref.isWhole_whole _) s12 (Memref.isWhole_whole _) cc0_scratch2 cc0_scoped0 cc0_scoped1 cc0_scoped2 cc0_scoped3 cc0_scoped4 cc0_scoped5)
          fun _ => iprop(tdC W d (cL L) (iL L) ∗ scopedBufs (V d (cV L) (jV L)) ∗ scopedSems0 (V d (cV L) (jV L))
            ∗ ∃ W', ⌜∀ p ∈ W', p ∈ Wt ∨ p.2 = none⌝ ∗ owes (V d (cV L) (jV L)) O W')

theorem tileObl_of (W : Dev nD → Valuation τ sig (Elt F)) (h : TileBody W) :
    (K (F := F)).TileObl (D (F := F)) 𝒱 (P W) v₀ 0 := by
  intro d c i O Wt hO _ _
  simp only [show (P W).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (h d (coordsV ⟨_, hc.1⟩ ⟨_, hc.2⟩) O Wt hO).trans (wp_mono frame _ _ fun _ => obl_post)

end Cert.Proof.KB.Sc

end
-- ==== Proof.BScTrip.lean ====
/-
  One trip of the gather loop: sixteen row copies of the batch.
-/
import proofs.«203152_g22136261444366_cont_8to1_1253_39_alg».proof.Proof.BScTileBase
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import Idealize.ShloMosaic.Lib.Ring

noncomputable section

namespace Cert.Proof.KB.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

open Idealize.ShloMosaic.Tactic

local notation "a2" => (Memref.whole Cert.Kernel.main_arg0_scv : Memref Cert.Kernel.sig Kind.scVector Space.hbm Cert.Kernel.S16384 EltTy.i32)
local notation "a3" => (Memref.whole Cert.Kernel.main_arg1_scv : Memref Cert.Kernel.sig Kind.scVector Space.hbm Cert.Kernel.S16384 EltTy.i32)
local notation "a4" => (Memref.whole Cert.Kernel.main_arg2_scv : Memref Cert.Kernel.sig Kind.scVector Space.hbm Cert.Kernel.S16384 EltTy.i32)
local notation "a5" => (Memref.whole Cert.Kernel.main_v0_scv : Memref Cert.Kernel.sig Kind.scVector Space.hbm Cert.Kernel.S125000x8x64 EltTy.f32)
local notation "a6" => (Memref.whole Cert.Kernel.main_v1_scv : Memref Cert.Kernel.sig Kind.scVector Space.hbm Cert.Kernel.S125000x8x64 EltTy.f32)
local notation "a7" => (Memref.whole Cert.Kernel.main_v2_scv : Memref Cert.Kernel.sig Kind.scVector Space.hbm Cert.Kernel.S125000x8x64 EltTy.f32)
local notation "a8" => (Memref.whole Cert.Kernel.main_v3_0_scv : Memref Cert.Kernel.sig Kind.scVector Space.hbm Cert.Kernel.S16384x1x64 EltTy.f32)
local notation "a9" => (Memref.whole Cert.Kernel.main_v3_1_scv : Memref Cert.Kernel.sig Kind.scVector Space.hbm Cert.Kernel.S16384x1x64 EltTy.f32)
local notation "a10" => (Memref.whole Cert.Kernel.main_v3_2_scv : Memref Cert.Kernel.sig Kind.scVector Space.hbm Cert.Kernel.S16384x1x64 EltTy.f32)
local notation "s11" => (Memref.whole Cert.Kernel.cc0_scratch0 : Memref Cert.Kernel.sig Kind.scVector Space.vmem Cert.Kernel.S512 EltTy.i32)
local notation "s12" => (Memref.whole Cert.Kernel.cc0_scratch1 : Memref Cert.Kernel.sig Kind.scVector Space.vmem Cert.Kernel.S512x1x64 EltTy.f32)

variable [FloatOps F]

theorem bigSep_fin16 {M : Type} [URA M] (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} from by decide,
    BI.bigSep_insert (by decide), BI.bigSep_insert (by decide), BI.bigSep_insert (by decide), BI.bigSep_insert (by decide), BI.bigSep_insert (by decide), BI.bigSep_insert (by decide), BI.bigSep_insert (by decide), BI.bigSep_insert (by decide), BI.bigSep_insert (by decide), BI.bigSep_insert (by decide), BI.bigSep_insert (by decide), BI.bigSep_insert (by decide), BI.bigSep_insert (by decide), BI.bigSep_insert (by decide), BI.bigSep_insert (by decide), bigSep_singleton]
  rfl

theorem bigSep_rangeSet_snoc {M : Type} [URA M] {Φ : Fin 32 → sProp M} {k : ℕ} (hk : k < 32) :
    bigSep (Ring.rangeSet 32 0 (k + 1)) Φ = iprop(Φ ⟨k, hk⟩ ∗ bigSep (Ring.rangeSet 32 0 k) Φ) := by
  have h := Ring.bigSep_rangeSet_last (NB := 32) (Φ := Φ) (lo := 0) (hi := k + 1) (by omega) (by omega)
  simp only [Nat.add_sub_cancel] at h
  exact h

/-! ## The words a trip reads -/

section Words

variable (fi : S512.Idx → BitVec 32) (hfi : ∀ x, (fi x).toNat ≤ 999999)

/-- Word `i` of the sixteen loaded at trip `k` is index word `16 k + i`. -/
theorem load_word (k : Fin 32) (off : Fin 1 → ℕ) (eo : off = ![16 * k.val]) (inb) (i : S16.Idx) :
    (s11).view.readAt (Elt F) (Rect.unit (s := S512) off S16.size inb).toLoadRect fi i = fi (ix512 (16 * k.val + (i 0).val)) := by
  subst eo
  have hk := k.isLt; have hi : (i 0).val < 16 := (i 0).isLt
  show fi ((Rect.unit (s := S512) ![16 * k.val] S16.size inb).toLoadRect.idx i) = fi (ix512 (16 * k.val + (i 0).val))
  congr 1
  funext (a : Fin 1); apply Fin.ext
  obtain rfl : a = 0 := Subsingleton.elim _ _
  show 16 * k.val + 1 * (i 0).val = (16 * k.val + (i 0).val) % 512
  rw [Nat.mod_eq_of_lt (by omega)]; omega

theorem shapeCast_same {α : Type} (v : S16.Idx → α) (h : S16.ShapeCasts S16) : shapeCast S16 v h = v := by
  funext x; unfold shapeCast; rw [Shape.reshapeEquiv_self]

theorem extract_at (v : IVec S16 32) (j : ℕ) (hs : S16.Slices ![j] S1) (hp) :
    extractAt ![0] (extractStridedSlice S1 ![j] v hs) hp = v (clampIdx S16 pos_S16 ![j]) := by
  have hj : j + 1 ≤ 16 := hs.2 0
  unfold extractAt extractStridedSlice
  congr 1
  funext (a : Fin 1); apply Fin.ext
  obtain rfl : a = 0 := Subsingleton.elim _ _
  show j + 0 = j % 16
  rw [Nat.mod_eq_of_lt (by omega)]; rfl

theorem wordA_run (k : Fin 32) (j : ℕ) (off : Fin 1 → ℕ) (eo : off = ![16 * k.val]) (inb) (hc) (hs : S16.Slices ![j] S1) (hp) :
    extractAt ![0] (extractStridedSlice S1 ![j] (shrui (shapeCast S16 ((s11).view.readAt (Elt F) (Rect.unit (s := S512) off S16.size inb).toLoadRect fi) hc) (broadcast S16 3#32)) hs) hp
      = wordA fi (16 * k.val + j) := by
  have hj : j + 1 ≤ 16 := hs.2 0
  rw [extract_at]
  unfold shrui broadcast wordA
  rw [shapeCast_same, load_word (F := F) fi k off eo inb]
  congr 3
  show 16 * k.val + (j % 16) = 16 * k.val + j
  rw [Nat.mod_eq_of_lt (by omega)]

theorem wordB_run (k : Fin 32) (j : ℕ) (off : Fin 1 → ℕ) (eo : off = ![16 * k.val]) (inb) (hc) (hs : S16.Slices ![j] S1) (hp) :
    extractAt ![0] (extractStridedSlice S1 ![j] (andi (shapeCast S16 ((s11).view.readAt (Elt F) (Rect.unit (s := S512) off S16.size inb).toLoadRect fi) hc) (broadcast S16 7#32)) hs) hp
      = wordB fi (16 * k.val + j) := by
  have hj : j + 1 ≤ 16 := hs.2 0
  rw [extract_at]
  unfold andi broadcast wordB
  rw [shapeCast_same, load_word (F := F) fi k off eo inb]
  congr 3
  show 16 * k.val + (j % 16) = 16 * k.val + j
  rw [Nat.mod_eq_of_lt (by omega)]

include hfi in
/-- The body's check at a copy: its source row is a row of the table. -/
theorem chk_of_words {a b : BitVec 32} (t : ℕ) (ha : a = wordA fi t) (hb : b = wordB fi t) :
    ∀ x, (![a.toNat, b.toNat, 0] : Fin 3 → ℕ) x + S1x1x64.size x ≤ S125000x8x64.size x := by
  subst ha hb; exact src_inb fi hfi t

end Words

section Trip

variable (d : Dev nD) (L : grid0.Coords)
variable (tb : Memref sig .scVector .hbm S125000x8x64 .f32) (htb : tb.IsWhole)
variable (fi : S512.Idx → BitVec 32) (hfi : ∀ x, (fi x).toNat ≤ 999999)
variable (q : PosShare TreeShare) (ft : Buf (Elt F) (tb.view.loc (V d (cV L) (jV L)))) (fd : S512x1x64.Idx → Elt F .f32)

/-- The sixteen rows, tokens and token rests of trip `k`. -/
def rows16 (k : Fin 32) : sProp (MT nD τ sig (HIx 1) (Elt F) ℕ UU ℕ) := bigSep Finset.univ fun j : Fin 16 => rowPt d L (t512 k j) fd
def toks16 (k : Fin 32) : sProp (MT nD τ sig (HIx 1) (Elt F) ℕ UU ℕ) := bigSep Finset.univ fun j : Fin 16 => tokPt d L tb q ft (t512 k j)
def rests16 (k : Fin 32) : sProp (MT nD τ sig (HIx 1) (Elt F) ℕ UU ℕ) := bigSep Finset.univ fun j : Fin 16 => restPt d L tb fi hfi q ft (t512 k j)

theorem rows16_eq (k : Fin 32) : rows16 d L fd k = iprop(rowPt d L (t512 k 0) fd ∗ rowPt d L (t512 k 1) fd ∗ rowPt d L (t512 k 2) fd ∗ rowPt d L (t512 k 3) fd ∗ rowPt d L (t512 k 4) fd ∗ rowPt d L (t512 k 5) fd ∗ rowPt d L (t512 k 6) fd ∗ rowPt d L (t512 k 7) fd ∗ rowPt d L (t512 k 8) fd ∗ rowPt d L (t512 k 9) fd ∗ rowPt d L (t512 k 10) fd ∗ rowPt d L (t512 k 11) fd ∗ rowPt d L (t512 k 12) fd ∗ rowPt d L (t512 k 13) fd ∗ rowPt d L (t512 k 14) fd ∗ rowPt d L (t512 k 15) fd) := by
  unfold rows16; rw [bigSep_fin16]
theorem toks16_eq (k : Fin 32) : toks16 d L tb q ft k = iprop(tokPt d L tb q ft (t512 k 0) ∗ tokPt d L tb q ft (t512 k 1) ∗ tokPt d L tb q ft (t512 k 2) ∗ tokPt d L tb q ft (t512 k 3) ∗ tokPt d L tb q ft (t512 k 4) ∗ tokPt d L tb q ft (t512 k 5) ∗ tokPt d L tb q ft (t512 k 6) ∗ tokPt d L tb q ft (t512 k 7) ∗ tokPt d L tb q ft (t512 k 8) ∗ tokPt d L tb q ft (t512 k 9) ∗ tokPt d L tb q ft (t512 k 10) ∗ tokPt d L tb q ft (t512 k 11) ∗ tokPt d L tb q ft (t512 k 12) ∗ tokPt d L tb q ft (t512 k 13) ∗ tokPt d L tb q ft (t512 k 14) ∗ tokPt d L tb q ft (t512 k 15)) := by
  unfold toks16; rw [bigSep_fin16]
theorem rests16_eq (k : Fin 32) : rests16 d L tb fi hfi q ft k = iprop(restPt d L tb fi hfi q ft (t512 k 0) ∗ restPt d L tb fi hfi q ft (t512 k 1) ∗ restPt d L tb fi hfi q ft (t512 k 2) ∗ restPt d L tb fi hfi q ft (t512 k 3) ∗ restPt d L tb fi hfi q ft (t512 k 4) ∗ restPt d L tb fi hfi q ft (t512 k 5) ∗ restPt d L tb fi hfi q ft (t512 k 6) ∗ restPt d L tb fi hfi q ft (t512 k 7) ∗ restPt d L tb fi hfi q ft (t512 k 8) ∗ restPt d L tb fi hfi q ft (t512 k 9) ∗ restPt d L tb fi hfi q ft (t512 k 10) ∗ restPt d L tb fi hfi q ft (t512 k 11) ∗ restPt d L tb fi hfi q ft (t512 k 12) ∗ restPt d L tb fi hfi q ft (t512 k 13) ∗ restPt d L tb fi hfi q ft (t512 k 14) ∗ restPt d L tb fi hfi q ft (t512 k 15)) := by
  unfold rests16; rw [bigSep_fin16]

/-- Before trip `kk`: the index scratch at its words; `16 kk` copies issued; the rows and tokens of the trips from
    `kk` on still in hand; the rests of the tokens lent so far. -/
def tripInv (kk : ℕ) (_ : BitVec 32) : sProp (MT nD τ sig (HIx 1) (Elt F) ℕ UU ℕ) :=
  iprop(((s11).view.loc (V d (cV L) (jV L)) ↦{fullShare} fi) ∗ batchAt d L tb fi hfi q ft fd (16 * kk)
    ∗ bigSep (Ring.rangeSet 32 kk 32) (rows16 d L fd) ∗ bigSep (Ring.rangeSet 32 kk 32) (toks16 d L tb q ft)
    ∗ bigSep (Ring.rangeSet 32 0 kk) (rests16 d L tb fi hfi q ft))

set_option maxHeartbeats 8000000 in
/-- ONE TRIP of the gather loop at a symbolic trip: the sixteen index words loaded, each checked to name a table row,
    each row copy issued as the batch's next. -/
theorem trip1 [∀ e, Nonempty (Elt F e)] (k : Fin k0_t1_loop.trips) (acc : BitVec 32) :
    tripInv d L tb fi hfi q ft fd k.val acc ⊢ wp frame (wpE (defs₀ (F := F)) 𝒱₀ (V d (cV L) (jV L)) none) Set.univ
      (k0_t1_body L a2 (Memref.isWhole_whole _) a3 (Memref.isWhole_whole _) a4 (Memref.isWhole_whole _) tb htb a6 (Memref.isWhole_whole _) a7 (Memref.isWhole_whole _) a8 (Memref.isWhole_whole _) a9 (Memref.isWhole_whole _) a10 (Memref.isWhole_whole _) s11 (Memref.isWhole_whole _) s12 (Memref.isWhole_whole _) cc0_scratch2 cc0_scoped0 cc0_scoped1 cc0_scoped2 cc0_scoped3 cc0_scoped4 cc0_scoped5 k acc) (tripInv d L tb fi hfi q ft fd (k.val + 1)) := by
  have hk : k.val < 32 := lt_of_lt_of_le k.isLt k0_t1_abs.2.1
  unfold tripInv
  rw [Ring.bigSep_rangeSet_head (Φ := rows16 d L fd) hk hk, Ring.bigSep_rangeSet_head (Φ := toks16 d L tb q ft) hk hk,
    bigSep_rangeSet_snoc (Φ := rests16 d L tb fi hfi q ft) hk]
  rw [rows16_eq d L fd ⟨k.val, hk⟩, toks16_eq d L tb q ft ⟨k.val, hk⟩, rests16_eq d L tb fi hfi q ft ⟨k.val, hk⟩]
  iintro ⟨Hi, HB, ⟨⟨R0, R1, R2, R3, R4, R5, R6, R7, R8, R9, R10, R11, R12, R13, R14, R15⟩, HR⟩, ⟨⟨T0, T1, T2, T3, T4, T5, T6, T7, T8, T9, T10, T11, T12, T13, T14, T15⟩, HT⟩, HX⟩
  sl_unfold [k0_t1_body]
  -- copy 0
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 0) (e1 := (k0_off5_eq k ⟨0, by decide⟩))
      (ha := wordA_run (F := F) fi ⟨k.val, hk⟩ 0 _ (k0_off2_eq k) _ _ _ _) (hb := wordB_run (F := F) fi ⟨k.val, hk⟩ 0 _ (k0_off2_eq k) _ _ _ _) (e2 := rfl)) $$ [T0 R0 HB]
  · isplitl [T0]; · iexact T0
    isplitl [R0]; · iexact R0
    iexact HB
  iintro ⟨HB, X0⟩
  -- copy 1
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 1) (e1 := (k0_off7_eq k ⟨0, by decide⟩))
      (ha := wordA_run (F := F) fi ⟨k.val, hk⟩ 1 _ (k0_off2_eq k) _ _ _ _) (hb := wordB_run (F := F) fi ⟨k.val, hk⟩ 1 _ (k0_off2_eq k) _ _ _ _) (e2 := rfl)) $$ [T1 R1 HB]
  · isplitl [T1]; · iexact T1
    isplitl [R1]; · iexact R1
    iexact HB
  iintro ⟨HB, X1⟩
  -- copy 2
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 2) (e1 := (k0_off9_eq k ⟨0, by decide⟩))
      (ha := wordA_run (F := F) fi ⟨k.val, hk⟩ 2 _ (k0_off2_eq k) _ _ _ _) (hb := wordB_run (F := F) fi ⟨k.val, hk⟩ 2 _ (k0_off2_eq k) _ _ _ _) (e2 := rfl)) $$ [T2 R2 HB]
  · isplitl [T2]; · iexact T2
    isplitl [R2]; · iexact R2
    iexact HB
  iintro ⟨HB, X2⟩
  -- copy 3
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 3) (e1 := (k0_off11_eq k ⟨0, by decide⟩))
      (ha := wordA_run (F := F) fi ⟨k.val, hk⟩ 3 _ (k0_off2_eq k) _ _ _ _) (hb := wordB_run (F := F) fi ⟨k.val, hk⟩ 3 _ (k0_off2_eq k) _ _ _ _) (e2 := rfl)) $$ [T3 R3 HB]
  · isplitl [T3]; · iexact T3
    isplitl [R3]; · iexact R3
    iexact HB
  iintro ⟨HB, X3⟩
  -- copy 4
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 4) (e1 := (k0_off13_eq k ⟨0, by decide⟩))
      (ha := wordA_run (F := F) fi ⟨k.val, hk⟩ 4 _ (k0_off2_eq k) _ _ _ _) (hb := wordB_run (F := F) fi ⟨k.val, hk⟩ 4 _ (k0_off2_eq k) _ _ _ _) (e2 := rfl)) $$ [T4 R4 HB]
  · isplitl [T4]; · iexact T4
    isplitl [R4]; · iexact R4
    iexact HB
  iintro ⟨HB, X4⟩
  -- copy 5
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 5) (e1 := (k0_off15_eq k ⟨0, by decide⟩))
      (ha := wordA_run (F := F) fi ⟨k.val, hk⟩ 5 _ (k0_off2_eq k) _ _ _ _) (hb := wordB_run (F := F) fi ⟨k.val, hk⟩ 5 _ (k0_off2_eq k) _ _ _ _) (e2 := rfl)) $$ [T5 R5 HB]
  · isplitl [T5]; · iexact T5
    isplitl [R5]; · iexact R5
    iexact HB
  iintro ⟨HB, X5⟩
  -- copy 6
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 6) (e1 := (k0_off17_eq k ⟨0, by decide⟩))
      (ha := wordA_run (F := F) fi ⟨k.val, hk⟩ 6 _ (k0_off2_eq k) _ _ _ _) (hb := wordB_run (F := F) fi ⟨k.val, hk⟩ 6 _ (k0_off2_eq k) _ _ _ _) (e2 := rfl)) $$ [T6 R6 HB]
  · isplitl [T6]; · iexact T6
    isplitl [R6]; · iexact R6
    iexact HB
  iintro ⟨HB, X6⟩
  -- copy 7
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 7) (e1 := (k0_off19_eq k ⟨0, by decide⟩))
      (ha := wordA_run (F := F) fi ⟨k.val, hk⟩ 7 _ (k0_off2_eq k) _ _ _ _) (hb := wordB_run (F := F) fi ⟨k.val, hk⟩ 7 _ (k0_off2_eq k) _ _ _ _) (e2 := rfl)) $$ [T7 R7 HB]
  · isplitl [T7]; · iexact T7
    isplitl [R7]; · iexact R7
    iexact HB
  iintro ⟨HB, X7⟩
  -- copy 8
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 8) (e1 := (k0_off21_eq k ⟨0, by decide⟩))
      (ha := wordA_run (F := F) fi ⟨k.val, hk⟩ 8 _ (k0_off2_eq k) _ _ _ _) (hb := wordB_run (F := F) fi ⟨k.val, hk⟩ 8 _ (k0_off2_eq k) _ _ _ _) (e2 := rfl)) $$ [T8 R8 HB]
  · isplitl [T8]; · iexact T8
    isplitl [R8]; · iexact R8
    iexact HB
  iintro ⟨HB, X8⟩
  -- copy 9
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 9) (e1 := (k0_off23_eq k ⟨0, by decide⟩))
      (ha := wordA_run (F := F) fi ⟨k.val, hk⟩ 9 _ (k0_off2_eq k) _ _ _ _) (hb := wordB_run (F := F) fi ⟨k.val, hk⟩ 9 _ (k0_off2_eq k) _ _ _ _) (e2 := rfl)) $$ [T9 R9 HB]
  · isplitl [T9]; · iexact T9
    isplitl [R9]; · iexact R9
    iexact HB
  iintro ⟨HB, X9⟩
  -- copy 10
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 10) (e1 := (k0_off25_eq k ⟨0, by decide⟩))
      (ha := wordA_run (F := F) fi ⟨k.val, hk⟩ 10 _ (k0_off2_eq k) _ _ _ _) (hb := wordB_run (F := F) fi ⟨k.val, hk⟩ 10 _ (k0_off2_eq k) _ _ _ _) (e2 := rfl)) $$ [T10 R10 HB]
  · isplitl [T10]; · iexact T10
    isplitl [R10]; · iexact R10
    iexact HB
  iintro ⟨HB, X10⟩
  -- copy 11
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 11) (e1 := (k0_off27_eq k ⟨0, by decide⟩))
      (ha := wordA_run (F := F) fi ⟨k.val, hk⟩ 11 _ (k0_off2_eq k) _ _ _ _) (hb := wordB_run (F := F) fi ⟨k.val, hk⟩ 11 _ (k0_off2_eq k) _ _ _ _) (e2 := rfl)) $$ [T11 R11 HB]
  · isplitl [T11]; · iexact T11
    isplitl [R11]; · iexact R11
    iexact HB
  iintro ⟨HB, X11⟩
  -- copy 12
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 12) (e1 := (k0_off29_eq k ⟨0, by decide⟩))
      (ha := wordA_run (F := F) fi ⟨k.val, hk⟩ 12 _ (k0_off2_eq k) _ _ _ _) (hb := wordB_run (F := F) fi ⟨k.val, hk⟩ 12 _ (k0_off2_eq k) _ _ _ _) (e2 := rfl)) $$ [T12 R12 HB]
  · isplitl [T12]; · iexact T12
    isplitl [R12]; · iexact R12
    iexact HB
  iintro ⟨HB, X12⟩
  -- copy 13
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 13) (e1 := (k0_off31_eq k ⟨0, by decide⟩))
      (ha := wordA_run (F := F) fi ⟨k.val, hk⟩ 13 _ (k0_off2_eq k) _ _ _ _) (hb := wordB_run (F := F) fi ⟨k.val, hk⟩ 13 _ (k0_off2_eq k) _ _ _ _) (e2 := rfl)) $$ [T13 R13 HB]
  · isplitl [T13]; · iexact T13
    isplitl [R13]; · iexact R13
    iexact HB
  iintro ⟨HB, X13⟩
  -- copy 14
  sl_exec (disch := exact chk_of_words fi hfi _ (wordA_run (F := F) fi ⟨k.val, hk⟩ _ _ (k0_off2_eq k) _ _ _ _) (wordB_run (F := F) fi ⟨k.val, hk⟩ _ _ (k0_off2_eq k) _ _ _ _))
  iapply (issue_row d L tb fi hfi q ft fd (t512 ⟨k.val, hk⟩ 14) (e1 := (k0_off33_eq k ⟨0, by decide⟩))
      (ha := wordA_run (F := F) fi ⟨k.val, hk⟩ 14 _ (k0_off2_eq k) _ _ _ _) (hb := wordB_run (F := F) fi ⟨k.val, hk⟩ 14 _ (k0_off2_eq k) _ _ _ _) (e2 := rfl)) $$ [T14 R14 HB]
  · isplitl [T14]; · iexact T14
    isplitl [R14]; · iexact R14
    iexact HB
  iintro ⟨HB, X14⟩
  -- copy 15 (its words are named by the run)
  sl_exec
  have ha15 : trip1.sl.v174 fi k = wordA fi (16 * k.val + 15) := wordA_run (F := F) fi ⟨k.val, hk⟩ 15 _ (k0_off2_eq k) (k0_off2_inb k) shapeCasts_S16_S16 slices_S16_o15_S1 inpos_S1_p0
  have hb15 : trip1.sl.v176 fi k = wordB fi (16 * k.val + 15) := wordB_run (F := F) fi ⟨k.val, hk⟩ 15 _ (k0_off2_eq k) (k0_off2_inb k) shapeCasts_S16_S16 slices_S16_o15_S1 inpos_S1_p0
  rw [wp_assume_of _ _ _ _ (show k0_chk16 (trip1.sl.v174 fi k) (trip1.sl.v176 fi k) from chk_of_words fi hfi _ ha15 hb15)]
  sl_exec
  iapply (issue_row d L tb fi hfi q ft fd (t512 ⟨k.val, hk⟩ 15) (e1 := (k0_off35_eq k)) (ha := ha15) (hb := hb15) (e2 := rfl)) $$ [T15 R15 HB]
  · isplitl [T15]; · iexact T15
    isplitl [R15]; · iexact R15
    iexact HB
  iintro ⟨HB, X15⟩
  sl_exec
  sl_step
  isplitl [Hi]; · iexact Hi
  isplitl [HB]; · iexact HB
  isplitl [HR]; · iexact HR
  isplitl [HT]; · iexact HT
  isplitl [X0 X1 X2 X3 X4 X5 X6 X7 X8 X9 X10 X11 X12 X13 X14 X15]
  · isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [X11]; · iexact X11
    isplitl [X12]; · iexact X12
    isplitl [X13]; · iexact X13
    isplitl [X14]; · iexact X14
    iexact X15
  iexact HX

end Trip

/-! ## The second and third loops: the same region, at the second and third table -/

section Others

variable (d : Dev nD) (L : grid0.Coords)
variable (fi : S512.Idx → BitVec 32) (hfi : ∀ x, (fi x).toNat ≤ 999999)
variable (q : PosShare TreeShare) (fd : S512x1x64.Idx → Elt F .f32)

set_option maxRecDepth 65536 in
set_option maxHeartbeats 4000000 in
theorem t2_body_eq : k0_t2_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) s11 (Memref.isWhole_whole _) s12 (Memref.isWhole_whole _) cc0_scratch2 cc0_scoped0 cc0_scoped1 cc0_scoped2 cc0_scoped3 cc0_scoped4 cc0_scoped5 = k0_t1_body (F := F) L a2 (Memref.isWhole_whole _) a3 (Memref.isWhole_whole _) a4 (Memref.isWhole_whole _) a6 (Memref.isWhole_whole _) a6 (Memref.isWhole_whole _) a7 (Memref.isWhole_whole _) a8 (Memref.isWhole_whole _) a9 (Memref.isWhole_whole _) a10 (Memref.isWhole_whole _) s11 (Memref.isWhole_whole _) s12 (Memref.isWhole_whole _) cc0_scratch2 cc0_scoped0 cc0_scoped1 cc0_scoped2 cc0_scoped3 cc0_scoped4 cc0_scoped5 := rfl

set_option maxRecDepth 65536 in
set_option maxHeartbeats 4000000 in
theorem t3_body_eq : k0_t3_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) s11 (Memref.isWhole_whole _) s12 (Memref.isWhole_whole _) cc0_scratch2 cc0_scoped0 cc0_scoped1 cc0_scoped2 cc0_scoped3 cc0_scoped4 cc0_scoped5 = k0_t1_body (F := F) L a2 (Memref.isWhole_whole _) a3 (Memref.isWhole_whole _) a4 (Memref.isWhole_whole _) a7 (Memref.isWhole_whole _) a6 (Memref.isWhole_whole _) a7 (Memref.isWhole_whole _) a8 (Memref.isWhole_whole _) a9 (Memref.isWhole_whole _) a10 (Memref.isWhole_whole _) s11 (Memref.isWhole_whole _) s12 (Memref.isWhole_whole _) cc0_scratch2 cc0_scoped0 cc0_scoped1 cc0_scoped2 cc0_scoped3 cc0_scoped4 cc0_scoped5 := rfl

theorem trip2 [∀ e, Nonempty (Elt F e)] (ft : Buf (Elt F) ((a6).view.loc (V d (cV L) (jV L)))) (k : Fin k0_t2_loop.trips) (acc : BitVec 32) :
    tripInv d L a6 fi hfi q ft fd k.val acc ⊢ wp frame (wpE (defs₀ (F := F)) 𝒱₀ (V d (cV L) (jV L)) none) Set.univ
      (k0_t2_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) s11 (Memref.isWhole_whole _) s12 (Memref.isWhole_whole _) cc0_scratch2 cc0_scoped0 cc0_scoped1 cc0_scoped2 cc0_scoped3 cc0_scoped4 cc0_scoped5 k acc) (tripInv d L a6 fi hfi q ft fd (k.val + 1)) := by
  rw [t2_body_eq]
  exact trip1 d L a6 (Memref.isWhole_whole _) fi hfi q ft fd k acc

theorem trip3 [∀ e, Nonempty (Elt F e)] (ft : Buf (Elt F) ((a7).view.loc (V d (cV L) (jV L)))) (k : Fin k0_t3_loop.trips) (acc : BitVec 32) :
    tripInv d L a7 fi hfi q ft fd k.val acc ⊢ wp frame (wpE (defs₀ (F := F)) 𝒱₀ (V d (cV L) (jV L)) none) Set.univ
      (k0_t3_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) s11 (Memref.isWhole_whole _) s12 (Memref.isWhole_whole _) cc0_scratch2 cc0_scoped0 cc0_scoped1 cc0_scoped2 cc0_scoped3 cc0_scoped4 cc0_scoped5 k acc) (tripInv d L a7 fi hfi q ft fd (k.val + 1)) := by
  rw [t3_body_eq]
  exact trip1 d L a7 (Memref.isWhole_whole _) fi hfi q ft fd k acc

end Others

end Cert.Proof.KB.Sc

end
-- ==== Proof.BScVal1.lean ====
/-
  The rows scratch of the gather kernel, as pure data.

  The scratch is [512, 1, 64]; row t is the set of its elements whose first coordinate is t. The 512 rows are
  pairwise disjoint and cover the scratch. Copy number t of a batch writes row t with the 64 entries of one
  sub-row of the table: the sub-row (word &&& 7) of row (word >>> 3), for the t-th index word. An element x of
  row t sits at offset (0, 0, x 2) inside the row, which the copy fills from offset (0, 0, x 2) of the source
  sub-row, that is from the table's element (word >>> 3, word &&& 7, x 2); the word being at most 999999, these
  coordinates are in range, so reducing them modulo the table's extents changes nothing.
-/
import proofs.«203152_g22136261444366_cont_8to1_1253_39_alg».proof.Proof.BScTileBase
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import Idealize.ShloMosaic.Lib.ValueIdx

noncomputable section

namespace Cert.Proof.KB.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S16384 EltTy.i32)
local notation "a3" => (Memref.whole Cert.Kernel.main_arg1_scv : Memref Cert.Kernel.sig Kind.scVector Space.hbm Cert.Kernel.S16384 EltTy.i32)
local notation "a4" => (Memref.whole Cert.Kernel.main_arg2_scv : Memref Cert.Kernel.sig Kind.scVector Space.hbm Cert.Kernel.S16384 EltTy.i32)
local notation "a5" => (Memref.whole Cert.Kernel.main_v0_scv : Memref Cert.Kernel.sig Kind.scVector Space.hbm Cert.Kernel.S125000x8x64 EltTy.f32)
local notation "a6" => (Memref.whole Cert.Kernel.main_v1_scv : Memref Cert.Kernel.sig Kind.scVector Space.hbm Cert.Kernel.S125000x8x64 EltTy.f32)
local notation "a7" => (Memref.whole Cert.Kernel.main_v2_scv : Memref Cert.Kernel.sig Kind.scVector Space.hbm Cert.Kernel.S125000x8x64 EltTy.f32)
local notation "a8" => (Memref.whole Cert.Kernel.main_v3_0_scv : Memref Cert.Kernel.sig Kind.scVector Space.hbm Cert.Kernel.S16384x1x64 EltTy.f32)
local notation "a9" => (Memref.whole Cert.Kernel.main_v3_1_scv : Memref Cert.Kernel.sig Kind.scVector Space.hbm Cert.Kernel.S16384x1x64 EltTy.f32)
local notation "a10" => (Memref.whole Cert.Kernel.main_v3_2_scv : Memref Cert.Kernel.sig Kind.scVector Space.hbm Cert.Kernel.S16384x1x64 EltTy.f32)
local notation "s11" => (Memref.whole Cert.Kernel.cc0_scratch0 : Memref Cert.Kernel.sig Kind.scVector Space.vmem Cert.Kernel.S512 EltTy.i32)
local notation "s12" => (Memref.whole Cert.Kernel.cc0_scratch1 : Memref Cert.Kernel.sig Kind.scVector Space.vmem Cert.Kernel.S512x1x64 EltTy.f32)

variable [FloatOps F]

/-- Row `t` of the rows scratch as a set of the scratch's indices. -/
abbrev rowSet (t : Fin 512) : Finset S512x1x64.Idx := (rowM t).view.set

/-- Row `t` of the rows scratch: the elements whose first coordinate is `t`. -/
theorem mem_rowM_set (t : Fin 512) (x : S512x1x64.Idx) : x ∈ (rowM t).view.set ↔ (x 0).val = t.val := by
  have e : (rowM t).view.set = (Rect.unit (s := S512x1x64) ![t.val, 0, 0] S1x1x64.size (row_inb t)).set :=
    View.set_slice_whole _ _
  refine (Finset.ext_iff.mp e x).trans (Rect.mem_set_unit.trans ?_)
  have h1 : (x 1).val < 1 := (x 1).isLt
  have h2 : (x 2).val < 64 := (x 2).isLt
  constructor
  · intro H; have a0 : t.val ≤ (x 0).val ∧ (x 0).val < t.val + 1 := H 0; omega
  · intro H a; fin_cases a
    · show t.val ≤ (x 0).val ∧ (x 0).val < t.val + 1; omega
    · show 0 ≤ (x 1).val ∧ (x 1).val < 0 + 1; omega
    · show 0 ≤ (x 2).val ∧ (x 2).val < 0 + 64; omega

theorem mem_rowSet (t : Fin 512) (x : S512x1x64.Idx) : x ∈ rowSet t ↔ (x 0).val = t.val := mem_rowM_set t x

/-- Two different rows share no element. -/
theorem rowSet_disjoint : ∀ t ∈ (Finset.univ : Finset (Fin 512)), ∀ t' ∈ (Finset.univ : Finset (Fin 512)), t ≠ t' → Disjoint (rowSet t) (rowSet t') := by
  intro t _ t' _ hne
  refine Finset.disjoint_left.mpr fun x hx hx' => ?_
  have m1 := (mem_rowSet t x).mp hx
  have m2 := (mem_rowSet t' x).mp hx'
  exact hne (Fin.ext (by omega))

/-- Every element of the scratch is in the row its first coordinate names. -/
theorem rowSet_cover : (Finset.univ : Finset (Fin 512)).biUnion rowSet = Finset.univ := by
  ext x
  simp only [Finset.mem_biUnion, Finset.mem_univ, true_and, iff_true]
  exact ⟨⟨(x 0).val, (x 0).isLt⟩, (mem_rowSet _ _).mpr rfl⟩

section Phase

variable (d : Dev nD) (L : grid0.Coords)
variable (tb : Memref sig .scVector .hbm S125000x8x64 .f32)
variable (fi : S512.Idx → BitVec 32) (hfi : ∀ x, (fi x).toNat ≤ 999999)
variable (ft : Buf (Elt F) (tb.view.loc (V d (cV L) (jV L)))) (fd : S512x1x64.Idx → Elt F .f32)

/-- What transfer `t` lands in its row: the table row its index word names (row number `word >>> 3`, sub-row `word &&& 7`),
    read through the table's memref. -/
theorem landed_apply (t : Fin 512) (x : S512x1x64.Idx) (hx : (x 0).val = t.val) :
    landed d L tb fi hfi ft fd t x
      = tb.view.read (Elt F) ft (clampIdx S125000x8x64 pos_S125000x8x64 ![(wordA fi t.val).toNat, (wordB fi t.val).toNat, (x 2).val]) := by
  have h1 : (x 1).val < 1 := (x 1).isLt
  have h2 : (x 2).val < 64 := (x 2).isLt
  -- the element's place inside its row
  have hy : ∃ y : S1x1x64.Idx, (rowM t).view.emb y = x ∧ (y 0).val = 0 ∧ (y 1).val = 0 ∧ (y 2).val = (x 2).val := by
    refine ⟨Idealize.ShloMosaic.ValueIdx.ix3 (0 : Fin 1) (0 : Fin 1) (⟨(x 2).val, h2⟩ : Fin 64), ?_, rfl, rfl, rfl⟩
    funext a
    refine Fin.ext ?_
    match a with
    | ⟨0, _⟩ => show t.val + 1 * 0 = (x 0).val; omega
    | ⟨1, _⟩ => show 0 + 1 * 0 = (x 1).val; omega
    | ⟨2, _⟩ => show 0 + 1 * (x 2).val = (x 2).val; omega
  obtain ⟨y, hxy, y0, y1, y2⟩ := hy
  have hA := src_inb fi hfi t.val 0
  have hB := src_inb fi hfi t.val 1
  have hA' : (wordA fi t.val).toNat + 1 ≤ 125000 := hA
  have hB' : (wordB fi t.val).toNat + 1 ≤ 8 := hB
  -- the copy writes the source sub-row's element at the same place
  have hw : landed d L tb fi hfi ft fd t ((rowM t).view.emb y) = (srcM tb fi hfi t.val).view.read (Elt F) ft y :=
    View.write_emb_of_mem (v := (rowM t).view) fd _ (Finset.mem_univ y)
  have hw' : landed d L tb fi hfi ft fd t x = (srcM tb fi hfi t.val).view.read (Elt F) ft y := hxy ▸ hw
  refine hw'.trans ?_
  -- a slice's read is the memref's read at the slice's place
  show tb.view.read (Elt F) ft
      ((Rect.unit (s := S125000x8x64) ![(wordA fi t.val).toNat, (wordB fi t.val).toNat, 0] S1x1x64.size (src_inb fi hfi t.val)).emb y) = _
  refine congrArg (tb.view.read (Elt F) ft) (funext fun a => Fin.ext ?_)
  match a with
  | ⟨0, _⟩ =>
    show (wordA fi t.val).toNat + 1 * (y 0).val = (wordA fi t.val).toNat % 125000
    rw [y0, Nat.mod_eq_of_lt (by omega)]
    omega
  | ⟨1, _⟩ =>
    show (wordB fi t.val).toNat + 1 * (y 1).val = (wordB fi t.val).toNat % 8
    rw [y1, Nat.mod_eq_of_lt (by omega)]
    omega
  | ⟨2, _⟩ =>
    show 0 + 1 * (y 2).val = (x 2).val % 64
    rw [y2, Nat.mod_eq_of_lt h2]
    omega

end Phase

end Cert.Proof.KB.Sc

end
-- ==== Proof.BScVal2.lean ====
/-
  One worker's result rows are the gathered rows.

  Worker w (vector subcore i of SparseCore c, w = 2 i + c) handles rows 512 w ... 512 w + 511. Its index scratch
  holds the 512 index words at those positions; copy number t of the batch lands in row t of the rows scratch the
  table's sub-row the t-th of these words names; the copy-out writes the rows scratch into the result's rows
  512 w + t. So the result's element (512 w + t, 0, e) is the table's element (word >>> 3, word &&& 7, e) for the
  word at position 512 w + t of the index array: the gathered array's element there. The shift and the mask of the
  vector unit are the plain shift and mask of a 32-bit word.
-/
import proofs.«203152_g22136261444366_cont_8to1_1253_39_alg».proof.Proof.BScVal1
import proofs.«203152_g22136261444366_cont_8to1_1253_39_alg».proof.Proof.BScViews
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KB.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S16384 EltTy.i32)
local notation "a3" => (Memref.whole Cert.Kernel.main_arg1_scv : Memref Cert.Kernel.sig Kind.scVector Space.hbm Cert.Kernel.S16384 EltTy.i32)
local notation "a4" => (Memref.whole Cert.Kernel.main_arg2_scv : Memref Cert.Kernel.sig Kind.scVector Space.hbm Cert.Kernel.S16384 EltTy.i32)
local notation "a5" => (Memref.whole Cert.Kernel.main_v0_scv : Memref Cert.Kernel.sig Kind.scVector Space.hbm Cert.Kernel.S125000x8x64 EltTy.f32)
local notation "a6" => (Memref.whole Cert.Kernel.main_v1_scv : Memref Cert.Kernel.sig Kind.scVector Space.hbm Cert.Kernel.S125000x8x64 EltTy.f32)
local notation "a7" => (Memref.whole Cert.Kernel.main_v2_scv : Memref Cert.Kernel.sig Kind.scVector Space.hbm Cert.Kernel.S125000x8x64 EltTy.f32)
local notation "a8" => (Memref.whole Cert.Kernel.main_v3_0_scv : Memref Cert.Kernel.sig Kind.scVector Space.hbm Cert.Kernel.S16384x1x64 EltTy.f32)
local notation "a9" => (Memref.whole Cert.Kernel.main_v3_1_scv : Memref Cert.Kernel.sig Kind.scVector Space.hbm Cert.Kernel.S16384x1x64 EltTy.f32)
local notation "a10" => (Memref.whole Cert.Kernel.main_v3_2_scv : Memref Cert.Kernel.sig Kind.scVector Space.hbm Cert.Kernel.S16384x1x64 EltTy.f32)
local notation "s11" => (Memref.whole Cert.Kernel.cc0_scratch0 : Memref Cert.Kernel.sig Kind.scVector Space.vmem Cert.Kernel.S512 EltTy.i32)
local notation "s12" => (Memref.whole Cert.Kernel.cc0_scratch1 : Memref Cert.Kernel.sig Kind.scVector Space.vmem Cert.Kernel.S512x1x64 EltTy.f32)

variable [FloatOps F]

section Value

variable (d : Dev nD) (L : grid0.Coords)

/-- The words a worker's index scratch holds after the copy-in: its 512 words of the index array. -/
def wordsOf (ia : Memref sig .scVector .hbm S16384 .i32) (ids : Buf (Elt F) (ia.view.loc (V d (cV L) (jV L)))) : S512.Idx → BitVec 32 :=
  ReadAs.same.apply ((iSl ia L).view.read (Elt F) ids)

end Value

/-- The words are in range when the index array's are (index array 0). -/
theorem wordsOf_le_0 (d : Dev nD) (L : grid0.Coords) (ids : S16384.Idx → BitVec 32) (h : ∀ j, (ids j).toNat ≤ 999999) :
    ∀ x, (wordsOf (F := F) d L (Memref.whole main_arg0_scv) ids x).toNat ≤ 999999 :=
  fun x => h ((iSl (Memref.whole main_arg0_scv) L).view.emb x)

/-- THE VALUE of phase 0: if the rows scratch `g` agrees on each row `t` with what transfer `t` landed (over the index
    scratch's words), then what the copy-out writes into the worker's 512 result rows is the gathered rows there. -/
theorem out_value_0 (d : Dev nD) (L : grid0.Coords)
    (ids : S16384.Idx → BitVec 32) (tbl : S125000x8x64.Idx → Elt F .f32) (fo : S16384x1x64.Idx → Elt F .f32)
    (fd g : S512x1x64.Idx → Elt F .f32)
    (hfi : ∀ x, (wordsOf (F := F) d L (Memref.whole main_arg0_scv) ids x).toNat ≤ 999999)
    (hg : ∀ (t : Fin 512) (x : S512x1x64.Idx), (x 0).val = t.val →
      g x = landed d L (Memref.whole main_v0_scv) (wordsOf (F := F) d L (Memref.whole main_arg0_scv) ids) hfi tbl fd t x) :
    ∀ x ∈ outSet (wL L),
      (oSl (Memref.whole main_v3_0_scv) L).view.write (Elt F) fo (ReadAs.same.apply ((s12).view.read (Elt F) g)) Finset.univ x
        = Gathered3 tbl ids x := by
  intro x hx
  -- where the element sits among the worker's rows
  have hx' : x ∈ (Rect.unit (s := S16384x1x64) (k0_off36 L) S512x1x64.size (k0_off36_inb L)).set := by
    rw [rect_out_set]; exact hx
  have hb := Rect.mem_set_unit.mp hx'
  have e36 : k0_off36 L = ![1024 * (L 1).val + 512 * (L 0).val, 0, 0] := k0_off36_eq L
  have e1 : k0_off1 L = ![1024 * (L 1).val + 512 * (L 0).val] := k0_off1_eq L
  have c0 : 1024 * (L 1).val + 512 * (L 0).val ≤ (x 0).val ∧ (x 0).val < 1024 * (L 1).val + 512 * (L 0).val + 512 := by
    have := hb 0
    rw [e36] at this
    exact this
  have x0lt : (x 0).val < 16384 := (x 0).isLt
  have x1lt : (x 1).val < 1 := (x 1).isLt
  have x2lt : (x 2).val < 64 := (x 2).isLt
  have ht : (x 0).val - (1024 * (L 1).val + 512 * (L 0).val) < 512 := by omega
  obtain ⟨y, hxy, y0, y2⟩ : ∃ y : S512x1x64.Idx, (oSl (Memref.whole main_v3_0_scv) L).view.emb y = x
      ∧ (y 0).val = (x 0).val - (1024 * (L 1).val + 512 * (L 0).val) ∧ (y 2).val = (x 2).val := by
    refine ⟨Idealize.ShloMosaic.ValueIdx.ix3 (⟨(x 0).val - (1024 * (L 1).val + 512 * (L 0).val), ht⟩ : Fin 512) (0 : Fin 1)
      (⟨(x 2).val, x2lt⟩ : Fin 64), ?_, rfl, rfl⟩
    funext a
    refine Fin.ext ?_
    match a with
    | ⟨0, _⟩ =>
      show (k0_off36 L) 0 + 1 * ((x 0).val - (1024 * (L 1).val + 512 * (L 0).val)) = (x 0).val
      rw [e36]
      show 1024 * (L 1).val + 512 * (L 0).val + 1 * ((x 0).val - (1024 * (L 1).val + 512 * (L 0).val)) = (x 0).val
      omega
    | ⟨1, _⟩ =>
      show (k0_off36 L) 1 + 1 * 0 = (x 1).val
      rw [e36]
      show 0 + 1 * 0 = (x 1).val
      omega
    | ⟨2, _⟩ =>
      show (k0_off36 L) 2 + 1 * (x 2).val = (x 2).val
      rw [e36]
      show 0 + 1 * (x 2).val = (x 2).val
      omega
  -- the copy-out writes the scratch's element there
  have hw : (oSl (Memref.whole main_v3_0_scv) L).view.write (Elt F) fo (ReadAs.same.apply ((s12).view.read (Elt F) g)) Finset.univ
      ((oSl (Memref.whole main_v3_0_scv) L).view.emb y) = g y :=
    View.write_emb_of_mem (v := (oSl (Memref.whole main_v3_0_scv) L).view) fo _ (Finset.mem_univ y)
  have hw' : (oSl (Memref.whole main_v3_0_scv) L).view.write (Elt F) fo (ReadAs.same.apply ((s12).view.read (Elt F) g)) Finset.univ x = g y :=
    hxy ▸ hw
  refine hw'.trans ?_
  -- which the row copy landed from the table
  have hl := landed_apply d L (Memref.whole main_v0_scv) (wordsOf (F := F) d L (Memref.whole main_arg0_scv) ids) hfi tbl fd
    (⟨(y 0).val, by rw [y0]; exact ht⟩ : Fin 512) y rfl
  rw [hg (⟨(y 0).val, by rw [y0]; exact ht⟩ : Fin 512) y rfl, hl]
  -- the index word the row copy used is the array's word at the element's row
  have hword : wordsOf (F := F) d L (Memref.whole main_arg0_scv) ids (ix512 (y 0).val)
      = ids (clampIdx S16384 pos_S16384 ![(x 0).val]) := by
    show ids ((iSl (Memref.whole main_arg0_scv) L).view.emb (ix512 (y 0).val)) = _
    refine congrArg ids (funext fun a => Fin.ext ?_)
    match a with
    | ⟨0, _⟩ =>
      show (k0_off1 L) 0 + 1 * ((y 0).val % 512) = (x 0).val % 16384
      rw [e1, y0]
      show 1024 * (L 1).val + 512 * (L 0).val + 1 * (((x 0).val - (1024 * (L 1).val + 512 * (L 0).val)) % 512) = (x 0).val % 16384
      rw [Nat.mod_eq_of_lt ht, Nat.mod_eq_of_lt x0lt]
      omega
  show tbl (clampIdx S125000x8x64 pos_S125000x8x64
      ![(wordA (wordsOf (F := F) d L (Memref.whole main_arg0_scv) ids) (y 0).val).toNat,
        (wordB (wordsOf (F := F) d L (Memref.whole main_arg0_scv) ids) (y 0).val).toNat, (y 2).val]) = _
  unfold Gathered3 wordA wordB
  rw [shrui3, andi7, hword, y2]

/-- The words are in range when the index array's are (index array 1). -/
theorem wordsOf_le_1 (d : Dev nD) (L : grid0.Coords) (ids : S16384.Idx → BitVec 32) (h : ∀ j, (ids j).toNat ≤ 999999) :
    ∀ x, (wordsOf (F := F) d L (Memref.whole main_arg1_scv) ids x).toNat ≤ 999999 :=
  fun x => h ((iSl (Memref.whole main_arg1_scv) L).view.emb x)

/-- THE VALUE of phase 1: if the rows scratch `g` agrees on each row `t` with what transfer `t` landed (over the index
    scratch's words), then what the copy-out writes into the worker's 512 result rows is the gathered rows there. -/
theorem out_value_1 (d : Dev nD) (L : grid0.Coords)
    (ids : S16384.Idx → BitVec 32) (tbl : S125000x8x64.Idx → Elt F .f32) (fo : S16384x1x64.Idx → Elt F .f32)
    (fd g : S512x1x64.Idx → Elt F .f32)
    (hfi : ∀ x, (wordsOf (F := F) d L (Memref.whole main_arg1_scv) ids x).toNat ≤ 999999)
    (hg : ∀ (t : Fin 512) (x : S512x1x64.Idx), (x 0).val = t.val →
      g x = landed d L (Memref.whole main_v1_scv) (wordsOf (F := F) d L (Memref.whole main_arg1_scv) ids) hfi tbl fd t x) :
    ∀ x ∈ outSet (wL L),
      (oSl (Memref.whole main_v3_1_scv) L).view.write (Elt F) fo (ReadAs.same.apply ((s12).view.read (Elt F) g)) Finset.univ x
        = Gathered3 tbl ids x := by
  intro x hx
  -- where the element sits among the worker's rows
  have hx' : x ∈ (Rect.unit (s := S16384x1x64) (k0_off36 L) S512x1x64.size (k0_off36_inb L)).set := by
    rw [rect_out_set]; exact hx
  have hb := Rect.mem_set_unit.mp hx'
  have e36 : k0_off36 L = ![1024 * (L 1).val + 512 * (L 0).val, 0, 0] := k0_off36_eq L
  have e1 : k0_off1 L = ![1024 * (L 1).val + 512 * (L 0).val] := k0_off1_eq L
  have c0 : 1024 * (L 1).val + 512 * (L 0).val ≤ (x 0).val ∧ (x 0).val < 1024 * (L 1).val + 512 * (L 0).val + 512 := by
    have := hb 0
    rw [e36] at this
    exact this
  have x0lt : (x 0).val < 16384 := (x 0).isLt
  have x1lt : (x 1).val < 1 := (x 1).isLt
  have x2lt : (x 2).val < 64 := (x 2).isLt
  have ht : (x 0).val - (1024 * (L 1).val + 512 * (L 0).val) < 512 := by omega
  obtain ⟨y, hxy, y0, y2⟩ : ∃ y : S512x1x64.Idx, (oSl (Memref.whole main_v3_1_scv) L).view.emb y = x
      ∧ (y 0).val = (x 0).val - (1024 * (L 1).val + 512 * (L 0).val) ∧ (y 2).val = (x 2).val := by
    refine ⟨Idealize.ShloMosaic.ValueIdx.ix3 (⟨(x 0).val - (1024 * (L 1).val + 512 * (L 0).val), ht⟩ : Fin 512) (0 : Fin 1)
      (⟨(x 2).val, x2lt⟩ : Fin 64), ?_, rfl, rfl⟩
    funext a
    refine Fin.ext ?_
    match a with
    | ⟨0, _⟩ =>
      show (k0_off36 L) 0 + 1 * ((x 0).val - (1024 * (L 1).val + 512 * (L 0).val)) = (x 0).val
      rw [e36]
      show 1024 * (L 1).val + 512 * (L 0).val + 1 * ((x 0).val - (1024 * (L 1).val + 512 * (L 0).val)) = (x 0).val
      omega
    | ⟨1, _⟩ =>
      show (k0_off36 L) 1 + 1 * 0 = (x 1).val
      rw [e36]
      show 0 + 1 * 0 = (x 1).val
      omega
    | ⟨2, _⟩ =>
      show (k0_off36 L) 2 + 1 * (x 2).val = (x 2).val
      rw [e36]
      show 0 + 1 * (x 2).val = (x 2).val
      omega
  -- the copy-out writes the scratch's element there
  have hw : (oSl (Memref.whole main_v3_1_scv) L).view.write (Elt F) fo (ReadAs.same.apply ((s12).view.read (Elt F) g)) Finset.univ
      ((oSl (Memref.whole main_v3_1_scv) L).view.emb y) = g y :=
    View.write_emb_of_mem (v := (oSl (Memref.whole main_v3_1_scv) L).view) fo _ (Finset.mem_univ y)
  have hw' : (oSl (Memref.whole main_v3_1_scv) L).view.write (Elt F) fo (ReadAs.same.apply ((s12).view.read (Elt F) g)) Finset.univ x = g y :=
    hxy ▸ hw
  refine hw'.trans ?_
  -- which the row copy landed from the table
  have hl := landed_apply d L (Memref.whole main_v1_scv) (wordsOf (F := F) d L (Memref.whole main_arg1_scv) ids) hfi tbl fd
    (⟨(y 0).val, by rw [y0]; exact ht⟩ : Fin 512) y rfl
  rw [hg (⟨(y 0).val, by rw [y0]; exact ht⟩ : Fin 512) y rfl, hl]
  -- the index word the row copy used is the array's word at the element's row
  have hword : wordsOf (F := F) d L (Memref.whole main_arg1_scv) ids (ix512 (y 0).val)
      = ids (clampIdx S16384 pos_S16384 ![(x 0).val]) := by
    show ids ((iSl (Memref.whole main_arg1_scv) L).view.emb (ix512 (y 0).val)) = _
    refine congrArg ids (funext fun a => Fin.ext ?_)
    match a with
    | ⟨0, _⟩ =>
      show (k0_off1 L) 0 + 1 * ((y 0).val % 512) = (x 0).val % 16384
      rw [e1, y0]
      show 1024 * (L 1).val + 512 * (L 0).val + 1 * (((x 0).val - (1024 * (L 1).val + 512 * (L 0).val)) % 512) = (x 0).val % 16384
      rw [Nat.mod_eq_of_lt ht, Nat.mod_eq_of_lt x0lt]
      omega
  show tbl (clampIdx S125000x8x64 pos_S125000x8x64
      ![(wordA (wordsOf (F := F) d L (Memref.whole main_arg1_scv) ids) (y 0).val).toNat,
        (wordB (wordsOf (F := F) d L (Memref.whole main_arg1_scv) ids) (y 0).val).toNat, (y 2).val]) = _
  unfold Gathered3 wordA wordB
  rw [shrui3, andi7, hword, y2]

/-- The words are in range when the index array's are (index array 2). -/
theorem wordsOf_le_2 (d : Dev nD) (L : grid0.Coords) (ids : S16384.Idx → BitVec 32) (h : ∀ j, (ids j).toNat ≤ 999999) :
    ∀ x, (wordsOf (F := F) d L (Memref.whole main_arg2_scv) ids x).toNat ≤ 999999 :=
  fun x => h ((iSl (Memref.whole main_arg2_scv) L).view.emb x)

/-- THE VALUE of phase 2: if the rows scratch `g` agrees on each row `t` with what transfer `t` landed (over the index
    scratch's words), then what the copy-out writes into the worker's 512 result rows is the gathered rows there. -/
theorem out_value_2 (d : Dev nD) (L : grid0.Coords)
    (ids : S16384.Idx → BitVec 32) (tbl : S125000x8x64.Idx → Elt F .f32) (fo : S16384x1x64.Idx → Elt F .f32)
    (fd g : S512x1x64.Idx → Elt F .f32)
    (hfi : ∀ x, (wordsOf (F := F) d L (Memref.whole main_arg2_scv) ids x).toNat ≤ 999999)
    (hg : ∀ (t : Fin 512) (x : S512x1x64.Idx), (x 0).val = t.val →
      g x = landed d L (Memref.whole main_v2_scv) (wordsOf (F := F) d L (Memref.whole main_arg2_scv) ids) hfi tbl fd t x) :
    ∀ x ∈ outSet (wL L),
      (oSl (Memref.whole main_v3_2_scv) L).view.write (Elt F) fo (ReadAs.same.apply ((s12).view.read (Elt F) g)) Finset.univ x
        = Gathered3 tbl ids x := by
  intro x hx
  -- where the element sits among the worker's rows
  have hx' : x ∈ (Rect.unit (s := S16384x1x64) (k0_off36 L) S512x1x64.size (k0_off36_inb L)).set := by
    rw [rect_out_set]; exact hx
  have hb := Rect.mem_set_unit.mp hx'
  have e36 : k0_off36 L = ![1024 * (L 1).val + 512 * (L 0).val, 0, 0] := k0_off36_eq L
  have e1 : k0_off1 L = ![1024 * (L 1).val + 512 * (L 0).val] := k0_off1_eq L
  have c0 : 1024 * (L 1).val + 512 * (L 0).val ≤ (x 0).val ∧ (x 0).val < 1024 * (L 1).val + 512 * (L 0).val + 512 := by
    have := hb 0
    rw [e36] at this
    exact this
  have x0lt : (x 0).val < 16384 := (x 0).isLt
  have x1lt : (x 1).val < 1 := (x 1).isLt
  have x2lt : (x 2).val < 64 := (x 2).isLt
  have ht : (x 0).val - (1024 * (L 1).val + 512 * (L 0).val) < 512 := by omega
  obtain ⟨y, hxy, y0, y2⟩ : ∃ y : S512x1x64.Idx, (oSl (Memref.whole main_v3_2_scv) L).view.emb y = x
      ∧ (y 0).val = (x 0).val - (1024 * (L 1).val + 512 * (L 0).val) ∧ (y 2).val = (x 2).val := by
    refine ⟨Idealize.ShloMosaic.ValueIdx.ix3 (⟨(x 0).val - (1024 * (L 1).val + 512 * (L 0).val), ht⟩ : Fin 512) (0 : Fin 1)
      (⟨(x 2).val, x2lt⟩ : Fin 64), ?_, rfl, rfl⟩
    funext a
    refine Fin.ext ?_
    match a with
    | ⟨0, _⟩ =>
      show (k0_off36 L) 0 + 1 * ((x 0).val - (1024 * (L 1).val + 512 * (L 0).val)) = (x 0).val
      rw [e36]
      show 1024 * (L 1).val + 512 * (L 0).val + 1 * ((x 0).val - (1024 * (L 1).val + 512 * (L 0).val)) = (x 0).val
      omega
    | ⟨1, _⟩ =>
      show (k0_off36 L) 1 + 1 * 0 = (x 1).val
      rw [e36]
      show 0 + 1 * 0 = (x 1).val
      omega
    | ⟨2, _⟩ =>
      show (k0_off36 L) 2 + 1 * (x 2).val = (x 2).val
      rw [e36]
      show 0 + 1 * (x 2).val = (x 2).val
      omega
  -- the copy-out writes the scratch's element there
  have hw : (oSl (Memref.whole main_v3_2_scv) L).view.write (Elt F) fo (ReadAs.same.apply ((s12).view.read (Elt F) g)) Finset.univ
      ((oSl (Memref.whole main_v3_2_scv) L).view.emb y) = g y :=
    View.write_emb_of_mem (v := (oSl (Memref.whole main_v3_2_scv) L).view) fo _ (Finset.mem_univ y)
  have hw' : (oSl (Memref.whole main_v3_2_scv) L).view.write (Elt F) fo (ReadAs.same.apply ((s12).view.read (Elt F) g)) Finset.univ x = g y :=
    hxy ▸ hw
  refine hw'.trans ?_
  -- which the row copy landed from the table
  have hl := landed_apply d L (Memref.whole main_v2_scv) (wordsOf (F := F) d L (Memref.whole main_arg2_scv) ids) hfi tbl fd
    (⟨(y 0).val, by rw [y0]; exact ht⟩ : Fin 512) y rfl
  rw [hg (⟨(y 0).val, by rw [y0]; exact ht⟩ : Fin 512) y rfl, hl]
  -- the index word the row copy used is the array's word at the element's row
  have hword : wordsOf (F := F) d L (Memref.whole main_arg2_scv) ids (ix512 (y 0).val)
      = ids (clampIdx S16384 pos_S16384 ![(x 0).val]) := by
    show ids ((iSl (Memref.whole main_arg2_scv) L).view.emb (ix512 (y 0).val)) = _
    refine congrArg ids (funext fun a => Fin.ext ?_)
    match a with
    | ⟨0, _⟩ =>
      show (k0_off1 L) 0 + 1 * ((y 0).val % 512) = (x 0).val % 16384
      rw [e1, y0]
      show 1024 * (L 1).val + 512 * (L 0).val + 1 * (((x 0).val - (1024 * (L 1).val + 512 * (L 0).val)) % 512) = (x 0).val % 16384
      rw [Nat.mod_eq_of_lt ht, Nat.mod_eq_of_lt x0lt]
      omega
  show tbl (clampIdx S125000x8x64 pos_S125000x8x64
      ![(wordA (wordsOf (F := F) d L (Memref.whole main_arg2_scv) ids) (y 0).val).toNat,
        (wordB (wordsOf (F := F) d L (Memref.whole main_arg2_scv) ids) (y 0).val).toNat, (y 2).val]) = _
  unfold Gathered3 wordA wordB
  rw [shrui3, andi7, hword, y2]

end Cert.Proof.KB.Sc

end
-- ==== Proof.BScVal3.lean ====
/-
  One worker's result rows are the gathered rows, with the copy-out's contents written as a list of writes.

  A single unmasked write through the whole rectangle of a view is the unmasked write through the view: the whole
  rectangle places every index at itself. So the contents a one-piece list of writes leaves are, at every
  element under the view, those of the plain write, and the statement about the plain write carries over.
-/
import proofs.«203152_g22136261444366_cont_8to1_1253_39_alg».proof.Proof.BScVal1
import proofs.«203152_g22136261444366_cont_8to1_1253_39_alg».proof.Proof.BScViews
import proofs.«203152_g22136261444366_cont_8to1_1253_39_alg».proof.Proof.BScVal2
import Idealize.ShloMosaic.Lib.Writes
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KB.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S16384 EltTy.i32)
local notation "a3" => (Memref.whole Cert.Kernel.main_arg1_scv : Memref Cert.Kernel.sig Kind.scVector Space.hbm Cert.Kernel.S16384 EltTy.i32)
local notation "a4" => (Memref.whole Cert.Kernel.main_arg2_scv : Memref Cert.Kernel.sig Kind.scVector Space.hbm Cert.Kernel.S16384 EltTy.i32)
local notation "a5" => (Memref.whole Cert.Kernel.main_v0_scv : Memref Cert.Kernel.sig Kind.scVector Space.hbm Cert.Kernel.S125000x8x64 EltTy.f32)
local notation "a6" => (Memref.whole Cert.Kernel.main_v1_scv : Memref Cert.Kernel.sig Kind.scVector Space.hbm Cert.Kernel.S125000x8x64 EltTy.f32)
local notation "a7" => (Memref.whole Cert.Kernel.main_v2_scv : Memref Cert.Kernel.sig Kind.scVector Space.hbm Cert.Kernel.S125000x8x64 EltTy.f32)
local notation "a8" => (Memref.whole Cert.Kernel.main_v3_0_scv : Memref Cert.Kernel.sig Kind.scVector Space.hbm Cert.Kernel.S16384x1x64 EltTy.f32)
local notation "a9" => (Memref.whole Cert.Kernel.main_v3_1_scv : Memref Cert.Kernel.sig Kind.scVector Space.hbm Cert.Kernel.S16384x1x64 EltTy.f32)
local notation "a10" => (Memref.whole Cert.Kernel.main_v3_2_scv : Memref Cert.Kernel.sig Kind.scVector Space.hbm Cert.Kernel.S16384x1x64 EltTy.f32)
local notation "s11" => (Memref.whole Cert.Kernel.cc0_scratch0 : Memref Cert.Kernel.sig Kind.scVector Space.vmem Cert.Kernel.S512 EltTy.i32)
local notation "s12" => (Memref.whole Cert.Kernel.cc0_scratch1 : Memref Cert.Kernel.sig Kind.scVector Space.vmem Cert.Kernel.S512x1x64 EltTy.f32)

variable [FloatOps F]

/-- One write through the whole rectangle, read at an element under the view, is the plain write there. -/
theorem writes_whole_emb {sig' : RefSig} {κ : Kind} {sp : Space} {s : Shape} {e : EltTy} {Val : EltTy → Type}
    (v : View sig' κ sp s e) (f : v.ty.Contents Val) (w : s.Idx → Val e) (y : s.Idx) :
    v.writes Val f [⟨Rect.whole s, w⟩] (v.emb y) = v.write Val f w Finset.univ (v.emb y) := by
  have e1 : (v.slice (Rect.whole s)).emb y = v.emb y := by
    show v.emb ((Rect.whole s).emb y) = v.emb y
    rw [Rect.emb_whole_apply]
  have h1 : v.writes Val f [⟨Rect.whole s, w⟩] ((v.slice (Rect.whole s)).emb y) = v.write Val f w Finset.univ (v.emb y) := by
    rw [View.writes_singleton, View.write_emb_of_mem _ _ (Finset.mem_univ y), View.write_emb_of_mem _ _ (Finset.mem_univ y)]
  rw [← e1]
  exact h1.trans (by rw [e1])

/-- An element of the worker's result rows sits under the worker's slice of result 0. -/
theorem exists_emb_out_0 (L : grid0.Coords) (x : S16384x1x64.Idx) (hx : x ∈ outSet (wL L)) :
    ∃ y : S512x1x64.Idx, (oSl (Memref.whole main_v3_0_scv) L).view.emb y = x := by
  have hx' : x ∈ (Rect.unit (s := S16384x1x64) (k0_off36 L) S512x1x64.size (k0_off36_inb L)).set := by
    rw [rect_out_set]; exact hx
  have hb := Rect.mem_set_unit.mp hx'
  have e36 : k0_off36 L = ![1024 * (L 1).val + 512 * (L 0).val, 0, 0] := k0_off36_eq L
  have c0 : 1024 * (L 1).val + 512 * (L 0).val ≤ (x 0).val ∧ (x 0).val < 1024 * (L 1).val + 512 * (L 0).val + 512 := by
    have := hb 0
    rw [e36] at this
    exact this
  have x1lt : (x 1).val < 1 := (x 1).isLt
  have x2lt : (x 2).val < 64 := (x 2).isLt
  have ht : (x 0).val - (1024 * (L 1).val + 512 * (L 0).val) < 512 := by omega
  refine ⟨Idealize.ShloMosaic.ValueIdx.ix3 (⟨(x 0).val - (1024 * (L 1).val + 512 * (L 0).val), ht⟩ : Fin 512) (0 : Fin 1)
    (⟨(x 2).val, x2lt⟩ : Fin 64), ?_⟩
  funext a
  refine Fin.ext ?_
  match a with
  | ⟨0, _⟩ =>
    show (k0_off36 L) 0 + 1 * ((x 0).val - (1024 * (L 1).val + 512 * (L 0).val)) = (x 0).val
    rw [e36]
    show 1024 * (L 1).val + 512 * (L 0).val + 1 * ((x 0).val - (1024 * (L 1).val + 512 * (L 0).val)) = (x 0).val
    omega
  | ⟨1, _⟩ =>
    show (k0_off36 L) 1 + 1 * 0 = (x 1).val
    rw [e36]
    show 0 + 1 * 0 = (x 1).val
    omega
  | ⟨2, _⟩ =>
    show (k0_off36 L) 2 + 1 * (x 2).val = (x 2).val
    rw [e36]
    show 0 + 1 * (x 2).val = (x 2).val
    omega

/-- THE VALUE of phase 0, with the copy-out's contents spelt as a one-piece list of writes. -/
theorem out_value_writes_0 (d : Dev nD) (L : grid0.Coords)
    (ids : S16384.Idx → BitVec 32) (tbl : S125000x8x64.Idx → Elt F .f32) (fo : S16384x1x64.Idx → Elt F .f32)
    (fd g : S512x1x64.Idx → Elt F .f32)
    (hfi : ∀ x, (wordsOf (F := F) d L (Memref.whole main_arg0_scv) ids x).toNat ≤ 999999)
    (hg : ∀ (t : Fin 512) (x : S512x1x64.Idx), (x 0).val = t.val →
      g x = landed d L (Memref.whole main_v0_scv) (wordsOf (F := F) d L (Memref.whole main_arg0_scv) ids) hfi tbl fd t x) :
    ∀ x ∈ outSet (wL L),
      (oSl (Memref.whole main_v3_0_scv) L).view.writes (Elt F) fo
          [⟨Rect.whole S512x1x64, ReadAs.same.apply ((s12).view.read (Elt F) g)⟩] x
        = Gathered3 tbl ids x := by
  intro x hx
  obtain ⟨y, hxy⟩ := exists_emb_out_0 L x hx
  have h := writes_whole_emb (Val := Elt F) (oSl (Memref.whole main_v3_0_scv) L).view fo
    (ReadAs.same.apply ((s12).view.read (Elt F) g)) y
  rw [hxy] at h
  exact h.trans (out_value_0 d L ids tbl fo fd g hfi hg x hx)

/-- An element of the worker's result rows sits under the worker's slice of result 1. -/
theorem exists_emb_out_1 (L : grid0.Coords) (x : S16384x1x64.Idx) (hx : x ∈ outSet (wL L)) :
    ∃ y : S512x1x64.Idx, (oSl (Memref.whole main_v3_1_scv) L).view.emb y = x := by
  have hx' : x ∈ (Rect.unit (s := S16384x1x64) (k0_off36 L) S512x1x64.size (k0_off36_inb L)).set := by
    rw [rect_out_set]; exact hx
  have hb := Rect.mem_set_unit.mp hx'
  have e36 : k0_off36 L = ![1024 * (L 1).val + 512 * (L 0).val, 0, 0] := k0_off36_eq L
  have c0 : 1024 * (L 1).val + 512 * (L 0).val ≤ (x 0).val ∧ (x 0).val < 1024 * (L 1).val + 512 * (L 0).val + 512 := by
    have := hb 0
    rw [e36] at this
    exact this
  have x1lt : (x 1).val < 1 := (x 1).isLt
  have x2lt : (x 2).val < 64 := (x 2).isLt
  have ht : (x 0).val - (1024 * (L 1).val + 512 * (L 0).val) < 512 := by omega
  refine ⟨Idealize.ShloMosaic.ValueIdx.ix3 (⟨(x 0).val - (1024 * (L 1).val + 512 * (L 0).val), ht⟩ : Fin 512) (0 : Fin 1)
    (⟨(x 2).val, x2lt⟩ : Fin 64), ?_⟩
  funext a
  refine Fin.ext ?_
  match a with
  | ⟨0, _⟩ =>
    show (k0_off36 L) 0 + 1 * ((x 0).val - (1024 * (L 1).val + 512 * (L 0).val)) = (x 0).val
    rw [e36]
    show 1024 * (L 1).val + 512 * (L 0).val + 1 * ((x 0).val - (1024 * (L 1).val + 512 * (L 0).val)) = (x 0).val
    omega
  | ⟨1, _⟩ =>
    show (k0_off36 L) 1 + 1 * 0 = (x 1).val
    rw [e36]
    show 0 + 1 * 0 = (x 1).val
    omega
  | ⟨2, _⟩ =>
    show (k0_off36 L) 2 + 1 * (x 2).val = (x 2).val
    rw [e36]
    show 0 + 1 * (x 2).val = (x 2).val
    omega

/-- THE VALUE of phase 1, with the copy-out's contents spelt as a one-piece list of writes. -/
theorem out_value_writes_1 (d : Dev nD) (L : grid0.Coords)
    (ids : S16384.Idx → BitVec 32) (tbl : S125000x8x64.Idx → Elt F .f32) (fo : S16384x1x64.Idx → Elt F .f32)
    (fd g : S512x1x64.Idx → Elt F .f32)
    (hfi : ∀ x, (wordsOf (F := F) d L (Memref.whole main_arg1_scv) ids x).toNat ≤ 999999)
    (hg : ∀ (t : Fin 512) (x : S512x1x64.Idx), (x 0).val = t.val →
      g x = landed d L (Memref.whole main_v1_scv) (wordsOf (F := F) d L (Memref.whole main_arg1_scv) ids) hfi tbl fd t x) :
    ∀ x ∈ outSet (wL L),
      (oSl (Memref.whole main_v3_1_scv) L).view.writes (Elt F) fo
          [⟨Rect.whole S512x1x64, ReadAs.same.apply ((s12).view.read (Elt F) g)⟩] x
        = Gathered3 tbl ids x := by
  intro x hx
  obtain ⟨y, hxy⟩ := exists_emb_out_1 L x hx
  have h := writes_whole_emb (Val := Elt F) (oSl (Memref.whole main_v3_1_scv) L).view fo
    (ReadAs.same.apply ((s12).view.read (Elt F) g)) y
  rw [hxy] at h
  exact h.trans (out_value_1 d L ids tbl fo fd g hfi hg x hx)

/-- An element of the worker's result rows sits under the worker's slice of result 2. -/
theorem exists_emb_out_2 (L : grid0.Coords) (x : S16384x1x64.Idx) (hx : x ∈ outSet (wL L)) :
    ∃ y : S512x1x64.Idx, (oSl (Memref.whole main_v3_2_scv) L).view.emb y = x := by
  have hx' : x ∈ (Rect.unit (s := S16384x1x64) (k0_off36 L) S512x1x64.size (k0_off36_inb L)).set := by
    rw [rect_out_set]; exact hx
  have hb := Rect.mem_set_unit.mp hx'
  have e36 : k0_off36 L = ![1024 * (L 1).val + 512 * (L 0).val, 0, 0] := k0_off36_eq L
  have c0 : 1024 * (L 1).val + 512 * (L 0).val ≤ (x 0).val ∧ (x 0).val < 1024 * (L 1).val + 512 * (L 0).val + 512 := by
    have := hb 0
    rw [e36] at this
    exact this
  have x1lt : (x 1).val < 1 := (x 1).isLt
  have x2lt : (x 2).val < 64 := (x 2).isLt
  have ht : (x 0).val - (1024 * (L 1).val + 512 * (L 0).val) < 512 := by omega
  refine ⟨Idealize.ShloMosaic.ValueIdx.ix3 (⟨(x 0).val - (1024 * (L 1).val + 512 * (L 0).val), ht⟩ : Fin 512) (0 : Fin 1)
    (⟨(x 2).val, x2lt⟩ : Fin 64), ?_⟩
  funext a
  refine Fin.ext ?_
  match a with
  | ⟨0, _⟩ =>
    show (k0_off36 L) 0 + 1 * ((x 0).val - (1024 * (L 1).val + 512 * (L 0).val)) = (x 0).val
    rw [e36]
    show 1024 * (L 1).val + 512 * (L 0).val + 1 * ((x 0).val - (1024 * (L 1).val + 512 * (L 0).val)) = (x 0).val
    omega
  | ⟨1, _⟩ =>
    show (k0_off36 L) 1 + 1 * 0 = (x 1).val
    rw [e36]
    show 0 + 1 * 0 = (x 1).val
    omega
  | ⟨2, _⟩ =>
    show (k0_off36 L) 2 + 1 * (x 2).val = (x 2).val
    rw [e36]
    show 0 + 1 * (x 2).val = (x 2).val
    omega

/-- THE VALUE of phase 2, with the copy-out's contents spelt as a one-piece list of writes. -/
theorem out_value_writes_2 (d : Dev nD) (L : grid0.Coords)
    (ids : S16384.Idx → BitVec 32) (tbl : S125000x8x64.Idx → Elt F .f32) (fo : S16384x1x64.Idx → Elt F .f32)
    (fd g : S512x1x64.Idx → Elt F .f32)
    (hfi : ∀ x, (wordsOf (F := F) d L (Memref.whole main_arg2_scv) ids x).toNat ≤ 999999)
    (hg : ∀ (t : Fin 512) (x : S512x1x64.Idx), (x 0).val = t.val →
      g x = landed d L (Memref.whole main_v2_scv) (wordsOf (F := F) d L (Memref.whole main_arg2_scv) ids) hfi tbl fd t x) :
    ∀ x ∈ outSet (wL L),
      (oSl (Memref.whole main_v3_2_scv) L).view.writes (Elt F) fo
          [⟨Rect.whole S512x1x64, ReadAs.same.apply ((s12).view.read (Elt F) g)⟩] x
        = Gathered3 tbl ids x := by
  intro x hx
  obtain ⟨y, hxy⟩ := exists_emb_out_2 L x hx
  have h := writes_whole_emb (Val := Elt F) (oSl (Memref.whole main_v3_2_scv) L).view fo
    (ReadAs.same.apply ((s12).view.read (Elt F) g)) y
  rw [hxy] at h
  exact h.trans (out_value_2 d L ids tbl fo fd g hfi hg x hx)

end Cert.Proof.KB.Sc

end
-- ==== Proof.BScOuterRes.lean ====
/-
  The gather task's rows scratch and table share, split for a phase's 512 row copies and put back: the rows scratch
  is its 512 rows, in 32 groups of 16; a read share of a table is 512 tokens, in 32 groups of 16, and a remainder;
  after the draining wait the landed rows join into the scratch at one function that agrees with each landing on its
  row, and each source row's share with the rest of its token is the token again, the tokens and the remainder the
  share.
-/
import proofs.«203152_g22136261444366_cont_8to1_1253_39_alg».proof.Proof.BScTileBase
import proofs.«203152_g22136261444366_cont_8to1_1253_39_alg».proof.Proof.BScTrip
import proofs.«203152_g22136261444366_cont_8to1_1253_39_alg».proof.Proof.BScVal1
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import Idealize.ShloMosaic.Lib.Ring

noncomputable section

namespace Cert.Proof.KB.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

open Idealize.ShloMosaic.Tactic

local notation "a2" => (Memref.whole Cert.Kernel.main_arg0_scv : Memref Cert.Kernel.sig Kind.scVector Space.hbm Cert.Kernel.S16384 EltTy.i32)
local notation "a3" => (Memref.whole Cert.Kernel.main_arg1_scv : Memref Cert.Kernel.sig Kind.scVector Space.hbm Cert.Kernel.S16384 EltTy.i32)
local notation "a4" => (Memref.whole Cert.Kernel.main_arg2_scv : Memref Cert.Kernel.sig Kind.scVector Space.hbm Cert.Kernel.S16384 EltTy.i32)
local notation "a5" => (Memref.whole Cert.Kernel.main_v0_scv : Memref Cert.Kernel.sig Kind.scVector Space.hbm Cert.Kernel.S125000x8x64 EltTy.f32)
local notation "a6" => (Memref.whole Cert.Kernel.main_v1_scv : Memref Cert.Kernel.sig Kind.scVector Space.hbm Cert.Kernel.S125000x8x64 EltTy.f32)
local notation "a7" => (Memref.whole Cert.Kernel.main_v2_scv : Memref Cert.Kernel.sig Kind.scVector Space.hbm Cert.Kernel.S125000x8x64 EltTy.f32)
local notation "a8" => (Memref.whole Cert.Kernel.main_v3_0_scv : Memref Cert.Kernel.sig Kind.scVector Space.hbm Cert.Kernel.S16384x1x64 EltTy.f32)
local notation "a9" => (Memref.whole Cert.Kernel.main_v3_1_scv : Memref Cert.Kernel.sig Kind.scVector Space.hbm Cert.Kernel.S16384x1x64 EltTy.f32)
local notation "a10" => (Memref.whole Cert.Kernel.main_v3_2_scv : Memref Cert.Kernel.sig Kind.scVector Space.hbm Cert.Kernel.S16384x1x64 EltTy.f32)
local notation "s11" => (Memref.whole Cert.Kernel.cc0_scratch0 : Memref Cert.Kernel.sig Kind.scVector Space.vmem Cert.Kernel.S512 EltTy.i32)
local notation "s12" => (Memref.whole Cert.Kernel.cc0_scratch1 : Memref Cert.Kernel.sig Kind.scVector Space.vmem Cert.Kernel.S512x1x64 EltTy.f32)

variable [FloatOps F]

/-! ## 512 transfers in 32 groups of 16 -/

section Reindex

variable {M : Type} [URA M]

theorem t512_inj : Set.InjOn (fun p : Fin 32 × Fin 16 => t512 p.1 p.2) ((Finset.univ ×ˢ Finset.univ : Finset (Fin 32 × Fin 16)) : Set (Fin 32 × Fin 16)) := by
  rintro ⟨x1, x2⟩ _ ⟨y1, y2⟩ _ e
  have h : 16 * x1.val + x2.val = 16 * y1.val + y2.val := congrArg Fin.val e
  have h1 := x2.isLt; have h2 := y2.isLt
  refine Prod.ext (Fin.ext ?_) (Fin.ext ?_)
  · show x1.val = y1.val; omega
  · show x2.val = y2.val; omega

theorem t512_image : (Finset.univ ×ˢ Finset.univ : Finset (Fin 32 × Fin 16)).image (fun p => t512 p.1 p.2) = Finset.univ := by
  rw [Finset.eq_univ_iff_forall]; intro t
  have ht := t.isLt
  rw [Finset.mem_image]
  exact ⟨(⟨t.val / 16, by omega⟩, ⟨t.val % 16, by omega⟩), Finset.mem_product.mpr ⟨Finset.mem_univ _, Finset.mem_univ _⟩,
    Fin.ext (show 16 * (t.val / 16) + t.val % 16 = t.val by omega)⟩

/-- The 512 transfers are the 32 × 16 pairs (trip, copy of the trip). -/
theorem bigSep_t512 (Φ : Fin 512 → sProp M) :
    bigSep Finset.univ Φ = bigSep Finset.univ fun k : Fin 32 => bigSep Finset.univ fun j : Fin 16 => Φ (t512 k j) := by
  rw [← t512_image, SparseCore.bigSep_image_of_injOn t512_inj Φ]
  exact SparseCore.bigSep_product Finset.univ Finset.univ (fun p : Fin 32 × Fin 16 => Φ (t512 p.1 p.2))

end Reindex

section Res

variable (d : Dev nD) (L : grid0.Coords)
variable (tb : Memref sig .scVector .hbm S125000x8x64 .f32) (hset : tb.view.set = Finset.univ)
variable (fi : S512.Idx → BitVec 32) (hfi : ∀ x, (fi x).toNat ≤ 999999)
variable (q : PosShare TreeShare) (ft : Buf (Elt F) (tb.view.loc (V d (cV L) (jV L)))) (fd : S512x1x64.Idx → Elt F .f32)

omit [FloatOps F] in
/-- The rows scratch is its 512 rows, in 32 groups of 16. -/
theorem rows_split :
    ((s12).view.loc (V d (cV L) (jV L)) ↦{fullShare} fd : sProp 𝕄) = bigSep (Ring.rangeSet 32 0 32) (rows16 d L fd) := by
  rw [Ring.rangeSet_univ]
  unfold rows16
  rw [← bigSep_t512 (fun t => rowPt d L t fd)]
  have e : (fun t : Fin 512 => rowPt d L t fd)
      = fun t => ((s12).view.loc (V d (cV L) (jV L)) ↦[rowSet t]{fullShare} fd : sProp 𝕄) := rfl
  rw [e, ← pointsTo_biUnion Finset.univ (ℓ := (s12).view.loc (V d (cV L) (jV L))) rowSet rowSet_disjoint, rowSet_cover]

omit [FloatOps F] in
include hset in
/-- A read share of a whole table is 512 tokens, in 32 groups of 16, and a remainder. -/
theorem toks_split :
    (tb.view.loc (V d (cV L) (jV L)) ↦{q} ft : sProp 𝕄)
      ⊣⊢ iprop((tb.view.loc (V d (cV L) (jV L)) ↦{Transfers.shareDrop q 512} ft) ∗ bigSep (Ring.rangeSet 32 0 32) (toks16 d L tb q ft)) := by
  rw [Ring.rangeSet_univ]
  unfold toks16
  rw [← bigSep_t512 (fun t => tokPt d L tb q ft t)]
  show _ ⊣⊢ iprop(_ ∗ bigSep Finset.univ fun t : Fin 512 => (tb.view.loc (V d (cV L) (jV L)) ↦[tb.view.set]{Transfers.shareTok q 512 t} ft : sProp 𝕄))
  rw [hset]
  exact Transfers.pointsTo_toks q 512

omit [FloatOps F] in
/-- The landed rows join into the rows scratch at one function, equal to each landing on its row. -/
theorem rows_join (g : Fin 512 → S512x1x64.Idx → Elt F .f32) :
    (bigSep Finset.univ fun t : Fin 512 => rowPt d L t (g t))
      ⊢ (iprop(∃ h, ⌜∀ t : Fin 512, ∀ i ∈ rowSet t, h i = g t i⌝ ∗ (s12).view.loc (V d (cV L) (jV L)) ↦{fullShare} h) : sProp 𝕄) := by
  have e : (fun t : Fin 512 => rowPt d L t (g t))
      = fun t => ((s12).view.loc (V d (cV L) (jV L)) ↦[rowSet t]{fullShare} g t : sProp 𝕄) := rfl
  rw [e]
  refine (pointsTo_biUnion_join Finset.univ (ℓ := (s12).view.loc (V d (cV L) (jV L))) rowSet g (g ⟨0, by decide⟩) rowSet_disjoint).trans ?_
  rw [rowSet_cover]
  iintro ⟨%h, %hh, H⟩
  iexists h
  isplitr
  · ipureintro; exact fun t i hi => hh t (Finset.mem_univ t) i hi
  · iexact H

omit [FloatOps F] in
include hset in
/-- The source rows' shares, the tokens' rests and the remainder are the table share again. -/
theorem toks_join :
    iprop((tb.view.loc (V d (cV L) (jV L)) ↦{Transfers.shareDrop q 512} ft) ∗ (bigSep Finset.univ fun t : Fin 512 => srcPt d L tb fi hfi q ft t)
        ∗ bigSep (Ring.rangeSet 32 0 32) (rests16 d L tb fi hfi q ft))
      ⊢ (tb.view.loc (V d (cV L) (jV L)) ↦{q} ft : sProp 𝕄) := by
  rw [Ring.rangeSet_univ]
  unfold rests16
  rw [← bigSep_t512 (fun t => restPt d L tb fi hfi q ft t)]
  have h1 : iprop((bigSep Finset.univ fun t : Fin 512 => srcPt d L tb fi hfi q ft t) ∗ bigSep Finset.univ fun t : Fin 512 => restPt d L tb fi hfi q ft t)
      ⊢ (bigSep Finset.univ fun t : Fin 512 => tokPt d L tb q ft t : sProp 𝕄) := by
    rw [← bigSep_sep']
    exact bigSep_mono fun t _ => (pointsTo_split_subset (show (srcM tb fi hfi t.val).view.set ⊆ tb.view.set from View.set_slice_subset _ _)).2
  iintro ⟨Hd, Hs, Hr⟩
  iapply (toks_split d L tb hset q ft).2
  isplitl [Hd]; · iexact Hd
  rw [Ring.rangeSet_univ]
  unfold toks16
  rw [← bigSep_t512 (fun t => tokPt d L tb q ft t)]
  iapply h1
  isplitl [Hs]; · iexact Hs
  iexact Hr

omit [FloatOps F] in
/-- The 512 deliveries are the landed rows and the source rows' shares. -/
theorem deliv_split :
    (bigSep Finset.univ (deliv d L tb fi hfi q ft fd) : sProp 𝕄)
      = iprop((bigSep Finset.univ fun t : Fin 512 => rowPt d L t (landed d L tb fi hfi ft fd t)) ∗ bigSep Finset.univ fun t : Fin 512 => srcPt d L tb fi hfi q ft t) := by
  rw [← bigSep_sep']
  rfl

end Res

end Cert.Proof.KB.Sc

end
-- ==== Proof.BScOuterIO.lean ====
/-
  The tile's share of the call as the body's memrefs hold it, and back: the worker's index words and result rows
  through the slices the body takes, the tables through the whole arrays.
-/
import proofs.«203152_g22136261444366_cont_8to1_1253_39_alg».proof.Proof.BScSplit
import proofs.«203152_g22136261444366_cont_8to1_1253_39_alg».proof.Proof.BScViews
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KB.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S16384 EltTy.i32)
local notation "a3" => (Memref.whole Cert.Kernel.main_arg1_scv : Memref Cert.Kernel.sig Kind.scVector Space.hbm Cert.Kernel.S16384 EltTy.i32)
local notation "a4" => (Memref.whole Cert.Kernel.main_arg2_scv : Memref Cert.Kernel.sig Kind.scVector Space.hbm Cert.Kernel.S16384 EltTy.i32)
local notation "a5" => (Memref.whole Cert.Kernel.main_v0_scv : Memref Cert.Kernel.sig Kind.scVector Space.hbm Cert.Kernel.S125000x8x64 EltTy.f32)
local notation "a6" => (Memref.whole Cert.Kernel.main_v1_scv : Memref Cert.Kernel.sig Kind.scVector Space.hbm Cert.Kernel.S125000x8x64 EltTy.f32)
local notation "a7" => (Memref.whole Cert.Kernel.main_v2_scv : Memref Cert.Kernel.sig Kind.scVector Space.hbm Cert.Kernel.S125000x8x64 EltTy.f32)
local notation "a8" => (Memref.whole Cert.Kernel.main_v3_0_scv : Memref Cert.Kernel.sig Kind.scVector Space.hbm Cert.Kernel.S16384x1x64 EltTy.f32)
local notation "a9" => (Memref.whole Cert.Kernel.main_v3_1_scv : Memref Cert.Kernel.sig Kind.scVector Space.hbm Cert.Kernel.S16384x1x64 EltTy.f32)
local notation "a10" => (Memref.whole Cert.Kernel.main_v3_2_scv : Memref Cert.Kernel.sig Kind.scVector Space.hbm Cert.Kernel.S16384x1x64 EltTy.f32)
local notation "s11" => (Memref.whole Cert.Kernel.cc0_scratch0 : Memref Cert.Kernel.sig Kind.scVector Space.vmem Cert.Kernel.S512 EltTy.i32)
local notation "s12" => (Memref.whole Cert.Kernel.cc0_scratch1 : Memref Cert.Kernel.sig Kind.scVector Space.vmem Cert.Kernel.S512x1x64 EltTy.f32)

variable [FloatOps F]

section IO

variable (W : Dev nD → Valuation τ sig (Elt F)) (d : Dev nD) (L : grid0.Coords)

omit [FloatOps F] in
theorem pts_iSl0 (f : Buf (Elt F) ((d, r main_arg0) : Loc nD τ sig)) :
    ((iSl a2 L).view.loc (V d (cV L) (jV L)) ↦[(iSl a2 L).view.set]{fullShare} f : sProp 𝕄) = (((d, r main_arg0) : Loc nD τ sig) ↦[idxSet (wL L)]{fullShare} f) := by
  rw [set_iSl_main_arg0_scv]; rfl

omit [FloatOps F] in
theorem pts_iSl1 (f : Buf (Elt F) ((d, r main_arg1) : Loc nD τ sig)) :
    ((iSl a3 L).view.loc (V d (cV L) (jV L)) ↦[(iSl a3 L).view.set]{fullShare} f : sProp 𝕄) = (((d, r main_arg1) : Loc nD τ sig) ↦[idxSet (wL L)]{fullShare} f) := by
  rw [set_iSl_main_arg1_scv]; rfl

omit [FloatOps F] in
theorem pts_iSl2 (f : Buf (Elt F) ((d, r main_arg2) : Loc nD τ sig)) :
    ((iSl a4 L).view.loc (V d (cV L) (jV L)) ↦[(iSl a4 L).view.set]{fullShare} f : sProp 𝕄) = (((d, r main_arg2) : Loc nD τ sig) ↦[idxSet (wL L)]{fullShare} f) := by
  rw [set_iSl_main_arg2_scv]; rfl

omit [FloatOps F] in
theorem pts_oSl0 (f : Buf (Elt F) ((d, r main_v3_0) : Loc nD τ sig)) :
    ((oSl a8 L).view.loc (V d (cV L) (jV L)) ↦[(oSl a8 L).view.set]{fullShare} f : sProp 𝕄) = (((d, r main_v3_0) : Loc nD τ sig) ↦[outSet (wL L)]{fullShare} f) := by
  rw [set_oSl_main_v3_0_scv]; rfl

omit [FloatOps F] in
theorem pts_oSl1 (f : Buf (Elt F) ((d, r main_v3_1) : Loc nD τ sig)) :
    ((oSl a9 L).view.loc (V d (cV L) (jV L)) ↦[(oSl a9 L).view.set]{fullShare} f : sProp 𝕄) = (((d, r main_v3_1) : Loc nD τ sig) ↦[outSet (wL L)]{fullShare} f) := by
  rw [set_oSl_main_v3_1_scv]; rfl

omit [FloatOps F] in
theorem pts_oSl2 (f : Buf (Elt F) ((d, r main_v3_2) : Loc nD τ sig)) :
    ((oSl a10 L).view.loc (V d (cV L) (jV L)) ↦[(oSl a10 L).view.set]{fullShare} f : sProp 𝕄) = (((d, r main_v3_2) : Loc nD τ sig) ↦[outSet (wL L)]{fullShare} f) := by
  rw [set_oSl_main_v3_2_scv]; rfl

/-- The tile's share, as the body's memrefs hold it. -/
theorem goC_open :
    goC W d (cL L) (iL L) ⊢ (iprop(((iSl a2 L).view.loc (V d (cV L) (jV L)) ↦[(iSl a2 L).view.set]{fullShare} W d (r main_arg0))
      ∗ ((iSl a3 L).view.loc (V d (cV L) (jV L)) ↦[(iSl a3 L).view.set]{fullShare} W d (r main_arg1))
      ∗ ((iSl a4 L).view.loc (V d (cV L) (jV L)) ↦[(iSl a4 L).view.set]{fullShare} W d (r main_arg2))
      ∗ (∃ f, (oSl a8 L).view.loc (V d (cV L) (jV L)) ↦[(oSl a8 L).view.set]{fullShare} f)
      ∗ (∃ f, (oSl a9 L).view.loc (V d (cV L) (jV L)) ↦[(oSl a9 L).view.set]{fullShare} f)
      ∗ (∃ f, (oSl a10 L).view.loc (V d (cV L) (jV L)) ↦[(oSl a10 L).view.set]{fullShare} f)
      ∗ ((a5).view.loc (V d (cV L) (jV L)) ↦{tileShare (cL L) (iL L)} W d (r main_v0))
      ∗ ((a6).view.loc (V d (cV L) (jV L)) ↦{tileShare (cL L) (iL L)} W d (r main_v1))
      ∗ ((a7).view.loc (V d (cV L) (jV L)) ↦{tileShare (cL L) (iL L)} W d (r main_v2))) : sProp 𝕄) := by
  unfold goC idxRows outRowsAny tables
  rw [show wid (cL L) (iL L) = wL L from rfl]
  iintro ⟨⟨⟨Hi0, Hi1, Hi2⟩, ⟨%f0, Ho0⟩, ⟨%f1, Ho1⟩, ⟨%f2, Ho2⟩⟩, Ht0, Ht1, Ht2⟩
  isplitl [Hi0]; · iapply (Entails.of_eq (pts_iSl0 (F := F) d L _).symm); iexact Hi0
  isplitl [Hi1]; · iapply (Entails.of_eq (pts_iSl1 (F := F) d L _).symm); iexact Hi1
  isplitl [Hi2]; · iapply (Entails.of_eq (pts_iSl2 (F := F) d L _).symm); iexact Hi2
  isplitl [Ho0]; · iexists f0; iapply (Entails.of_eq (pts_oSl0 (F := F) d L f0).symm); iexact Ho0
  isplitl [Ho1]; · iexists f1; iapply (Entails.of_eq (pts_oSl1 (F := F) d L f1).symm); iexact Ho1
  isplitl [Ho2]; · iexists f2; iapply (Entails.of_eq (pts_oSl2 (F := F) d L f2).symm); iexact Ho2
  isplitl [Ht0]; · iexact Ht0
  isplitl [Ht1]; · iexact Ht1
  iexact Ht2

/-- Back: the result rows at contents that are the gathered rows on the worker's range. -/
theorem tdC_close (f0 : Buf (Elt F) ((d, r main_v3_0) : Loc nD τ sig)) (f1 : Buf (Elt F) ((d, r main_v3_1) : Loc nD τ sig)) (f2 : Buf (Elt F) ((d, r main_v3_2) : Loc nD τ sig))
    (h0 : ∀ x ∈ outSet (wL L), f0 x = Vsc (W d) (r main_v3_0) x) (h1 : ∀ x ∈ outSet (wL L), f1 x = Vsc (W d) (r main_v3_1) x)
    (h2 : ∀ x ∈ outSet (wL L), f2 x = Vsc (W d) (r main_v3_2) x) :
    (iprop(((iSl a2 L).view.loc (V d (cV L) (jV L)) ↦[(iSl a2 L).view.set]{fullShare} W d (r main_arg0))
      ∗ ((iSl a3 L).view.loc (V d (cV L) (jV L)) ↦[(iSl a3 L).view.set]{fullShare} W d (r main_arg1))
      ∗ ((iSl a4 L).view.loc (V d (cV L) (jV L)) ↦[(iSl a4 L).view.set]{fullShare} W d (r main_arg2))
      ∗ ((oSl a8 L).view.loc (V d (cV L) (jV L)) ↦[(oSl a8 L).view.set]{fullShare} f0)
      ∗ ((oSl a9 L).view.loc (V d (cV L) (jV L)) ↦[(oSl a9 L).view.set]{fullShare} f1)
      ∗ ((oSl a10 L).view.loc (V d (cV L) (jV L)) ↦[(oSl a10 L).view.set]{fullShare} f2)
      ∗ ((a5).view.loc (V d (cV L) (jV L)) ↦{tileShare (cL L) (iL L)} W d (r main_v0))
      ∗ ((a6).view.loc (V d (cV L) (jV L)) ↦{tileShare (cL L) (iL L)} W d (r main_v1))
      ∗ ((a7).view.loc (V d (cV L) (jV L)) ↦{tileShare (cL L) (iL L)} W d (r main_v2))) : sProp 𝕄) ⊢ tdC W d (cL L) (iL L) := by
  unfold tdC idxRows outRowsDone tables
  rw [show wid (cL L) (iL L) = wL L from rfl]
  iintro ⟨Hi0, Hi1, Hi2, Ho0, Ho1, Ho2, Ht0, Ht1, Ht2⟩
  isplitl [Hi0 Hi1 Hi2 Ho0 Ho1 Ho2]
  · isplitl [Hi0 Hi1 Hi2]
    · isplitl [Hi0]; · iapply (Entails.of_eq (pts_iSl0 (F := F) d L _)); iexact Hi0
      isplitl [Hi1]; · iapply (Entails.of_eq (pts_iSl1 (F := F) d L _)); iexact Hi1
      iapply (Entails.of_eq (pts_iSl2 (F := F) d L _)); iexact Hi2
    · isplitl [Ho0]; · iapply (Entails.of_eq ((pts_oSl0 (F := F) d L f0).trans (pointsTo_congr h0))); iexact Ho0
      isplitl [Ho1]; · iapply (Entails.of_eq ((pts_oSl1 (F := F) d L f1).trans (pointsTo_congr h1))); iexact Ho1
      iapply (Entails.of_eq ((pts_oSl2 (F := F) d L f2).trans (pointsTo_congr h2))); iexact Ho2
  · isplitl [Ht0]; · iexact Ht0
    isplitl [Ht1]; · iexact Ht1
    iexact Ht2

end IO

end Cert.Proof.KB.Sc

end
-- ==== Proof.BScOuter.lean ====
/-
  The gather task on one vector subcore, whole: for each of the three tables in turn the subcore's 512 index words are
  copied into the index scratch and waited for; the 512 row copies are issued on the kernel's one DMA semaphore, sixteen
  per loop trip, from the table rows the index words name into the rows of the rows scratch, each against a token of
  the subcore's read share of the table; ONE wait of the summed amount drains them all (no row of the scratch is read
  or written between the first issue and that wait); the landed rows are the scratch again at one function, the
  tokens the share again; the scratch is copied out to the subcore's 512 result rows and waited for. At the end the
  three index slices and the three table shares are back as they came and the three result slices hold the gathered
  rows.
-/
import proofs.«203152_g22136261444366_cont_8to1_1253_39_alg».proof.Proof.BScTileBase
import proofs.«203152_g22136261444366_cont_8to1_1253_39_alg».proof.Proof.BScSplit
import proofs.«203152_g22136261444366_cont_8to1_1253_39_alg».proof.Proof.BScTrip
import proofs.«203152_g22136261444366_cont_8to1_1253_39_alg».proof.Proof.BScViews
import proofs.«203152_g22136261444366_cont_8to1_1253_39_alg».proof.Proof.BScVal1
import proofs.«203152_g22136261444366_cont_8to1_1253_39_alg».proof.Proof.BScVal2
import proofs.«203152_g22136261444366_cont_8to1_1253_39_alg».proof.Proof.BScVal3
import proofs.«203152_g22136261444366_cont_8to1_1253_39_alg».proof.Proof.BScOuterRes
import proofs.«203152_g22136261444366_cont_8to1_1253_39_alg».proof.Proof.BScOuterIO
import proofs.«203152_g22136261444366_cont_8to1_1253_39_alg».proof.Proof.BScTile
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import Idealize.ShloMosaic.Lib.Ring

noncomputable section

namespace Cert.Proof.KB.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

open Idealize.ShloMosaic.Tactic

local notation "a2" => (Memref.whole Cert.Kernel.main_arg0_scv : Memref Cert.Kernel.sig Kind.scVector Space.hbm Cert.Kernel.S16384 EltTy.i32)
local notation "a3" => (Memref.whole Cert.Kernel.main_arg1_scv : Memref Cert.Kernel.sig Kind.scVector Space.hbm Cert.Kernel.S16384 EltTy.i32)
local notation "a4" => (Memref.whole Cert.Kernel.main_arg2_scv : Memref Cert.Kernel.sig Kind.scVector Space.hbm Cert.Kernel.S16384 EltTy.i32)
local notation "a5" => (Memref.whole Cert.Kernel.main_v0_scv : Memref Cert.Kernel.sig Kind.scVector Space.hbm Cert.Kernel.S125000x8x64 EltTy.f32)
local notation "a6" => (Memref.whole Cert.Kernel.main_v1_scv : Memref Cert.Kernel.sig Kind.scVector Space.hbm Cert.Kernel.S125000x8x64 EltTy.f32)
local notation "a7" => (Memref.whole Cert.Kernel.main_v2_scv : Memref Cert.Kernel.sig Kind.scVector Space.hbm Cert.Kernel.S125000x8x64 EltTy.f32)
local notation "a8" => (Memref.whole Cert.Kernel.main_v3_0_scv : Memref Cert.Kernel.sig Kind.scVector Space.hbm Cert.Kernel.S16384x1x64 EltTy.f32)
local notation "a9" => (Memref.whole Cert.Kernel.main_v3_1_scv : Memref Cert.Kernel.sig Kind.scVector Space.hbm Cert.Kernel.S16384x1x64 EltTy.f32)
local notation "a10" => (Memref.whole Cert.Kernel.main_v3_2_scv : Memref Cert.Kernel.sig Kind.scVector Space.hbm Cert.Kernel.S16384x1x64 EltTy.f32)
local notation "s11" => (Memref.whole Cert.Kernel.cc0_scratch0 : Memref Cert.Kernel.sig Kind.scVector Space.vmem Cert.Kernel.S512 EltTy.i32)
local notation "s12" => (Memref.whole Cert.Kernel.cc0_scratch1 : Memref Cert.Kernel.sig Kind.scVector Space.vmem Cert.Kernel.S512x1x64 EltTy.f32)

variable [FloatOps F]

section Body
variable (W : Dev nD → Valuation τ sig (Elt F)) (d : Dev nD) (L : grid0.Coords)

omit [FloatOps F] in
theorem pts_s11 (f : Buf (Elt F) ((V d (cV L) (jV L)).loc cc0_scratch0)) :
    ((s11).view.loc (V d (cV L) (jV L)) ↦{fullShare} f : sProp 𝕄) = (V d (cV L) (jV L)).loc cc0_scratch0 ↦{fullShare} f := rfl
omit [FloatOps F] in
theorem pts_s12 (f : Buf (Elt F) ((V d (cV L) (jV L)).loc cc0_scratch1)) :
    ((s12).view.loc (V d (cV L) (jV L)) ↦{fullShare} f : sProp 𝕄) = (V d (cV L) (jV L)).loc cc0_scratch1 ↦{fullShare} f := rfl
omit [FloatOps F] in
/-- The index scratch after a copy-in holds the subcore's words of the index array. -/
theorem words_content (ia : Memref sig .scVector .hbm S16384 .i32) (ids : Buf (Elt F) (ia.view.loc (V d (cV L) (jV L)))) :
    ((s11).view.loc (V d (cV L) (jV L)) ↦{fullShare} (ReadAs.same.apply ((iSl ia L).view.read (Elt F) ids) : S512.Idx → Elt F .i32) : sProp 𝕄)
      ⊢ (s11).view.loc (V d (cV L) (jV L)) ↦{fullShare} wordsOf d L ia ids := Entails.of_eq rfl
omit [FloatOps F] in
theorem set_tb (b : Ref sig .scVector) : (Memref.whole b : Memref sig .scVector _ _ _).view.set = Finset.univ := View.set_whole b
omit [FloatOps F] in
/-- The valuation after the call at the three results: the gathered rows. -/
theorem Vsc_v3_0 (V : Valuation τ sig (Elt F)) : Vsc V (r main_v3_0) = Gathered3 (V (r main_v0)) (V (r main_arg0)) := by
  unfold Vsc
  rw [Function.update_of_ne (by decide), Function.update_of_ne (by decide), Function.update_self]
omit [FloatOps F] in
theorem Vsc_v3_1 (V : Valuation τ sig (Elt F)) : Vsc V (r main_v3_1) = Gathered3 (V (r main_v1)) (V (r main_arg1)) := by
  unfold Vsc
  rw [Function.update_of_ne (by decide), Function.update_self]
omit [FloatOps F] in
theorem Vsc_v3_2 (V : Valuation τ sig (Elt F)) : Vsc V (r main_v3_2) = Gathered3 (V (r main_v2)) (V (r main_arg2)) := by
  unfold Vsc
  rw [Function.update_self]
omit [FloatOps F] in
theorem trips1 : Scf.trips k0_t1_loop.lb k0_t1_loop.ub k0_t1_loop.st = 32 := by decide
omit [FloatOps F] in
theorem trips2 : Scf.trips k0_t2_loop.lb k0_t2_loop.ub k0_t2_loop.st = 32 := by decide
omit [FloatOps F] in
theorem trips3 : Scf.trips k0_t3_loop.lb k0_t3_loop.ub k0_t3_loop.st = 32 := by decide

set_option maxHeartbeats 8000000 in
/-- THE TASK: from the tile's share of the call, the gathered rows in the subcore's result rows, the rest back. -/
theorem tileBody [∀ e, Nonempty (Elt F e)] (hF : (K (F := F)).Facts) (hpre : PreOK W) : TileBody W := by
  intro d L O Wt hO
  have hw0 := wordsOf_le_0 (F := F) d L (W d (r main_arg0)) (fun j => (hpre d j).1)
  have hw1 := wordsOf_le_1 (F := F) d L (W d (r main_arg1)) (fun j => (hpre d j).2.1)
  have hw2 := wordsOf_le_2 (F := F) d L (W d (r main_arg2)) (fun j => (hpre d j).2.2)
  rw [cc0__gather_body_eq_skeleton]
  sl_unfold [cc0__gather_body_skel]
  rw [k0_part16_eq_skeleton]
  sl_unfold [k0_part16_skel]
  rw [(K (F := F)).scopedBufs_V hF d (cV L) (jV L), SparseCore.Cfg.scopedSems0_V (Val := Elt F) d (cV L) (jV L), ownSems0_V, ownBufs_V]
  iintro ⟨#Hlv, -, Hgo, ⟨⟨%f11, H11⟩, ⟨%f12, H12⟩, Hbufs⟩, ⟨Hsem, Hs0, Hs1, Hs2, Hs3, Hs4, Hs5, Hsems⟩, HO⟩
  ihave Hgo' := (goC_open (F := F) W d L) $$ Hgo
  icases Hgo' with ⟨Hi0, Hi1, Hi2, ⟨%fo0, Ho0⟩, ⟨%fo1, Ho1⟩, ⟨%fo2, Ho2⟩, Ht0, Ht1, Ht2⟩
  ihave Hmw := ((K (F := F)).mayWaits_none (thr := V d (cV L) (jV L)) hO) $$ Hlv
  ihave H11 := (Entails.of_eq (pts_s11 (F := F) d L f11).symm) $$ H11
  ihave H12 := (Entails.of_eq (pts_s12 (F := F) d L f12).symm) $$ H12
  unfold iSl oSl
  sl_exec
  -- phase 0: the index words are in the scratch; the batch, the rows and the tokens; the loop; the draining wait
  rw [View.write_whole_univ]
  have e0 : tileBody.sl.dma0 W d L = wordsOf d L a2 (W d (r main_arg0)) := rfl
  rw [e0]
  imod (Transfers.batch_alloc' (EC (F := F)) (V d (cV L) (jV L)) (none : HIx 1) NN (deliv d L a5 (wordsOf d L a2 (W d (r main_arg0))) hw0 (tileShare (cL L) (iL L)) (W d (r main_v0)) f12) (sm := .dma cc0_scratch2.sem) (E := Set.univ)) $$ Hsem with HB
  ihave HR := (Entails.of_eq (rows_split (F := F) d L f12)) $$ H12
  ihave HT := (toks_split (F := F) d L a5 (set_tb _) (tileShare (cL L) (iL L)) (W d (r main_v0))).1 $$ Ht0
  icases HT with ⟨Hdrop, HT⟩
  sl_rw [bind_assoc]
  sl_for (tripInv d L a5 (wordsOf d L a2 (W d (r main_arg0))) hw0 (tileShare (cL L) (iL L)) (W d (r main_v0)) f12) $$ [H11 HB HR HT]
  case region => exact trip1 d L a5 (Memref.isWhole_whole _) (wordsOf d L a2 (W d (r main_arg0))) hw0 (tileShare (cL L) (iL L)) (W d (r main_v0)) f12
  · unfold tripInv batchAt
    rw [Ring.bigSep_rangeSet_empty (le_refl 0)]
    isplitl [H11]; · iexact H11
    isplitl [HB]; · iexact HB
    isplitl [HR]; · iexact HR
    isplitl [HT]; · iexact HT
    iempintro
  iintro %acc0 HI
  rw [trips1]
  unfold tripInv
  icases HI with ⟨H11, HB, -, -, HX⟩
  sl_exec
  unfold batchAt
  iapply (Transfers.wp_waitBatchAllO (EC (F := F)) 𝒱₀ (V d (cV L) (jV L)) none (none : HIx 1) (n := 512) (N := NN) (J := 512 * 2048) (u := 0) rfl (by decide) (by decide) (O := O)) $$ [HB HO]
  · isplitl [HB]; · iexact HB
    isplitl [HO]; · iexact HO
    iapply (Transfers.MayWaits.elim (SemLoc.dma cc0_scratch2.sem)); iexact Hmw
  iintro ⟨HD, Hsem, HO⟩
  ihave HD' := (Entails.of_eq (deliv_split (F := F) d L a5 (wordsOf d L a2 (W d (r main_arg0))) hw0 (tileShare (cL L) (iL L)) (W d (r main_v0)) f12)) $$ HD
  icases HD' with ⟨HRows, HSrc⟩
  ihave HR' := (rows_join (F := F) d L (fun t => landed d L a5 (wordsOf d L a2 (W d (r main_arg0))) hw0 (W d (r main_v0)) f12 t)) $$ HRows
  icases HR' with ⟨%g1, %hg1, H12⟩
  ihave Ht0 := (toks_join (F := F) d L a5 (set_tb _) (wordsOf d L a2 (W d (r main_arg0))) hw0 (tileShare (cL L) (iL L)) (W d (r main_v0))) $$ [Hdrop HSrc HX]
  · isplitl [Hdrop]; · iexact Hdrop
    isplitl [HSrc]; · iexact HSrc
    iexact HX
  -- the copy-out and the next index copy-in
  sl_exec
  -- phase 1: the index words are in the scratch; the batch, the rows and the tokens; the loop; the draining wait
  rw [View.write_whole_univ]
  have e1 : tileBody.sl.dma0_2 W d L = wordsOf d L a3 (W d (r main_arg1)) := rfl
  rw [e1]
  imod (Transfers.batch_alloc' (EC (F := F)) (V d (cV L) (jV L)) (none : HIx 1) NN (deliv d L a6 (wordsOf d L a3 (W d (r main_arg1))) hw1 (tileShare (cL L) (iL L)) (W d (r main_v1)) g1) (sm := .dma cc0_scratch2.sem) (E := Set.univ)) $$ Hsem with HB
  ihave HR := (Entails.of_eq (rows_split (F := F) d L g1)) $$ H12
  ihave HT := (toks_split (F := F) d L a6 (set_tb _) (tileShare (cL L) (iL L)) (W d (r main_v1))).1 $$ Ht1
  icases HT with ⟨Hdrop, HT⟩
  sl_rw [bind_assoc]
  sl_for (tripInv d L a6 (wordsOf d L a3 (W d (r main_arg1))) hw1 (tileShare (cL L) (iL L)) (W d (r main_v1)) g1) $$ [H11 HB HR HT]
  case region => exact trip2 d L (wordsOf d L a3 (W d (r main_arg1))) hw1 (tileShare (cL L) (iL L)) g1 (W d (r main_v1))
  · unfold tripInv batchAt
    rw [Ring.bigSep_rangeSet_empty (le_refl 0)]
    isplitl [H11]; · iexact H11
    isplitl [HB]; · iexact HB
    isplitl [HR]; · iexact HR
    isplitl [HT]; · iexact HT
    iempintro
  iintro %acc1 HI
  rw [trips2]
  unfold tripInv
  icases HI with ⟨H11, HB, -, -, HX⟩
  sl_exec
  unfold batchAt
  iapply (Transfers.wp_waitBatchAllO (EC (F := F)) 𝒱₀ (V d (cV L) (jV L)) none (none : HIx 1) (n := 512) (N := NN) (J := 512 * 2048) (u := 0) rfl (by decide) (by decide) (O := O)) $$ [HB HO]
  · isplitl [HB]; · iexact HB
    isplitl [HO]; · iexact HO
    iapply (Transfers.MayWaits.elim (SemLoc.dma cc0_scratch2.sem)); iexact Hmw
  iintro ⟨HD, Hsem, HO⟩
  ihave HD' := (Entails.of_eq (deliv_split (F := F) d L a6 (wordsOf d L a3 (W d (r main_arg1))) hw1 (tileShare (cL L) (iL L)) (W d (r main_v1)) g1)) $$ HD
  icases HD' with ⟨HRows, HSrc⟩
  ihave HR' := (rows_join (F := F) d L (fun t => landed d L a6 (wordsOf d L a3 (W d (r main_arg1))) hw1 (W d (r main_v1)) g1 t)) $$ HRows
  icases HR' with ⟨%g2, %hg2, H12⟩
  ihave Ht1 := (toks_join (F := F) d L a6 (set_tb _) (wordsOf d L a3 (W d (r main_arg1))) hw1 (tileShare (cL L) (iL L)) (W d (r main_v1))) $$ [Hdrop HSrc HX]
  · isplitl [Hdrop]; · iexact Hdrop
    isplitl [HSrc]; · iexact HSrc
    iexact HX
  -- the copy-out and the next index copy-in
  sl_exec
  -- phase 2: the index words are in the scratch; the batch, the rows and the tokens; the loop; the draining wait
  rw [View.write_whole_univ]
  have e2 : tileBody.sl.dma0_4 W d L = wordsOf d L a4 (W d (r main_arg2)) := rfl
  rw [e2]
  imod (Transfers.batch_alloc' (EC (F := F)) (V d (cV L) (jV L)) (none : HIx 1) NN (deliv d L a7 (wordsOf d L a4 (W d (r main_arg2))) hw2 (tileShare (cL L) (iL L)) (W d (r main_v2)) g2) (sm := .dma cc0_scratch2.sem) (E := Set.univ)) $$ Hsem with HB
  ihave HR := (Entails.of_eq (rows_split (F := F) d L g2)) $$ H12
  ihave HT := (toks_split (F := F) d L a7 (set_tb _) (tileShare (cL L) (iL L)) (W d (r main_v2))).1 $$ Ht2
  icases HT with ⟨Hdrop, HT⟩
  sl_for (tripInv d L a7 (wordsOf d L a4 (W d (r main_arg2))) hw2 (tileShare (cL L) (iL L)) (W d (r main_v2)) g2) $$ [H11 HB HR HT]
  case region => exact trip3 d L (wordsOf d L a4 (W d (r main_arg2))) hw2 (tileShare (cL L) (iL L)) g2 (W d (r main_v2))
  · unfold tripInv batchAt
    rw [Ring.bigSep_rangeSet_empty (le_refl 0)]
    isplitl [H11]; · iexact H11
    isplitl [HB]; · iexact HB
    isplitl [HR]; · iexact HR
    isplitl [HT]; · iexact HT
    iempintro
  iintro %acc2 HI
  rw [trips3]
  unfold tripInv
  icases HI with ⟨H11, HB, -, -, HX⟩
  sl_exec
  unfold batchAt
  iapply (Transfers.wp_waitBatchAllO (EC (F := F)) 𝒱₀ (V d (cV L) (jV L)) none (none : HIx 1) (n := 512) (N := NN) (J := 512 * 2048) (u := 0) rfl (by decide) (by decide) (O := O)) $$ [HB HO]
  · isplitl [HB]; · iexact HB
    isplitl [HO]; · iexact HO
    iapply (Transfers.MayWaits.elim (SemLoc.dma cc0_scratch2.sem)); iexact Hmw
  iintro ⟨HD, Hsem, HO⟩
  ihave HD' := (Entails.of_eq (deliv_split (F := F) d L a7 (wordsOf d L a4 (W d (r main_arg2))) hw2 (tileShare (cL L) (iL L)) (W d (r main_v2)) g2)) $$ HD
  icases HD' with ⟨HRows, HSrc⟩
  ihave HR' := (rows_join (F := F) d L (fun t => landed d L a7 (wordsOf d L a4 (W d (r main_arg2))) hw2 (W d (r main_v2)) g2 t)) $$ HRows
  icases HR' with ⟨%g3, %hg3, H12⟩
  ihave Ht2 := (toks_join (F := F) d L a7 (set_tb _) (wordsOf d L a4 (W d (r main_arg2))) hw2 (tileShare (cL L) (iL L)) (W d (r main_v2))) $$ [Hdrop HSrc HX]
  · isplitl [Hdrop]; · iexact Hdrop
    isplitl [HSrc]; · iexact HSrc
    iexact HX
  -- the copy-out
  sl_exec
  -- the return: the tile's share back, the result rows at the gathered rows
  sl_step
  ihave H11 := (Entails.of_eq (pts_s11 (F := F) d L _)) $$ H11
  ihave H12 := (Entails.of_eq (pts_s12 (F := F) d L _)) $$ H12
  have hv0 : ∀ x ∈ outSet (wL L), ((oSl a8 L).view.writes (Elt F) (oSl a8 L).view.junk [⟨Rect.whole S512x1x64, tileBody.sl.dma0_1 d L g1⟩]) x
      = Vsc (W d) (r main_v3_0) x :=
    fun x hx => (out_value_writes_0 (F := F) d L (W d (r main_arg0)) (W d (r main_v0)) _ f12 g1 hw0 (fun t y hy => hg1 t y ((mem_rowSet t y).2 hy)) x hx).trans
      (congrFun (Vsc_v3_0 (F := F) (W d)) x).symm
  have hv1 : ∀ x ∈ outSet (wL L), ((oSl a9 L).view.writes (Elt F) (oSl a9 L).view.junk [⟨Rect.whole S512x1x64, tileBody.sl.dma0_3 d L g2⟩]) x
      = Vsc (W d) (r main_v3_1) x :=
    fun x hx => (out_value_writes_1 (F := F) d L (W d (r main_arg1)) (W d (r main_v1)) _ g1 g2 hw1 (fun t y hy => hg2 t y ((mem_rowSet t y).2 hy)) x hx).trans
      (congrFun (Vsc_v3_1 (F := F) (W d)) x).symm
  have hv2 : ∀ x ∈ outSet (wL L), ((oSl a10 L).view.writes (Elt F) fo2 [⟨Rect.whole S512x1x64, tileBody.sl.dma0_5 d L g3⟩]) x
      = Vsc (W d) (r main_v3_2) x :=
    fun x hx => (out_value_writes_2 (F := F) d L (W d (r main_arg2)) (W d (r main_v2)) _ g2 g3 hw2 (fun t y hy => hg3 t y ((mem_rowSet t y).2 hy)) x hx).trans
      (congrFun (Vsc_v3_2 (F := F) (W d)) x).symm
  ihave Htd := (tdC_close (F := F) W d L _ _ _ hv0 hv1 hv2) $$ [Hi0 Hi1 Hi2 Ho0 Ho1 Ho2 Ht0 Ht1 Ht2]
  · isplitl [Hi0]; · iexact Hi0
    isplitl [Hi1]; · iexact Hi1
    isplitl [Hi2]; · iexact Hi2
    isplitl [Ho0]; · iexact Ho0
    isplitl [Ho1]; · iexact Ho1
    isplitl [Ho2]; · iexact Ho2
    isplitl [Ht0]; · iexact Ht0
    isplitl [Ht1]; · iexact Ht1
    iexact Ht2
  isplitl [Htd]; · iexact Htd
  isplitl [H11 H12 Hbufs]
  · isplitl [H11]; · iexists _; iexact H11
    isplitl [H12]; · iexists _; iexact H12
    iexact Hbufs
  isplitl [Hsem Hs0 Hs1 Hs2 Hs3 Hs4 Hs5 Hsems]
  · isplitl [Hsem]; · iexact Hsem
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsems
  iexists _; isplitr
  rotate_left
  · iexact HO
  · ipureintro; intro p hp
    simp only [Finset.mem_insert] at hp
    rcases hp with rfl | rfl | rfl | rfl | rfl | rfl | rfl | rfl | rfl | hp
    all_goals first | exact .inr rfl | exact .inl hp

/-- The launch theorem's obligation for the one tile kernel: each vector subcore's task, from the facts and the index
    words' range. -/
theorem tileObl [∀ e, Nonempty (Elt F e)] (hF : (K (F := F)).Facts) (hpre : PreOK W) :
    (K (F := F)).TileObl (D (F := F)) 𝒱 (P W) v₀ 0 :=
  tileObl_of W (tileBody W hF hpre)

end Body

end Cert.Proof.KB.Sc

end
-- ==== Proof.BTcRegionBody.lean ====
/- The TensorCore kernel's body at a grid point, run on whole staging memrefs: the seven inputs at their blocks, the
   inference window at anything, the regulariser window and the three-word accumulator as the point finds them. Three
   cases by the body's conditions on the grid coordinate: the first point stores the three sums of squares, a later
   point adds its own to the words it loads, and the last point also stores the regulariser computed from them. -/
import proofs.«203152_g22136261444366_cont_8to1_1253_39_alg».proof.Proof.Gen.Kernel.Skeleton
import proofs.«203152_g22136261444366_cont_8to1_1253_39_alg».proof.Proof.Gen.Kernel.Launch
import proofs.«203152_g22136261444366_cont_8to1_1253_39_alg».proof.Proof.Gen.Kernel.Points
import Idealize.ShloMosaic.Lib.SparseCore.Launch
import Idealize.ShloMosaic.Lib.Pipeline.FrameBody
import Idealize.ShloMosaic.Lib.Ring
import Idealize.ShloMosaic.Lib.Tactic
import Idealize.ShloMosaic.Lib.WholeRead

set_option maxRecDepth 16384

noncomputable section

namespace Cert.Kernel.TcBody

open Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {UU : Type} [URA UU]

local notation "𝕄" => MT nD τ sig (HIx 1) (Elt F) ℕ UU ℕ

/-! ## Reading and writing a whole memref through the rectangle of all of it -/

theorem z1 : (![0] : Fin 1 → ℕ) = fun _ => 0 := by funext a; fin_cases a; rfl
theorem z2 : (![0, 0] : Fin 2 → ℕ) = fun _ => 0 := by funext a; fin_cases a <;> rfl

/-- The rectangle of the whole shape places an index at itself. -/
theorem emb_unit_zero {s : Shape} {off : Fin s.rank → ℕ} (ho : off = fun _ => 0) (inb : ∀ a, off a + s.size a ≤ s.size a) (y : s.Idx) :
    (Rect.unit (s := s) off s.size inb).emb y = y := by
  subst ho; funext a; apply Fin.ext; simp [Rect.emb_apply]

/-- A load of all of a whole memref held at the contents that read `X` reads `X`. -/
theorem readAt_whole_unread {κ : Kind} {sp : Space} {s : Shape} {e : EltTy} {m : Memref sig κ sp s e} (h : m.IsWhole) (X : s.Idx → Elt F e)
    {off : Fin s.rank → ℕ} (ho : off = fun _ => 0) (inb : ∀ a, off a + s.size a ≤ s.size a) :
    View.readAt (Elt F) m.view (Rect.unit (s := s) off s.size inb).toLoadRect (h.unread X) = X := by
  funext x
  rw [Memref.IsWhole.readAt_unread h]
  exact congrArg X (emb_unit_zero ho inb x)

theorem readAt_whole_unread2 {κ : Kind} {sp : Space} {sz : Fin 2 → ℕ} {e : EltTy} {m : Memref sig κ sp ⟨2, sz⟩ e} (h : m.IsWhole) (X : (⟨2, sz⟩ : Shape).Idx → Elt F e)
    (inb : ∀ a, (![0, 0] : Fin 2 → ℕ) a + (⟨2, sz⟩ : Shape).size a ≤ (⟨2, sz⟩ : Shape).size a) :
    View.readAt (Elt F) m.view (Rect.unit (s := ⟨2, sz⟩) ![0, 0] (⟨2, sz⟩ : Shape).size inb).toLoadRect (h.unread X) = X :=
  readAt_whole_unread h X z2 inb

/-- One store of all of a shape leaves its payload. -/
theorem read_writes_whole {κ : Kind} {sp : Space} {s : Shape} {e : EltTy} (v : View sig κ sp s e) (f : v.ty.Contents (Elt F))
    {off : Fin s.rank → ℕ} (ho : off = fun _ => 0) (inb : ∀ a, off a + s.size a ≤ s.size a) (w : s.Idx → Elt F e) :
    v.read (Elt F) (v.writes (Elt F) f [⟨Rect.unit (s := s) off s.size inb, w⟩]) = w := by
  funext y
  have := View.read_writes_cons_emb v f (Rect.unit (s := s) off s.size inb) w [] y
  rwa [emb_unit_zero ho inb y] at this

theorem read_writes_whole2 {κ : Kind} {sp : Space} {sz : Fin 2 → ℕ} {e : EltTy} (v : View sig κ sp ⟨2, sz⟩ e) (f : v.ty.Contents (Elt F))
    (inb : ∀ a, (![0, 0] : Fin 2 → ℕ) a + (⟨2, sz⟩ : Shape).size a ≤ (⟨2, sz⟩ : Shape).size a) (w : (⟨2, sz⟩ : Shape).Idx → Elt F e) :
    v.read (Elt F) (v.writes (Elt F) f [⟨Rect.unit (s := ⟨2, sz⟩) ![0, 0] (⟨2, sz⟩ : Shape).size inb, w⟩]) = w :=
  read_writes_whole v f z2 inb w

/-! ## The three accumulator words -/

/-- The accumulator's contents: its three words. -/
def acc3 (a b c : F .f32) : Vec F S3 .f32 := fun j => if (j 0).val = 0 then a else if (j 0).val = 1 then b else c

theorem rd_acc3 {κ : Kind} {sp : Space} {m : Memref sig κ sp S3 .f32} (h : m.IsWhole) (a b c : F .f32) (k : ℕ)
    (inb : ∀ a, (![k] : Fin 1 → ℕ) a + S1.size a ≤ S3.size a) (x : (Rect.unit (s := S3) ![k] S1.size inb).toLoadRect.shape.Idx) :
    View.readAt (Elt F) m.view (Rect.unit (s := S3) ![k] S1.size inb).toLoadRect (h.unread (acc3 a b c)) x
      = if k = 0 then a else if k = 1 then b else c := by
  rw [Memref.IsWhole.readAt_unread h]
  have hx : ((x 0 : Fin _) : ℕ) = 0 := by have := (x 0).isLt; simpa using this
  unfold acc3
  simp only [LoadRect.idx_apply, Rect.off_unit, Rect.stride_unit, hx]
  simp

theorem rd_acc3_0 {κ : Kind} {sp : Space} {m : Memref sig κ sp S3 .f32} (h : m.IsWhole) (a b c : F .f32)
    (inb : ∀ a, (![0] : Fin 1 → ℕ) a + S1.size a ≤ S3.size a) (x : (Rect.unit (s := S3) ![0] S1.size inb).toLoadRect.shape.Idx) :
    View.readAt (Elt F) m.view (Rect.unit (s := S3) ![0] S1.size inb).toLoadRect (h.unread (acc3 a b c)) x = a := by
  rw [rd_acc3]; simp
theorem rd_acc3_1 {κ : Kind} {sp : Space} {m : Memref sig κ sp S3 .f32} (h : m.IsWhole) (a b c : F .f32)
    (inb : ∀ a, (![1] : Fin 1 → ℕ) a + S1.size a ≤ S3.size a) (x : (Rect.unit (s := S3) ![1] S1.size inb).toLoadRect.shape.Idx) :
    View.readAt (Elt F) m.view (Rect.unit (s := S3) ![1] S1.size inb).toLoadRect (h.unread (acc3 a b c)) x = b := by
  rw [rd_acc3]; simp
theorem rd_acc3_2 {κ : Kind} {sp : Space} {m : Memref sig κ sp S3 .f32} (h : m.IsWhole) (a b c : F .f32)
    (inb : ∀ a, (![2] : Fin 1 → ℕ) a + S1.size a ≤ S3.size a) (x : (Rect.unit (s := S3) ![2] S1.size inb).toLoadRect.shape.Idx) :
    View.readAt (Elt F) m.view (Rect.unit (s := S3) ![2] S1.size inb).toLoadRect (h.unread (acc3 a b c)) x = c := by
  rw [rd_acc3]; simp

/-- Three one-word stores leave the three words. -/
theorem read_writes_acc3 {κ : Kind} {sp : Space} (v : View sig κ sp S3 .f32) (f : v.ty.Contents (Elt F)) (a b c : F .f32)
    (i0 : ∀ a, (![0] : Fin 1 → ℕ) a + S1.size a ≤ S3.size a) (i1 : ∀ a, (![1] : Fin 1 → ℕ) a + S1.size a ≤ S3.size a)
    (i2 : ∀ a, (![2] : Fin 1 → ℕ) a + S1.size a ≤ S3.size a) :
    v.read (Elt F) (v.writes (Elt F) f [⟨Rect.unit (s := S3) ![2] S1.size i2, fun _ => c⟩, ⟨Rect.unit (s := S3) ![1] S1.size i1, fun _ => b⟩,
      ⟨Rect.unit (s := S3) ![0] S1.size i0, fun _ => a⟩]) = acc3 a b c := by
  funext y
  refine View.read_writes_apply_of_pieces v f (acc3 a b c) _ ?_ y ?_
  · intro p hp x
    have hx : ((x 0 : Fin _) : ℕ) = 0 := by
      simp only [List.mem_cons, List.mem_nil_iff, or_false] at hp
      rcases hp with rfl | rfl | rfl <;> (have := (x 0).isLt; simpa using this)
    simp only [List.mem_cons, List.mem_nil_iff, or_false] at hp
    rcases hp with rfl | rfl | rfl <;> (unfold acc3; simp [Rect.emb_apply, hx])
  · exact View.cover_of_tiledL (s := S3) _ S1.size (by sl_kernel_rfl) y

/-! ## The body's three conditions, over the grid -/

/-- The first conditional's condition: the point is the first. -/
abbrev cond1 (i : grid1.Coords) : Prop := (Scalar.cmpi .ne (Scalar.extui (Scalar.cmpi .eq (BitVec.ofNat 32 (i 0).val) 0#32)) 0#32) = 1#1
/-- The second's: the point is not the first. -/
abbrev cond2 (i : grid1.Coords) : Prop := (Scalar.cmpi .ne (Scalar.extui (Scalar.cmpi .sgt (BitVec.ofNat 32 (i 0).val) 0#32)) 0#32) = 1#1
/-- The third's: the point is the last. -/
abbrev cond3 (i : grid1.Coords) : Prop := k1_cond3 i = 1#1

theorem hcond1 : ∀ t : Fin cfg1.N, cond1 (grid1.coords t) ↔ t.val = 0 :=
  (by decide +kernel : ∀ t : Fin grid1.N, cond1 (grid1.coords t) ↔ t.val = 0)
theorem hcond2 : ∀ t : Fin cfg1.N, cond2 (grid1.coords t) ↔ t.val ≠ 0 :=
  (by decide +kernel : ∀ t : Fin grid1.N, cond2 (grid1.coords t) ↔ t.val ≠ 0)
theorem hcond3 : ∀ t : Fin cfg1.N, cond3 (grid1.coords t) ↔ t.val = 3 :=
  (by decide +kernel : ∀ t : Fin grid1.N, cond3 (grid1.coords t) ↔ t.val = 3)

set_option maxHeartbeats 1000000 in
theorem runFirst (c : Dev nD) (i : grid1.Coords)
    (arg1 : Memref sig .tc .vmem S4096x64 .f32) (harg1 : arg1.IsWhole) (arg2 : Memref sig .tc .vmem S4096x64 .f32) (harg2 : arg2.IsWhole)
    (arg3 : Memref sig .tc .vmem S4096x64 .f32) (harg3 : arg3.IsWhole) (arg4 : Memref sig .tc .vmem S192x192 .f32) (harg4 : arg4.IsWhole)
    (arg5 : Memref sig .tc .vmem S1x192 .f32) (harg5 : arg5.IsWhole) (arg6 : Memref sig .tc .vmem S192x1 .f32) (harg6 : arg6.IsWhole)
    (arg7 : Memref sig .tc .vmem S1x1 .f32) (harg7 : arg7.IsWhole) (arg8 : Memref sig .tc .vmem S4096x1 .f32) (harg8 : arg8.IsWhole)
    (arg9 : Memref sig .tc .vmem S1x1 .f32) (harg9 : arg9.IsWhole) (arg10 : Memref sig .tc .smem S3 .f32) (harg10 : arg10.IsWhole)
    (hc1 : cond1 i) (hc2 : ¬cond2 i) (hc3 : ¬cond3 i)
    (x1 x2 x3 : Vec F S4096x64 .f32) (x4 : Vec F S192x192 .f32) (x5 : Vec F S1x192 .f32) (x6 : Vec F S192x1 .f32) (x7 : Vec F S1x1 .f32)
    (x8 : Vec F S4096x1 .f32) (x9 : Vec F S1x1 .f32) (x10 : Vec F S3 .f32) (a0 b0 c0 : F .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ owns (c : Thread nD τ) arg10 fullShare x10
        ∗ (iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare x5 ∗ owns (c : Thread nD τ) arg6 fullShare x6
          ∗ owns (c : Thread nD τ) arg7 fullShare x7 ∗ owns (c : Thread nD τ) arg8 fullShare (k1_pay11 x4 x6 x1 x2 x3 x5 x7) ∗ owns (c : Thread nD τ) arg9 fullShare x9
          ∗ owns (c : Thread nD τ) arg10 fullShare (acc3 (k1_pay1 (k1_pay8 x1)) (k1_pay2 (k1_pay9 x2)) (k1_pay3 (k1_pay10 x3)))) -∗ K ⟨⟩))
      ⊢ wp frame (wpE (defs₀ (F := F)) Variants.none c none) E (cc1__mlp_body i arg1 harg1 arg2 harg2 arg3 harg3 arg4 harg4 arg5 harg5 arg6 harg6 arg7 harg7 arg8 harg8 arg9 harg9 arg10 harg10) K := by
  simp only [cc1__mlp_body_eq_skeleton]; unfold cc1__mlp_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  obtain rfl := harg10.eq_unread hf10
  sl_exec (disch := first | exact hc1 | exact hc2 | exact hc3)
  sl_step
  sl_unfold_run_names
  have e1 := readAt_whole_unread (F := F) harg1 x1 z2 inb_S4096x64_S4096x64_0_0
  have e2 := readAt_whole_unread (F := F) harg2 x2 z2 inb_S4096x64_S4096x64_0_0
  have e3 := readAt_whole_unread (F := F) harg3 x3 z2 inb_S4096x64_S4096x64_0_0
  have e4 := readAt_whole_unread (F := F) harg4 x4 z2 inb_S192x192_S192x192_0_0
  have e5 := readAt_whole_unread (F := F) harg5 x5 z2 inb_S1x192_S1x192_0_0
  have e6 := readAt_whole_unread (F := F) harg6 x6 z2 inb_S192x1_S192x1_0_0
  have e7 := readAt_whole_unread (F := F) harg7 x7 z2 inb_S1x1_S1x1_0_0

  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]
  · iexists _; isplitr; swap; · iexact H8
    ipureintro
    rw [read_writes_whole _ _ z2, e1, e2, e3, e4, e5, e6, e7]
  isplitl [H9]; · iexists _; isplitr; · ipureintro; exact hf9
                  iexact H9
  iexists _; isplitr; swap; · iexact H10
  ipureintro
  rw [read_writes_acc3, e1, e2, e3]

set_option maxHeartbeats 1000000 in
theorem runMid (c : Dev nD) (i : grid1.Coords)
    (arg1 : Memref sig .tc .vmem S4096x64 .f32) (harg1 : arg1.IsWhole) (arg2 : Memref sig .tc .vmem S4096x64 .f32) (harg2 : arg2.IsWhole)
    (arg3 : Memref sig .tc .vmem S4096x64 .f32) (harg3 : arg3.IsWhole) (arg4 : Memref sig .tc .vmem S192x192 .f32) (harg4 : arg4.IsWhole)
    (arg5 : Memref sig .tc .vmem S1x192 .f32) (harg5 : arg5.IsWhole) (arg6 : Memref sig .tc .vmem S192x1 .f32) (harg6 : arg6.IsWhole)
    (arg7 : Memref sig .tc .vmem S1x1 .f32) (harg7 : arg7.IsWhole) (arg8 : Memref sig .tc .vmem S4096x1 .f32) (harg8 : arg8.IsWhole)
    (arg9 : Memref sig .tc .vmem S1x1 .f32) (harg9 : arg9.IsWhole) (arg10 : Memref sig .tc .smem S3 .f32) (harg10 : arg10.IsWhole)
    (hc1 : ¬cond1 i) (hc2 : cond2 i) (hc3 : ¬cond3 i)
    (x1 x2 x3 : Vec F S4096x64 .f32) (x4 : Vec F S192x192 .f32) (x5 : Vec F S1x192 .f32) (x6 : Vec F S192x1 .f32) (x7 : Vec F S1x1 .f32)
    (x8 : Vec F S4096x1 .f32) (x9 : Vec F S1x1 .f32) (x10 : Vec F S3 .f32) (a0 b0 c0 : F .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ owns (c : Thread nD τ) arg10 fullShare (acc3 a0 b0 c0)
        ∗ (iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare x5 ∗ owns (c : Thread nD τ) arg6 fullShare x6
          ∗ owns (c : Thread nD τ) arg7 fullShare x7 ∗ owns (c : Thread nD τ) arg8 fullShare (k1_pay11 x4 x6 x1 x2 x3 x5 x7) ∗ owns (c : Thread nD τ) arg9 fullShare x9
          ∗ owns (c : Thread nD τ) arg10 fullShare (acc3 (k1_pay4 (k1_pay8 x1) a0) (k1_pay5 (k1_pay9 x2) b0) (k1_pay6 (k1_pay10 x3) c0))) -∗ K ⟨⟩))
      ⊢ wp frame (wpE (defs₀ (F := F)) Variants.none c none) E (cc1__mlp_body i arg1 harg1 arg2 harg2 arg3 harg3 arg4 harg4 arg5 harg5 arg6 harg6 arg7 harg7 arg8 harg8 arg9 harg9 arg10 harg10) K := by
  simp only [cc1__mlp_body_eq_skeleton]; unfold cc1__mlp_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  obtain rfl := harg10.eq_unread hf10
  sl_exec (disch := first | exact hc1 | exact hc2 | exact hc3)
  sl_step
  sl_unfold_run_names
  have e1 := readAt_whole_unread (F := F) harg1 x1 z2 inb_S4096x64_S4096x64_0_0
  have e2 := readAt_whole_unread (F := F) harg2 x2 z2 inb_S4096x64_S4096x64_0_0
  have e3 := readAt_whole_unread (F := F) harg3 x3 z2 inb_S4096x64_S4096x64_0_0
  have e4 := readAt_whole_unread (F := F) harg4 x4 z2 inb_S192x192_S192x192_0_0
  have e5 := readAt_whole_unread (F := F) harg5 x5 z2 inb_S1x192_S1x192_0_0
  have e6 := readAt_whole_unread (F := F) harg6 x6 z2 inb_S192x1_S192x1_0_0
  have e7 := readAt_whole_unread (F := F) harg7 x7 z2 inb_S1x1_S1x1_0_0
  have r0 := fun x => rd_acc3_0 (F := F) harg10 a0 b0 c0 inb_S3_S1_0 x
  have r1 := fun x => rd_acc3_1 (F := F) harg10 a0 b0 c0 inb_S3_S1_1 x
  have r2 := fun x => rd_acc3_2 (F := F) harg10 a0 b0 c0 inb_S3_S1_2 x
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]
  · iexists _; isplitr; swap; · iexact H8
    ipureintro
    rw [read_writes_whole _ _ z2, e1, e2, e3, e4, e5, e6, e7]
  isplitl [H9]; · iexists _; isplitr; · ipureintro; exact hf9
                  iexact H9
  iexists _; isplitr; swap; · iexact H10
  ipureintro
  rw [read_writes_acc3, e1, e2, e3, r0, r1, r2]

set_option maxHeartbeats 1000000 in
theorem runLast (c : Dev nD) (i : grid1.Coords)
    (arg1 : Memref sig .tc .vmem S4096x64 .f32) (harg1 : arg1.IsWhole) (arg2 : Memref sig .tc .vmem S4096x64 .f32) (harg2 : arg2.IsWhole)
    (arg3 : Memref sig .tc .vmem S4096x64 .f32) (harg3 : arg3.IsWhole) (arg4 : Memref sig .tc .vmem S192x192 .f32) (harg4 : arg4.IsWhole)
    (arg5 : Memref sig .tc .vmem S1x192 .f32) (harg5 : arg5.IsWhole) (arg6 : Memref sig .tc .vmem S192x1 .f32) (harg6 : arg6.IsWhole)
    (arg7 : Memref sig .tc .vmem S1x1 .f32) (harg7 : arg7.IsWhole) (arg8 : Memref sig .tc .vmem S4096x1 .f32) (harg8 : arg8.IsWhole)
    (arg9 : Memref sig .tc .vmem S1x1 .f32) (harg9 : arg9.IsWhole) (arg10 : Memref sig .tc .smem S3 .f32) (harg10 : arg10.IsWhole)
    (hc1 : ¬cond1 i) (hc2 : cond2 i) (hc3 : cond3 i)
    (x1 x2 x3 : Vec F S4096x64 .f32) (x4 : Vec F S192x192 .f32) (x5 : Vec F S1x192 .f32) (x6 : Vec F S192x1 .f32) (x7 : Vec F S1x1 .f32)
    (x8 : Vec F S4096x1 .f32) (x9 : Vec F S1x1 .f32) (x10 : Vec F S3 .f32) (a0 b0 c0 : F .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ owns (c : Thread nD τ) arg10 fullShare (acc3 a0 b0 c0)
        ∗ (iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare x5 ∗ owns (c : Thread nD τ) arg6 fullShare x6
          ∗ owns (c : Thread nD τ) arg7 fullShare x7 ∗ owns (c : Thread nD τ) arg8 fullShare (k1_pay11 x4 x6 x1 x2 x3 x5 x7) ∗ owns (c : Thread nD τ) arg9 fullShare (k1_pay7 (k1_pay4 (k1_pay8 x1) a0) (k1_pay5 (k1_pay9 x2) b0) (k1_pay6 (k1_pay10 x3) c0))
          ∗ owns (c : Thread nD τ) arg10 fullShare (acc3 (k1_pay4 (k1_pay8 x1) a0) (k1_pay5 (k1_pay9 x2) b0) (k1_pay6 (k1_pay10 x3) c0))) -∗ K ⟨⟩))
      ⊢ wp frame (wpE (defs₀ (F := F)) Variants.none c none) E (cc1__mlp_body i arg1 harg1 arg2 harg2 arg3 harg3 arg4 harg4 arg5 harg5 arg6 harg6 arg7 harg7 arg8 harg8 arg9 harg9 arg10 harg10) K := by
  simp only [cc1__mlp_body_eq_skeleton]; unfold cc1__mlp_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  obtain rfl := harg10.eq_unread hf10
  sl_exec (disch := first | exact hc1 | exact hc2 | exact hc3)
  sl_step
  sl_unfold_run_names
  have e1 := readAt_whole_unread (F := F) harg1 x1 z2 inb_S4096x64_S4096x64_0_0
  have e2 := readAt_whole_unread (F := F) harg2 x2 z2 inb_S4096x64_S4096x64_0_0
  have e3 := readAt_whole_unread (F := F) harg3 x3 z2 inb_S4096x64_S4096x64_0_0
  have e4 := readAt_whole_unread (F := F) harg4 x4 z2 inb_S192x192_S192x192_0_0
  have e5 := readAt_whole_unread (F := F) harg5 x5 z2 inb_S1x192_S1x192_0_0
  have e6 := readAt_whole_unread (F := F) harg6 x6 z2 inb_S192x1_S192x1_0_0
  have e7 := readAt_whole_unread (F := F) harg7 x7 z2 inb_S1x1_S1x1_0_0
  have r0 := fun x => rd_acc3_0 (F := F) harg10 a0 b0 c0 inb_S3_S1_0 x
  have r1 := fun x => rd_acc3_1 (F := F) harg10 a0 b0 c0 inb_S3_S1_1 x
  have r2 := fun x => rd_acc3_2 (F := F) harg10 a0 b0 c0 inb_S3_S1_2 x
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]
  · iexists _; isplitr; swap; · iexact H8
    ipureintro
    rw [read_writes_whole _ _ z2, e1, e2, e3, e4, e5, e6, e7]
  isplitl [H9]
  · iexists _; isplitr; swap; · iexact H9
    ipureintro
    rw [read_writes_whole _ _ z2, e1, e2, e3, r0, r1, r2]
  iexists _; isplitr; swap; · iexact H10
  ipureintro
  rw [read_writes_acc3, e1, e2, e3, r0, r1, r2]

end Cert.Kernel.TcBody

end
-- ==== Proof.BTcRegionData.lean ====
/- The TensorCore region's proof data: what each window's staging buffer holds after the body at each grid point,
   the three-word accumulator carried between points, and the body obligation at every point from the three runs of
   the body. -/
import proofs.«203152_g22136261444366_cont_8to1_1253_39_alg».proof.Proof.BKFun
import proofs.«203152_g22136261444366_cont_8to1_1253_39_alg».proof.Proof.BTcRegionBody
import Idealize.ShloMosaic.Lib.StableHlo.Run
import Idealize.ShloMosaic.Lib.Pipeline.Regions
import Idealize.ShloMosaic.Lib.Pipeline.Frame
import Idealize.ShloMosaic.Lib.Pipeline.Value

set_option maxRecDepth 16384

noncomputable section

namespace Cert.Kernel.TcRegion

open Cert.Kernel.Gen Cert.Kernel.TcBody Cert.Kernel.KFun
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs Dat Cfg Window BodyObligation cellOf)

variable {F : FTy → Type} [FloatOps F]
variable {UU : Type} [URA UU]

local notation "𝕄" => MT nD τ sig (HIx 1) (Elt F) ℕ UU ℕ

/-! ## The program's tables as the launch theorem and the pipeline library see them -/

abbrev ΛP : Labels := Pipeline.Sig Λ₀ (Fin 1) fun p => (pcfgs (F := F) p).Adm
abbrev Ksc : SparseCore.Cfg τ sig (ΛP (F := F)) 1 := sc (F := F)
abbrev Dp : Defs nD τ sig (Elt F) (ΛP (F := F)) := Pipeline.defs pcfgs defs₀
abbrev 𝒱₀ : Variants := Variants.none
abbrev rr (b : Ref sig .tc) : DevRef τ sig := Proc.devRef .tc b
abbrev adm : (p : Fin 1) → (pcfgs (F := F) p).Adm := fun p => (cfgs p).toPCfg_adm

variable (W : Valuation τ sig (Elt F))

/-! ## The seven operands at the valuation the region is entered with -/

abbrev w4 : Vec F S16384x64 .f32 := W (rr main_v4)
abbrev w5 : Vec F S16384x64 .f32 := W (rr main_v5)
abbrev w6 : Vec F S16384x64 .f32 := W (rr main_v6)
abbrev w7 : Vec F S192x192 .f32 := W (rr main_v7)
abbrev w8 : Vec F S1x192 .f32 := W (rr main_v8)
abbrev w9 : Vec F S192x1 .f32 := W (rr main_v9)
abbrev w10 : Vec F S1x1 .f32 := W (rr main_v10)

/-! ## The accumulator words after each point -/

/-- Grid point number `n` (the last for a number past it). -/
def ptc : ℕ → Fin cfg1.N
  | 0 => pt 0
  | 1 => pt 1
  | 2 => pt 2
  | _ => pt 3

theorem ptc_val (t : Fin cfg1.N) : ptc t.val = t := by
  obtain ⟨n, hn⟩ := t
  have h4 : n < 4 := lt_of_lt_of_eq hn N4
  match n, h4 with
  | 0, _ => rfl
  | 1, _ => rfl
  | 2, _ => rfl
  | 3, _ => rfl
  | n + 4, h => exact absurd h (by omega)

/-- The first accumulator word after point `n`. -/
def accPn : ℕ → F .f32
  | 0 => k1_pay1 (k1_pay8 (blk0 (ptc 0) (w4 W)))
  | n + 1 => k1_pay4 (k1_pay8 (blk0 (ptc (n + 1)) (w4 W))) (accPn n)
/-- The second. -/
def accQn : ℕ → F .f32
  | 0 => k1_pay2 (k1_pay9 (blk1 (ptc 0) (w5 W)))
  | n + 1 => k1_pay5 (k1_pay9 (blk1 (ptc (n + 1)) (w5 W))) (accQn n)
/-- The third. -/
def accRn : ℕ → F .f32
  | 0 => k1_pay3 (k1_pay10 (blk2 (ptc 0) (w6 W)))
  | n + 1 => k1_pay6 (k1_pay10 (blk2 (ptc (n + 1)) (w6 W))) (accRn n)

theorem accPn_first (t : Fin cfg1.N) (h : t.val = 0) : accPn W t.val = k1_pay1 (k1_pay8 (blk0 t (w4 W))) := by
  rw [h]; show k1_pay1 (k1_pay8 (blk0 (ptc 0) (w4 W))) = _; rw [← h, ptc_val]
theorem accQn_first (t : Fin cfg1.N) (h : t.val = 0) : accQn W t.val = k1_pay2 (k1_pay9 (blk1 t (w5 W))) := by
  rw [h]; show k1_pay2 (k1_pay9 (blk1 (ptc 0) (w5 W))) = _; rw [← h, ptc_val]
theorem accRn_first (t : Fin cfg1.N) (h : t.val = 0) : accRn W t.val = k1_pay3 (k1_pay10 (blk2 t (w6 W))) := by
  rw [h]; show k1_pay3 (k1_pay10 (blk2 (ptc 0) (w6 W))) = _; rw [← h, ptc_val]

theorem accPn_step (t : Fin cfg1.N) (h : t.val ≠ 0) : accPn W t.val = k1_pay4 (k1_pay8 (blk0 t (w4 W))) (accPn W (t.val - 1)) := by
  obtain ⟨n, hn⟩ := t
  cases n with
  | zero => exact absurd rfl h
  | succ n => show k1_pay4 (k1_pay8 (blk0 (ptc (n + 1)) (w4 W))) (accPn W n) = _; rw [show ptc (n + 1) = (⟨n + 1, hn⟩ : Fin cfg1.N) from ptc_val ⟨n + 1, hn⟩]; rfl
theorem accQn_step (t : Fin cfg1.N) (h : t.val ≠ 0) : accQn W t.val = k1_pay5 (k1_pay9 (blk1 t (w5 W))) (accQn W (t.val - 1)) := by
  obtain ⟨n, hn⟩ := t
  cases n with
  | zero => exact absurd rfl h
  | succ n => show k1_pay5 (k1_pay9 (blk1 (ptc (n + 1)) (w5 W))) (accQn W n) = _; rw [show ptc (n + 1) = (⟨n + 1, hn⟩ : Fin cfg1.N) from ptc_val ⟨n + 1, hn⟩]; rfl
theorem accRn_step (t : Fin cfg1.N) (h : t.val ≠ 0) : accRn W t.val = k1_pay6 (k1_pay10 (blk2 t (w6 W))) (accRn W (t.val - 1)) := by
  obtain ⟨n, hn⟩ := t
  cases n with
  | zero => exact absurd rfl h
  | succ n => show k1_pay6 (k1_pay10 (blk2 (ptc (n + 1)) (w6 W))) (accRn W n) = _; rw [show ptc (n + 1) = (⟨n + 1, hn⟩ : Fin cfg1.N) from ptc_val ⟨n + 1, hn⟩]; rfl

/-- After the last point the words are the regulariser's three sums. -/
theorem accP_eq : accP (w4 W) = accPn W 3 := rfl
theorem accQ_eq : accQ (w5 W) = accQn W 3 := rfl
theorem accR_eq : accR (w6 W) = accRn W 3 := rfl

/-! ## The proof data -/

/-- The accumulator between points: before the first point anything, after point `n` the three words. -/
def ΦS (c : Dev nD) (t : Fin (cfg1.N + 1)) : sProp 𝕄 :=
  iprop(∃ x : Vec F S3 .f32, ⌜0 < t.val → x = acc3 (accPn W (t.val - 1)) (accQn W (t.val - 1)) (accRn W (t.val - 1))⌝
    ∗ owns (c : Thread nD τ) (Memref.whole cc1_scratch0 : Memref sig .tc .smem S3 .f32) fullShare x)

/-- The proof data on core `c`: the arrays at the valuation; after the body each input's buffer at its block, the
    inference window's at the block the body computes, the regulariser window's at the regulariser; the accumulator
    as the invariant; nothing owed; the recorded pairs at or below the level the TensorCore's state asks. -/
def dats (_ : Fin 1) (c : Dev nD) : Dat τ (Elt F) (HIx 1) ℕ UU ℕ cfg1 c where
  A w := W (rr (Pipeline.arrRef spec1 w))
  after w t := match w with
    | ⟨0, _⟩ => blk0 t (w4 W)
    | ⟨1, _⟩ => blk1 t (w5 W)
    | ⟨2, _⟩ => blk2 t (w6 W)
    | ⟨3, _⟩ => blk3 t (w7 W)
    | ⟨4, _⟩ => blk4 t (w8 W)
    | ⟨5, _⟩ => blk5 t (w9 W)
    | ⟨6, _⟩ => blk6 t (w10 W)
    | ⟨7, _⟩ => infBlk t (w4 W) (w5 W) (w6 W) (w7 W) (w8 W) (w9 W) (w10 W)
    | ⟨8, _⟩ => kRegs (w4 W) (w5 W) (w6 W)
    | ⟨_ + 9, h⟩ => absurd h (Nat.not_lt.2 (Nat.le_add_left _ _))
  Φ t := ΦS W c t
  q _ := fullShare
  owed _ := 0
  recorded _ := {p | (Ksc (F := F)).lev ((T c : Thread nD τ), p.1) p.2 ≤ 8}

theorem after_0 (c : Dev nD) (t : Fin cfg1.N) : (dats (UU := UU) W 0 c).after 0 t = blk0 t (w4 W) := by dsimp only [dats]
theorem after_1 (c : Dev nD) (t : Fin cfg1.N) : (dats (UU := UU) W 0 c).after 1 t = blk1 t (w5 W) := by dsimp only [dats]
theorem after_2 (c : Dev nD) (t : Fin cfg1.N) : (dats (UU := UU) W 0 c).after 2 t = blk2 t (w6 W) := by dsimp only [dats]
theorem after_3 (c : Dev nD) (t : Fin cfg1.N) : (dats (UU := UU) W 0 c).after 3 t = blk3 t (w7 W) := by dsimp only [dats]
theorem after_4 (c : Dev nD) (t : Fin cfg1.N) : (dats (UU := UU) W 0 c).after 4 t = blk4 t (w8 W) := by dsimp only [dats]
theorem after_5 (c : Dev nD) (t : Fin cfg1.N) : (dats (UU := UU) W 0 c).after 5 t = blk5 t (w9 W) := by dsimp only [dats]
theorem after_6 (c : Dev nD) (t : Fin cfg1.N) : (dats (UU := UU) W 0 c).after 6 t = blk6 t (w10 W) := by dsimp only [dats]
theorem after_7 (c : Dev nD) (t : Fin cfg1.N) : (dats (UU := UU) W 0 c).after 7 t = infBlk t (w4 W) (w5 W) (w6 W) (w7 W) (w8 W) (w9 W) (w10 W) := by dsimp only [dats]
theorem after_8 (c : Dev nD) (t : Fin cfg1.N) : (dats (UU := UU) W 0 c).after 8 t = kRegs (w4 W) (w5 W) (w6 W) := by dsimp only [dats]

/-- Each input's current staging buffer holds its block at every point, fetched there or not. -/
theorem before_0 (c : Dev nD) (t : Fin cfg1.N) (d) : (dats (UU := UU) W 0 c).before 0 t d = blk0 t (w4 W) :=
  ((dats (UU := UU) W 0 c).before_in_eq_fetched 0 rfl (fun _ => rfl) (fun _ _ _ => rfl) (fun t => by rw [after_0]; rfl) t d).trans (by unfold Dat.fetched Dat.blockOf; rfl)
theorem before_1 (c : Dev nD) (t : Fin cfg1.N) (d) : (dats (UU := UU) W 0 c).before 1 t d = blk1 t (w5 W) :=
  ((dats (UU := UU) W 0 c).before_in_eq_fetched 1 rfl (fun _ => rfl) (fun _ _ _ => rfl) (fun t => by rw [after_1]; rfl) t d).trans (by unfold Dat.fetched Dat.blockOf; rfl)
theorem before_2 (c : Dev nD) (t : Fin cfg1.N) (d) : (dats (UU := UU) W 0 c).before 2 t d = blk2 t (w6 W) :=
  ((dats (UU := UU) W 0 c).before_in_eq_fetched 2 rfl (fun _ => rfl) (fun _ _ _ => rfl) (fun t => by rw [after_2]; rfl) t d).trans (by unfold Dat.fetched Dat.blockOf; rfl)
theorem before_3 (c : Dev nD) (t : Fin cfg1.N) (d) : (dats (UU := UU) W 0 c).before 3 t d = blk3 t (w7 W) :=
  ((dats (UU := UU) W 0 c).before_in_eq_fetched 3 rfl (fun _ => rfl) (fun _ _ _ => rfl) (fun t => by rw [after_3]; rfl) t d).trans (by unfold Dat.fetched Dat.blockOf; rfl)
theorem before_4 (c : Dev nD) (t : Fin cfg1.N) (d) : (dats (UU := UU) W 0 c).before 4 t d = blk4 t (w8 W) :=
  ((dats (UU := UU) W 0 c).before_in_eq_fetched 4 rfl (fun _ => rfl) (fun _ _ _ => rfl) (fun t => by rw [after_4]; rfl) t d).trans (by unfold Dat.fetched Dat.blockOf; rfl)
theorem before_5 (c : Dev nD) (t : Fin cfg1.N) (d) : (dats (UU := UU) W 0 c).before 5 t d = blk5 t (w9 W) :=
  ((dats (UU := UU) W 0 c).before_in_eq_fetched 5 rfl (fun _ => rfl) (fun _ _ _ => rfl) (fun t => by rw [after_5]; rfl) t d).trans (by unfold Dat.fetched Dat.blockOf; rfl)
theorem before_6 (c : Dev nD) (t : Fin cfg1.N) (d) : (dats (UU := UU) W 0 c).before 6 t d = blk6 t (w10 W) :=
  ((dats (UU := UU) W 0 c).before_in_eq_fetched 6 rfl (fun _ => rfl) (fun _ _ _ => rfl) (fun t => by rw [after_6]; rfl) t d).trans (by unfold Dat.fetched Dat.blockOf; rfl)

/-! ## The body obligation -/

/-- The regulariser window is idle except at the last point, -/
theorem idle8_iff (t : Fin cfg1.N) : cfg1.idle 8 (cfg1.grid.coords t) = true ↔ t.val ≠ 3 := by
  refine Iff.trans ?_ (not_congr (hcond3 t))
  show (!(k1_cond3 (grid1.coords t) == 1#1)) = true ↔ ¬ (k1_cond3 (grid1.coords t) = 1#1)
  simp

/-- What the body is called with at point `t`, -/
def bodyPre (c : Dev nD) (t : Fin cfg1.N) : sProp 𝕄 :=
  iprop(ΦS W c t.castSucc ∗ (dats (UU := UU) W 0 c).owesAt none t.castSucc
    ∗ (∃ d, owns (c : Thread nD τ) ((cfg1.win 0).stage (cfg1.slots t 0)) fullShare ((dats (UU := UU) W 0 c).before 0 t d))
    ∗ (∃ d, owns (c : Thread nD τ) ((cfg1.win 1).stage (cfg1.slots t 1)) fullShare ((dats (UU := UU) W 0 c).before 1 t d))
    ∗ (∃ d, owns (c : Thread nD τ) ((cfg1.win 2).stage (cfg1.slots t 2)) fullShare ((dats (UU := UU) W 0 c).before 2 t d))
    ∗ (∃ d, owns (c : Thread nD τ) ((cfg1.win 3).stage (cfg1.slots t 3)) fullShare ((dats (UU := UU) W 0 c).before 3 t d))
    ∗ (∃ d, owns (c : Thread nD τ) ((cfg1.win 4).stage (cfg1.slots t 4)) fullShare ((dats (UU := UU) W 0 c).before 4 t d))
    ∗ (∃ d, owns (c : Thread nD τ) ((cfg1.win 5).stage (cfg1.slots t 5)) fullShare ((dats (UU := UU) W 0 c).before 5 t d))
    ∗ (∃ d, owns (c : Thread nD τ) ((cfg1.win 6).stage (cfg1.slots t 6)) fullShare ((dats (UU := UU) W 0 c).before 6 t d))
    ∗ (∃ d, owns (c : Thread nD τ) ((cfg1.win 7).stage (cfg1.slots t 7)) fullShare ((dats (UU := UU) W 0 c).before 7 t d))
    ∗ (∃ d, owns (c : Thread nD τ) ((cfg1.win 8).stage (cfg1.slots t 8)) fullShare ((dats (UU := UU) W 0 c).before 8 t d)))

/-- and what it returns. -/
def bodyPost (c : Dev nD) (t : Fin cfg1.N) : sProp 𝕄 :=
  iprop(ΦS W c t.succ ∗ (dats (UU := UU) W 0 c).owesAt none t.succ
    ∗ owns (c : Thread nD τ) ((cfg1.win 0).stage (cfg1.slots t 0)) fullShare ((dats (UU := UU) W 0 c).after 0 t)
    ∗ owns (c : Thread nD τ) ((cfg1.win 1).stage (cfg1.slots t 1)) fullShare ((dats (UU := UU) W 0 c).after 1 t)
    ∗ owns (c : Thread nD τ) ((cfg1.win 2).stage (cfg1.slots t 2)) fullShare ((dats (UU := UU) W 0 c).after 2 t)
    ∗ owns (c : Thread nD τ) ((cfg1.win 3).stage (cfg1.slots t 3)) fullShare ((dats (UU := UU) W 0 c).after 3 t)
    ∗ owns (c : Thread nD τ) ((cfg1.win 4).stage (cfg1.slots t 4)) fullShare ((dats (UU := UU) W 0 c).after 4 t)
    ∗ owns (c : Thread nD τ) ((cfg1.win 5).stage (cfg1.slots t 5)) fullShare ((dats (UU := UU) W 0 c).after 5 t)
    ∗ owns (c : Thread nD τ) ((cfg1.win 6).stage (cfg1.slots t 6)) fullShare ((dats (UU := UU) W 0 c).after 6 t)
    ∗ owns (c : Thread nD τ) ((cfg1.win 7).stage (cfg1.slots t 7)) fullShare ((dats (UU := UU) W 0 c).after 7 t)
    ∗ (dats (UU := UU) W 0 c).leavesExact 8 t)

theorem leavesExact_live {cfg : Cfg sig Λ₀} {c : Dev nD} (dat : Dat τ (Elt F) (HIx 1) ℕ UU ℕ cfg c) (w : Fin cfg.W) (t : Fin cfg.N)
    (hi : cfg.idle w (cfg.grid.coords t) = false) :
    dat.leavesExact w t = owns (c : Thread nD τ) ((cfg.win w).stage (cfg.slots t w)) fullShare (dat.after w t) := by
  unfold Dat.leavesExact; rw [hi]

set_option maxHeartbeats 1600000 in
/-- The body at any point: the inputs' memrefs hold their blocks; the grid coordinate says which of the three cases
    the point is in; the accumulator is what the point before left; the TensorCore owes nothing throughout. -/
theorem sound_body (c : Dev nD) (t : Fin cfg1.N) :
    bodyPre (UU := UU) W c t ⊢ wp frame (wpE (defs₀ (F := F)) Variants.none c none) Set.univ (bodyAt1 t) (fun _ => bodyPost (UU := UU) W c t) := by
  unfold bodyPre bodyPost bodyAt1
  simp only [before_0, before_1, before_2, before_3, before_4, before_5, before_6]
  rw [show (dats (UU := UU) W 0 c).owesAt none t.succ = (dats (UU := UU) W 0 c).owesAt none t.castSucc from rfl,
    after_0, after_1, after_2, after_3, after_4, after_5, after_6, after_7]
  have hN : t.val < 4 := lt_of_lt_of_eq t.isLt N4
  unfold ΦS
  by_cases h0 : t.val = 0
  · -- the first point
    have hc1 : cond1 (grid1.coords t) := (hcond1 t).mpr h0
    have hc2 : ¬cond2 (grid1.coords t) := fun h => (hcond2 t).mp h h0
    have hc3 : ¬cond3 (grid1.coords t) := fun h => by have := (hcond3 t).mp h; omega
    have i8 : cfg1.idle 8 (cfg1.grid.coords t) = true := (idle8_iff t).mpr (by omega)
    have f8 : (cfg1.win 8).flush t = false := Bool.eq_false_iff.mpr fun h => by have := (flush1_8 t).mp h; omega
    rw [Dat.leavesExact_idle _ 8 t i8 f8]
    iintro ⟨⟨%x, -, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runFirst (UU := UU) c (grid1.coords t) _ _ _ _ _ _ _ _ _ _ _ _ _ _ _ _ _ _ _ _ hc1 hc2 hc3
      (blk0 t (w4 W)) (blk1 t (w5 W)) (blk2 t (w6 W)) (blk3 t (w7 W)) (blk4 t (w8 W)) (blk5 t (w9 W)) (blk6 t (w10 W))
      ((dats (UU := UU) W 0 c).before 7 t d7) ((dats (UU := UU) W 0 c).before 8 t d8) x (accPn W 0) (accPn W 0) (accPn W 0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS]
    · iexists _; isplitr; swap; · iexact HS
      ipureintro; intro _
      rw [show t.succ.val - 1 = t.val from by simp, accPn_first W t h0, accQn_first W t h0, accRn_first W t h0]
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · unfold infBlk; iexact H7
    iexists d8; iexact H8
  · have hc1 : ¬cond1 (grid1.coords t) := fun h => h0 ((hcond1 t).mp h)
    have hc2 : cond2 (grid1.coords t) := (hcond2 t).mpr h0
    by_cases h3 : t.val = 3
    · -- the last point
      have hc3 : cond3 (grid1.coords t) := (hcond3 t).mpr h3
      have i8 : cfg1.idle 8 (cfg1.grid.coords t) = false := by
        rw [Bool.eq_false_iff]; intro h; exact (idle8_iff t).mp h h3
      rw [leavesExact_live _ 8 t i8, after_8]
      iintro ⟨⟨%x, %hx, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain rfl := hx (by show 0 < t.val; omega)
      iapply (runLast (UU := UU) c (grid1.coords t) _ _ _ _ _ _ _ _ _ _ _ _ _ _ _ _ _ _ _ _ hc1 hc2 hc3
        (blk0 t (w4 W)) (blk1 t (w5 W)) (blk2 t (w6 W)) (blk3 t (w7 W)) (blk4 t (w8 W)) (blk5 t (w9 W)) (blk6 t (w10 W))
        ((dats (UU := UU) W 0 c).before 7 t d7) ((dats (UU := UU) W 0 c).before 8 t d8) (fun _ => accPn W 0)
        (accPn W (t.val - 1)) (accQn W (t.val - 1)) (accRn W (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS]
      · iexists _; isplitr; swap; · iexact HS
        ipureintro; intro _
        rw [show t.succ.val - 1 = t.val from by simp, accPn_step W t h0, accQn_step W t h0, accRn_step W t h0]
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · unfold infBlk; iexact H7
      unfold kRegs
      rw [accP_eq, accQ_eq, accR_eq, ← h3, accPn_step W t h0, accQn_step W t h0, accRn_step W t h0]
      iexact H8
    · -- a middle point
      have hc3 : ¬cond3 (grid1.coords t) := fun h => h3 ((hcond3 t).mp h)
      have i8 : cfg1.idle 8 (cfg1.grid.coords t) = true := (idle8_iff t).mpr h3
      have f8 : (cfg1.win 8).flush t = false := Bool.eq_false_iff.mpr fun h => by have := (flush1_8 t).mp h; omega
      rw [Dat.leavesExact_idle _ 8 t i8 f8]
      iintro ⟨⟨%x, %hx, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain rfl := hx (by show 0 < t.val; omega)
      iapply (runMid (UU := UU) c (grid1.coords t) _ _ _ _ _ _ _ _ _ _ _ _ _ _ _ _ _ _ _ _ hc1 hc2 hc3
        (blk0 t (w4 W)) (blk1 t (w5 W)) (blk2 t (w6 W)) (blk3 t (w7 W)) (blk4 t (w8 W)) (blk5 t (w9 W)) (blk6 t (w10 W))
        ((dats (UU := UU) W 0 c).before 7 t d7) ((dats (UU := UU) W 0 c).before 8 t d8) (fun _ => accPn W 0)
        (accPn W (t.val - 1)) (accQn W (t.val - 1)) (accRn W (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS]
      · iexists _; isplitr; swap; · iexact HS
        ipureintro; intro _
        rw [show t.succ.val - 1 = t.val from by simp, accPn_step W t h0, accQn_step W t h0, accRn_step W t h0]
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · unfold infBlk; iexact H7
      iexists d8; iexact H8

/-- The library's body obligation, at every point. -/
theorem body_obligation (c : Dev nD) : BodyObligation (dats (UU := UU) W 0 c) (defs₀ (F := F)) 𝒱₀ (none : HIx 1) Set.univ := fun t => by
  rw [bigSep_W1, bigSep_W1]
  exact sound_body (UU := UU) W c t

end Cert.Kernel.TcRegion

end
-- ==== Proof.BTcRegionFin.lean ====
/- What the TensorCore region's two result arrays hold after the four write-backs: the inference array is the
   blocks the body computes, tiled; the regulariser array is what the last point stores. Every window's array after
   the region is what the valuation after the region says. -/
import proofs.«203152_g22136261444366_cont_8to1_1253_39_alg».proof.Proof.BKFun
import proofs.«203152_g22136261444366_cont_8to1_1253_39_alg».proof.Proof.BTcRegionData
import proofs.«203152_g22136261444366_cont_8to1_1253_39_alg».proof.Proof.BKVtc
import Idealize.ShloMosaic.Lib.StableHlo.Run
import Idealize.ShloMosaic.Lib.Pipeline.Regions
import Idealize.ShloMosaic.Lib.Pipeline.Frame
import Idealize.ShloMosaic.Lib.Pipeline.Value

set_option maxRecDepth 16384

noncomputable section

namespace Cert.Kernel.TcRegion

open Cert.Kernel.Gen Cert.Kernel.TcBody Cert.Kernel.KFun
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs Dat Cfg Window BodyObligation cellOf)
open Cert.Proof.KB (Vtc tc_frame Vtc_inf Vtc_regs)

variable {F : FTy → Type} [FloatOps F]
variable {UU : Type} [URA UU]

local notation "𝕄" => MT nD τ sig (HIx 1) (Elt F) ℕ UU ℕ

variable (W : Valuation τ sig (Elt F))

theorem Vtc_of_ne (b : DevRef τ sig) (h0 : b ≠ rr main_v11_0) (h1 : b ≠ rr main_v11_1) : Vtc W b = W b := tc_frame W b ⟨h0, h1⟩

/-! ## The result windows' block indices -/

theorem index_7 : ∀ t : Fin cfg1.N, win1_7.index t (0 : Fin 2) = t.val ∧ win1_7.index t (1 : Fin 2) = 0 :=
  (by decide +kernel : ∀ t : Fin grid1.N, _)
theorem index_8 : ∀ t : Fin cfg1.N, win1_8.index t (0 : Fin 2) = 0 ∧ win1_8.index t (1 : Fin 2) = 0 :=
  (by decide +kernel : ∀ t : Fin grid1.N, _)

/-- The last grid point. -/
abbrev p3 : Fin cfg1.N := pt 3 (by decide)

/-! ## Where an element of a result window's block sits in its array -/

theorem emb7_0 (t : Fin cfg1.N) (y : S4096x1.Idx) : ((((cfg1.win 7).blk t).view.emb y) 0 : ℕ) = t.val * 4096 + (y 0).val := by
  show win1_7.index t (0 : Fin 2) * 4096 + 1 * (y 0).val = _
  rw [(index_7 t).1]; omega
theorem emb7_1 (t : Fin cfg1.N) (y : S4096x1.Idx) : ((((cfg1.win 7).blk t).view.emb y) 1 : ℕ) = (y 1).val := by
  show win1_7.index t (1 : Fin 2) * 1 + 1 * (y 1).val = _
  rw [(index_7 t).2]; omega
theorem emb8 (t : Fin cfg1.N) (y : S1x1.Idx) : ((cfg1.win 8).blk t).view.emb y = y := by
  refine funext fun a => Fin.ext ?_
  match a with
  | ⟨0, _⟩ =>
    show win1_8.index t (0 : Fin 2) * 1 + 1 * (y 0).val = (y 0).val
    rw [(index_8 t).1]; omega
  | ⟨1, _⟩ =>
    show win1_8.index t (1 : Fin 2) * 1 + 1 * (y 1).val = (y 1).val
    rw [(index_8 t).2]; omega

theorem ptOf_emb7 (t : Fin cfg1.N) (y : S4096x1.Idx) : ptOf (((cfg1.win 7).blk t).view.emb y) = t := by
  have hy0 : (y 0).val < 4096 := (y 0).isLt
  refine Fin.ext ?_
  show ((((cfg1.win 7).blk t).view.emb y) 0 : ℕ) / 4096 = t.val
  rw [emb7_0]; omega

theorem rowIn_emb7 (t : Fin cfg1.N) (y : S4096x1.Idx) : rowIn (((cfg1.win 7).blk t).view.emb y) = y := by
  have hy0 : (y 0).val < 4096 := (y 0).isLt
  have hy1 : (y 1).val < 1 := (y 1).isLt
  refine funext fun a => Fin.ext ?_
  match a with
  | ⟨0, _⟩ =>
    show ((((cfg1.win 7).blk t).view.emb y) 0 : ℕ) % 4096 = (y 0).val
    rw [emb7_0]; omega
  | ⟨1, _⟩ =>
    show ((((cfg1.win 7).blk t).view.emb y) 1 : ℕ) % 1 = (y 1).val
    rw [emb7_1]; omega

theorem emb7_rowIn (i : S16384x1.Idx) : ((cfg1.win 7).blk (ptOf i)).view.emb (rowIn i) = i := by
  have hi1 : (i 1).val < 1 := (i 1).isLt
  refine funext fun a => Fin.ext ?_
  match a with
  | ⟨0, _⟩ =>
    show ((((cfg1.win 7).blk (ptOf i)).view.emb (rowIn i)) 0 : ℕ) = (i 0).val
    rw [emb7_0]
    show (i 0).val / 4096 * 4096 + (i 0).val % 4096 = (i 0).val
    omega
  | ⟨1, _⟩ =>
    show ((((cfg1.win 7).blk (ptOf i)).view.emb (rowIn i)) 1 : ℕ) = (i 1).val
    rw [emb7_1]
    show (i 1).val % 1 = (i 1).val
    omega

/-- Every row of the inference array is in the block of its grid point. -/
theorem cover7 (i : S16384x1.Idx) : i ∈ ((cfg1.win 7).blk (ptOf i)).view.set := by
  have h := ((cfg1.win 7).blk (ptOf i)).view.emb_mem_set (rowIn i)
  rwa [emb7_rowIn] at h

/-- The regulariser array is its window's one block. -/
theorem cover8 (i : S1x1.Idx) : i ∈ ((cfg1.win 8).blk p3).view.set := by
  have h := ((cfg1.win 8).blk p3).view.emb_mem_set i
  rwa [emb8] at h

/-! ## What the result arrays hold after the write-backs -/

/-- Block `t` of the inference result is the block the body computes at point `t`. -/
theorem read_blk7_kInf (t : Fin cfg1.N) :
    ((cfg1.win 7).blk t).view.read (Elt F) (kInf (w4 W) (w5 W) (w6 W) (w7 W) (w8 W) (w9 W) (w10 W))
      = infBlk t (w4 W) (w5 W) (w6 W) (w7 W) (w8 W) (w9 W) (w10 W) := by
  funext y
  show kInf (w4 W) (w5 W) (w6 W) (w7 W) (w8 W) (w9 W) (w10 W) (((cfg1.win 7).blk t).view.emb y) = _
  unfold kInf
  rw [ptOf_emb7, rowIn_emb7]

/-- The regulariser window's one block is all of its array. -/
theorem read_blk8 (t : Fin cfg1.N) (A : Vec F S1x1 .f32) : ((cfg1.win 8).blk t).view.read (Elt F) A = A := by
  funext i
  show A (((cfg1.win 8).blk t).view.emb i) = A i
  rw [emb8]

/-- The inference array after the four write-backs. -/
theorem arrAt_7 (c : Dev nD) : (dats (UU := UU) W 0 c).arrAt 7 cfg1.N = kInf (w4 W) (w5 W) (w6 W) (w7 W) (w8 W) (w9 W) (w10 W) := by
  refine Dat.arrAt_eq_of_cover (dats (UU := UU) W 0 c) 7 (kInf (w4 W) (w5 W) (w6 W) (w7 W) (w8 W) (w9 W) (w10 W)) (fun t _ => ?_)
    (fun i => ⟨ptOf i, flush1_7 _, cover7 i⟩)
  rw [read_blk7_kInf]
  show (dats (UU := UU) W 0 c).after 7 t = _
  rw [after_7]

/-- The regulariser array after the last point's write-back. -/
theorem arrAt_8 (c : Dev nD) : (dats (UU := UU) W 0 c).arrAt 8 cfg1.N = kRegs (w4 W) (w5 W) (w6 W) := by
  refine Dat.arrAt_eq_of_cover (dats (UU := UU) W 0 c) 8 (kRegs (w4 W) (w5 W) (w6 W)) (fun t _ => ?_)
    (fun i => ⟨p3, (flush1_8 p3).mpr rfl, cover8 i⟩)
  rw [read_blk8]
  show (dats (UU := UU) W 0 c).after 8 t = _
  rw [after_8]

/-- Every window's array after the region is what the valuation after the region says. -/
theorem arrAt_fin (c : Dev nD) (w : Fin cfg1.W) :
    (dats (UU := UU) W 0 c).arrAt w cfg1.N = Vtc W (rr (Pipeline.arrRef spec1 w)) := by
  match w with
  | ⟨0, _⟩ => exact ((dats (UU := UU) W 0 c).arrAt_in 0 rfl _).trans (Vtc_of_ne W (rr main_v4) (by decide) (by decide)).symm
  | ⟨1, _⟩ => exact ((dats (UU := UU) W 0 c).arrAt_in 1 rfl _).trans (Vtc_of_ne W (rr main_v5) (by decide) (by decide)).symm
  | ⟨2, _⟩ => exact ((dats (UU := UU) W 0 c).arrAt_in 2 rfl _).trans (Vtc_of_ne W (rr main_v6) (by decide) (by decide)).symm
  | ⟨3, _⟩ => exact ((dats (UU := UU) W 0 c).arrAt_in 3 rfl _).trans (Vtc_of_ne W (rr main_v7) (by decide) (by decide)).symm
  | ⟨4, _⟩ => exact ((dats (UU := UU) W 0 c).arrAt_in 4 rfl _).trans (Vtc_of_ne W (rr main_v8) (by decide) (by decide)).symm
  | ⟨5, _⟩ => exact ((dats (UU := UU) W 0 c).arrAt_in 5 rfl _).trans (Vtc_of_ne W (rr main_v9) (by decide) (by decide)).symm
  | ⟨6, _⟩ => exact ((dats (UU := UU) W 0 c).arrAt_in 6 rfl _).trans (Vtc_of_ne W (rr main_v10) (by decide) (by decide)).symm
  | ⟨7, _⟩ => exact (arrAt_7 (UU := UU) W c).trans (Vtc_inf W).symm
  | ⟨8, _⟩ => exact (arrAt_8 (UU := UU) W c).trans (Vtc_regs W).symm
  | ⟨n + 9, h⟩ => exact absurd h (Nat.not_lt.2 (Nat.le_add_left _ _))

end Cert.Kernel.TcRegion

end
-- ==== Proof.BTcRegionSeg.lean ====
/- The TensorCore region as the pipeline library's record: the launch kit's layout, the body obligation, and the
   kernel's protocol as entailments around the thread state — entered from every unscoped array of the TensorCore held
   at a valuation and the TensorCore owing nothing; the windows' arrays enter the pipeline, the other arrays bypass
   it; left with the arrays at the valuation after the region. -/
import proofs.«203152_g22136261444366_cont_8to1_1253_39_alg».proof.Proof.BKFun
import proofs.«203152_g22136261444366_cont_8to1_1253_39_alg».proof.Proof.BTcRegionFin
import Idealize.ShloMosaic.Lib.StableHlo.Run
import Idealize.ShloMosaic.Lib.Pipeline.Regions
import Idealize.ShloMosaic.Lib.Pipeline.Frame
import Idealize.ShloMosaic.Lib.Pipeline.Value

set_option maxRecDepth 16384

noncomputable section

namespace Cert.Kernel.TcRegion

open Cert.Kernel.Gen Cert.Kernel.TcBody Cert.Kernel.KFun
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs Dat Cfg Window BodyObligation cellOf)
open Cert.Proof.KB (Vtc tc_frame Vtc_inf Vtc_regs)

variable {F : FTy → Type} [FloatOps F]
variable {UU : Type} [URA UU]

local notation "𝕄" => MT nD τ sig (HIx 1) (Elt F) ℕ UU ℕ

variable (W : Valuation τ sig (Elt F))

/-- The TensorCore's `owes` as its state between the SparseCore call and the end keeps it: nothing owed, the
    recorded pairs at or below level 8. -/
def owesT (c : Dev nD) : sProp 𝕄 :=
  iprop(∃ Wt, ⌜(Ksc (F := F)).WBelow (T c) Wt 8⌝ ∗ owes (T c) (0 : CellTallies nD τ sig (HIx 1)) Wt)

theorem scratch_to_owns (c : Dev nD) (f : Buf (Elt F) ((c : Thread nD τ).loc cc1_scratch0)) :
    ((((c : Thread nD τ).loc cc1_scratch0) ↦{fullShare} f) : sProp 𝕄)
      ⊢ owns (c : Thread nD τ) (Memref.whole cc1_scratch0 : Memref sig .tc .smem S3 .f32) fullShare f := by
  rw [owns_whole_eq]
  iintro H; iexists f; isplitr; · ipureintro; rfl
  iexact H

theorem owns_to_scratch (c : Dev nD) (x : Vec F S3 .f32) :
    (owns (c : Thread nD τ) (Memref.whole cc1_scratch0 : Memref sig .tc .smem S3 .f32) fullShare x : sProp 𝕄)
      ⊢ iprop(∃ f : Buf (Elt F) ((c : Thread nD τ).loc cc1_scratch0), ((c : Thread nD τ).loc cc1_scratch0) ↦{fullShare} f) := by
  rw [owns_whole_eq]
  iintro ⟨%f, -, H⟩; iexists f; iexact H

/-- The arrays no window stages are the same at the valuation after the region. -/
theorem rest_eq (c : Dev nD) :
    (Pipeline.unscopedRest spec1 c (fun b => W (rr b)) : sProp 𝕄) = Pipeline.unscopedRest spec1 c (fun b => Vtc W (rr b)) := by
  unfold Pipeline.unscopedRest
  refine bigSep_congr fun b hb => ?_
  have hb' := (Finset.mem_sdiff.mp hb).2
  have h0 : b ≠ main_v11_0 := fun e => hb' (Finset.mem_image.mpr ⟨7, Finset.mem_univ _, by rw [e]⟩)
  have h1 : b ≠ main_v11_1 := fun e => hb' (Finset.mem_image.mpr ⟨8, Finset.mem_univ _, by rw [e]⟩)
  dsimp only
  rw [Vtc_of_ne W (rr b) (StableHlo.devRef_ne_of_ne h0) (StableHlo.devRef_ne_of_ne h1)]

/-- The windows' arrays after the region, as the buffers behind them at the valuation after the region. -/
theorem arrays_fin (c : Dev nD) :
    (dats (UU := UU) W 0 c).arrays ((dats (UU := UU) W 0 c).arrAt · (Pipeline.pin (pcfgs (F := F)) adm 0).N)
      = bigSep Finset.univ fun w : Fin cfg1.W => ((((c : Thread nD τ).loc (Pipeline.arrRef spec1 w)) ↦{fullShare} Vtc W (rr (Pipeline.arrRef spec1 w))) : sProp 𝕄) := by
  rw [Pipeline.arrays_eq (Pipeline.pin (pcfgs (F := F)) adm) (dats (UU := UU) W) 0 c launch1.arr_whole ((dats (UU := UU) W 0 c).share_full fun _ => rfl)]
  exact bigSep_congr fun w _ => congrArg _ (arrAt_fin (UU := UU) W c w)

/-- ENTRY. -/
theorem hentry (c : Dev nD) :
    iprop((held (T c) (ucRefs τ sig) W ∗ owesT (F := F) (UU := UU) c) ∗ Pipeline.ownSems0 (fun k : PEmpty => k.elim) c ∗ levAts ((Ksc (F := F)).L (nD := nD)) (Ksc (F := F)).lev)
      ⊢ |={Set.univ}=> iprop((dats (UU := UU) W 0 c).arrays ((dats (UU := UU) W 0 c).arrAt · 0) ∗ Pipeline.prefHeld (pcfgs (F := F) 0).pre c (fun _ => fullShare) (adm (F := F) 0).1
          ∗ (dats (UU := UU) W 0 c).owesAt none 0 ∗ iprop(emp) ∗ Pipeline.unscopedRest spec1 c (fun b => W (rr b))) := by
  rw [show held (T c) (ucRefs τ sig) W = (unscopedBufs c (fun b => W (rr b)) : sProp 𝕄) from (Pipeline.unscopedBufs_held c W).symm]
  have hsplit := Pipeline.arrays_of_unscopedBufs (pcfgs (F := F)) adm (dats (UU := UU) W) launch1.win launch1.arr_whole c
    ((dats (UU := UU) W 0 c).share_full fun _ => rfl) (fun b => W (rr b)) fun _ => rfl
  unfold owesT
  iintro ⟨⟨Hub, ⟨%Wt, %hWt, HO⟩⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    iexists Wt; isplitr; · ipureintro; exact fun p hp => Or.inl (hWt p (Finset.mem_coe.mp hp))
    iexact HO
  isplitr; · iempintro
  iexact Hrest

/-- The invariant at the first point: the accumulator at anything. -/
theorem hin (c : Dev nD) :
    iprop(iprop(emp) ∗ Pipeline.prefHeld (pcfgs (F := F) 0).pre c (fun _ => fullShare) (adm (F := F) 0).1 ∗ Pipeline.scopedRest spec1 c) ⊢ (ΦS (UU := UU) W c 0 : sProp 𝕄) := by
  rw [scopedRest1_eq]
  unfold ΦS
  iintro ⟨-, -, ⟨%f, Hs⟩⟩
  iexists f; isplitr; · ipureintro; intro h; exact absurd h (Nat.lt_irrefl 0)
  iapply (scratch_to_owns c f); iexact Hs

/-- The invariant at the last point gives the accumulator back. -/
theorem hout (c : Dev nD) :
    (ΦS (UU := UU) W c (Fin.last cfg1.N) : sProp 𝕄) ⊢ iprop(iprop(emp) ∗ Pipeline.ownSems0 (fun k : PEmpty => k.elim) c ∗ Pipeline.scopedRest spec1 c) := by
  rw [scopedRest1_eq, Pipeline.ownSems0_none nD τ sig (Elt F) (HIx 1) ℕ UU ℕ c]
  unfold ΦS
  iintro ⟨%x, -, Hs⟩
  isplitr; · iempintro
  isplitr; · iempintro
  iapply (owns_to_scratch c x); iexact Hs

/-- EXIT. -/
theorem hexit (c : Dev nD) :
    iprop((dats (UU := UU) W 0 c).arrays ((dats (UU := UU) W 0 c).arrAt · (Pipeline.pin (pcfgs (F := F)) adm 0).N)
        ∗ (dats (UU := UU) W 0 c).owesAt none (Fin.last (Pipeline.pin (pcfgs (F := F)) adm 0).N) ∗ iprop(emp) ∗ Pipeline.unscopedRest spec1 c (fun b => W (rr b)))
      ⊢ |={Set.univ}=> iprop(held (T c) (ucRefs τ sig) (Vtc W) ∗ owesT (F := F) (UU := UU) c) := by
  have hU : (unscopedBufs c (fun b => Vtc W (rr b)) : sProp 𝕄) = _ :=
    Pipeline.unscopedBufs_split (Pipeline.pin (pcfgs (F := F)) adm) 0 launch1.win.arr_unscoped launch1.win.arr_inj c (fun b => Vtc W (rr b))
  rw [arrays_fin, rest_eq, show held (T c) (ucRefs τ sig) (Vtc W) = (unscopedBufs c (fun b => Vtc W (rr b)) : sProp 𝕄) from (Pipeline.unscopedBufs_held c (Vtc W)).symm, hU]
  unfold owesT
  iintro ⟨Ha, ⟨%W', %hW', HO⟩, -, HZ⟩
  imodintro
  isplitr [HO]
  · isplitl [Ha]; · iexact Ha
    iexact HZ
  · iexists W'; isplitr; swap; · iexact HO
    ipureintro
    intro p hp
    rcases hW' (Finset.mem_coe.mpr hp) with h | ⟨w, s, rfl⟩
    · exact h
    · exact Nat.zero_le _

-- the record's fields are stated over `pin pcfgs adm 0`, which is `cfg1` up to unfolding plain definitions
set_option backward.isDefEq.respectTransparency.types false in
/-- THE REGION: the launch kit's layout, no semaphore of the kernel's own, the body obligation, and the four
    entailments above. -/
def reg : Pipeline.RegionSeg (pcfgs (F := F)) adm (dats (UU := UU) W) (none : HIx 1) defs₀ 𝒱₀ ((Ksc (F := F)).L (nD := nD)) (Ksc (F := F)).lev 0 where
  win := launch1.win.to₀
  block_pos := launch1.block_pos
  stage_whole := launch1.stage_whole
  K := PEmpty
  osem := fun k => k.elim
  ho := Pipeline.OwnSemFacts.none _
  hbody c := (body_obligation (UU := UU) W c).loose
  hwaits := Pipeline.hwaits_of_owed_zero _ _ _ _ _ _ 0 fun _ _ => rfl
  pre c := iprop(held (T c) (ucRefs τ sig) W ∗ owesT (F := F) (UU := UU) c)
  post c := iprop(held (T c) (ucRefs τ sig) (Vtc W) ∗ owesT (F := F) (UU := UU) c)
  X _ := iprop(emp)
  Y _ := iprop(emp)
  Z c := Pipeline.unscopedRest spec1 c (fun b => W (rr b))
  hentry c := hentry (UU := UU) W c
  hin c := hin (UU := UU) W c
  hout c := hout (UU := UU) W c
  hexit c := hexit (UU := UU) W c

end Cert.Kernel.TcRegion

end
-- ==== Proof.BTcRegion.lean ====
/- The TensorCore region's rule inside the SparseCore program, as @main applies it at the custom call: from the
   TensorCore's arrays held at a valuation, to the same arrays with the two results at the pure functions of the seven
   operands. With it the launch element of the pipeline's factor of the ghost state and what it funds. -/
import proofs.«203152_g22136261444366_cont_8to1_1253_39_alg».proof.Proof.BKFun
import proofs.«203152_g22136261444366_cont_8to1_1253_39_alg».proof.Proof.BTcRegionSeg
import proofs.«203152_g22136261444366_cont_8to1_1253_39_alg».proof.Proof.BGhostTypes
import Idealize.ShloMosaic.Lib.StableHlo.Run
import Idealize.ShloMosaic.Lib.Pipeline.Regions
import Idealize.ShloMosaic.Lib.Pipeline.Frame
import Idealize.ShloMosaic.Lib.Pipeline.Value

set_option maxRecDepth 16384

noncomputable section

namespace Cert.Kernel.TcRegion

open Cert.Kernel.Gen Cert.Kernel.TcBody Cert.Kernel.KFun
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs Dat Cfg Window BodyObligation cellOf)
open Cert.Proof.KB (Vtc tc_frame Vtc_inf Vtc_regs)

variable {F : FTy → Type} [FloatOps F]
variable {UU : Type} [URA UU]

local notation "𝕄" => MT nD τ sig (HIx 1) (Elt F) ℕ UU ℕ

/-! ## The launch element of the pipeline's factor, and what it funds -/

/-- The launch element of the pipeline's factor: its staging cells and its transfers' duty tokens. -/
def u_t : UR sig nD τ := initOf (Pipeline.cells cfgs cellOf_inj) (Pipeline.launchToks cfgs cellOf_inj)

/-- What the launch hands the TensorCore for the region: its staging cells' ghost state and duty tokens. -/
def G_t (EP : Emb (UR sig nD τ) (MT nD τ sig (HIx 1) (Elt F) ℕ UU ℕ)) (d : Dev nD) : sProp 𝕄 :=
  iprop(Pipeline.cellsGhost cfgs EP 0 d ∗ Pipeline.toksInit cfgs EP 0 d)

theorem bigSep_fin1 (Φ : Fin 1 → sProp 𝕄) : bigSep Finset.univ Φ = Φ 0 := by
  rw [show (Finset.univ : Finset (Fin 1)) = {0} from by decide, bigSep_singleton]

/-- The launch element funds every TensorCore's kit. -/
theorem fundG (EP : Emb (UR sig nD τ) (MT nD τ sig (HIx 1) (Elt F) ℕ UU ℕ)) :
    (BI.own (EP u_t) : sProp 𝕄) ⊢ iprop(|==> bigSep Finset.univ fun d : Dev nD => G_t (F := F) EP d) := by
  refine (Pipeline.fund_ghost cfgs EP cellOf_inj).trans (BI.bupd_mono ?_)
  unfold G_t
  rw [bigSep_sep', bigSep_congr fun c _ => bigSep_fin1 (fun p => Pipeline.cellsGhost cfgs EP p c),
    bigSep_congr fun c _ => bigSep_fin1 (fun p => Pipeline.toksInit cfgs EP p c)]
  exact BI.Entails.refl _

/-! ## The region's rule -/

/-- The call in the SparseCore program's signature is the pipeline program's call, lifted. -/
theorem lift_step (d : Dev nD) (Φ : PUnit → sProp 𝕄) :
    wp frame (wpE (Dp (F := F)) 𝒱₀.lift (T d) none) Set.univ (Prog.lift (.customCall (Pipeline.entry (0 : Fin 1)) ())) Φ
      ⊢ wp frame (wpE ((Ksc (F := F)).defs (Dp (F := F))) 𝒱₀.lift (T d) none) Set.univ (Prog.lift (.customCall (SparseCore.inner (Pipeline.entry 0)) ())) Φ :=
  (Ksc (F := F)).wp_liftProg (Dp (F := F)) 𝒱₀.lift (T d) Set.univ none (Prog.lift (.customCall (Pipeline.entry (0 : Fin 1)) ())) Φ

-- the library's region rule is stated over `pin pcfgs adm 0`: its arguments are found by unifying up to unfolding plain
-- definitions in a metavariable's type
set_option backward.isDefEq.respectTransparency.types false in
/-- The pipeline library's region rule at this region's record. -/
theorem region_core (EP : Emb (UR sig nD τ) (MT nD τ sig (HIx 1) (Elt F) ℕ UU ℕ)) [EP.LandsIn (upEmb : UEmb _ (MT nD τ sig (HIx 1) (Elt F) ℕ UU ℕ))]
    (d : Dev nD) (W : Valuation τ sig (Elt F)) (Φ : PUnit → sProp 𝕄) :
    iprop((iprop(boundary (T d) ∗ (held (T d) (ucRefs τ sig) (Vtc W) ∗ owesT (F := F) (UU := UU) d)) -∗ wp frame (wpE (Dp (F := F)) 𝒱₀.lift (T d) none) Set.univ (.ret ⟨⟩) Φ)
        ∗ boundary (T d) ∗ (held (T d) (ucRefs τ sig) W ∗ owesT (F := F) (UU := UU) d) ∗ levAts ((Ksc (F := F)).L (nD := nD)) (Ksc (F := F)).lev
        ∗ Pipeline.cellsGhost cfgs EP 0 d ∗ Pipeline.toksInit cfgs EP 0 d)
      ⊢ wp frame (wpE (Dp (F := F)) 𝒱₀.lift (T d) none) Set.univ (Prog.lift (.customCall (Pipeline.entry (0 : Fin 1)) ())) Φ :=
  Pipeline.RegionSeg.wp (pcfgs (F := F)) adm (dats (UU := UU) W) (none : HIx 1) cellOf_inj EP defs₀ 𝒱₀ ((Ksc (F := F)).L (nD := nD)) (Ksc (F := F)).lev
    (reg (UU := UU) W) d none (fun _ h => nomatch h) (fun x => .ret x) Φ

set_option maxHeartbeats 800000 in
/-- THE REGION'S RULE, as @main applies it at the custom call: from the cells' invariants and level facts, the
    TensorCore's state after the SparseCore call, its region boundary, every unscoped array held at a valuation, its
    free semaphores and its kit, the call runs to the same state and boundary with the arrays at the valuation after
    the region. The kit is consumed; the free semaphores are not needed again and are dropped. -/
theorem region_gen (EP : Emb (UR sig nD τ) (MT nD τ sig (HIx 1) (Elt F) ℕ UU ℕ)) [EP.LandsIn (upEmb : UEmb _ (MT nD τ sig (HIx 1) (Elt F) ℕ UU ℕ))]
    (EH : Emb (URounds (GSem nD τ sig) ℕ) (MT nD τ sig (HIx 1) (Elt F) ℕ UU ℕ))
    (P : (Ksc (F := F)).Pay (nD := nD) (Val := Elt F) (Name := ℕ) (U := UU))
    (κ : GSem nD τ sig → ℕ) (d : Dev nD) (W : Valuation τ sig (Elt F)) (Φ : PUnit → sProp 𝕄) :
    iprop((Ksc (F := F)).ctx EH P κ ∗ (Ksc (F := F)).tcSt EH d 1 ∗ boundary (T d) ∗ held (T d) (ucRefs τ sig) W ∗ (Ksc (F := F)).tcSems0 d ∗ G_t (F := F) EP d
        ∗ (((Ksc (F := F)).tcSt EH d 1 ∗ boundary (T d) ∗ held (T d) (ucRefs τ sig) (Vtc W)) -∗ Φ ⟨⟩))
      ⊢ wp frame (wpE ((Ksc (F := F)).defs (Dp (F := F))) 𝒱₀.lift (T d) none) Set.univ (Prog.lift (.customCall (SparseCore.inner (Pipeline.entry 0)) ())) Φ := by
  refine BIBase.Entails.trans ?_ (lift_step (UU := UU) d Φ)
  refine BIBase.Entails.trans ?_ (region_core (UU := UU) EP d W Φ)
  unfold SparseCore.Cfg.tcSt G_t owesT
  rw [(Ksc (F := F)).Otc_end d (le_refl 1)]
  iintro ⟨#Hctx, ⟨⟨%Wt, %hWt, HO⟩, Hrest⟩, Hb, Hheld, -, ⟨Hg, Ht⟩, Hk⟩
  ihave Hlev := (SparseCore.Cfg.ctx_levAts (K := Ksc (F := F)) (EH := EH) (P := P) κ) $$ Hctx
  isplitl [Hk Hrest]
  · iintro ⟨Hb, ⟨Hheld, HO⟩⟩
    rw [wp_ret]; imodintro
    iapply Hk
    isplitl [HO Hrest]
    · isplitl [HO]; · iexact HO
      iexact Hrest
    isplitl [Hb]; · iexact Hb
    iexact Hheld
  isplitl [Hb]; · iexact Hb
  isplitl [Hheld HO]
  · isplitl [Hheld]; · iexact Hheld
    iexists Wt; isplitr; · ipureintro; exact hWt
    iexact HO
  isplitl [Hlev]; · iexact Hlev
  isplitl [Hg]; · iexact Hg
  iexact Ht

/-! ## At the launch's ghost state -/

section Final

local notation "𝕌" => Cert.Proof.KB.UU

/-- The handshakes' rounds: the left factor. -/
abbrev EHt : Emb Cert.Proof.KB.UH (MT nD τ sig (HIx 1) (Elt F) ℕ 𝕌 ℕ) := embL
/-- The pipeline's rounds: the left of the right factor. -/
abbrev EPt : Emb (UR sig nD τ) (MT nD τ sig (HIx 1) (Elt F) ℕ 𝕌 ℕ) :=
  (Emb.inl : Emb (UR sig nD τ) (UR sig nD τ × Counters)).trans embR

instance EPt_landsIn : (EPt (F := F)).LandsIn (upEmb : UEmb _ (MT nD τ sig (HIx 1) (Elt F) ℕ 𝕌 ℕ)) := by
  unfold EPt embR; infer_instance

/-- The TensorCore's kit at the launch's ghost state. -/
abbrev Gk (d : Dev nD) : sProp (MT nD τ sig (HIx 1) (Elt F) ℕ 𝕌 ℕ) := G_t (F := F) (UU := 𝕌) (EPt (F := F)) d

/-- The launch element: the handshakes' rounds, the pipeline's, no counter. -/
def u₀ : 𝕌 := (initOf ((Ksc (F := F)).hsCells (nD := nD)) ((Ksc (F := F)).hsToks (nD := nD)), (u_t, 1))

/-- The launch element deals the handshakes' element and every TensorCore's kit. -/
theorem hu₀_t : (ownU (u₀ (F := F)) : sProp (MT nD τ sig (HIx 1) (Elt F) ℕ 𝕌 ℕ))
    ⊢ |={Set.univ}=> iprop(BI.own ((EHt (F := F)) (initOf ((Ksc (F := F)).hsCells (nD := nD)) ((Ksc (F := F)).hsToks (nD := nD)))) ∗ bigSep Finset.univ fun d : Dev nD => Gk (F := F) d) := by
  unfold u₀
  iintro Hu
  ihave H := (ownU_pair _ _) $$ Hu
  icases H with ⟨HH, HR⟩
  ihave H2 := (own_pair_emb embR u_t (1 : Counters)) $$ HR
  icases H2 with ⟨HP, -⟩
  imod (fundG (F := F) (UU := 𝕌) (EPt (F := F))) $$ HP with HG
  imodintro
  isplitl [HH]; · iexact HH
  iexact HG

/-- THE REGION'S RULE at the launch's ghost state: the hypothesis @main's proof takes for the custom call. -/
theorem region (P : (Ksc (F := F)).Pay (nD := nD) (Val := Elt F) (Name := ℕ) (U := 𝕌)) (κ : GSem nD τ sig → ℕ) (d : Dev nD)
    (W : Valuation τ sig (Elt F)) (Φ : PUnit → sProp (MT nD τ sig (HIx 1) (Elt F) ℕ 𝕌 ℕ)) :
    iprop((Ksc (F := F)).ctx (EHt (F := F)) P κ ∗ (Ksc (F := F)).tcSt (EHt (F := F)) d 1 ∗ boundary (T d) ∗ held (T d) (ucRefs τ sig) W ∗ (Ksc (F := F)).tcSems0 d ∗ Gk (F := F) d
        ∗ (((Ksc (F := F)).tcSt (EHt (F := F)) d 1 ∗ boundary (T d) ∗ held (T d) (ucRefs τ sig) (Vtc W)) -∗ Φ ⟨⟩))
      ⊢ wp frame (wpE ((Ksc (F := F)).defs (Dp (F := F))) 𝒱₀.lift (T d) none) Set.univ (Prog.lift (.customCall (SparseCore.inner (Pipeline.entry 0)) ())) Φ :=
  region_gen (F := F) (UU := 𝕌) (EPt (F := F)) (EHt (F := F)) P κ d W Φ

end Final

end Cert.Kernel.TcRegion

end
-- ==== Proof.BKRun.lean ====
/-
  The run of the whole program: the launch theorem applied to the SparseCore call's task obligation and operand
  split, @main's proof on the TensorCore, the launch element, and the reading of the final memory. Its post: every
  unscoped array of the TensorCore ends at the last valuation of @main.
-/
import proofs.«203152_g22136261444366_cont_8to1_1253_39_alg».proof.Proof.BKMain
import proofs.«203152_g22136261444366_cont_8to1_1253_39_alg».proof.Proof.KHeld
import proofs.«203152_g22136261444366_cont_8to1_1253_39_alg».proof.Proof.BKVtc
import proofs.«203152_g22136261444366_cont_8to1_1253_39_alg».proof.Proof.BScSplit
import proofs.«203152_g22136261444366_cont_8to1_1253_39_alg».proof.Proof.BScTile
import proofs.«203152_g22136261444366_cont_8to1_1253_39_alg».proof.Proof.BScOuter
import proofs.«203152_g22136261444366_cont_8to1_1253_39_alg».proof.Proof.BTcRegion

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs)

variable {F : FTy → Type} [FloatOps F]

abbrev EH : Emb UH (MT nD τ sig (HIx 1) (Elt F) ℕ UU ℕ) := embL

variable (m : (ℓ : Loc nD τ sig) → Buf (Elt F) ℓ) (ρ : Dev nD → PrngReg)

/-- What the final memory is asked: every unscoped array of device `d`'s TensorCore at the last valuation. -/
def fq (d : Dev nD) (s' : Phys nD τ sig (Elt F)) : Prop := ∀ b ∈ ucRefs τ sig, s'.mem.mem (d, b) = V5 m Sc.Vsc Vtc d b

theorem hfin (d : Dev nD) (s' : Phys nD τ sig (Elt F)) :
    iprop((FIN m Sc.Vsc Vtc d : sProp (MT nD τ sig (HIx 1) (Elt F) ℕ UU ℕ)) ∗ SI s') ⊢ (⌜fq m d s'⌝ : sProp (MT nD τ sig (HIx 1) (Elt F) ℕ UU ℕ)) :=
  Held.held_agree (T d) (ucRefs τ sig) (V5 m Sc.Vsc Vtc d) s'

/-- The post of the run. -/
def QC : PUnit × MemSt nD τ sig (Elt F) → Prop := fun r => ∀ d : Dev nD, ∀ b ∈ ucRefs τ sig, r.2.mem (d, b) = V5 m Sc.Vsc Vtc d b

section Run

theorem bigSep_emp' {I : Type} (s : Finset I) : (bigSep s fun _ => iprop(emp)) = (iprop(emp) : sProp (MT nD τ sig (HIx 1) (Elt F) ℕ UU ℕ)) := bigSep_emp_const s

/-- The launch element: the handshakes' rounds and the region's kit; the gather's tasks consume nothing of the launch's. -/
theorem hu₀ : (ownU (Cert.Kernel.TcRegion.u₀ (F := F)) : sProp (MT nD τ sig (HIx 1) (Elt F) ℕ UU ℕ))
    ⊢ |={Set.univ}=> iprop(BI.own ((EH (F := F)) (initOf (K (F := F)).hsCells (K (F := F)).hsToks)) ∗ (bigSep Finset.univ fun d : Dev nD => Cert.Kernel.TcRegion.Gk (F := F) d)
        ∗ bigSep Finset.univ fun thr : Thread nD τ => bigSep Finset.univ fun q : Fin 1 => (Sc.P (V1 m)).x q thr) := by
  iintro Hu
  imod (Cert.Kernel.TcRegion.hu₀_t (F := F)) $$ Hu with ⟨HH, HG⟩
  imodintro
  isplitl [HH]; · iexact HH
  isplitl [HG]; · iexact HG
  unfold Sc.P; dsimp only
  rw [show (bigSep Finset.univ fun _ : Thread nD τ => bigSep Finset.univ fun _ : Fin 1 => (iprop(emp) : sProp (MT nD τ sig (HIx 1) (Elt F) ℕ UU ℕ))) = iprop(emp) from by
    rw [bigSep_congr fun _ _ => bigSep_emp' _, bigSep_emp']]
  iempintro

theorem run_main [∀ e, Nonempty (Elt F e)] (hok : Sc.PreOK (V1 m)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := Sc.P (V1 m)) facts v₀
    (fun q hq => match q with | 0 => nomatch hq)
    (fun q _ => match q with | 0 => Sc.tileObl (V1 m) facts hok)
    (fun q _ => match q with | 0 => SparseCore.Cfg.VecSplit.of_plain (Sc.vecSplit (V1 m)))
    m ρ main (fun d => Cert.Kernel.TcRegion.Gk (F := F) d) (FIN m Sc.Vsc Vtc) (Cert.Kernel.TcRegion.u₀ (F := F)) (sep_elim_left.trans (hu₀ m))
    (hmain m ρ Sc.Vsc Vtc EH (Sc.P (V1 m)) (fun d => Cert.Kernel.TcRegion.Gk (F := F) d) (Sc.st_intro (V1 m)) (Sc.dn_elim (V1 m)) Sc.sc_frame
      (fun κ d Φ => Cert.Kernel.TcRegion.region (Sc.P (V1 m)) κ d (V3 m Sc.Vsc d) Φ))
    (fq m) (hfin m) (QC m) (fun _ h => h)

end Run

end Cert.Proof.KB

end
-- ==== Proof.KEval.lean ====
/-
  The contents of the TensorCore's arrays when the entry function ends, read at the twelve arrays the claims
  speak of: the ten arguments are what they were (no operation and neither call writes them); the first result is
  the dense layer's inference result of the operands the host operations prepared — the three tables viewed
  [125000, 8, 64], gathered, viewed [16384, 64]; the weight matrices transposed; the biases given a unit axis —
  and the second result is the dense layer's regulariser of the three gathered arrays, viewed as a scalar.
  Each host operation's result is its function of the contents before it at the array it writes, and the contents
  before it everywhere else; the gather call and the dense-layer call likewise.
-/
import proofs.«203152_g22136261444366_cont_8to1_1253_39_alg».proof.Proof.KOps
import proofs.«203152_g22136261444366_cont_8to1_1253_39_alg».proof.Proof.KVtc
import proofs.«203152_g22136261444366_cont_8to1_1253_39_alg».proof.Proof.ScPay
import Idealize.ShloMosaic.Lib.StableHlo.Run

noncomputable section

namespace Cert.Proof.KI

open Cert.KernelIdeal Cert.KernelIdeal.Gen

open Idealize.ShloMosaic
open Idealize.SL.Sem
open Idealize.ShloMosaic.StableHlo (reshape_result reshape_result_ne unary_result unary_result_ne devRef_ne_of_ne)
open Cert.Proof.KI.Sc (Gathered3)

variable {F : FTy → Type} [FloatOps F]
variable (m : (ℓ : Loc nD τ sig) → Buf (Elt F) ℓ) (d : Dev nD)

/-! ## After the tables' reshapes -/

theorem V1_of_ne (b : Ref sig .tc) (h0 : b ≠ main_v0) (h1 : b ≠ main_v1) (h2 : b ≠ main_v2) : V1 m d (r b) = m (d, r b) := by
  show (opT2 (F := F)).result _ (r b) = _
  rw [reshape_result_ne _ _ _ _ _ _ _ h2, reshape_result_ne _ _ _ _ _ _ _ h1, reshape_result_ne _ _ _ _ _ _ _ h0]

theorem V1_v0 : V1 m d (r main_v0) = shapeCast S125000x8x64 (m (d, r main_arg3)) shapeCasts_S1000000x64_S125000x8x64 := by
  show (opT2 (F := F)).result _ (r main_v0) = _
  rw [reshape_result_ne _ _ _ _ _ _ _ (by decide), reshape_result_ne _ _ _ _ _ _ _ (by decide), reshape_result]
  rfl

theorem V1_v1 : V1 m d (r main_v1) = shapeCast S125000x8x64 (m (d, r main_arg4)) shapeCasts_S1000000x64_S125000x8x64 := by
  show (opT2 (F := F)).result _ (r main_v1) = _
  rw [reshape_result_ne _ _ _ _ _ _ _ (by decide), reshape_result, reshape_result_ne _ _ _ _ _ _ _ (by decide)]
  rfl

theorem V1_v2 : V1 m d (r main_v2) = shapeCast S125000x8x64 (m (d, r main_arg5)) shapeCasts_S1000000x64_S125000x8x64 := by
  show (opT2 (F := F)).result _ (r main_v2) = _
  rw [reshape_result, reshape_result_ne _ _ _ _ _ _ _ (by decide), reshape_result_ne _ _ _ _ _ _ _ (by decide)]
  rfl

/-! ## After the gather call -/

theorem Vsc_of_ne (W : Valuation τ sig (Elt F)) (b : Ref sig .tc) (h0 : b ≠ main_v3_0) (h1 : b ≠ main_v3_1) (h2 : b ≠ main_v3_2) :
    Sc.Vsc W (r b) = W (r b) := by
  unfold Sc.Vsc
  rw [Function.update_of_ne (devRef_ne_of_ne h2), Function.update_of_ne (devRef_ne_of_ne h1), Function.update_of_ne (devRef_ne_of_ne h0)]

theorem Vsc_v3_0 (W : Valuation τ sig (Elt F)) : Sc.Vsc W (r main_v3_0) = Gathered3 (W (r main_v0)) (W (r main_arg0)) := by
  unfold Sc.Vsc
  rw [Function.update_of_ne (devRef_ne_of_ne (by decide)), Function.update_of_ne (devRef_ne_of_ne (by decide)), Function.update_self]

theorem Vsc_v3_1 (W : Valuation τ sig (Elt F)) : Sc.Vsc W (r main_v3_1) = Gathered3 (W (r main_v1)) (W (r main_arg1)) := by
  unfold Sc.Vsc
  rw [Function.update_of_ne (devRef_ne_of_ne (by decide)), Function.update_self]

theorem Vsc_v3_2 (W : Valuation τ sig (Elt F)) : Sc.Vsc W (r main_v3_2) = Gathered3 (W (r main_v2)) (W (r main_arg2)) := by
  unfold Sc.Vsc
  rw [Function.update_self]

/-- A gathered array as the dense layer's operand, from the launch contents of a table and an index array. -/
abbrev gat (tbl : Vec F S1000000x64 .f32) (ids : IVec S16384 32) : Vec F S16384x64 .f32 :=
  shapeCast S16384x64 (Gathered3 (shapeCast S125000x8x64 tbl shapeCasts_S1000000x64_S125000x8x64) ids)
    shapeCasts_S16384x1x64_S16384x64

/-! ## After the operands' preparation -/

theorem V3_of_ne (Vsc : Valuation τ sig (Elt F) → Valuation τ sig (Elt F)) (b : Ref sig .tc)
    (h4 : b ≠ main_v4) (h5 : b ≠ main_v5) (h6 : b ≠ main_v6) (h7 : b ≠ main_v7) (h8 : b ≠ main_v8) (h9 : b ≠ main_v9)
    (h10 : b ≠ main_v10) : V3 m Vsc d (r b) = V2 m Vsc d (r b) := by
  show (opB2 (F := F)).result _ (r b) = _
  rw [reshape_result_ne _ _ _ _ _ _ _ h10, unary_result_ne _ _ _ _ _ _ h9, reshape_result_ne _ _ _ _ _ _ _ h8, unary_result_ne _ _ _ _ _ _ h7,
    reshape_result_ne _ _ _ _ _ _ _ h6, reshape_result_ne _ _ _ _ _ _ _ h5, reshape_result_ne _ _ _ _ _ _ _ h4]

theorem V3_v4 : V3 m Sc.Vsc d (r main_v4) = gat (m (d, r main_arg3)) (m (d, r main_arg0)) := by
  show (opB2 (F := F)).result _ (r main_v4) = _
  rw [reshape_result_ne _ _ _ _ _ _ _ (by decide), unary_result_ne _ _ _ _ _ _ (by decide), reshape_result_ne _ _ _ _ _ _ _ (by decide),
    unary_result_ne _ _ _ _ _ _ (by decide), reshape_result_ne _ _ _ _ _ _ _ (by decide), reshape_result_ne _ _ _ _ _ _ _ (by decide), reshape_result]
  show shapeCast S16384x64 (Sc.Vsc (V1 m d) (r main_v3_0)) shapeCasts_S16384x1x64_S16384x64 = _
  rw [Vsc_v3_0, V1_v0, V1_of_ne m d main_arg0 (by decide) (by decide) (by decide)]

theorem V3_v5 : V3 m Sc.Vsc d (r main_v5) = gat (m (d, r main_arg4)) (m (d, r main_arg1)) := by
  show (opB2 (F := F)).result _ (r main_v5) = _
  rw [reshape_result_ne _ _ _ _ _ _ _ (by decide), unary_result_ne _ _ _ _ _ _ (by decide), reshape_result_ne _ _ _ _ _ _ _ (by decide),
    unary_result_ne _ _ _ _ _ _ (by decide), reshape_result_ne _ _ _ _ _ _ _ (by decide), reshape_result]
  show shapeCast S16384x64 ((opX0 (F := F)).result (Sc.Vsc (V1 m d)) (r main_v3_1)) shapeCasts_S16384x1x64_S16384x64 = _
  rw [reshape_result_ne _ _ _ _ _ _ _ (by decide), Vsc_v3_1, V1_v1, V1_of_ne m d main_arg1 (by decide) (by decide) (by decide)]

theorem V3_v6 : V3 m Sc.Vsc d (r main_v6) = gat (m (d, r main_arg5)) (m (d, r main_arg2)) := by
  show (opB2 (F := F)).result _ (r main_v6) = _
  rw [reshape_result_ne _ _ _ _ _ _ _ (by decide), unary_result_ne _ _ _ _ _ _ (by decide), reshape_result_ne _ _ _ _ _ _ _ (by decide),
    unary_result_ne _ _ _ _ _ _ (by decide), reshape_result]
  show shapeCast S16384x64 ((opX1 (F := F)).result ((opX0 (F := F)).result (Sc.Vsc (V1 m d))) (r main_v3_2)) shapeCasts_S16384x1x64_S16384x64 = _
  rw [reshape_result_ne _ _ _ _ _ _ _ (by decide), reshape_result_ne _ _ _ _ _ _ _ (by decide), Vsc_v3_2, V1_v2,
    V1_of_ne m d main_arg2 (by decide) (by decide) (by decide)]

/-- An argument array is untouched up to the operands' preparation. -/
theorem pre_arg (b : Ref sig .tc) (h0 : b ≠ main_v0) (h1 : b ≠ main_v1) (h2 : b ≠ main_v2)
    (h30 : b ≠ main_v3_0) (h31 : b ≠ main_v3_1) (h32 : b ≠ main_v3_2)
    (X : Valuation τ sig (Elt F)) (hX : X (r b) = Sc.Vsc (V1 m d) (r b)) : X (r b) = m (d, r b) := by
  rw [hX, Vsc_of_ne _ b h30 h31 h32, V1_of_ne m d b h0 h1 h2]

theorem V3_v7 : V3 m Sc.Vsc d (r main_v7) = transpose S192x192 [1, 0] (m (d, r main_arg6)) transposes_S192x192_S192x192_1_0 := by
  show (opB2 (F := F)).result _ (r main_v7) = _
  rw [reshape_result_ne _ _ _ _ _ _ _ (by decide), unary_result_ne _ _ _ _ _ _ (by decide), reshape_result_ne _ _ _ _ _ _ _ (by decide), unary_result]
  refine congrArg (fun x => transpose S192x192 [1, 0] x transposes_S192x192_S192x192_1_0) ?_
  refine pre_arg m d main_arg6 (by decide) (by decide) (by decide) (by decide) (by decide) (by decide) _ ?_
  rw [reshape_result_ne _ _ _ _ _ _ _ (by decide), reshape_result_ne _ _ _ _ _ _ _ (by decide), reshape_result_ne _ _ _ _ _ _ _ (by decide)]

theorem V3_v8 : V3 m Sc.Vsc d (r main_v8) = shapeCast S1x192 (m (d, r main_arg7)) shapeCasts_S192_S1x192 := by
  show (opB2 (F := F)).result _ (r main_v8) = _
  rw [reshape_result_ne _ _ _ _ _ _ _ (by decide), unary_result_ne _ _ _ _ _ _ (by decide), reshape_result]
  refine congrArg (fun x => shapeCast S1x192 x shapeCasts_S192_S1x192) ?_
  refine pre_arg m d main_arg7 (by decide) (by decide) (by decide) (by decide) (by decide) (by decide) _ ?_
  rw [unary_result_ne _ _ _ _ _ _ (by decide), reshape_result_ne _ _ _ _ _ _ _ (by decide), reshape_result_ne _ _ _ _ _ _ _ (by decide),
    reshape_result_ne _ _ _ _ _ _ _ (by decide)]

theorem V3_v9 : V3 m Sc.Vsc d (r main_v9) = transpose S192x1 [1, 0] (m (d, r main_arg8)) transposes_S1x192_S192x1_1_0 := by
  show (opB2 (F := F)).result _ (r main_v9) = _
  rw [reshape_result_ne _ _ _ _ _ _ _ (by decide), unary_result]
  refine congrArg (fun x => transpose S192x1 [1, 0] x transposes_S1x192_S192x1_1_0) ?_
  refine pre_arg m d main_arg8 (by decide) (by decide) (by decide) (by decide) (by decide) (by decide) _ ?_
  rw [reshape_result_ne _ _ _ _ _ _ _ (by decide), unary_result_ne _ _ _ _ _ _ (by decide), reshape_result_ne _ _ _ _ _ _ _ (by decide),
    reshape_result_ne _ _ _ _ _ _ _ (by decide), reshape_result_ne _ _ _ _ _ _ _ (by decide)]

theorem V3_v10 : V3 m Sc.Vsc d (r main_v10) = shapeCast S1x1 (m (d, r main_arg9)) shapeCasts_S1_S1x1 := by
  show (opB2 (F := F)).result _ (r main_v10) = _
  rw [reshape_result]
  refine congrArg (fun x => shapeCast S1x1 x shapeCasts_S1_S1x1) ?_
  refine pre_arg m d main_arg9 (by decide) (by decide) (by decide) (by decide) (by decide) (by decide) _ ?_
  rw [unary_result_ne _ _ _ _ _ _ (by decide), reshape_result_ne _ _ _ _ _ _ _ (by decide), unary_result_ne _ _ _ _ _ _ (by decide),
    reshape_result_ne _ _ _ _ _ _ _ (by decide), reshape_result_ne _ _ _ _ _ _ _ (by decide), reshape_result_ne _ _ _ _ _ _ _ (by decide)]

/-! ## When the entry function ends -/

/-- An array no operation and neither call writes ends as it started. -/
theorem V5_of_ne (b : Ref sig .tc) (h0 : b ≠ main_v0) (h1 : b ≠ main_v1) (h2 : b ≠ main_v2)
    (h30 : b ≠ main_v3_0) (h31 : b ≠ main_v3_1) (h32 : b ≠ main_v3_2)
    (h4 : b ≠ main_v4) (h5 : b ≠ main_v5) (h6 : b ≠ main_v6) (h7 : b ≠ main_v7) (h8 : b ≠ main_v8) (h9 : b ≠ main_v9)
    (h10 : b ≠ main_v10) (h110 : b ≠ main_v11_0) (h111 : b ≠ main_v11_1) (h12 : b ≠ main_v12) :
    V5 m Sc.Vsc Vtc d (r b) = m (d, r b) := by
  show (opRg (F := F)).result _ (r b) = _
  rw [reshape_result_ne _ _ _ _ _ _ _ h12]
  show Vtc (V3 m Sc.Vsc d) (r b) = _
  rw [tc_frame _ _ ⟨devRef_ne_of_ne h110, devRef_ne_of_ne h111⟩, V3_of_ne m d Sc.Vsc b h4 h5 h6 h7 h8 h9 h10]
  show Sc.Vsc (V1 m d) (r b) = _
  rw [Vsc_of_ne _ b h30 h31 h32, V1_of_ne m d b h0 h1 h2]

theorem V5_arg0 : V5 m Sc.Vsc Vtc d (r main_arg0) = m (d, r main_arg0) :=
  V5_of_ne m d main_arg0 (by decide) (by decide) (by decide) (by decide) (by decide) (by decide) (by decide) (by decide) (by decide)
    (by decide) (by decide) (by decide) (by decide) (by decide) (by decide) (by decide)
theorem V5_arg1 : V5 m Sc.Vsc Vtc d (r main_arg1) = m (d, r main_arg1) :=
  V5_of_ne m d main_arg1 (by decide) (by decide) (by decide) (by decide) (by decide) (by decide) (by decide) (by decide) (by decide)
    (by decide) (by decide) (by decide) (by decide) (by decide) (by decide) (by decide)
theorem V5_arg2 : V5 m Sc.Vsc Vtc d (r main_arg2) = m (d, r main_arg2) :=
  V5_of_ne m d main_arg2 (by decide) (by decide) (by decide) (by decide) (by decide) (by decide) (by decide) (by decide) (by decide)
    (by decide) (by decide) (by decide) (by decide) (by decide) (by decide) (by decide)
theorem V5_arg3 : V5 m Sc.Vsc Vtc d (r main_arg3) = m (d, r main_arg3) :=
  V5_of_ne m d main_arg3 (by decide) (by decide) (by decide) (by decide) (by decide) (by decide) (by decide) (by decide) (by decide)
    (by decide) (by decide) (by decide) (by decide) (by decide) (by decide) (by decide)
theorem V5_arg4 : V5 m Sc.Vsc Vtc d (r main_arg4) = m (d, r main_arg4) :=
  V5_of_ne m d main_arg4 (by decide) (by decide) (by decide) (by decide) (by decide) (by decide) (by decide) (by decide) (by decide)
    (by decide) (by decide) (by decide) (by decide) (by decide) (by decide) (by decide)
theorem V5_arg5 : V5 m Sc.Vsc Vtc d (r main_arg5) = m (d, r main_arg5) :=
  V5_of_ne m d main_arg5 (by decide) (by decide) (by decide) (by decide) (by decide) (by decide) (by decide) (by decide) (by decide)
    (by decide) (by decide) (by decide) (by decide) (by decide) (by decide) (by decide)
theorem V5_arg6 : V5 m Sc.Vsc Vtc d (r main_arg6) = m (d, r main_arg6) :=
  V5_of_ne m d main_arg6 (by decide) (by decide) (by decide) (by decide) (by decide) (by decide) (by decide) (by decide) (by decide)
    (by decide) (by decide) (by decide) (by decide) (by decide) (by decide) (by decide)
theorem V5_arg7 : V5 m Sc.Vsc Vtc d (r main_arg7) = m (d, r main_arg7) :=
  V5_of_ne m d main_arg7 (by decide) (by decide) (by decide) (by decide) (by decide) (by decide) (by decide) (by decide) (by decide)
    (by decide) (by decide) (by decide) (by decide) (by decide) (by decide) (by decide)
theorem V5_arg8 : V5 m Sc.Vsc Vtc d (r main_arg8) = m (d, r main_arg8) :=
  V5_of_ne m d main_arg8 (by decide) (by decide) (by decide) (by decide) (by decide) (by decide) (by decide) (by decide) (by decide)
    (by decide) (by decide) (by decide) (by decide) (by decide) (by decide) (by decide)
theorem V5_arg9 : V5 m Sc.Vsc Vtc d (r main_arg9) = m (d, r main_arg9) :=
  V5_of_ne m d main_arg9 (by decide) (by decide) (by decide) (by decide) (by decide) (by decide) (by decide) (by decide) (by decide)
    (by decide) (by decide) (by decide) (by decide) (by decide) (by decide) (by decide)

/-- THE FIRST RESULT when the entry function ends. -/
theorem V5_inf :
    V5 m Sc.Vsc Vtc d (r main_v11_0)
      = KFun.kInf (F := F) (gat (m (d, r main_arg3)) (m (d, r main_arg0))) (gat (m (d, r main_arg4)) (m (d, r main_arg1)))
          (gat (m (d, r main_arg5)) (m (d, r main_arg2)))
          (transpose S192x192 [1, 0] (m (d, r main_arg6)) transposes_S192x192_S192x192_1_0)
          (shapeCast S1x192 (m (d, r main_arg7)) shapeCasts_S192_S1x192)
          (transpose S192x1 [1, 0] (m (d, r main_arg8)) transposes_S1x192_S192x1_1_0)
          (shapeCast S1x1 (m (d, r main_arg9)) shapeCasts_S1_S1x1) := by
  show (opRg (F := F)).result _ (r main_v11_0) = _
  rw [reshape_result_ne _ _ _ _ _ _ _ (by decide)]
  show Vtc (V3 m Sc.Vsc d) (r main_v11_0) = _
  rw [Vtc_inf, V3_v4, V3_v5, V3_v6, V3_v7, V3_v8, V3_v9, V3_v10]

/-- THE SECOND RESULT when the entry function ends. -/
theorem V5_regs :
    V5 m Sc.Vsc Vtc d (r main_v12)
      = shapeCast S_ (KFun.kRegs (F := F) (gat (m (d, r main_arg3)) (m (d, r main_arg0))) (gat (m (d, r main_arg4)) (m (d, r main_arg1)))
          (gat (m (d, r main_arg5)) (m (d, r main_arg2)))) shapeCasts_S1x1_S_ := by
  show (opRg (F := F)).result _ (r main_v12) = _
  rw [reshape_result]
  show shapeCast S_ (Vtc (V3 m Sc.Vsc d) (r main_v11_1)) shapeCasts_S1x1_S_ = _
  rw [Vtc_regs, V3_v4, V3_v5, V3_v6]

end Cert.Proof.KI

end
-- ==== Proof.PreRanges.lean ====
/-
  The index ranges the precondition states, decoded. The precondition is one printed predicate of the ten
  argument arrays, ending in a conjunction of `all`s; its last three conjuncts say that every word of each
  of the three index arrays, read signed, lies in [0, 999999]. Here: from "the predicate is all ones" to that
  statement element by element, for any float instance (the float conjuncts are not decoded: nothing needs them),
  and its unsigned forms: such a word's unsigned value is its signed value and is below 1000000.
-/
import proofs.«203152_g22136261444366_cont_8to1_1253_39_alg».proof.Pre_input_domain
import Idealize.ShloMosaic.Lib.ReduceAll
import Idealize.ShloMosaic.Lib.ValueIdx

noncomputable section

namespace Cert.PreRanges

open Idealize.ShloMosaic Idealize.ShloMosaic.ValueIdx Cert.Pre_input_domain Cert.Pre_input_domain.Facts

/-- The rank-0 shape has one index. -/
instance subsingleton_S_ : Subsingleton S_.Idx := ⟨fun a b => funext fun d => d.elim0⟩

/-- A word in [0, 999999] signed: its unsigned value is at most 999999. -/
theorem toNat_le_of_range {w : BitVec 32} (h : 0 ≤ w.toInt ∧ w.toInt ≤ 999999) : w.toNat ≤ 999999 := by
  obtain ⟨h0, h1⟩ := h
  have hlt := w.isLt
  unfold BitVec.toInt at h0 h1
  split at h0 <;> omega

/-- … and is below the number of rows. -/
theorem toNat_lt_of_range {w : BitVec 32} (h : 0 ≤ w.toInt ∧ w.toInt ≤ 999999) : w.toNat < 1000000 :=
  Nat.lt_succ_of_le (toNat_le_of_range h)

/-- … and equals the signed value. -/
theorem toInt_eq_toNat_of_range {w : BitVec 32} (h : 0 ≤ w.toInt ∧ w.toInt ≤ 999999) : w.toInt = (w.toNat : Int) := by
  obtain ⟨h0, h1⟩ := h
  have hlt := w.isLt
  unfold BitVec.toInt at h0 h1 ⊢
  split at h0 <;> split <;> omega

variable [Cert.Pre_input_domain.Facts]

/-- One `all` of the predicate read back at an element: the array's word there is in [0, 999999] signed. -/
theorem elem (a : IVec S16384 32) (i : S16384.Idx)
    (h : Host.reduce IntOp.andi
        (andi (cmpi .sge a (broadcastInDim S16384 ![] bcast_S_S16384 (constantI S_ 32 0#32)))
          (cmpi .sle a (broadcastInDim S16384 ![] bcast_S_S16384 (constantI S_ 32 999999#32))))
        (constantI S_ 1 1#1) reducesTo_S16384_S_d0 h_S_ ix0 = 1#1) :
    0 ≤ (a i).toInt ∧ (a i).toInt ≤ 999999 := by
  have hi := Host.reduce_andi_all _ _ _ _ _ h i
  obtain ⟨h0, h1⟩ := IntOp.andi_eq_one.1 hi
  have h0' : (0#32 : BitVec 32).toInt ≤ (a i).toInt := IntOp.cmpi_sge.1 h0
  have h1' : (a i).toInt ≤ (999999#32 : BitVec 32).toInt := IntOp.cmpi_sle.1 h1
  have e0 : (0#32 : BitVec 32).toInt = 0 := by decide
  have e1 : (999999#32 : BitVec 32).toInt = 999999 := by decide
  rw [e0] at h0'
  rw [e1] at h1'
  exact ⟨h0', h1'⟩

/-- THE PRECONDITION'S INDEX RANGES: if the printed predicate of the ten arrays is all ones, every word of the
    three index arrays is in [0, 999999] signed. -/
theorem ranges {F : FTy → Type} [FloatOps F]
    (a0 a1 a2 : IVec S16384 32) (a3 a4 a5 : FVec F S1000000x64 .f32) (a6 : FVec F S192x192 .f32) (a7 : FVec F S192 .f32)
    (a8 : FVec F S1x192 .f32) (a9 : FVec F S1 .f32)
    (h : Cert.Pre_input_domain.fn (F := F) a0 a1 a2 a3 a4 a5 a6 a7 a8 a9 = fun _ => 1#1) :
    (∀ i, 0 ≤ (a0 i).toInt ∧ (a0 i).toInt ≤ 999999) ∧ (∀ i, 0 ≤ (a1 i).toInt ∧ (a1 i).toInt ≤ 999999)
      ∧ (∀ i, 0 ≤ (a2 i).toInt ∧ (a2 i).toInt ≤ 999999) := by
  have e := congrFun h ix0
  dsimp only [Cert.Pre_input_domain.fn, fn_part1, fn_part2, fn_part3] at e
  obtain ⟨e', h2⟩ := IntOp.andi_eq_one.1 e
  obtain ⟨e'', h1⟩ := IntOp.andi_eq_one.1 e'
  obtain ⟨-, h0⟩ := IntOp.andi_eq_one.1 e''
  exact ⟨fun i => elem a0 i h0, fun i => elem a1 i h1, fun i => elem a2 i h2⟩

/-- The unsigned forms, for the three arrays at once. -/
theorem toNat_ranges {F : FTy → Type} [FloatOps F]
    (a0 a1 a2 : IVec S16384 32) (a3 a4 a5 : FVec F S1000000x64 .f32) (a6 : FVec F S192x192 .f32) (a7 : FVec F S192 .f32)
    (a8 : FVec F S1x192 .f32) (a9 : FVec F S1 .f32)
    (h : Cert.Pre_input_domain.fn (F := F) a0 a1 a2 a3 a4 a5 a6 a7 a8 a9 = fun _ => 1#1) :
    (∀ i, (a0 i).toNat < 1000000) ∧ (∀ i, (a1 i).toNat < 1000000) ∧ (∀ i, (a2 i).toNat < 1000000) :=
  let r := ranges a0 a1 a2 a3 a4 a5 a6 a7 a8 a9 h
  ⟨fun i => toNat_lt_of_range (r.1 i), fun i => toNat_lt_of_range (r.2.1 i), fun i => toNat_lt_of_range (r.2.2 i)⟩

end Cert.PreRanges

end
-- ==== Proof.KClaimFrame.lean ====
/-
  The frame of the kernel's program, from its run.

  The run (a hypothesis here) says: under the index ranges, every weakly fair execution of the program's threads
  ends, and every unscoped array of each TensorCore then holds the contents the entry function's steps compute
  from the launch contents. The index ranges follow from the precondition (its last three conjuncts, read
  unsigned; the tables' reshapes leave the index arrays as they were). The ten argument arrays are written by no
  step, so they end as they started.
-/
import proofs.«203152_g22136261444366_cont_8to1_1253_39_alg».proof.Defs
import proofs.«203152_g22136261444366_cont_8to1_1253_39_alg».proof.Proof.Gen.KernelIdeal
import proofs.«203152_g22136261444366_cont_8to1_1253_39_alg».proof.Proof.Gen.Pre_input_domain
import proofs.«203152_g22136261444366_cont_8to1_1253_39_alg».proof.Proof.KOps
import proofs.«203152_g22136261444366_cont_8to1_1253_39_alg».proof.Proof.KVtc
import proofs.«203152_g22136261444366_cont_8to1_1253_39_alg».proof.Proof.KEval
import proofs.«203152_g22136261444366_cont_8to1_1253_39_alg».proof.Proof.PreRanges
import proofs.«203152_g22136261444366_cont_8to1_1253_39_alg».proof.Proof.ScPay
import Idealize.ShloMosaic.Lib.Pipeline.Frame

noncomputable section

namespace Cert.Proof.KI

open Cert.KernelIdeal Cert.KernelIdeal.Gen

open Idealize.ShloMosaic
open Idealize.SL.Sem

/-! ## The index ranges, from the precondition -/

/-- The precondition's index ranges, at the contents the gather call finds. -/
theorem preOK_of_pre {F : FTy → Type} [FloatOps F] (m : (ℓ : Loc nD τ sig) → Buf (Elt F) ℓ)
    (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = fun _ => 1#1) :
    Sc.PreOK (V1 m) := by
  intro d j
  obtain ⟨h0, h1, h2⟩ := Cert.PreRanges.toNat_ranges (F := F) _ _ _ _ _ _ _ _ _ _ (hpre d)
  rw [show V1 m d (Sc.r main_arg0) = m (d, r main_arg0) from V1_of_ne m d main_arg0 (by decide) (by decide) (by decide),
    show V1 m d (Sc.r main_arg1) = m (d, r main_arg1) from V1_of_ne m d main_arg1 (by decide) (by decide) (by decide),
    show V1 m d (Sc.r main_arg2) = m (d, r main_arg2) from V1_of_ne m d main_arg2 (by decide) (by decide) (by decide)]
  exact ⟨Nat.le_of_lt_succ (h0 j), Nat.le_of_lt_succ (h1 j), Nat.le_of_lt_succ (h2 j)⟩

/-! ## The run, as a hypothesis -/

/-- What the run of the program's threads gives: under the index ranges, every weakly fair execution ends with
    every unscoped array of each TensorCore at the entry function's last contents. -/
abbrev KernelRun (F : FTy → Type) [FloatOps F] : Prop :=
  ∀ (m : (ℓ : Loc nD τ sig) → Buf (Elt F) ℓ) (ρ : Dev nD → PrngReg) (hok : Sc.PreOK (V1 m)),
    θ_run (Cert.KernelIdeal.defs (F := F)) (Cert.KernelIdeal.threads (F := F)) ⟨m, fun _ => 0, ρ⟩
      (fun st => ∀ d : Dev nD, ∀ b ∈ Pipeline.ucRefs τ sig, st.2.mem (d, b) = V5 m Sc.Vsc Vtc d b)

/-! ## The frame -/

theorem frame_ki (hrun : KernelRun (F := Ideal)) : Cert.frame_KernelIdeal (hKernelIdeal := Cert.KernelIdeal.Gen.facts)
    (hPre_input_domain := Cert.Pre_input_domain.Gen.facts) := by
  intro m g hpre
  refine (θ_run (Cert.KernelIdeal.defs (F := Ideal)) _ _).mono ?_ (hrun m g (preOK_of_pre m hpre))
  intro st h c
  exact ⟨(h c (r main_arg0) (by decide)).trans (V5_arg0 m c),
    (h c (r main_arg1) (by decide)).trans (V5_arg1 m c),
    (h c (r main_arg2) (by decide)).trans (V5_arg2 m c),
    (h c (r main_arg3) (by decide)).trans (V5_arg3 m c),
    (h c (r main_arg4) (by decide)).trans (V5_arg4 m c),
    (h c (r main_arg5) (by decide)).trans (V5_arg5 m c),
    (h c (r main_arg6) (by decide)).trans (V5_arg6 m c),
    (h c (r main_arg7) (by decide)).trans (V5_arg7 m c),
    (h c (r main_arg8) (by decide)).trans (V5_arg8 m c),
    (h c (r main_arg9) (by decide)).trans (V5_arg9 m c)⟩

end Cert.Proof.KI

end
-- ==== Proof.BKEval.lean ====
/-
  The contents of the TensorCore's arrays when the entry function ends, read at the twelve arrays the claims
  speak of: the ten arguments are what they were (no operation and neither call writes them); the first result is
  the dense layer's inference result of the operands the host operations prepared — the three tables viewed
  [125000, 8, 64], gathered, viewed [16384, 64]; the weight matrices transposed; the biases given a unit axis —
  and the second result is the dense layer's regulariser of the three gathered arrays, viewed as a scalar.
  Each host operation's result is its function of the contents before it at the array it writes, and the contents
  before it everywhere else; the gather call and the dense-layer call likewise.
-/
import proofs.«203152_g22136261444366_cont_8to1_1253_39_alg».proof.Proof.BKOps
import proofs.«203152_g22136261444366_cont_8to1_1253_39_alg».proof.Proof.BKVtc
import proofs.«203152_g22136261444366_cont_8to1_1253_39_alg».proof.Proof.BScPay
import Idealize.ShloMosaic.Lib.StableHlo.Run

noncomputable section

namespace Cert.Proof.KB

open Cert.Kernel Cert.Kernel.Gen

open Idealize.ShloMosaic
open Idealize.SL.Sem
open Idealize.ShloMosaic.StableHlo (reshape_result reshape_result_ne unary_result unary_result_ne devRef_ne_of_ne)
open Cert.Proof.KB.Sc (Gathered3)

variable {F : FTy → Type} [FloatOps F]
variable (m : (ℓ : Loc nD τ sig) → Buf (Elt F) ℓ) (d : Dev nD)

/-! ## After the tables' reshapes -/

theorem V1_of_ne (b : Ref sig .tc) (h0 : b ≠ main_v0) (h1 : b ≠ main_v1) (h2 : b ≠ main_v2) : V1 m d (r b) = m (d, r b) := by
  show (opT2 (F := F)).result _ (r b) = _
  rw [reshape_result_ne _ _ _ _ _ _ _ h2, reshape_result_ne _ _ _ _ _ _ _ h1, reshape_result_ne _ _ _ _ _ _ _ h0]

theorem V1_v0 : V1 m d (r main_v0) = shapeCast S125000x8x64 (m (d, r main_arg3)) shapeCasts_S1000000x64_S125000x8x64 := by
  show (opT2 (F := F)).result _ (r main_v0) = _
  rw [reshape_result_ne _ _ _ _ _ _ _ (by decide), reshape_result_ne _ _ _ _ _ _ _ (by decide), reshape_result]
  rfl

theorem V1_v1 : V1 m d (r main_v1) = shapeCast S125000x8x64 (m (d, r main_arg4)) shapeCasts_S1000000x64_S125000x8x64 := by
  show (opT2 (F := F)).result _ (r main_v1) = _
  rw [reshape_result_ne _ _ _ _ _ _ _ (by decide), reshape_result, reshape_result_ne _ _ _ _ _ _ _ (by decide)]
  rfl

theorem V1_v2 : V1 m d (r main_v2) = shapeCast S125000x8x64 (m (d, r main_arg5)) shapeCasts_S1000000x64_S125000x8x64 := by
  show (opT2 (F := F)).result _ (r main_v2) = _
  rw [reshape_result, reshape_result_ne _ _ _ _ _ _ _ (by decide), reshape_result_ne _ _ _ _ _ _ _ (by decide)]
  rfl

/-! ## After the gather call -/

theorem Vsc_of_ne (W : Valuation τ sig (Elt F)) (b : Ref sig .tc) (h0 : b ≠ main_v3_0) (h1 : b ≠ main_v3_1) (h2 : b ≠ main_v3_2) :
    Sc.Vsc W (r b) = W (r b) := by
  unfold Sc.Vsc
  rw [Function.update_of_ne (devRef_ne_of_ne h2), Function.update_of_ne (devRef_ne_of_ne h1), Function.update_of_ne (devRef_ne_of_ne h0)]

theorem Vsc_v3_0 (W : Valuation τ sig (Elt F)) : Sc.Vsc W (r main_v3_0) = Gathered3 (W (r main_v0)) (W (r main_arg0)) := by
  unfold Sc.Vsc
  rw [Function.update_of_ne (devRef_ne_of_ne (by decide)), Function.update_of_ne (devRef_ne_of_ne (by decide)), Function.update_self]

theorem Vsc_v3_1 (W : Valuation τ sig (Elt F)) : Sc.Vsc W (r main_v3_1) = Gathered3 (W (r main_v1)) (W (r main_arg1)) := by
  unfold Sc.Vsc
  rw [Function.update_of_ne (devRef_ne_of_ne (by decide)), Function.update_self]

theorem Vsc_v3_2 (W : Valuation τ sig (Elt F)) : Sc.Vsc W (r main_v3_2) = Gathered3 (W (r main_v2)) (W (r main_arg2)) := by
  unfold Sc.Vsc
  rw [Function.update_self]

/-- A gathered array as the dense layer's operand, from the launch contents of a table and an index array. -/
abbrev gat (tbl : Vec F S1000000x64 .f32) (ids : IVec S16384 32) : Vec F S16384x64 .f32 :=
  shapeCast S16384x64 (Gathered3 (shapeCast S125000x8x64 tbl shapeCasts_S1000000x64_S125000x8x64) ids)
    shapeCasts_S16384x1x64_S16384x64

/-! ## After the operands' preparation -/

theorem V3_of_ne (Vsc : Valuation τ sig (Elt F) → Valuation τ sig (Elt F)) (b : Ref sig .tc)
    (h4 : b ≠ main_v4) (h5 : b ≠ main_v5) (h6 : b ≠ main_v6) (h7 : b ≠ main_v7) (h8 : b ≠ main_v8) (h9 : b ≠ main_v9)
    (h10 : b ≠ main_v10) : V3 m Vsc d (r b) = V2 m Vsc d (r b) := by
  show (opB2 (F := F)).result _ (r b) = _
  rw [reshape_result_ne _ _ _ _ _ _ _ h10, unary_result_ne _ _ _ _ _ _ h9, reshape_result_ne _ _ _ _ _ _ _ h8, unary_result_ne _ _ _ _ _ _ h7,
    reshape_result_ne _ _ _ _ _ _ _ h6, reshape_result_ne _ _ _ _ _ _ _ h5, reshape_result_ne _ _ _ _ _ _ _ h4]

theorem V3_v4 : V3 m Sc.Vsc d (r main_v4) = gat (m (d, r main_arg3)) (m (d, r main_arg0)) := by
  show (opB2 (F := F)).result _ (r main_v4) = _
  rw [reshape_result_ne _ _ _ _ _ _ _ (by decide), unary_result_ne _ _ _ _ _ _ (by decide), reshape_result_ne _ _ _ _ _ _ _ (by decide),
    unary_result_ne _ _ _ _ _ _ (by decide), reshape_result_ne _ _ _ _ _ _ _ (by decide), reshape_result_ne _ _ _ _ _ _ _ (by decide), reshape_result]
  show shapeCast S16384x64 (Sc.Vsc (V1 m d) (r main_v3_0)) shapeCasts_S16384x1x64_S16384x64 = _
  rw [Vsc_v3_0, V1_v0, V1_of_ne m d main_arg0 (by decide) (by decide) (by decide)]

theorem V3_v5 : V3 m Sc.Vsc d (r main_v5) = gat (m (d, r main_arg4)) (m (d, r main_arg1)) := by
  show (opB2 (F := F)).result _ (r main_v5) = _
  rw [reshape_result_ne _ _ _ _ _ _ _ (by decide), unary_result_ne _ _ _ _ _ _ (by decide), reshape_result_ne _ _ _ _ _ _ _ (by decide),
    unary_result_ne _ _ _ _ _ _ (by decide), reshape_result_ne _ _ _ _ _ _ _ (by decide), reshape_result]
  show shapeCast S16384x64 ((opX0 (F := F)).result (Sc.Vsc (V1 m d)) (r main_v3_1)) shapeCasts_S16384x1x64_S16384x64 = _
  rw [reshape_result_ne _ _ _ _ _ _ _ (by decide), Vsc_v3_1, V1_v1, V1_of_ne m d main_arg1 (by decide) (by decide) (by decide)]

theorem V3_v6 : V3 m Sc.Vsc d (r main_v6) = gat (m (d, r main_arg5)) (m (d, r main_arg2)) := by
  show (opB2 (F := F)).result _ (r main_v6) = _
  rw [reshape_result_ne _ _ _ _ _ _ _ (by decide), unary_result_ne _ _ _ _ _ _ (by decide), reshape_result_ne _ _ _ _ _ _ _ (by decide),
    unary_result_ne _ _ _ _ _ _ (by decide), reshape_result]
  show shapeCast S16384x64 ((opX1 (F := F)).result ((opX0 (F := F)).result (Sc.Vsc (V1 m d))) (r main_v3_2)) shapeCasts_S16384x1x64_S16384x64 = _
  rw [reshape_result_ne _ _ _ _ _ _ _ (by decide), reshape_result_ne _ _ _ _ _ _ _ (by decide), Vsc_v3_2, V1_v2,
    V1_of_ne m d main_arg2 (by decide) (by decide) (by decide)]

/-- An argument array is untouched up to the operands' preparation. -/
theorem pre_arg (b : Ref sig .tc) (h0 : b ≠ main_v0) (h1 : b ≠ main_v1) (h2 : b ≠ main_v2)
    (h30 : b ≠ main_v3_0) (h31 : b ≠ main_v3_1) (h32 : b ≠ main_v3_2)
    (X : Valuation τ sig (Elt F)) (hX : X (r b) = Sc.Vsc (V1 m d) (r b)) : X (r b) = m (d, r b) := by
  rw [hX, Vsc_of_ne _ b h30 h31 h32, V1_of_ne m d b h0 h1 h2]

theorem V3_v7 : V3 m Sc.Vsc d (r main_v7) = transpose S192x192 [1, 0] (m (d, r main_arg6)) transposes_S192x192_S192x192_1_0 := by
  show (opB2 (F := F)).result _ (r main_v7) = _
  rw [reshape_result_ne _ _ _ _ _ _ _ (by decide), unary_result_ne _ _ _ _ _ _ (by decide), reshape_result_ne _ _ _ _ _ _ _ (by decide), unary_result]
  refine congrArg (fun x => transpose S192x192 [1, 0] x transposes_S192x192_S192x192_1_0) ?_
  refine pre_arg m d main_arg6 (by decide) (by decide) (by decide) (by decide) (by decide) (by decide) _ ?_
  rw [reshape_result_ne _ _ _ _ _ _ _ (by decide), reshape_result_ne _ _ _ _ _ _ _ (by decide), reshape_result_ne _ _ _ _ _ _ _ (by decide)]

theorem V3_v8 : V3 m Sc.Vsc d (r main_v8) = shapeCast S1x192 (m (d, r main_arg7)) shapeCasts_S192_S1x192 := by
  show (opB2 (F := F)).result _ (r main_v8) = _
  rw [reshape_result_ne _ _ _ _ _ _ _ (by decide), unary_result_ne _ _ _ _ _ _ (by decide), reshape_result]
  refine congrArg (fun x => shapeCast S1x192 x shapeCasts_S192_S1x192) ?_
  refine pre_arg m d main_arg7 (by decide) (by decide) (by decide) (by decide) (by decide) (by decide) _ ?_
  rw [unary_result_ne _ _ _ _ _ _ (by decide), reshape_result_ne _ _ _ _ _ _ _ (by decide), reshape_result_ne _ _ _ _ _ _ _ (by decide),
    reshape_result_ne _ _ _ _ _ _ _ (by decide)]

theorem V3_v9 : V3 m Sc.Vsc d (r main_v9) = transpose S192x1 [1, 0] (m (d, r main_arg8)) transposes_S1x192_S192x1_1_0 := by
  show (opB2 (F := F)).result _ (r main_v9) = _
  rw [reshape_result_ne _ _ _ _ _ _ _ (by decide), unary_result]
  refine congrArg (fun x => transpose S192x1 [1, 0] x transposes_S1x192_S192x1_1_0) ?_
  refine pre_arg m d main_arg8 (by decide) (by decide) (by decide) (by decide) (by decide) (by decide) _ ?_
  rw [reshape_result_ne _ _ _ _ _ _ _ (by decide), unary_result_ne _ _ _ _ _ _ (by decide), reshape_result_ne _ _ _ _ _ _ _ (by decide),
    reshape_result_ne _ _ _ _ _ _ _ (by decide), reshape_result_ne _ _ _ _ _ _ _ (by decide)]

theorem V3_v10 : V3 m Sc.Vsc d (r main_v10) = shapeCast S1x1 (m (d, r main_arg9)) shapeCasts_S1_S1x1 := by
  show (opB2 (F := F)).result _ (r main_v10) = _
  rw [reshape_result]
  refine congrArg (fun x => shapeCast S1x1 x shapeCasts_S1_S1x1) ?_
  refine pre_arg m d main_arg9 (by decide) (by decide) (by decide) (by decide) (by decide) (by decide) _ ?_
  rw [unary_result_ne _ _ _ _ _ _ (by decide), reshape_result_ne _ _ _ _ _ _ _ (by decide), unary_result_ne _ _ _ _ _ _ (by decide),
    reshape_result_ne _ _ _ _ _ _ _ (by decide), reshape_result_ne _ _ _ _ _ _ _ (by decide), reshape_result_ne _ _ _ _ _ _ _ (by decide)]

/-! ## When the entry function ends -/

/-- An array no operation and neither call writes ends as it started. -/
theorem V5_of_ne (b : Ref sig .tc) (h0 : b ≠ main_v0) (h1 : b ≠ main_v1) (h2 : b ≠ main_v2)
    (h30 : b ≠ main_v3_0) (h31 : b ≠ main_v3_1) (h32 : b ≠ main_v3_2)
    (h4 : b ≠ main_v4) (h5 : b ≠ main_v5) (h6 : b ≠ main_v6) (h7 : b ≠ main_v7) (h8 : b ≠ main_v8) (h9 : b ≠ main_v9)
    (h10 : b ≠ main_v10) (h110 : b ≠ main_v11_0) (h111 : b ≠ main_v11_1) (h12 : b ≠ main_v12) :
    V5 m Sc.Vsc Vtc d (r b) = m (d, r b) := by
  show (opRg (F := F)).result _ (r b) = _
  rw [reshape_result_ne _ _ _ _ _ _ _ h12]
  show Vtc (V3 m Sc.Vsc d) (r b) = _
  rw [tc_frame _ _ ⟨devRef_ne_of_ne h110, devRef_ne_of_ne h111⟩, V3_of_ne m d Sc.Vsc b h4 h5 h6 h7 h8 h9 h10]
  show Sc.Vsc (V1 m d) (r b) = _
  rw [Vsc_of_ne _ b h30 h31 h32, V1_of_ne m d b h0 h1 h2]

theorem V5_arg0 : V5 m Sc.Vsc Vtc d (r main_arg0) = m (d, r main_arg0) :=
  V5_of_ne m d main_arg0 (by decide) (by decide) (by decide) (by decide) (by decide) (by decide) (by decide) (by decide) (by decide)
    (by decide) (by decide) (by decide) (by decide) (by decide) (by decide) (by decide)
theorem V5_arg1 : V5 m Sc.Vsc Vtc d (r main_arg1) = m (d, r main_arg1) :=
  V5_of_ne m d main_arg1 (by decide) (by decide) (by decide) (by decide) (by decide) (by decide) (by decide) (by decide) (by decide)
    (by decide) (by decide) (by decide) (by decide) (by decide) (by decide) (by decide)
theorem V5_arg2 : V5 m Sc.Vsc Vtc d (r main_arg2) = m (d, r main_arg2) :=
  V5_of_ne m d main_arg2 (by decide) (by decide) (by decide) (by decide) (by decide) (by decide) (by decide) (by decide) (by decide)
    (by decide) (by decide) (by decide) (by decide) (by decide) (by decide) (by decide)
theorem V5_arg3 : V5 m Sc.Vsc Vtc d (r main_arg3) = m (d, r main_arg3) :=
  V5_of_ne m d main_arg3 (by decide) (by decide) (by decide) (by decide) (by decide) (by decide) (by decide) (by decide) (by decide)
    (by decide) (by decide) (by decide) (by decide) (by decide) (by decide) (by decide)
theorem V5_arg4 : V5 m Sc.Vsc Vtc d (r main_arg4) = m (d, r main_arg4) :=
  V5_of_ne m d main_arg4 (by decide) (by decide) (by decide) (by decide) (by decide) (by decide) (by decide) (by decide) (by decide)
    (by decide) (by decide) (by decide) (by decide) (by decide) (by decide) (by decide)
theorem V5_arg5 : V5 m Sc.Vsc Vtc d (r main_arg5) = m (d, r main_arg5) :=
  V5_of_ne m d main_arg5 (by decide) (by decide) (by decide) (by decide) (by decide) (by decide) (by decide) (by decide) (by decide)
    (by decide) (by decide) (by decide) (by decide) (by decide) (by decide) (by decide)
theorem V5_arg6 : V5 m Sc.Vsc Vtc d (r main_arg6) = m (d, r main_arg6) :=
  V5_of_ne m d main_arg6 (by decide) (by decide) (by decide) (by decide) (by decide) (by decide) (by decide) (by decide) (by decide)
    (by decide) (by decide) (by decide) (by decide) (by decide) (by decide) (by decide)
theorem V5_arg7 : V5 m Sc.Vsc Vtc d (r main_arg7) = m (d, r main_arg7) :=
  V5_of_ne m d main_arg7 (by decide) (by decide) (by decide) (by decide) (by decide) (by decide) (by decide) (by decide) (by decide)
    (by decide) (by decide) (by decide) (by decide) (by decide) (by decide) (by decide)
theorem V5_arg8 : V5 m Sc.Vsc Vtc d (r main_arg8) = m (d, r main_arg8) :=
  V5_of_ne m d main_arg8 (by decide) (by decide) (by decide) (by decide) (by decide) (by decide) (by decide) (by decide) (by decide)
    (by decide) (by decide) (by decide) (by decide) (by decide) (by decide) (by decide)
theorem V5_arg9 : V5 m Sc.Vsc Vtc d (r main_arg9) = m (d, r main_arg9) :=
  V5_of_ne m d main_arg9 (by decide) (by decide) (by decide) (by decide) (by decide) (by decide) (by decide) (by decide) (by decide)
    (by decide) (by decide) (by decide) (by decide) (by decide) (by decide) (by decide)

/-- THE FIRST RESULT when the entry function ends. -/
theorem V5_inf :
    V5 m Sc.Vsc Vtc d (r main_v11_0)
      = KFun.kInf (F := F) (gat (m (d, r main_arg3)) (m (d, r main_arg0))) (gat (m (d, r main_arg4)) (m (d, r main_arg1)))
          (gat (m (d, r main_arg5)) (m (d, r main_arg2)))
          (transpose S192x192 [1, 0] (m (d, r main_arg6)) transposes_S192x192_S192x192_1_0)
          (shapeCast S1x192 (m (d, r main_arg7)) shapeCasts_S192_S1x192)
          (transpose S192x1 [1, 0] (m (d, r main_arg8)) transposes_S1x192_S192x1_1_0)
          (shapeCast S1x1 (m (d, r main_arg9)) shapeCasts_S1_S1x1) := by
  show (opRg (F := F)).result _ (r main_v11_0) = _
  rw [reshape_result_ne _ _ _ _ _ _ _ (by decide)]
  show Vtc (V3 m Sc.Vsc d) (r main_v11_0) = _
  rw [Vtc_inf, V3_v4, V3_v5, V3_v6, V3_v7, V3_v8, V3_v9, V3_v10]

/-- THE SECOND RESULT when the entry function ends. -/
theorem V5_regs :
    V5 m Sc.Vsc Vtc d (r main_v12)
      = shapeCast S_ (KFun.kRegs (F := F) (gat (m (d, r main_arg3)) (m (d, r main_arg0))) (gat (m (d, r main_arg4)) (m (d, r main_arg1)))
          (gat (m (d, r main_arg5)) (m (d, r main_arg2)))) shapeCasts_S1x1_S_ := by
  show (opRg (F := F)).result _ (r main_v12) = _
  rw [reshape_result]
  show shapeCast S_ (Vtc (V3 m Sc.Vsc d) (r main_v11_1)) shapeCasts_S1x1_S_ = _
  rw [Vtc_regs, V3_v4, V3_v5, V3_v6]

end Cert.Proof.KB

end
-- ==== Proof.BKClaimFrame.lean ====
/-
  The frame of the kernel's program, from its run.

  The run (a hypothesis here) says: under the index ranges, every weakly fair execution of the program's threads
  ends, and every unscoped array of each TensorCore then holds the contents the entry function's steps compute
  from the launch contents. The index ranges follow from the precondition (its last three conjuncts, read
  unsigned; the tables' reshapes leave the index arrays as they were). The ten argument arrays are written by no
  step, so they end as they started.
-/
import proofs.«203152_g22136261444366_cont_8to1_1253_39_alg».proof.Defs
import proofs.«203152_g22136261444366_cont_8to1_1253_39_alg».proof.Proof.Gen.Kernel
import proofs.«203152_g22136261444366_cont_8to1_1253_39_alg».proof.Proof.Gen.Pre_input_domain
import proofs.«203152_g22136261444366_cont_8to1_1253_39_alg».proof.Proof.BKOps
import proofs.«203152_g22136261444366_cont_8to1_1253_39_alg».proof.Proof.BKVtc
import proofs.«203152_g22136261444366_cont_8to1_1253_39_alg».proof.Proof.BKEval
import proofs.«203152_g22136261444366_cont_8to1_1253_39_alg».proof.Proof.PreRanges
import proofs.«203152_g22136261444366_cont_8to1_1253_39_alg».proof.Proof.BScPay
import Idealize.ShloMosaic.Lib.Pipeline.Frame

noncomputable section

namespace Cert.Proof.KB

open Cert.Kernel Cert.Kernel.Gen

open Idealize.ShloMosaic
open Idealize.SL.Sem

/-! ## The index ranges, from the precondition -/

/-- The precondition's index ranges, at the contents the gather call finds. -/
theorem preOK_of_pre {F : FTy → Type} [FloatOps F] (m : (ℓ : Loc nD τ sig) → Buf (Elt F) ℓ)
    (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = fun _ => 1#1) :
    Sc.PreOK (V1 m) := by
  intro d j
  obtain ⟨h0, h1, h2⟩ := Cert.PreRanges.toNat_ranges (F := F) _ _ _ _ _ _ _ _ _ _ (hpre d)
  rw [show V1 m d (Sc.r main_arg0) = m (d, r main_arg0) from V1_of_ne m d main_arg0 (by decide) (by decide) (by decide),
    show V1 m d (Sc.r main_arg1) = m (d, r main_arg1) from V1_of_ne m d main_arg1 (by decide) (by decide) (by decide),
    show V1 m d (Sc.r main_arg2) = m (d, r main_arg2) from V1_of_ne m d main_arg2 (by decide) (by decide) (by decide)]
  exact ⟨Nat.le_of_lt_succ (h0 j), Nat.le_of_lt_succ (h1 j), Nat.le_of_lt_succ (h2 j)⟩

/-! ## The run, as a hypothesis -/

/-- What the run of the program's threads gives: under the index ranges, every weakly fair execution ends with
    every unscoped array of each TensorCore at the entry function's last contents. -/
abbrev KernelRun (F : FTy → Type) [FloatOps F] : Prop :=
  ∀ (m : (ℓ : Loc nD τ sig) → Buf (Elt F) ℓ) (ρ : Dev nD → PrngReg) (hok : Sc.PreOK (V1 m)),
    θ_run (Cert.Kernel.defs (F := F)) (Cert.Kernel.threads (F := F)) ⟨m, fun _ => 0, ρ⟩
      (fun st => ∀ d : Dev nD, ∀ b ∈ Pipeline.ucRefs τ sig, st.2.mem (d, b) = V5 m Sc.Vsc Vtc d b)

/-! ## The frame -/

theorem frame_ki (hrun : KernelRun (F := Bits)) : Cert.frame_Kernel (hKernel := Cert.Kernel.Gen.facts)
    (hPre_input_domain := Cert.Pre_input_domain.Gen.facts) := by
  intro m g hpre
  refine (θ_run (Cert.Kernel.defs (F := Bits)) _ _).mono ?_ (hrun m g (preOK_of_pre m hpre))
  intro st h c
  exact ⟨(h c (r main_arg0) (by decide)).trans (V5_arg0 m c),
    (h c (r main_arg1) (by decide)).trans (V5_arg1 m c),
    (h c (r main_arg2) (by decide)).trans (V5_arg2 m c),
    (h c (r main_arg3) (by decide)).trans (V5_arg3 m c),
    (h c (r main_arg4) (by decide)).trans (V5_arg4 m c),
    (h c (r main_arg5) (by decide)).trans (V5_arg5 m c),
    (h c (r main_arg6) (by decide)).trans (V5_arg6 m c),
    (h c (r main_arg7) (by decide)).trans (V5_arg7 m c),
    (h c (r main_arg8) (by decide)).trans (V5_arg8 m c),
    (h c (r main_arg9) (by decide)).trans (V5_arg9 m c)⟩

end Cert.Proof.KB

end
-- ==== Proof.KValIdx.lean ====
/-
  Index algebra for the dense layer's block arithmetic, over the shapes written out and for any element type.

    * a reshape keeps the multiset of entries, so the total of a reshaped array is the total of the array;
    * the total over a one-column matrix [n, 1] is the sum down its n rows;
    * three [4096, 64] blocks laid side by side along the columns give a [4096, 192] matrix whose entry at
      (y, k) comes from the first block for k < 64, from the second for 64 ≤ k < 128 (at column k - 64), and
      from the third otherwise (at column k - 128).
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KVal

open Idealize.ShloMosaic Idealize.ShloMosaic.ValueIdx

/-- The total of a reshaped array is the total of the array: the reshape matches the two index sets one to one. -/
theorem sum_shapeCast {M : Type} [AddCommMonoid M] {s t : Shape} (x : s.Idx → M) (h : s.ShapeCasts t) :
    ∑ j : t.Idx, shapeCast t x h j = ∑ k : s.Idx, x k :=
  Equiv.sum_comp (Shape.reshapeEquiv h) x

/-- The total over a one-column matrix is the sum down its rows. -/
theorem sum_col {M : Type} [AddCommMonoid M] {n : ℕ} (f : (⟨2, ![n, 1]⟩ : Shape).Idx → M) :
    ∑ i, f i = ∑ j : Fin n, f (ix2 j (0 : Fin 1)) := by
  rw [sum_idx2]
  exact Finset.sum_congr rfl fun j _ => Fin.sum_univ_one _

/-- Three [4096, 64] blocks side by side, read at row `y`, column `k` of [4096, 192]. -/
def cat3 {α : Type} (x1 x2 x3 : (⟨2, ![4096, 64]⟩ : Shape).Idx → α) (y : Fin 4096) (k : Fin 192) : α :=
  if h : k.val < 64 then x1 (ix2 y ⟨k.val, h⟩)
  else if h2 : k.val < 128 then x2 (ix2 y ⟨k.val - 64, by omega⟩)
  else x3 (ix2 y ⟨k.val - 128, by omega⟩)

/-- The concatenation of three [4096, 64] blocks along the columns, read at `(y, k)`. -/
theorem concatenate3_apply {α : Type} (x1 x2 x3 : (⟨2, ![4096, 64]⟩ : Shape).Idx → α)
    (h : Shape.Concatenates [(⟨2, ![4096, 64]⟩ : Shape), ⟨2, ![4096, 64]⟩, ⟨2, ![4096, 64]⟩] ⟨2, ![4096, 192]⟩ 1)
    (y : Fin 4096) (k : Fin 192) :
    concatenate ⟨2, ![4096, 192]⟩ 1 [⟨⟨2, ![4096, 64]⟩, x1⟩, ⟨⟨2, ![4096, 64]⟩, x2⟩, ⟨⟨2, ![4096, 64]⟩, x3⟩] h (ix2 y k)
      = cat3 x1 x2 x3 y k := by
  unfold cat3
  split
  · next hk =>
    refine concatenate_apply_piece (t := ⟨2, ![4096, 192]⟩) (1 : Fin 2) [⟨⟨2, ![4096, 64]⟩, x1⟩, ⟨⟨2, ![4096, 64]⟩, x2⟩, ⟨⟨2, ![4096, 64]⟩, x3⟩] h (ix2 y k) 0 (show 0 < 3 by omega) ⟨2, ![4096, 64]⟩ x1 rfl rfl 0 rfl
      (ix2 y ⟨k.val, hk⟩) (fun b hb => ?_) ?_
    · match b with
      | ⟨0, _⟩ => rfl
      | ⟨1, _⟩ => exact absurd rfl hb
    · show 0 + k.val = k.val
      omega
  · next hk =>
    split
    · next hk2 =>
      refine concatenate_apply_piece (t := ⟨2, ![4096, 192]⟩) (1 : Fin 2) [⟨⟨2, ![4096, 64]⟩, x1⟩, ⟨⟨2, ![4096, 64]⟩, x2⟩, ⟨⟨2, ![4096, 64]⟩, x3⟩] h (ix2 y k) 1 (show 1 < 3 by omega) ⟨2, ![4096, 64]⟩ x2 rfl rfl 64 rfl
        (ix2 y ⟨k.val - 64, by omega⟩) (fun b hb => ?_) ?_
      · match b with
        | ⟨0, _⟩ => rfl
        | ⟨1, _⟩ => exact absurd rfl hb
      · show 64 + (k.val - 64) = k.val
        omega
    · next hk2 =>
      refine concatenate_apply_piece (t := ⟨2, ![4096, 192]⟩) (1 : Fin 2) [⟨⟨2, ![4096, 64]⟩, x1⟩, ⟨⟨2, ![4096, 64]⟩, x2⟩, ⟨⟨2, ![4096, 64]⟩, x3⟩] h (ix2 y k) 2 (show 2 < 3 by omega) ⟨2, ![4096, 64]⟩ x3 rfl rfl 128 rfl
        (ix2 y ⟨k.val - 128, by omega⟩) (fun b hb => ?_) ?_
      · match b with
        | ⟨0, _⟩ => rfl
        | ⟨1, _⟩ => exact absurd rfl hb
      · show 128 + (k.val - 128) = k.val
        omega

end Cert.KVal

end
-- ==== Proof.LibPlainDot.lean ====
/-
  A PLAIN MATRIX PRODUCT'S CONTRACTION AS A SUM OVER ITS INNER EXTENT.

  For dimension numbers of a product of an [M, K] matrix with a [K, N] matrix into [M, N] — one contracted axis, the
  left operand's second against the right operand's first, no batch axis — the contraction ranges over a rank-one
  index type of extent K. Whenever the record's operand indices at result entry (r, c) and contraction position k are
  (r, k) and (k, c) (four coordinate equations, each `rfl` for a record with literal axis lists), the contraction
      ∑ k, lhs (lhsIdx (r, c) k) * rhs (rhsIdx (r, c) k)
  is ∑ k : Fin K, lhs (r, k) * rhs (k, c). Both a vector unit's product into a zero accumulator and a host
  dot_general read as that contraction at the exact instance, so both are this sum.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The contraction of a plain product at entry `(r, c)`, re-indexed by the one contraction coordinate. -/
theorem contraction_eq_sum {M K N : Nat} (d : DotDims ⟨2, ![M, K]⟩ ⟨2, ![K, N]⟩ ⟨2, ![M, N]⟩)
    (hr : d.contr.rank = 1) (hs : d.contr.size ⟨0, by omega⟩ = K)
    (h1 : ∀ (j : (⟨2, ![M, N]⟩ : Shape).Idx) (k : d.contr.Idx), (d.lhsIdx j k 0).val = (j 0).val)
    (h2 : ∀ (j : (⟨2, ![M, N]⟩ : Shape).Idx) (k : d.contr.Idx), (d.lhsIdx j k 1).val = (k ⟨0, by omega⟩).val)
    (h3 : ∀ (j : (⟨2, ![M, N]⟩ : Shape).Idx) (k : d.contr.Idx), (d.rhsIdx j k 0).val = (k ⟨0, by omega⟩).val)
    (h4 : ∀ (j : (⟨2, ![M, N]⟩ : Shape).Idx) (k : d.contr.Idx), (d.rhsIdx j k 1).val = (j 1).val)
    (lhs : (⟨2, ![M, K]⟩ : Shape).Idx → EReal) (rhs : (⟨2, ![K, N]⟩ : Shape).Idx → EReal) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hr hs).symm]
  refine Finset.sum_congr rfl fun k _ => ?_
  have el : d.lhsIdx (ix2 r c) ((contrEquiv1 d K hr hs).symm k) = ix2 r k := by
    funext a
    refine Fin.ext ?_
    match a with
    | ⟨0, _⟩ => exact h1 _ _
    | ⟨1, _⟩ => exact (h2 _ _).trans (contrEquiv1_symm_val d K hr hs k)
  have er : d.rhsIdx (ix2 r c) ((contrEquiv1 d K hr hs).symm k) = ix2 k c := by
    funext a
    refine Fin.ext ?_
    match a with
    | ⟨0, _⟩ => exact (h3 _ _).trans (contrEquiv1_symm_val d K hr hs k)
    | ⟨1, _⟩ => exact h4 _ _
  rw [el, er]

end Idealize.ShloMosaic.PlainDot

end
-- ==== Proof.KValPay.lean ====
/-
  The dense layer's block arithmetic read at an index, at the extended reals.

  The body's stored values are pure terms of the blocks it loads. Here each is read entry by entry as a plain
  sum over a range of naturals:

    * the sum of squares of a [4096, 64] block is the total of v i * v i over the block's index set
      (the block is viewed as [1, 4096, 64] and summed over its last two axes: a reshape keeps the total);
    * the accumulator update is  previous + that total;
    * the regulariser is  0.01f * ((sqrt a + sqrt b) + sqrt c)  at its one entry;
    * the inference block at row y is
        (sum_j sigmoid((sum_k X(y,k) * W1c(k,j)) + b1(0,j)) * w2c(j)) + b2(0,0)
      with X the three loaded blocks side by side, W1c(k,j) = W(k,j) / max(sqrt(sum_k' W(k',j)^2), 1) the first
      weight matrix with every COLUMN divided by the larger of its norm and one, and
      w2c(j) = w(j,0) / max(sqrt(sum_j' w(j',0)^2), 1) the second weight column divided likewise.
  A matrix product into a zero accumulator is its contraction sum; a sum over one axis is the sum over that
  axis's coordinate; a broadcast row or scalar reads the one row or value.
-/
import proofs.«203152_g22136261444366_cont_8to1_1253_39_alg».proof.Proof.Gen.KernelIdeal.Skeleton
import proofs.«203152_g22136261444366_cont_8to1_1253_39_alg».proof.Proof.KValIdx
import proofs.«203152_g22136261444366_cont_8to1_1253_39_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KVal

open Idealize.ShloMosaic Idealize.SL.Sem Idealize.ShloMosaic.ValueIdx
open Cert.KernelIdeal Cert.KernelIdeal.Gen
open Cert.KVal

/-- The f32 word of one, as the body carries it. -/
abbrev one32 : EReal := Ideal.ofBits .f32 0x3F800000#32
/-- The f32 word nearest to 0.01, as the body carries it. -/
abbrev reg32 : EReal := Ideal.ofBits .f32 0x3C23D70A#32

/-! ## The loads' identity casts -/

theorem pay8_eq (v : FVec Ideal S4096x64 .f32) : k1_pay8 (F := Ideal) v = v := shapeCast_self v _
theorem pay9_eq (v : FVec Ideal S4096x64 .f32) : k1_pay9 (F := Ideal) v = v := shapeCast_self v _
theorem pay10_eq (v : FVec Ideal S4096x64 .f32) : k1_pay10 (F := Ideal) v = v := shapeCast_self v _

/-! ## The sums of squares -/

/-- The sum of the squares of a block, as the body forms it: the total over the block's index set. -/
def blockSq (v : FVec Ideal S4096x64 .f32) : EReal := ∑ i : S4096x64.Idx, v i * v i

/-- A total into a one-entry vector, re-laid as [1,1,1] and read at its one entry, is the total. -/
theorem total_of_block (v : FVec Ideal S4096x64 .f32) :
    extractAt ![0, 0, 0]
      (shapeCast S1x1x1
        (multiReduction (F := Ideal) .add [1, 2] S1 (shapeCast S1x4096x64 (mulf v v) shapeCasts_S4096x64_S1x4096x64) 0x00000000#32
          reduces_S1x4096x64_S1 (.inl rfl) rfl) shapeCasts_S1_S1x1x1) inpos_S1x1x1_p0_0_0
      = blockSq v := by
  refine (Ideal.multiReduction_add_total (shapeCast S1x4096x64 (mulf v v) shapeCasts_S4096x64_S1x4096x64) 0x00000000#32
    reduces_S1x4096x64_S1 (fun b => match b with | ⟨0, _⟩ => rfl) (.inl rfl) rfl _).trans ?_
  exact sum_shapeCast (mulf v v) shapeCasts_S4096x64_S1x4096x64

theorem pay1_eq (v : FVec Ideal S4096x64 .f32) : k1_pay1 (F := Ideal) v = blockSq v := total_of_block v
theorem pay2_eq (v : FVec Ideal S4096x64 .f32) : k1_pay2 (F := Ideal) v = blockSq v := total_of_block v
theorem pay3_eq (v : FVec Ideal S4096x64 .f32) : k1_pay3 (F := Ideal) v = blockSq v := total_of_block v

theorem pay4_eq (v : FVec Ideal S4096x64 .f32) (p : EReal) : k1_pay4 (F := Ideal) v p = p + blockSq v :=
  congrArg (p + ·) (pay1_eq v)
theorem pay5_eq (v : FVec Ideal S4096x64 .f32) (p : EReal) : k1_pay5 (F := Ideal) v p = p + blockSq v :=
  congrArg (p + ·) (pay2_eq v)
theorem pay6_eq (v : FVec Ideal S4096x64 .f32) (p : EReal) : k1_pay6 (F := Ideal) v p = p + blockSq v :=
  congrArg (p + ·) (pay3_eq v)

/-- The regulariser's one entry. -/
theorem pay7_apply (a b c : EReal) (i : S1x1.Idx) :
    k1_pay7 (F := Ideal) a b c i = reg32 * ((Ideal.sqrt a + Ideal.sqrt b) + Ideal.sqrt c) := rfl

/-! ## The clipped weights -/

/-- The first weight matrix with every column divided by the larger of its norm and one. -/
def clipCols (v1 : FVec Ideal S192x192 .f32) : FVec Ideal S192x192 .f32 :=
  divf v1 (broadcastTo S192x192
    (maximumf
      (sqrt (shapeCast S1x192 (multiReduction (F := Ideal) .add [0] S192 (mulf v1 v1) 0x00000000#32 reduces_S192x192_S192 (.inl rfl) rfl)
        shapeCasts_S192_S1x192))
      (broadcast S1x192 (Scalar.ofBits (F := Ideal) .f32 0x3F800000#32)))
    broadcasts_S1x192_S192x192)

theorem clipCols_apply (v1 : FVec Ideal S192x192 .f32) (k j : Fin 192) :
    clipCols v1 (ix2 k j)
      = Ideal.div (v1 (ix2 k j)) (max (Ideal.sqrt (∑ k' : Fin 192, v1 (ix2 k' j) * v1 (ix2 k' j))) one32) := by
  unfold clipCols
  refine (divf_apply _ _ _).trans (congrArg (Ideal.div (v1 (ix2 k j))) ?_)
  refine (broadcastTo_1b_ab_apply _ _ k j).trans ?_
  refine (maximumf_apply _ _ _).trans (congrArg (fun z => max (Ideal.sqrt z) one32) ?_)
  refine (shapeCast_a_1a_apply _ _ (0 : Fin 1) j).trans ?_
  refine (Ideal.multiReduction_add_single (mulf v1 v1) 0x00000000#32 reduces_S192x192_S192 (.inl rfl) rfl (ix1 j)).trans ?_
  refine Finset.sum_congr rfl fun k' _ => ?_
  have e : reduces_S192x192_S192.lift (ix1 j) k' = ix2 k' j := by
    funext a
    match a with
    | ⟨0, _⟩ => rfl
    | ⟨1, _⟩ => rfl
  exact congrArg₂ (· * ·) (congrArg v1 e) (congrArg v1 e)

/-- The second weight column divided by the larger of its norm and one. -/
def clipVec (v11 : FVec Ideal S192x1 .f32) : FVec Ideal S192x1 .f32 :=
  divf v11 (broadcast S192x1
    (Scalar.maximumf
      (Scalar.sqrt
        (extractAt ![0, 0, 0]
          (shapeCast S1x1x1
            (multiReduction (F := Ideal) .add [1, 2] S1 (shapeCast S1x192x1 (mulf v11 v11) shapeCasts_S192x1_S1x192x1) 0x00000000#32
              reduces_S1x192x1_S1 (.inl rfl) rfl) shapeCasts_S1_S1x1x1) inpos_S1x1x1_p0_0_0))
      (Scalar.ofBits (F := Ideal) .f32 0x3F800000#32)))

theorem clipVec_apply (v11 : FVec Ideal S192x1 .f32) (j : Fin 192) (u : Fin 1) :
    clipVec v11 (ix2 j u)
      = Ideal.div (v11 (ix2 j u)) (max (Ideal.sqrt (∑ j' : Fin 192, v11 (ix2 j' (0 : Fin 1)) * v11 (ix2 j' (0 : Fin 1)))) one32) := by
  unfold clipVec
  refine (divf_apply _ _ _).trans (congrArg (Ideal.div (v11 (ix2 j u))) ?_)
  refine congrArg (fun z => max (Ideal.sqrt z) one32) ?_
  refine (Ideal.multiReduction_add_total (shapeCast S1x192x1 (mulf v11 v11) shapeCasts_S192x1_S1x192x1) 0x00000000#32
    reduces_S1x192x1_S1 (fun b => match b with | ⟨0, _⟩ => rfl) (.inl rfl) rfl _).trans ?_
  refine (sum_shapeCast (mulf v11 v11) shapeCasts_S192x1_S1x192x1).trans ?_
  exact sum_col (mulf v11 v11)

/-! ## The hidden layer and the block -/

/-- The hidden layer of a block: the sigmoid of the product with the clipped first weights plus the bias row. -/
def hid (x : FVec Ideal S4096x192 .f32) (w : FVec Ideal S192x192 .f32) (b : FVec Ideal S1x192 .f32) : FVec Ideal S4096x192 .f32 :=
  logistic (addf (matmul dot_S4096x192_S192x192_S4096x192_1_0_0_1_n_n none x w (constant (F := Ideal) S4096x192 .f32 0x00000000#32))
    (broadcastTo S4096x192 b broadcasts_S1x192_S4096x192))

theorem hid_apply (x : FVec Ideal S4096x192 .f32) (w : FVec Ideal S192x192 .f32) (b : FVec Ideal S1x192 .f32) (y : Fin 4096) (j : Fin 192) :
    hid x w b (ix2 y j) = Ideal.logistic ((∑ k : Fin 192, x (ix2 y k) * w (ix2 k j)) + b (ix2 (0 : Fin 1) j)) := by
  unfold hid
  refine congrArg Ideal.logistic ?_
  refine (addf_apply _ _ _).trans ?_
  refine congrArg₂ (· + ·) ?_ (broadcastTo_1b_ab_apply _ _ y j)
  refine (Ideal.matmul_constant_zero_apply _ _ _ _ _).trans ?_
  exact PlainDot.contraction_eq_sum dot_S4096x192_S192x192_S4096x192_1_0_0_1_n_n rfl rfl
    (fun _ _ => rfl) (fun _ _ => rfl) (fun _ _ => rfl) (fun _ _ => rfl) x w y j

/-- The inference block from the loaded blocks after their identity casts. -/
def core (v1 : FVec Ideal S192x192 .f32) (v11 : FVec Ideal S192x1 .f32) (x1 x2 x3 : FVec Ideal S4096x64 .f32)
    (b1 : FVec Ideal S1x192 .f32) (b2 : FVec Ideal S1x1 .f32) : FVec Ideal S4096x1 .f32 :=
  addf (matmul dot_S4096x192_S192x1_S4096x1_1_0_0_1_n_n none
      (hid (concatenate S4096x192 1 [⟨S4096x64, x1⟩, ⟨S4096x64, x2⟩, ⟨S4096x64, x3⟩] concatenates_S4096x64_S4096x64_S4096x64_S4096x192_d1)
        (clipCols v1) b1)
      (clipVec v11) (constant (F := Ideal) S4096x1 .f32 0x00000000#32))
    (broadcastTo S4096x1 b2 broadcasts_S1x1_S4096x1)

/-- The printed payload is `core` of the loads' identity casts: the same term, its bindings substituted. -/
theorem pay11_eq_core (v0 : FVec Ideal S192x192 .f32) (v10 : FVec Ideal S192x1 .f32) (v21 v23 v25 : FVec Ideal S4096x64 .f32)
    (v29 : FVec Ideal S1x192 .f32) (v35 : FVec Ideal S1x1 .f32) :
    k1_pay11 (F := Ideal) v0 v10 v21 v23 v25 v29 v35
      = core (shapeCast S192x192 v0 shapeCasts_S192x192_S192x192) (shapeCast S192x1 v10 shapeCasts_S192x1_S192x1)
          (k1_pay8 (F := Ideal) v21) (k1_pay9 (F := Ideal) v23) (k1_pay10 (F := Ideal) v25)
          (shapeCast S1x192 v29 shapeCasts_S1x192_S1x192) (shapeCast S1x1 v35 shapeCasts_S1x1_S1x1) := rfl

theorem core_apply (v1 : FVec Ideal S192x192 .f32) (v11 : FVec Ideal S192x1 .f32) (x1 x2 x3 : FVec Ideal S4096x64 .f32)
    (b1 : FVec Ideal S1x192 .f32) (b2 : FVec Ideal S1x1 .f32) (y : Fin 4096) (u : Fin 1) :
    core v1 v11 x1 x2 x3 b1 b2 (ix2 y u)
      = (∑ j : Fin 192,
          Ideal.logistic
            ((∑ k : Fin 192, cat3 x1 x2 x3 y k
                * Ideal.div (v1 (ix2 k j)) (max (Ideal.sqrt (∑ k' : Fin 192, v1 (ix2 k' j) * v1 (ix2 k' j))) one32))
              + b1 (ix2 (0 : Fin 1) j))
          * Ideal.div (v11 (ix2 j (0 : Fin 1)))
              (max (Ideal.sqrt (∑ j' : Fin 192, v11 (ix2 j' (0 : Fin 1)) * v11 (ix2 j' (0 : Fin 1)))) one32))
        + b2 (ix2 (0 : Fin 1) (0 : Fin 1)) := by
  have hu : u = 0 := Subsingleton.elim _ _
  subst hu
  unfold core
  refine (addf_apply _ _ _).trans ?_
  refine congrArg₂ (· + ·) ?_ (broadcastTo_1b_ab_apply _ _ y (0 : Fin 1))
  refine (Ideal.matmul_constant_zero_apply _ _ _ _ _).trans ?_
  refine (PlainDot.contraction_eq_sum dot_S4096x192_S192x1_S4096x1_1_0_0_1_n_n rfl rfl
    (fun _ _ => rfl) (fun _ _ => rfl) (fun _ _ => rfl) (fun _ _ => rfl) _ _ y (0 : Fin 1)).trans ?_
  refine Finset.sum_congr rfl fun j _ => ?_
  refine congrArg₂ (· * ·) ?_ (clipVec_apply v11 j (0 : Fin 1))
  refine (hid_apply _ _ _ y j).trans ?_
  refine congrArg (fun z => Ideal.logistic (z + b1 (ix2 (0 : Fin 1) j))) ?_
  refine Finset.sum_congr rfl fun k _ => ?_
  exact congrArg₂ (· * ·) (concatenate3_apply x1 x2 x3 _ y k) (clipCols_apply v1 k j)

/-- THE INFERENCE BLOCK AT ROW `y`, as sums over the 192 hidden units and the 192 input columns. -/
theorem pay11_apply (v0 : FVec Ideal S192x192 .f32) (v10 : FVec Ideal S192x1 .f32) (v21 v23 v25 : FVec Ideal S4096x64 .f32)
    (v29 : FVec Ideal S1x192 .f32) (v35 : FVec Ideal S1x1 .f32) (y : Fin 4096) (u : Fin 1) :
    k1_pay11 (F := Ideal) v0 v10 v21 v23 v25 v29 v35 (ix2 y u)
      = (∑ j : Fin 192,
          Ideal.logistic
            ((∑ k : Fin 192, cat3 v21 v23 v25 y k
                * Ideal.div (v0 (ix2 k j)) (max (Ideal.sqrt (∑ k' : Fin 192, v0 (ix2 k' j) * v0 (ix2 k' j))) one32))
              + v29 (ix2 (0 : Fin 1) j))
          * Ideal.div (v10 (ix2 j (0 : Fin 1)))
              (max (Ideal.sqrt (∑ j' : Fin 192, v10 (ix2 j' (0 : Fin 1)) * v10 (ix2 j' (0 : Fin 1)))) one32))
        + v35 (ix2 (0 : Fin 1) (0 : Fin 1)) := by
  rw [pay11_eq_core, pay8_eq, pay9_eq, pay10_eq, shapeCast_self, shapeCast_self, shapeCast_self, shapeCast_self]
  exact core_apply v0 v10 v21 v23 v25 v29 v35 y u

end Cert.KernelIdeal.KVal

end
-- ==== Proof.KValAlg.lean ====
/-
  Two facts about the extended reals' sums and one literal, used to join the block arithmetic to the whole-array
  specification.

    * the f32 word 0x3F800000 denotes the real number one;
    * a sum over 16384 rows is the sum over four consecutive blocks of 4096 rows (row 4096 t + y is row y of
      block t): a re-indexing of a finite sum in a commutative monoid, so no finiteness is needed.
-/
import Idealize.ShloMosaic.PureOps.Ideal.Laws
import Idealize.ShloMosaic.Lib.ValueIdx

noncomputable section

open scoped BigOperators

namespace Cert.KVal

open Idealize.ShloMosaic Idealize.ShloMosaic.ValueIdx

/-- The f32 word of one denotes one. -/
theorem one32_eq_one : Ideal.ofBits .f32 0x3F800000#32 = (1 : EReal) := IdealRules.sign_bit.ideal_onePat .f32

/-- A sum over 16384 rows, block by block: four blocks of 4096 rows. -/
theorem sum_blocks {M : Type} [AddCommMonoid M] (f : Fin 16384 → M) :
    ∑ r, f r = ∑ t : Fin 4, ∑ y : Fin 4096, f ⟨y.val + 4096 * t.val, by have := y.isLt; have := t.isLt; omega⟩ := by
  have h := Equiv.sum_comp (finProdFinEquiv (m := 4) (n := 4096)) (f : Fin (4 * 4096) → M)
  rw [Fintype.sum_prod_type] at h
  exact h.symm

/-- The same with the four blocks written out, in the order an accumulator meets them. -/
theorem sum_four_blocks {M : Type} [AddCommMonoid M] (f : Fin 16384 → M) :
    ∑ r, f r
      = ((∑ y : Fin 4096, f ⟨y.val + 4096 * 0, by have := y.isLt; omega⟩
          + ∑ y : Fin 4096, f ⟨y.val + 4096 * 1, by have := y.isLt; omega⟩)
          + ∑ y : Fin 4096, f ⟨y.val + 4096 * 2, by have := y.isLt; omega⟩)
          + ∑ y : Fin 4096, f ⟨y.val + 4096 * 3, by have := y.isLt; omega⟩ := by
  rw [sum_blocks, Fin.sum_univ_four]
  rfl

end Cert.KVal

end
-- ==== Proof.KValBlk.lean ====
/-
  The blocks the dense layer's windows read off their arrays, entry by entry.

  The three gathered arrays [16384, 64] are cut in four blocks of 4096 rows, block t holding rows
  4096 t ... 4096 t + 4095: entry (y, d) of block t is entry (4096 t + y, d) of the array. The four small
  operands (both weight matrices and both biases) are one block each, the whole array, at every grid point.
  A block's coordinate in its array is the block index times the block's extent plus the coordinate inside the
  block; the block indices are decided once over the four grid points.
-/
import proofs.«203152_g22136261444366_cont_8to1_1253_39_alg».proof.Proof.KFun
import Idealize.ShloMosaic.Lib.ValueIdx
import Idealize.ShloMosaic.Lib.Pipeline.Value

noncomputable section

namespace Cert.KernelIdeal.KVal

open Idealize.ShloMosaic Idealize.SL.Sem Idealize.ShloMosaic.ValueIdx
open Cert.KernelIdeal Cert.KernelIdeal.Gen

/-! ## The block indices at the four grid points -/

theorem index_0 : ∀ t : Fin cfg1.N, win1_0.index t (0 : Fin 2) = t.val ∧ win1_0.index t (1 : Fin 2) = 0 :=
  (by decide +kernel : ∀ t : Fin grid1.N, _)
theorem index_1 : ∀ t : Fin cfg1.N, win1_1.index t (0 : Fin 2) = t.val ∧ win1_1.index t (1 : Fin 2) = 0 :=
  (by decide +kernel : ∀ t : Fin grid1.N, _)
theorem index_2 : ∀ t : Fin cfg1.N, win1_2.index t (0 : Fin 2) = t.val ∧ win1_2.index t (1 : Fin 2) = 0 :=
  (by decide +kernel : ∀ t : Fin grid1.N, _)
theorem index_3 : ∀ t : Fin cfg1.N, win1_3.index t (0 : Fin 2) = 0 ∧ win1_3.index t (1 : Fin 2) = 0 :=
  (by decide +kernel : ∀ t : Fin grid1.N, _)
theorem index_4 : ∀ t : Fin cfg1.N, win1_4.index t (0 : Fin 2) = 0 ∧ win1_4.index t (1 : Fin 2) = 0 :=
  (by decide +kernel : ∀ t : Fin grid1.N, _)
theorem index_5 : ∀ t : Fin cfg1.N, win1_5.index t (0 : Fin 2) = 0 ∧ win1_5.index t (1 : Fin 2) = 0 :=
  (by decide +kernel : ∀ t : Fin grid1.N, _)
theorem index_6 : ∀ t : Fin cfg1.N, win1_6.index t (0 : Fin 2) = 0 ∧ win1_6.index t (1 : Fin 2) = 0 :=
  (by decide +kernel : ∀ t : Fin grid1.N, _)

/-- A row of block `t` is a row of the array. -/
theorem row_lt (t : Fin cfg1.N) (y : Fin 4096) : y.val + 4096 * t.val < 16384 := by
  have h1 := t.isLt
  have h2 : cfg1.N = 4 := KFun.N4
  have h3 := y.isLt
  omega

/-! ## The gathered arrays' blocks -/

theorem blk0_apply (t : Fin cfg1.N) (A : FVec Ideal S16384x64 .f32) (y : Fin 4096) (d : Fin 64) :
    KFun.blk0 (F := Ideal) t A (ix2 y d) = A (ix2 ⟨y.val + 4096 * t.val, row_lt t y⟩ d) := by
  show A (((cfg1.win 0).blk t).view.emb (ix2 y d)) = A _
  refine congrArg A (funext fun a => Fin.ext ?_)
  match a with
  | ⟨0, _⟩ =>
    show win1_0.index t (0 : Fin 2) * 4096 + 1 * y.val = y.val + 4096 * t.val
    rw [(index_0 t).1]; omega
  | ⟨1, _⟩ =>
    show win1_0.index t (1 : Fin 2) * 64 + 1 * d.val = d.val
    rw [(index_0 t).2]; omega

theorem blk1_apply (t : Fin cfg1.N) (A : FVec Ideal S16384x64 .f32) (y : Fin 4096) (d : Fin 64) :
    KFun.blk1 (F := Ideal) t A (ix2 y d) = A (ix2 ⟨y.val + 4096 * t.val, row_lt t y⟩ d) := by
  show A (((cfg1.win 1).blk t).view.emb (ix2 y d)) = A _
  refine congrArg A (funext fun a => Fin.ext ?_)
  match a with
  | ⟨0, _⟩ =>
    show win1_1.index t (0 : Fin 2) * 4096 + 1 * y.val = y.val + 4096 * t.val
    rw [(index_1 t).1]; omega
  | ⟨1, _⟩ =>
    show win1_1.index t (1 : Fin 2) * 64 + 1 * d.val = d.val
    rw [(index_1 t).2]; omega

theorem blk2_apply (t : Fin cfg1.N) (A : FVec Ideal S16384x64 .f32) (y : Fin 4096) (d : Fin 64) :
    KFun.blk2 (F := Ideal) t A (ix2 y d) = A (ix2 ⟨y.val + 4096 * t.val, row_lt t y⟩ d) := by
  show A (((cfg1.win 2).blk t).view.emb (ix2 y d)) = A _
  refine congrArg A (funext fun a => Fin.ext ?_)
  match a with
  | ⟨0, _⟩ =>
    show win1_2.index t (0 : Fin 2) * 4096 + 1 * y.val = y.val + 4096 * t.val
    rw [(index_2 t).1]; omega
  | ⟨1, _⟩ =>
    show win1_2.index t (1 : Fin 2) * 64 + 1 * d.val = d.val
    rw [(index_2 t).2]; omega

/-! ## The small operands' one block -/

theorem blk3_eq (t : Fin cfg1.N) (A : FVec Ideal S192x192 .f32) : KFun.blk3 (F := Ideal) t A = A := by
  funext i
  show A (((cfg1.win 3).blk t).view.emb i) = A i
  refine congrArg A (funext fun a => Fin.ext ?_)
  match a with
  | ⟨0, _⟩ =>
    show win1_3.index t (0 : Fin 2) * 192 + 1 * (i 0).val = (i 0).val
    rw [(index_3 t).1]; omega
  | ⟨1, _⟩ =>
    show win1_3.index t (1 : Fin 2) * 192 + 1 * (i 1).val = (i 1).val
    rw [(index_3 t).2]; omega

theorem blk4_eq (t : Fin cfg1.N) (A : FVec Ideal S1x192 .f32) : KFun.blk4 (F := Ideal) t A = A := by
  funext i
  show A (((cfg1.win 4).blk t).view.emb i) = A i
  refine congrArg A (funext fun a => Fin.ext ?_)
  match a with
  | ⟨0, _⟩ =>
    show win1_4.index t (0 : Fin 2) * 1 + 1 * (i 0).val = (i 0).val
    rw [(index_4 t).1]; omega
  | ⟨1, _⟩ =>
    show win1_4.index t (1 : Fin 2) * 192 + 1 * (i 1).val = (i 1).val
    rw [(index_4 t).2]; omega

theorem blk5_eq (t : Fin cfg1.N) (A : FVec Ideal S192x1 .f32) : KFun.blk5 (F := Ideal) t A = A := by
  funext i
  show A (((cfg1.win 5).blk t).view.emb i) = A i
  refine congrArg A (funext fun a => Fin.ext ?_)
  match a with
  | ⟨0, _⟩ =>
    show win1_5.index t (0 : Fin 2) * 192 + 1 * (i 0).val = (i 0).val
    rw [(index_5 t).1]; omega
  | ⟨1, _⟩ =>
    show win1_5.index t (1 : Fin 2) * 1 + 1 * (i 1).val = (i 1).val
    rw [(index_5 t).2]; omega

theorem blk6_eq (t : Fin cfg1.N) (A : FVec Ideal S1x1 .f32) : KFun.blk6 (F := Ideal) t A = A := by
  funext i
  show A (((cfg1.win 6).blk t).view.emb i) = A i
  refine congrArg A (funext fun a => Fin.ext ?_)
  match a with
  | ⟨0, _⟩ =>
    show win1_6.index t (0 : Fin 2) * 1 + 1 * (i 0).val = (i 0).val
    rw [(index_6 t).1]; omega
  | ⟨1, _⟩ =>
    show win1_6.index t (1 : Fin 2) * 1 + 1 * (i 1).val = (i 1).val
    rw [(index_6 t).2]; omega

end Cert.KernelIdeal.KVal

end
-- ==== Proof.Spec.lean ====
/-
  The shared specification of this certificate: the two results as functions of the ten argument arrays,
  read at the extended reals, index by index. It mentions no program: only shapes written out, indices built
  from their coordinates, and the exact operations of the extended reals.

  Notation (r a batch row, d an embedding column, j a hidden unit, k a contracted column):
    emb T ids (r, d)      = T (ids r mod 1000000, d)
    x (r, c)              = the three embeddings side by side: columns 0-63 from (table_p, ps),
                            64-127 from (table_q, qs), 128-191 from (table_r, rs)
    rowSq W j             = 0 + sum_k W (j, k) * W (j, k)
    clip W (j, k)         = W (j, k) / max (sqrt (rowSq W j)) 1          (rows of norm above one are scaled to norm one)
    hid (r, j)            = 1 / (1 + exp (-((0 + sum_k x (r, k) * clip W1 (j, k)) + b1 j)))
    inf (r, 0)            = (0 + sum_j hid (r, j) * clip W2 (0, j)) + b2 0
    sumSq E               = 0 + sum over every index i of E i * E i
    regs                  = 0.01f * ((sqrt (sumSq emb_p) + sqrt (sumSq emb_q)) + sqrt (sumSq emb_r))
  The literals one and 0.01f stay the 32-bit words the programs carry; zero is the real zero.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The f32 word of one, as both programs carry it. -/
abbrev one32 : EReal := Ideal.ofBits .f32 0x3F800000#32
/-- The f32 word nearest to 0.01, the weight of the regulariser, as both programs carry it. -/
abbrev reg32 : EReal := Ideal.ofBits .f32 0x3C23D70A#32

/-- The table row an index word names: the word read unsigned, modulo the number of rows (the identity on
    the words the precondition admits, and total, so that no range proof is needed to state the result). -/
def rowIx (v : BitVec 32) : Fin 1000000 := ⟨v.toNat % 1000000, Nat.mod_lt _ (by decide)⟩

theorem rowIx_val (v : BitVec 32) : (rowIx v).val = v.toNat % 1000000 := rfl

theorem rowIx_of_lt (v : BitVec 32) (h : v.toNat < 1000000) : (rowIx v).val = v.toNat := Nat.mod_eq_of_lt h

/-- One embedding element: row `ids r` of the table, column `d`. -/
def embAt (tbl : FVec Ideal ⟨2, ![1000000, 64]⟩ .f32) (ids : IVec ⟨1, ![16384]⟩ 32) (r : Fin 16384) (d : Fin 64) : EReal :=
  tbl (ix2 (rowIx (ids (ix1 r))) d)

/-- The gathered embedding, [16384, 64]. -/
def emb (tbl : FVec Ideal ⟨2, ![1000000, 64]⟩ .f32) (ids : IVec ⟨1, ![16384]⟩ 32) : FVec Ideal ⟨2, ![16384, 64]⟩ .f32 :=
  fun i => embAt tbl ids ⟨(i 0).val, idx2_lt0 i⟩ ⟨(i 1).val, idx2_lt1 i⟩

theorem emb_ix2 (tbl : FVec Ideal ⟨2, ![1000000, 64]⟩ .f32) (ids : IVec ⟨1, ![16384]⟩ 32) (r : Fin 16384) (d : Fin 64) :
    emb tbl ids (ix2 r d) = embAt tbl ids r d := rfl

/-- The three embeddings side by side at row `r`, column `c` of [16384, 192]. -/
def xAt (tp tq tr : FVec Ideal ⟨2, ![1000000, 64]⟩ .f32) (ps qs rs : IVec ⟨1, ![16384]⟩ 32) (r : Fin 16384) (c : Fin 192) : EReal :=
  if h : c.val < 64 then embAt tp ps r ⟨c.val, h⟩
  else if h2 : c.val < 128 then embAt tq qs r ⟨c.val - 64, by omega⟩
  else embAt tr rs r ⟨c.val - 128, by omega⟩

/-- The squared norm of row `j` of a matrix with 192 columns, as the programs sum it: zero plus the sum. -/
def rowSq {n : Nat} (W : FVec Ideal ⟨2, ![n, 192]⟩ .f32) (j : Fin n) : EReal :=
  0 + ∑ k : Fin 192, W (ix2 j k) * W (ix2 j k)

/-- The norm-clipped weight: the entry over the larger of its row's norm and one. -/
def clip {n : Nat} (W : FVec Ideal ⟨2, ![n, 192]⟩ .f32) (j : Fin n) (k : Fin 192) : EReal :=
  Ideal.div (W (ix2 j k)) (max (Ideal.sqrt (rowSq W j)) one32)

/-- The hidden layer before the sigmoid at row `r`, unit `j`. -/
def preAt (tp tq tr : FVec Ideal ⟨2, ![1000000, 64]⟩ .f32) (ps qs rs : IVec ⟨1, ![16384]⟩ 32)
    (W1 : FVec Ideal ⟨2, ![192, 192]⟩ .f32) (b1 : FVec Ideal ⟨1, ![192]⟩ .f32) (r : Fin 16384) (j : Fin 192) : EReal :=
  (0 + ∑ k : Fin 192, xAt tp tq tr ps qs rs r k * clip W1 j k) + b1 (ix1 j)

/-- The sigmoid as both programs' values read: one over one plus the exponential of the negation. -/
def sigm (z : EReal) : EReal := Ideal.div one32 (one32 + Ideal.exp (-z))

/-- The hidden layer at row `r`, unit `j`. -/
def hidAt (tp tq tr : FVec Ideal ⟨2, ![1000000, 64]⟩ .f32) (ps qs rs : IVec ⟨1, ![16384]⟩ 32)
    (W1 : FVec Ideal ⟨2, ![192, 192]⟩ .f32) (b1 : FVec Ideal ⟨1, ![192]⟩ .f32) (r : Fin 16384) (j : Fin 192) : EReal :=
  sigm (preAt tp tq tr ps qs rs W1 b1 r j)

/-- The first result at row `r`. -/
def infAt (tp tq tr : FVec Ideal ⟨2, ![1000000, 64]⟩ .f32) (ps qs rs : IVec ⟨1, ![16384]⟩ 32)
    (W1 : FVec Ideal ⟨2, ![192, 192]⟩ .f32) (b1 : FVec Ideal ⟨1, ![192]⟩ .f32)
    (W2 : FVec Ideal ⟨2, ![1, 192]⟩ .f32) (b2 : FVec Ideal ⟨1, ![1]⟩ .f32) (r : Fin 16384) : EReal :=
  (0 + ∑ j : Fin 192, hidAt tp tq tr ps qs rs W1 b1 r j * clip W2 0 j) + b2 (ix1 0)

/-- THE FIRST RESULT, [16384, 1], of the ten arguments in the programs' order. -/
def inf (ps qs rs : IVec ⟨1, ![16384]⟩ 32) (tp tq tr : FVec Ideal ⟨2, ![1000000, 64]⟩ .f32)
    (W1 : FVec Ideal ⟨2, ![192, 192]⟩ .f32) (b1 : FVec Ideal ⟨1, ![192]⟩ .f32)
    (W2 : FVec Ideal ⟨2, ![1, 192]⟩ .f32) (b2 : FVec Ideal ⟨1, ![1]⟩ .f32) : FVec Ideal ⟨2, ![16384, 1]⟩ .f32 :=
  fun i => infAt tp tq tr ps qs rs W1 b1 W2 b2 ⟨(i 0).val, idx2_lt0 i⟩

/-- The sum of the squares of every element of an embedding, as the programs sum it: zero plus the sum. -/
def sumSq (E : FVec Ideal ⟨2, ![16384, 64]⟩ .f32) : EReal :=
  0 + ∑ i : (⟨2, ![16384, 64]⟩ : Shape).Idx, E i * E i

/-- The regulariser as a number. -/
def regsVal (ps qs rs : IVec ⟨1, ![16384]⟩ 32) (tp tq tr : FVec Ideal ⟨2, ![1000000, 64]⟩ .f32) : EReal :=
  reg32 * ((Ideal.sqrt (sumSq (emb tp ps)) + Ideal.sqrt (sumSq (emb tq qs))) + Ideal.sqrt (sumSq (emb tr rs)))

/-- THE SECOND RESULT, a scalar, of the ten arguments in the programs' order (the last four do not enter). -/
def regs (ps qs rs : IVec ⟨1, ![16384]⟩ 32) (tp tq tr : FVec Ideal ⟨2, ![1000000, 64]⟩ .f32)
    (_W1 : FVec Ideal ⟨2, ![192, 192]⟩ .f32) (_b1 : FVec Ideal ⟨1, ![192]⟩ .f32)
    (_W2 : FVec Ideal ⟨2, ![1, 192]⟩ .f32) (_b2 : FVec Ideal ⟨1, ![1]⟩ .f32) : FVec Ideal ⟨0, ![]⟩ .f32 :=
  fun _ => regsVal ps qs rs tp tq tr

end Cert.Spec

end
-- ==== Proof.KValGather.lean ====
/-
  The gathered rows are the embedding rows.

  The first kernel copies, for each batch row r, sub-row (v &&& 7) of row (v >>> 3) of the table viewed as
  [125000, 8, 64], v the r-th index word. For a word below 1000000 the shift is the quotient by 8 and the mask the
  remainder, and row-major position ((v / 8) * 8 + v % 8) * 64 + d of the [125000, 8, 64] view is position
  v * 64 + d of the [1000000, 64] table: the copied row is row v of the table. The result [16384, 1, 64] viewed
  as [16384, 64] keeps its positions, so it is the embedding array of the specification.
-/
import proofs.«203152_g22136261444366_cont_8to1_1253_39_alg».proof.Proof.ScPay
import proofs.«203152_g22136261444366_cont_8to1_1253_39_alg».proof.Proof.Spec
import Idealize.ShloMosaic.Lib.ValueIdx
import Idealize.ShloMosaic.Lib.ValueLayout
import Idealize.ShloMosaic.Lib.Pipeline.Value

noncomputable section

namespace Cert.KernelIdeal.KVal

open Idealize.ShloMosaic Idealize.ShloMosaic.ValueIdx
open Cert.KernelIdeal Cert.KernelIdeal.Gen
open Cert.Proof.KI.Sc (Gathered3 clampIdx pos_S16384 pos_S125000x8x64)

/-- A 32-bit word shifted right by three is its quotient by eight; masked with seven, its remainder. -/
theorem word_split (v : BitVec 32) : (v >>> 3).toNat = v.toNat / 8 ∧ (v &&& 7#32).toNat = v.toNat % 8 := by
  constructor
  · rw [BitVec.toNat_ushiftRight, Nat.shiftRight_eq_div_pow]
  · rw [BitVec.toNat_and]
    exact Nat.and_two_pow_sub_one_eq_mod v.toNat 3

/-- One gathered entry is the table's entry at the row the index word names. -/
theorem gathered_apply (tp : FVec Ideal S1000000x64 .f32) (ps : IVec S16384 32) (hps : ∀ i, (ps i).toNat < 1000000)
    (r : Fin 16384) (d : Fin 64) :
    shapeCast S16384x64 (Gathered3 (shapeCast S125000x8x64 tp shapeCasts_S1000000x64_S125000x8x64) ps)
        shapeCasts_S16384x1x64_S16384x64 (ix2 r d)
      = Spec.embAt tp ps r d := by
  have hcl : clampIdx S16384 pos_S16384 ![r.val] = ix1 r := by
    funext a
    match a with
    | ⟨0, _⟩ => exact Fin.ext (Nat.mod_eq_of_lt r.isLt)
  have hv : (ps (ix1 r)).toNat < 1000000 := hps _
  obtain ⟨h3, h7⟩ := word_split (ps (ix1 r))
  refine (shapeCast_apply _ shapeCasts_S16384x1x64_S16384x64 (ix2 r d) (ix3 r (0 : Fin 1) d) (by
    rw [Shape.rowMajor_val_three, Shape.rowMajor_val_two]
    show (r.val * 1 + 0) * 64 + d.val = r.val * 64 + d.val
    omega)).trans ?_
  unfold Gathered3
  show shapeCast S125000x8x64 tp shapeCasts_S1000000x64_S125000x8x64
      (clampIdx S125000x8x64 pos_S125000x8x64
        ![((ps (clampIdx S16384 pos_S16384 ![r.val])) >>> 3).toNat, ((ps (clampIdx S16384 pos_S16384 ![r.val])) &&& 7#32).toNat, d.val]) = _
  rw [hcl]
  refine (shapeCast_apply tp shapeCasts_S1000000x64_S125000x8x64 _ (ix2 (⟨(ps (ix1 r)).toNat, hv⟩ : Fin 1000000) d) (by
    rw [Shape.rowMajor_val_three, Shape.rowMajor_val_two]
    show (ps (ix1 r)).toNat * 64 + d.val
      = (((ps (ix1 r)) >>> 3).toNat % 125000 * 8 + ((ps (ix1 r)) &&& 7#32).toNat % 8) * 64 + d.val % 64
    rw [h3, h7]
    have := d.isLt
    omega)).trans ?_
  unfold Spec.embAt
  exact congrArg (fun x : Fin 1000000 => tp (ix2 x d)) (Fin.ext (Nat.mod_eq_of_lt hv).symm)

/-- The gathered array, viewed as [16384, 64], is the specification's embedding array. -/
theorem gathered_eq_emb (tp : FVec Ideal S1000000x64 .f32) (ps : IVec S16384 32) (hps : ∀ i, (ps i).toNat < 1000000) :
    shapeCast S16384x64 (Gathered3 (shapeCast S125000x8x64 tp shapeCasts_S1000000x64_S125000x8x64) ps)
        shapeCasts_S16384x1x64_S16384x64
      = Spec.emb tp ps := by
  funext i
  obtain ⟨r, d, rfl⟩ : ∃ (r : Fin 16384) (d : Fin 64), i = ix2 r d := ⟨i 0, i 1, eq_ix2 i⟩
  exact gathered_apply tp ps hps r d

end Cert.KernelIdeal.KVal

end
-- ==== Proof.KValBridge.lean ====
/-
  The dense layer's two results, block by block, are the whole-array specification.

  Inference. Row r of the result is row r mod 4096 of the block computed at grid point r / 4096; that block's
  row reads the three gathered arrays at row 4096 (r / 4096) + r mod 4096 = r, the first weight matrix transposed
  (so that its COLUMN norms are the rows' norms of the matrix the specification clips), the biases re-laid with a
  unit axis, and the sigmoid as one over one plus the exponential of the negation: the same sums as the
  specification's, which writes a zero in front of each sum and the word of one for the real one.

  Regulariser. Each accumulator word is the first block's sum of squares plus the three later blocks' sums: the
  sum over the 16384 rows cut in four runs of 4096. Only commutativity and associativity of the extended reals'
  addition are used, so no finiteness is needed.
-/
import proofs.«203152_g22136261444366_cont_8to1_1253_39_alg».proof.Proof.KValPay
import proofs.«203152_g22136261444366_cont_8to1_1253_39_alg».proof.Proof.KValAlg
import proofs.«203152_g22136261444366_cont_8to1_1253_39_alg».proof.Proof.KValBlk
import proofs.«203152_g22136261444366_cont_8to1_1253_39_alg».proof.Proof.KValGather
import proofs.«203152_g22136261444366_cont_8to1_1253_39_alg».proof.Proof.KFun
import proofs.«203152_g22136261444366_cont_8to1_1253_39_alg».proof.Proof.Spec

noncomputable section

open scoped BigOperators

namespace Cert.KernelIdeal.KVal

open Idealize.ShloMosaic Idealize.SL.Sem Idealize.ShloMosaic.ValueIdx
open Cert.KernelIdeal Cert.KernelIdeal.Gen
open Cert.KVal
open Cert.Proof.KI.Sc (Gathered3)

/-! ## Small agreements of spelling -/

/-- The specification's sigmoid, written with the word of one, is the sigmoid. -/
theorem sigm_eq (z : EReal) : Spec.sigm z = Ideal.logistic z := by
  show Ideal.div (Ideal.ofBits .f32 0x3F800000#32) (Ideal.ofBits .f32 0x3F800000#32 + Ideal.exp (-z))
    = Ideal.div 1 (1 + Ideal.exp (-z))
  rw [one32_eq_one]

/-- A weight read through its transpose and divided by the larger of its column's norm and one is the
    specification's clipped weight (whose norm runs along the row). -/
theorem clip_eq {n : ℕ} (W : FVec Ideal ⟨2, ![n, 192]⟩ .f32) (A : (⟨2, ![192, n]⟩ : Shape).Idx → EReal)
    (hA : ∀ (k : Fin 192) (j : Fin n), A (ix2 k j) = W (ix2 j k)) (j : Fin n) (k : Fin 192) :
    Ideal.div (A (ix2 k j)) (max (Ideal.sqrt (∑ k' : Fin 192, A (ix2 k' j) * A (ix2 k' j))) one32) = Spec.clip W j k := by
  have hs : ∑ k' : Fin 192, A (ix2 k' j) * A (ix2 k' j) = ∑ k' : Fin 192, W (ix2 j k') * W (ix2 j k') :=
    Finset.sum_congr rfl fun k' _ => by rw [hA k' j]
  unfold Spec.clip Spec.rowSq
  rw [hs, hA k j, zero_add]

/-- The three blocks side by side at a block row are the three embeddings side by side at the array row. -/
theorem cat3_eq_xAt (tp tq tr : FVec Ideal S1000000x64 .f32) (ps qs rs : IVec S16384 32)
    (t : Fin cfg1.N) (y : Fin 4096) (r : Fin 16384) (hr : y.val + 4096 * t.val = r.val) (k : Fin 192) :
    cat3 (KFun.blk0 (F := Ideal) t (Spec.emb tp ps)) (KFun.blk1 (F := Ideal) t (Spec.emb tq qs))
        (KFun.blk2 (F := Ideal) t (Spec.emb tr rs)) y k
      = Spec.xAt tp tq tr ps qs rs r k := by
  have hrow : (⟨y.val + 4096 * t.val, row_lt t y⟩ : Fin 16384) = r := Fin.ext hr
  unfold cat3 Spec.xAt
  by_cases h : k.val < 64
  · simp only [dif_pos h]
    refine (blk0_apply t _ y _).trans ?_
    rw [hrow]; rfl
  · by_cases h2 : k.val < 128
    · simp only [dif_neg h, dif_pos h2]
      refine (blk1_apply t _ y _).trans ?_
      rw [hrow]; rfl
    · simp only [dif_neg h, dif_neg h2]
      refine (blk2_apply t _ y _).trans ?_
      rw [hrow]; rfl

/-! ## The inference result -/

/-- The inference result over operands given by what they read at an index. -/
theorem inf_core (ps qs rs : IVec S16384 32) (tp tq tr : FVec Ideal S1000000x64 .f32)
    (W1 : FVec Ideal S192x192 .f32) (b1 : FVec Ideal S192 .f32) (W2 : FVec Ideal S1x192 .f32) (b2 : FVec Ideal S1 .f32)
    (A7 : FVec Ideal S192x192 .f32) (A8 : FVec Ideal S1x192 .f32) (A9 : FVec Ideal S192x1 .f32) (A10 : FVec Ideal S1x1 .f32)
    (hA7 : ∀ (k j : Fin 192), A7 (ix2 k j) = W1 (ix2 j k))
    (hA8 : ∀ j : Fin 192, A8 (ix2 (0 : Fin 1) j) = b1 (ix1 j))
    (hA9 : ∀ (k : Fin 192) (j : Fin 1), A9 (ix2 k j) = W2 (ix2 j k))
    (hA10 : A10 (ix2 (0 : Fin 1) (0 : Fin 1)) = b2 (ix1 (0 : Fin 1))) :
    KFun.kInf (F := Ideal) (Spec.emb tp ps) (Spec.emb tq qs) (Spec.emb tr rs) A7 A8 A9 A10
      = Spec.inf ps qs rs tp tq tr W1 b1 W2 b2 := by
  funext i
  obtain ⟨r, u, rfl⟩ : ∃ (r : Fin 16384) (u : Fin 1), i = ix2 r u := ⟨i 0, i 1, eq_ix2 i⟩
  have hu : u = 0 := Subsingleton.elim _ _
  subst hu
  have hy : r.val % 4096 < 4096 := Nat.mod_lt _ (by decide)
  have hrow : KFun.rowIn (ix2 r (0 : Fin 1)) = ix2 (⟨r.val % 4096, hy⟩ : Fin 4096) (0 : Fin 1) := by
    funext a
    match a with
    | ⟨0, _⟩ => rfl
    | ⟨1, _⟩ => rfl
  show KFun.infBlk (F := Ideal) (KFun.ptOf (ix2 r (0 : Fin 1))) (Spec.emb tp ps) (Spec.emb tq qs) (Spec.emb tr rs) A7 A8 A9 A10
      (KFun.rowIn (ix2 r (0 : Fin 1)))
    = Spec.infAt tp tq tr ps qs rs W1 b1 W2 b2 r
  rw [hrow]
  unfold KFun.infBlk
  rw [pay11_apply, blk3_eq, blk4_eq, blk5_eq, blk6_eq]
  unfold Spec.infAt
  refine congrArg₂ (· + ·) ?_ hA10
  refine Eq.trans ?_ (zero_add _).symm
  refine Finset.sum_congr rfl fun j _ => ?_
  refine congrArg₂ (· * ·) ?_ (clip_eq W2 A9 hA9 (0 : Fin 1) j)
  unfold Spec.hidAt Spec.preAt
  rw [sigm_eq]
  refine congrArg Ideal.logistic ?_
  refine congrArg₂ (· + ·) ?_ (hA8 j)
  refine Eq.trans ?_ (zero_add _).symm
  refine Finset.sum_congr rfl fun k _ => ?_
  exact congrArg₂ (· * ·)
    (cat3_eq_xAt tp tq tr ps qs rs (KFun.ptOf (ix2 r (0 : Fin 1))) ⟨r.val % 4096, hy⟩ r (Nat.mod_add_div r.val 4096) k)
    (clip_eq W1 A7 hA7 j k)

/-! ## The regulariser -/

/-- The four blocks' sums of squares, added in the accumulator's order, are the array's sum of squares. -/
theorem acc_eq (A : FVec Ideal S16384x64 .f32) (blk : Fin cfg1.N → FVec Ideal S4096x64 .f32)
    (hblk : ∀ t y d, blk t (ix2 y d) = A (ix2 ⟨y.val + 4096 * t.val, row_lt t y⟩ d)) :
    ((blockSq (blk (KFun.pt 0)) + blockSq (blk (KFun.pt 1))) + blockSq (blk (KFun.pt 2))) + blockSq (blk (KFun.pt 3))
      = Spec.sumSq A := by
  have hb : ∀ t, blockSq (blk t)
      = ∑ y : Fin 4096, ∑ d : Fin 64, A (ix2 ⟨y.val + 4096 * t.val, row_lt t y⟩ d) * A (ix2 ⟨y.val + 4096 * t.val, row_lt t y⟩ d) :=
    fun t => by
      unfold blockSq
      rw [sum_idx2]
      exact Finset.sum_congr rfl fun y _ => Finset.sum_congr rfl fun d _ => by rw [hblk]
  unfold Spec.sumSq
  rw [zero_add, sum_idx2, sum_four_blocks, hb, hb, hb, hb]

theorem accP_eq (A : FVec Ideal S16384x64 .f32) : KFun.accP (F := Ideal) A = Spec.sumSq A := by
  unfold KFun.accP
  rw [pay4_eq, pay4_eq, pay4_eq, pay1_eq, pay8_eq, pay8_eq, pay8_eq, pay8_eq]
  exact acc_eq A (fun t => KFun.blk0 (F := Ideal) t A) (fun t y d => blk0_apply t A y d)

theorem accQ_eq (A : FVec Ideal S16384x64 .f32) : KFun.accQ (F := Ideal) A = Spec.sumSq A := by
  unfold KFun.accQ
  rw [pay5_eq, pay5_eq, pay5_eq, pay2_eq, pay9_eq, pay9_eq, pay9_eq, pay9_eq]
  exact acc_eq A (fun t => KFun.blk1 (F := Ideal) t A) (fun t y d => blk1_apply t A y d)

theorem accR_eq (A : FVec Ideal S16384x64 .f32) : KFun.accR (F := Ideal) A = Spec.sumSq A := by
  unfold KFun.accR
  rw [pay6_eq, pay6_eq, pay6_eq, pay3_eq, pay10_eq, pay10_eq, pay10_eq, pay10_eq]
  exact acc_eq A (fun t => KFun.blk2 (F := Ideal) t A) (fun t y d => blk2_apply t A y d)

/-- The regulariser's one entry. -/
theorem regs_core (ps qs rs : IVec S16384 32) (tp tq tr : FVec Ideal S1000000x64 .f32) (i : S1x1.Idx) :
    KFun.kRegs (F := Ideal) (Spec.emb tp ps) (Spec.emb tq qs) (Spec.emb tr rs) i = Spec.regsVal ps qs rs tp tq tr := by
  unfold KFun.kRegs Spec.regsVal
  rw [pay7_apply, accP_eq, accQ_eq, accR_eq]

/-! ## The two results over the program's own operand terms -/

section Concrete
variable (ps qs rs : IVec S16384 32) (tp tq tr : FVec Ideal S1000000x64 .f32)
  (W1 : FVec Ideal S192x192 .f32) (b1 : FVec Ideal S192 .f32) (W2 : FVec Ideal S1x192 .f32) (b2 : FVec Ideal S1 .f32)

/-- A gathered array as the region's operand: the table viewed [125000, 8, 64], gathered, viewed [16384, 64]. -/
abbrev opGather (tbl : FVec Ideal S1000000x64 .f32) (ids : IVec S16384 32) : FVec Ideal S16384x64 .f32 :=
  shapeCast S16384x64 (Gathered3 (shapeCast S125000x8x64 tbl shapeCasts_S1000000x64_S125000x8x64) ids)
    shapeCasts_S16384x1x64_S16384x64
/-- The first weight matrix transposed. -/
abbrev opW1t : FVec Ideal S192x192 .f32 := transpose S192x192 [1, 0] W1 transposes_S192x192_S192x192_1_0
/-- The first bias as a row. -/
abbrev opB1 : FVec Ideal S1x192 .f32 := shapeCast S1x192 b1 shapeCasts_S192_S1x192
/-- The second weight row transposed to a column. -/
abbrev opW2t : FVec Ideal S192x1 .f32 := transpose S192x1 [1, 0] W2 transposes_S1x192_S192x1_1_0
/-- The second bias as a one-by-one matrix. -/
abbrev opB2 : FVec Ideal S1x1 .f32 := shapeCast S1x1 b2 shapeCasts_S1_S1x1

/-- THE INFERENCE RESULT of the region over the program's operands is the specification's. -/
theorem inf_eq (hps : ∀ i, (ps i).toNat < 1000000) (hqs : ∀ i, (qs i).toNat < 1000000) (hrs : ∀ i, (rs i).toNat < 1000000) :
    KFun.kInf (F := Ideal) (opGather tp ps) (opGather tq qs) (opGather tr rs) (opW1t W1) (opB1 b1) (opW2t W2) (opB2 b2)
      = Spec.inf ps qs rs tp tq tr W1 b1 W2 b2 := by
  rw [show opGather tp ps = Spec.emb tp ps from gathered_eq_emb tp ps hps,
    show opGather tq qs = Spec.emb tq qs from gathered_eq_emb tq qs hqs,
    show opGather tr rs = Spec.emb tr rs from gathered_eq_emb tr rs hrs]
  exact inf_core ps qs rs tp tq tr W1 b1 W2 b2 (opW1t W1) (opB1 b1) (opW2t W2) (opB2 b2)
    (fun k j => transpose_ix2_apply W1 transposes_S192x192_S192x192_1_0 k j)
    (fun j => shapeCast_a_1a_apply b1 shapeCasts_S192_S1x192 (0 : Fin 1) j)
    (fun k j => transpose_ix2_apply W2 transposes_S1x192_S192x1_1_0 k j)
    (shapeCast_a_1a_apply b2 shapeCasts_S1_S1x1 (0 : Fin 1) (0 : Fin 1))

/-- THE REGULARISER of the region over the program's operands, viewed as a scalar, is the specification's. -/
theorem regs_eq (hps : ∀ i, (ps i).toNat < 1000000) (hqs : ∀ i, (qs i).toNat < 1000000) (hrs : ∀ i, (rs i).toNat < 1000000) :
    shapeCast S_ (KFun.kRegs (F := Ideal) (opGather tp ps) (opGather tq qs) (opGather tr rs)) shapeCasts_S1x1_S_
      = Spec.regs ps qs rs tp tq tr W1 b1 W2 b2 := by
  rw [show opGather tp ps = Spec.emb tp ps from gathered_eq_emb tp ps hps,
    show opGather tq qs = Spec.emb tq qs from gathered_eq_emb tq qs hqs,
    show opGather tr rs = Spec.emb tr rs from gathered_eq_emb tr rs hrs]
  funext i
  exact regs_core ps qs rs tp tq tr _

end Concrete

end Cert.KernelIdeal.KVal

end
-- ==== Proof.KClaimAlg.lean ====
/-
  The value claim between the idealized kernel and the idealized reference, from their two runs.

  The kernel's run leaves its two result arrays at the dense layer's two results of the operands the host
  operations prepared; under the index ranges those are the specification's two functions of the ten arguments
  (the gathered rows are the embedding rows; the four blocks' sums add up to the whole sums). The reference's
  run leaves its two results at the same two functions of its own arguments, and the two programs' arguments
  agree, so the results are equal, element by element; the arguments of both end unchanged.
-/
import proofs.«203152_g22136261444366_cont_8to1_1253_39_alg».proof.Defs
import proofs.«203152_g22136261444366_cont_8to1_1253_39_alg».proof.Proof.Gen.ReferenceIdeal
import proofs.«203152_g22136261444366_cont_8to1_1253_39_alg».proof.Proof.KClaimFrame
import proofs.«203152_g22136261444366_cont_8to1_1253_39_alg».proof.Proof.KValBridge
import proofs.«203152_g22136261444366_cont_8to1_1253_39_alg».proof.Proof.Spec

noncomputable section

namespace Cert.Proof.KI

open Cert.KernelIdeal Cert.KernelIdeal.Gen

open Idealize.ShloMosaic
open Idealize.SL.Sem

/-- What the reference's run gives: under the precondition its two results are the specification's functions of
    its ten arguments, and the arguments are unchanged. -/
abbrev RefRunSpec : Prop :=
  ∀ (m : (ℓ : Loc Cert.ReferenceIdeal.nD Cert.ReferenceIdeal.τ Cert.ReferenceIdeal.sig) → Buf (Elt Ideal) ℓ) (ρ : Dev Cert.ReferenceIdeal.nD → PrngReg)
    (hpre : Cert.Pre_ReferenceIdeal (hPre_input_domain := Cert.Pre_input_domain.Gen.facts) m),

    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v29) = Cert.Spec.inf (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_v35) = Cert.Spec.regs (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

theorem algebraic (hrun : KernelRun (F := Ideal)) (href : RefRunSpec) :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m g m' g' hpre hagree
  refine ⟨fun c => Cert.Spec.inf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)),
    fun c => Cert.Spec.regs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)), ?_, ?_⟩
  · refine (θ_run (Cert.KernelIdeal.defs (F := Ideal)) _ _).mono ?_ (hrun m g (preOK_of_pre m hpre))
    intro st h c
    obtain ⟨hp, hq, hr⟩ := Cert.PreRanges.toNat_ranges (F := Ideal) _ _ _ _ _ _ _ _ _ _ (hpre c)
    exact ⟨(h c (r main_v11_0) (by decide)).trans ((V5_inf m c).trans
        (Cert.KernelIdeal.KVal.inf_eq _ _ _ _ _ _ _ _ _ _ hp hq hr)),
      (h c (r main_v12) (by decide)).trans ((V5_regs m c).trans
        (Cert.KernelIdeal.KVal.regs_eq _ _ _ _ _ _ _ _ _ _ hp hq hr)),
      (h c (r main_arg0) (by decide)).trans (V5_arg0 m c),
      (h c (r main_arg1) (by decide)).trans (V5_arg1 m c),
      (h c (r main_arg2) (by decide)).trans (V5_arg2 m c),
      (h c (r main_arg3) (by decide)).trans (V5_arg3 m c),
      (h c (r main_arg4) (by decide)).trans (V5_arg4 m c),
      (h c (r main_arg5) (by decide)).trans (V5_arg5 m c),
      (h c (r main_arg6) (by decide)).trans (V5_arg6 m c),
      (h c (r main_arg7) (by decide)).trans (V5_arg7 m c),
      (h c (r main_arg8) (by decide)).trans (V5_arg8 m c),
      (h c (r main_arg9) (by decide)).trans (V5_arg9 m c)⟩
  · have hpre' : Cert.Pre_ReferenceIdeal (hPre_input_domain := Cert.Pre_input_domain.Gen.facts) m' := by
      intro c
      obtain ⟨e0, e1, e2, e3, e4, e5, e6, e7, e8, e9⟩ := hagree c
      rw [e0, e1, e2, e3, e4, e5, e6, e7, e8, e9]
      exact hpre c
    refine (θ_run (Cert.ReferenceIdeal.defs (F := Ideal)) _ _).mono ?_ (href m' g' hpre')
    intro st h c
    obtain ⟨h29, h35, hargs⟩ := h c
    obtain ⟨e0, e1, e2, e3, e4, e5, e6, e7, e8, e9⟩ := hagree c
    rw [e0, e1, e2, e3, e4, e5, e6, e7, e8, e9] at h29 h35
    exact ⟨h29, h35, hargs⟩

end Cert.Proof.KI

end
-- ==== Proof.RefRun.lean ====
/-
  The reference's run, written out: @main of the reference is a straight line of 124 host operations once each
  call of a module-local function is replaced by the callee's operations over that call's own buffers (the two
  row-norm clips, three times the row lookup with its index wrap, range mask and gather, the concatenation, the
  two matrix products with the sigmoid between them, three times the norm of an embedding, the weighted sum).
  Here: that list, @main as its sequence, and the run — every weakly fair execution ends with each result buffer
  at the operations' composed term of the ten argument arrays, the arguments unchanged. The composed terms are
  named stage by stage (`clipW1`, `take`, `hid`, …) so that the statement stays readable; each is the
  operations' functions applied in the program's order, for any float instance.
-/
import proofs.«203152_g22136261444366_cont_8to1_1253_39_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed terms, stage by stage -/

/-- The norm of each row of W1, as a column: the square root of zero plus the sum of the squares along the row. -/
def rowNorm1 (a6 : FVec F S192x192 .f32) : FVec F S192x1 .f32 :=
  Host.sqrt (broadcastInDim S192x1 ![0] bcast_S192_S192x1_0 (Host.reduceAdd (mulf a6 a6) (constant S_ .f32 0x00000000#32) reducesTo_S192x192_S192_d1 h_S_))

/-- W1 with each row divided by the larger of its norm and one. -/
def clipW1 (a6 : FVec F S192x192 .f32) : FVec F S192x192 .f32 :=
  Host.divf a6 (broadcastInDim S192x192 ![0, 1] bcast_S192x1_S192x192_0_1 (maximumf (rowNorm1 a6) (broadcastInDim S192x1 ![] bcast_S_S192x1 (constant S_ .f32 0x3F800000#32))))

/-- The norm of the one row of W2. -/
def rowNorm2 (a8 : FVec F S1x192 .f32) : FVec F S1x1 .f32 :=
  Host.sqrt (broadcastInDim S1x1 ![0] bcast_S1_S1x1_0 (Host.reduceAdd (mulf a8 a8) (constant S_ .f32 0x00000000#32) reducesTo_S1x192_S1_d1 h_S_))

/-- W2 with its row divided by the larger of its norm and one. -/
def clipW2 (a8 : FVec F S1x192 .f32) : FVec F S1x192 .f32 :=
  Host.divf a8 (broadcastInDim S1x192 ![0, 1] bcast_S1x1_S1x192_0_1 (maximumf (rowNorm2 a8) (broadcastInDim S1x1 ![] bcast_S_S1x1 (constant S_ .f32 0x3F800000#32))))

/-- The lookup's index column: a negative index wrapped by the number of rows, then one column wide. -/
def takeIdx (ids : IVec S16384 32) : IVec S16384x1 32 :=
  broadcastInDim S16384x1 ![0] bcast_S16384_S16384x1_0 (select (cmpi .slt ids (broadcastInDim S16384 ![] bcast_S_S16384 (constantI S_ 32 0#32))) (addi ids (broadcastInDim S16384 ![] bcast_S_S16384 (constantI S_ 32 1000000#32))) ids)

/-- The lookup's mask: the wrapped index is at least zero and at most the last row. -/
def takeMask (ids : IVec S16384 32) : IVec S16384 1 :=
  Host.reduce IntOp.andi (andi (cmpi .sge (takeIdx ids) (broadcastInDim S16384x1 ![] bcast_S_S16384x1 (constantI S_ 32 0#32))) (cmpi .sle (takeIdx ids) (broadcastInDim S16384x1 ![0, 1] bcast_S1x1_S16384x1_0_1 (broadcastInDim S1x1 ![1] bcast_S1_S1x1_1 (constantI S1 32 999999#32))))) (constantI S_ 1 1#1) reducesTo_S16384x1_S16384_d1 h_S_

/-- The gathered rows. -/
def takeRows (ids : IVec S16384 32) (tbl : FVec F S1000000x64 .f32) : FVec F S16384x64 .f32 :=
  Host.gather gather_S1000000x64_S16384x1_S16384x64_1_0_n_n_0_1_164 tbl (takeIdx ids)

/-- The lookup: the gathered row where the mask holds, the fill word elsewhere. -/
def take (ids : IVec S16384 32) (tbl : FVec F S1000000x64 .f32) : FVec F S16384x64 .f32 :=
  select (broadcastInDim S16384x64 ![0] bcast_S16384_S16384x64_0 (takeMask ids)) (takeRows ids tbl) (broadcastInDim S16384x64 ![] bcast_S_S16384x64 (constant S_ .f32 0x7FC00000#32))

/-- The three embeddings side by side. -/
def xCat (a0 a1 a2 : IVec S16384 32) (a3 a4 a5 : FVec F S1000000x64 .f32) : FVec F S16384x192 .f32 :=
  concatenate S16384x192 1 [⟨S16384x64, (take a0 a3)⟩, ⟨S16384x64, (take a1 a4)⟩, ⟨S16384x64, (take a2 a5)⟩] concatenates_S16384x64_S16384x64_S16384x64_S16384x192_d1

/-- The first matrix product, with the clipped W1 transposed. -/
def prod1 (a0 a1 a2 : IVec S16384 32) (a3 a4 a5 : FVec F S1000000x64 .f32) (a6 : FVec F S192x192 .f32) : FVec F S16384x192 .f32 :=
  Host.dotGeneral dot_S16384x192_S192x192_S16384x192_1_0_0_1_n_n none (xCat a0 a1 a2 a3 a4 a5) (transpose S192x192 [1, 0] (clipW1 a6) transposes_S192x192_S192x192_1_0)

/-- … plus the bias b1 on every row. -/
def pre (a0 a1 a2 : IVec S16384 32) (a3 a4 a5 : FVec F S1000000x64 .f32) (a6 : FVec F S192x192 .f32) (a7 : FVec F S192 .f32) : FVec F S16384x192 .f32 :=
  addf (prod1 a0 a1 a2 a3 a4 a5 a6) (broadcastInDim S16384x192 ![0, 1] bcast_S1x192_S16384x192_0_1 (broadcastInDim S1x192 ![1] bcast_S192_S1x192_1 a7))

/-- The hidden layer: one over one plus the exponential of the negation. -/
def hid (a0 a1 a2 : IVec S16384 32) (a3 a4 a5 : FVec F S1000000x64 .f32) (a6 : FVec F S192x192 .f32) (a7 : FVec F S192 .f32) : FVec F S16384x192 .f32 :=
  Host.divf (broadcastInDim S16384x192 ![] bcast_S_S16384x192 (constant S_ .f32 0x3F800000#32)) (addf (broadcastInDim S16384x192 ![] bcast_S_S16384x192 (constant S_ .f32 0x3F800000#32)) (Host.exp (Host.negf (pre a0 a1 a2 a3 a4 a5 a6 a7))))

/-- The second matrix product, with the clipped W2 transposed. -/
def prod2 (a0 a1 a2 : IVec S16384 32) (a3 a4 a5 : FVec F S1000000x64 .f32) (a6 : FVec F S192x192 .f32) (a7 : FVec F S192 .f32) (a8 : FVec F S1x192 .f32) : FVec F S16384x1 .f32 :=
  Host.dotGeneral dot_S16384x192_S192x1_S16384x1_1_0_0_1_n_n none (hid a0 a1 a2 a3 a4 a5 a6 a7) (transpose S192x1 [1, 0] (clipW2 a8) transposes_S1x192_S192x1_1_0)

/-- THE FIRST RESULT's composed term: the second product plus the bias b2. -/
def infTerm (a0 a1 a2 : IVec S16384 32) (a3 a4 a5 : FVec F S1000000x64 .f32) (a6 : FVec F S192x192 .f32) (a7 : FVec F S192 .f32) (a8 : FVec F S1x192 .f32) (a9 : FVec F S1 .f32) : FVec F S16384x1 .f32 :=
  addf (prod2 a0 a1 a2 a3 a4 a5 a6 a7 a8) (broadcastInDim S16384x1 ![0, 1] bcast_S1x1_S16384x1_0_1 (broadcastInDim S1x1 ![1] bcast_S1_S1x1_1 a9))

/-- The norm of a whole embedding: the square root of zero plus the sum of the squares of every element. -/
def frob (E : FVec F S16384x64 .f32) : FVec F S_ .f32 :=
  Host.sqrt (Host.reduceAdd (mulf E E) (constant S_ .f32 0x00000000#32) reducesTo_S16384x64_S_d0_1 h_S_)

/-- THE SECOND RESULT's composed term: the weight times the sum of the three norms. -/
def regsTerm (a0 a1 a2 : IVec S16384 32) (a3 a4 a5 : FVec F S1000000x64 .f32) : FVec F S_ .f32 :=
  mulf (constant S_ .f32 0x3C23D70A#32) (addf (addf (frob (take a0 a3)) (frob (take a1 a4))) (frob (take a2 a5)))

/-! ## @main as a list of operations -/

/-- @main's 124 operations, in order: each callee's operations inline at its call, over that call's buffers. -/
abbrev ops : List (HloOp τ sig (Elt F)) :=
  [
    TRef.binary (.of main_arg6) (.of main_arg6) main_call0.v0 mulf,
    TRef.nullary main_call0.cst (constant S_ .f32 0x00000000#32),
    TRef.binary main_call0.v0 main_call0.cst main_call0.v1 (fun x v => Host.reduceAdd x v reducesTo_S192x192_S192_d1 h_S_),
    TRef.unary main_call0.v1 main_call0.v2 (broadcastInDim S192x1 ![0] bcast_S192_S192x1_0),
    TRef.unary main_call0.v2 main_call0.v3 Host.sqrt,
    nullary main_cst (constant S_ .f32 0x3F800000#32),
    unary main_cst main_v1 (broadcastInDim S192x1 ![] bcast_S_S192x1 : (⟨S_, .f32⟩ : BufTy).Contents (Elt F) → (⟨S192x1, .f32⟩ : BufTy).Contents (Elt F)),
    binary main_v0 main_v1 main_v2 (maximumf : (⟨S192x1, .f32⟩ : BufTy).Contents (Elt F) → (⟨S192x1, .f32⟩ : BufTy).Contents (Elt F) → (⟨S192x1, .f32⟩ : BufTy).Contents (Elt F)),
    unary main_v2 main_v3 (broadcastInDim S192x192 ![0, 1] bcast_S192x1_S192x192_0_1 : (⟨S192x1, .f32⟩ : BufTy).Contents (Elt F) → (⟨S192x192, .f32⟩ : BufTy).Contents (Elt F)),
    binary main_arg6 main_v3 main_v4 (Host.divf : (⟨S192x192, .f32⟩ : BufTy).Contents (Elt F) → (⟨S192x192, .f32⟩ : BufTy).Contents (Elt F) → (⟨S192x192, .f32⟩ : BufTy).Contents (Elt F)),
    TRef.binary (.of main_arg8) (.of main_arg8) main_call1.v0 mulf,
    TRef.nullary main_call1.cst (constant S_ .f32 0x00000000#32),
    TRef.binary main_call1.v0 main_call1.cst main_call1.v1 (fun x v => Host.reduceAdd x v reducesTo_S1x192_S1_d1 h_S_),
    TRef.unary main_call1.v1 main_call1.v2 (broadcastInDim S1x1 ![0] bcast_S1_S1x1_0),
    TRef.unary main_call1.v2 main_call1.v3 Host.sqrt,
    nullary main_cst_0 (constant S_ .f32 0x3F800000#32),
    unary main_cst_0 main_v6 (broadcastInDim S1x1 ![] bcast_S_S1x1 : (⟨S_, .f32⟩ : BufTy).Contents (Elt F) → (⟨S1x1, .f32⟩ : BufTy).Contents (Elt F)),
    binary main_v5 main_v6 main_v7 (maximumf : (⟨S1x1, .f32⟩ : BufTy).Contents (Elt F) → (⟨S1x1, .f32⟩ : BufTy).Contents (Elt F) → (⟨S1x1, .f32⟩ : BufTy).Contents (Elt F)),
    unary main_v7 main_v8 (broadcastInDim S1x192 ![0, 1] bcast_S1x1_S1x192_0_1 : (⟨S1x1, .f32⟩ : BufTy).Contents (Elt F) → (⟨S1x192, .f32⟩ : BufTy).Contents (Elt F)),
    binary main_arg8 main_v8 main_v9 (Host.divf : (⟨S1x192, .f32⟩ : BufTy).Contents (Elt F) → (⟨S1x192, .f32⟩ : BufTy).Contents (Elt F) → (⟨S1x192, .f32⟩ : BufTy).Contents (Elt F)),
    TRef.nullary main_call2.c (constantI S_ 32 0#32),
    TRef.unary main_call2.c main_call2.v0 (broadcastInDim S16384 ![] bcast_S_S16384),
    TRef.binary (.of main_arg0) main_call2.v0 main_call2.v1 (cmpi .slt),
    TRef.nullary main_call2.c_0 (constantI S_ 32 1000000#32),
    TRef.unary main_call2.c_0 main_call2.v2 (broadcastInDim S16384 ![] bcast_S_S16384),
    TRef.binary (.of main_arg0) main_call2.v2 main_call2.v3 addi,
    TRef.ternary main_call2.v1 main_call2.v3 (.of main_arg0) main_call2.call0.v0 select,
    TRef.unary main_call2.call0.v0 main_call2.v5 (broadcastInDim S16384x1 ![0] bcast_S16384_S16384x1_0),
    TRef.nullary main_call2.c_1 (constantI S1 32 999999#32),
    TRef.nullary main_call2.c_2 (constantI S_ 32 0#32),
    TRef.unary main_call2.c_2 main_call2.v6 (broadcastInDim S16384x1 ![] bcast_S_S16384x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S16384x1 ![0, 1] bcast_S1x1_S16384x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16384x1_S16384_d1 h_S_),
    TRef.binary (.of main_arg3) main_call2.v5 main_call2.v13 (fun x i => Host.gather gather_S1000000x64_S16384x1_S16384x64_1_0_n_n_0_1_164 x i),
    TRef.unary main_call2.v12 main_call2.v14 (broadcastInDim S16384x64 ![0] bcast_S16384_S16384x64_0),
    TRef.nullary main_call2.cst (constant S_ .f32 0x7FC00000#32),
    TRef.unary main_call2.cst main_call2.v15 (broadcastInDim S16384x64 ![] bcast_S_S16384x64),
    TRef.ternary main_call2.v14 main_call2.v13 main_call2.v15 main_call2.v16 select,
    TRef.nullary main_call3.c (constantI S_ 32 0#32),
    TRef.unary main_call3.c main_call3.v0 (broadcastInDim S16384 ![] bcast_S_S16384),
    TRef.binary (.of main_arg1) main_call3.v0 main_call3.v1 (cmpi .slt),
    TRef.nullary main_call3.c_0 (constantI S_ 32 1000000#32),
    TRef.unary main_call3.c_0 main_call3.v2 (broadcastInDim S16384 ![] bcast_S_S16384),
    TRef.binary (.of main_arg1) main_call3.v2 main_call3.v3 addi,
    TRef.ternary main_call3.v1 main_call3.v3 (.of main_arg1) main_call3.call0.v0 select,
    TRef.unary main_call3.call0.v0 main_call3.v5 (broadcastInDim S16384x1 ![0] bcast_S16384_S16384x1_0),
    TRef.nullary main_call3.c_1 (constantI S1 32 999999#32),
    TRef.nullary main_call3.c_2 (constantI S_ 32 0#32),
    TRef.unary main_call3.c_2 main_call3.v6 (broadcastInDim S16384x1 ![] bcast_S_S16384x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S16384x1 ![0, 1] bcast_S1x1_S16384x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S16384x1_S16384_d1 h_S_),
    TRef.binary (.of main_arg4) main_call3.v5 main_call3.v13 (fun x i => Host.gather gather_S1000000x64_S16384x1_S16384x64_1_0_n_n_0_1_164 x i),
    TRef.unary main_call3.v12 main_call3.v14 (broadcastInDim S16384x64 ![0] bcast_S16384_S16384x64_0),
    TRef.nullary main_call3.cst (constant S_ .f32 0x7FC00000#32),
    TRef.unary main_call3.cst main_call3.v15 (broadcastInDim S16384x64 ![] bcast_S_S16384x64),
    TRef.ternary main_call3.v14 main_call3.v13 main_call3.v15 main_call3.v16 select,
    TRef.nullary main_call4.c (constantI S_ 32 0#32),
    TRef.unary main_call4.c main_call4.v0 (broadcastInDim S16384 ![] bcast_S_S16384),
    TRef.binary (.of main_arg2) main_call4.v0 main_call4.v1 (cmpi .slt),
    TRef.nullary main_call4.c_0 (constantI S_ 32 1000000#32),
    TRef.unary main_call4.c_0 main_call4.v2 (broadcastInDim S16384 ![] bcast_S_S16384),
    TRef.binary (.of main_arg2) main_call4.v2 main_call4.v3 addi,
    TRef.ternary main_call4.v1 main_call4.v3 (.of main_arg2) main_call4.call0.v0 select,
    TRef.unary main_call4.call0.v0 main_call4.v5 (broadcastInDim S16384x1 ![0] bcast_S16384_S16384x1_0),
    TRef.nullary main_call4.c_1 (constantI S1 32 999999#32),
    TRef.nullary main_call4.c_2 (constantI S_ 32 0#32),
    TRef.unary main_call4.c_2 main_call4.v6 (broadcastInDim S16384x1 ![] bcast_S_S16384x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S16384x1 ![0, 1] bcast_S1x1_S16384x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S16384x1_S16384_d1 h_S_),
    TRef.binary (.of main_arg5) main_call4.v5 main_call4.v13 (fun x i => Host.gather gather_S1000000x64_S16384x1_S16384x64_1_0_n_n_0_1_164 x i),
    TRef.unary main_call4.v12 main_call4.v14 (broadcastInDim S16384x64 ![0] bcast_S16384_S16384x64_0),
    TRef.nullary main_call4.cst (constant S_ .f32 0x7FC00000#32),
    TRef.unary main_call4.cst main_call4.v15 (broadcastInDim S16384x64 ![] bcast_S_S16384x64),
    TRef.ternary main_call4.v14 main_call4.v13 main_call4.v15 main_call4.v16 select,
    nary ![main_v10, main_v11, main_v12] main_v13 (fun u => concatenate S16384x192 1 [⟨S16384x64, u 0⟩, ⟨S16384x64, u 1⟩, ⟨S16384x64, u 2⟩] concatenates_S16384x64_S16384x64_S16384x64_S16384x192_d1),
    unary main_v4 main_v14 ((transpose S192x192 [1, 0] · transposes_S192x192_S192x192_1_0) : (⟨S192x192, .f32⟩ : BufTy).Contents (Elt F) → (⟨S192x192, .f32⟩ : BufTy).Contents (Elt F)),
    binary main_v13 main_v14 main_v15 ((fun l r => Host.dotGeneral dot_S16384x192_S192x192_S16384x192_1_0_0_1_n_n none l r) : (⟨S16384x192, .f32⟩ : BufTy).Contents (Elt F) → (⟨S192x192, .f32⟩ : BufTy).Contents (Elt F) → (⟨S16384x192, .f32⟩ : BufTy).Contents (Elt F)),
    unary main_arg7 main_v16 (broadcastInDim S1x192 ![1] bcast_S192_S1x192_1 : (⟨S192, .f32⟩ : BufTy).Contents (Elt F) → (⟨S1x192, .f32⟩ : BufTy).Contents (Elt F)),
    unary main_v16 main_v17 (broadcastInDim S16384x192 ![0, 1] bcast_S1x192_S16384x192_0_1 : (⟨S1x192, .f32⟩ : BufTy).Contents (Elt F) → (⟨S16384x192, .f32⟩ : BufTy).Contents (Elt F)),
    binary main_v15 main_v17 main_v18 (addf : (⟨S16384x192, .f32⟩ : BufTy).Contents (Elt F) → (⟨S16384x192, .f32⟩ : BufTy).Contents (Elt F) → (⟨S16384x192, .f32⟩ : BufTy).Contents (Elt F)),
    unary main_v18 main_v19 (Host.negf : (⟨S16384x192, .f32⟩ : BufTy).Contents (Elt F) → (⟨S16384x192, .f32⟩ : BufTy).Contents (Elt F)),
    unary main_v19 main_v20 (Host.exp : (⟨S16384x192, .f32⟩ : BufTy).Contents (Elt F) → (⟨S16384x192, .f32⟩ : BufTy).Contents (Elt F)),
    nullary main_cst_1 (constant S_ .f32 0x3F800000#32),
    unary main_cst_1 main_v21 (broadcastInDim S16384x192 ![] bcast_S_S16384x192 : (⟨S_, .f32⟩ : BufTy).Contents (Elt F) → (⟨S16384x192, .f32⟩ : BufTy).Contents (Elt F)),
    binary main_v21 main_v20 main_v22 (addf : (⟨S16384x192, .f32⟩ : BufTy).Contents (Elt F) → (⟨S16384x192, .f32⟩ : BufTy).Contents (Elt F) → (⟨S16384x192, .f32⟩ : BufTy).Contents (Elt F)),
    nullary main_cst_2 (constant S_ .f32 0x3F800000#32),
    unary main_cst_2 main_v23 (broadcastInDim S16384x192 ![] bcast_S_S16384x192 : (⟨S_, .f32⟩ : BufTy).Contents (Elt F) → (⟨S16384x192, .f32⟩ : BufTy).Contents (Elt F)),
    binary main_v23 main_v22 main_v24 (Host.divf : (⟨S16384x192, .f32⟩ : BufTy).Contents (Elt F) → (⟨S16384x192, .f32⟩ : BufTy).Contents (Elt F) → (⟨S16384x192, .f32⟩ : BufTy).Contents (Elt F)),
    unary main_v9 main_v25 ((transpose S192x1 [1, 0] · transposes_S1x192_S192x1_1_0) : (⟨S1x192, .f32⟩ : BufTy).Contents (Elt F) → (⟨S192x1, .f32⟩ : BufTy).Contents (Elt F)),
    binary main_v24 main_v25 main_v26 ((fun l r => Host.dotGeneral dot_S16384x192_S192x1_S16384x1_1_0_0_1_n_n none l r) : (⟨S16384x192, .f32⟩ : BufTy).Contents (Elt F) → (⟨S192x1, .f32⟩ : BufTy).Contents (Elt F) → (⟨S16384x1, .f32⟩ : BufTy).Contents (Elt F)),
    unary main_arg9 main_v27 (broadcastInDim S1x1 ![1] bcast_S1_S1x1_1 : (⟨S1, .f32⟩ : BufTy).Contents (Elt F) → (⟨S1x1, .f32⟩ : BufTy).Contents (Elt F)),
    unary main_v27 main_v28 (broadcastInDim S16384x1 ![0, 1] bcast_S1x1_S16384x1_0_1 : (⟨S1x1, .f32⟩ : BufTy).Contents (Elt F) → (⟨S16384x1, .f32⟩ : BufTy).Contents (Elt F)),
    binary main_v26 main_v28 main_v29 (addf : (⟨S16384x1, .f32⟩ : BufTy).Contents (Elt F) → (⟨S16384x1, .f32⟩ : BufTy).Contents (Elt F) → (⟨S16384x1, .f32⟩ : BufTy).Contents (Elt F)),
    TRef.binary (.of main_v10) (.of main_v10) main_call5.v0 mulf,
    TRef.nullary main_call5.cst (constant S_ .f32 0x00000000#32),
    TRef.binary main_call5.v0 main_call5.cst main_call5.v1 (fun x v => Host.reduceAdd x v reducesTo_S16384x64_S_d0_1 h_S_),
    TRef.unary main_call5.v1 main_call5.v2 Host.sqrt,
    TRef.binary (.of main_v11) (.of main_v11) main_call6.v0 mulf,
    TRef.nullary main_call6.cst (constant S_ .f32 0x00000000#32),
    TRef.binary main_call6.v0 main_call6.cst main_call6.v1 (fun x v => Host.reduceAdd x v reducesTo_S16384x64_S_d0_1 h_S_),
    TRef.unary main_call6.v1 main_call6.v2 Host.sqrt,
    binary main_v30 main_v31 main_v32 (addf : (⟨S_, .f32⟩ : BufTy).Contents (Elt F) → (⟨S_, .f32⟩ : BufTy).Contents (Elt F) → (⟨S_, .f32⟩ : BufTy).Contents (Elt F)),
    TRef.binary (.of main_v12) (.of main_v12) main_call7.v0 mulf,
    TRef.nullary main_call7.cst (constant S_ .f32 0x00000000#32),
    TRef.binary main_call7.v0 main_call7.cst main_call7.v1 (fun x v => Host.reduceAdd x v reducesTo_S16384x64_S_d0_1 h_S_),
    TRef.unary main_call7.v1 main_call7.v2 Host.sqrt,
    binary main_v32 main_v33 main_v34 (addf : (⟨S_, .f32⟩ : BufTy).Contents (Elt F) → (⟨S_, .f32⟩ : BufTy).Contents (Elt F) → (⟨S_, .f32⟩ : BufTy).Contents (Elt F)),
    nullary main_cst_3 (constant S_ .f32 0x3C23D70A#32),
    binary main_cst_3 main_v34 main_v35 (mulf : (⟨S_, .f32⟩ : BufTy).Contents (Elt F) → (⟨S_, .f32⟩ : BufTy).Contents (Elt F) → (⟨S_, .f32⟩ : BufTy).Contents (Elt F)) ]

set_option maxRecDepth 4096 in
/-- @main is that straight line: the functions' definitions unfolded at their calls, both sides are one chain of
    steps once sequencing is reassociated. -/
theorem main_eq (c : Dev nD) : main (F := F) c = seq ops := by
  simp only [main, fn_norm.body, fn_norm_0.body, fn_where.body, fn_take.body, fn_norm_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    binary_bufs_sub .., nullary_bufs_sub .., binary_bufs_sub .., unary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nary_bufs_sub ..,
    unary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    binary_bufs_sub .., nullary_bufs_sub .., binary_bufs_sub .., unary_bufs_sub .., binary_bufs_sub .., nullary_bufs_sub ..,
    binary_bufs_sub .., unary_bufs_sub .., binary_bufs_sub .., binary_bufs_sub .., nullary_bufs_sub .., binary_bufs_sub ..,
    unary_bufs_sub .., binary_bufs_sub .., nullary_bufs_sub .., binary_bufs_sub ..⟩

/-- Every weakly fair execution of @main terminates, and every buffer ends at the fold of the operations' results
    over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefRun

end
-- ==== Proof.RefRunOut.lean ====
/-
  The reference's results read off its run: what the fold of the 124 operations leaves in the two result buffers
  is the composed term of the ten argument arrays (each operation's result at its own buffer is its function of
  its operands' contents, and no later operation writes an operand's buffer), and the argument buffers are written
  by no operation.
-/
import proofs.«203152_g22136261444366_cont_8to1_1253_39_alg».proof.Proof.RefRun

noncomputable section

namespace Cert.RefRun

open Cert.ReferenceIdeal Cert.ReferenceIdeal.Gen Idealize.ShloMosaic Idealize.ShloMosaic.TcCoe Idealize.SL.Sem Idealize.ShloMosaic.StableHlo

section Three
variable {τ' : Topo} {sig' : RefSig} {Val : EltTy → Type}

/-- An operation over a LITERAL family of three references (the concatenation of three operands): its result
    with each operand's contents at its own reference, so that the operands' contents go on being rewritten. -/
theorem nary3_result' {x a b y : Ref sig' .tc}
    (f : ((k : Fin 3) → ((![x, a, b] : Fin 3 → Ref sig' .tc) k).ty.Contents Val) → y.ty.Contents Val) (hxs hy)
    (G : Valuation τ' sig' Val) :
    (nary (τ := τ') ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

end Three

/-- The fold at a buffer as one rewriting pass: each operation's result at its own buffer, the contents before it
    at any other. -/
macro "eval_after" : tactic =>
  `(tactic| (simp (disch := decide) only [after_cons, after_nil,
      nullary_result', unary_result', binary_result', ternary_result', nary3_result',
      nullary_result_ne', unary_result_ne', binary_result_ne', ternary_result_ne', nary_result_ne']))

variable {F : FTy → Type} [FloatOps F]

attribute [local irreducible] Host.reduce Host.gather Host.reduceAdd concatenate transpose broadcastInDim in
set_option maxRecDepth 16384 in
set_option maxHeartbeats 4000000 in
/-- The first result buffer after the operations: the composed term. -/
theorem out29_eq (V : Valuation τ sig (Elt F)) :
    after ops V (main_v29 : DevRef τ sig) = infTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  eval_after
  rfl

attribute [local irreducible] Host.reduce Host.gather Host.reduceAdd concatenate transpose broadcastInDim in
set_option maxRecDepth 16384 in
set_option maxHeartbeats 4000000 in
/-- The second result buffer after the operations: the composed term. -/
theorem out35_eq (V : Valuation τ sig (Elt F)) :
    after ops V (main_v35 : DevRef τ sig) = regsTerm (V (main_arg0 : DevRef τ sig)) (V (main_arg1 : DevRef τ sig)) (V (main_arg2 : DevRef τ sig)) (V (main_arg3 : DevRef τ sig)) (V (main_arg4 : DevRef τ sig)) (V (main_arg5 : DevRef τ sig)) := by
  eval_after
  rfl

/-! ## The argument buffers: no operation writes them -/

theorem arg0_eq (V : Valuation τ sig (Elt F)) : after ops V (main_arg0 : DevRef τ sig) = V (main_arg0 : DevRef τ sig) := by
  eval_after
theorem arg1_eq (V : Valuation τ sig (Elt F)) : after ops V (main_arg1 : DevRef τ sig) = V (main_arg1 : DevRef τ sig) := by
  eval_after
theorem arg2_eq (V : Valuation τ sig (Elt F)) : after ops V (main_arg2 : DevRef τ sig) = V (main_arg2 : DevRef τ sig) := by
  eval_after
theorem arg3_eq (V : Valuation τ sig (Elt F)) : after ops V (main_arg3 : DevRef τ sig) = V (main_arg3 : DevRef τ sig) := by
  eval_after
theorem arg4_eq (V : Valuation τ sig (Elt F)) : after ops V (main_arg4 : DevRef τ sig) = V (main_arg4 : DevRef τ sig) := by
  eval_after
theorem arg5_eq (V : Valuation τ sig (Elt F)) : after ops V (main_arg5 : DevRef τ sig) = V (main_arg5 : DevRef τ sig) := by
  eval_after
theorem arg6_eq (V : Valuation τ sig (Elt F)) : after ops V (main_arg6 : DevRef τ sig) = V (main_arg6 : DevRef τ sig) := by
  eval_after
theorem arg7_eq (V : Valuation τ sig (Elt F)) : after ops V (main_arg7 : DevRef τ sig) = V (main_arg7 : DevRef τ sig) := by
  eval_after
theorem arg8_eq (V : Valuation τ sig (Elt F)) : after ops V (main_arg8 : DevRef τ sig) = V (main_arg8 : DevRef τ sig) := by
  eval_after
theorem arg9_eq (V : Valuation τ sig (Elt F)) : after ops V (main_arg9 : DevRef τ sig) = V (main_arg9 : DevRef τ sig) := by
  eval_after

/-- THE REFERENCE'S RUN: on every device, for any float values, from any memory with zero counters, every weakly fair
    execution of @main terminates with the two results at the operations' composed terms of the arguments and the
    ten arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = infTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v35) = regsTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v29).trans (out29_eq _), (h c main_v35).trans (out35_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _)⟩)
    (run_main m ρ)

end Cert.RefRun

end
-- ==== Proof.RefValClip.lean ====
/-
  The reference's two weight clips read at an index, at the extended reals. A weight matrix with 192 columns is
  divided, row by row, by the larger of the row's norm and one; the norm is the square root of zero plus the sum of
  the squares along the row, kept as a column and broadcast back along the row. Read at entry (j, k) this is the
  specification's `clip W j k`: the reduction along the row is the sum over the 192 columns, and the two layout
  broadcasts (vector to column, column to matrix) read the row's own entry.
-/
import proofs.«203152_g22136261444366_cont_8to1_1253_39_alg».proof.Proof.RefRun
import proofs.«203152_g22136261444366_cont_8to1_1253_39_alg».proof.Proof.Spec
import Idealize.ShloMosaic.PureOps.Ideal.Laws
import Idealize.ShloMosaic.Lib.Pipeline.Value
import Idealize.ShloMosaic.Lib.ValueIdx

noncomputable section

open scoped BigOperators

namespace Cert.RefValue

open Cert.ReferenceIdeal Cert.ReferenceIdeal.Gen Cert.RefRun Idealize.ShloMosaic Idealize.ShloMosaic.ValueIdx

/-- The host's sum of squares along the rows of an [n, 192] matrix, at row `j`: zero plus the sum over the columns. -/
theorem rowSum_apply {n : Nat} (h' : (⟨2, ![n, 192]⟩ : Shape).ReducesTo [1] ⟨1, ![n]⟩)
    (h : (⟨2, ![n, 192]⟩ : Shape).Reduces [1] ⟨1, ![n]⟩) (W : FVec Ideal ⟨2, ![n, 192]⟩ .f32) (j : Fin n) :
    Ideal.hostReduceAdd h' (mulf W W) (Ideal.ofBits .f32 0x00000000#32) (ix1 j) = Cert.Spec.rowSq W j := by
  rw [Ideal.hostReduceAdd_single h' h, Ideal.ofBits_zero_f32]
  unfold Cert.Spec.rowSq
  refine congrArg (0 + ·) (Finset.sum_congr rfl fun k _ => ?_)
  have e : h.lift (ix1 j) k = ix2 j k := funext fun a => Fin.ext (match a with | ⟨0, _⟩ => rfl | ⟨1, _⟩ => rfl)
  show W (h.lift (ix1 j) k) * W (h.lift (ix1 j) k) = _
  rw [e]
  rfl

/-- The norm column of W1 at row `j`. -/
theorem rowNorm1_apply (W : FVec Ideal S192x192 .f32) (j : Fin 192) (u : Fin 1) :
    rowNorm1 (F := Ideal) W (ix2 j u) = Ideal.sqrt (Cert.Spec.rowSq W j) := by
  show Ideal.sqrt (broadcastInDim S192x1 ![0] bcast_S192_S192x1_0
    (Host.reduceAdd (F := Ideal) (mulf W W) (constant S_ .f32 0x00000000#32) reducesTo_S192x192_S192_d1 h_S_) (ix2 j u)) = _
  refine congrArg Ideal.sqrt ?_
  refine (broadcastInDim_apply _ bcast_S192_S192x1_0 _ (ix2 j u) (ix1 j) (fun a => match a with | ⟨0, _⟩ => rfl)).trans ?_
  exact rowSum_apply reducesTo_S192x192_S192_d1 (by decide) W j

/-- The clipped W1 at entry (j, k). -/
theorem clipW1_apply (W : FVec Ideal S192x192 .f32) (j k : Fin 192) :
    clipW1 (F := Ideal) W (ix2 j k) = Cert.Spec.clip W j k := by
  show Ideal.div (W (ix2 j k)) (broadcastInDim S192x192 ![0, 1] bcast_S192x1_S192x192_0_1
    (maximumf (rowNorm1 (F := Ideal) W) (broadcastInDim S192x1 ![] bcast_S_S192x1 (constant (F := Ideal) S_ .f32 0x3F800000#32))) (ix2 j k)) = _
  unfold Cert.Spec.clip
  refine congrArg (Ideal.div _) ?_
  refine (broadcastInDim_apply _ bcast_S192x1_S192x192_0_1 _ (ix2 j k) (ix2 j (0 : Fin 1))
    (fun a => match a with | ⟨0, _⟩ => rfl | ⟨1, _⟩ => rfl)).trans ?_
  show max (rowNorm1 (F := Ideal) W (ix2 j (0 : Fin 1))) (Ideal.ofBits .f32 0x3F800000#32) = _
  rw [rowNorm1_apply]

/-- The norm of W2's one row. -/
theorem rowNorm2_apply (W : FVec Ideal S1x192 .f32) (u v : Fin 1) :
    rowNorm2 (F := Ideal) W (ix2 u v) = Ideal.sqrt (Cert.Spec.rowSq W 0) := by
  show Ideal.sqrt (broadcastInDim S1x1 ![0] bcast_S1_S1x1_0
    (Host.reduceAdd (F := Ideal) (mulf W W) (constant S_ .f32 0x00000000#32) reducesTo_S1x192_S1_d1 h_S_) (ix2 u v)) = _
  refine congrArg Ideal.sqrt ?_
  refine (broadcastInDim_apply _ bcast_S1_S1x1_0 _ (ix2 u v) (ix1 (0 : Fin 1)) (fun a => match a with | ⟨0, _⟩ => rfl)).trans ?_
  exact rowSum_apply reducesTo_S1x192_S1_d1 (by decide) W 0

/-- The clipped W2 at entry (0, k). -/
theorem clipW2_apply (W : FVec Ideal S1x192 .f32) (u : Fin 1) (k : Fin 192) :
    clipW2 (F := Ideal) W (ix2 u k) = Cert.Spec.clip W 0 k := by
  obtain rfl : u = 0 := Subsingleton.elim _ _
  show Ideal.div (W (ix2 0 k)) (broadcastInDim S1x192 ![0, 1] bcast_S1x1_S1x192_0_1
    (maximumf (rowNorm2 (F := Ideal) W) (broadcastInDim S1x1 ![] bcast_S_S1x1 (constant (F := Ideal) S_ .f32 0x3F800000#32))) (ix2 0 k)) = _
  unfold Cert.Spec.clip
  refine congrArg (Ideal.div _) ?_
  refine (broadcastInDim_apply _ bcast_S1x1_S1x192_0_1 _ (ix2 (0 : Fin 1) k) (ix2 (0 : Fin 1) (0 : Fin 1))
    (fun a => match a with | ⟨0, _⟩ => rfl | ⟨1, _⟩ => rfl)).trans ?_
  show max (rowNorm2 (F := Ideal) W (ix2 (0 : Fin 1) (0 : Fin 1))) (Ideal.ofBits .f32 0x3F800000#32) = _
  rw [rowNorm2_apply]

end Cert.RefValue

end
-- ==== Proof.LibTakeCol.lean ====
/-
  A ROW LOOKUP THROUGH A COLUMN OF ROW NUMBERS, READ AT AN INDEX, and an `all` that holds.

  `jnp.take(x, idx, axis=0)` of a table `x : [N, C]` at an integer vector `idx : [R]` lowers to a gather over the
  indices as a column `[R, 1]`: offset_dims `[1]` (the result's last axis is the slice's column axis),
  collapsed_slice_dims `[0]` (the table's row axis has slice size 1 and disappears), start_index_map `[0]` (the one
  component of a start index is a row number), index_vector_dim `1` and slice_sizes `[1, C]`. Result element
  `(r, j)` is the table at row `idx[r, 0]` — read as a signed integer and CLAMPED into `[0, N − 1]`, as a gather
  clamps every start index — and column `j`. The statement is about the dimension numbers alone and holds for any
  element type. Beside it: a reduction by `and` from 1 over elements that are all 1 is 1 (the converse of the
  library's reading of an `all` that came out 1). Nothing here mentions a program.
-/
import Idealize.ShloMosaic.PureOps.Ideal
import Idealize.ShloMosaic.Lib.ValueIdx
import Idealize.ShloMosaic.Lib.ReduceAll

noncomputable section

namespace Cert.TakeCol

open Idealize.ShloMosaic Idealize.ShloMosaic.ValueIdx

variable {α : Type}

/-- An axis of a rank-2 shape is the first or the second. -/
theorem fin2_cases (a : Fin 2) : a = 0 ∨ a = 1 := by
  rcases a with ⟨v, hv⟩
  interval_cases v
  · exact Or.inl rfl
  · exact Or.inr rfl

/-- Those dimension numbers for a table `[N, C]`, start indices `[R, 1]` and result `[R, C]`; their conditions
    `wf` are decided on a program's literal shapes. -/
abbrev colDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE LOOKUP READ AT `(r, j)`: the table at row `idx[r, 0]` (signed, clamped into `[0, N − 1]`) and column `j`.
    On the row axis the table coordinate is the clamped start alone (the axis is collapsed: no offset, and there are
    no batching axes); on the column axis the start is `0` (the axis is not in the start index map) and the offset is
    the result's last coordinate. -/
theorem gather_col_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (j : Fin C) :
    Host.gather (colDims N R C wf) x idx (ix2 r j)
      = x (ix2 ⟨min (idx (ix2 r (0 : Fin 1))).toInt.toNat (N - 1), by omega⟩ j) := by
  unfold Host.gather
  congr 1
  funext a
  refine Fin.ext ?_
  show (colDims N R C wf).start (ix2 r j) idx a + (colDims N R C wf).batchCoord (ix2 r j) a
    + (colDims N R C wf).offCoord (ix2 r j) a = _
  rw [GatherDims.batchCoord_eq_zero _ _ _ List.not_mem_nil]
  rcases fin2_cases a with rfl | rfl
  · -- the row axis: collapsed, so no offset; the start is the clamped row number
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (colDims N R C wf).startIndexMap from List.mem_singleton.mpr rfl)]
    have hsi : (colDims N R C wf).siIdx (ix2 r j) ⟨List.idxOf (0 : Fin 2) (colDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  · -- the column axis: not a start-index axis, so the start is 0; the offset is the result's last coordinate
    have h1 : (1 : Fin 2) ∉ (colDims N R C wf).startIndexMap := by
      show (1 : Fin 2) ∉ ([0] : List (Fin 2)); decide
    have hk : (1 : Fin 2) ∈ (colDims N R C wf).sKept := by
      rw [GatherDims.mem_sKept]
      show (1 : Fin 2) ∉ ([0] : List (Fin 2)) ∧ (1 : Fin 2) ∉ ([] : List (Fin 2)); decide
    unfold GatherDims.start GatherDims.offCoord
    rw [dif_neg h1, dif_pos hk]
    simp only [Nat.zero_add]
    rfl

/-- A left fold by `and` from 1 over a list of 1s is 1. -/
theorem foldl_andi_of_all_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_of_all_one f l fun n hn => h n (List.mem_cons_of_mem _ hn)

/-- A `stablehlo.reduce` by `and` from the constant 1 is 1 at `j` when every operand element that reduces into
    `j` is 1. -/
theorem reduce_andi_of_all_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  refine foldl_andi_of_all_one x _ fun i hi => ?_
  rw [List.mem_filter] at hi
  exact hx i (by simpa using hi.2)

end Cert.TakeCol

end
-- ==== Proof.RefValTake.lean ====
/-
  The reference's row lookup read at an index, under the precondition's index range. `jnp.take` wraps a negative
  index by the number of rows, masks the wrapped index against [0, 999999], gathers the row (the gather clamps its
  start into the table), and fills masked rows with a fill word. For an index word in [0, 999999] signed: it is not
  negative, so the wrap is the identity; the mask holds; the clamp is the identity; and the gathered row is the row
  the word names unsigned. So the lookup is the specification's `emb`.
-/
import proofs.«203152_g22136261444366_cont_8to1_1253_39_alg».proof.Proof.RefRun
import proofs.«203152_g22136261444366_cont_8to1_1253_39_alg».proof.Proof.Spec
import proofs.«203152_g22136261444366_cont_8to1_1253_39_alg».proof.Proof.LibTakeCol
import proofs.«203152_g22136261444366_cont_8to1_1253_39_alg».proof.Proof.PreRanges
import Idealize.ShloMosaic.Lib.Pipeline.Value
import Idealize.ShloMosaic.Lib.ValueIdx
import Idealize.ShloMosaic.Lib.Affine

noncomputable section

open scoped BigOperators

namespace Cert.RefValue

open Cert.ReferenceIdeal Cert.ReferenceIdeal.Gen Cert.RefRun Idealize.ShloMosaic Idealize.ShloMosaic.ValueIdx

/-- The signed values of the three integer literals of the lookup. -/
theorem toInt_lit0 : (0#32 : BitVec 32).toInt = 0 := by decide
theorem toInt_lit999999 : (999999#32 : BitVec 32).toInt = 999999 := by decide

/-- The index column at row `r`: the index word itself (it is not negative, so it is not wrapped). -/
theorem takeIdx_apply (ids : IVec S16384 32) (hr : ∀ i, 0 ≤ (ids i).toInt ∧ (ids i).toInt ≤ 999999)
    (r : Fin 16384) (u : Fin 1) : takeIdx ids (ix2 r u) = ids (ix1 r) := by
  refine (broadcastInDim_apply _ bcast_S16384_S16384x1_0 _ (ix2 r u) (ix1 r) (fun a => match a with | ⟨0, _⟩ => rfl)).trans ?_
  show Scalar.select (IntOp.cmpi .slt (ids (ix1 r)) 0#32) (IntOp.addi (ids (ix1 r)) 1000000#32) (ids (ix1 r)) = _
  have h0 : IntOp.cmpi .slt (ids (ix1 r)) 0#32 = 0#1 := eq_zero_of_ne_one fun h => by
    have h1 := IntOp.cmpi_slt.1 h
    rw [toInt_lit0] at h1
    have := (hr (ix1 r)).1
    omega
  rw [h0, select_zero]

/-- The range mask at row `r` holds. -/
theorem takeMask_apply (ids : IVec S16384 32) (hr : ∀ i, 0 ≤ (ids i).toInt ∧ (ids i).toInt ≤ 999999)
    (r : Fin 16384) : takeMask ids (ix1 r) = 1#1 := by
  refine Cert.TakeCol.reduce_andi_of_all_one _ _ _ _ _ rfl fun i _ => ?_
  obtain ⟨r', u, rfl⟩ : ∃ (r' : Fin 16384) (u : Fin 1), i = ix2 r' u := ⟨i 0, i 1, eq_ix2 i⟩
  show IntOp.andi (IntOp.cmpi .sge (takeIdx ids (ix2 r' u)) 0#32) (IntOp.cmpi .sle (takeIdx ids (ix2 r' u)) 999999#32) = 1#1
  rw [takeIdx_apply ids hr]
  exact IntOp.andi_eq_one.2 ⟨IntOp.cmpi_sge.2 (by rw [toInt_lit0]; exact (hr _).1),
    IntOp.cmpi_sle.2 (by rw [toInt_lit999999]; exact (hr _).2)⟩

/-- THE LOOKUP IS THE SPECIFICATION'S EMBEDDING, for index words in [0, 999999]. -/
theorem take_eq (ids : IVec S16384 32) (tbl : FVec Ideal S1000000x64 .f32)
    (hr : ∀ i, 0 ≤ (ids i).toInt ∧ (ids i).toInt ≤ 999999) : take (F := Ideal) ids tbl = Cert.Spec.emb tbl ids := by
  funext i
  obtain ⟨r, d, rfl⟩ : ∃ (r : Fin 16384) (d : Fin 64), i = ix2 r d := ⟨i 0, i 1, eq_ix2 i⟩
  show Scalar.select (broadcastInDim S16384x64 ![0] bcast_S16384_S16384x64_0 (takeMask ids) (ix2 r d))
    (takeRows (F := Ideal) ids tbl (ix2 r d)) (Ideal.ofBits .f32 0x7FC00000#32) = _
  rw [broadcastInDim_apply _ bcast_S16384_S16384x64_0 (takeMask ids) (ix2 r d) (ix1 r) (fun a => match a with | ⟨0, _⟩ => rfl),
    takeMask_apply ids hr, select_one]
  show Host.gather (Cert.TakeCol.colDims 1000000 16384 64 gather_S1000000x64_S16384x1_S16384x64_1_0_n_n_0_1_164_wf) tbl
    (takeIdx ids) (ix2 r d) = _
  rw [Cert.TakeCol.gather_col_apply (by decide), Cert.Spec.emb_ix2]
  unfold Cert.Spec.embAt
  refine congrArg tbl ?_
  refine congrArg (fun q : Fin 1000000 => ix2 q d) (Fin.ext ?_)
  show min (takeIdx ids (ix2 r (0 : Fin 1))).toInt.toNat (1000000 - 1) = (ids (ix1 r)).toNat % 1000000
  rw [takeIdx_apply ids hr]
  have hv := Cert.PreRanges.toInt_eq_toNat_of_range (hr (ix1 r))
  have hlt := Cert.PreRanges.toNat_lt_of_range (hr (ix1 r))
  rw [hv]
  omega

end Cert.RefValue

end
-- ==== Proof.RefValue.lean ====
/-
  The reference's two results are the specification's, at the extended reals and under the precondition's index
  ranges. Read at an index, stage by stage: the concatenation reads the embedding whose column range holds the
  column; a matrix product is zero plus the sum over the 192 contracted columns of the products (the transposed
  clipped weight read at its mirrored entry); the bias is a vector broadcast along the rows; the sigmoid is one over
  one plus the exponential of the negation, element by element; the norm of an embedding is the square root of zero
  plus the sum of the squares of all its elements; the regulariser is the weight times the sum of the three norms.
-/
import proofs.«203152_g22136261444366_cont_8to1_1253_39_alg».proof.Proof.RefRun
import proofs.«203152_g22136261444366_cont_8to1_1253_39_alg».proof.Proof.Spec
import proofs.«203152_g22136261444366_cont_8to1_1253_39_alg».proof.Proof.RefValClip
import proofs.«203152_g22136261444366_cont_8to1_1253_39_alg».proof.Proof.RefValTake
import proofs.«203152_g22136261444366_cont_8to1_1253_39_alg».proof.Proof.LibPlainDot
import Idealize.ShloMosaic.PureOps.Ideal.Laws
import Idealize.ShloMosaic.Lib.Pipeline.Value
import Idealize.ShloMosaic.Lib.ValueLayout
import Idealize.ShloMosaic.Lib.ValueIdx

noncomputable section

open scoped BigOperators

namespace Cert.RefValue

open Cert.ReferenceIdeal Cert.ReferenceIdeal.Gen Cert.RefRun Idealize.ShloMosaic Idealize.ShloMosaic.ValueIdx

/-- The three embeddings side by side, at row `r` and column `c`. -/
theorem xCat_apply (a0 a1 a2 : IVec S16384 32) (a3 a4 a5 : FVec Ideal S1000000x64 .f32) (h0 : ∀ i, 0 ≤ (a0 i).toInt ∧ (a0 i).toInt ≤ 999999) (h1 : ∀ i, 0 ≤ (a1 i).toInt ∧ (a1 i).toInt ≤ 999999) (h2 : ∀ i, 0 ≤ (a2 i).toInt ∧ (a2 i).toInt ≤ 999999) (r : Fin 16384) (c : Fin 192) :
    xCat (F := Ideal) a0 a1 a2 a3 a4 a5 (ix2 r c) = Cert.Spec.xAt a3 a4 a5 a0 a1 a2 r c := by
  unfold xCat Cert.Spec.xAt
  rw [take_eq a0 a3 h0, take_eq a1 a4 h1, take_eq a2 a5 h2]
  by_cases hc : c.val < 64
  · rw [dif_pos hc]
    exact concatenate_apply_piece (t := S16384x192) (1 : Fin 2) ([⟨S16384x64, Cert.Spec.emb a3 a0⟩, ⟨S16384x64, Cert.Spec.emb a4 a1⟩, ⟨S16384x64, Cert.Spec.emb a5 a2⟩] : List ((s : Shape) × (s.Idx → EReal))) concatenates_S16384x64_S16384x64_S16384x64_S16384x192_d1 (ix2 r c) 0 (by show 0 < 3; omega) S16384x64 _ rfl rfl 0 rfl
      (ix2 r ⟨c.val, hc⟩) (fun b hb => match b, hb with | ⟨0, _⟩, _ => rfl | ⟨1, _⟩, hb => absurd rfl hb)
      (Nat.zero_add _)
  · rw [dif_neg hc]
    by_cases hc2 : c.val < 128
    · rw [dif_pos hc2]
      exact concatenate_apply_piece (t := S16384x192) (1 : Fin 2) ([⟨S16384x64, Cert.Spec.emb a3 a0⟩, ⟨S16384x64, Cert.Spec.emb a4 a1⟩, ⟨S16384x64, Cert.Spec.emb a5 a2⟩] : List ((s : Shape) × (s.Idx → EReal))) concatenates_S16384x64_S16384x64_S16384x64_S16384x192_d1 (ix2 r c) 1 (by show 1 < 3; omega) S16384x64 _ rfl rfl 64 rfl
        (ix2 r ⟨c.val - 64, by omega⟩) (fun b hb => match b, hb with | ⟨0, _⟩, _ => rfl | ⟨1, _⟩, hb => absurd rfl hb)
        (by show 64 + (c.val - 64) = c.val; omega)
    · rw [dif_neg hc2]
      exact concatenate_apply_piece (t := S16384x192) (1 : Fin 2) ([⟨S16384x64, Cert.Spec.emb a3 a0⟩, ⟨S16384x64, Cert.Spec.emb a4 a1⟩, ⟨S16384x64, Cert.Spec.emb a5 a2⟩] : List ((s : Shape) × (s.Idx → EReal))) concatenates_S16384x64_S16384x64_S16384x64_S16384x192_d1 (ix2 r c) 2 (by show 2 < 3; omega) S16384x64 _ rfl rfl 128 rfl
        (ix2 r ⟨c.val - 128, by have := c.isLt; omega⟩) (fun b hb => match b, hb with | ⟨0, _⟩, _ => rfl | ⟨1, _⟩, hb => absurd rfl hb)
        (by show 128 + (c.val - 128) = c.val; omega)

/-- The first matrix product at (r, j): zero plus the sum over the 192 contracted columns. -/
theorem dot1_apply (x : FVec Ideal S16384x192 .f32) (Wt : FVec Ideal S192x192 .f32) (r : Fin 16384) (j : Fin 192) :
    Host.dotGeneral (F := Ideal) dot_S16384x192_S192x192_S16384x192_1_0_0_1_n_n none x Wt (ix2 r j) = 0 + ∑ k : Fin 192, x (ix2 r k) * Wt (ix2 k j) := by
  show (0 : EReal) + ∑ k : (dot_S16384x192_S192x192_S16384x192_1_0_0_1_n_n).contr.Idx, x ((dot_S16384x192_S192x192_S16384x192_1_0_0_1_n_n).lhsIdx (ix2 r j) k) * Wt ((dot_S16384x192_S192x192_S16384x192_1_0_0_1_n_n).rhsIdx (ix2 r j) k) = _
  rw [Idealize.ShloMosaic.PlainDot.contraction_eq_sum dot_S16384x192_S192x192_S16384x192_1_0_0_1_n_n rfl rfl (fun _ _ => rfl) (fun _ _ => rfl) (fun _ _ => rfl)
    (fun _ _ => rfl)]

/-- The second matrix product at (r, u): zero plus the sum over the 192 contracted columns. -/
theorem dot2_apply (x : FVec Ideal S16384x192 .f32) (Wt : FVec Ideal S192x1 .f32) (r : Fin 16384) (u : Fin 1) :
    Host.dotGeneral (F := Ideal) dot_S16384x192_S192x1_S16384x1_1_0_0_1_n_n none x Wt (ix2 r u) = 0 + ∑ k : Fin 192, x (ix2 r k) * Wt (ix2 k u) := by
  show (0 : EReal) + ∑ k : (dot_S16384x192_S192x1_S16384x1_1_0_0_1_n_n).contr.Idx, x ((dot_S16384x192_S192x1_S16384x1_1_0_0_1_n_n).lhsIdx (ix2 r u) k) * Wt ((dot_S16384x192_S192x1_S16384x1_1_0_0_1_n_n).rhsIdx (ix2 r u) k) = _
  rw [Idealize.ShloMosaic.PlainDot.contraction_eq_sum dot_S16384x192_S192x1_S16384x1_1_0_0_1_n_n rfl rfl (fun _ _ => rfl) (fun _ _ => rfl) (fun _ _ => rfl)
    (fun _ _ => rfl)]

/-- The hidden layer before the sigmoid at (r, j). -/
theorem pre_apply (a0 a1 a2 : IVec S16384 32) (a3 a4 a5 : FVec Ideal S1000000x64 .f32) (a6 : FVec Ideal S192x192 .f32) (a7 : FVec Ideal S192 .f32) (h0 : ∀ i, 0 ≤ (a0 i).toInt ∧ (a0 i).toInt ≤ 999999) (h1 : ∀ i, 0 ≤ (a1 i).toInt ∧ (a1 i).toInt ≤ 999999) (h2 : ∀ i, 0 ≤ (a2 i).toInt ∧ (a2 i).toInt ≤ 999999)
    (r : Fin 16384) (j : Fin 192) :
    pre (F := Ideal) a0 a1 a2 a3 a4 a5 a6 a7 (ix2 r j) = Cert.Spec.preAt a3 a4 a5 a0 a1 a2 a6 a7 r j := by
  unfold pre
  rw [addf_apply]
  unfold Cert.Spec.preAt
  refine congrArg₂ (· + ·) ?_ ?_
  · unfold prod1
    rw [dot1_apply]
    refine congrArg (0 + ·) (Finset.sum_congr rfl fun k _ => ?_)
    rw [xCat_apply a0 a1 a2 a3 a4 a5 h0 h1 h2, transpose_ix2_apply, clipW1_apply]
  · refine (broadcastInDim_apply _ bcast_S1x192_S16384x192_0_1 _ (ix2 r j) (ix2 (0 : Fin 1) j)
      (fun a => match a with | ⟨0, _⟩ => rfl | ⟨1, _⟩ => rfl)).trans ?_
    exact broadcastInDim_apply _ bcast_S192_S1x192_1 a7 (ix2 (0 : Fin 1) j) (ix1 j) (fun a => match a with | ⟨0, _⟩ => rfl)

/-- The sigmoid stage at an element, for any array before it: one over one plus the exponential of the negation. -/
theorem sigm_apply (p : FVec Ideal S16384x192 .f32) (i : S16384x192.Idx) :
    Host.divf (F := Ideal) (broadcastInDim S16384x192 ![] bcast_S_S16384x192 (constant S_ .f32 0x3F800000#32))
      (addf (broadcastInDim S16384x192 ![] bcast_S_S16384x192 (constant S_ .f32 0x3F800000#32)) (Host.exp (Host.negf p))) i
      = Cert.Spec.sigm (p i) := rfl

/-- The hidden layer at (r, j). -/
theorem hid_apply (a0 a1 a2 : IVec S16384 32) (a3 a4 a5 : FVec Ideal S1000000x64 .f32) (a6 : FVec Ideal S192x192 .f32) (a7 : FVec Ideal S192 .f32) (h0 : ∀ i, 0 ≤ (a0 i).toInt ∧ (a0 i).toInt ≤ 999999) (h1 : ∀ i, 0 ≤ (a1 i).toInt ∧ (a1 i).toInt ≤ 999999) (h2 : ∀ i, 0 ≤ (a2 i).toInt ∧ (a2 i).toInt ≤ 999999)
    (r : Fin 16384) (j : Fin 192) :
    hid (F := Ideal) a0 a1 a2 a3 a4 a5 a6 a7 (ix2 r j) = Cert.Spec.hidAt a3 a4 a5 a0 a1 a2 a6 a7 r j := by
  unfold hid Cert.Spec.hidAt
  rw [sigm_apply, pre_apply a0 a1 a2 a3 a4 a5 a6 a7 h0 h1 h2]

/-- The specification's first result at (r, u) is its value at row `r`. -/
theorem inf_ix2 (a0 a1 a2 : IVec S16384 32) (a3 a4 a5 : FVec Ideal S1000000x64 .f32) (a6 : FVec Ideal S192x192 .f32)
    (a7 : FVec Ideal S192 .f32) (a8 : FVec Ideal S1x192 .f32) (a9 : FVec Ideal S1 .f32) (r : Fin 16384) (u : Fin 1) :
    Cert.Spec.inf a0 a1 a2 a3 a4 a5 a6 a7 a8 a9 (ix2 r u) = Cert.Spec.infAt a3 a4 a5 a0 a1 a2 a6 a7 a8 a9 r := rfl

/-- THE FIRST RESULT: the reference's composed term is the specification's. -/
theorem infTerm_eq (a0 a1 a2 : IVec S16384 32) (a3 a4 a5 : FVec Ideal S1000000x64 .f32) (a6 : FVec Ideal S192x192 .f32) (a7 : FVec Ideal S192 .f32) (a8 : FVec Ideal S1x192 .f32)
    (a9 : FVec Ideal S1 .f32) (h0 : ∀ i, 0 ≤ (a0 i).toInt ∧ (a0 i).toInt ≤ 999999) (h1 : ∀ i, 0 ≤ (a1 i).toInt ∧ (a1 i).toInt ≤ 999999) (h2 : ∀ i, 0 ≤ (a2 i).toInt ∧ (a2 i).toInt ≤ 999999) :
    infTerm (F := Ideal) a0 a1 a2 a3 a4 a5 a6 a7 a8 a9 = Cert.Spec.inf a0 a1 a2 a3 a4 a5 a6 a7 a8 a9 := by
  funext i
  obtain ⟨r, u, rfl⟩ : ∃ (r : Fin 16384) (u : Fin 1), i = ix2 r u := ⟨i 0, i 1, eq_ix2 i⟩
  unfold infTerm
  rw [addf_apply, inf_ix2]
  unfold Cert.Spec.infAt
  refine congrArg₂ (· + ·) ?_ ?_
  · unfold prod2
    rw [dot2_apply]
    refine congrArg (0 + ·) (Finset.sum_congr rfl fun k _ => ?_)
    rw [hid_apply a0 a1 a2 a3 a4 a5 a6 a7 h0 h1 h2, transpose_ix2_apply, clipW2_apply]
  · refine (broadcastInDim_apply _ bcast_S1x1_S16384x1_0_1 _ (ix2 r u) (ix2 (0 : Fin 1) (0 : Fin 1))
      (fun a => match a with | ⟨0, _⟩ => rfl | ⟨1, _⟩ => rfl)).trans ?_
    exact broadcastInDim_apply _ bcast_S1_S1x1_1 a9 (ix2 (0 : Fin 1) (0 : Fin 1)) (ix1 (0 : Fin 1)) (fun a => match a with | ⟨0, _⟩ => rfl)

/-- The host's square root at an element. -/
theorem hostSqrt_apply (X : FVec Ideal S_ .f32) (i : S_.Idx) : Host.sqrt (F := Ideal) X i = Ideal.sqrt (X i) := rfl

/-- The host's sum of squares over a whole embedding, at the exact instance. -/
theorem hostReduceAdd_all_apply (E : FVec Ideal S16384x64 .f32) (i : S_.Idx) :
    Host.reduceAdd (F := Ideal) (mulf E E) (constant S_ .f32 0x00000000#32) reducesTo_S16384x64_S_d0_1 h_S_ i
      = Ideal.hostReduceAdd reducesTo_S16384x64_S_d0_1 (mulf E E) (Ideal.ofBits .f32 0x00000000#32) i := rfl

/-- The norm of a whole embedding. -/
theorem frob_apply (E : FVec Ideal S16384x64 .f32) (i : S_.Idx) :
    frob (F := Ideal) E i = Ideal.sqrt (Cert.Spec.sumSq E) := by
  unfold frob
  rw [hostSqrt_apply, hostReduceAdd_all_apply, Ideal.hostReduceAdd_total _ (fun b => b.elim0), Ideal.ofBits_zero_f32]
  rfl

/-- The specification's second result at its one index is the regulariser's value. -/
theorem regs_apply (a0 a1 a2 : IVec S16384 32) (a3 a4 a5 : FVec Ideal S1000000x64 .f32) (a6 : FVec Ideal S192x192 .f32)
    (a7 : FVec Ideal S192 .f32) (a8 : FVec Ideal S1x192 .f32) (a9 : FVec Ideal S1 .f32) (i : S_.Idx) :
    Cert.Spec.regs a0 a1 a2 a3 a4 a5 a6 a7 a8 a9 i = Cert.Spec.regsVal a0 a1 a2 a3 a4 a5 := rfl

/-- THE SECOND RESULT: the reference's composed term is the specification's. -/
theorem regsTerm_eq (a0 a1 a2 : IVec S16384 32) (a3 a4 a5 : FVec Ideal S1000000x64 .f32) (a6 : FVec Ideal S192x192 .f32) (a7 : FVec Ideal S192 .f32) (a8 : FVec Ideal S1x192 .f32)
    (a9 : FVec Ideal S1 .f32) (h0 : ∀ i, 0 ≤ (a0 i).toInt ∧ (a0 i).toInt ≤ 999999) (h1 : ∀ i, 0 ≤ (a1 i).toInt ∧ (a1 i).toInt ≤ 999999) (h2 : ∀ i, 0 ≤ (a2 i).toInt ∧ (a2 i).toInt ≤ 999999) :
    regsTerm (F := Ideal) a0 a1 a2 a3 a4 a5 = Cert.Spec.regs a0 a1 a2 a3 a4 a5 a6 a7 a8 a9 := by
  funext i
  unfold regsTerm
  rw [mulf_apply, addf_apply, addf_apply, frob_apply, frob_apply, frob_apply, take_eq a0 a3 h0, take_eq a1 a4 h1,
    take_eq a2 a5 h2, regs_apply]
  unfold Cert.Spec.regsVal
  rw [constant_apply]

end Cert.RefValue

end
-- ==== Proof.RefClaims.lean ====
/-
  The reference's side of the certificate: under the precondition, every weakly fair execution of the idealized
  reference ends with its two results at the specification's functions of the ten argument arrays and the arguments
  unchanged (the run, with its composed terms read at the extended reals under the index ranges the precondition
  states); dropping the values leaves the reference's frame.
-/
import proofs.«203152_g22136261444366_cont_8to1_1253_39_alg».proof.Defs
import proofs.«203152_g22136261444366_cont_8to1_1253_39_alg».proof.Proof.Gen.ReferenceIdeal
import proofs.«203152_g22136261444366_cont_8to1_1253_39_alg».proof.Proof.Gen.Pre_input_domain
import proofs.«203152_g22136261444366_cont_8to1_1253_39_alg».proof.Proof.Spec
import proofs.«203152_g22136261444366_cont_8to1_1253_39_alg».proof.Proof.PreRanges
import proofs.«203152_g22136261444366_cont_8to1_1253_39_alg».proof.Proof.RefRunOut
import proofs.«203152_g22136261444366_cont_8to1_1253_39_alg».proof.Proof.RefValue

noncomputable section

namespace Cert.RefClaims

open Idealize.ShloMosaic Idealize.ShloMosaic.TcCoe Idealize.SL.Sem

/-- THE REFERENCE'S RUN AT THE SPECIFICATION: under the precondition, the two results are `Spec.inf` and `Spec.regs` of
    the ten arguments, and the arguments are unchanged. -/
theorem ref_run_spec (m : (ℓ : Loc Cert.ReferenceIdeal.nD Cert.ReferenceIdeal.τ Cert.ReferenceIdeal.sig) → Buf (Elt Ideal) ℓ) (ρ : Dev Cert.ReferenceIdeal.nD → PrngReg)
    (hpre : Cert.Pre_ReferenceIdeal (hPre_input_domain := Cert.Pre_input_domain.Gen.facts) m) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v29) = Cert.Spec.inf (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_v35) = Cert.Spec.regs (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) :=
  (θ_run (Cert.ReferenceIdeal.defs (F := Ideal)) _ _).mono (fun r h c => by
      obtain ⟨h29, h35, hargs⟩ := h c
      have hr := Cert.PreRanges.ranges (F := Ideal) _ _ _ _ _ _ _ _ _ _ (hpre c)
      exact ⟨h29.trans (Cert.RefValue.infTerm_eq _ _ _ _ _ _ _ _ _ _ hr.1 hr.2.1 hr.2.2),
        h35.trans (Cert.RefValue.regsTerm_eq _ _ _ _ _ _ _ _ _ _ hr.1 hr.2.1 hr.2.2), hargs⟩)
    (Cert.RefRun.run (F := Ideal) m ρ)

/-- The reference's frame: it runs, and its arguments end unchanged. -/
theorem frame_ri : Cert.frame_ReferenceIdeal (hReferenceIdeal := Cert.ReferenceIdeal.Gen.facts)
    (hPre_input_domain := Cert.Pre_input_domain.Gen.facts) :=
  fun m g hpre => (θ_run (Cert.ReferenceIdeal.defs (F := Ideal)) _ _).mono (fun r h c => (h c).2.2) (ref_run_spec m g hpre)

end Cert.RefClaims

end
-- ==== Proof.lean ====
/-
  The five claims. The gather kernel on the SparseCores copies, for each of the three tables, the rows its index
  words name: word v of an index array names row v of the table, read as row (v >>> 3, v &&& 7) of the table viewed
  [125000, 8, 64] — the same row for 0 ≤ v ≤ 999999. The dense layer on the TensorCore computes, block of 4096
  rows by block, sigmoid(x · W1cᵀ + b1) · W2cᵀ + b2 with the weight rows divided by max(norm, 1), and accumulates
  the three sums of squares over the four blocks; the regulariser is 0.01 · (√sp + √sq + √sr). The reference
  computes the same sums in one piece: at the ideal instance the two agree by commutativity and associativity of
  the extended reals' addition alone, so the precondition is used only for the index ranges. Each kernel frame is
  the run with the values dropped; the reference's frame its own run.
-/
import proofs.«203152_g22136261444366_cont_8to1_1253_39_alg».proof.Defs
import proofs.«203152_g22136261444366_cont_8to1_1253_39_alg».proof.Proof.Gen.Kernel
import proofs.«203152_g22136261444366_cont_8to1_1253_39_alg».proof.Proof.Gen.KernelIdeal
import proofs.«203152_g22136261444366_cont_8to1_1253_39_alg».proof.Proof.Gen.ReferenceIdeal
import proofs.«203152_g22136261444366_cont_8to1_1253_39_alg».proof.Proof.Gen.Pre_input_domain
import proofs.«203152_g22136261444366_cont_8to1_1253_39_alg».proof.Proof.KRun
import proofs.«203152_g22136261444366_cont_8to1_1253_39_alg».proof.Proof.BKRun
import proofs.«203152_g22136261444366_cont_8to1_1253_39_alg».proof.Proof.KClaimFrame
import proofs.«203152_g22136261444366_cont_8to1_1253_39_alg».proof.Proof.BKClaimFrame
import proofs.«203152_g22136261444366_cont_8to1_1253_39_alg».proof.Proof.KClaimAlg
import proofs.«203152_g22136261444366_cont_8to1_1253_39_alg».proof.Proof.RefClaims

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_input_domain.Gen.facts,
  Cert.Proof.KB.frame_ki (fun m ρ hok => Cert.Proof.KB.run_main m ρ hok),
  Cert.Proof.KI.frame_ki (fun m ρ hok => Cert.Proof.KI.run_main m ρ hok),
  Cert.RefClaims.frame_ri,
  trivial,
  Cert.Proof.KI.algebraic (fun m ρ hok => Cert.Proof.KI.run_main m ρ hok) Cert.RefClaims.ref_run_spec⟩

end Cert.Proof

end
